-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v445)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v445) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v452) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x78 : Shape := ⟨2, ![65536, 78]⟩
abbrev S300000x33 : Shape := ⟨2, ![300000, 33]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x128 : Shape := ⟨2, ![312, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S33x128 : Shape := ⟨2, ![33, 128]⟩
abbrev S128x128 : Shape := ⟨2, ![128, 128]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2x131072 : Shape := ⟨2, ![2, 131072]⟩
abbrev S65536 : Shape := ⟨1, ![65536]⟩
abbrev S2x1200000 : Shape := ⟨2, ![2, 1200000]⟩
abbrev S300000 : Shape := ⟨1, ![300000]⟩
abbrev S2x64000 : Shape := ⟨2, ![2, 64000]⟩
abbrev S2048 : Shape := ⟨1, ![2048]⟩
abbrev S_ : Shape := ⟨0, ![]⟩

class Facts : Prop where
  bcast_S_S65536x78 : S_.BroadcastsInDim S65536x78 (![] : Fin 0 → Fin S65536x78.rank)
  reducesTo_S65536x78_S_d0_1 : S65536x78.ReducesTo [0, 1] S_
  h_S_ : 0 < S_.numel
  bcast_S_S300000x33 : S_.BroadcastsInDim S300000x33 (![] : Fin 0 → Fin S300000x33.rank)
  reducesTo_S300000x33_S_d0_1 : S300000x33.ReducesTo [0, 1] S_
  bcast_S_S78x156 : S_.BroadcastsInDim S78x156 (![] : Fin 0 → Fin S78x156.rank)
  reducesTo_S78x156_S_d0_1 : S78x156.ReducesTo [0, 1] S_
  bcast_S_S156 : S_.BroadcastsInDim S156 (![] : Fin 0 → Fin S156.rank)
  reducesTo_S156_S_d0 : S156.ReducesTo [0] S_
  bcast_S_S156x312 : S_.BroadcastsInDim S156x312 (![] : Fin 0 → Fin S156x312.rank)
  reducesTo_S156x312_S_d0_1 : S156x312.ReducesTo [0, 1] S_
  bcast_S_S312 : S_.BroadcastsInDim S312 (![] : Fin 0 → Fin S312.rank)
  reducesTo_S312_S_d0 : S312.ReducesTo [0] S_
  bcast_S_S312x128 : S_.BroadcastsInDim S312x128 (![] : Fin 0 → Fin S312x128.rank)
  reducesTo_S312x128_S_d0_1 : S312x128.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S33x128 : S_.BroadcastsInDim S33x128 (![] : Fin 0 → Fin S33x128.rank)
  reducesTo_S33x128_S_d0_1 : S33x128.ReducesTo [0, 1] S_
  bcast_S_S128x128 : S_.BroadcastsInDim S128x128 (![] : Fin 0 → Fin S128x128.rank)
  reducesTo_S128x128_S_d0_1 : S128x128.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg35 : FVec F S1 .f32) (main_v168 : IVec S_ 1) (main_v169 : FVec F S512x1 .f32) (main_v170 : FVec F S512x1 .f32) : IVec S_ 1 :=
  let main_v171 : IVec S512x1 1 := cmpf .olt main_v169 main_v170
  let main_c_67 : IVec S_ 1 := constantI S_ 1 1#1
  let main_v172 : IVec S_ 1 := (fun x v => Host.reduce IntOp.andi x v reducesTo_S512x1_S_d0_1 h_S_) main_v171 main_c_67
  let main_v173 : IVec S_ 1 := andi main_v168 main_v172
  let main_v174 : FVec F S1 .f32 := Host.absf main_arg35
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  main_v178

def fn_part9 {F : FTy → Type} [FloatOps F] (main_arg31 : FVec F S1024 .f32) (main_arg32 : FVec F S1024x512 .f32) (main_arg33 : FVec F S512 .f32) (main_arg34 : FVec F S512x1 .f32) (main_arg35 : FVec F S1 .f32) (main_v153 : IVec S_ 1) : IVec S_ 1 :=
  let main_v154 : FVec F S1024 .f32 := Host.absf main_arg31
  let main_cst_60 : FVec F S_ .f32 := constant S_ .f32 0x7F800000#32
  let main_v155 : FVec F S1024 .f32 := broadcastInDim S1024 ![] bcast_S_S1024 main_cst_60
  let main_v156 : IVec S1024 1 := cmpf .olt main_v154 main_v155
  let main_c_61 : IVec S_ 1 := constantI S_ 1 1#1
  let main_v157 : IVec S_ 1 := (fun x v => Host.reduce IntOp.andi x v reducesTo_S1024_S_d0 h_S_) main_v156 main_c_61
  let main_v158 : IVec S_ 1 := andi main_v153 main_v157
  let main_v159 : FVec F S1024x512 .f32 := Host.absf main_arg32
  let main_cst_62 : FVec F S_ .f32 := constant S_ .f32 0x7F800000#32
  let main_v160 : FVec F S1024x512 .f32 := broadcastInDim S1024x512 ![] bcast_S_S1024x512 main_cst_62
  let main_v161 : IVec S1024x512 1 := cmpf .olt main_v159 main_v160
  let main_c_63 : IVec S_ 1 := constantI S_ 1 1#1
  let main_v162 : IVec S_ 1 := (fun x v => Host.reduce IntOp.andi x v reducesTo_S1024x512_S_d0_1 h_S_) main_v161 main_c_63
  let main_v163 : IVec S_ 1 := andi main_v158 main_v162
  let main_v164 : FVec F S512 .f32 := Host.absf main_arg33
  let main_cst_64 : FVec F S_ .f32 := constant S_ .f32 0x7F800000#32
  let main_v165 : FVec F S512 .f32 := broadcastInDim S512 ![] bcast_S_S512 main_cst_64
  let main_v166 : IVec S512 1 := cmpf .olt main_v164 main_v165
  let main_c_65 : IVec S_ 1 := constantI S_ 1 1#1
  let main_v167 : IVec S_ 1 := (fun x v => Host.reduce IntOp.andi x v reducesTo_S512_S_d0 h_S_) main_v166 main_c_65
  let main_v168 : IVec S_ 1 := andi main_v163 main_v167
  let main_v169 : FVec F S512x1 .f32 := Host.absf main_arg34
  let main_cst_66 : FVec F S_ .f32 := constant S_ .f32 0x7F800000#32
  let main_v170 : FVec F S512x1 .f32 := broadcastInDim S512x1 ![] bcast_S_S512x1 main_cst_66
  fn_part10 (F := F) main_arg35 main_v168 main_v169 main_v170

def fn_part8 {F : FTy → Type} [FloatOps F] (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v133 : IVec S_ 1) (main_v136 : IVec S1024 1) : IVec S_ 1 :=
  let main_c_53 : IVec S_ 1 := constantI S_ 1 1#1
  let main_v137 : IVec S_ 1 := (fun x v => Host.reduce IntOp.andi x v reducesTo_S1024_S_d0 h_S_) main_v136 main_c_53
  let main_v138 : IVec S_ 1 := andi main_v133 main_v137
  let main_v139 : FVec F S1024x128 .f32 := Host.absf main_arg28
  let main_cst_54 : FVec F S_ .f32 := constant S_ .f32 0x7F800000#32
  let main_v140 : FVec F S1024x128 .f32 := broadcastInDim S1024x128 ![] bcast_S_S1024x128 main_cst_54
  let main_v141 : IVec S1024x128 1 := cmpf .olt main_v139 main_v140
  let main_c_55 : IVec S_ 1 := constantI S_ 1 1#1
  let main_v142 : IVec S_ 1 := (fun x v => Host.reduce IntOp.andi x v reducesTo_S1024x128_S_d0_1 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S256x1024 .f32 := Host.absf main_arg30
  let main_cst_58 : FVec F S_ .f32 := constant S_ .f32 0x7F800000#32
  let main_v150 : FVec F S256x1024 .f32 := broadcastInDim S256x1024 ![] bcast_S_S256x1024 main_cst_58
  let main_v151 : IVec S256x1024 1 := cmpf .olt main_v149 main_v150
  let main_c_59 : IVec S_ 1 := constantI S_ 1 1#1
  let main_v152 : IVec S_ 1 := (fun x v => Host.reduce IntOp.andi x v reducesTo_S256x1024_S_d0_1 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v118 : IVec S_ 1) (main_v119 : FVec F S1024x128 .f32) : IVec S_ 1 :=
  let main_cst_46 : FVec F S_ .f32 := constant S_ .f32 0x7F800000#32
  let main_v120 : FVec F S1024x128 .f32 := broadcastInDim S1024x128 ![] bcast_S_S1024x128 main_cst_46
  let main_v121 : IVec S1024x128 1 := cmpf .olt main_v119 main_v120
  let main_c_47 : IVec S_ 1 := constantI S_ 1 1#1
  let main_v122 : IVec S_ 1 := (fun x v => Host.reduce IntOp.andi x v reducesTo_S1024x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x1024 .f32 := Host.absf main_arg26
  let main_cst_50 : FVec F S_ .f32 := constant S_ .f32 0x7F800000#32
  let main_v130 : FVec F S128x1024 .f32 := broadcastInDim S128x1024 ![] bcast_S_S128x1024 main_cst_50
  let main_v131 : IVec S128x1024 1 := cmpf .olt main_v129 main_v130
  let main_c_51 : IVec S_ 1 := constantI S_ 1 1#1
  let main_v132 : IVec S_ 1 := (fun x v => Host.reduce IntOp.andi x v reducesTo_S128x1024_S_d0_1 h_S_) main_v131 main_c_51
  let main_v133 : IVec S_ 1 := andi main_v128 main_v132
  let main_v134 : FVec F S1024 .f32 := Host.absf main_arg27
  let main_cst_52 : FVec F S_ .f32 := constant S_ .f32 0x7F800000#32
  let main_v135 : FVec F S1024 .f32 := broadcastInDim S1024 ![] bcast_S_S1024 main_cst_52
  let main_v136 : IVec S1024 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v98 : IVec S_ 1) (main_v101 : IVec S1024x128 1) (main_c_39 : IVec S_ 1) : IVec S_ 1 :=
  let main_v102 : IVec S_ 1 := (fun x v => Host.reduce IntOp.andi x v reducesTo_S1024x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1024 .f32 := Host.absf main_arg22
  let main_cst_42 : FVec F S_ .f32 := constant S_ .f32 0x7F800000#32
  let main_v110 : FVec F S128x1024 .f32 := broadcastInDim S128x1024 ![] bcast_S_S128x1024 main_cst_42
  let main_v111 : IVec S128x1024 1 := cmpf .olt main_v109 main_v110
  let main_c_43 : IVec S_ 1 := constantI S_ 1 1#1
  let main_v112 : IVec S_ 1 := (fun x v => Host.reduce IntOp.andi x v reducesTo_S128x1024_S_d0_1 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024x128 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1024 .f32 := Host.absf main_arg18
  let main_cst_34 : FVec F S_ .f32 := constant S_ .f32 0x7F800000#32
  let main_v90 : FVec F S128x1024 .f32 := broadcastInDim S128x1024 ![] bcast_S_S128x1024 main_cst_34
  let main_v91 : IVec S128x1024 1 := cmpf .olt main_v89 main_v90
  let main_c_35 : IVec S_ 1 := constantI S_ 1 1#1
  let main_v92 : IVec S_ 1 := (fun x v => Host.reduce IntOp.andi x v reducesTo_S128x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x128 .f32 := Host.absf main_arg20
  let main_cst_38 : FVec F S_ .f32 := constant S_ .f32 0x7F800000#32
  let main_v100 : FVec F S1024x128 .f32 := broadcastInDim S1024x128 ![] bcast_S_S1024x128 main_cst_38
  let main_v101 : IVec S1024x128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S128 .f32) (main_arg12 : FVec F S33x128 .f32) (main_arg13 : FVec F S128 .f32) (main_arg14 : FVec F S128x128 .f32) (main_arg15 : FVec F S128 .f32) (main_arg16 : FVec F S128x128 .f32) (main_arg17 : FVec F S128 .f32) (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v48 : IVec S_ 1) (main_v49 : FVec F S1024x128 .f32) (main_v50 : FVec F S1024x128 .f32) : IVec S_ 1 :=
  let main_v51 : IVec S1024x128 1 := cmpf .olt main_v49 main_v50
  let main_c_19 : IVec S_ 1 := constantI S_ 1 1#1
  let main_v52 : IVec S_ 1 := (fun x v => Host.reduce IntOp.andi x v reducesTo_S1024x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S33x128 .f32 := Host.absf main_arg12
  let main_cst_22 : FVec F S_ .f32 := constant S_ .f32 0x7F800000#32
  let main_v60 : FVec F S33x128 .f32 := broadcastInDim S33x128 ![] bcast_S_S33x128 main_cst_22
  let main_v61 : IVec S33x128 1 := cmpf .olt main_v59 main_v60
  let main_c_23 : IVec S_ 1 := constantI S_ 1 1#1
  let main_v62 : IVec S_ 1 := (fun x v => Host.reduce IntOp.andi x v reducesTo_S33x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S128 .f32) (main_arg8 : FVec F S128x1024 .f32) (main_arg9 : FVec F S1024 .f32) (main_arg10 : FVec F S1024x128 .f32) (main_arg11 : FVec F S128 .f32) (main_arg12 : FVec F S33x128 .f32) (main_arg13 : FVec F S128 .f32) (main_arg14 : FVec F S128x128 .f32) (main_arg15 : FVec F S128 .f32) (main_arg16 : FVec F S128x128 .f32) (main_arg17 : FVec F S128 .f32) (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1024 .f32 := Host.absf main_arg8
  let main_cst_14 : FVec F S_ .f32 := constant S_ .f32 0x7F800000#32
  let main_v40 : FVec F S128x1024 .f32 := broadcastInDim S128x1024 ![] bcast_S_S128x1024 main_cst_14
  let main_v41 : IVec S128x1024 1 := cmpf .olt main_v39 main_v40
  let main_c_15 : IVec S_ 1 := constantI S_ 1 1#1
  let main_v42 : IVec S_ 1 := (fun x v => Host.reduce IntOp.andi x v reducesTo_S128x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x128 .f32 := Host.absf main_arg10
  let main_cst_18 : FVec F S_ .f32 := constant S_ .f32 0x7F800000#32
  let main_v50 : FVec F S1024x128 .f32 := broadcastInDim S1024x128 ![] bcast_S_S1024x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S156x312 .f32) (main_arg5 : FVec F S312 .f32) (main_arg6 : FVec F S312x128 .f32) (main_arg7 : FVec F S128 .f32) (main_arg8 : FVec F S128x1024 .f32) (main_arg9 : FVec F S1024 .f32) (main_arg10 : FVec F S1024x128 .f32) (main_arg11 : FVec F S128 .f32) (main_arg12 : FVec F S33x128 .f32) (main_arg13 : FVec F S128 .f32) (main_arg14 : FVec F S128x128 .f32) (main_arg15 : FVec F S128 .f32) (main_arg16 : FVec F S128x128 .f32) (main_arg17 : FVec F S128 .f32) (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_v13 : IVec S_ 1) (main_v16 : IVec S156 1) : IVec S_ 1 :=
  let main_c_5 : IVec S_ 1 := constantI S_ 1 1#1
  let main_v17 : IVec S_ 1 := (fun x v => Host.reduce IntOp.andi x v reducesTo_S156_S_d0 h_S_) main_v16 main_c_5
  let main_v18 : IVec S_ 1 := andi main_v13 main_v17
  let main_v19 : FVec F S156x312 .f32 := Host.absf main_arg4
  let main_cst_6 : FVec F S_ .f32 := constant S_ .f32 0x7F800000#32
  let main_v20 : FVec F S156x312 .f32 := broadcastInDim S156x312 ![] bcast_S_S156x312 main_cst_6
  let main_v21 : IVec S156x312 1 := cmpf .olt main_v19 main_v20
  let main_c_7 : IVec S_ 1 := constantI S_ 1 1#1
  let main_v22 : IVec S_ 1 := (fun x v => Host.reduce IntOp.andi x v reducesTo_S156x312_S_d0_1 h_S_) main_v21 main_c_7
  let main_v23 : IVec S_ 1 := andi main_v18 main_v22
  let main_v24 : FVec F S312 .f32 := Host.absf main_arg5
  let main_cst_8 : FVec F S_ .f32 := constant S_ .f32 0x7F800000#32
  let main_v25 : FVec F S312 .f32 := broadcastInDim S312 ![] bcast_S_S312 main_cst_8
  let main_v26 : IVec S312 1 := cmpf .olt main_v24 main_v25
  let main_c_9 : IVec S_ 1 := constantI S_ 1 1#1
  let main_v27 : IVec S_ 1 := (fun x v => Host.reduce IntOp.andi x v reducesTo_S312_S_d0 h_S_) main_v26 main_c_9
  let main_v28 : IVec S_ 1 := andi main_v23 main_v27
  let main_v29 : FVec F S312x128 .f32 := Host.absf main_arg6
  let main_cst_10 : FVec F S_ .f32 := constant S_ .f32 0x7F800000#32
  let main_v30 : FVec F S312x128 .f32 := broadcastInDim S312x128 ![] bcast_S_S312x128 main_cst_10
  let main_v31 : IVec S312x128 1 := cmpf .olt main_v29 main_v30
  let main_c_11 : IVec S_ 1 := constantI S_ 1 1#1
  let main_v32 : IVec S_ 1 := (fun x v => Host.reduce IntOp.andi x v reducesTo_S312x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S65536x78 .f32) (main_arg1 : FVec F S300000x33 .f32) (main_arg2 : FVec F S78x156 .f32) (main_arg3 : FVec F S156 .f32) (main_arg4 : FVec F S156x312 .f32) (main_arg5 : FVec F S312 .f32) (main_arg6 : FVec F S312x128 .f32) (main_arg7 : FVec F S128 .f32) (main_arg8 : FVec F S128x1024 .f32) (main_arg9 : FVec F S1024 .f32) (main_arg10 : FVec F S1024x128 .f32) (main_arg11 : FVec F S128 .f32) (main_arg12 : FVec F S33x128 .f32) (main_arg13 : FVec F S128 .f32) (main_arg14 : FVec F S128x128 .f32) (main_arg15 : FVec F S128 .f32) (main_arg16 : FVec F S128x128 .f32) (main_arg17 : FVec F S128 .f32) (main_arg18 : FVec F S128x1024 .f32) (main_arg19 : FVec F S1024 .f32) (main_arg20 : FVec F S1024x128 .f32) (main_arg21 : FVec F S128 .f32) (main_arg22 : FVec F S128x1024 .f32) (main_arg23 : FVec F S1024 .f32) (main_arg24 : FVec F S1024x128 .f32) (main_arg25 : FVec F S128 .f32) (main_arg26 : FVec F S128x1024 .f32) (main_arg27 : FVec F S1024 .f32) (main_arg28 : FVec F S1024x128 .f32) (main_arg29 : FVec F S128 .f32) (main_arg30 : FVec F S256x1024 .f32) (main_arg31 : FVec F S1024 .f32) (main_arg32 : FVec F S1024x512 .f32) (main_arg33 : FVec F S512 .f32) (main_arg34 : FVec F S512x1 .f32) (main_arg35 : FVec F S1 .f32) (main_arg36 : IVec S2x131072 32) (main_arg37 : IVec S65536 32) (main_arg38 : IVec S2x1200000 32) (main_arg39 : IVec S300000 32) (main_arg40 : IVec S2x64000 32) (main_arg41 : IVec S2048 32) : IVec S_ 1 :=
  let main_v0 : FVec F S65536x78 .f32 := Host.absf main_arg0
  let main_cst : FVec F S_ .f32 := constant S_ .f32 0x7F800000#32
  let main_v1 : FVec F S65536x78 .f32 := broadcastInDim S65536x78 ![] bcast_S_S65536x78 main_cst
  let main_v2 : IVec S65536x78 1 := cmpf .olt main_v0 main_v1
  let main_c : IVec S_ 1 := constantI S_ 1 1#1
  let main_v3 : IVec S_ 1 := (fun x v => Host.reduce IntOp.andi x v reducesTo_S65536x78_S_d0_1 h_S_) main_v2 main_c
  let main_v4 : FVec F S300000x33 .f32 := Host.absf main_arg1
  let main_cst_0 : FVec F S_ .f32 := constant S_ .f32 0x7F800000#32
  let main_v5 : FVec F S300000x33 .f32 := broadcastInDim S300000x33 ![] bcast_S_S300000x33 main_cst_0
  let main_v6 : IVec S300000x33 1 := cmpf .olt main_v4 main_v5
  let main_c_1 : IVec S_ 1 := constantI S_ 1 1#1
  let main_v7 : IVec S_ 1 := (fun x v => Host.reduce IntOp.andi x v reducesTo_S300000x33_S_d0_1 h_S_) main_v6 main_c_1
  let main_v8 : IVec S_ 1 := andi main_v3 main_v7
  let main_v9 : FVec F S78x156 .f32 := Host.absf main_arg2
  let main_cst_2 : FVec F S_ .f32 := constant S_ .f32 0x7F800000#32
  let main_v10 : FVec F S78x156 .f32 := broadcastInDim S78x156 ![] bcast_S_S78x156 main_cst_2
  let main_v11 : IVec S78x156 1 := cmpf .olt main_v9 main_v10
  let main_c_3 : IVec S_ 1 := constantI S_ 1 1#1
  let main_v12 : IVec S_ 1 := (fun x v => Host.reduce IntOp.andi x v reducesTo_S78x156_S_d0_1 h_S_) main_v11 main_c_3
  let main_v13 : IVec S_ 1 := andi main_v8 main_v12
  let main_v14 : FVec F S156 .f32 := Host.absf main_arg3
  let main_cst_4 : FVec F S_ .f32 := constant S_ .f32 0x7F800000#32
  let main_v15 : FVec F S156 .f32 := broadcastInDim S156 ![] bcast_S_S156 main_cst_4
  let main_v16 : IVec S156 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S65536x78 : Shape := ⟨2, ![65536, 78]⟩
abbrev S300000x33 : Shape := ⟨2, ![300000, 33]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x128 : Shape := ⟨2, ![312, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S33x128 : Shape := ⟨2, ![33, 128]⟩
abbrev S128x128 : Shape := ⟨2, ![128, 128]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2x131072 : Shape := ⟨2, ![2, 131072]⟩
abbrev S65536 : Shape := ⟨1, ![65536]⟩
abbrev S2x1200000 : Shape := ⟨2, ![2, 1200000]⟩
abbrev S300000 : Shape := ⟨1, ![300000]⟩
abbrev S2x64000 : Shape := ⟨2, ![2, 64000]⟩
abbrev S2048 : Shape := ⟨1, ![2048]⟩
abbrev S1x131072 : Shape := ⟨2, ![1, 131072]⟩
abbrev S131072 : Shape := ⟨1, ![131072]⟩
abbrev S_ : Shape := ⟨0, ![]⟩
abbrev S1x156 : Shape := ⟨2, ![1, 156]⟩
abbrev S65536x156 : Shape := ⟨2, ![65536, 156]⟩
abbrev S4096x78 : Shape := ⟨2, ![4096, 78]⟩
abbrev S4096x156 : Shape := ⟨2, ![4096, 156]⟩
abbrev S196608 : Shape := ⟨1, ![196608]⟩
abbrev S196608x1 : Shape := ⟨2, ![196608, 1]⟩
abbrev S196608x156 : Shape := ⟨2, ![196608, 156]⟩
abbrev S1x312 : Shape := ⟨2, ![1, 312]⟩
abbrev S65536x312 : Shape := ⟨2, ![65536, 312]⟩
abbrev S4096x312 : Shape := ⟨2, ![4096, 312]⟩
abbrev S196608x312 : Shape := ⟨2, ![196608, 312]⟩
abbrev S1x128 : Shape := ⟨2, ![1, 128]⟩
abbrev S65536x128 : Shape := ⟨2, ![65536, 128]⟩
abbrev S4096x128 : Shape := ⟨2, ![4096, 128]⟩
abbrev S196608x128 : Shape := ⟨2, ![196608, 128]⟩
abbrev S2048x128 : Shape := ⟨2, ![2048, 128]⟩
abbrev S65536x1 : Shape := ⟨2, ![65536, 1]⟩
abbrev S2048x1 : Shape := ⟨2, ![2048, 1]⟩
abbrev S1x1024 : Shape := ⟨2, ![1, 1024]⟩
abbrev S2048x1024 : Shape := ⟨2, ![2048, 1024]⟩
abbrev S1x1200000 : Shape := ⟨2, ![1, 1200000]⟩
abbrev S1200000 : Shape := ⟨1, ![1200000]⟩
abbrev S300000x128 : Shape := ⟨2, ![300000, 128]⟩
abbrev S10000x33 : Shape := ⟨2, ![10000, 33]⟩
abbrev S10000x128 : Shape := ⟨2, ![10000, 128]⟩
abbrev S1500000 : Shape := ⟨1, ![1500000]⟩
abbrev S1500000x1 : Shape := ⟨2, ![1500000, 1]⟩
abbrev S1500000x128 : Shape := ⟨2, ![1500000, 128]⟩
abbrev S2000x128 : Shape := ⟨2, ![2000, 128]⟩
abbrev S300000x1 : Shape := ⟨2, ![300000, 1]⟩
abbrev S2000 : Shape := ⟨1, ![2000]⟩
abbrev S2000x1 : Shape := ⟨2, ![2000, 1]⟩
abbrev S2000x1024 : Shape := ⟨2, ![2000, 1024]⟩
abbrev S1x64000 : Shape := ⟨2, ![1, 64000]⟩
abbrev S64000 : Shape := ⟨1, ![64000]⟩
abbrev S66000 : Shape := ⟨1, ![66000]⟩
abbrev S66000x1 : Shape := ⟨2, ![66000, 1]⟩
abbrev S66000x1024 : Shape := ⟨2, ![66000, 1024]⟩
abbrev S66000x128 : Shape := ⟨2, ![66000, 128]⟩
abbrev S2048x256 : Shape := ⟨2, ![2048, 256]⟩
abbrev S1x512 : Shape := ⟨2, ![1, 512]⟩
abbrev S2048x512 : Shape := ⟨2, ![2048, 512]⟩
abbrev S1x1 : Shape := ⟨2, ![1, 1]⟩

abbrev nBuf : Space → Nat
  | .hbm => 634
  | .vmem => 80
  | .smem => 0
  | _ => 0

abbrev hbmTy0_0 (i : Nat) : BufTy := match i % 128 with
  | 0 => ⟨S65536x78, .f32⟩
  | 1 => ⟨S300000x33, .f32⟩
  | 2 => ⟨S78x156, .f32⟩
  | 3 => ⟨S156, .f32⟩
  | 4 => ⟨S156x312, .f32⟩
  | 5 => ⟨S312, .f32⟩
  | 6 => ⟨S312x128, .f32⟩
  | 7 => ⟨S128, .f32⟩
  | 8 => ⟨S128x1024, .f32⟩
  | 9 => ⟨S1024, .f32⟩
  | 10 => ⟨S1024x128, .f32⟩
  | 11 => ⟨S128, .f32⟩
  | 12 => ⟨S33x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x1024, .f32⟩
  | 19 => ⟨S1024, .f32⟩
  | 20 => ⟨S1024x128, .f32⟩
  | 21 => ⟨S128, .f32⟩
  | 22 => ⟨S128x1024, .f32⟩
  | 23 => ⟨S1024, .f32⟩
  | 24 => ⟨S1024x128, .f32⟩
  | 25 => ⟨S128, .f32⟩
  | 26 => ⟨S128x1024, .f32⟩
  | 27 => ⟨S1024, .f32⟩
  | 28 => ⟨S1024x128, .f32⟩
  | 29 => ⟨S128, .f32⟩
  | 30 => ⟨S256x1024, .f32⟩
  | 31 => ⟨S1024, .f32⟩
  | 32 => ⟨S1024x512, .f32⟩
  | 33 => ⟨S512, .f32⟩
  | 34 => ⟨S512x1, .f32⟩
  | 35 => ⟨S1, .f32⟩
  | 36 => ⟨S2x131072, .i32⟩
  | 37 => ⟨S65536, .i32⟩
  | 38 => ⟨S2x1200000, .i32⟩
  | 39 => ⟨S300000, .i32⟩
  | 40 => ⟨S2x64000, .i32⟩
  | 41 => ⟨S2048, .i32⟩
  | 42 => ⟨S1x131072, .i32⟩
  | 43 => ⟨S131072, .i32⟩
  | 44 => ⟨S1x131072, .i32⟩
  | 45 => ⟨S131072, .i32⟩
  | 46 => ⟨S_, .f32⟩
  | 47 => ⟨S156, .f32⟩
  | 48 => ⟨S1x156, .f32⟩
  | 49 => ⟨S65536x156, .f32⟩
  | 50 => ⟨S65536, .i32⟩
  | 51 => ⟨S196608, .i32⟩
  | 52 => ⟨S196608, .i32⟩
  | 53 => ⟨S_, .f32⟩
  | 54 => ⟨S196608, .f32⟩
  | 55 => ⟨S_, .f32⟩
  | 56 => ⟨S65536, .f32⟩
  | 57 => ⟨S196608x1, .i32⟩
  | 58 => ⟨S65536, .f32⟩
  | 59 => ⟨S_, .f32⟩
  | 60 => ⟨S65536, .f32⟩
  | 61 => ⟨S65536, .i1⟩
  | 62 => ⟨S_, .f32⟩
  | 63 => ⟨S65536, .f32⟩
  | 64 => ⟨S65536, .f32⟩
  | 65 => ⟨S65536, .f32⟩
  | 66 => ⟨S_, .f32⟩
  | 67 => ⟨S_, .f32⟩
  | 68 => ⟨S65536, .f32⟩
  | 69 => ⟨S65536, .f32⟩
  | 70 => ⟨S_, .i32⟩
  | 71 => ⟨S196608, .i32⟩
  | 72 => ⟨S196608, .i1⟩
  | 73 => ⟨S_, .i32⟩
  | 74 => ⟨S196608, .i32⟩
  | 75 => ⟨S196608, .i32⟩
  | 76 => ⟨S196608, .i32⟩
  | 77 => ⟨S196608x1, .i32⟩
  | 78 => ⟨S196608x156, .f32⟩
  | 79 => ⟨S_, .i32⟩
  | 80 => ⟨S196608, .i32⟩
  | 81 => ⟨S196608, .i1⟩
  | 82 => ⟨S_, .i32⟩
  | 83 => ⟨S196608, .i32⟩
  | 84 => ⟨S196608, .i32⟩
  | 85 => ⟨S196608, .i32⟩
  | 86 => ⟨S196608x1, .i32⟩
  | 87 => ⟨S196608, .f32⟩
  | 88 => ⟨S_, .i32⟩
  | 89 => ⟨S196608, .i32⟩
  | 90 => ⟨S196608, .i1⟩
  | 91 => ⟨S_, .i32⟩
  | 92 => ⟨S196608, .i32⟩
  | 93 => ⟨S196608, .i32⟩
  | 94 => ⟨S196608, .i32⟩
  | 95 => ⟨S196608x1, .i32⟩
  | 96 => ⟨S196608, .f32⟩
  | 97 => ⟨S196608, .f32⟩
  | 98 => ⟨S196608x1, .f32⟩
  | 99 => ⟨S196608x156, .f32⟩
  | 100 => ⟨S196608x156, .f32⟩
  | 101 => ⟨S_, .f32⟩
  | 102 => ⟨S65536x156, .f32⟩
  | 103 => ⟨S196608x1, .i32⟩
  | 104 => ⟨S65536x156, .f32⟩
  | 105 => ⟨S1x156, .f32⟩
  | 106 => ⟨S65536x156, .f32⟩
  | 107 => ⟨S65536x156, .f32⟩
  | 108 => ⟨S_, .f32⟩
  | 109 => ⟨S65536x156, .f32⟩
  | 110 => ⟨S65536x156, .f32⟩
  | 111 => ⟨S_, .f32⟩
  | 112 => ⟨S312, .f32⟩
  | 113 => ⟨S1x312, .f32⟩
  | 114 => ⟨S65536x312, .f32⟩
  | 115 => ⟨S65536, .i32⟩
  | 116 => ⟨S196608, .i32⟩
  | 117 => ⟨S196608, .i32⟩
  | 118 => ⟨S_, .f32⟩
  | 119 => ⟨S196608, .f32⟩
  | 120 => ⟨S_, .f32⟩
  | 121 => ⟨S65536, .f32⟩
  | 122 => ⟨S196608x1, .i32⟩
  | 123 => ⟨S65536, .f32⟩
  | 124 => ⟨S_, .f32⟩
  | 125 => ⟨S65536, .f32⟩
  | 126 => ⟨S65536, .i1⟩
  | 127 => ⟨S_, .f32⟩
  | _ => ⟨S65536x78, .f32⟩

abbrev hbmTy0_1 (i : Nat) : BufTy := match i % 128 with
  | 0 => ⟨S65536, .f32⟩
  | 1 => ⟨S65536, .f32⟩
  | 2 => ⟨S65536, .f32⟩
  | 3 => ⟨S_, .f32⟩
  | 4 => ⟨S_, .f32⟩
  | 5 => ⟨S65536, .f32⟩
  | 6 => ⟨S65536, .f32⟩
  | 7 => ⟨S_, .i32⟩
  | 8 => ⟨S196608, .i32⟩
  | 9 => ⟨S196608, .i1⟩
  | 10 => ⟨S_, .i32⟩
  | 11 => ⟨S196608, .i32⟩
  | 12 => ⟨S196608, .i32⟩
  | 13 => ⟨S196608, .i32⟩
  | 14 => ⟨S196608x1, .i32⟩
  | 15 => ⟨S196608x312, .f32⟩
  | 16 => ⟨S_, .i32⟩
  | 17 => ⟨S196608, .i32⟩
  | 18 => ⟨S196608, .i1⟩
  | 19 => ⟨S_, .i32⟩
  | 20 => ⟨S196608, .i32⟩
  | 21 => ⟨S196608, .i32⟩
  | 22 => ⟨S196608, .i32⟩
  | 23 => ⟨S196608x1, .i32⟩
  | 24 => ⟨S196608, .f32⟩
  | 25 => ⟨S_, .i32⟩
  | 26 => ⟨S196608, .i32⟩
  | 27 => ⟨S196608, .i1⟩
  | 28 => ⟨S_, .i32⟩
  | 29 => ⟨S196608, .i32⟩
  | 30 => ⟨S196608, .i32⟩
  | 31 => ⟨S196608, .i32⟩
  | 32 => ⟨S196608x1, .i32⟩
  | 33 => ⟨S196608, .f32⟩
  | 34 => ⟨S196608, .f32⟩
  | 35 => ⟨S196608x1, .f32⟩
  | 36 => ⟨S196608x312, .f32⟩
  | 37 => ⟨S196608x312, .f32⟩
  | 38 => ⟨S_, .f32⟩
  | 39 => ⟨S65536x312, .f32⟩
  | 40 => ⟨S196608x1, .i32⟩
  | 41 => ⟨S65536x312, .f32⟩
  | 42 => ⟨S1x312, .f32⟩
  | 43 => ⟨S65536x312, .f32⟩
  | 44 => ⟨S65536x312, .f32⟩
  | 45 => ⟨S_, .f32⟩
  | 46 => ⟨S65536x312, .f32⟩
  | 47 => ⟨S65536x312, .f32⟩
  | 48 => ⟨S_, .f32⟩
  | 49 => ⟨S128, .f32⟩
  | 50 => ⟨S1x128, .f32⟩
  | 51 => ⟨S65536x128, .f32⟩
  | 52 => ⟨S65536, .i32⟩
  | 53 => ⟨S196608, .i32⟩
  | 54 => ⟨S196608, .i32⟩
  | 55 => ⟨S_, .f32⟩
  | 56 => ⟨S196608, .f32⟩
  | 57 => ⟨S_, .f32⟩
  | 58 => ⟨S65536, .f32⟩
  | 59 => ⟨S196608x1, .i32⟩
  | 60 => ⟨S65536, .f32⟩
  | 61 => ⟨S_, .f32⟩
  | 62 => ⟨S65536, .f32⟩
  | 63 => ⟨S65536, .i1⟩
  | 64 => ⟨S_, .f32⟩
  | 65 => ⟨S65536, .f32⟩
  | 66 => ⟨S65536, .f32⟩
  | 67 => ⟨S65536, .f32⟩
  | 68 => ⟨S_, .f32⟩
  | 69 => ⟨S_, .f32⟩
  | 70 => ⟨S65536, .f32⟩
  | 71 => ⟨S65536, .f32⟩
  | 72 => ⟨S_, .i32⟩
  | 73 => ⟨S196608, .i32⟩
  | 74 => ⟨S196608, .i1⟩
  | 75 => ⟨S_, .i32⟩
  | 76 => ⟨S196608, .i32⟩
  | 77 => ⟨S196608, .i32⟩
  | 78 => ⟨S196608, .i32⟩
  | 79 => ⟨S196608x1, .i32⟩
  | 80 => ⟨S196608x128, .f32⟩
  | 81 => ⟨S_, .i32⟩
  | 82 => ⟨S196608, .i32⟩
  | 83 => ⟨S196608, .i1⟩
  | 84 => ⟨S_, .i32⟩
  | 85 => ⟨S196608, .i32⟩
  | 86 => ⟨S196608, .i32⟩
  | 87 => ⟨S196608, .i32⟩
  | 88 => ⟨S196608x1, .i32⟩
  | 89 => ⟨S196608, .f32⟩
  | 90 => ⟨S_, .i32⟩
  | 91 => ⟨S196608, .i32⟩
  | 92 => ⟨S196608, .i1⟩
  | 93 => ⟨S_, .i32⟩
  | 94 => ⟨S196608, .i32⟩
  | 95 => ⟨S196608, .i32⟩
  | 96 => ⟨S196608, .i32⟩
  | 97 => ⟨S196608x1, .i32⟩
  | 98 => ⟨S196608, .f32⟩
  | 99 => ⟨S196608, .f32⟩
  | 100 => ⟨S196608x1, .f32⟩
  | 101 => ⟨S196608x128, .f32⟩
  | 102 => ⟨S196608x128, .f32⟩
  | 103 => ⟨S_, .f32⟩
  | 104 => ⟨S65536x128, .f32⟩
  | 105 => ⟨S196608x1, .i32⟩
  | 106 => ⟨S65536x128, .f32⟩
  | 107 => ⟨S1x128, .f32⟩
  | 108 => ⟨S65536x128, .f32⟩
  | 109 => ⟨S65536x128, .f32⟩
  | 110 => ⟨S_, .f32⟩
  | 111 => ⟨S65536x128, .f32⟩
  | 112 => ⟨S65536x128, .f32⟩
  | 113 => ⟨S_, .f32⟩
  | 114 => ⟨S2048x128, .f32⟩
  | 115 => ⟨S65536x1, .i32⟩
  | 116 => ⟨S2048x128, .f32⟩
  | 117 => ⟨S_, .f32⟩
  | 118 => ⟨S65536, .f32⟩
  | 119 => ⟨S_, .f32⟩
  | 120 => ⟨S2048, .f32⟩
  | 121 => ⟨S65536x1, .i32⟩
  | 122 => ⟨S2048, .f32⟩
  | 123 => ⟨S_, .f32⟩
  | 124 => ⟨S2048, .f32⟩
  | 125 => ⟨S2048, .f32⟩
  | 126 => ⟨S2048x1, .f32⟩
  | 127 => ⟨S2048x128, .f32⟩
  | _ => ⟨S65536x78, .f32⟩

abbrev hbmTy0_2 (i : Nat) : BufTy := match i % 128 with
  | 0 => ⟨S2048x128, .f32⟩
  | 1 => ⟨S1x1024, .f32⟩
  | 2 => ⟨S2048x1024, .f32⟩
  | 3 => ⟨S1x128, .f32⟩
  | 4 => ⟨S2048x128, .f32⟩
  | 5 => ⟨S1x1200000, .i32⟩
  | 6 => ⟨S1200000, .i32⟩
  | 7 => ⟨S1x1200000, .i32⟩
  | 8 => ⟨S1200000, .i32⟩
  | 9 => ⟨S_, .f32⟩
  | 10 => ⟨S128, .f32⟩
  | 11 => ⟨S1x128, .f32⟩
  | 12 => ⟨S300000x128, .f32⟩
  | 13 => ⟨S300000, .i32⟩
  | 14 => ⟨S1500000, .i32⟩
  | 15 => ⟨S1500000, .i32⟩
  | 16 => ⟨S_, .f32⟩
  | 17 => ⟨S1500000, .f32⟩
  | 18 => ⟨S_, .f32⟩
  | 19 => ⟨S300000, .f32⟩
  | 20 => ⟨S1500000x1, .i32⟩
  | 21 => ⟨S300000, .f32⟩
  | 22 => ⟨S_, .f32⟩
  | 23 => ⟨S300000, .f32⟩
  | 24 => ⟨S300000, .i1⟩
  | 25 => ⟨S_, .f32⟩
  | 26 => ⟨S300000, .f32⟩
  | 27 => ⟨S300000, .f32⟩
  | 28 => ⟨S300000, .f32⟩
  | 29 => ⟨S_, .f32⟩
  | 30 => ⟨S_, .f32⟩
  | 31 => ⟨S300000, .f32⟩
  | 32 => ⟨S300000, .f32⟩
  | 33 => ⟨S_, .i32⟩
  | 34 => ⟨S1500000, .i32⟩
  | 35 => ⟨S1500000, .i1⟩
  | 36 => ⟨S_, .i32⟩
  | 37 => ⟨S1500000, .i32⟩
  | 38 => ⟨S1500000, .i32⟩
  | 39 => ⟨S1500000, .i32⟩
  | 40 => ⟨S1500000x1, .i32⟩
  | 41 => ⟨S1500000x128, .f32⟩
  | 42 => ⟨S_, .i32⟩
  | 43 => ⟨S1500000, .i32⟩
  | 44 => ⟨S1500000, .i1⟩
  | 45 => ⟨S_, .i32⟩
  | 46 => ⟨S1500000, .i32⟩
  | 47 => ⟨S1500000, .i32⟩
  | 48 => ⟨S1500000, .i32⟩
  | 49 => ⟨S1500000x1, .i32⟩
  | 50 => ⟨S1500000, .f32⟩
  | 51 => ⟨S_, .i32⟩
  | 52 => ⟨S1500000, .i32⟩
  | 53 => ⟨S1500000, .i1⟩
  | 54 => ⟨S_, .i32⟩
  | 55 => ⟨S1500000, .i32⟩
  | 56 => ⟨S1500000, .i32⟩
  | 57 => ⟨S1500000, .i32⟩
  | 58 => ⟨S1500000x1, .i32⟩
  | 59 => ⟨S1500000, .f32⟩
  | 60 => ⟨S1500000, .f32⟩
  | 61 => ⟨S1500000x1, .f32⟩
  | 62 => ⟨S1500000x128, .f32⟩
  | 63 => ⟨S1500000x128, .f32⟩
  | 64 => ⟨S_, .f32⟩
  | 65 => ⟨S300000x128, .f32⟩
  | 66 => ⟨S1500000x1, .i32⟩
  | 67 => ⟨S300000x128, .f32⟩
  | 68 => ⟨S1x128, .f32⟩
  | 69 => ⟨S300000x128, .f32⟩
  | 70 => ⟨S300000x128, .f32⟩
  | 71 => ⟨S_, .f32⟩
  | 72 => ⟨S300000x128, .f32⟩
  | 73 => ⟨S300000x128, .f32⟩
  | 74 => ⟨S_, .f32⟩
  | 75 => ⟨S128, .f32⟩
  | 76 => ⟨S1x128, .f32⟩
  | 77 => ⟨S300000x128, .f32⟩
  | 78 => ⟨S300000, .i32⟩
  | 79 => ⟨S1500000, .i32⟩
  | 80 => ⟨S1500000, .i32⟩
  | 81 => ⟨S_, .f32⟩
  | 82 => ⟨S1500000, .f32⟩
  | 83 => ⟨S_, .f32⟩
  | 84 => ⟨S300000, .f32⟩
  | 85 => ⟨S1500000x1, .i32⟩
  | 86 => ⟨S300000, .f32⟩
  | 87 => ⟨S_, .f32⟩
  | 88 => ⟨S300000, .f32⟩
  | 89 => ⟨S300000, .i1⟩
  | 90 => ⟨S_, .f32⟩
  | 91 => ⟨S300000, .f32⟩
  | 92 => ⟨S300000, .f32⟩
  | 93 => ⟨S300000, .f32⟩
  | 94 => ⟨S_, .f32⟩
  | 95 => ⟨S_, .f32⟩
  | 96 => ⟨S300000, .f32⟩
  | 97 => ⟨S300000, .f32⟩
  | 98 => ⟨S_, .i32⟩
  | 99 => ⟨S1500000, .i32⟩
  | 100 => ⟨S1500000, .i1⟩
  | 101 => ⟨S_, .i32⟩
  | 102 => ⟨S1500000, .i32⟩
  | 103 => ⟨S1500000, .i32⟩
  | 104 => ⟨S1500000, .i32⟩
  | 105 => ⟨S1500000x1, .i32⟩
  | 106 => ⟨S1500000x128, .f32⟩
  | 107 => ⟨S_, .i32⟩
  | 108 => ⟨S1500000, .i32⟩
  | 109 => ⟨S1500000, .i1⟩
  | 110 => ⟨S_, .i32⟩
  | 111 => ⟨S1500000, .i32⟩
  | 112 => ⟨S1500000, .i32⟩
  | 113 => ⟨S1500000, .i32⟩
  | 114 => ⟨S1500000x1, .i32⟩
  | 115 => ⟨S1500000, .f32⟩
  | 116 => ⟨S_, .i32⟩
  | 117 => ⟨S1500000, .i32⟩
  | 118 => ⟨S1500000, .i1⟩
  | 119 => ⟨S_, .i32⟩
  | 120 => ⟨S1500000, .i32⟩
  | 121 => ⟨S1500000, .i32⟩
  | 122 => ⟨S1500000, .i32⟩
  | 123 => ⟨S1500000x1, .i32⟩
  | 124 => ⟨S1500000, .f32⟩
  | 125 => ⟨S1500000, .f32⟩
  | 126 => ⟨S1500000x1, .f32⟩
  | 127 => ⟨S1500000x128, .f32⟩
  | _ => ⟨S65536x78, .f32⟩

abbrev hbmTy0_3 (i : Nat) : BufTy := match i % 128 with
  | 0 => ⟨S1500000x128, .f32⟩
  | 1 => ⟨S_, .f32⟩
  | 2 => ⟨S300000x128, .f32⟩
  | 3 => ⟨S1500000x1, .i32⟩
  | 4 => ⟨S300000x128, .f32⟩
  | 5 => ⟨S1x128, .f32⟩
  | 6 => ⟨S300000x128, .f32⟩
  | 7 => ⟨S300000x128, .f32⟩
  | 8 => ⟨S_, .f32⟩
  | 9 => ⟨S300000x128, .f32⟩
  | 10 => ⟨S300000x128, .f32⟩
  | 11 => ⟨S_, .f32⟩
  | 12 => ⟨S128, .f32⟩
  | 13 => ⟨S1x128, .f32⟩
  | 14 => ⟨S300000x128, .f32⟩
  | 15 => ⟨S300000, .i32⟩
  | 16 => ⟨S1500000, .i32⟩
  | 17 => ⟨S1500000, .i32⟩
  | 18 => ⟨S_, .f32⟩
  | 19 => ⟨S1500000, .f32⟩
  | 20 => ⟨S_, .f32⟩
  | 21 => ⟨S300000, .f32⟩
  | 22 => ⟨S1500000x1, .i32⟩
  | 23 => ⟨S300000, .f32⟩
  | 24 => ⟨S_, .f32⟩
  | 25 => ⟨S300000, .f32⟩
  | 26 => ⟨S300000, .i1⟩
  | 27 => ⟨S_, .f32⟩
  | 28 => ⟨S300000, .f32⟩
  | 29 => ⟨S300000, .f32⟩
  | 30 => ⟨S300000, .f32⟩
  | 31 => ⟨S_, .f32⟩
  | 32 => ⟨S_, .f32⟩
  | 33 => ⟨S300000, .f32⟩
  | 34 => ⟨S300000, .f32⟩
  | 35 => ⟨S_, .i32⟩
  | 36 => ⟨S1500000, .i32⟩
  | 37 => ⟨S1500000, .i1⟩
  | 38 => ⟨S_, .i32⟩
  | 39 => ⟨S1500000, .i32⟩
  | 40 => ⟨S1500000, .i32⟩
  | 41 => ⟨S1500000, .i32⟩
  | 42 => ⟨S1500000x1, .i32⟩
  | 43 => ⟨S1500000x128, .f32⟩
  | 44 => ⟨S_, .i32⟩
  | 45 => ⟨S1500000, .i32⟩
  | 46 => ⟨S1500000, .i1⟩
  | 47 => ⟨S_, .i32⟩
  | 48 => ⟨S1500000, .i32⟩
  | 49 => ⟨S1500000, .i32⟩
  | 50 => ⟨S1500000, .i32⟩
  | 51 => ⟨S1500000x1, .i32⟩
  | 52 => ⟨S1500000, .f32⟩
  | 53 => ⟨S_, .i32⟩
  | 54 => ⟨S1500000, .i32⟩
  | 55 => ⟨S1500000, .i1⟩
  | 56 => ⟨S_, .i32⟩
  | 57 => ⟨S1500000, .i32⟩
  | 58 => ⟨S1500000, .i32⟩
  | 59 => ⟨S1500000, .i32⟩
  | 60 => ⟨S1500000x1, .i32⟩
  | 61 => ⟨S1500000, .f32⟩
  | 62 => ⟨S1500000, .f32⟩
  | 63 => ⟨S1500000x1, .f32⟩
  | 64 => ⟨S1500000x128, .f32⟩
  | 65 => ⟨S1500000x128, .f32⟩
  | 66 => ⟨S_, .f32⟩
  | 67 => ⟨S300000x128, .f32⟩
  | 68 => ⟨S1500000x1, .i32⟩
  | 69 => ⟨S300000x128, .f32⟩
  | 70 => ⟨S1x128, .f32⟩
  | 71 => ⟨S300000x128, .f32⟩
  | 72 => ⟨S300000x128, .f32⟩
  | 73 => ⟨S_, .f32⟩
  | 74 => ⟨S300000x128, .f32⟩
  | 75 => ⟨S300000x128, .f32⟩
  | 76 => ⟨S_, .f32⟩
  | 77 => ⟨S2000x128, .f32⟩
  | 78 => ⟨S300000x1, .i32⟩
  | 79 => ⟨S2000x128, .f32⟩
  | 80 => ⟨S_, .f32⟩
  | 81 => ⟨S300000, .f32⟩
  | 82 => ⟨S_, .f32⟩
  | 83 => ⟨S2000, .f32⟩
  | 84 => ⟨S300000x1, .i32⟩
  | 85 => ⟨S2000, .f32⟩
  | 86 => ⟨S_, .f32⟩
  | 87 => ⟨S2000, .f32⟩
  | 88 => ⟨S2000, .f32⟩
  | 89 => ⟨S2000x1, .f32⟩
  | 90 => ⟨S2000x128, .f32⟩
  | 91 => ⟨S2000x128, .f32⟩
  | 92 => ⟨S1x1024, .f32⟩
  | 93 => ⟨S2000x1024, .f32⟩
  | 94 => ⟨S1x128, .f32⟩
  | 95 => ⟨S2000x128, .f32⟩
  | 96 => ⟨S1x64000, .i32⟩
  | 97 => ⟨S64000, .i32⟩
  | 98 => ⟨S1x64000, .i32⟩
  | 99 => ⟨S64000, .i32⟩
  | 100 => ⟨S_, .f32⟩
  | 101 => ⟨S1024, .f32⟩
  | 102 => ⟨S1x1024, .f32⟩
  | 103 => ⟨S2000x1024, .f32⟩
  | 104 => ⟨S2000, .i32⟩
  | 105 => ⟨S66000, .i32⟩
  | 106 => ⟨S66000, .i32⟩
  | 107 => ⟨S_, .f32⟩
  | 108 => ⟨S66000, .f32⟩
  | 109 => ⟨S_, .f32⟩
  | 110 => ⟨S2000, .f32⟩
  | 111 => ⟨S66000x1, .i32⟩
  | 112 => ⟨S2000, .f32⟩
  | 113 => ⟨S_, .f32⟩
  | 114 => ⟨S2000, .f32⟩
  | 115 => ⟨S2000, .i1⟩
  | 116 => ⟨S_, .f32⟩
  | 117 => ⟨S2000, .f32⟩
  | 118 => ⟨S2000, .f32⟩
  | 119 => ⟨S2000, .f32⟩
  | 120 => ⟨S_, .f32⟩
  | 121 => ⟨S_, .f32⟩
  | 122 => ⟨S2000, .f32⟩
  | 123 => ⟨S2000, .f32⟩
  | 124 => ⟨S_, .i32⟩
  | 125 => ⟨S66000, .i32⟩
  | 126 => ⟨S66000, .i1⟩
  | 127 => ⟨S_, .i32⟩
  | _ => ⟨S65536x78, .f32⟩

abbrev hbmTy0_4 (i : Nat) : BufTy := match i % 128 with
  | 0 => ⟨S66000, .i32⟩
  | 1 => ⟨S66000, .i32⟩
  | 2 => ⟨S66000, .i32⟩
  | 3 => ⟨S66000x1, .i32⟩
  | 4 => ⟨S66000x1024, .f32⟩
  | 5 => ⟨S_, .i32⟩
  | 6 => ⟨S66000, .i32⟩
  | 7 => ⟨S66000, .i1⟩
  | 8 => ⟨S_, .i32⟩
  | 9 => ⟨S66000, .i32⟩
  | 10 => ⟨S66000, .i32⟩
  | 11 => ⟨S66000, .i32⟩
  | 12 => ⟨S66000x1, .i32⟩
  | 13 => ⟨S66000, .f32⟩
  | 14 => ⟨S_, .i32⟩
  | 15 => ⟨S66000, .i32⟩
  | 16 => ⟨S66000, .i1⟩
  | 17 => ⟨S_, .i32⟩
  | 18 => ⟨S66000, .i32⟩
  | 19 => ⟨S66000, .i32⟩
  | 20 => ⟨S66000, .i32⟩
  | 21 => ⟨S66000x1, .i32⟩
  | 22 => ⟨S66000, .f32⟩
  | 23 => ⟨S66000, .f32⟩
  | 24 => ⟨S66000x1, .f32⟩
  | 25 => ⟨S66000x1024, .f32⟩
  | 26 => ⟨S66000x1024, .f32⟩
  | 27 => ⟨S_, .f32⟩
  | 28 => ⟨S2000x1024, .f32⟩
  | 29 => ⟨S66000x1, .i32⟩
  | 30 => ⟨S2000x1024, .f32⟩
  | 31 => ⟨S1x1024, .f32⟩
  | 32 => ⟨S2000x1024, .f32⟩
  | 33 => ⟨S2000x1024, .f32⟩
  | 34 => ⟨S_, .f32⟩
  | 35 => ⟨S2000x1024, .f32⟩
  | 36 => ⟨S2000x1024, .f32⟩
  | 37 => ⟨S_, .f32⟩
  | 38 => ⟨S128, .f32⟩
  | 39 => ⟨S1x128, .f32⟩
  | 40 => ⟨S2000x128, .f32⟩
  | 41 => ⟨S2000, .i32⟩
  | 42 => ⟨S66000, .i32⟩
  | 43 => ⟨S66000, .i32⟩
  | 44 => ⟨S_, .f32⟩
  | 45 => ⟨S66000, .f32⟩
  | 46 => ⟨S_, .f32⟩
  | 47 => ⟨S2000, .f32⟩
  | 48 => ⟨S66000x1, .i32⟩
  | 49 => ⟨S2000, .f32⟩
  | 50 => ⟨S_, .f32⟩
  | 51 => ⟨S2000, .f32⟩
  | 52 => ⟨S2000, .i1⟩
  | 53 => ⟨S_, .f32⟩
  | 54 => ⟨S2000, .f32⟩
  | 55 => ⟨S2000, .f32⟩
  | 56 => ⟨S2000, .f32⟩
  | 57 => ⟨S_, .f32⟩
  | 58 => ⟨S_, .f32⟩
  | 59 => ⟨S2000, .f32⟩
  | 60 => ⟨S2000, .f32⟩
  | 61 => ⟨S_, .i32⟩
  | 62 => ⟨S66000, .i32⟩
  | 63 => ⟨S66000, .i1⟩
  | 64 => ⟨S_, .i32⟩
  | 65 => ⟨S66000, .i32⟩
  | 66 => ⟨S66000, .i32⟩
  | 67 => ⟨S66000, .i32⟩
  | 68 => ⟨S66000x1, .i32⟩
  | 69 => ⟨S66000x128, .f32⟩
  | 70 => ⟨S_, .i32⟩
  | 71 => ⟨S66000, .i32⟩
  | 72 => ⟨S66000, .i1⟩
  | 73 => ⟨S_, .i32⟩
  | 74 => ⟨S66000, .i32⟩
  | 75 => ⟨S66000, .i32⟩
  | 76 => ⟨S66000, .i32⟩
  | 77 => ⟨S66000x1, .i32⟩
  | 78 => ⟨S66000, .f32⟩
  | 79 => ⟨S_, .i32⟩
  | 80 => ⟨S66000, .i32⟩
  | 81 => ⟨S66000, .i1⟩
  | 82 => ⟨S_, .i32⟩
  | 83 => ⟨S66000, .i32⟩
  | 84 => ⟨S66000, .i32⟩
  | 85 => ⟨S66000, .i32⟩
  | 86 => ⟨S66000x1, .i32⟩
  | 87 => ⟨S66000, .f32⟩
  | 88 => ⟨S66000, .f32⟩
  | 89 => ⟨S66000x1, .f32⟩
  | 90 => ⟨S66000x128, .f32⟩
  | 91 => ⟨S66000x128, .f32⟩
  | 92 => ⟨S_, .f32⟩
  | 93 => ⟨S2000x128, .f32⟩
  | 94 => ⟨S66000x1, .i32⟩
  | 95 => ⟨S2000x128, .f32⟩
  | 96 => ⟨S1x128, .f32⟩
  | 97 => ⟨S2000x128, .f32⟩
  | 98 => ⟨S2000x128, .f32⟩
  | 99 => ⟨S_, .f32⟩
  | 100 => ⟨S2000x128, .f32⟩
  | 101 => ⟨S2000x128, .f32⟩
  | 102 => ⟨S1x1024, .f32⟩
  | 103 => ⟨S2000x1024, .f32⟩
  | 104 => ⟨S1x128, .f32⟩
  | 105 => ⟨S2000x128, .f32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S2048x128, .f32⟩
  | 115 => ⟨S2048x256, .f32⟩
  | 116 => ⟨S1x1024, .f32⟩
  | 117 => ⟨S2048x1024, .f32⟩
  | 118 => ⟨S1x512, .f32⟩
  | 119 => ⟨S2048x512, .f32⟩
  | 120 => ⟨S1x1, .f32⟩
  | 121 => ⟨S2048x1, .f32⟩
  | _ => ⟨S65536x78, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S65536x78, .f32⟩

abbrev bufTy : (tb : Table) → Fin (tcTables nBuf tb) → BufTy
  | .hbm, ⟨i, _⟩ => hbmTy i
  | .local _ .vmem, ⟨0, _⟩ => ⟨S4096x78, .f32⟩
  | .local _ .vmem, ⟨1, _⟩ => ⟨S4096x78, .f32⟩
  | .local _ .vmem, ⟨2, _⟩ => ⟨S78x156, .f32⟩
  | .local _ .vmem, ⟨3, _⟩ => ⟨S1x156, .f32⟩
  | .local _ .vmem, ⟨4, _⟩ => ⟨S4096x156, .f32⟩
  | .local _ .vmem, ⟨5, _⟩ => ⟨S4096x156, .f32⟩
  | .local _ .vmem, ⟨6, _⟩ => ⟨S4096x156, .f32⟩
  | .local _ .vmem, ⟨7, _⟩ => ⟨S4096x156, .f32⟩
  | .local _ .vmem, ⟨8, _⟩ => ⟨S156x312, .f32⟩
  | .local _ .vmem, ⟨9, _⟩ => ⟨S1x312, .f32⟩
  | .local _ .vmem, ⟨10, _⟩ => ⟨S4096x312, .f32⟩
  | .local _ .vmem, ⟨11, _⟩ => ⟨S4096x312, .f32⟩
  | .local _ .vmem, ⟨12, _⟩ => ⟨S4096x312, .f32⟩
  | .local _ .vmem, ⟨13, _⟩ => ⟨S4096x312, .f32⟩
  | .local _ .vmem, ⟨14, _⟩ => ⟨S312x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S2048x128, .f32⟩
  | .local _ .vmem, ⟨19, _⟩ => ⟨S128x1024, .f32⟩
  | .local _ .vmem, ⟨20, _⟩ => ⟨S1x1024, .f32⟩
  | .local _ .vmem, ⟨21, _⟩ => ⟨S2048x1024, .f32⟩
  | .local _ .vmem, ⟨22, _⟩ => ⟨S2048x1024, .f32⟩
  | .local _ .vmem, ⟨23, _⟩ => ⟨S1024x128, .f32⟩
  | .local _ .vmem, ⟨24, _⟩ => ⟨S1x128, .f32⟩
  | .local _ .vmem, ⟨25, _⟩ => ⟨S2048x128, .f32⟩
  | .local _ .vmem, ⟨26, _⟩ => ⟨S10000x33, .f32⟩
  | .local _ .vmem, ⟨27, _⟩ => ⟨S10000x33, .f32⟩
  | .local _ .vmem, ⟨28, _⟩ => ⟨S33x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S2000x128, .f32⟩
  | .local _ .vmem, ⟨45, _⟩ => ⟨S128x1024, .f32⟩
  | .local _ .vmem, ⟨46, _⟩ => ⟨S1x1024, .f32⟩
  | .local _ .vmem, ⟨47, _⟩ => ⟨S2000x1024, .f32⟩
  | .local _ .vmem, ⟨48, _⟩ => ⟨S2000x1024, .f32⟩
  | .local _ .vmem, ⟨49, _⟩ => ⟨S1024x128, .f32⟩
  | .local _ .vmem, ⟨50, _⟩ => ⟨S1x128, .f32⟩
  | .local _ .vmem, ⟨51, _⟩ => ⟨S2000x128, .f32⟩
  | .local _ .vmem, ⟨52, _⟩ => ⟨S2000x128, .f32⟩
  | .local _ .vmem, ⟨53, _⟩ => ⟨S128x1024, .f32⟩
  | .local _ .vmem, ⟨54, _⟩ => ⟨S1x1024, .f32⟩
  | .local _ .vmem, ⟨55, _⟩ => ⟨S2000x1024, .f32⟩
  | .local _ .vmem, ⟨56, _⟩ => ⟨S2000x1024, .f32⟩
  | .local _ .vmem, ⟨57, _⟩ => ⟨S1024x128, .f32⟩
  | .local _ .vmem, ⟨58, _⟩ => ⟨S1x128, .f32⟩
  | .local _ .vmem, ⟨59, _⟩ => ⟨S2000x128, .f32⟩
  | .local _ .vmem, ⟨60, _⟩ => ⟨S2000x128, .f32⟩
  | .local _ .vmem, ⟨61, _⟩ => ⟨S128x1024, .f32⟩
  | .local _ .vmem, ⟨62, _⟩ => ⟨S1x1024, .f32⟩
  | .local _ .vmem, ⟨63, _⟩ => ⟨S2000x1024, .f32⟩
  | .local _ .vmem, ⟨64, _⟩ => ⟨S2000x1024, .f32⟩
  | .local _ .vmem, ⟨65, _⟩ => ⟨S1024x128, .f32⟩
  | .local _ .vmem, ⟨66, _⟩ => ⟨S1x128, .f32⟩
  | .local _ .vmem, ⟨67, _⟩ => ⟨S2000x128, .f32⟩
  | .local _ .vmem, ⟨68, _⟩ => ⟨S2048x256, .f32⟩
  | .local _ .vmem, ⟨69, _⟩ => ⟨S256x1024, .f32⟩
  | .local _ .vmem, ⟨70, _⟩ => ⟨S1x1024, .f32⟩
  | .local _ .vmem, ⟨71, _⟩ => ⟨S2048x1024, .f32⟩
  | .local _ .vmem, ⟨72, _⟩ => ⟨S2048x1024, .f32⟩
  | .local _ .vmem, ⟨73, _⟩ => ⟨S1024x512, .f32⟩
  | .local _ .vmem, ⟨74, _⟩ => ⟨S1x512, .f32⟩
  | .local _ .vmem, ⟨75, _⟩ => ⟨S2048x512, .f32⟩
  | .local _ .vmem, ⟨76, _⟩ => ⟨S2048x512, .f32⟩
  | .local _ .vmem, ⟨77, _⟩ => ⟨S512x1, .f32⟩
  | .local _ .vmem, ⟨78, _⟩ => ⟨S1x1, .f32⟩
  | .local _ .vmem, ⟨79, _⟩ => ⟨S2048x1, .f32⟩
  | _, _ => ⟨S65536x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst_0 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_2 : Ref sig .tc := ⟨.hbm, 59, rfl⟩
abbrev main_v14 : Ref sig .tc := ⟨.hbm, 60, rfl⟩
abbrev main_v15 : Ref sig .tc := ⟨.hbm, 61, rfl⟩
abbrev main_cst_3 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_4 : Ref sig .tc := ⟨.hbm, 66, rfl⟩
abbrev main_call0_v0 : Ref sig .tc := ⟨.hbm, 67, rfl⟩
abbrev main_call0_v1 : Ref sig .tc := ⟨.hbm, 68, rfl⟩
abbrev main_v19 : Ref sig .tc := ⟨.hbm, 69, rfl⟩
abbrev main_c : Ref sig .tc := ⟨.hbm, 70, rfl⟩
abbrev main_v20 : Ref sig .tc := ⟨.hbm, 71, rfl⟩
abbrev main_v21 : Ref sig .tc := ⟨.hbm, 72, rfl⟩
abbrev main_c_5 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_6 : Ref sig .tc := ⟨.hbm, 79, rfl⟩
abbrev main_v27 : Ref sig .tc := ⟨.hbm, 80, rfl⟩
abbrev main_v28 : Ref sig .tc := ⟨.hbm, 81, rfl⟩
abbrev main_c_7 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_c_8 : Ref sig .tc := ⟨.hbm, 88, rfl⟩
abbrev main_v34 : Ref sig .tc := ⟨.hbm, 89, rfl⟩
abbrev main_v35 : Ref sig .tc := ⟨.hbm, 90, rfl⟩
abbrev main_c_9 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_10 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_call1_cst : Ref sig .tc := ⟨.hbm, 108, rfl⟩
abbrev main_call1_v0 : Ref sig .tc := ⟨.hbm, 109, rfl⟩
abbrev main_v51 : Ref sig .tc := ⟨.hbm, 110, rfl⟩
abbrev main_cst_11 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_12 : Ref sig .tc := ⟨.hbm, 118, rfl⟩
abbrev main_v58 : Ref sig .tc := ⟨.hbm, 119, rfl⟩
abbrev main_cst_13 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_14 : Ref sig .tc := ⟨.hbm, 124, rfl⟩
abbrev main_v62 : Ref sig .tc := ⟨.hbm, 125, rfl⟩
abbrev main_v63 : Ref sig .tc := ⟨.hbm, 126, rfl⟩
abbrev main_cst_15 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_16 : Ref sig .tc := ⟨.hbm, 131, rfl⟩
abbrev main_call2_v0 : Ref sig .tc := ⟨.hbm, 132, rfl⟩
abbrev main_call2_v1 : Ref sig .tc := ⟨.hbm, 133, rfl⟩
abbrev main_v67 : Ref sig .tc := ⟨.hbm, 134, rfl⟩
abbrev main_c_17 : Ref sig .tc := ⟨.hbm, 135, rfl⟩
abbrev main_v68 : Ref sig .tc := ⟨.hbm, 136, rfl⟩
abbrev main_v69 : Ref sig .tc := ⟨.hbm, 137, rfl⟩
abbrev main_c_18 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_19 : Ref sig .tc := ⟨.hbm, 144, rfl⟩
abbrev main_v75 : Ref sig .tc := ⟨.hbm, 145, rfl⟩
abbrev main_v76 : Ref sig .tc := ⟨.hbm, 146, rfl⟩
abbrev main_c_20 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_c_21 : Ref sig .tc := ⟨.hbm, 153, rfl⟩
abbrev main_v82 : Ref sig .tc := ⟨.hbm, 154, rfl⟩
abbrev main_v83 : Ref sig .tc := ⟨.hbm, 155, rfl⟩
abbrev main_c_22 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_cst_23 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_call3_cst : Ref sig .tc := ⟨.hbm, 173, rfl⟩
abbrev main_call3_v0 : Ref sig .tc := ⟨.hbm, 174, rfl⟩
abbrev main_v99 : Ref sig .tc := ⟨.hbm, 175, rfl⟩
abbrev main_cst_24 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_25 : Ref sig .tc := ⟨.hbm, 183, rfl⟩
abbrev main_v106 : Ref sig .tc := ⟨.hbm, 184, rfl⟩
abbrev main_cst_26 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_27 : Ref sig .tc := ⟨.hbm, 189, rfl⟩
abbrev main_v110 : Ref sig .tc := ⟨.hbm, 190, rfl⟩
abbrev main_v111 : Ref sig .tc := ⟨.hbm, 191, rfl⟩
abbrev main_cst_28 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_29 : Ref sig .tc := ⟨.hbm, 196, rfl⟩
abbrev main_call4_v0 : Ref sig .tc := ⟨.hbm, 197, rfl⟩
abbrev main_call4_v1 : Ref sig .tc := ⟨.hbm, 198, rfl⟩
abbrev main_v115 : Ref sig .tc := ⟨.hbm, 199, rfl⟩
abbrev main_c_30 : Ref sig .tc := ⟨.hbm, 200, rfl⟩
abbrev main_v116 : Ref sig .tc := ⟨.hbm, 201, rfl⟩
abbrev main_v117 : Ref sig .tc := ⟨.hbm, 202, rfl⟩
abbrev main_c_31 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_c_32 : Ref sig .tc := ⟨.hbm, 209, rfl⟩
abbrev main_v123 : Ref sig .tc := ⟨.hbm, 210, rfl⟩
abbrev main_v124 : Ref sig .tc := ⟨.hbm, 211, rfl⟩
abbrev main_c_33 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_c_34 : Ref sig .tc := ⟨.hbm, 218, rfl⟩
abbrev main_v130 : Ref sig .tc := ⟨.hbm, 219, rfl⟩
abbrev main_v131 : Ref sig .tc := ⟨.hbm, 220, rfl⟩
abbrev main_c_35 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_36 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_call5_cst : Ref sig .tc := ⟨.hbm, 238, rfl⟩
abbrev main_call5_v0 : Ref sig .tc := ⟨.hbm, 239, rfl⟩
abbrev main_v147 : Ref sig .tc := ⟨.hbm, 240, rfl⟩
abbrev main_cst_37 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_cst_38 : Ref sig .tc := ⟨.hbm, 245, rfl⟩
abbrev main_v151 : Ref sig .tc := ⟨.hbm, 246, rfl⟩
abbrev main_cst_39 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_cst_40 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_41 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_42 : Ref sig .tc := ⟨.hbm, 272, rfl⟩
abbrev main_v174 : Ref sig .tc := ⟨.hbm, 273, rfl⟩
abbrev main_cst_43 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_cst_44 : Ref sig .tc := ⟨.hbm, 278, rfl⟩
abbrev main_v178 : Ref sig .tc := ⟨.hbm, 279, rfl⟩
abbrev main_v179 : Ref sig .tc := ⟨.hbm, 280, rfl⟩
abbrev main_cst_45 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_cst_46 : Ref sig .tc := ⟨.hbm, 285, rfl⟩
abbrev main_call6_v0 : Ref sig .tc := ⟨.hbm, 286, rfl⟩
abbrev main_call6_v1 : Ref sig .tc := ⟨.hbm, 287, rfl⟩
abbrev main_v183 : Ref sig .tc := ⟨.hbm, 288, rfl⟩
abbrev main_c_47 : Ref sig .tc := ⟨.hbm, 289, rfl⟩
abbrev main_v184 : Ref sig .tc := ⟨.hbm, 290, rfl⟩
abbrev main_v185 : Ref sig .tc := ⟨.hbm, 291, rfl⟩
abbrev main_c_48 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_c_49 : Ref sig .tc := ⟨.hbm, 298, rfl⟩
abbrev main_v191 : Ref sig .tc := ⟨.hbm, 299, rfl⟩
abbrev main_v192 : Ref sig .tc := ⟨.hbm, 300, rfl⟩
abbrev main_c_50 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_c_51 : Ref sig .tc := ⟨.hbm, 307, rfl⟩
abbrev main_v198 : Ref sig .tc := ⟨.hbm, 308, rfl⟩
abbrev main_v199 : Ref sig .tc := ⟨.hbm, 309, rfl⟩
abbrev main_c_52 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_cst_53 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_call7_cst : Ref sig .tc := ⟨.hbm, 327, rfl⟩
abbrev main_call7_v0 : Ref sig .tc := ⟨.hbm, 328, rfl⟩
abbrev main_v215 : Ref sig .tc := ⟨.hbm, 329, rfl⟩
abbrev main_cst_54 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_cst_55 : Ref sig .tc := ⟨.hbm, 337, rfl⟩
abbrev main_v222 : Ref sig .tc := ⟨.hbm, 338, rfl⟩
abbrev main_cst_56 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_cst_57 : Ref sig .tc := ⟨.hbm, 343, rfl⟩
abbrev main_v226 : Ref sig .tc := ⟨.hbm, 344, rfl⟩
abbrev main_v227 : Ref sig .tc := ⟨.hbm, 345, rfl⟩
abbrev main_cst_58 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_cst_59 : Ref sig .tc := ⟨.hbm, 350, rfl⟩
abbrev main_call8_v0 : Ref sig .tc := ⟨.hbm, 351, rfl⟩
abbrev main_call8_v1 : Ref sig .tc := ⟨.hbm, 352, rfl⟩
abbrev main_v231 : Ref sig .tc := ⟨.hbm, 353, rfl⟩
abbrev main_c_60 : Ref sig .tc := ⟨.hbm, 354, rfl⟩
abbrev main_v232 : Ref sig .tc := ⟨.hbm, 355, rfl⟩
abbrev main_v233 : Ref sig .tc := ⟨.hbm, 356, rfl⟩
abbrev main_c_61 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_c_62 : Ref sig .tc := ⟨.hbm, 363, rfl⟩
abbrev main_v239 : Ref sig .tc := ⟨.hbm, 364, rfl⟩
abbrev main_v240 : Ref sig .tc := ⟨.hbm, 365, rfl⟩
abbrev main_c_63 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_c_64 : Ref sig .tc := ⟨.hbm, 372, rfl⟩
abbrev main_v246 : Ref sig .tc := ⟨.hbm, 373, rfl⟩
abbrev main_v247 : Ref sig .tc := ⟨.hbm, 374, rfl⟩
abbrev main_c_65 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_cst_66 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_call9_cst : Ref sig .tc := ⟨.hbm, 392, rfl⟩
abbrev main_call9_v0 : Ref sig .tc := ⟨.hbm, 393, rfl⟩
abbrev main_v263 : Ref sig .tc := ⟨.hbm, 394, rfl⟩
abbrev main_cst_67 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_cst_68 : Ref sig .tc := ⟨.hbm, 402, rfl⟩
abbrev main_v270 : Ref sig .tc := ⟨.hbm, 403, rfl⟩
abbrev main_cst_69 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_cst_70 : Ref sig .tc := ⟨.hbm, 408, rfl⟩
abbrev main_v274 : Ref sig .tc := ⟨.hbm, 409, rfl⟩
abbrev main_v275 : Ref sig .tc := ⟨.hbm, 410, rfl⟩
abbrev main_cst_71 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_cst_72 : Ref sig .tc := ⟨.hbm, 415, rfl⟩
abbrev main_call10_v0 : Ref sig .tc := ⟨.hbm, 416, rfl⟩
abbrev main_call10_v1 : Ref sig .tc := ⟨.hbm, 417, rfl⟩
abbrev main_v279 : Ref sig .tc := ⟨.hbm, 418, rfl⟩
abbrev main_c_73 : Ref sig .tc := ⟨.hbm, 419, rfl⟩
abbrev main_v280 : Ref sig .tc := ⟨.hbm, 420, rfl⟩
abbrev main_v281 : Ref sig .tc := ⟨.hbm, 421, rfl⟩
abbrev main_c_74 : Ref sig .tc := ⟨.hbm, 422, rfl⟩
abbrev main_v282 : Ref sig .tc := ⟨.hbm, 423, rfl⟩
abbrev main_v283 : Ref sig .tc := ⟨.hbm, 424, rfl⟩
abbrev main_v284 : Ref sig .tc := ⟨.hbm, 425, rfl⟩
abbrev main_v285 : Ref sig .tc := ⟨.hbm, 426, rfl⟩
abbrev main_v286 : Ref sig .tc := ⟨.hbm, 427, rfl⟩
abbrev main_c_75 : Ref sig .tc := ⟨.hbm, 428, rfl⟩
abbrev main_v287 : Ref sig .tc := ⟨.hbm, 429, rfl⟩
abbrev main_v288 : Ref sig .tc := ⟨.hbm, 430, rfl⟩
abbrev main_c_76 : Ref sig .tc := ⟨.hbm, 431, rfl⟩
abbrev main_v289 : Ref sig .tc := ⟨.hbm, 432, rfl⟩
abbrev main_v290 : Ref sig .tc := ⟨.hbm, 433, rfl⟩
abbrev main_v291 : Ref sig .tc := ⟨.hbm, 434, rfl⟩
abbrev main_v292 : Ref sig .tc := ⟨.hbm, 435, rfl⟩
abbrev main_v293 : Ref sig .tc := ⟨.hbm, 436, rfl⟩
abbrev main_c_77 : Ref sig .tc := ⟨.hbm, 437, rfl⟩
abbrev main_v294 : Ref sig .tc := ⟨.hbm, 438, rfl⟩
abbrev main_v295 : Ref sig .tc := ⟨.hbm, 439, rfl⟩
abbrev main_c_78 : Ref sig .tc := ⟨.hbm, 440, rfl⟩
abbrev main_v296 : Ref sig .tc := ⟨.hbm, 441, rfl⟩
abbrev main_v297 : Ref sig .tc := ⟨.hbm, 442, rfl⟩
abbrev main_v298 : Ref sig .tc := ⟨.hbm, 443, rfl⟩
abbrev main_v299 : Ref sig .tc := ⟨.hbm, 444, rfl⟩
abbrev main_v300 : Ref sig .tc := ⟨.hbm, 445, rfl⟩
abbrev main_v301 : Ref sig .tc := ⟨.hbm, 446, rfl⟩
abbrev main_v302 : Ref sig .tc := ⟨.hbm, 447, rfl⟩
abbrev main_v303 : Ref sig .tc := ⟨.hbm, 448, rfl⟩
abbrev main_v304 : Ref sig .tc := ⟨.hbm, 449, rfl⟩
abbrev main_cst_79 : Ref sig .tc := ⟨.hbm, 450, rfl⟩
abbrev main_v305 : Ref sig .tc := ⟨.hbm, 451, rfl⟩
abbrev main_v306 : Ref sig .tc := ⟨.hbm, 452, rfl⟩
abbrev main_v307 : Ref sig .tc := ⟨.hbm, 453, rfl⟩
abbrev main_v308 : Ref sig .tc := ⟨.hbm, 454, rfl⟩
abbrev main_v309 : Ref sig .tc := ⟨.hbm, 455, rfl⟩
abbrev main_v310 : Ref sig .tc := ⟨.hbm, 456, rfl⟩
abbrev main_call11_cst : Ref sig .tc := ⟨.hbm, 457, rfl⟩
abbrev main_call11_v0 : Ref sig .tc := ⟨.hbm, 458, rfl⟩
abbrev main_v311 : Ref sig .tc := ⟨.hbm, 459, rfl⟩
abbrev main_cst_80 : Ref sig .tc := ⟨.hbm, 460, rfl⟩
abbrev main_v312 : Ref sig .tc := ⟨.hbm, 461, rfl⟩
abbrev main_v313 : Ref sig .tc := ⟨.hbm, 462, rfl⟩
abbrev main_v314 : Ref sig .tc := ⟨.hbm, 463, rfl⟩
abbrev main_cst_81 : Ref sig .tc := ⟨.hbm, 464, rfl⟩
abbrev main_v315 : Ref sig .tc := ⟨.hbm, 465, rfl⟩
abbrev main_cst_82 : Ref sig .tc := ⟨.hbm, 466, rfl⟩
abbrev main_v316 : Ref sig .tc := ⟨.hbm, 467, rfl⟩
abbrev main_v317 : Ref sig .tc := ⟨.hbm, 468, rfl⟩
abbrev main_v318 : Ref sig .tc := ⟨.hbm, 469, rfl⟩
abbrev main_cst_83 : Ref sig .tc := ⟨.hbm, 470, rfl⟩
abbrev main_v319 : Ref sig .tc := ⟨.hbm, 471, rfl⟩
abbrev main_v320 : Ref sig .tc := ⟨.hbm, 472, rfl⟩
abbrev main_v321 : Ref sig .tc := ⟨.hbm, 473, rfl⟩
abbrev main_v322 : Ref sig .tc := ⟨.hbm, 474, rfl⟩
abbrev main_v323 : Ref sig .tc := ⟨.hbm, 475, rfl⟩
abbrev main_v324 : Ref sig .tc := ⟨.hbm, 476, rfl⟩
abbrev main_v325 : Ref sig .tc := ⟨.hbm, 477, rfl⟩
abbrev main_v326 : Ref sig .tc := ⟨.hbm, 478, rfl⟩
abbrev main_v327 : Ref sig .tc := ⟨.hbm, 479, rfl⟩
abbrev main_v328 : Ref sig .tc := ⟨.hbm, 480, rfl⟩
abbrev main_v329 : Ref sig .tc := ⟨.hbm, 481, rfl⟩
abbrev main_v330 : Ref sig .tc := ⟨.hbm, 482, rfl⟩
abbrev main_v331 : Ref sig .tc := ⟨.hbm, 483, rfl⟩
abbrev main_cst_84 : Ref sig .tc := ⟨.hbm, 484, rfl⟩
abbrev main_v332 : Ref sig .tc := ⟨.hbm, 485, rfl⟩
abbrev main_v333 : Ref sig .tc := ⟨.hbm, 486, rfl⟩
abbrev main_v334 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_cst_85 : Ref sig .tc := ⟨.hbm, 491, rfl⟩
abbrev main_v338 : Ref sig .tc := ⟨.hbm, 492, rfl⟩
abbrev main_cst_86 : Ref sig .tc := ⟨.hbm, 493, rfl⟩
abbrev main_v339 : Ref sig .tc := ⟨.hbm, 494, rfl⟩
abbrev main_v340 : Ref sig .tc := ⟨.hbm, 495, rfl⟩
abbrev main_v341 : Ref sig .tc := ⟨.hbm, 496, rfl⟩
abbrev main_cst_87 : Ref sig .tc := ⟨.hbm, 497, rfl⟩
abbrev main_v342 : Ref sig .tc := ⟨.hbm, 498, rfl⟩
abbrev main_v343 : Ref sig .tc := ⟨.hbm, 499, rfl⟩
abbrev main_cst_88 : Ref sig .tc := ⟨.hbm, 500, rfl⟩
abbrev main_v344 : Ref sig .tc := ⟨.hbm, 501, rfl⟩
abbrev main_v345 : Ref sig .tc := ⟨.hbm, 502, rfl⟩
abbrev main_v346 : Ref sig .tc := ⟨.hbm, 503, rfl⟩
abbrev main_cst_89 : Ref sig .tc := ⟨.hbm, 504, rfl⟩
abbrev main_call12_v0 : Ref sig .tc := ⟨.hbm, 505, rfl⟩
abbrev main_call12_v1 : Ref sig .tc := ⟨.hbm, 506, rfl⟩
abbrev main_v347 : Ref sig .tc := ⟨.hbm, 507, rfl⟩
abbrev main_c_90 : Ref sig .tc := ⟨.hbm, 508, rfl⟩
abbrev main_v348 : Ref sig .tc := ⟨.hbm, 509, rfl⟩
abbrev main_v349 : Ref sig .tc := ⟨.hbm, 510, rfl⟩
abbrev main_c_91 : Ref sig .tc := ⟨.hbm, 511, rfl⟩
abbrev main_v350 : Ref sig .tc := ⟨.hbm, 512, rfl⟩
abbrev main_v351 : Ref sig .tc := ⟨.hbm, 513, rfl⟩
abbrev main_v352 : Ref sig .tc := ⟨.hbm, 514, rfl⟩
abbrev main_v353 : Ref sig .tc := ⟨.hbm, 515, rfl⟩
abbrev main_v354 : Ref sig .tc := ⟨.hbm, 516, rfl⟩
abbrev main_c_92 : Ref sig .tc := ⟨.hbm, 517, rfl⟩
abbrev main_v355 : Ref sig .tc := ⟨.hbm, 518, rfl⟩
abbrev main_v356 : Ref sig .tc := ⟨.hbm, 519, rfl⟩
abbrev main_c_93 : Ref sig .tc := ⟨.hbm, 520, rfl⟩
abbrev main_v357 : Ref sig .tc := ⟨.hbm, 521, rfl⟩
abbrev main_v358 : Ref sig .tc := ⟨.hbm, 522, rfl⟩
abbrev main_v359 : Ref sig .tc := ⟨.hbm, 523, rfl⟩
abbrev main_v360 : Ref sig .tc := ⟨.hbm, 524, rfl⟩
abbrev main_v361 : Ref sig .tc := ⟨.hbm, 525, rfl⟩
abbrev main_c_94 : Ref sig .tc := ⟨.hbm, 526, rfl⟩
abbrev main_v362 : Ref sig .tc := ⟨.hbm, 527, rfl⟩
abbrev main_v363 : Ref sig .tc := ⟨.hbm, 528, rfl⟩
abbrev main_c_95 : Ref sig .tc := ⟨.hbm, 529, rfl⟩
abbrev main_v364 : Ref sig .tc := ⟨.hbm, 530, rfl⟩
abbrev main_v365 : Ref sig .tc := ⟨.hbm, 531, rfl⟩
abbrev main_v366 : Ref sig .tc := ⟨.hbm, 532, rfl⟩
abbrev main_v367 : Ref sig .tc := ⟨.hbm, 533, rfl⟩
abbrev main_v368 : Ref sig .tc := ⟨.hbm, 534, rfl⟩
abbrev main_v369 : Ref sig .tc := ⟨.hbm, 535, rfl⟩
abbrev main_v370 : Ref sig .tc := ⟨.hbm, 536, rfl⟩
abbrev main_v371 : Ref sig .tc := ⟨.hbm, 537, rfl⟩
abbrev main_v372 : Ref sig .tc := ⟨.hbm, 538, rfl⟩
abbrev main_cst_96 : Ref sig .tc := ⟨.hbm, 539, rfl⟩
abbrev main_v373 : Ref sig .tc := ⟨.hbm, 540, rfl⟩
abbrev main_v374 : Ref sig .tc := ⟨.hbm, 541, rfl⟩
abbrev main_v375 : Ref sig .tc := ⟨.hbm, 542, rfl⟩
abbrev main_v376 : Ref sig .tc := ⟨.hbm, 543, rfl⟩
abbrev main_v377 : Ref sig .tc := ⟨.hbm, 544, rfl⟩
abbrev main_v378 : Ref sig .tc := ⟨.hbm, 545, rfl⟩
abbrev main_call13_cst : Ref sig .tc := ⟨.hbm, 546, rfl⟩
abbrev main_call13_v0 : Ref sig .tc := ⟨.hbm, 547, rfl⟩
abbrev main_v379 : Ref sig .tc := ⟨.hbm, 548, rfl⟩
abbrev main_cst_97 : Ref sig .tc := ⟨.hbm, 549, rfl⟩
abbrev main_v380 : Ref sig .tc := ⟨.hbm, 550, rfl⟩
abbrev main_v381 : Ref sig .tc := ⟨.hbm, 551, rfl⟩
abbrev main_v382 : Ref sig .tc := ⟨.hbm, 552, rfl⟩
abbrev main_v383 : Ref sig .tc := ⟨.hbm, 553, rfl⟩
abbrev main_v384 : Ref sig .tc := ⟨.hbm, 554, rfl⟩
abbrev main_v385 : Ref sig .tc := ⟨.hbm, 555, rfl⟩
abbrev main_cst_98 : Ref sig .tc := ⟨.hbm, 556, rfl⟩
abbrev main_v386 : Ref sig .tc := ⟨.hbm, 557, rfl⟩
abbrev main_cst_99 : Ref sig .tc := ⟨.hbm, 558, rfl⟩
abbrev main_v387 : Ref sig .tc := ⟨.hbm, 559, rfl⟩
abbrev main_v388 : Ref sig .tc := ⟨.hbm, 560, rfl⟩
abbrev main_v389 : Ref sig .tc := ⟨.hbm, 561, rfl⟩
abbrev main_cst_100 : Ref sig .tc := ⟨.hbm, 562, rfl⟩
abbrev main_v390 : Ref sig .tc := ⟨.hbm, 563, rfl⟩
abbrev main_v391 : Ref sig .tc := ⟨.hbm, 564, rfl⟩
abbrev main_cst_101 : Ref sig .tc := ⟨.hbm, 565, rfl⟩
abbrev main_v392 : Ref sig .tc := ⟨.hbm, 566, rfl⟩
abbrev main_v393 : Ref sig .tc := ⟨.hbm, 567, rfl⟩
abbrev main_v394 : Ref sig .tc := ⟨.hbm, 568, rfl⟩
abbrev main_cst_102 : Ref sig .tc := ⟨.hbm, 569, rfl⟩
abbrev main_call14_v0 : Ref sig .tc := ⟨.hbm, 570, rfl⟩
abbrev main_call14_v1 : Ref sig .tc := ⟨.hbm, 571, rfl⟩
abbrev main_v395 : Ref sig .tc := ⟨.hbm, 572, rfl⟩
abbrev main_c_103 : Ref sig .tc := ⟨.hbm, 573, rfl⟩
abbrev main_v396 : Ref sig .tc := ⟨.hbm, 574, rfl⟩
abbrev main_v397 : Ref sig .tc := ⟨.hbm, 575, rfl⟩
abbrev main_c_104 : Ref sig .tc := ⟨.hbm, 576, rfl⟩
abbrev main_v398 : Ref sig .tc := ⟨.hbm, 577, rfl⟩
abbrev main_v399 : Ref sig .tc := ⟨.hbm, 578, rfl⟩
abbrev main_v400 : Ref sig .tc := ⟨.hbm, 579, rfl⟩
abbrev main_v401 : Ref sig .tc := ⟨.hbm, 580, rfl⟩
abbrev main_v402 : Ref sig .tc := ⟨.hbm, 581, rfl⟩
abbrev main_c_105 : Ref sig .tc := ⟨.hbm, 582, rfl⟩
abbrev main_v403 : Ref sig .tc := ⟨.hbm, 583, rfl⟩
abbrev main_v404 : Ref sig .tc := ⟨.hbm, 584, rfl⟩
abbrev main_c_106 : Ref sig .tc := ⟨.hbm, 585, rfl⟩
abbrev main_v405 : Ref sig .tc := ⟨.hbm, 586, rfl⟩
abbrev main_v406 : Ref sig .tc := ⟨.hbm, 587, rfl⟩
abbrev main_v407 : Ref sig .tc := ⟨.hbm, 588, rfl⟩
abbrev main_v408 : Ref sig .tc := ⟨.hbm, 589, rfl⟩
abbrev main_v409 : Ref sig .tc := ⟨.hbm, 590, rfl⟩
abbrev main_c_107 : Ref sig .tc := ⟨.hbm, 591, rfl⟩
abbrev main_v410 : Ref sig .tc := ⟨.hbm, 592, rfl⟩
abbrev main_v411 : Ref sig .tc := ⟨.hbm, 593, rfl⟩
abbrev main_c_108 : Ref sig .tc := ⟨.hbm, 594, rfl⟩
abbrev main_v412 : Ref sig .tc := ⟨.hbm, 595, rfl⟩
abbrev main_v413 : Ref sig .tc := ⟨.hbm, 596, rfl⟩
abbrev main_v414 : Ref sig .tc := ⟨.hbm, 597, rfl⟩
abbrev main_v415 : Ref sig .tc := ⟨.hbm, 598, rfl⟩
abbrev main_v416 : Ref sig .tc := ⟨.hbm, 599, rfl⟩
abbrev main_v417 : Ref sig .tc := ⟨.hbm, 600, rfl⟩
abbrev main_v418 : Ref sig .tc := ⟨.hbm, 601, rfl⟩
abbrev main_v419 : Ref sig .tc := ⟨.hbm, 602, rfl⟩
abbrev main_v420 : Ref sig .tc := ⟨.hbm, 603, rfl⟩
abbrev main_cst_109 : Ref sig .tc := ⟨.hbm, 604, rfl⟩
abbrev main_v421 : Ref sig .tc := ⟨.hbm, 605, rfl⟩
abbrev main_v422 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_call15_cst : Ref sig .tc := ⟨.hbm, 611, rfl⟩
abbrev main_call15_v0 : Ref sig .tc := ⟨.hbm, 612, rfl⟩
abbrev main_v427 : Ref sig .tc := ⟨.hbm, 613, rfl⟩
abbrev main_v428 : Ref sig .tc := ⟨.hbm, 614, rfl⟩
abbrev main_v429 : Ref sig .tc := ⟨.hbm, 615, rfl⟩
abbrev main_v430 : Ref sig .tc := ⟨.hbm, 616, rfl⟩
abbrev main_v431 : Ref sig .tc := ⟨.hbm, 617, rfl⟩
abbrev main_c_110 : Ref sig .tc := ⟨.hbm, 618, rfl⟩
abbrev main_v432 : Ref sig .tc := ⟨.hbm, 619, rfl⟩
abbrev main_v433 : Ref sig .tc := ⟨.hbm, 620, rfl⟩
abbrev main_c_111 : Ref sig .tc := ⟨.hbm, 621, rfl⟩
abbrev main_v434 : Ref sig .tc := ⟨.hbm, 622, rfl⟩
abbrev main_v435 : Ref sig .tc := ⟨.hbm, 623, rfl⟩
abbrev main_v436 : Ref sig .tc := ⟨.hbm, 624, rfl⟩
abbrev main_v437 : Ref sig .tc := ⟨.hbm, 625, rfl⟩
abbrev main_v438 : Ref sig .tc := ⟨.hbm, 626, rfl⟩
abbrev main_v439 : Ref sig .tc := ⟨.hbm, 627, rfl⟩
abbrev main_v440 : Ref sig .tc := ⟨.hbm, 628, rfl⟩
abbrev main_v441 : Ref sig .tc := ⟨.hbm, 629, rfl⟩
abbrev main_v442 : Ref sig .tc := ⟨.hbm, 630, rfl⟩
abbrev main_v443 : Ref sig .tc := ⟨.hbm, 631, rfl⟩
abbrev main_v444 : Ref sig .tc := ⟨.hbm, 632, rfl⟩
abbrev main_v445 : Ref sig .tc := ⟨.hbm, 633, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg3_0 : Ref sig .tc := ⟨.vmem, 55, rfl⟩
abbrev cc11_stg0_0 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg3_0 : Ref sig .tc := ⟨.vmem, 59, rfl⟩
abbrev cc12_stg0_0 : Ref sig .tc := ⟨.vmem, 60, rfl⟩
abbrev cc12_stg1_0 : Ref sig .tc := ⟨.vmem, 61, rfl⟩
abbrev cc12_stg2_0 : Ref sig .tc := ⟨.vmem, 62, rfl⟩
abbrev cc12_stg3_0 : Ref sig .tc := ⟨.vmem, 63, rfl⟩
abbrev cc13_stg0_0 : Ref sig .tc := ⟨.vmem, 64, rfl⟩
abbrev cc13_stg1_0 : Ref sig .tc := ⟨.vmem, 65, rfl⟩
abbrev cc13_stg2_0 : Ref sig .tc := ⟨.vmem, 66, rfl⟩
abbrev cc13_stg3_0 : Ref sig .tc := ⟨.vmem, 67, rfl⟩
abbrev cc14_stg0_0 : Ref sig .tc := ⟨.vmem, 68, rfl⟩
abbrev cc14_stg1_0 : Ref sig .tc := ⟨.vmem, 69, rfl⟩
abbrev cc14_stg2_0 : Ref sig .tc := ⟨.vmem, 70, rfl⟩
abbrev cc14_stg3_0 : Ref sig .tc := ⟨.vmem, 71, rfl⟩
abbrev cc15_stg0_0 : Ref sig .tc := ⟨.vmem, 72, rfl⟩
abbrev cc15_stg1_0 : Ref sig .tc := ⟨.vmem, 73, rfl⟩
abbrev cc15_stg2_0 : Ref sig .tc := ⟨.vmem, 74, rfl⟩
abbrev cc15_stg3_0 : Ref sig .tc := ⟨.vmem, 75, rfl⟩
abbrev cc16_stg0_0 : Ref sig .tc := ⟨.vmem, 76, rfl⟩
abbrev cc16_stg1_0 : Ref sig .tc := ⟨.vmem, 77, rfl⟩
abbrev cc16_stg2_0 : Ref sig .tc := ⟨.vmem, 78, rfl⟩
abbrev cc16_stg3_0 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem1_0 : DmaSem sig := 23
abbrev cc4_sem2_0 : DmaSem sig := 24
abbrev cc4_sem3_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem1_0 : DmaSem sig := 45
abbrev cc8_sem2_0 : DmaSem sig := 46
abbrev cc8_sem3_0 : DmaSem sig := 47
abbrev cc9_sem0_0 : DmaSem sig := 48
abbrev cc9_sem1_0 : DmaSem sig := 49
abbrev cc9_sem2_0 : DmaSem sig := 50
abbrev cc9_sem3_0 : DmaSem sig := 51
abbrev cc10_sem0_0 : DmaSem sig := 52
abbrev cc10_sem1_0 : DmaSem sig := 53
abbrev cc10_sem2_0 : DmaSem sig := 54
abbrev cc10_sem3_0 : DmaSem sig := 55
abbrev cc11_sem0_0 : DmaSem sig := 56
abbrev cc11_sem1_0 : DmaSem sig := 57
abbrev cc11_sem2_0 : DmaSem sig := 58
abbrev cc11_sem3_0 : DmaSem sig := 59
abbrev cc12_sem0_0 : DmaSem sig := 60
abbrev cc12_sem1_0 : DmaSem sig := 61
abbrev cc12_sem2_0 : DmaSem sig := 62
abbrev cc12_sem3_0 : DmaSem sig := 63
abbrev cc13_sem0_0 : DmaSem sig := 64
abbrev cc13_sem1_0 : DmaSem sig := 65
abbrev cc13_sem2_0 : DmaSem sig := 66
abbrev cc13_sem3_0 : DmaSem sig := 67
abbrev cc14_sem0_0 : DmaSem sig := 68
abbrev cc14_sem1_0 : DmaSem sig := 69
abbrev cc14_sem2_0 : DmaSem sig := 70
abbrev cc14_sem3_0 : DmaSem sig := 71
abbrev cc15_sem0_0 : DmaSem sig := 72
abbrev cc15_sem1_0 : DmaSem sig := 73
abbrev cc15_sem2_0 : DmaSem sig := 74
abbrev cc15_sem3_0 : DmaSem sig := 75
abbrev cc16_sem0_0 : DmaSem sig := 76
abbrev cc16_sem1_0 : DmaSem sig := 77
abbrev cc16_sem2_0 : DmaSem sig := 78
abbrev cc16_sem3_0 : DmaSem sig := 79

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x156 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x156 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x156 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S156x312 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x312 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x312 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x312 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S312x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2048x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x33 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S33x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![30], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![30], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S2000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S2000x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S2000x1024 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1024x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2000x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S2000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S2000x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S2000x1024 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1024x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S2000x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S2000x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S128x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S2000x1024 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S2000x1024 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S1024x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S2000x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S2048x256 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S256x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S2048x1024 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S2048x1024 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S1024x512 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x512 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S2048x512 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S2048x512 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S512x1 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S2048x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S156 : S_.BroadcastsInDim S156 (![] : Fin 0 → Fin S156.rank)
  shapeCasts_S156_S1x156 : S156.ShapeCasts S1x156
  inb_S4096x78_S4096x78_0_0 : ∀ a, (![0, 0] : Fin 2 → Nat) a + S4096x78.size a ≤ S4096x78.size a
  h_S4096x78 : 0 < S4096x78.numel
  bitsLt_bf16_f32 : FTy.bits .bf16 < FTy.bits .f32
  inb_S78x156_S78x156_0_0 : ∀ a, (![0, 0] : Fin 2 → Nat) a + S78x156.size a ≤ S78x156.size a
  h_S78x156 : 0 < S78x156.numel
  inb_S1x156_S1x156_0_0 : ∀ a, (![0, 0] : Fin 2 → Nat) a + S1x156.size a ≤ S1x156.size a
  h_S1x156 : 0 < S1x156.numel
  shapeCasts_S1x156_S1x156 : S1x156.ShapeCasts S1x156
  broadcasts_S1x156_S4096x156 : S1x156.Broadcasts S4096x156
  inb_S4096x156_S4096x156_0_0 : ∀ a, (![0, 0] : Fin 2 → Nat) a + S4096x156.size a ≤ S4096x156.size a
  h_S4096x156 : 0 < S4096x156.numel
  concatenates_S131072_S65536_S196608_d0 : Shape.Concatenates [S131072, S65536] S196608 0
  bcast_S_S196608 : S_.BroadcastsInDim S196608 (![] : Fin 0 → Fin S196608.rank)
  bcast_S_S65536 : S_.BroadcastsInDim S65536 (![] : Fin 0 → Fin S65536.rank)
  bcast_S196608_S196608x1_0 : S196608.BroadcastsInDim S196608x1 (![0] : Fin 1 → Fin S196608x1.rank)
  bcast_S196608x1_S196608x156_0_1 : S196608x1.BroadcastsInDim S196608x156 (![0, 1] : Fin 2 → Fin S196608x156.rank)
  bcast_S_S65536x156 : S_.BroadcastsInDim S65536x156 (![] : Fin 0 → Fin S65536x156.rank)
  bcast_S156_S1x156_1 : S156.BroadcastsInDim S1x156 (![1] : Fin 1 → Fin S1x156.rank)
  bcast_S1x156_S65536x156_0_1 : S1x156.BroadcastsInDim S65536x156 (![0, 1] : Fin 2 → Fin S65536x156.rank)
  bcast_S_S312 : S_.BroadcastsInDim S312 (![] : Fin 0 → Fin S312.rank)
  shapeCasts_S312_S1x312 : S312.ShapeCasts S1x312
  shapeCasts_S4096x156_S4096x156 : S4096x156.ShapeCasts S4096x156
  inb_S156x312_S156x312_0_0 : ∀ a, (![0, 0] : Fin 2 → Nat) a + S156x312.size a ≤ S156x312.size a
  h_S156x312 : 0 < S156x312.numel
  inb_S1x312_S1x312_0_0 : ∀ a, (![0, 0] : Fin 2 → Nat) a + S1x312.size a ≤ S1x312.size a
  h_S1x312 : 0 < S1x312.numel
  shapeCasts_S1x312_S1x312 : S1x312.ShapeCasts S1x312
  broadcasts_S1x312_S4096x312 : S1x312.Broadcasts S4096x312
  inb_S4096x312_S4096x312_0_0 : ∀ a, (![0, 0] : Fin 2 → Nat) a + S4096x312.size a ≤ S4096x312.size a
  h_S4096x312 : 0 < S4096x312.numel
  bcast_S196608x1_S196608x312_0_1 : S196608x1.BroadcastsInDim S196608x312 (![0, 1] : Fin 2 → Fin S196608x312.rank)
  bcast_S_S65536x312 : S_.BroadcastsInDim S65536x312 (![] : Fin 0 → Fin S65536x312.rank)
  bcast_S312_S1x312_1 : S312.BroadcastsInDim S1x312 (![1] : Fin 1 → Fin S1x312.rank)
  bcast_S1x312_S65536x312_0_1 : S1x312.BroadcastsInDim S65536x312 (![0, 1] : Fin 2 → Fin S65536x312.rank)
  bcast_S_S128 : S_.BroadcastsInDim S128 (![] : Fin 0 → Fin S128.rank)
  shapeCasts_S128_S1x128 : S128.ShapeCasts S1x128
  shapeCasts_S4096x312_S4096x312 : S4096x312.ShapeCasts S4096x312
  inb_S312x128_S312x128_0_0 : ∀ a, (![0, 0] : Fin 2 → Nat) a + S312x128.size a ≤ S312x128.size a
  h_S312x128 : 0 < S312x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  bcast_S196608x1_S196608x128_0_1 : S196608x1.BroadcastsInDim S196608x128 (![0, 1] : Fin 2 → Fin S196608x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S2048x128 : S_.BroadcastsInDim S2048x128 (![] : Fin 0 → Fin S2048x128.rank)
  bcast_S65536_S65536x1_0 : S65536.BroadcastsInDim S65536x1 (![0] : Fin 1 → Fin S65536x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  shapeCasts_S1024_S1x1024 : S1024.ShapeCasts S1x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  broadcasts_S1x128_S2048x128 : S1x128.Broadcasts S2048x128
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  inb_S10000x33_S10000x33_0_0 : ∀ a, (![0, 0] : Fin 2 → Nat) a + S10000x33.size a ≤ S10000x33.size a
  h_S10000x33 : 0 < S10000x33.numel
  inb_S33x128_S33x128_0_0 : ∀ a, (![0, 0] : Fin 2 → Nat) a + S33x128.size a ≤ S33x128.size a
  h_S33x128 : 0 < S33x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  concatenates_S1200000_S300000_S1500000_d0 : Shape.Concatenates [S1200000, S300000] S1500000 0
  bcast_S_S1500000 : S_.BroadcastsInDim S1500000 (![] : Fin 0 → Fin S1500000.rank)
  bcast_S_S300000 : S_.BroadcastsInDim S300000 (![] : Fin 0 → Fin S300000.rank)
  bcast_S1500000_S1500000x1_0 : S1500000.BroadcastsInDim S1500000x1 (![0] : Fin 1 → Fin S1500000x1.rank)
  bcast_S1500000x1_S1500000x128_0_1 : S1500000x1.BroadcastsInDim S1500000x128 (![0, 1] : Fin 2 → Fin S1500000x128.rank)
  bcast_S_S300000x128 : S_.BroadcastsInDim S300000x128 (![] : Fin 0 → Fin S300000x128.rank)
  bcast_S1x128_S300000x128_0_1 : S1x128.BroadcastsInDim S300000x128 (![0, 1] : Fin 2 → Fin S300000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S2000x128 : S_.BroadcastsInDim S2000x128 (![] : Fin 0 → Fin S2000x128.rank)
  bcast_S300000_S300000x1_0 : S300000.BroadcastsInDim S300000x1 (![0] : Fin 1 → Fin S300000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  broadcasts_S1x128_S2000x128 : S1x128.Broadcasts S2000x128
  slices_S2x64000_S1x64000_0_0 : S2x64000.Slices ![0, 0] S1x64000
  shapeCasts_S1x64000_S64000 : S1x64000.ShapeCasts S64000
  slices_S2x64000_S1x64000_1_0 : S2x64000.Slices ![1, 0] S1x64000
  bcast_S_S1024 : S_.BroadcastsInDim S1024 (![] : Fin 0 → Fin S1024.rank)
  concatenates_S64000_S2000_S66000_d0 : Shape.Concatenates [S64000, S2000] S66000 0
  bcast_S_S66000 : S_.BroadcastsInDim S66000 (![] : Fin 0 → Fin S66000.rank)
  bcast_S66000_S66000x1_0 : S66000.BroadcastsInDim S66000x1 (![0] : Fin 1 → Fin S66000x1.rank)
  bcast_S66000x1_S66000x1024_0_1 : S66000x1.BroadcastsInDim S66000x1024 (![0, 1] : Fin 2 → Fin S66000x1024.rank)
  bcast_S_S2000x1024 : S_.BroadcastsInDim S2000x1024 (![] : Fin 0 → Fin S2000x1024.rank)
  bcast_S1024_S1x1024_1 : S1024.BroadcastsInDim S1x1024 (![1] : Fin 1 → Fin S1x1024.rank)
  bcast_S1x1024_S2000x1024_0_1 : S1x1024.BroadcastsInDim S2000x1024 (![0, 1] : Fin 2 → Fin S2000x1024.rank)
  bcast_S66000x1_S66000x128_0_1 : S66000x1.BroadcastsInDim S66000x128 (![0, 1] : Fin 2 → Fin S66000x128.rank)
  bcast_S1x128_S2000x128_0_1 : S1x128.BroadcastsInDim S2000x128 (![0, 1] : Fin 2 → Fin S2000x128.rank)
  concatenates_S2048x128_S2048x128_S2048x256_d1 : Shape.Concatenates [S2048x128, S2048x128] S2048x256 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S1_S1x1 : S1.ShapeCasts S1x1
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S4096x78_S78x156_S4096x156_1_0_0_1_n_n_wf : DotDims.WF S4096x78 S78x156 S4096x156 [1] [0] [0] [1] [] []
  scatter_S65536_S196608x1_S196608_n_0_0_1_wf : ScatterDims.WF S65536 S196608x1 S196608 [] [0] [0] 1
  gather_S65536x156_S196608x1_S196608x156_1_0_n_n_0_1_1156_wf : GatherDims.WF S65536x156 S196608x1 S196608x156 [1] [0] [] [0] [] 1 ![1, 156]
  gather_S65536_S196608x1_S196608_n_0_n_n_0_1_1_wf : GatherDims.WF S65536 S196608x1 S196608 [] [0] [] [0] [] 1 ![1]
  scatter_S65536x156_S196608x1_S196608x156_1_0_0_1_wf : ScatterDims.WF S65536x156 S196608x1 S196608x156 [1] [0] [0] 1
  dot_S4096x156_S156x312_S4096x312_1_0_0_1_n_n_wf : DotDims.WF S4096x156 S156x312 S4096x312 [1] [0] [0] [1] [] []
  gather_S65536x312_S196608x1_S196608x312_1_0_n_n_0_1_1312_wf : GatherDims.WF S65536x312 S196608x1 S196608x312 [1] [0] [] [0] [] 1 ![1, 312]
  scatter_S65536x312_S196608x1_S196608x312_1_0_0_1_wf : ScatterDims.WF S65536x312 S196608x1 S196608x312 [1] [0] [0] 1
  dot_S4096x312_S312x128_S4096x128_1_0_0_1_n_n_wf : DotDims.WF S4096x312 S312x128 S4096x128 [1] [0] [0] [1] [] []
  gather_S65536x128_S196608x1_S196608x128_1_0_n_n_0_1_1128_wf : GatherDims.WF S65536x128 S196608x1 S196608x128 [1] [0] [] [0] [] 1 ![1, 128]
  scatter_S65536x128_S196608x1_S196608x128_1_0_0_1_wf : ScatterDims.WF S65536x128 S196608x1 S196608x128 [1] [0] [0] 1
  scatter_S2048x128_S65536x1_S65536x128_1_0_0_1_wf : ScatterDims.WF S2048x128 S65536x1 S65536x128 [1] [0] [0] 1
  scatter_S2048_S65536x1_S65536_n_0_0_1_wf : ScatterDims.WF S2048 S65536x1 S65536 [] [0] [0] 1
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  dot_S10000x33_S33x128_S10000x128_1_0_0_1_n_n_wf : DotDims.WF S10000x33 S33x128 S10000x128 [1] [0] [0] [1] [] []
  scatter_S300000_S1500000x1_S1500000_n_0_0_1_wf : ScatterDims.WF S300000 S1500000x1 S1500000 [] [0] [0] 1
  gather_S300000x128_S1500000x1_S1500000x128_1_0_n_n_0_1_1128_wf : GatherDims.WF S300000x128 S1500000x1 S1500000x128 [1] [0] [] [0] [] 1 ![1, 128]
  gather_S300000_S1500000x1_S1500000_n_0_n_n_0_1_1_wf : GatherDims.WF S300000 S1500000x1 S1500000 [] [0] [] [0] [] 1 ![1]
  scatter_S300000x128_S1500000x1_S1500000x128_1_0_0_1_wf : ScatterDims.WF S300000x128 S1500000x1 S1500000x128 [1] [0] [0] 1
  dot_S10000x128_S128x128_S10000x128_1_0_0_1_n_n_wf : DotDims.WF S10000x128 S128x128 S10000x128 [1] [0] [0] [1] [] []
  scatter_S2000x128_S300000x1_S300000x128_1_0_0_1_wf : ScatterDims.WF S2000x128 S300000x1 S300000x128 [1] [0] [0] 1
  scatter_S2000_S300000x1_S300000_n_0_0_1_wf : ScatterDims.WF S2000 S300000x1 S300000 [] [0] [0] 1
  dot_S2000x128_S128x1024_S2000x1024_1_0_0_1_n_n_wf : DotDims.WF S2000x128 S128x1024 S2000x1024 [1] [0] [0] [1] [] []
  dot_S2000x1024_S1024x128_S2000x128_1_0_0_1_n_n_wf : DotDims.WF S2000x1024 S1024x128 S2000x128 [1] [0] [0] [1] [] []
  scatter_S2000_S66000x1_S66000_n_0_0_1_wf : ScatterDims.WF S2000 S66000x1 S66000 [] [0] [0] 1
  gather_S2000x1024_S66000x1_S66000x1024_1_0_n_n_0_1_11024_wf : GatherDims.WF S2000x1024 S66000x1 S66000x1024 [1] [0] [] [0] [] 1 ![1, 1024]
  gather_S2000_S66000x1_S66000_n_0_n_n_0_1_1_wf : GatherDims.WF S2000 S66000x1 S66000 [] [0] [] [0] [] 1 ![1]
  scatter_S2000x1024_S66000x1_S66000x1024_1_0_0_1_wf : ScatterDims.WF S2000x1024 S66000x1 S66000x1024 [1] [0] [0] 1
  gather_S2000x128_S66000x1_S66000x128_1_0_n_n_0_1_1128_wf : GatherDims.WF S2000x128 S66000x1 S66000x128 [1] [0] [] [0] [] 1 ![1, 128]
  scatter_S2000x128_S66000x1_S66000x128_1_0_0_1_wf : ScatterDims.WF S2000x128 S66000x1 S66000x128 [1] [0] [0] 1
  gather_S2000x128_S2048x1_S2048x128_1_0_n_n_0_1_1128_wf : GatherDims.WF S2000x128 S2048x1 S2048x128 [1] [0] [] [0] [] 1 ![1, 128]
  dot_S2048x256_S256x1024_S2048x1024_1_0_0_1_n_n_wf : DotDims.WF S2048x256 S256x1024 S2048x1024 [1] [0] [0] [1] [] []
  dot_S2048x1024_S1024x512_S2048x512_1_0_0_1_n_n_wf : DotDims.WF S2048x1024 S1024x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x78.size a ≤ S65536x78.size a
  hwx0_0 : ∀ i : grid0.Coords, EltTy.bits .f32 = 32 ∨ (Rect.block (s := S65536x78) S4096x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x156.size a ≤ S78x156.size a
  hwx0_1 : ∀ i : grid0.Coords, EltTy.bits .f32 = 32 ∨ (Rect.block (s := S78x156) S78x156.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x156.size a ≤ S1x156.size a
  hwx0_2 : ∀ i : grid0.Coords, EltTy.bits .f32 = 32 ∨ (Rect.block (s := S1x156) S1x156.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x156.size a ≤ S65536x156.size a
  hwx0_3 : ∀ i : grid0.Coords, EltTy.bits .f32 = 32 ∨ (Rect.block (s := S65536x156) S4096x156.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x156.size a ≤ S65536x156.size a
  hwx1_0 : ∀ i : grid1.Coords, EltTy.bits .f32 = 32 ∨ (Rect.block (s := S65536x156) S4096x156.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S156x312.size a ≤ S156x312.size a
  hwx1_1 : ∀ i : grid1.Coords, EltTy.bits .f32 = 32 ∨ (Rect.block (s := S156x312) S156x312.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x312.size a ≤ S1x312.size a
  hwx1_2 : ∀ i : grid1.Coords, EltTy.bits .f32 = 32 ∨ (Rect.block (s := S1x312) S1x312.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x312.size a ≤ S65536x312.size a
  hwx1_3 : ∀ i : grid1.Coords, EltTy.bits .f32 = 32 ∨ (Rect.block (s := S65536x312) S4096x312.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x312.size a ≤ S65536x312.size a
  hwx2_0 : ∀ i : grid2.Coords, EltTy.bits .f32 = 32 ∨ (Rect.block (s := S65536x312) S4096x312.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S312x128.size a ≤ S312x128.size a
  hwx2_1 : ∀ i : grid2.Coords, EltTy.bits .f32 = 32 ∨ (Rect.block (s := S312x128) S312x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S65536x128.size a
  hwx2_3 : ∀ i : grid2.Coords, EltTy.bits .f32 = 32 ∨ (Rect.block (s := S65536x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S2048x128.size a
  hwx3_0 : ∀ i : grid3.Coords, EltTy.bits .f32 = 32 ∨ (Rect.block (s := S2048x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S128x1024.size a
  hwx3_1 : ∀ i : grid3.Coords, EltTy.bits .f32 = 32 ∨ (Rect.block (s := S128x1024) S128x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S2048x1024.size a
  hwx3_3 : ∀ i : grid3.Coords, EltTy.bits .f32 = 32 ∨ (Rect.block (s := S2048x1024) S2048x1024.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S2048x1024.size a
  hwx4_0 : ∀ i : grid4.Coords, EltTy.bits .f32 = 32 ∨ (Rect.block (s := S2048x1024) S2048x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S1024x128.size a
  hwx4_1 : ∀ i : grid4.Coords, EltTy.bits .f32 = 32 ∨ (Rect.block (s := S1024x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S2048x128.size a
  hwx4_3 : ∀ i : grid4.Coords, EltTy.bits .f32 = 32 ∨ (Rect.block (s := S2048x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x33.size a ≤ S300000x33.size a
  hwx5_0 : ∀ i : grid5.Coords, EltTy.bits .f32 = 32 ∨ (Rect.block (s := S300000x33) S10000x33.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S33x128.size a ≤ S33x128.size a
  hwx5_1 : ∀ i : grid5.Coords, EltTy.bits .f32 = 32 ∨ (Rect.block (s := S33x128) S33x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S300000x128.size a
  hwx5_3 : ∀ i : grid5.Coords, EltTy.bits .f32 = 32 ∨ (Rect.block (s := S300000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S300000x128.size a
  hwx6_0 : ∀ i : grid6.Coords, EltTy.bits .f32 = 32 ∨ (Rect.block (s := S300000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S300000x128.size a
  hwx6_3 : ∀ i : grid6.Coords, EltTy.bits .f32 = 32 ∨ (Rect.block (s := S300000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S300000x128.size a
  hwx7_0 : ∀ i : grid7.Coords, EltTy.bits .f32 = 32 ∨ (Rect.block (s := S300000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S300000x128.size a
  hwx7_3 : ∀ i : grid7.Coords, EltTy.bits .f32 = 32 ∨ (Rect.block (s := S300000x128) S10000x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S2000x128.size a
  hwx8_0 : ∀ i : grid8.Coords, EltTy.bits .f32 = 32 ∨ (Rect.block (s := S2000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x1024.size a ≤ S128x1024.size a
  hwx8_1 : ∀ i : grid8.Coords, EltTy.bits .f32 = 32 ∨ (Rect.block (s := S128x1024) S128x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S2000x1024.size a ≤ S2000x1024.size a
  hwx8_3 : ∀ i : grid8.Coords, EltTy.bits .f32 = 32 ∨ (Rect.block (s := S2000x1024) S2000x1024.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S2000x1024.size a ≤ S2000x1024.size a
  hwx9_0 : ∀ i : grid9.Coords, EltTy.bits .f32 = 32 ∨ (Rect.block (s := S2000x1024) S2000x1024.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1024x128.size a ≤ S1024x128.size a
  hwx9_1 : ∀ i : grid9.Coords, EltTy.bits .f32 = 32 ∨ (Rect.block (s := S1024x128) S1024x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S2000x128.size a
  hwx9_3 : ∀ i : grid9.Coords, EltTy.bits .f32 = 32 ∨ (Rect.block (s := S2000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S2000x128.size a
  hwx10_0 : ∀ i : grid10.Coords, EltTy.bits .f32 = 32 ∨ (Rect.block (s := S2000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x1024.size a ≤ S128x1024.size a
  hwx10_1 : ∀ i : grid10.Coords, EltTy.bits .f32 = 32 ∨ (Rect.block (s := S128x1024) S128x1024.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1024.size a ≤ S1x1024.size a
  hwx10_2 : ∀ i : grid10.Coords, EltTy.bits .f32 = 32 ∨ (Rect.block (s := S1x1024) S1x1024.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S2000x1024.size a ≤ S2000x1024.size a
  hwx10_3 : ∀ i : grid10.Coords, EltTy.bits .f32 = 32 ∨ (Rect.block (s := S2000x1024) S2000x1024.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S2000x1024.size a ≤ S2000x1024.size a
  hwx11_0 : ∀ i : grid11.Coords, EltTy.bits .f32 = 32 ∨ (Rect.block (s := S2000x1024) S2000x1024.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1024x128.size a ≤ S1024x128.size a
  hwx11_1 : ∀ i : grid11.Coords, EltTy.bits .f32 = 32 ∨ (Rect.block (s := S1024x128) S1024x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S2000x128.size a
  hwx11_3 : ∀ i : grid11.Coords, EltTy.bits .f32 = 32 ∨ (Rect.block (s := S2000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S2000x128.size a
  hwx12_0 : ∀ i : grid12.Coords, EltTy.bits .f32 = 32 ∨ (Rect.block (s := S2000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x1024.size a ≤ S128x1024.size a
  hwx12_1 : ∀ i : grid12.Coords, EltTy.bits .f32 = 32 ∨ (Rect.block (s := S128x1024) S128x1024.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1024.size a ≤ S1x1024.size a
  hwx12_2 : ∀ i : grid12.Coords, EltTy.bits .f32 = 32 ∨ (Rect.block (s := S1x1024) S1x1024.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S2000x1024.size a ≤ S2000x1024.size a
  hwx12_3 : ∀ i : grid12.Coords, EltTy.bits .f32 = 32 ∨ (Rect.block (s := S2000x1024) S2000x1024.size (cc12_transform_3 i) (hinb12_3 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S2000x1024.size a ≤ S2000x1024.size a
  hwx13_0 : ∀ i : grid13.Coords, EltTy.bits .f32 = 32 ∨ (Rect.block (s := S2000x1024) S2000x1024.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1024x128.size a ≤ S1024x128.size a
  hwx13_1 : ∀ i : grid13.Coords, EltTy.bits .f32 = 32 ∨ (Rect.block (s := S1024x128) S1024x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 1
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S2000x128.size a
  hwx13_3 : ∀ i : grid13.Coords, EltTy.bits .f32 = 32 ∨ (Rect.block (s := S2000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S2048x256.size a ≤ S2048x256.size a
  hwx14_0 : ∀ i : grid14.Coords, EltTy.bits .f32 = 32 ∨ (Rect.block (s := S2048x256) S2048x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x1024.size a ≤ S256x1024.size a
  hwx14_1 : ∀ i : grid14.Coords, EltTy.bits .f32 = 32 ∨ (Rect.block (s := S256x1024) S256x1024.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1024.size a ≤ S1x1024.size a
  hwx14_2 : ∀ i : grid14.Coords, EltTy.bits .f32 = 32 ∨ (Rect.block (s := S1x1024) S1x1024.size (cc14_transform_2 i) (hinb14_2 i)).WholeWords (EltTy.packing .f32)
  hstage14_3 : ∀ j, (stage14_3 j).IsWhole
  nbuf14_3 : grid14.bufCount reads14_3 false = 1
  hreads14_3 : ∀ i i' : grid14.Coords, (∀ a, reads14_3 a = true → i a = i' a) → cc14_transform_3 i = cc14_transform_3 i'
  hinb14_3 : ∀ (i : grid14.Coords) a, (cc14_transform_3 i a + 1) * S2048x1024.size a ≤ S2048x1024.size a
  hwx14_3 : ∀ i : grid14.Coords, EltTy.bits .f32 = 32 ∨ (Rect.block (s := S2048x1024) S2048x1024.size (cc14_transform_3 i) (hinb14_3 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S2048x1024.size a ≤ S2048x1024.size a
  hwx15_0 : ∀ i : grid15.Coords, EltTy.bits .f32 = 32 ∨ (Rect.block (s := S2048x1024) S2048x1024.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1024x512.size a ≤ S1024x512.size a
  hwx15_1 : ∀ i : grid15.Coords, EltTy.bits .f32 = 32 ∨ (Rect.block (s := S1024x512) S1024x512.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x512.size a ≤ S1x512.size a
  hwx15_2 : ∀ i : grid15.Coords, EltTy.bits .f32 = 32 ∨ (Rect.block (s := S1x512) S1x512.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S2048x512.size a ≤ S2048x512.size a
  hwx15_3 : ∀ i : grid15.Coords, EltTy.bits .f32 = 32 ∨ (Rect.block (s := S2048x512) S2048x512.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S2048x512.size a ≤ S2048x512.size a
  hwx16_0 : ∀ i : grid16.Coords, EltTy.bits .f32 = 32 ∨ (Rect.block (s := S2048x512) S2048x512.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S512x1.size a ≤ S512x1.size a
  hwx16_1 : ∀ i : grid16.Coords, EltTy.bits .f32 = 32 ∨ (Rect.block (s := S512x1) S512x1.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S2048x1.size a ≤ S2048x1.size a
  hwx16_3 : ∀ i : grid16.Coords, EltTy.bits .f32 = 32 ∨ (Rect.block (s := S2048x1) S2048x1.size (cc16_transform_3 i) (hinb16_3 i)).WholeWords (EltTy.packing .f32)

variable [Facts₀]

def dot_S4096x78_S78x156_S4096x156_1_0_0_1_n_n : DotDims S4096x78 S78x156 S4096x156 where
  lhsContracting := [1]
  rhsContracting := [0]
  lhsNonContracting := [0]
  rhsNonContracting := [1]
  lhsBatch := []
  rhsBatch := []
  wf := dot_S4096x78_S78x156_S4096x156_1_0_0_1_n_n_wf
def scatter_S65536_S196608x1_S196608_n_0_0_1 : ScatterDims S65536 S196608x1 S196608 where
  updateWindowDims := []
  insertedWindowDims := [0]
  scatterDimsToOperandDims := [0]
  indexVectorDim := 1
  wf := scatter_S65536_S196608x1_S196608_n_0_0_1_wf
def gather_S65536x156_S196608x1_S196608x156_1_0_n_n_0_1_1156 : GatherDims S65536x156 S196608x1 S196608x156 where
  offsetDims := [1]
  collapsedSliceDims := [0]
  operandBatchingDims := []
  startIndicesBatchingDims := []
  startIndexMap := [0]
  indexVectorDim := 1
  sliceSizes := ![1, 156]
  wf := gather_S65536x156_S196608x1_S196608x156_1_0_n_n_0_1_1156_wf
def gather_S65536_S196608x1_S196608_n_0_n_n_0_1_1 : GatherDims S65536 S196608x1 S196608 where
  offsetDims := []
  collapsedSliceDims := [0]
  operandBatchingDims := []
  startIndicesBatchingDims := []
  startIndexMap := [0]
  indexVectorDim := 1
  sliceSizes := ![1]
  wf := gather_S65536_S196608x1_S196608_n_0_n_n_0_1_1_wf
def scatter_S65536x156_S196608x1_S196608x156_1_0_0_1 : ScatterDims S65536x156 S196608x1 S196608x156 where
  updateWindowDims := [1]
  insertedWindowDims := [0]
  scatterDimsToOperandDims := [0]
  indexVectorDim := 1
  wf := scatter_S65536x156_S196608x1_S196608x156_1_0_0_1_wf
def dot_S4096x156_S156x312_S4096x312_1_0_0_1_n_n : DotDims S4096x156 S156x312 S4096x312 where
  lhsContracting := [1]
  rhsContracting := [0]
  lhsNonContracting := [0]
  rhsNonContracting := [1]
  lhsBatch := []
  rhsBatch := []
  wf := dot_S4096x156_S156x312_S4096x312_1_0_0_1_n_n_wf
def gather_S65536x312_S196608x1_S196608x312_1_0_n_n_0_1_1312 : GatherDims S65536x312 S196608x1 S196608x312 where
  offsetDims := [1]
  collapsedSliceDims := [0]
  operandBatchingDims := []
  startIndicesBatchingDims := []
  startIndexMap := [0]
  indexVectorDim := 1
  sliceSizes := ![1, 312]
  wf := gather_S65536x312_S196608x1_S196608x312_1_0_n_n_0_1_1312_wf
def scatter_S65536x312_S196608x1_S196608x312_1_0_0_1 : ScatterDims S65536x312 S196608x1 S196608x312 where
  updateWindowDims := [1]
  insertedWindowDims := [0]
  scatterDimsToOperandDims := [0]
  indexVectorDim := 1
  wf := scatter_S65536x312_S196608x1_S196608x312_1_0_0_1_wf
def dot_S4096x312_S312x128_S4096x128_1_0_0_1_n_n : DotDims S4096x312 S312x128 S4096x128 where
  lhsContracting := [1]
  rhsContracting := [0]
  lhsNonContracting := [0]
  rhsNonContracting := [1]
  lhsBatch := []
  rhsBatch := []
  wf := dot_S4096x312_S312x128_S4096x128_1_0_0_1_n_n_wf
def gather_S65536x128_S196608x1_S196608x128_1_0_n_n_0_1_1128 : GatherDims S65536x128 S196608x1 S196608x128 where
  offsetDims := [1]
  collapsedSliceDims := [0]
  operandBatchingDims := []
  startIndicesBatchingDims := []
  startIndexMap := [0]
  indexVectorDim := 1
  sliceSizes := ![1, 128]
  wf := gather_S65536x128_S196608x1_S196608x128_1_0_n_n_0_1_1128_wf
def scatter_S65536x128_S196608x1_S196608x128_1_0_0_1 : ScatterDims S65536x128 S196608x1 S196608x128 where
  updateWindowDims := [1]
  insertedWindowDims := [0]
  scatterDimsToOperandDims := [0]
  indexVectorDim := 1
  wf := scatter_S65536x128_S196608x1_S196608x128_1_0_0_1_wf
def scatter_S2048x128_S65536x1_S65536x128_1_0_0_1 : ScatterDims S2048x128 S65536x1 S65536x128 where
  updateWindowDims := [1]
  insertedWindowDims := [0]
  scatterDimsToOperandDims := [0]
  indexVectorDim := 1
  wf := scatter_S2048x128_S65536x1_S65536x128_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S10000x33_S33x128_S10000x128_1_0_0_1_n_n : DotDims S10000x33 S33x128 S10000x128 where
  lhsContracting := [1]
  rhsContracting := [0]
  lhsNonContracting := [0]
  rhsNonContracting := [1]
  lhsBatch := []
  rhsBatch := []
  wf := dot_S10000x33_S33x128_S10000x128_1_0_0_1_n_n_wf
def scatter_S300000_S1500000x1_S1500000_n_0_0_1 : ScatterDims S300000 S1500000x1 S1500000 where
  updateWindowDims := []
  insertedWindowDims := [0]
  scatterDimsToOperandDims := [0]
  indexVectorDim := 1
  wf := scatter_S300000_S1500000x1_S1500000_n_0_0_1_wf
def gather_S300000x128_S1500000x1_S1500000x128_1_0_n_n_0_1_1128 : GatherDims S300000x128 S1500000x1 S1500000x128 where
  offsetDims := [1]
  collapsedSliceDims := [0]
  operandBatchingDims := []
  startIndicesBatchingDims := []
  startIndexMap := [0]
  indexVectorDim := 1
  sliceSizes := ![1, 128]
  wf := gather_S300000x128_S1500000x1_S1500000x128_1_0_n_n_0_1_1128_wf
def gather_S300000_S1500000x1_S1500000_n_0_n_n_0_1_1 : GatherDims S300000 S1500000x1 S1500000 where
  offsetDims := []
  collapsedSliceDims := [0]
  operandBatchingDims := []
  startIndicesBatchingDims := []
  startIndexMap := [0]
  indexVectorDim := 1
  sliceSizes := ![1]
  wf := gather_S300000_S1500000x1_S1500000_n_0_n_n_0_1_1_wf
def scatter_S300000x128_S1500000x1_S1500000x128_1_0_0_1 : ScatterDims S300000x128 S1500000x1 S1500000x128 where
  updateWindowDims := [1]
  insertedWindowDims := [0]
  scatterDimsToOperandDims := [0]
  indexVectorDim := 1
  wf := scatter_S300000x128_S1500000x1_S1500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S2000x128_S300000x1_S300000x128_1_0_0_1 : ScatterDims S2000x128 S300000x1 S300000x128 where
  updateWindowDims := [1]
  insertedWindowDims := [0]
  scatterDimsToOperandDims := [0]
  indexVectorDim := 1
  wf := scatter_S2000x128_S300000x1_S300000x128_1_0_0_1_wf
def scatter_S2000_S300000x1_S300000_n_0_0_1 : ScatterDims S2000 S300000x1 S300000 where
  updateWindowDims := []
  insertedWindowDims := [0]
  scatterDimsToOperandDims := [0]
  indexVectorDim := 1
  wf := scatter_S2000_S300000x1_S300000_n_0_0_1_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def scatter_S2000_S66000x1_S66000_n_0_0_1 : ScatterDims S2000 S66000x1 S66000 where
  updateWindowDims := []
  insertedWindowDims := [0]
  scatterDimsToOperandDims := [0]
  indexVectorDim := 1
  wf := scatter_S2000_S66000x1_S66000_n_0_0_1_wf
def gather_S2000x1024_S66000x1_S66000x1024_1_0_n_n_0_1_11024 : GatherDims S2000x1024 S66000x1 S66000x1024 where
  offsetDims := [1]
  collapsedSliceDims := [0]
  operandBatchingDims := []
  startIndicesBatchingDims := []
  startIndexMap := [0]
  indexVectorDim := 1
  sliceSizes := ![1, 1024]
  wf := gather_S2000x1024_S66000x1_S66000x1024_1_0_n_n_0_1_11024_wf
def gather_S2000_S66000x1_S66000_n_0_n_n_0_1_1 : GatherDims S2000 S66000x1 S66000 where
  offsetDims := []
  collapsedSliceDims := [0]
  operandBatchingDims := []
  startIndicesBatchingDims := []
  startIndexMap := [0]
  indexVectorDim := 1
  sliceSizes := ![1]
  wf := gather_S2000_S66000x1_S66000_n_0_n_n_0_1_1_wf
def scatter_S2000x1024_S66000x1_S66000x1024_1_0_0_1 : ScatterDims S2000x1024 S66000x1 S66000x1024 where
  updateWindowDims := [1]
  insertedWindowDims := [0]
  scatterDimsToOperandDims := [0]
  indexVectorDim := 1
  wf := scatter_S2000x1024_S66000x1_S66000x1024_1_0_0_1_wf
def gather_S2000x128_S66000x1_S66000x128_1_0_n_n_0_1_1128 : GatherDims S2000x128 S66000x1 S66000x128 where
  offsetDims := [1]
  collapsedSliceDims := [0]
  operandBatchingDims := []
  startIndicesBatchingDims := []
  startIndexMap := [0]
  indexVectorDim := 1
  sliceSizes := ![1, 128]
  wf := gather_S2000x128_S66000x1_S66000x128_1_0_n_n_0_1_1128_wf
def scatter_S2000x128_S66000x1_S66000x128_1_0_0_1 : ScatterDims S2000x128 S66000x1 S66000x128 where
  updateWindowDims := [1]
  insertedWindowDims := [0]
  scatterDimsToOperandDims := [0]
  indexVectorDim := 1
  wf := scatter_S2000x128_S66000x1_S66000x128_1_0_0_1_wf
def gather_S2000x128_S2048x1_S2048x128_1_0_n_n_0_1_1128 : GatherDims S2000x128 S2048x1 S2048x128 where
  offsetDims := [1]
  collapsedSliceDims := [0]
  operandBatchingDims := []
  startIndicesBatchingDims := []
  startIndexMap := [0]
  indexVectorDim := 1
  sliceSizes := ![1, 128]
  wf := gather_S2000x128_S2048x1_S2048x128_1_0_n_n_0_1_1128_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S4096x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S78x156.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x156.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x156.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S4096x156.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S156x312.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x312.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S4096x312.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v99) S4096x312.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S312x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v159) S2048x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v160) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v161) S2048x1024.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v161) S2048x1024.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S1024x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v162) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v163) S2048x128.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S10000x33.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S33x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v169) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v170) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v215) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v217) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v218) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v263) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg16) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v265) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v266) S10000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v323) S2000x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S128x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v324) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v325) S2000x1024.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v325) S2000x1024.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg20) S1024x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v326) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v327) S2000x128.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v327) S2000x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg22) S128x1024.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v333) S1x1024.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v334) S2000x1024.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v379) S2000x1024.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_arg24) S1024x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v381) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v382) S2000x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v427) S2000x128.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_arg26) S128x1024.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v428) S1x1024.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v429) S2000x1024.size cc12_transform_3 reads12_3 true false 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v429) S2000x1024.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_arg28) S1024x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v430) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v431) S2000x128.size cc13_transform_3 reads13_3 true false 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v439) S2048x256.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_arg30) S256x1024.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v440) S1x1024.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v441) S2048x1024.size cc14_transform_3 reads14_3 true false 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v441) S2048x1024.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_arg32) S1024x512.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v442) S1x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v443) S2048x512.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v443) S2048x512.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_arg34) S512x1.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v444) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v445) S2048x1.size cc16_transform_3 reads16_3 true false 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

class Facts : Prop extends Facts₀ where

variable [Facts]
-- ==== ReferenceIdeal.lean ====
abbrev S65536x78 : Shape := ⟨2, ![65536, 78]⟩
abbrev S300000x33 : Shape := ⟨2, ![300000, 33]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x128 : Shape := ⟨2, ![312, 128]⟩
abbrev S128 : Shape := ⟨1, ![128]⟩
abbrev S128x1024 : Shape := ⟨2, ![128, 1024]⟩
abbrev S1024 : Shape := ⟨1, ![1024]⟩
abbrev S1024x128 : Shape := ⟨2, ![1024, 128]⟩
abbrev S33x128 : Shape := ⟨2, ![33, 128]⟩
abbrev S128x128 : Shape := ⟨2, ![128, 128]⟩
abbrev S256x1024 : Shape := ⟨2, ![256, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2x131072 : Shape := ⟨2, ![2, 131072]⟩
abbrev S65536 : Shape := ⟨1, ![65536]⟩
abbrev S2x1200000 : Shape := ⟨2, ![2, 1200000]⟩
abbrev S300000 : Shape := ⟨1, ![300000]⟩
abbrev S2x64000 : Shape := ⟨2, ![2, 64000]⟩
abbrev S2048 : Shape := ⟨1, ![2048]⟩
abbrev S1x131072 : Shape := ⟨2, ![1, 131072]⟩
abbrev S131072 : Shape := ⟨1, ![131072]⟩
abbrev S65536x156 : Shape := ⟨2, ![65536, 156]⟩
abbrev S196608 : Shape := ⟨1, ![196608]⟩
abbrev S_ : Shape := ⟨0, ![]⟩
abbrev S196608x1 : Shape := ⟨2, ![196608, 1]⟩
abbrev S196608x156 : Shape := ⟨2, ![196608, 156]⟩
abbrev S1x156 : Shape := ⟨2, ![1, 156]⟩
abbrev S65536x312 : Shape := ⟨2, ![65536, 312]⟩
abbrev S196608x312 : Shape := ⟨2, ![196608, 312]⟩
abbrev S1x312 : Shape := ⟨2, ![1, 312]⟩
abbrev S65536x128 : Shape := ⟨2, ![65536, 128]⟩
abbrev S196608x128 : Shape := ⟨2, ![196608, 128]⟩
abbrev S1x128 : Shape := ⟨2, ![1, 128]⟩
abbrev S2048x128 : Shape := ⟨2, ![2048, 128]⟩
abbrev S65536x1 : Shape := ⟨2, ![65536, 1]⟩
abbrev S2048x1 : Shape := ⟨2, ![2048, 1]⟩
abbrev S2048x1024 : Shape := ⟨2, ![2048, 1024]⟩
abbrev S1x1024 : Shape := ⟨2, ![1, 1024]⟩
abbrev S1x1200000 : Shape := ⟨2, ![1, 1200000]⟩
abbrev S1200000 : Shape := ⟨1, ![1200000]⟩
abbrev S300000x128 : Shape := ⟨2, ![300000, 128]⟩
abbrev S1500000 : Shape := ⟨1, ![1500000]⟩
abbrev S1500000x1 : Shape := ⟨2, ![1500000, 1]⟩
abbrev S1500000x128 : Shape := ⟨2, ![1500000, 128]⟩
abbrev S2000x128 : Shape := ⟨2, ![2000, 128]⟩
abbrev S300000x1 : Shape := ⟨2, ![300000, 1]⟩
abbrev S2000 : Shape := ⟨1, ![2000]⟩
abbrev S2000x1 : Shape := ⟨2, ![2000, 1]⟩
abbrev S2000x1024 : Shape := ⟨2, ![2000, 1024]⟩
abbrev S1x64000 : Shape := ⟨2, ![1, 64000]⟩
abbrev S64000 : Shape := ⟨1, ![64000]⟩
abbrev S66000 : Shape := ⟨1, ![66000]⟩
abbrev S66000x1 : Shape := ⟨2, ![66000, 1]⟩
abbrev S66000x1024 : Shape := ⟨2, ![66000, 1024]⟩
abbrev S66000x128 : Shape := ⟨2, ![66000, 128]⟩
abbrev S2048x256 : Shape := ⟨2, ![2048, 256]⟩
abbrev S2048x512 : Shape := ⟨2, ![2048, 512]⟩
abbrev S1x512 : Shape := ⟨2, ![1, 512]⟩
abbrev S1x1 : Shape := ⟨2, ![1, 1]⟩

abbrev nBuf : Space → Nat
  | .hbm => 643
  | .vmem => 0
  | .smem => 0
  | _ => 0

abbrev hbmTy0_0 (i : Nat) : BufTy := match i % 128 with
  | 0 => ⟨S65536x78, .f32⟩
  | 1 => ⟨S300000x33, .f32⟩
  | 2 => ⟨S78x156, .f32⟩
  | 3 => ⟨S156, .f32⟩
  | 4 => ⟨S156x312, .f32⟩
  | 5 => ⟨S312, .f32⟩
  | 6 => ⟨S312x128, .f32⟩
  | 7 => ⟨S128, .f32⟩
  | 8 => ⟨S128x1024, .f32⟩
  | 9 => ⟨S1024, .f32⟩
  | 10 => ⟨S1024x128, .f32⟩
  | 11 => ⟨S128, .f32⟩
  | 12 => ⟨S33x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x1024, .f32⟩
  | 19 => ⟨S1024, .f32⟩
  | 20 => ⟨S1024x128, .f32⟩
  | 21 => ⟨S128, .f32⟩
  | 22 => ⟨S128x1024, .f32⟩
  | 23 => ⟨S1024, .f32⟩
  | 24 => ⟨S1024x128, .f32⟩
  | 25 => ⟨S128, .f32⟩
  | 26 => ⟨S128x1024, .f32⟩
  | 27 => ⟨S1024, .f32⟩
  | 28 => ⟨S1024x128, .f32⟩
  | 29 => ⟨S128, .f32⟩
  | 30 => ⟨S256x1024, .f32⟩
  | 31 => ⟨S1024, .f32⟩
  | 32 => ⟨S1024x512, .f32⟩
  | 33 => ⟨S512, .f32⟩
  | 34 => ⟨S512x1, .f32⟩
  | 35 => ⟨S1, .f32⟩
  | 36 => ⟨S2x131072, .i32⟩
  | 37 => ⟨S65536, .i32⟩
  | 38 => ⟨S2x1200000, .i32⟩
  | 39 => ⟨S300000, .i32⟩
  | 40 => ⟨S2x64000, .i32⟩
  | 41 => ⟨S2048, .i32⟩
  | 42 => ⟨S1x131072, .i32⟩
  | 43 => ⟨S131072, .i32⟩
  | 44 => ⟨S1x131072, .i32⟩
  | 45 => ⟨S131072, .i32⟩
  | 46 => ⟨S65536x156, .f32⟩
  | 47 => ⟨S65536, .i32⟩
  | 48 => ⟨S196608, .i32⟩
  | 49 => ⟨S196608, .i32⟩
  | 50 => ⟨S_, .f32⟩
  | 51 => ⟨S196608, .f32⟩
  | 52 => ⟨S_, .f32⟩
  | 53 => ⟨S65536, .f32⟩
  | 54 => ⟨S196608x1, .i32⟩
  | 55 => ⟨S65536, .f32⟩
  | 56 => ⟨S_, .f32⟩
  | 57 => ⟨S65536, .f32⟩
  | 58 => ⟨S65536, .i1⟩
  | 59 => ⟨S_, .f32⟩
  | 60 => ⟨S65536, .f32⟩
  | 61 => ⟨S65536, .f32⟩
  | 62 => ⟨S65536, .f32⟩
  | 63 => ⟨S_, .f32⟩
  | 64 => ⟨S_, .f32⟩
  | 65 => ⟨S65536, .f32⟩
  | 66 => ⟨S65536, .f32⟩
  | 67 => ⟨S_, .i32⟩
  | 68 => ⟨S196608, .i32⟩
  | 69 => ⟨S196608, .i1⟩
  | 70 => ⟨S_, .i32⟩
  | 71 => ⟨S196608, .i32⟩
  | 72 => ⟨S196608, .i32⟩
  | 73 => ⟨S196608, .i32⟩
  | 74 => ⟨S196608x1, .i32⟩
  | 75 => ⟨S196608x156, .f32⟩
  | 76 => ⟨S_, .i32⟩
  | 77 => ⟨S196608, .i32⟩
  | 78 => ⟨S196608, .i1⟩
  | 79 => ⟨S_, .i32⟩
  | 80 => ⟨S196608, .i32⟩
  | 81 => ⟨S196608, .i32⟩
  | 82 => ⟨S196608, .i32⟩
  | 83 => ⟨S196608x1, .i32⟩
  | 84 => ⟨S196608, .f32⟩
  | 85 => ⟨S_, .i32⟩
  | 86 => ⟨S196608, .i32⟩
  | 87 => ⟨S196608, .i1⟩
  | 88 => ⟨S_, .i32⟩
  | 89 => ⟨S196608, .i32⟩
  | 90 => ⟨S196608, .i32⟩
  | 91 => ⟨S196608, .i32⟩
  | 92 => ⟨S196608x1, .i32⟩
  | 93 => ⟨S196608, .f32⟩
  | 94 => ⟨S196608, .f32⟩
  | 95 => ⟨S196608x1, .f32⟩
  | 96 => ⟨S196608x156, .f32⟩
  | 97 => ⟨S196608x156, .f32⟩
  | 98 => ⟨S_, .f32⟩
  | 99 => ⟨S65536x156, .f32⟩
  | 100 => ⟨S196608x1, .i32⟩
  | 101 => ⟨S65536x156, .f32⟩
  | 102 => ⟨S1x156, .f32⟩
  | 103 => ⟨S65536x156, .f32⟩
  | 104 => ⟨S65536x156, .f32⟩
  | 105 => ⟨S_, .f32⟩
  | 106 => ⟨S65536x156, .f32⟩
  | 107 => ⟨S65536x156, .f32⟩
  | 108 => ⟨S65536x312, .f32⟩
  | 109 => ⟨S65536, .i32⟩
  | 110 => ⟨S196608, .i32⟩
  | 111 => ⟨S196608, .i32⟩
  | 112 => ⟨S_, .f32⟩
  | 113 => ⟨S196608, .f32⟩
  | 114 => ⟨S_, .f32⟩
  | 115 => ⟨S65536, .f32⟩
  | 116 => ⟨S196608x1, .i32⟩
  | 117 => ⟨S65536, .f32⟩
  | 118 => ⟨S_, .f32⟩
  | 119 => ⟨S65536, .f32⟩
  | 120 => ⟨S65536, .i1⟩
  | 121 => ⟨S_, .f32⟩
  | 122 => ⟨S65536, .f32⟩
  | 123 => ⟨S65536, .f32⟩
  | 124 => ⟨S65536, .f32⟩
  | 125 => ⟨S_, .f32⟩
  | 126 => ⟨S_, .f32⟩
  | 127 => ⟨S65536, .f32⟩
  | _ => ⟨S65536x78, .f32⟩

abbrev hbmTy0_1 (i : Nat) : BufTy := match i % 128 with
  | 0 => ⟨S65536, .f32⟩
  | 1 => ⟨S_, .i32⟩
  | 2 => ⟨S196608, .i32⟩
  | 3 => ⟨S196608, .i1⟩
  | 4 => ⟨S_, .i32⟩
  | 5 => ⟨S196608, .i32⟩
  | 6 => ⟨S196608, .i32⟩
  | 7 => ⟨S196608, .i32⟩
  | 8 => ⟨S196608x1, .i32⟩
  | 9 => ⟨S196608x312, .f32⟩
  | 10 => ⟨S_, .i32⟩
  | 11 => ⟨S196608, .i32⟩
  | 12 => ⟨S196608, .i1⟩
  | 13 => ⟨S_, .i32⟩
  | 14 => ⟨S196608, .i32⟩
  | 15 => ⟨S196608, .i32⟩
  | 16 => ⟨S196608, .i32⟩
  | 17 => ⟨S196608x1, .i32⟩
  | 18 => ⟨S196608, .f32⟩
  | 19 => ⟨S_, .i32⟩
  | 20 => ⟨S196608, .i32⟩
  | 21 => ⟨S196608, .i1⟩
  | 22 => ⟨S_, .i32⟩
  | 23 => ⟨S196608, .i32⟩
  | 24 => ⟨S196608, .i32⟩
  | 25 => ⟨S196608, .i32⟩
  | 26 => ⟨S196608x1, .i32⟩
  | 27 => ⟨S196608, .f32⟩
  | 28 => ⟨S196608, .f32⟩
  | 29 => ⟨S196608x1, .f32⟩
  | 30 => ⟨S196608x312, .f32⟩
  | 31 => ⟨S196608x312, .f32⟩
  | 32 => ⟨S_, .f32⟩
  | 33 => ⟨S65536x312, .f32⟩
  | 34 => ⟨S196608x1, .i32⟩
  | 35 => ⟨S65536x312, .f32⟩
  | 36 => ⟨S1x312, .f32⟩
  | 37 => ⟨S65536x312, .f32⟩
  | 38 => ⟨S65536x312, .f32⟩
  | 39 => ⟨S_, .f32⟩
  | 40 => ⟨S65536x312, .f32⟩
  | 41 => ⟨S65536x312, .f32⟩
  | 42 => ⟨S65536x128, .f32⟩
  | 43 => ⟨S65536, .i32⟩
  | 44 => ⟨S196608, .i32⟩
  | 45 => ⟨S196608, .i32⟩
  | 46 => ⟨S_, .f32⟩
  | 47 => ⟨S196608, .f32⟩
  | 48 => ⟨S_, .f32⟩
  | 49 => ⟨S65536, .f32⟩
  | 50 => ⟨S196608x1, .i32⟩
  | 51 => ⟨S65536, .f32⟩
  | 52 => ⟨S_, .f32⟩
  | 53 => ⟨S65536, .f32⟩
  | 54 => ⟨S65536, .i1⟩
  | 55 => ⟨S_, .f32⟩
  | 56 => ⟨S65536, .f32⟩
  | 57 => ⟨S65536, .f32⟩
  | 58 => ⟨S65536, .f32⟩
  | 59 => ⟨S_, .f32⟩
  | 60 => ⟨S_, .f32⟩
  | 61 => ⟨S65536, .f32⟩
  | 62 => ⟨S65536, .f32⟩
  | 63 => ⟨S_, .i32⟩
  | 64 => ⟨S196608, .i32⟩
  | 65 => ⟨S196608, .i1⟩
  | 66 => ⟨S_, .i32⟩
  | 67 => ⟨S196608, .i32⟩
  | 68 => ⟨S196608, .i32⟩
  | 69 => ⟨S196608, .i32⟩
  | 70 => ⟨S196608x1, .i32⟩
  | 71 => ⟨S196608x128, .f32⟩
  | 72 => ⟨S_, .i32⟩
  | 73 => ⟨S196608, .i32⟩
  | 74 => ⟨S196608, .i1⟩
  | 75 => ⟨S_, .i32⟩
  | 76 => ⟨S196608, .i32⟩
  | 77 => ⟨S196608, .i32⟩
  | 78 => ⟨S196608, .i32⟩
  | 79 => ⟨S196608x1, .i32⟩
  | 80 => ⟨S196608, .f32⟩
  | 81 => ⟨S_, .i32⟩
  | 82 => ⟨S196608, .i32⟩
  | 83 => ⟨S196608, .i1⟩
  | 84 => ⟨S_, .i32⟩
  | 85 => ⟨S196608, .i32⟩
  | 86 => ⟨S196608, .i32⟩
  | 87 => ⟨S196608, .i32⟩
  | 88 => ⟨S196608x1, .i32⟩
  | 89 => ⟨S196608, .f32⟩
  | 90 => ⟨S196608, .f32⟩
  | 91 => ⟨S196608x1, .f32⟩
  | 92 => ⟨S196608x128, .f32⟩
  | 93 => ⟨S196608x128, .f32⟩
  | 94 => ⟨S_, .f32⟩
  | 95 => ⟨S65536x128, .f32⟩
  | 96 => ⟨S196608x1, .i32⟩
  | 97 => ⟨S65536x128, .f32⟩
  | 98 => ⟨S1x128, .f32⟩
  | 99 => ⟨S65536x128, .f32⟩
  | 100 => ⟨S65536x128, .f32⟩
  | 101 => ⟨S_, .f32⟩
  | 102 => ⟨S65536x128, .f32⟩
  | 103 => ⟨S65536x128, .f32⟩
  | 104 => ⟨S_, .f32⟩
  | 105 => ⟨S2048x128, .f32⟩
  | 106 => ⟨S65536x1, .i32⟩
  | 107 => ⟨S2048x128, .f32⟩
  | 108 => ⟨S_, .f32⟩
  | 109 => ⟨S65536, .f32⟩
  | 110 => ⟨S_, .f32⟩
  | 111 => ⟨S2048, .f32⟩
  | 112 => ⟨S65536x1, .i32⟩
  | 113 => ⟨S2048, .f32⟩
  | 114 => ⟨S_, .f32⟩
  | 115 => ⟨S2048, .f32⟩
  | 116 => ⟨S2048, .f32⟩
  | 117 => ⟨S2048x1, .f32⟩
  | 118 => ⟨S2048x128, .f32⟩
  | 119 => ⟨S2048x128, .f32⟩
  | 120 => ⟨S2048x1024, .f32⟩
  | 121 => ⟨S1x1024, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S2048x128, .f32⟩
  | _ => ⟨S65536x78, .f32⟩

abbrev hbmTy0_2 (i : Nat) : BufTy := match i % 128 with
  | 0 => ⟨S1x128, .f32⟩
  | 1 => ⟨S2048x128, .f32⟩
  | 2 => ⟨S2048x128, .f32⟩
  | 3 => ⟨S1x1200000, .i32⟩
  | 4 => ⟨S1200000, .i32⟩
  | 5 => ⟨S1x1200000, .i32⟩
  | 6 => ⟨S1200000, .i32⟩
  | 7 => ⟨S300000x128, .f32⟩
  | 8 => ⟨S300000, .i32⟩
  | 9 => ⟨S1500000, .i32⟩
  | 10 => ⟨S1500000, .i32⟩
  | 11 => ⟨S_, .f32⟩
  | 12 => ⟨S1500000, .f32⟩
  | 13 => ⟨S_, .f32⟩
  | 14 => ⟨S300000, .f32⟩
  | 15 => ⟨S1500000x1, .i32⟩
  | 16 => ⟨S300000, .f32⟩
  | 17 => ⟨S_, .f32⟩
  | 18 => ⟨S300000, .f32⟩
  | 19 => ⟨S300000, .i1⟩
  | 20 => ⟨S_, .f32⟩
  | 21 => ⟨S300000, .f32⟩
  | 22 => ⟨S300000, .f32⟩
  | 23 => ⟨S300000, .f32⟩
  | 24 => ⟨S_, .f32⟩
  | 25 => ⟨S_, .f32⟩
  | 26 => ⟨S300000, .f32⟩
  | 27 => ⟨S300000, .f32⟩
  | 28 => ⟨S_, .i32⟩
  | 29 => ⟨S1500000, .i32⟩
  | 30 => ⟨S1500000, .i1⟩
  | 31 => ⟨S_, .i32⟩
  | 32 => ⟨S1500000, .i32⟩
  | 33 => ⟨S1500000, .i32⟩
  | 34 => ⟨S1500000, .i32⟩
  | 35 => ⟨S1500000x1, .i32⟩
  | 36 => ⟨S1500000x128, .f32⟩
  | 37 => ⟨S_, .i32⟩
  | 38 => ⟨S1500000, .i32⟩
  | 39 => ⟨S1500000, .i1⟩
  | 40 => ⟨S_, .i32⟩
  | 41 => ⟨S1500000, .i32⟩
  | 42 => ⟨S1500000, .i32⟩
  | 43 => ⟨S1500000, .i32⟩
  | 44 => ⟨S1500000x1, .i32⟩
  | 45 => ⟨S1500000, .f32⟩
  | 46 => ⟨S_, .i32⟩
  | 47 => ⟨S1500000, .i32⟩
  | 48 => ⟨S1500000, .i1⟩
  | 49 => ⟨S_, .i32⟩
  | 50 => ⟨S1500000, .i32⟩
  | 51 => ⟨S1500000, .i32⟩
  | 52 => ⟨S1500000, .i32⟩
  | 53 => ⟨S1500000x1, .i32⟩
  | 54 => ⟨S1500000, .f32⟩
  | 55 => ⟨S1500000, .f32⟩
  | 56 => ⟨S1500000x1, .f32⟩
  | 57 => ⟨S1500000x128, .f32⟩
  | 58 => ⟨S1500000x128, .f32⟩
  | 59 => ⟨S_, .f32⟩
  | 60 => ⟨S300000x128, .f32⟩
  | 61 => ⟨S1500000x1, .i32⟩
  | 62 => ⟨S300000x128, .f32⟩
  | 63 => ⟨S1x128, .f32⟩
  | 64 => ⟨S300000x128, .f32⟩
  | 65 => ⟨S300000x128, .f32⟩
  | 66 => ⟨S_, .f32⟩
  | 67 => ⟨S300000x128, .f32⟩
  | 68 => ⟨S300000x128, .f32⟩
  | 69 => ⟨S300000x128, .f32⟩
  | 70 => ⟨S300000, .i32⟩
  | 71 => ⟨S1500000, .i32⟩
  | 72 => ⟨S1500000, .i32⟩
  | 73 => ⟨S_, .f32⟩
  | 74 => ⟨S1500000, .f32⟩
  | 75 => ⟨S_, .f32⟩
  | 76 => ⟨S300000, .f32⟩
  | 77 => ⟨S1500000x1, .i32⟩
  | 78 => ⟨S300000, .f32⟩
  | 79 => ⟨S_, .f32⟩
  | 80 => ⟨S300000, .f32⟩
  | 81 => ⟨S300000, .i1⟩
  | 82 => ⟨S_, .f32⟩
  | 83 => ⟨S300000, .f32⟩
  | 84 => ⟨S300000, .f32⟩
  | 85 => ⟨S300000, .f32⟩
  | 86 => ⟨S_, .f32⟩
  | 87 => ⟨S_, .f32⟩
  | 88 => ⟨S300000, .f32⟩
  | 89 => ⟨S300000, .f32⟩
  | 90 => ⟨S_, .i32⟩
  | 91 => ⟨S1500000, .i32⟩
  | 92 => ⟨S1500000, .i1⟩
  | 93 => ⟨S_, .i32⟩
  | 94 => ⟨S1500000, .i32⟩
  | 95 => ⟨S1500000, .i32⟩
  | 96 => ⟨S1500000, .i32⟩
  | 97 => ⟨S1500000x1, .i32⟩
  | 98 => ⟨S1500000x128, .f32⟩
  | 99 => ⟨S_, .i32⟩
  | 100 => ⟨S1500000, .i32⟩
  | 101 => ⟨S1500000, .i1⟩
  | 102 => ⟨S_, .i32⟩
  | 103 => ⟨S1500000, .i32⟩
  | 104 => ⟨S1500000, .i32⟩
  | 105 => ⟨S1500000, .i32⟩
  | 106 => ⟨S1500000x1, .i32⟩
  | 107 => ⟨S1500000, .f32⟩
  | 108 => ⟨S_, .i32⟩
  | 109 => ⟨S1500000, .i32⟩
  | 110 => ⟨S1500000, .i1⟩
  | 111 => ⟨S_, .i32⟩
  | 112 => ⟨S1500000, .i32⟩
  | 113 => ⟨S1500000, .i32⟩
  | 114 => ⟨S1500000, .i32⟩
  | 115 => ⟨S1500000x1, .i32⟩
  | 116 => ⟨S1500000, .f32⟩
  | 117 => ⟨S1500000, .f32⟩
  | 118 => ⟨S1500000x1, .f32⟩
  | 119 => ⟨S1500000x128, .f32⟩
  | 120 => ⟨S1500000x128, .f32⟩
  | 121 => ⟨S_, .f32⟩
  | 122 => ⟨S300000x128, .f32⟩
  | 123 => ⟨S1500000x1, .i32⟩
  | 124 => ⟨S300000x128, .f32⟩
  | 125 => ⟨S1x128, .f32⟩
  | 126 => ⟨S300000x128, .f32⟩
  | 127 => ⟨S300000x128, .f32⟩
  | _ => ⟨S65536x78, .f32⟩

abbrev hbmTy0_3 (i : Nat) : BufTy := match i % 128 with
  | 0 => ⟨S_, .f32⟩
  | 1 => ⟨S300000x128, .f32⟩
  | 2 => ⟨S300000x128, .f32⟩
  | 3 => ⟨S300000x128, .f32⟩
  | 4 => ⟨S300000, .i32⟩
  | 5 => ⟨S1500000, .i32⟩
  | 6 => ⟨S1500000, .i32⟩
  | 7 => ⟨S_, .f32⟩
  | 8 => ⟨S1500000, .f32⟩
  | 9 => ⟨S_, .f32⟩
  | 10 => ⟨S300000, .f32⟩
  | 11 => ⟨S1500000x1, .i32⟩
  | 12 => ⟨S300000, .f32⟩
  | 13 => ⟨S_, .f32⟩
  | 14 => ⟨S300000, .f32⟩
  | 15 => ⟨S300000, .i1⟩
  | 16 => ⟨S_, .f32⟩
  | 17 => ⟨S300000, .f32⟩
  | 18 => ⟨S300000, .f32⟩
  | 19 => ⟨S300000, .f32⟩
  | 20 => ⟨S_, .f32⟩
  | 21 => ⟨S_, .f32⟩
  | 22 => ⟨S300000, .f32⟩
  | 23 => ⟨S300000, .f32⟩
  | 24 => ⟨S_, .i32⟩
  | 25 => ⟨S1500000, .i32⟩
  | 26 => ⟨S1500000, .i1⟩
  | 27 => ⟨S_, .i32⟩
  | 28 => ⟨S1500000, .i32⟩
  | 29 => ⟨S1500000, .i32⟩
  | 30 => ⟨S1500000, .i32⟩
  | 31 => ⟨S1500000x1, .i32⟩
  | 32 => ⟨S1500000x128, .f32⟩
  | 33 => ⟨S_, .i32⟩
  | 34 => ⟨S1500000, .i32⟩
  | 35 => ⟨S1500000, .i1⟩
  | 36 => ⟨S_, .i32⟩
  | 37 => ⟨S1500000, .i32⟩
  | 38 => ⟨S1500000, .i32⟩
  | 39 => ⟨S1500000, .i32⟩
  | 40 => ⟨S1500000x1, .i32⟩
  | 41 => ⟨S1500000, .f32⟩
  | 42 => ⟨S_, .i32⟩
  | 43 => ⟨S1500000, .i32⟩
  | 44 => ⟨S1500000, .i1⟩
  | 45 => ⟨S_, .i32⟩
  | 46 => ⟨S1500000, .i32⟩
  | 47 => ⟨S1500000, .i32⟩
  | 48 => ⟨S1500000, .i32⟩
  | 49 => ⟨S1500000x1, .i32⟩
  | 50 => ⟨S1500000, .f32⟩
  | 51 => ⟨S1500000, .f32⟩
  | 52 => ⟨S1500000x1, .f32⟩
  | 53 => ⟨S1500000x128, .f32⟩
  | 54 => ⟨S1500000x128, .f32⟩
  | 55 => ⟨S_, .f32⟩
  | 56 => ⟨S300000x128, .f32⟩
  | 57 => ⟨S1500000x1, .i32⟩
  | 58 => ⟨S300000x128, .f32⟩
  | 59 => ⟨S1x128, .f32⟩
  | 60 => ⟨S300000x128, .f32⟩
  | 61 => ⟨S300000x128, .f32⟩
  | 62 => ⟨S_, .f32⟩
  | 63 => ⟨S300000x128, .f32⟩
  | 64 => ⟨S300000x128, .f32⟩
  | 65 => ⟨S_, .f32⟩
  | 66 => ⟨S2000x128, .f32⟩
  | 67 => ⟨S300000x1, .i32⟩
  | 68 => ⟨S2000x128, .f32⟩
  | 69 => ⟨S_, .f32⟩
  | 70 => ⟨S300000, .f32⟩
  | 71 => ⟨S_, .f32⟩
  | 72 => ⟨S2000, .f32⟩
  | 73 => ⟨S300000x1, .i32⟩
  | 74 => ⟨S2000, .f32⟩
  | 75 => ⟨S_, .f32⟩
  | 76 => ⟨S2000, .f32⟩
  | 77 => ⟨S2000, .f32⟩
  | 78 => ⟨S2000x1, .f32⟩
  | 79 => ⟨S2000x128, .f32⟩
  | 80 => ⟨S2000x128, .f32⟩
  | 81 => ⟨S2000x1024, .f32⟩
  | 82 => ⟨S1x1024, .f32⟩
  | 83 => ⟨S2000x1024, .f32⟩
  | 84 => ⟨S2000x1024, .f32⟩
  | 85 => ⟨S_, .f32⟩
  | 86 => ⟨S2000x1024, .f32⟩
  | 87 => ⟨S2000x1024, .f32⟩
  | 88 => ⟨S2000x128, .f32⟩
  | 89 => ⟨S1x128, .f32⟩
  | 90 => ⟨S2000x128, .f32⟩
  | 91 => ⟨S2000x128, .f32⟩
  | 92 => ⟨S1x64000, .i32⟩
  | 93 => ⟨S64000, .i32⟩
  | 94 => ⟨S1x64000, .i32⟩
  | 95 => ⟨S64000, .i32⟩
  | 96 => ⟨S2000x1024, .f32⟩
  | 97 => ⟨S2000, .i32⟩
  | 98 => ⟨S66000, .i32⟩
  | 99 => ⟨S66000, .i32⟩
  | 100 => ⟨S_, .f32⟩
  | 101 => ⟨S66000, .f32⟩
  | 102 => ⟨S_, .f32⟩
  | 103 => ⟨S2000, .f32⟩
  | 104 => ⟨S66000x1, .i32⟩
  | 105 => ⟨S2000, .f32⟩
  | 106 => ⟨S_, .f32⟩
  | 107 => ⟨S2000, .f32⟩
  | 108 => ⟨S2000, .i1⟩
  | 109 => ⟨S_, .f32⟩
  | 110 => ⟨S2000, .f32⟩
  | 111 => ⟨S2000, .f32⟩
  | 112 => ⟨S2000, .f32⟩
  | 113 => ⟨S_, .f32⟩
  | 114 => ⟨S_, .f32⟩
  | 115 => ⟨S2000, .f32⟩
  | 116 => ⟨S2000, .f32⟩
  | 117 => ⟨S_, .i32⟩
  | 118 => ⟨S66000, .i32⟩
  | 119 => ⟨S66000, .i1⟩
  | 120 => ⟨S_, .i32⟩
  | 121 => ⟨S66000, .i32⟩
  | 122 => ⟨S66000, .i32⟩
  | 123 => ⟨S66000, .i32⟩
  | 124 => ⟨S66000x1, .i32⟩
  | 125 => ⟨S66000x1024, .f32⟩
  | 126 => ⟨S_, .i32⟩
  | 127 => ⟨S66000, .i32⟩
  | _ => ⟨S65536x78, .f32⟩

abbrev hbmTy0_4 (i : Nat) : BufTy := match i % 128 with
  | 0 => ⟨S66000, .i1⟩
  | 1 => ⟨S_, .i32⟩
  | 2 => ⟨S66000, .i32⟩
  | 3 => ⟨S66000, .i32⟩
  | 4 => ⟨S66000, .i32⟩
  | 5 => ⟨S66000x1, .i32⟩
  | 6 => ⟨S66000, .f32⟩
  | 7 => ⟨S_, .i32⟩
  | 8 => ⟨S66000, .i32⟩
  | 9 => ⟨S66000, .i1⟩
  | 10 => ⟨S_, .i32⟩
  | 11 => ⟨S66000, .i32⟩
  | 12 => ⟨S66000, .i32⟩
  | 13 => ⟨S66000, .i32⟩
  | 14 => ⟨S66000x1, .i32⟩
  | 15 => ⟨S66000, .f32⟩
  | 16 => ⟨S66000, .f32⟩
  | 17 => ⟨S66000x1, .f32⟩
  | 18 => ⟨S66000x1024, .f32⟩
  | 19 => ⟨S66000x1024, .f32⟩
  | 20 => ⟨S_, .f32⟩
  | 21 => ⟨S2000x1024, .f32⟩
  | 22 => ⟨S66000x1, .i32⟩
  | 23 => ⟨S2000x1024, .f32⟩
  | 24 => ⟨S1x1024, .f32⟩
  | 25 => ⟨S2000x1024, .f32⟩
  | 26 => ⟨S2000x1024, .f32⟩
  | 27 => ⟨S_, .f32⟩
  | 28 => ⟨S2000x1024, .f32⟩
  | 29 => ⟨S2000x1024, .f32⟩
  | 30 => ⟨S2000x128, .f32⟩
  | 31 => ⟨S2000, .i32⟩
  | 32 => ⟨S66000, .i32⟩
  | 33 => ⟨S66000, .i32⟩
  | 34 => ⟨S_, .f32⟩
  | 35 => ⟨S66000, .f32⟩
  | 36 => ⟨S_, .f32⟩
  | 37 => ⟨S2000, .f32⟩
  | 38 => ⟨S66000x1, .i32⟩
  | 39 => ⟨S2000, .f32⟩
  | 40 => ⟨S_, .f32⟩
  | 41 => ⟨S2000, .f32⟩
  | 42 => ⟨S2000, .i1⟩
  | 43 => ⟨S_, .f32⟩
  | 44 => ⟨S2000, .f32⟩
  | 45 => ⟨S2000, .f32⟩
  | 46 => ⟨S2000, .f32⟩
  | 47 => ⟨S_, .f32⟩
  | 48 => ⟨S_, .f32⟩
  | 49 => ⟨S2000, .f32⟩
  | 50 => ⟨S2000, .f32⟩
  | 51 => ⟨S_, .i32⟩
  | 52 => ⟨S66000, .i32⟩
  | 53 => ⟨S66000, .i1⟩
  | 54 => ⟨S_, .i32⟩
  | 55 => ⟨S66000, .i32⟩
  | 56 => ⟨S66000, .i32⟩
  | 57 => ⟨S66000, .i32⟩
  | 58 => ⟨S66000x1, .i32⟩
  | 59 => ⟨S66000x128, .f32⟩
  | 60 => ⟨S_, .i32⟩
  | 61 => ⟨S66000, .i32⟩
  | 62 => ⟨S66000, .i1⟩
  | 63 => ⟨S_, .i32⟩
  | 64 => ⟨S66000, .i32⟩
  | 65 => ⟨S66000, .i32⟩
  | 66 => ⟨S66000, .i32⟩
  | 67 => ⟨S66000x1, .i32⟩
  | 68 => ⟨S66000, .f32⟩
  | 69 => ⟨S_, .i32⟩
  | 70 => ⟨S66000, .i32⟩
  | 71 => ⟨S66000, .i1⟩
  | 72 => ⟨S_, .i32⟩
  | 73 => ⟨S66000, .i32⟩
  | 74 => ⟨S66000, .i32⟩
  | 75 => ⟨S66000, .i32⟩
  | 76 => ⟨S66000x1, .i32⟩
  | 77 => ⟨S66000, .f32⟩
  | 78 => ⟨S66000, .f32⟩
  | 79 => ⟨S66000x1, .f32⟩
  | 80 => ⟨S66000x128, .f32⟩
  | 81 => ⟨S66000x128, .f32⟩
  | 82 => ⟨S_, .f32⟩
  | 83 => ⟨S2000x128, .f32⟩
  | 84 => ⟨S66000x1, .i32⟩
  | 85 => ⟨S2000x128, .f32⟩
  | 86 => ⟨S1x128, .f32⟩
  | 87 => ⟨S2000x128, .f32⟩
  | 88 => ⟨S2000x128, .f32⟩
  | 89 => ⟨S_, .f32⟩
  | 90 => ⟨S2000x128, .f32⟩
  | 91 => ⟨S2000x128, .f32⟩
  | 92 => ⟨S2000x1024, .f32⟩
  | 93 => ⟨S1x1024, .f32⟩
  | 94 => ⟨S2000x1024, .f32⟩
  | 95 => ⟨S2000x1024, .f32⟩
  | 96 => ⟨S_, .f32⟩
  | 97 => ⟨S2000x1024, .f32⟩
  | 98 => ⟨S2000x1024, .f32⟩
  | 99 => ⟨S2000x128, .f32⟩
  | 100 => ⟨S1x128, .f32⟩
  | 101 => ⟨S2000x128, .f32⟩
  | 102 => ⟨S2000x128, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S2048x128, .f32⟩
  | 112 => ⟨S2048x256, .f32⟩
  | 113 => ⟨S2048x1024, .f32⟩
  | 114 => ⟨S1x1024, .f32⟩
  | 115 => ⟨S2048x1024, .f32⟩
  | 116 => ⟨S2048x1024, .f32⟩
  | 117 => ⟨S_, .f32⟩
  | 118 => ⟨S2048x1024, .f32⟩
  | 119 => ⟨S2048x1024, .f32⟩
  | 120 => ⟨S2048x512, .f32⟩
  | 121 => ⟨S1x512, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S2048x1, .f32⟩
  | _ => ⟨S65536x78, .f32⟩

abbrev hbmTy0_5 (i : Nat) : BufTy := match i % 128 with
  | 0 => ⟨S1x1, .f32⟩
  | 1 => ⟨S2048x1, .f32⟩
  | 2 => ⟨S2048x1, .f32⟩
  | _ => ⟨S65536x78, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S65536x78, .f32⟩

abbrev bufTy : (tb : Table) → Fin (tcTables nBuf tb) → BufTy
  | .hbm, ⟨i, _⟩ => hbmTy i
  | _, _ => ⟨S65536x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_cst_0 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13 : Ref sig .tc := ⟨.hbm, 58, rfl⟩
abbrev main_cst_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_v17 : Ref sig .tc := ⟨.hbm, 66, rfl⟩
abbrev main_c : Ref sig .tc := ⟨.hbm, 67, rfl⟩
abbrev main_v18 : Ref sig .tc := ⟨.hbm, 68, rfl⟩
abbrev main_v19 : Ref sig .tc := ⟨.hbm, 69, rfl⟩
abbrev main_c_4 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c_5 : Ref sig .tc := ⟨.hbm, 76, rfl⟩
abbrev main_v25 : Ref sig .tc := ⟨.hbm, 77, rfl⟩
abbrev main_v26 : Ref sig .tc := ⟨.hbm, 78, rfl⟩
abbrev main_c_6 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_c_7 : Ref sig .tc := ⟨.hbm, 85, rfl⟩
abbrev main_v32 : Ref sig .tc := ⟨.hbm, 86, rfl⟩
abbrev main_v33 : Ref sig .tc := ⟨.hbm, 87, rfl⟩
abbrev main_c_8 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_9 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_call1_cst : Ref sig .tc := ⟨.hbm, 105, rfl⟩
abbrev main_call1_v0 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_10 : Ref sig .tc := ⟨.hbm, 112, rfl⟩
abbrev main_v54 : Ref sig .tc := ⟨.hbm, 113, rfl⟩
abbrev main_cst_11 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_12 : Ref sig .tc := ⟨.hbm, 118, rfl⟩
abbrev main_v58 : Ref sig .tc := ⟨.hbm, 119, rfl⟩
abbrev main_v59 : Ref sig .tc := ⟨.hbm, 120, rfl⟩
abbrev main_cst_13 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_14 : Ref sig .tc := ⟨.hbm, 125, rfl⟩
abbrev main_call2_v0 : Ref sig .tc := ⟨.hbm, 126, rfl⟩
abbrev main_call2_v1 : Ref sig .tc := ⟨.hbm, 127, rfl⟩
abbrev main_v63 : Ref sig .tc := ⟨.hbm, 128, rfl⟩
abbrev main_c_15 : Ref sig .tc := ⟨.hbm, 129, rfl⟩
abbrev main_v64 : Ref sig .tc := ⟨.hbm, 130, rfl⟩
abbrev main_v65 : Ref sig .tc := ⟨.hbm, 131, rfl⟩
abbrev main_c_16 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_c_17 : Ref sig .tc := ⟨.hbm, 138, rfl⟩
abbrev main_v71 : Ref sig .tc := ⟨.hbm, 139, rfl⟩
abbrev main_v72 : Ref sig .tc := ⟨.hbm, 140, rfl⟩
abbrev main_c_18 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_c_19 : Ref sig .tc := ⟨.hbm, 147, rfl⟩
abbrev main_v78 : Ref sig .tc := ⟨.hbm, 148, rfl⟩
abbrev main_v79 : Ref sig .tc := ⟨.hbm, 149, rfl⟩
abbrev main_c_20 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_21 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_call3_cst : Ref sig .tc := ⟨.hbm, 167, rfl⟩
abbrev main_call3_v0 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_22 : Ref sig .tc := ⟨.hbm, 174, rfl⟩
abbrev main_v100 : Ref sig .tc := ⟨.hbm, 175, rfl⟩
abbrev main_cst_23 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_24 : Ref sig .tc := ⟨.hbm, 180, rfl⟩
abbrev main_v104 : Ref sig .tc := ⟨.hbm, 181, rfl⟩
abbrev main_v105 : Ref sig .tc := ⟨.hbm, 182, rfl⟩
abbrev main_cst_25 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_26 : Ref sig .tc := ⟨.hbm, 187, rfl⟩
abbrev main_call4_v0 : Ref sig .tc := ⟨.hbm, 188, rfl⟩
abbrev main_call4_v1 : Ref sig .tc := ⟨.hbm, 189, rfl⟩
abbrev main_v109 : Ref sig .tc := ⟨.hbm, 190, rfl⟩
abbrev main_c_27 : Ref sig .tc := ⟨.hbm, 191, rfl⟩
abbrev main_v110 : Ref sig .tc := ⟨.hbm, 192, rfl⟩
abbrev main_v111 : Ref sig .tc := ⟨.hbm, 193, rfl⟩
abbrev main_c_28 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_c_29 : Ref sig .tc := ⟨.hbm, 200, rfl⟩
abbrev main_v117 : Ref sig .tc := ⟨.hbm, 201, rfl⟩
abbrev main_v118 : Ref sig .tc := ⟨.hbm, 202, rfl⟩
abbrev main_c_30 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_c_31 : Ref sig .tc := ⟨.hbm, 209, rfl⟩
abbrev main_v124 : Ref sig .tc := ⟨.hbm, 210, rfl⟩
abbrev main_v125 : Ref sig .tc := ⟨.hbm, 211, rfl⟩
abbrev main_c_32 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_cst_33 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_call5_cst : Ref sig .tc := ⟨.hbm, 229, rfl⟩
abbrev main_call5_v0 : Ref sig .tc := ⟨.hbm, 230, rfl⟩
abbrev main_v141 : Ref sig .tc := ⟨.hbm, 231, rfl⟩
abbrev main_cst_34 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_cst_35 : Ref sig .tc := ⟨.hbm, 236, rfl⟩
abbrev main_v145 : Ref sig .tc := ⟨.hbm, 237, rfl⟩
abbrev main_cst_36 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_cst_37 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_call6_cst : Ref sig .tc := ⟨.hbm, 252, rfl⟩
abbrev main_call6_v0 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_cst_38 : Ref sig .tc := ⟨.hbm, 267, rfl⟩
abbrev main_v171 : Ref sig .tc := ⟨.hbm, 268, rfl⟩
abbrev main_cst_39 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_cst_40 : Ref sig .tc := ⟨.hbm, 273, rfl⟩
abbrev main_v175 : Ref sig .tc := ⟨.hbm, 274, rfl⟩
abbrev main_v176 : Ref sig .tc := ⟨.hbm, 275, rfl⟩
abbrev main_cst_41 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_cst_42 : Ref sig .tc := ⟨.hbm, 280, rfl⟩
abbrev main_call7_v0 : Ref sig .tc := ⟨.hbm, 281, rfl⟩
abbrev main_call7_v1 : Ref sig .tc := ⟨.hbm, 282, rfl⟩
abbrev main_v180 : Ref sig .tc := ⟨.hbm, 283, rfl⟩
abbrev main_c_43 : Ref sig .tc := ⟨.hbm, 284, rfl⟩
abbrev main_v181 : Ref sig .tc := ⟨.hbm, 285, rfl⟩
abbrev main_v182 : Ref sig .tc := ⟨.hbm, 286, rfl⟩
abbrev main_c_44 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_c_45 : Ref sig .tc := ⟨.hbm, 293, rfl⟩
abbrev main_v188 : Ref sig .tc := ⟨.hbm, 294, rfl⟩
abbrev main_v189 : Ref sig .tc := ⟨.hbm, 295, rfl⟩
abbrev main_c_46 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_c_47 : Ref sig .tc := ⟨.hbm, 302, rfl⟩
abbrev main_v195 : Ref sig .tc := ⟨.hbm, 303, rfl⟩
abbrev main_v196 : Ref sig .tc := ⟨.hbm, 304, rfl⟩
abbrev main_c_48 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_cst_49 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_call8_cst : Ref sig .tc := ⟨.hbm, 322, rfl⟩
abbrev main_call8_v0 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_cst_50 : Ref sig .tc := ⟨.hbm, 329, rfl⟩
abbrev main_v217 : Ref sig .tc := ⟨.hbm, 330, rfl⟩
abbrev main_cst_51 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_cst_52 : Ref sig .tc := ⟨.hbm, 335, rfl⟩
abbrev main_v221 : Ref sig .tc := ⟨.hbm, 336, rfl⟩
abbrev main_v222 : Ref sig .tc := ⟨.hbm, 337, rfl⟩
abbrev main_cst_53 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_cst_54 : Ref sig .tc := ⟨.hbm, 342, rfl⟩
abbrev main_call9_v0 : Ref sig .tc := ⟨.hbm, 343, rfl⟩
abbrev main_call9_v1 : Ref sig .tc := ⟨.hbm, 344, rfl⟩
abbrev main_v226 : Ref sig .tc := ⟨.hbm, 345, rfl⟩
abbrev main_c_55 : Ref sig .tc := ⟨.hbm, 346, rfl⟩
abbrev main_v227 : Ref sig .tc := ⟨.hbm, 347, rfl⟩
abbrev main_v228 : Ref sig .tc := ⟨.hbm, 348, rfl⟩
abbrev main_c_56 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_c_57 : Ref sig .tc := ⟨.hbm, 355, rfl⟩
abbrev main_v234 : Ref sig .tc := ⟨.hbm, 356, rfl⟩
abbrev main_v235 : Ref sig .tc := ⟨.hbm, 357, rfl⟩
abbrev main_c_58 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_c_59 : Ref sig .tc := ⟨.hbm, 364, rfl⟩
abbrev main_v241 : Ref sig .tc := ⟨.hbm, 365, rfl⟩
abbrev main_v242 : Ref sig .tc := ⟨.hbm, 366, rfl⟩
abbrev main_c_60 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_cst_61 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_call10_cst : Ref sig .tc := ⟨.hbm, 384, rfl⟩
abbrev main_call10_v0 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_cst_62 : Ref sig .tc := ⟨.hbm, 391, rfl⟩
abbrev main_v263 : Ref sig .tc := ⟨.hbm, 392, rfl⟩
abbrev main_cst_63 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_cst_64 : Ref sig .tc := ⟨.hbm, 397, rfl⟩
abbrev main_v267 : Ref sig .tc := ⟨.hbm, 398, rfl⟩
abbrev main_v268 : Ref sig .tc := ⟨.hbm, 399, rfl⟩
abbrev main_cst_65 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_cst_66 : Ref sig .tc := ⟨.hbm, 404, rfl⟩
abbrev main_call11_v0 : Ref sig .tc := ⟨.hbm, 405, rfl⟩
abbrev main_call11_v1 : Ref sig .tc := ⟨.hbm, 406, rfl⟩
abbrev main_v272 : Ref sig .tc := ⟨.hbm, 407, rfl⟩
abbrev main_c_67 : Ref sig .tc := ⟨.hbm, 408, rfl⟩
abbrev main_v273 : Ref sig .tc := ⟨.hbm, 409, rfl⟩
abbrev main_v274 : Ref sig .tc := ⟨.hbm, 410, rfl⟩
abbrev main_c_68 : Ref sig .tc := ⟨.hbm, 411, rfl⟩
abbrev main_v275 : Ref sig .tc := ⟨.hbm, 412, rfl⟩
abbrev main_v276 : Ref sig .tc := ⟨.hbm, 413, rfl⟩
abbrev main_v277 : Ref sig .tc := ⟨.hbm, 414, rfl⟩
abbrev main_v278 : Ref sig .tc := ⟨.hbm, 415, rfl⟩
abbrev main_v279 : Ref sig .tc := ⟨.hbm, 416, rfl⟩
abbrev main_c_69 : Ref sig .tc := ⟨.hbm, 417, rfl⟩
abbrev main_v280 : Ref sig .tc := ⟨.hbm, 418, rfl⟩
abbrev main_v281 : Ref sig .tc := ⟨.hbm, 419, rfl⟩
abbrev main_c_70 : Ref sig .tc := ⟨.hbm, 420, rfl⟩
abbrev main_v282 : Ref sig .tc := ⟨.hbm, 421, rfl⟩
abbrev main_v283 : Ref sig .tc := ⟨.hbm, 422, rfl⟩
abbrev main_v284 : Ref sig .tc := ⟨.hbm, 423, rfl⟩
abbrev main_v285 : Ref sig .tc := ⟨.hbm, 424, rfl⟩
abbrev main_v286 : Ref sig .tc := ⟨.hbm, 425, rfl⟩
abbrev main_c_71 : Ref sig .tc := ⟨.hbm, 426, rfl⟩
abbrev main_v287 : Ref sig .tc := ⟨.hbm, 427, rfl⟩
abbrev main_v288 : Ref sig .tc := ⟨.hbm, 428, rfl⟩
abbrev main_c_72 : Ref sig .tc := ⟨.hbm, 429, rfl⟩
abbrev main_v289 : Ref sig .tc := ⟨.hbm, 430, rfl⟩
abbrev main_v290 : Ref sig .tc := ⟨.hbm, 431, rfl⟩
abbrev main_v291 : Ref sig .tc := ⟨.hbm, 432, rfl⟩
abbrev main_v292 : Ref sig .tc := ⟨.hbm, 433, rfl⟩
abbrev main_v293 : Ref sig .tc := ⟨.hbm, 434, rfl⟩
abbrev main_v294 : Ref sig .tc := ⟨.hbm, 435, rfl⟩
abbrev main_v295 : Ref sig .tc := ⟨.hbm, 436, rfl⟩
abbrev main_v296 : Ref sig .tc := ⟨.hbm, 437, rfl⟩
abbrev main_v297 : Ref sig .tc := ⟨.hbm, 438, rfl⟩
abbrev main_cst_73 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_v301 : Ref sig .tc := ⟨.hbm, 443, rfl⟩
abbrev main_v302 : Ref sig .tc := ⟨.hbm, 444, rfl⟩
abbrev main_v303 : Ref sig .tc := ⟨.hbm, 445, rfl⟩
abbrev main_call12_cst : Ref sig .tc := ⟨.hbm, 446, rfl⟩
abbrev main_call12_v0 : Ref sig .tc := ⟨.hbm, 447, rfl⟩
abbrev main_v304 : Ref sig .tc := ⟨.hbm, 448, rfl⟩
abbrev main_cst_74 : Ref sig .tc := ⟨.hbm, 449, rfl⟩
abbrev main_v305 : Ref sig .tc := ⟨.hbm, 450, rfl⟩
abbrev main_v306 : Ref sig .tc := ⟨.hbm, 451, rfl⟩
abbrev main_v307 : Ref sig .tc := ⟨.hbm, 452, rfl⟩
abbrev main_cst_75 : Ref sig .tc := ⟨.hbm, 453, rfl⟩
abbrev main_v308 : Ref sig .tc := ⟨.hbm, 454, rfl⟩
abbrev main_cst_76 : Ref sig .tc := ⟨.hbm, 455, rfl⟩
abbrev main_v309 : Ref sig .tc := ⟨.hbm, 456, rfl⟩
abbrev main_v310 : Ref sig .tc := ⟨.hbm, 457, rfl⟩
abbrev main_v311 : Ref sig .tc := ⟨.hbm, 458, rfl⟩
abbrev main_cst_77 : Ref sig .tc := ⟨.hbm, 459, rfl⟩
abbrev main_v312 : Ref sig .tc := ⟨.hbm, 460, rfl⟩
abbrev main_v313 : Ref sig .tc := ⟨.hbm, 461, rfl⟩
abbrev main_v314 : Ref sig .tc := ⟨.hbm, 462, rfl⟩
abbrev main_v315 : Ref sig .tc := ⟨.hbm, 463, rfl⟩
abbrev main_v316 : Ref sig .tc := ⟨.hbm, 464, rfl⟩
abbrev main_v317 : Ref sig .tc := ⟨.hbm, 465, rfl⟩
abbrev main_v318 : Ref sig .tc := ⟨.hbm, 466, rfl⟩
abbrev main_v319 : Ref sig .tc := ⟨.hbm, 467, rfl⟩
abbrev main_v320 : Ref sig .tc := ⟨.hbm, 468, rfl⟩
abbrev main_call13_cst : Ref sig .tc := ⟨.hbm, 469, rfl⟩
abbrev main_call13_v0 : Ref sig .tc := ⟨.hbm, 470, rfl⟩
abbrev main_v321 : Ref sig .tc := ⟨.hbm, 471, rfl⟩
abbrev main_v322 : Ref sig .tc := ⟨.hbm, 472, rfl⟩
abbrev main_v323 : Ref sig .tc := ⟨.hbm, 473, rfl⟩
abbrev main_v324 : Ref sig .tc := ⟨.hbm, 474, rfl⟩
abbrev main_v325 : Ref sig .tc := ⟨.hbm, 475, rfl⟩
abbrev main_v326 : Ref sig .tc := ⟨.hbm, 476, rfl⟩
abbrev main_v327 : Ref sig .tc := ⟨.hbm, 477, rfl⟩
abbrev main_v328 : Ref sig .tc := ⟨.hbm, 478, rfl⟩
abbrev main_v329 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_v333 : Ref sig .tc := ⟨.hbm, 483, rfl⟩
abbrev main_cst_78 : Ref sig .tc := ⟨.hbm, 484, rfl⟩
abbrev main_v334 : Ref sig .tc := ⟨.hbm, 485, rfl⟩
abbrev main_cst_79 : Ref sig .tc := ⟨.hbm, 486, rfl⟩
abbrev main_v335 : Ref sig .tc := ⟨.hbm, 487, rfl⟩
abbrev main_v336 : Ref sig .tc := ⟨.hbm, 488, rfl⟩
abbrev main_v337 : Ref sig .tc := ⟨.hbm, 489, rfl⟩
abbrev main_cst_80 : Ref sig .tc := ⟨.hbm, 490, rfl⟩
abbrev main_v338 : Ref sig .tc := ⟨.hbm, 491, rfl⟩
abbrev main_v339 : Ref sig .tc := ⟨.hbm, 492, rfl⟩
abbrev main_cst_81 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_cst_82 : Ref sig .tc := ⟨.hbm, 497, rfl⟩
abbrev main_call14_v0 : Ref sig .tc := ⟨.hbm, 498, rfl⟩
abbrev main_call14_v1 : Ref sig .tc := ⟨.hbm, 499, rfl⟩
abbrev main_v343 : Ref sig .tc := ⟨.hbm, 500, rfl⟩
abbrev main_c_83 : Ref sig .tc := ⟨.hbm, 501, rfl⟩
abbrev main_v344 : Ref sig .tc := ⟨.hbm, 502, rfl⟩
abbrev main_v345 : Ref sig .tc := ⟨.hbm, 503, rfl⟩
abbrev main_c_84 : Ref sig .tc := ⟨.hbm, 504, rfl⟩
abbrev main_v346 : Ref sig .tc := ⟨.hbm, 505, rfl⟩
abbrev main_v347 : Ref sig .tc := ⟨.hbm, 506, rfl⟩
abbrev main_v348 : Ref sig .tc := ⟨.hbm, 507, rfl⟩
abbrev main_v349 : Ref sig .tc := ⟨.hbm, 508, rfl⟩
abbrev main_v350 : Ref sig .tc := ⟨.hbm, 509, rfl⟩
abbrev main_c_85 : Ref sig .tc := ⟨.hbm, 510, rfl⟩
abbrev main_v351 : Ref sig .tc := ⟨.hbm, 511, rfl⟩
abbrev main_v352 : Ref sig .tc := ⟨.hbm, 512, rfl⟩
abbrev main_c_86 : Ref sig .tc := ⟨.hbm, 513, rfl⟩
abbrev main_v353 : Ref sig .tc := ⟨.hbm, 514, rfl⟩
abbrev main_v354 : Ref sig .tc := ⟨.hbm, 515, rfl⟩
abbrev main_v355 : Ref sig .tc := ⟨.hbm, 516, rfl⟩
abbrev main_v356 : Ref sig .tc := ⟨.hbm, 517, rfl⟩
abbrev main_v357 : Ref sig .tc := ⟨.hbm, 518, rfl⟩
abbrev main_c_87 : Ref sig .tc := ⟨.hbm, 519, rfl⟩
abbrev main_v358 : Ref sig .tc := ⟨.hbm, 520, rfl⟩
abbrev main_v359 : Ref sig .tc := ⟨.hbm, 521, rfl⟩
abbrev main_c_88 : Ref sig .tc := ⟨.hbm, 522, rfl⟩
abbrev main_v360 : Ref sig .tc := ⟨.hbm, 523, rfl⟩
abbrev main_v361 : Ref sig .tc := ⟨.hbm, 524, rfl⟩
abbrev main_v362 : Ref sig .tc := ⟨.hbm, 525, rfl⟩
abbrev main_v363 : Ref sig .tc := ⟨.hbm, 526, rfl⟩
abbrev main_v364 : Ref sig .tc := ⟨.hbm, 527, rfl⟩
abbrev main_v365 : Ref sig .tc := ⟨.hbm, 528, rfl⟩
abbrev main_v366 : Ref sig .tc := ⟨.hbm, 529, rfl⟩
abbrev main_v367 : Ref sig .tc := ⟨.hbm, 530, rfl⟩
abbrev main_v368 : Ref sig .tc := ⟨.hbm, 531, rfl⟩
abbrev main_cst_89 : Ref sig .tc := ⟨.hbm, 532, rfl⟩
abbrev main_v369 : Ref sig .tc := ⟨.hbm, 533, rfl⟩
abbrev main_v370 : Ref sig .tc := ⟨.hbm, 534, rfl⟩
abbrev main_v371 : Ref sig .tc := ⟨.hbm, 535, rfl⟩
abbrev main_v372 : Ref sig .tc := ⟨.hbm, 536, rfl⟩
abbrev main_v373 : Ref sig .tc := ⟨.hbm, 537, rfl⟩
abbrev main_v374 : Ref sig .tc := ⟨.hbm, 538, rfl⟩
abbrev main_call15_cst : Ref sig .tc := ⟨.hbm, 539, rfl⟩
abbrev main_call15_v0 : Ref sig .tc := ⟨.hbm, 540, rfl⟩
abbrev main_v375 : Ref sig .tc := ⟨.hbm, 541, rfl⟩
abbrev main_v376 : Ref sig .tc := ⟨.hbm, 542, rfl⟩
abbrev main_v377 : Ref sig .tc := ⟨.hbm, 543, rfl⟩
abbrev main_v378 : Ref sig .tc := ⟨.hbm, 544, rfl⟩
abbrev main_v379 : Ref sig .tc := ⟨.hbm, 545, rfl⟩
abbrev main_cst_90 : Ref sig .tc := ⟨.hbm, 546, rfl⟩
abbrev main_v380 : Ref sig .tc := ⟨.hbm, 547, rfl⟩
abbrev main_cst_91 : Ref sig .tc := ⟨.hbm, 548, rfl⟩
abbrev main_v381 : Ref sig .tc := ⟨.hbm, 549, rfl⟩
abbrev main_v382 : Ref sig .tc := ⟨.hbm, 550, rfl⟩
abbrev main_v383 : Ref sig .tc := ⟨.hbm, 551, rfl⟩
abbrev main_cst_92 : Ref sig .tc := ⟨.hbm, 552, rfl⟩
abbrev main_v384 : Ref sig .tc := ⟨.hbm, 553, rfl⟩
abbrev main_v385 : Ref sig .tc := ⟨.hbm, 554, rfl⟩
abbrev main_cst_93 : Ref sig .tc := ⟨.hbm, 555, rfl⟩
abbrev main_v386 : Ref sig .tc := ⟨.hbm, 556, rfl⟩
abbrev main_v387 : Ref sig .tc := ⟨.hbm, 557, rfl⟩
abbrev main_v388 : Ref sig .tc := ⟨.hbm, 558, rfl⟩
abbrev main_cst_94 : Ref sig .tc := ⟨.hbm, 559, rfl⟩
abbrev main_call16_v0 : Ref sig .tc := ⟨.hbm, 560, rfl⟩
abbrev main_call16_v1 : Ref sig .tc := ⟨.hbm, 561, rfl⟩
abbrev main_v389 : Ref sig .tc := ⟨.hbm, 562, rfl⟩
abbrev main_c_95 : Ref sig .tc := ⟨.hbm, 563, rfl⟩
abbrev main_v390 : Ref sig .tc := ⟨.hbm, 564, rfl⟩
abbrev main_v391 : Ref sig .tc := ⟨.hbm, 565, rfl⟩
abbrev main_c_96 : Ref sig .tc := ⟨.hbm, 566, rfl⟩
abbrev main_v392 : Ref sig .tc := ⟨.hbm, 567, rfl⟩
abbrev main_v393 : Ref sig .tc := ⟨.hbm, 568, rfl⟩
abbrev main_v394 : Ref sig .tc := ⟨.hbm, 569, rfl⟩
abbrev main_v395 : Ref sig .tc := ⟨.hbm, 570, rfl⟩
abbrev main_v396 : Ref sig .tc := ⟨.hbm, 571, rfl⟩
abbrev main_c_97 : Ref sig .tc := ⟨.hbm, 572, rfl⟩
abbrev main_v397 : Ref sig .tc := ⟨.hbm, 573, rfl⟩
abbrev main_v398 : Ref sig .tc := ⟨.hbm, 574, rfl⟩
abbrev main_c_98 : Ref sig .tc := ⟨.hbm, 575, rfl⟩
abbrev main_v399 : Ref sig .tc := ⟨.hbm, 576, rfl⟩
abbrev main_v400 : Ref sig .tc := ⟨.hbm, 577, rfl⟩
abbrev main_v401 : Ref sig .tc := ⟨.hbm, 578, rfl⟩
abbrev main_v402 : Ref sig .tc := ⟨.hbm, 579, rfl⟩
abbrev main_v403 : Ref sig .tc := ⟨.hbm, 580, rfl⟩
abbrev main_c_99 : Ref sig .tc := ⟨.hbm, 581, rfl⟩
abbrev main_v404 : Ref sig .tc := ⟨.hbm, 582, rfl⟩
abbrev main_v405 : Ref sig .tc := ⟨.hbm, 583, rfl⟩
abbrev main_c_100 : Ref sig .tc := ⟨.hbm, 584, rfl⟩
abbrev main_v406 : Ref sig .tc := ⟨.hbm, 585, rfl⟩
abbrev main_v407 : Ref sig .tc := ⟨.hbm, 586, rfl⟩
abbrev main_v408 : Ref sig .tc := ⟨.hbm, 587, rfl⟩
abbrev main_v409 : Ref sig .tc := ⟨.hbm, 588, rfl⟩
abbrev main_v410 : Ref sig .tc := ⟨.hbm, 589, rfl⟩
abbrev main_v411 : Ref sig .tc := ⟨.hbm, 590, rfl⟩
abbrev main_v412 : Ref sig .tc := ⟨.hbm, 591, rfl⟩
abbrev main_v413 : Ref sig .tc := ⟨.hbm, 592, rfl⟩
abbrev main_v414 : Ref sig .tc := ⟨.hbm, 593, rfl⟩
abbrev main_cst_101 : Ref sig .tc := ⟨.hbm, 594, rfl⟩
abbrev main_v415 : Ref sig .tc := ⟨.hbm, 595, rfl⟩
abbrev main_v416 : Ref sig .tc := ⟨.hbm, 596, rfl⟩
abbrev main_v417 : Ref sig .tc := ⟨.hbm, 597, rfl⟩
abbrev main_v418 : Ref sig .tc := ⟨.hbm, 598, rfl⟩
abbrev main_v419 : Ref sig .tc := ⟨.hbm, 599, rfl⟩
abbrev main_v420 : Ref sig .tc := ⟨.hbm, 600, rfl⟩
abbrev main_call17_cst : Ref sig .tc := ⟨.hbm, 601, rfl⟩
abbrev main_call17_v0 : Ref sig .tc := ⟨.hbm, 602, rfl⟩
abbrev main_v421 : Ref sig .tc := ⟨.hbm, 603, rfl⟩
abbrev main_v422 : Ref sig .tc := ⟨.hbm, 604, rfl⟩
abbrev main_v423 : Ref sig .tc := ⟨.hbm, 605, rfl⟩
abbrev main_v424 : Ref sig .tc := ⟨.hbm, 606, rfl⟩
abbrev main_v425 : Ref sig .tc := ⟨.hbm, 607, rfl⟩
abbrev main_call18_cst : Ref sig .tc := ⟨.hbm, 608, rfl⟩
abbrev main_call18_v0 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_v429 : Ref sig .tc := ⟨.hbm, 613, rfl⟩
abbrev main_v430 : Ref sig .tc := ⟨.hbm, 614, rfl⟩
abbrev main_c_102 : Ref sig .tc := ⟨.hbm, 615, rfl⟩
abbrev main_v431 : Ref sig .tc := ⟨.hbm, 616, rfl⟩
abbrev main_v432 : Ref sig .tc := ⟨.hbm, 617, rfl⟩
abbrev main_c_103 : Ref sig .tc := ⟨.hbm, 618, rfl⟩
abbrev main_v433 : Ref sig .tc := ⟨.hbm, 619, rfl⟩
abbrev main_v434 : Ref sig .tc := ⟨.hbm, 620, rfl⟩
abbrev main_v435 : Ref sig .tc := ⟨.hbm, 621, rfl⟩
abbrev main_v436 : Ref sig .tc := ⟨.hbm, 622, rfl⟩
abbrev main_v437 : Ref sig .tc := ⟨.hbm, 623, rfl⟩
abbrev main_v438 : Ref sig .tc := ⟨.hbm, 624, rfl⟩
abbrev main_v439 : Ref sig .tc := ⟨.hbm, 625, rfl⟩
abbrev main_v440 : Ref sig .tc := ⟨.hbm, 626, rfl⟩
abbrev main_v441 : Ref sig .tc := ⟨.hbm, 627, rfl⟩
abbrev main_v442 : Ref sig .tc := ⟨.hbm, 628, rfl⟩
abbrev main_call19_cst : Ref sig .tc := ⟨.hbm, 629, rfl⟩
abbrev main_call19_v0 : Ref sig .tc := ⟨.hbm, 630, rfl⟩
abbrev main_v443 : Ref sig .tc := ⟨.hbm, 631, rfl⟩
abbrev main_v444 : Ref sig .tc := ⟨.hbm, 632, rfl⟩
abbrev main_v445 : Ref sig .tc := ⟨.hbm, 633, rfl⟩
abbrev main_v446 : Ref sig .tc := ⟨.hbm, 634, rfl⟩
abbrev main_v447 : Ref sig .tc := ⟨.hbm, 635, rfl⟩
abbrev main_call20_cst : Ref sig .tc := ⟨.hbm, 636, rfl⟩
abbrev main_call20_v0 : Ref sig .tc := ⟨.hbm, 637, rfl⟩
abbrev main_v448 : Ref sig .tc := ⟨.hbm, 638, rfl⟩
abbrev main_v449 : Ref sig .tc := ⟨.hbm, 639, rfl⟩
abbrev main_v450 : Ref sig .tc := ⟨.hbm, 640, rfl⟩
abbrev main_v451 : Ref sig .tc := ⟨.hbm, 641, rfl⟩
abbrev main_v452 : Ref sig .tc := ⟨.hbm, 642, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  concatenates_S131072_S65536_S196608_d0 : Shape.Concatenates [S131072, S65536] S196608 0
  bcast_S_S196608 : S_.BroadcastsInDim S196608 (![] : Fin 0 → Fin S196608.rank)
  bcast_S_S65536 : S_.BroadcastsInDim S65536 (![] : Fin 0 → Fin S65536.rank)
  bcast_S196608_S196608x1_0 : S196608.BroadcastsInDim S196608x1 (![0] : Fin 1 → Fin S196608x1.rank)
  bcast_S196608x1_S196608x156_0_1 : S196608x1.BroadcastsInDim S196608x156 (![0, 1] : Fin 2 → Fin S196608x156.rank)
  bcast_S_S65536x156 : S_.BroadcastsInDim S65536x156 (![] : Fin 0 → Fin S65536x156.rank)
  bcast_S156_S1x156_1 : S156.BroadcastsInDim S1x156 (![1] : Fin 1 → Fin S1x156.rank)
  bcast_S1x156_S65536x156_0_1 : S1x156.BroadcastsInDim S65536x156 (![0, 1] : Fin 2 → Fin S65536x156.rank)
  bcast_S196608x1_S196608x312_0_1 : S196608x1.BroadcastsInDim S196608x312 (![0, 1] : Fin 2 → Fin S196608x312.rank)
  bcast_S_S65536x312 : S_.BroadcastsInDim S65536x312 (![] : Fin 0 → Fin S65536x312.rank)
  bcast_S312_S1x312_1 : S312.BroadcastsInDim S1x312 (![1] : Fin 1 → Fin S1x312.rank)
  bcast_S1x312_S65536x312_0_1 : S1x312.BroadcastsInDim S65536x312 (![0, 1] : Fin 2 → Fin S65536x312.rank)
  bcast_S196608x1_S196608x128_0_1 : S196608x1.BroadcastsInDim S196608x128 (![0, 1] : Fin 2 → Fin S196608x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S2048x128 : S_.BroadcastsInDim S2048x128 (![] : Fin 0 → Fin S2048x128.rank)
  bcast_S65536_S65536x1_0 : S65536.BroadcastsInDim S65536x1 (![0] : Fin 1 → Fin S65536x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S1x128_S2048x128_0_1 : S1x128.BroadcastsInDim S2048x128 (![0, 1] : Fin 2 → Fin S2048x128.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S300000_S1500000_d0 : Shape.Concatenates [S1200000, S300000] S1500000 0
  bcast_S_S1500000 : S_.BroadcastsInDim S1500000 (![] : Fin 0 → Fin S1500000.rank)
  bcast_S_S300000 : S_.BroadcastsInDim S300000 (![] : Fin 0 → Fin S300000.rank)
  bcast_S1500000_S1500000x1_0 : S1500000.BroadcastsInDim S1500000x1 (![0] : Fin 1 → Fin S1500000x1.rank)
  bcast_S1500000x1_S1500000x128_0_1 : S1500000x1.BroadcastsInDim S1500000x128 (![0, 1] : Fin 2 → Fin S1500000x128.rank)
  bcast_S_S300000x128 : S_.BroadcastsInDim S300000x128 (![] : Fin 0 → Fin S300000x128.rank)
  bcast_S1x128_S300000x128_0_1 : S1x128.BroadcastsInDim S300000x128 (![0, 1] : Fin 2 → Fin S300000x128.rank)
  bcast_S_S2000x128 : S_.BroadcastsInDim S2000x128 (![] : Fin 0 → Fin S2000x128.rank)
  bcast_S300000_S300000x1_0 : S300000.BroadcastsInDim S300000x1 (![0] : Fin 1 → Fin S300000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S1x1024_S2000x1024_0_1 : S1x1024.BroadcastsInDim S2000x1024 (![0, 1] : Fin 2 → Fin S2000x1024.rank)
  bcast_S_S2000x1024 : S_.BroadcastsInDim S2000x1024 (![] : Fin 0 → Fin S2000x1024.rank)
  bcast_S1x128_S2000x128_0_1 : S1x128.BroadcastsInDim S2000x128 (![0, 1] : Fin 2 → Fin S2000x128.rank)
  slices_S2x64000_S1x64000_0_0 : S2x64000.Slices ![0, 0] S1x64000
  shapeCasts_S1x64000_S64000 : S1x64000.ShapeCasts S64000
  slices_S2x64000_S1x64000_1_0 : S2x64000.Slices ![1, 0] S1x64000
  concatenates_S64000_S2000_S66000_d0 : Shape.Concatenates [S64000, S2000] S66000 0
  bcast_S_S66000 : S_.BroadcastsInDim S66000 (![] : Fin 0 → Fin S66000.rank)
  bcast_S66000_S66000x1_0 : S66000.BroadcastsInDim S66000x1 (![0] : Fin 1 → Fin S66000x1.rank)
  bcast_S66000x1_S66000x1024_0_1 : S66000x1.BroadcastsInDim S66000x1024 (![0, 1] : Fin 2 → Fin S66000x1024.rank)
  bcast_S66000x1_S66000x128_0_1 : S66000x1.BroadcastsInDim S66000x128 (![0, 1] : Fin 2 → Fin S66000x128.rank)
  concatenates_S2048x128_S2048x128_S2048x256_d1 : Shape.Concatenates [S2048x128, S2048x128] S2048x256 1
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S65536x78_S78x156_S65536x156_1_0_0_1_n_n_wf : DotDims.WF S65536x78 S78x156 S65536x156 [1] [0] [0] [1] [] []
  scatter_S65536_S196608x1_S196608_n_0_0_1_wf : ScatterDims.WF S65536 S196608x1 S196608 [] [0] [0] 1
  gather_S65536x156_S196608x1_S196608x156_1_0_n_n_0_1_1156_wf : GatherDims.WF S65536x156 S196608x1 S196608x156 [1] [0] [] [0] [] 1 ![1, 156]
  gather_S65536_S196608x1_S196608_n_0_n_n_0_1_1_wf : GatherDims.WF S65536 S196608x1 S196608 [] [0] [] [0] [] 1 ![1]
  scatter_S65536x156_S196608x1_S196608x156_1_0_0_1_wf : ScatterDims.WF S65536x156 S196608x1 S196608x156 [1] [0] [0] 1
  dot_S65536x156_S156x312_S65536x312_1_0_0_1_n_n_wf : DotDims.WF S65536x156 S156x312 S65536x312 [1] [0] [0] [1] [] []
  gather_S65536x312_S196608x1_S196608x312_1_0_n_n_0_1_1312_wf : GatherDims.WF S65536x312 S196608x1 S196608x312 [1] [0] [] [0] [] 1 ![1, 312]
  scatter_S65536x312_S196608x1_S196608x312_1_0_0_1_wf : ScatterDims.WF S65536x312 S196608x1 S196608x312 [1] [0] [0] 1
  dot_S65536x312_S312x128_S65536x128_1_0_0_1_n_n_wf : DotDims.WF S65536x312 S312x128 S65536x128 [1] [0] [0] [1] [] []
  gather_S65536x128_S196608x1_S196608x128_1_0_n_n_0_1_1128_wf : GatherDims.WF S65536x128 S196608x1 S196608x128 [1] [0] [] [0] [] 1 ![1, 128]
  scatter_S65536x128_S196608x1_S196608x128_1_0_0_1_wf : ScatterDims.WF S65536x128 S196608x1 S196608x128 [1] [0] [0] 1
  scatter_S2048x128_S65536x1_S65536x128_1_0_0_1_wf : ScatterDims.WF S2048x128 S65536x1 S65536x128 [1] [0] [0] 1
  scatter_S2048_S65536x1_S65536_n_0_0_1_wf : ScatterDims.WF S2048 S65536x1 S65536 [] [0] [0] 1
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  dot_S300000x33_S33x128_S300000x128_1_0_0_1_n_n_wf : DotDims.WF S300000x33 S33x128 S300000x128 [1] [0] [0] [1] [] []
  scatter_S300000_S1500000x1_S1500000_n_0_0_1_wf : ScatterDims.WF S300000 S1500000x1 S1500000 [] [0] [0] 1
  gather_S300000x128_S1500000x1_S1500000x128_1_0_n_n_0_1_1128_wf : GatherDims.WF S300000x128 S1500000x1 S1500000x128 [1] [0] [] [0] [] 1 ![1, 128]
  gather_S300000_S1500000x1_S1500000_n_0_n_n_0_1_1_wf : GatherDims.WF S300000 S1500000x1 S1500000 [] [0] [] [0] [] 1 ![1]
  scatter_S300000x128_S1500000x1_S1500000x128_1_0_0_1_wf : ScatterDims.WF S300000x128 S1500000x1 S1500000x128 [1] [0] [0] 1
  dot_S300000x128_S128x128_S300000x128_1_0_0_1_n_n_wf : DotDims.WF S300000x128 S128x128 S300000x128 [1] [0] [0] [1] [] []
  scatter_S2000x128_S300000x1_S300000x128_1_0_0_1_wf : ScatterDims.WF S2000x128 S300000x1 S300000x128 [1] [0] [0] 1
  scatter_S2000_S300000x1_S300000_n_0_0_1_wf : ScatterDims.WF S2000 S300000x1 S300000 [] [0] [0] 1
  dot_S2000x128_S128x1024_S2000x1024_1_0_0_1_n_n_wf : DotDims.WF S2000x128 S128x1024 S2000x1024 [1] [0] [0] [1] [] []
  dot_S2000x1024_S1024x128_S2000x128_1_0_0_1_n_n_wf : DotDims.WF S2000x1024 S1024x128 S2000x128 [1] [0] [0] [1] [] []
  scatter_S2000_S66000x1_S66000_n_0_0_1_wf : ScatterDims.WF S2000 S66000x1 S66000 [] [0] [0] 1
  gather_S2000x1024_S66000x1_S66000x1024_1_0_n_n_0_1_11024_wf : GatherDims.WF S2000x1024 S66000x1 S66000x1024 [1] [0] [] [0] [] 1 ![1, 1024]
  gather_S2000_S66000x1_S66000_n_0_n_n_0_1_1_wf : GatherDims.WF S2000 S66000x1 S66000 [] [0] [] [0] [] 1 ![1]
  scatter_S2000x1024_S66000x1_S66000x1024_1_0_0_1_wf : ScatterDims.WF S2000x1024 S66000x1 S66000x1024 [1] [0] [0] 1
  gather_S2000x128_S66000x1_S66000x128_1_0_n_n_0_1_1128_wf : GatherDims.WF S2000x128 S66000x1 S66000x128 [1] [0] [] [0] [] 1 ![1, 128]
  scatter_S2000x128_S66000x1_S66000x128_1_0_0_1_wf : ScatterDims.WF S2000x128 S66000x1 S66000x128 [1] [0] [0] 1
  gather_S2000x128_S2048x1_S2048x128_1_0_n_n_0_1_1128_wf : GatherDims.WF S2000x128 S2048x1 S2048x128 [1] [0] [] [0] [] 1 ![1, 128]
  dot_S2048x256_S256x1024_S2048x1024_1_0_0_1_n_n_wf : DotDims.WF S2048x256 S256x1024 S2048x1024 [1] [0] [0] [1] [] []
  dot_S2048x1024_S1024x512_S2048x512_1_0_0_1_n_n_wf : DotDims.WF S2048x1024 S1024x512 S2048x512 [1] [0] [0] [1] [] []
  dot_S2048x512_S512x1_S2048x1_1_0_0_1_n_n_wf : DotDims.WF S2048x512 S512x1 S2048x1 [1] [0] [0] [1] [] []

variable [Facts₀]

def dot_S65536x78_S78x156_S65536x156_1_0_0_1_n_n : DotDims S65536x78 S78x156 S65536x156 where
  lhsContracting := [1]
  rhsContracting := [0]
  lhsNonContracting := [0]
  rhsNonContracting := [1]
  lhsBatch := []
  rhsBatch := []
  wf := dot_S65536x78_S78x156_S65536x156_1_0_0_1_n_n_wf
def scatter_S65536_S196608x1_S196608_n_0_0_1 : ScatterDims S65536 S196608x1 S196608 where
  updateWindowDims := []
  insertedWindowDims := [0]
  scatterDimsToOperandDims := [0]
  indexVectorDim := 1
  wf := scatter_S65536_S196608x1_S196608_n_0_0_1_wf
def gather_S65536x156_S196608x1_S196608x156_1_0_n_n_0_1_1156 : GatherDims S65536x156 S196608x1 S196608x156 where
  offsetDims := [1]
  collapsedSliceDims := [0]
  operandBatchingDims := []
  startIndicesBatchingDims := []
  startIndexMap := [0]
  indexVectorDim := 1
  sliceSizes := ![1, 156]
  wf := gather_S65536x156_S196608x1_S196608x156_1_0_n_n_0_1_1156_wf
def gather_S65536_S196608x1_S196608_n_0_n_n_0_1_1 : GatherDims S65536 S196608x1 S196608 where
  offsetDims := []
  collapsedSliceDims := [0]
  operandBatchingDims := []
  startIndicesBatchingDims := []
  startIndexMap := [0]
  indexVectorDim := 1
  sliceSizes := ![1]
  wf := gather_S65536_S196608x1_S196608_n_0_n_n_0_1_1_wf
def scatter_S65536x156_S196608x1_S196608x156_1_0_0_1 : ScatterDims S65536x156 S196608x1 S196608x156 where
  updateWindowDims := [1]
  insertedWindowDims := [0]
  scatterDimsToOperandDims := [0]
  indexVectorDim := 1
  wf := scatter_S65536x156_S196608x1_S196608x156_1_0_0_1_wf
def dot_S65536x156_S156x312_S65536x312_1_0_0_1_n_n : DotDims S65536x156 S156x312 S65536x312 where
  lhsContracting := [1]
  rhsContracting := [0]
  lhsNonContracting := [0]
  rhsNonContracting := [1]
  lhsBatch := []
  rhsBatch := []
  wf := dot_S65536x156_S156x312_S65536x312_1_0_0_1_n_n_wf
def gather_S65536x312_S196608x1_S196608x312_1_0_n_n_0_1_1312 : GatherDims S65536x312 S196608x1 S196608x312 where
  offsetDims := [1]
  collapsedSliceDims := [0]
  operandBatchingDims := []
  startIndicesBatchingDims := []
  startIndexMap := [0]
  indexVectorDim := 1
  sliceSizes := ![1, 312]
  wf := gather_S65536x312_S196608x1_S196608x312_1_0_n_n_0_1_1312_wf
def scatter_S65536x312_S196608x1_S196608x312_1_0_0_1 : ScatterDims S65536x312 S196608x1 S196608x312 where
  updateWindowDims := [1]
  insertedWindowDims := [0]
  scatterDimsToOperandDims := [0]
  indexVectorDim := 1
  wf := scatter_S65536x312_S196608x1_S196608x312_1_0_0_1_wf
def dot_S65536x312_S312x128_S65536x128_1_0_0_1_n_n : DotDims S65536x312 S312x128 S65536x128 where
  lhsContracting := [1]
  rhsContracting := [0]
  lhsNonContracting := [0]
  rhsNonContracting := [1]
  lhsBatch := []
  rhsBatch := []
  wf := dot_S65536x312_S312x128_S65536x128_1_0_0_1_n_n_wf
def gather_S65536x128_S196608x1_S196608x128_1_0_n_n_0_1_1128 : GatherDims S65536x128 S196608x1 S196608x128 where
  offsetDims := [1]
  collapsedSliceDims := [0]
  operandBatchingDims := []
  startIndicesBatchingDims := []
  startIndexMap := [0]
  indexVectorDim := 1
  sliceSizes := ![1, 128]
  wf := gather_S65536x128_S196608x1_S196608x128_1_0_n_n_0_1_1128_wf
def scatter_S65536x128_S196608x1_S196608x128_1_0_0_1 : ScatterDims S65536x128 S196608x1 S196608x128 where
  updateWindowDims := [1]
  insertedWindowDims := [0]
  scatterDimsToOperandDims := [0]
  indexVectorDim := 1
  wf := scatter_S65536x128_S196608x1_S196608x128_1_0_0_1_wf
def scatter_S2048x128_S65536x1_S65536x128_1_0_0_1 : ScatterDims S2048x128 S65536x1 S65536x128 where
  updateWindowDims := [1]
  insertedWindowDims := [0]
  scatterDimsToOperandDims := [0]
  indexVectorDim := 1
  wf := scatter_S2048x128_S65536x1_S65536x128_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S300000x33_S33x128_S300000x128_1_0_0_1_n_n : DotDims S300000x33 S33x128 S300000x128 where
  lhsContracting := [1]
  rhsContracting := [0]
  lhsNonContracting := [0]
  rhsNonContracting := [1]
  lhsBatch := []
  rhsBatch := []
  wf := dot_S300000x33_S33x128_S300000x128_1_0_0_1_n_n_wf
def scatter_S300000_S1500000x1_S1500000_n_0_0_1 : ScatterDims S300000 S1500000x1 S1500000 where
  updateWindowDims := []
  insertedWindowDims := [0]
  scatterDimsToOperandDims := [0]
  indexVectorDim := 1
  wf := scatter_S300000_S1500000x1_S1500000_n_0_0_1_wf
def gather_S300000x128_S1500000x1_S1500000x128_1_0_n_n_0_1_1128 : GatherDims S300000x128 S1500000x1 S1500000x128 where
  offsetDims := [1]
  collapsedSliceDims := [0]
  operandBatchingDims := []
  startIndicesBatchingDims := []
  startIndexMap := [0]
  indexVectorDim := 1
  sliceSizes := ![1, 128]
  wf := gather_S300000x128_S1500000x1_S1500000x128_1_0_n_n_0_1_1128_wf
def gather_S300000_S1500000x1_S1500000_n_0_n_n_0_1_1 : GatherDims S300000 S1500000x1 S1500000 where
  offsetDims := []
  collapsedSliceDims := [0]
  operandBatchingDims := []
  startIndicesBatchingDims := []
  startIndexMap := [0]
  indexVectorDim := 1
  sliceSizes := ![1]
  wf := gather_S300000_S1500000x1_S1500000_n_0_n_n_0_1_1_wf
def scatter_S300000x128_S1500000x1_S1500000x128_1_0_0_1 : ScatterDims S300000x128 S1500000x1 S1500000x128 where
  updateWindowDims := [1]
  insertedWindowDims := [0]
  scatterDimsToOperandDims := [0]
  indexVectorDim := 1
  wf := scatter_S300000x128_S1500000x1_S1500000x128_1_0_0_1_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def scatter_S2000x128_S300000x1_S300000x128_1_0_0_1 : ScatterDims S2000x128 S300000x1 S300000x128 where
  updateWindowDims := [1]
  insertedWindowDims := [0]
  scatterDimsToOperandDims := [0]
  indexVectorDim := 1
  wf := scatter_S2000x128_S300000x1_S300000x128_1_0_0_1_wf
def scatter_S2000_S300000x1_S300000_n_0_0_1 : ScatterDims S2000 S300000x1 S300000 where
  updateWindowDims := []
  insertedWindowDims := [0]
  scatterDimsToOperandDims := [0]
  indexVectorDim := 1
  wf := scatter_S2000_S300000x1_S300000_n_0_0_1_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def scatter_S2000_S66000x1_S66000_n_0_0_1 : ScatterDims S2000 S66000x1 S66000 where
  updateWindowDims := []
  insertedWindowDims := [0]
  scatterDimsToOperandDims := [0]
  indexVectorDim := 1
  wf := scatter_S2000_S66000x1_S66000_n_0_0_1_wf
def gather_S2000x1024_S66000x1_S66000x1024_1_0_n_n_0_1_11024 : GatherDims S2000x1024 S66000x1 S66000x1024 where
  offsetDims := [1]
  collapsedSliceDims := [0]
  operandBatchingDims := []
  startIndicesBatchingDims := []
  startIndexMap := [0]
  indexVectorDim := 1
  sliceSizes := ![1, 1024]
  wf := gather_S2000x1024_S66000x1_S66000x1024_1_0_n_n_0_1_11024_wf
def gather_S2000_S66000x1_S66000_n_0_n_n_0_1_1 : GatherDims S2000 S66000x1 S66000 where
  offsetDims := []
  collapsedSliceDims := [0]
  operandBatchingDims := []
  startIndicesBatchingDims := []
  startIndexMap := [0]
  indexVectorDim := 1
  sliceSizes := ![1]
  wf := gather_S2000_S66000x1_S66000_n_0_n_n_0_1_1_wf
def scatter_S2000x1024_S66000x1_S66000x1024_1_0_0_1 : ScatterDims S2000x1024 S66000x1 S66000x1024 where
  updateWindowDims := [1]
  insertedWindowDims := [0]
  scatterDimsToOperandDims := [0]
  indexVectorDim := 1
  wf := scatter_S2000x1024_S66000x1_S66000x1024_1_0_0_1_wf
def gather_S2000x128_S66000x1_S66000x128_1_0_n_n_0_1_1128 : GatherDims S2000x128 S66000x1 S66000x128 where
  offsetDims := [1]
  collapsedSliceDims := [0]
  operandBatchingDims := []
  startIndicesBatchingDims := []
  startIndexMap := [0]
  indexVectorDim := 1
  sliceSizes := ![1, 128]
  wf := gather_S2000x128_S66000x1_S66000x128_1_0_n_n_0_1_1128_wf
def scatter_S2000x128_S66000x1_S66000x128_1_0_0_1 : ScatterDims S2000x128 S66000x1 S66000x128 where
  updateWindowDims := [1]
  insertedWindowDims := [0]
  scatterDimsToOperandDims := [0]
  indexVectorDim := 1
  wf := scatter_S2000x128_S66000x1_S66000x128_1_0_0_1_wf
def gather_S2000x128_S2048x1_S2048x128_1_0_n_n_0_1_1128 : GatherDims S2000x128 S2048x1 S2048x128 where
  offsetDims := [1]
  collapsedSliceDims := [0]
  operandBatchingDims := []
  startIndicesBatchingDims := []
  startIndexMap := [0]
  indexVectorDim := 1
  sliceSizes := ![1, 128]
  wf := gather_S2000x128_S2048x1_S2048x128_1_0_n_n_0_1_1128_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

class Facts : Prop extends Facts₀ where

variable [Facts]
-- ==== Proof.LibRegionOp.lean ====
/-
  A kernel region seen from the host program around it: one more host operation.

  When a region is left, the buffers hold the region's arrays at what its write-backs leave and every other buffer
  at what it held on entry.  If every array but one ends as it was entered (the input windows: nothing is written
  back to them) and the remaining one ends at the value a host operation would give its result buffer from the entry
  contents, then the contents on exit are exactly that operation's result over the contents on entry.  A program of
  several regions among stretches of host operations is then one straight line of host operations, and whatever
  reads a buffer back through a line of host operations reads it back through the regions too.
-/
import Idealize.ShloMosaic.Lib.Pipeline.FrameSuffix
import Idealize.ShloMosaic.Lib.StableHlo.Run

namespace Cert.LibRegionOp

open Idealize.ShloMosaic Idealize.ShloMosaic.TcCoe Idealize.ShloMosaic.Pipeline

variable {nD : Nat} {τ : Topo} {sig : RefSig} {Val : EltTy → Type}

/-- The contents a region leaves are one host operation's result over the contents it was entered with: the
    operation writes the array of window `wo` only, every other window's array ends as entered, and window `wo`'s
    array ends at the operation's value. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hin : ∀ w, w ≠ wo → A w = V (Proc.devRef .tc (arrRef win w)))
    (hout : A wo = op.result V (Proc.devRef .tc (arrRef win wo))) :
    withArrays win c V A = op.result V := by
  funext b
  by_cases h : ∃ w, Proc.devRef .tc (arrRef win w) = b
  · obtain ⟨w, rfl⟩ := h
    rw [withArrays_arr win hinj]
    by_cases hwo : w = wo
    · subst hwo; exact hout
    · rw [hin w hwo]
      exact (op.result_of_not_mem V (by
        rw [hw, Finset.mem_singleton]
        exact fun e => hwo (hinj (Proc.devRef_injective _ e)))).symm
  · have hV : withArrays win c V A b = V b := by unfold withArrays; rw [dif_neg h]
    rw [hV]
    exact (op.result_of_not_mem V (by
      rw [hw, Finset.mem_singleton]
      exact fun e => h ⟨wo, e.symm⟩)).symm

/-- A region leaves every buffer but the one output array as it found it: an input window's array ends as entered, and a
    buffer that is no window's array is not touched. -/
theorem withArrays_keeps {gr W : Nat} (win : Fin W → WinSpec sig gr) (hinj : Function.Injective (arrRef win))
    (c : Dev nD) (V : Valuation τ sig Val) (A : (w : Fin W) → Buf Val ((win w).arr.view.loc (c.tc : Thread nD τ)))
    (wo : Fin W) (hin : ∀ w, w ≠ wo → A w = V (Proc.devRef .tc (arrRef win w)))
    (r : Ref sig .tc) (hr : r ≠ arrRef win wo) :
    withArrays win c V A (Proc.devRef .tc r) = V (Proc.devRef .tc r) := by
  by_cases h : ∃ w, arrRef win w = r
  · obtain ⟨w, rfl⟩ := h
    rw [withArrays_arr win hinj]
    exact hin w fun e => hr (by rw [e])
  · exact withArrays_of_ne win c V A r fun w e => h ⟨w, e⟩

/-- Two references are different when the index of one lies below a bound that the other's reaches: a program's
    arguments are its first references, and every buffer an operation writes comes after them. -/
theorem ne_of_idx_lt {κ : Kind} {n : ℕ} {r y : Ref sig κ} (hr : r.idx.val < n) (hy : n ≤ y.idx.val) : r ≠ y := by
  intro e
  subst e
  omega

/-- A reference below the bound is not written by a line of host operations each of which writes only references at or
    above it: after the line it holds what it held before. -/
theorem after_keeps_below (ops : List (HloOp τ sig Val)) (V : Valuation τ sig Val) (r : Ref sig .tc)
    (h : ∀ op ∈ ops, Proc.devRef .tc r ∉ op.writes) :
    StableHlo.after ops V (Proc.devRef .tc r) = V (Proc.devRef .tc r) :=
  StableHlo.after_of_forall_not_mem ops V h

end Cert.LibRegionOp
-- ==== Proof.ArgsK.lean ====
/-
  No segment of the program's @main writes an argument.

  The program's arguments are its first 42 references.  Every host operation writes a later reference, so a stretch of
  host operations leaves an argument's buffer as it found it.  A region changes one array only, its output window's —
  nothing is written back to an input window, and a buffer that is no window's array is not touched — and that array
  is a later reference too.  Walking back from the last boundary through the 66 segments, an argument's buffer at the
  end holds what it held at the launch.
-/
import proofs.«153485_j59545426592079_1_alg».proof.Proof.FrameK
import proofs.«153485_j59545426592079_1_alg».proof.Proof.LibRegionOp

set_option maxRecDepth 16384

noncomputable section

namespace Cert.Kernel.GenP

open Cert.Kernel.Gen Cert.LibRegionOp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's input windows end as entered -/

theorem ins0 (V : (c : Dev nD) → (b : Ref sig .tc) → Buf (Elt F) ((c : Thread nD τ).loc b)) (c : Dev nD) (w : Fin cfg0.W) (hw : w ≠ 3) :
    (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, h => absurd rfl h

theorem ins1 (V : (c : Dev nD) → (b : Ref sig .tc) → Buf (Elt F) ((c : Thread nD τ).loc b)) (c : Dev nD) (w : Fin cfg1.W) (hw : w ≠ 3) :
    (dat1 V c).arrAt w cfg1.N = V c (Pipeline.arrRef spec1 w) :=
  match w, hw with
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, h => absurd rfl h

theorem ins2 (V : (c : Dev nD) → (b : Ref sig .tc) → Buf (Elt F) ((c : Thread nD τ).loc b)) (c : Dev nD) (w : Fin cfg2.W) (hw : w ≠ 3) :
    (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, h => absurd rfl h

theorem ins3 (V : (c : Dev nD) → (b : Ref sig .tc) → Buf (Elt F) ((c : Thread nD τ).loc b)) (c : Dev nD) (w : Fin cfg3.W) (hw : w ≠ 3) :
    (dat3 V c).arrAt w cfg3.N = V c (Pipeline.arrRef spec3 w) :=
  match w, hw with
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, h => absurd rfl h

theorem ins4 (V : (c : Dev nD) → (b : Ref sig .tc) → Buf (Elt F) ((c : Thread nD τ).loc b)) (c : Dev nD) (w : Fin cfg4.W) (hw : w ≠ 3) :
    (dat4 V c).arrAt w cfg4.N = V c (Pipeline.arrRef spec4 w) :=
  match w, hw with
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, h => absurd rfl h

theorem ins5 (V : (c : Dev nD) → (b : Ref sig .tc) → Buf (Elt F) ((c : Thread nD τ).loc b)) (c : Dev nD) (w : Fin cfg5.W) (hw : w ≠ 3) :
    (dat5 V c).arrAt w cfg5.N = V c (Pipeline.arrRef spec5 w) :=
  match w, hw with
  | ⟨0, _⟩, _ => ((dat5 V c).arrAt_in 0 rfl _).trans (A_eq5 V c 0)
  | ⟨1, _⟩, _ => ((dat5 V c).arrAt_in 1 rfl _).trans (A_eq5 V c 1)
  | ⟨2, _⟩, _ => ((dat5 V c).arrAt_in 2 rfl _).trans (A_eq5 V c 2)
  | ⟨3, _⟩, h => absurd rfl h

theorem ins6 (V : (c : Dev nD) → (b : Ref sig .tc) → Buf (Elt F) ((c : Thread nD τ).loc b)) (c : Dev nD) (w : Fin cfg6.W) (hw : w ≠ 3) :
    (dat6 V c).arrAt w cfg6.N = V c (Pipeline.arrRef spec6 w) :=
  match w, hw with
  | ⟨0, _⟩, _ => ((dat6 V c).arrAt_in 0 rfl _).trans (A_eq6 V c 0)
  | ⟨1, _⟩, _ => ((dat6 V c).arrAt_in 1 rfl _).trans (A_eq6 V c 1)
  | ⟨2, _⟩, _ => ((dat6 V c).arrAt_in 2 rfl _).trans (A_eq6 V c 2)
  | ⟨3, _⟩, h => absurd rfl h

theorem ins7 (V : (c : Dev nD) → (b : Ref sig .tc) → Buf (Elt F) ((c : Thread nD τ).loc b)) (c : Dev nD) (w : Fin cfg7.W) (hw : w ≠ 3) :
    (dat7 V c).arrAt w cfg7.N = V c (Pipeline.arrRef spec7 w) :=
  match w, hw with
  | ⟨0, _⟩, _ => ((dat7 V c).arrAt_in 0 rfl _).trans (A_eq7 V c 0)
  | ⟨1, _⟩, _ => ((dat7 V c).arrAt_in 1 rfl _).trans (A_eq7 V c 1)
  | ⟨2, _⟩, _ => ((dat7 V c).arrAt_in 2 rfl _).trans (A_eq7 V c 2)
  | ⟨3, _⟩, h => absurd rfl h

theorem ins8 (V : (c : Dev nD) → (b : Ref sig .tc) → Buf (Elt F) ((c : Thread nD τ).loc b)) (c : Dev nD) (w : Fin cfg8.W) (hw : w ≠ 3) :
    (dat8 V c).arrAt w cfg8.N = V c (Pipeline.arrRef spec8 w) :=
  match w, hw with
  | ⟨0, _⟩, _ => ((dat8 V c).arrAt_in 0 rfl _).trans (A_eq8 V c 0)
  | ⟨1, _⟩, _ => ((dat8 V c).arrAt_in 1 rfl _).trans (A_eq8 V c 1)
  | ⟨2, _⟩, _ => ((dat8 V c).arrAt_in 2 rfl _).trans (A_eq8 V c 2)
  | ⟨3, _⟩, h => absurd rfl h

theorem ins9 (V : (c : Dev nD) → (b : Ref sig .tc) → Buf (Elt F) ((c : Thread nD τ).loc b)) (c : Dev nD) (w : Fin cfg9.W) (hw : w ≠ 3) :
    (dat9 V c).arrAt w cfg9.N = V c (Pipeline.arrRef spec9 w) :=
  match w, hw with
  | ⟨0, _⟩, _ => ((dat9 V c).arrAt_in 0 rfl _).trans (A_eq9 V c 0)
  | ⟨1, _⟩, _ => ((dat9 V c).arrAt_in 1 rfl _).trans (A_eq9 V c 1)
  | ⟨2, _⟩, _ => ((dat9 V c).arrAt_in 2 rfl _).trans (A_eq9 V c 2)
  | ⟨3, _⟩, h => absurd rfl h

theorem ins10 (V : (c : Dev nD) → (b : Ref sig .tc) → Buf (Elt F) ((c : Thread nD τ).loc b)) (c : Dev nD) (w : Fin cfg10.W) (hw : w ≠ 3) :
    (dat10 V c).arrAt w cfg10.N = V c (Pipeline.arrRef spec10 w) :=
  match w, hw with
  | ⟨0, _⟩, _ => ((dat10 V c).arrAt_in 0 rfl _).trans (A_eq10 V c 0)
  | ⟨1, _⟩, _ => ((dat10 V c).arrAt_in 1 rfl _).trans (A_eq10 V c 1)
  | ⟨2, _⟩, _ => ((dat10 V c).arrAt_in 2 rfl _).trans (A_eq10 V c 2)
  | ⟨3, _⟩, h => absurd rfl h

theorem ins11 (V : (c : Dev nD) → (b : Ref sig .tc) → Buf (Elt F) ((c : Thread nD τ).loc b)) (c : Dev nD) (w : Fin cfg11.W) (hw : w ≠ 3) :
    (dat11 V c).arrAt w cfg11.N = V c (Pipeline.arrRef spec11 w) :=
  match w, hw with
  | ⟨0, _⟩, _ => ((dat11 V c).arrAt_in 0 rfl _).trans (A_eq11 V c 0)
  | ⟨1, _⟩, _ => ((dat11 V c).arrAt_in 1 rfl _).trans (A_eq11 V c 1)
  | ⟨2, _⟩, _ => ((dat11 V c).arrAt_in 2 rfl _).trans (A_eq11 V c 2)
  | ⟨3, _⟩, h => absurd rfl h

theorem ins12 (V : (c : Dev nD) → (b : Ref sig .tc) → Buf (Elt F) ((c : Thread nD τ).loc b)) (c : Dev nD) (w : Fin cfg12.W) (hw : w ≠ 3) :
    (dat12 V c).arrAt w cfg12.N = V c (Pipeline.arrRef spec12 w) :=
  match w, hw with
  | ⟨0, _⟩, _ => ((dat12 V c).arrAt_in 0 rfl _).trans (A_eq12 V c 0)
  | ⟨1, _⟩, _ => ((dat12 V c).arrAt_in 1 rfl _).trans (A_eq12 V c 1)
  | ⟨2, _⟩, _ => ((dat12 V c).arrAt_in 2 rfl _).trans (A_eq12 V c 2)
  | ⟨3, _⟩, h => absurd rfl h

theorem ins13 (V : (c : Dev nD) → (b : Ref sig .tc) → Buf (Elt F) ((c : Thread nD τ).loc b)) (c : Dev nD) (w : Fin cfg13.W) (hw : w ≠ 3) :
    (dat13 V c).arrAt w cfg13.N = V c (Pipeline.arrRef spec13 w) :=
  match w, hw with
  | ⟨0, _⟩, _ => ((dat13 V c).arrAt_in 0 rfl _).trans (A_eq13 V c 0)
  | ⟨1, _⟩, _ => ((dat13 V c).arrAt_in 1 rfl _).trans (A_eq13 V c 1)
  | ⟨2, _⟩, _ => ((dat13 V c).arrAt_in 2 rfl _).trans (A_eq13 V c 2)
  | ⟨3, _⟩, h => absurd rfl h

theorem ins14 (V : (c : Dev nD) → (b : Ref sig .tc) → Buf (Elt F) ((c : Thread nD τ).loc b)) (c : Dev nD) (w : Fin cfg14.W) (hw : w ≠ 3) :
    (dat14 V c).arrAt w cfg14.N = V c (Pipeline.arrRef spec14 w) :=
  match w, hw with
  | ⟨0, _⟩, _ => ((dat14 V c).arrAt_in 0 rfl _).trans (A_eq14 V c 0)
  | ⟨1, _⟩, _ => ((dat14 V c).arrAt_in 1 rfl _).trans (A_eq14 V c 1)
  | ⟨2, _⟩, _ => ((dat14 V c).arrAt_in 2 rfl _).trans (A_eq14 V c 2)
  | ⟨3, _⟩, h => absurd rfl h

theorem ins15 (V : (c : Dev nD) → (b : Ref sig .tc) → Buf (Elt F) ((c : Thread nD τ).loc b)) (c : Dev nD) (w : Fin cfg15.W) (hw : w ≠ 3) :
    (dat15 V c).arrAt w cfg15.N = V c (Pipeline.arrRef spec15 w) :=
  match w, hw with
  | ⟨0, _⟩, _ => ((dat15 V c).arrAt_in 0 rfl _).trans (A_eq15 V c 0)
  | ⟨1, _⟩, _ => ((dat15 V c).arrAt_in 1 rfl _).trans (A_eq15 V c 1)
  | ⟨2, _⟩, _ => ((dat15 V c).arrAt_in 2 rfl _).trans (A_eq15 V c 2)
  | ⟨3, _⟩, h => absurd rfl h

theorem ins16 (V : (c : Dev nD) → (b : Ref sig .tc) → Buf (Elt F) ((c : Thread nD τ).loc b)) (c : Dev nD) (w : Fin cfg16.W) (hw : w ≠ 3) :
    (dat16 V c).arrAt w cfg16.N = V c (Pipeline.arrRef spec16 w) :=
  match w, hw with
  | ⟨0, _⟩, _ => ((dat16 V c).arrAt_in 0 rfl _).trans (A_eq16 V c 0)
  | ⟨1, _⟩, _ => ((dat16 V c).arrAt_in 1 rfl _).trans (A_eq16 V c 1)
  | ⟨2, _⟩, _ => ((dat16 V c).arrAt_in 2 rfl _).trans (A_eq16 V c 2)
  | ⟨3, _⟩, h => absurd rfl h

/-! ## A stretch of host operations leaves an argument alone -/

theorem keep_hostOps0 (V : Valuation τ sig (Elt F)) (r : Ref sig .tc) (hr : r.idx.val < 42) :
    StableHlo.after (hostOps0 (F := F)) V (Proc.devRef .tc r) = V (Proc.devRef .tc r) :=
  StableHlo.after_of_forall_not_mem _ _ (List.forall_iff_forall_mem.mp (by
    simp only [hostOps0, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1 (V : Valuation τ sig (Elt F)) (r : Ref sig .tc) (hr : r.idx.val < 42) :
    StableHlo.after (hostOps1 (F := F)) V (Proc.devRef .tc r) = V (Proc.devRef .tc r) :=
  StableHlo.after_of_forall_not_mem _ _ (List.forall_iff_forall_mem.mp (by
    simp only [hostOps1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_1 (V : Valuation τ sig (Elt F)) (r : Ref sig .tc) (hr : r.idx.val < 42) :
    StableHlo.after (hostOps1_1 (F := F)) V (Proc.devRef .tc r) = V (Proc.devRef .tc r) :=
  StableHlo.after_of_forall_not_mem _ _ (List.forall_iff_forall_mem.mp (by
    simp only [hostOps1_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_2 (V : Valuation τ sig (Elt F)) (r : Ref sig .tc) (hr : r.idx.val < 42) :
    StableHlo.after (hostOps1_2 (F := F)) V (Proc.devRef .tc r) = V (Proc.devRef .tc r) :=
  StableHlo.after_of_forall_not_mem _ _ (List.forall_iff_forall_mem.mp (by
    simp only [hostOps1_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_3 (V : Valuation τ sig (Elt F)) (r : Ref sig .tc) (hr : r.idx.val < 42) :
    StableHlo.after (hostOps1_3 (F := F)) V (Proc.devRef .tc r) = V (Proc.devRef .tc r) :=
  StableHlo.after_of_forall_not_mem _ _ (List.forall_iff_forall_mem.mp (by
    simp only [hostOps1_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_4 (V : Valuation τ sig (Elt F)) (r : Ref sig .tc) (hr : r.idx.val < 42) :
    StableHlo.after (hostOps1_4 (F := F)) V (Proc.devRef .tc r) = V (Proc.devRef .tc r) :=
  StableHlo.after_of_forall_not_mem _ _ (List.forall_iff_forall_mem.mp (by
    simp only [hostOps1_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2 (V : Valuation τ sig (Elt F)) (r : Ref sig .tc) (hr : r.idx.val < 42) :
    StableHlo.after (hostOps2 (F := F)) V (Proc.devRef .tc r) = V (Proc.devRef .tc r) :=
  StableHlo.after_of_forall_not_mem _ _ (List.forall_iff_forall_mem.mp (by
    simp only [hostOps2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_1 (V : Valuation τ sig (Elt F)) (r : Ref sig .tc) (hr : r.idx.val < 42) :
    StableHlo.after (hostOps2_1 (F := F)) V (Proc.devRef .tc r) = V (Proc.devRef .tc r) :=
  StableHlo.after_of_forall_not_mem _ _ (List.forall_iff_forall_mem.mp (by
    simp only [hostOps2_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_2 (V : Valuation τ sig (Elt F)) (r : Ref sig .tc) (hr : r.idx.val < 42) :
    StableHlo.after (hostOps2_2 (F := F)) V (Proc.devRef .tc r) = V (Proc.devRef .tc r) :=
  StableHlo.after_of_forall_not_mem _ _ (List.forall_iff_forall_mem.mp (by
    simp only [hostOps2_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_3 (V : Valuation τ sig (Elt F)) (r : Ref sig .tc) (hr : r.idx.val < 42) :
    StableHlo.after (hostOps2_3 (F := F)) V (Proc.devRef .tc r) = V (Proc.devRef .tc r) :=
  StableHlo.after_of_forall_not_mem _ _ (List.forall_iff_forall_mem.mp (by
    simp only [hostOps2_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_4 (V : Valuation τ sig (Elt F)) (r : Ref sig .tc) (hr : r.idx.val < 42) :
    StableHlo.after (hostOps2_4 (F := F)) V (Proc.devRef .tc r) = V (Proc.devRef .tc r) :=
  StableHlo.after_of_forall_not_mem _ _ (List.forall_iff_forall_mem.mp (by
    simp only [hostOps2_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3 (V : Valuation τ sig (Elt F)) (r : Ref sig .tc) (hr : r.idx.val < 42) :
    StableHlo.after (hostOps3 (F := F)) V (Proc.devRef .tc r) = V (Proc.devRef .tc r) :=
  StableHlo.after_of_forall_not_mem _ _ (List.forall_iff_forall_mem.mp (by
    simp only [hostOps3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_1 (V : Valuation τ sig (Elt F)) (r : Ref sig .tc) (hr : r.idx.val < 42) :
    StableHlo.after (hostOps3_1 (F := F)) V (Proc.devRef .tc r) = V (Proc.devRef .tc r) :=
  StableHlo.after_of_forall_not_mem _ _ (List.forall_iff_forall_mem.mp (by
    simp only [hostOps3_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_2 (V : Valuation τ sig (Elt F)) (r : Ref sig .tc) (hr : r.idx.val < 42) :
    StableHlo.after (hostOps3_2 (F := F)) V (Proc.devRef .tc r) = V (Proc.devRef .tc r) :=
  StableHlo.after_of_forall_not_mem _ _ (List.forall_iff_forall_mem.mp (by
    simp only [hostOps3_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_3 (V : Valuation τ sig (Elt F)) (r : Ref sig .tc) (hr : r.idx.val < 42) :
    StableHlo.after (hostOps3_3 (F := F)) V (Proc.devRef .tc r) = V (Proc.devRef .tc r) :=
  StableHlo.after_of_forall_not_mem _ _ (List.forall_iff_forall_mem.mp (by
    simp only [hostOps3_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_4 (V : Valuation τ sig (Elt F)) (r : Ref sig .tc) (hr : r.idx.val < 42) :
    StableHlo.after (hostOps3_4 (F := F)) V (Proc.devRef .tc r) = V (Proc.devRef .tc r) :=
  StableHlo.after_of_forall_not_mem _ _ (List.forall_iff_forall_mem.mp (by
    simp only [hostOps3_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps4 (V : Valuation τ sig (Elt F)) (r : Ref sig .tc) (hr : r.idx.val < 42) :
    StableHlo.after (hostOps4 (F := F)) V (Proc.devRef .tc r) = V (Proc.devRef .tc r) :=
  StableHlo.after_of_forall_not_mem _ _ (List.forall_iff_forall_mem.mp (by
    simp only [hostOps4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps5 (V : Valuation τ sig (Elt F)) (r : Ref sig .tc) (hr : r.idx.val < 42) :
    StableHlo.after (hostOps5 (F := F)) V (Proc.devRef .tc r) = V (Proc.devRef .tc r) :=
  StableHlo.after_of_forall_not_mem _ _ (List.forall_iff_forall_mem.mp (by
    simp only [hostOps5, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6 (V : Valuation τ sig (Elt F)) (r : Ref sig .tc) (hr : r.idx.val < 42) :
    StableHlo.after (hostOps6 (F := F)) V (Proc.devRef .tc r) = V (Proc.devRef .tc r) :=
  StableHlo.after_of_forall_not_mem _ _ (List.forall_iff_forall_mem.mp (by
    simp only [hostOps6, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_1 (V : Valuation τ sig (Elt F)) (r : Ref sig .tc) (hr : r.idx.val < 42) :
    StableHlo.after (hostOps6_1 (F := F)) V (Proc.devRef .tc r) = V (Proc.devRef .tc r) :=
  StableHlo.after_of_forall_not_mem _ _ (List.forall_iff_forall_mem.mp (by
    simp only [hostOps6_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_2 (V : Valuation τ sig (Elt F)) (r : Ref sig .tc) (hr : r.idx.val < 42) :
    StableHlo.after (hostOps6_2 (F := F)) V (Proc.devRef .tc r) = V (Proc.devRef .tc r) :=
  StableHlo.after_of_forall_not_mem _ _ (List.forall_iff_forall_mem.mp (by
    simp only [hostOps6_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_3 (V : Valuation τ sig (Elt F)) (r : Ref sig .tc) (hr : r.idx.val < 42) :
    StableHlo.after (hostOps6_3 (F := F)) V (Proc.devRef .tc r) = V (Proc.devRef .tc r) :=
  StableHlo.after_of_forall_not_mem _ _ (List.forall_iff_forall_mem.mp (by
    simp only [hostOps6_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_4 (V : Valuation τ sig (Elt F)) (r : Ref sig .tc) (hr : r.idx.val < 42) :
    StableHlo.after (hostOps6_4 (F := F)) V (Proc.devRef .tc r) = V (Proc.devRef .tc r) :=
  StableHlo.after_of_forall_not_mem _ _ (List.forall_iff_forall_mem.mp (by
    simp only [hostOps6_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7 (V : Valuation τ sig (Elt F)) (r : Ref sig .tc) (hr : r.idx.val < 42) :
    StableHlo.after (hostOps7 (F := F)) V (Proc.devRef .tc r) = V (Proc.devRef .tc r) :=
  StableHlo.after_of_forall_not_mem _ _ (List.forall_iff_forall_mem.mp (by
    simp only [hostOps7, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_1 (V : Valuation τ sig (Elt F)) (r : Ref sig .tc) (hr : r.idx.val < 42) :
    StableHlo.after (hostOps7_1 (F := F)) V (Proc.devRef .tc r) = V (Proc.devRef .tc r) :=
  StableHlo.after_of_forall_not_mem _ _ (List.forall_iff_forall_mem.mp (by
    simp only [hostOps7_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_2 (V : Valuation τ sig (Elt F)) (r : Ref sig .tc) (hr : r.idx.val < 42) :
    StableHlo.after (hostOps7_2 (F := F)) V (Proc.devRef .tc r) = V (Proc.devRef .tc r) :=
  StableHlo.after_of_forall_not_mem _ _ (List.forall_iff_forall_mem.mp (by
    simp only [hostOps7_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_3 (V : Valuation τ sig (Elt F)) (r : Ref sig .tc) (hr : r.idx.val < 42) :
    StableHlo.after (hostOps7_3 (F := F)) V (Proc.devRef .tc r) = V (Proc.devRef .tc r) :=
  StableHlo.after_of_forall_not_mem _ _ (List.forall_iff_forall_mem.mp (by
    simp only [hostOps7_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_4 (V : Valuation τ sig (Elt F)) (r : Ref sig .tc) (hr : r.idx.val < 42) :
    StableHlo.after (hostOps7_4 (F := F)) V (Proc.devRef .tc r) = V (Proc.devRef .tc r) :=
  StableHlo.after_of_forall_not_mem _ _ (List.forall_iff_forall_mem.mp (by
    simp only [hostOps7_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8 (V : Valuation τ sig (Elt F)) (r : Ref sig .tc) (hr : r.idx.val < 42) :
    StableHlo.after (hostOps8 (F := F)) V (Proc.devRef .tc r) = V (Proc.devRef .tc r) :=
  StableHlo.after_of_forall_not_mem _ _ (List.forall_iff_forall_mem.mp (by
    simp only [hostOps8, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_1 (V : Valuation τ sig (Elt F)) (r : Ref sig .tc) (hr : r.idx.val < 42) :
    StableHlo.after (hostOps8_1 (F := F)) V (Proc.devRef .tc r) = V (Proc.devRef .tc r) :=
  StableHlo.after_of_forall_not_mem _ _ (List.forall_iff_forall_mem.mp (by
    simp only [hostOps8_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_2 (V : Valuation τ sig (Elt F)) (r : Ref sig .tc) (hr : r.idx.val < 42) :
    StableHlo.after (hostOps8_2 (F := F)) V (Proc.devRef .tc r) = V (Proc.devRef .tc r) :=
  StableHlo.after_of_forall_not_mem _ _ (List.forall_iff_forall_mem.mp (by
    simp only [hostOps8_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_3 (V : Valuation τ sig (Elt F)) (r : Ref sig .tc) (hr : r.idx.val < 42) :
    StableHlo.after (hostOps8_3 (F := F)) V (Proc.devRef .tc r) = V (Proc.devRef .tc r) :=
  StableHlo.after_of_forall_not_mem _ _ (List.forall_iff_forall_mem.mp (by
    simp only [hostOps8_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_4 (V : Valuation τ sig (Elt F)) (r : Ref sig .tc) (hr : r.idx.val < 42) :
    StableHlo.after (hostOps8_4 (F := F)) V (Proc.devRef .tc r) = V (Proc.devRef .tc r) :=
  StableHlo.after_of_forall_not_mem _ _ (List.forall_iff_forall_mem.mp (by
    simp only [hostOps8_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps9 (V : Valuation τ sig (Elt F)) (r : Ref sig .tc) (hr : r.idx.val < 42) :
    StableHlo.after (hostOps9 (F := F)) V (Proc.devRef .tc r) = V (Proc.devRef .tc r) :=
  StableHlo.after_of_forall_not_mem _ _ (List.forall_iff_forall_mem.mp (by
    simp only [hostOps9, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps10 (V : Valuation τ sig (Elt F)) (r : Ref sig .tc) (hr : r.idx.val < 42) :
    StableHlo.after (hostOps10 (F := F)) V (Proc.devRef .tc r) = V (Proc.devRef .tc r) :=
  StableHlo.after_of_forall_not_mem _ _ (List.forall_iff_forall_mem.mp (by
    simp only [hostOps10, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11 (V : Valuation τ sig (Elt F)) (r : Ref sig .tc) (hr : r.idx.val < 42) :
    StableHlo.after (hostOps11 (F := F)) V (Proc.devRef .tc r) = V (Proc.devRef .tc r) :=
  StableHlo.after_of_forall_not_mem _ _ (List.forall_iff_forall_mem.mp (by
    simp only [hostOps11, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_1 (V : Valuation τ sig (Elt F)) (r : Ref sig .tc) (hr : r.idx.val < 42) :
    StableHlo.after (hostOps11_1 (F := F)) V (Proc.devRef .tc r) = V (Proc.devRef .tc r) :=
  StableHlo.after_of_forall_not_mem _ _ (List.forall_iff_forall_mem.mp (by
    simp only [hostOps11_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_2 (V : Valuation τ sig (Elt F)) (r : Ref sig .tc) (hr : r.idx.val < 42) :
    StableHlo.after (hostOps11_2 (F := F)) V (Proc.devRef .tc r) = V (Proc.devRef .tc r) :=
  StableHlo.after_of_forall_not_mem _ _ (List.forall_iff_forall_mem.mp (by
    simp only [hostOps11_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_3 (V : Valuation τ sig (Elt F)) (r : Ref sig .tc) (hr : r.idx.val < 42) :
    StableHlo.after (hostOps11_3 (F := F)) V (Proc.devRef .tc r) = V (Proc.devRef .tc r) :=
  StableHlo.after_of_forall_not_mem _ _ (List.forall_iff_forall_mem.mp (by
    simp only [hostOps11_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_4 (V : Valuation τ sig (Elt F)) (r : Ref sig .tc) (hr : r.idx.val < 42) :
    StableHlo.after (hostOps11_4 (F := F)) V (Proc.devRef .tc r) = V (Proc.devRef .tc r) :=
  StableHlo.after_of_forall_not_mem _ _ (List.forall_iff_forall_mem.mp (by
    simp only [hostOps11_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12 (V : Valuation τ sig (Elt F)) (r : Ref sig .tc) (hr : r.idx.val < 42) :
    StableHlo.after (hostOps12 (F := F)) V (Proc.devRef .tc r) = V (Proc.devRef .tc r) :=
  StableHlo.after_of_forall_not_mem _ _ (List.forall_iff_forall_mem.mp (by
    simp only [hostOps12, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_1 (V : Valuation τ sig (Elt F)) (r : Ref sig .tc) (hr : r.idx.val < 42) :
    StableHlo.after (hostOps12_1 (F := F)) V (Proc.devRef .tc r) = V (Proc.devRef .tc r) :=
  StableHlo.after_of_forall_not_mem _ _ (List.forall_iff_forall_mem.mp (by
    simp only [hostOps12_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_2 (V : Valuation τ sig (Elt F)) (r : Ref sig .tc) (hr : r.idx.val < 42) :
    StableHlo.after (hostOps12_2 (F := F)) V (Proc.devRef .tc r) = V (Proc.devRef .tc r) :=
  StableHlo.after_of_forall_not_mem _ _ (List.forall_iff_forall_mem.mp (by
    simp only [hostOps12_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_3 (V : Valuation τ sig (Elt F)) (r : Ref sig .tc) (hr : r.idx.val < 42) :
    StableHlo.after (hostOps12_3 (F := F)) V (Proc.devRef .tc r) = V (Proc.devRef .tc r) :=
  StableHlo.after_of_forall_not_mem _ _ (List.forall_iff_forall_mem.mp (by
    simp only [hostOps12_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_4 (V : Valuation τ sig (Elt F)) (r : Ref sig .tc) (hr : r.idx.val < 42) :
    StableHlo.after (hostOps12_4 (F := F)) V (Proc.devRef .tc r) = V (Proc.devRef .tc r) :=
  StableHlo.after_of_forall_not_mem _ _ (List.forall_iff_forall_mem.mp (by
    simp only [hostOps12_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps13 (V : Valuation τ sig (Elt F)) (r : Ref sig .tc) (hr : r.idx.val < 42) :
    StableHlo.after (hostOps13 (F := F)) V (Proc.devRef .tc r) = V (Proc.devRef .tc r) :=
  StableHlo.after_of_forall_not_mem _ _ (List.forall_iff_forall_mem.mp (by
    simp only [hostOps13, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps14 (V : Valuation τ sig (Elt F)) (r : Ref sig .tc) (hr : r.idx.val < 42) :
    StableHlo.after (hostOps14 (F := F)) V (Proc.devRef .tc r) = V (Proc.devRef .tc r) :=
  StableHlo.after_of_forall_not_mem _ _ (List.forall_iff_forall_mem.mp (by
    simp only [hostOps14, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps15 (V : Valuation τ sig (Elt F)) (r : Ref sig .tc) (hr : r.idx.val < 42) :
    StableHlo.after (hostOps15 (F := F)) V (Proc.devRef .tc r) = V (Proc.devRef .tc r) :=
  StableHlo.after_of_forall_not_mem _ _ (List.forall_iff_forall_mem.mp (by
    simp only [hostOps15, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps16 (V : Valuation τ sig (Elt F)) (r : Ref sig .tc) (hr : r.idx.val < 42) :
    StableHlo.after (hostOps16 (F := F)) V (Proc.devRef .tc r) = V (Proc.devRef .tc r) :=
  StableHlo.after_of_forall_not_mem _ _ (List.forall_iff_forall_mem.mp (by
    simp only [hostOps16, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

/-! ## A region leaves an argument alone -/

theorem keep_region0 (c : Dev nD) (r : Ref sig .tc) (hr : r.idx.val < 42) :
    W2 m ρ c (Proc.devRef .tc r) = W1 m ρ c (Proc.devRef .tc r) := by
  unfold W2
  exact withArrays_keeps spec0 launch0.win.arr_inj c _ _ 3 (fun w hw => ins0 (V1 m ρ) c w hw) r (ne_of_idx_lt hr (by decide))

theorem keep_region1 (c : Dev nD) (r : Ref sig .tc) (hr : r.idx.val < 42) :
    W8 m ρ c (Proc.devRef .tc r) = W7 m ρ c (Proc.devRef .tc r) := by
  unfold W8
  exact withArrays_keeps spec1 launch1.win.arr_inj c _ _ 3 (fun w hw => ins1 (V7 m ρ) c w hw) r (ne_of_idx_lt hr (by decide))

theorem keep_region2 (c : Dev nD) (r : Ref sig .tc) (hr : r.idx.val < 42) :
    W14 m ρ c (Proc.devRef .tc r) = W13 m ρ c (Proc.devRef .tc r) := by
  unfold W14
  exact withArrays_keeps spec2 launch2.win.arr_inj c _ _ 3 (fun w hw => ins2 (V13 m ρ) c w hw) r (ne_of_idx_lt hr (by decide))

theorem keep_region3 (c : Dev nD) (r : Ref sig .tc) (hr : r.idx.val < 42) :
    W20 m ρ c (Proc.devRef .tc r) = W19 m ρ c (Proc.devRef .tc r) := by
  unfold W20
  exact withArrays_keeps spec3 launch3.win.arr_inj c _ _ 3 (fun w hw => ins3 (V19 m ρ) c w hw) r (ne_of_idx_lt hr (by decide))

theorem keep_region4 (c : Dev nD) (r : Ref sig .tc) (hr : r.idx.val < 42) :
    W22 m ρ c (Proc.devRef .tc r) = W21 m ρ c (Proc.devRef .tc r) := by
  unfold W22
  exact withArrays_keeps spec4 launch4.win.arr_inj c _ _ 3 (fun w hw => ins4 (V21 m ρ) c w hw) r (ne_of_idx_lt hr (by decide))

theorem keep_region5 (c : Dev nD) (r : Ref sig .tc) (hr : r.idx.val < 42) :
    W24 m ρ c (Proc.devRef .tc r) = W23 m ρ c (Proc.devRef .tc r) := by
  unfold W24
  exact withArrays_keeps spec5 launch5.win.arr_inj c _ _ 3 (fun w hw => ins5 (V23 m ρ) c w hw) r (ne_of_idx_lt hr (by decide))

theorem keep_region6 (c : Dev nD) (r : Ref sig .tc) (hr : r.idx.val < 42) :
    W30 m ρ c (Proc.devRef .tc r) = W29 m ρ c (Proc.devRef .tc r) := by
  unfold W30
  exact withArrays_keeps spec6 launch6.win.arr_inj c _ _ 3 (fun w hw => ins6 (V29 m ρ) c w hw) r (ne_of_idx_lt hr (by decide))

theorem keep_region7 (c : Dev nD) (r : Ref sig .tc) (hr : r.idx.val < 42) :
    W36 m ρ c (Proc.devRef .tc r) = W35 m ρ c (Proc.devRef .tc r) := by
  unfold W36
  exact withArrays_keeps spec7 launch7.win.arr_inj c _ _ 3 (fun w hw => ins7 (V35 m ρ) c w hw) r (ne_of_idx_lt hr (by decide))

theorem keep_region8 (c : Dev nD) (r : Ref sig .tc) (hr : r.idx.val < 42) :
    W42 m ρ c (Proc.devRef .tc r) = W41 m ρ c (Proc.devRef .tc r) := by
  unfold W42
  exact withArrays_keeps spec8 launch8.win.arr_inj c _ _ 3 (fun w hw => ins8 (V41 m ρ) c w hw) r (ne_of_idx_lt hr (by decide))

theorem keep_region9 (c : Dev nD) (r : Ref sig .tc) (hr : r.idx.val < 42) :
    W44 m ρ c (Proc.devRef .tc r) = W43 m ρ c (Proc.devRef .tc r) := by
  unfold W44
  exact withArrays_keeps spec9 launch9.win.arr_inj c _ _ 3 (fun w hw => ins9 (V43 m ρ) c w hw) r (ne_of_idx_lt hr (by decide))

theorem keep_region10 (c : Dev nD) (r : Ref sig .tc) (hr : r.idx.val < 42) :
    W46 m ρ c (Proc.devRef .tc r) = W45 m ρ c (Proc.devRef .tc r) := by
  unfold W46
  exact withArrays_keeps spec10 launch10.win.arr_inj c _ _ 3 (fun w hw => ins10 (V45 m ρ) c w hw) r (ne_of_idx_lt hr (by decide))

theorem keep_region11 (c : Dev nD) (r : Ref sig .tc) (hr : r.idx.val < 42) :
    W52 m ρ c (Proc.devRef .tc r) = W51 m ρ c (Proc.devRef .tc r) := by
  unfold W52
  exact withArrays_keeps spec11 launch11.win.arr_inj c _ _ 3 (fun w hw => ins11 (V51 m ρ) c w hw) r (ne_of_idx_lt hr (by decide))

theorem keep_region12 (c : Dev nD) (r : Ref sig .tc) (hr : r.idx.val < 42) :
    W58 m ρ c (Proc.devRef .tc r) = W57 m ρ c (Proc.devRef .tc r) := by
  unfold W58
  exact withArrays_keeps spec12 launch12.win.arr_inj c _ _ 3 (fun w hw => ins12 (V57 m ρ) c w hw) r (ne_of_idx_lt hr (by decide))

theorem keep_region13 (c : Dev nD) (r : Ref sig .tc) (hr : r.idx.val < 42) :
    W60 m ρ c (Proc.devRef .tc r) = W59 m ρ c (Proc.devRef .tc r) := by
  unfold W60
  exact withArrays_keeps spec13 launch13.win.arr_inj c _ _ 3 (fun w hw => ins13 (V59 m ρ) c w hw) r (ne_of_idx_lt hr (by decide))

theorem keep_region14 (c : Dev nD) (r : Ref sig .tc) (hr : r.idx.val < 42) :
    W62 m ρ c (Proc.devRef .tc r) = W61 m ρ c (Proc.devRef .tc r) := by
  unfold W62
  exact withArrays_keeps spec14 launch14.win.arr_inj c _ _ 3 (fun w hw => ins14 (V61 m ρ) c w hw) r (ne_of_idx_lt hr (by decide))

theorem keep_region15 (c : Dev nD) (r : Ref sig .tc) (hr : r.idx.val < 42) :
    W64 m ρ c (Proc.devRef .tc r) = W63 m ρ c (Proc.devRef .tc r) := by
  unfold W64
  exact withArrays_keeps spec15 launch15.win.arr_inj c _ _ 3 (fun w hw => ins15 (V63 m ρ) c w hw) r (ne_of_idx_lt hr (by decide))

theorem keep_region16 (c : Dev nD) (r : Ref sig .tc) (hr : r.idx.val < 42) :
    W66 m ρ c (Proc.devRef .tc r) = W65 m ρ c (Proc.devRef .tc r) := by
  unfold W66
  exact withArrays_keeps spec16 launch16.win.arr_inj c _ _ 3 (fun w hw => ins16 (V65 m ρ) c w hw) r (ne_of_idx_lt hr (by decide))

/-! ## Back through the 66 segments -/

theorem arg_at1 (c : Dev nD) (r : Ref sig .tc) (hr : r.idx.val < 42) :
    W1 m ρ c (Proc.devRef .tc r) = m ((c : Thread nD τ).loc r) :=
  (keep_hostOps0 (W0 m ρ c) r hr).trans rfl

theorem arg_at2 (c : Dev nD) (r : Ref sig .tc) (hr : r.idx.val < 42) :
    W2 m ρ c (Proc.devRef .tc r) = m ((c : Thread nD τ).loc r) :=
  (keep_region0 m ρ c r hr).trans (arg_at1 m ρ c r hr)

theorem arg_at3 (c : Dev nD) (r : Ref sig .tc) (hr : r.idx.val < 42) :
    W3 m ρ c (Proc.devRef .tc r) = m ((c : Thread nD τ).loc r) :=
  (keep_hostOps1 (W2 m ρ c) r hr).trans (arg_at2 m ρ c r hr)

theorem arg_at4 (c : Dev nD) (r : Ref sig .tc) (hr : r.idx.val < 42) :
    W4 m ρ c (Proc.devRef .tc r) = m ((c : Thread nD τ).loc r) :=
  (keep_hostOps1_1 (W3 m ρ c) r hr).trans (arg_at3 m ρ c r hr)

theorem arg_at5 (c : Dev nD) (r : Ref sig .tc) (hr : r.idx.val < 42) :
    W5 m ρ c (Proc.devRef .tc r) = m ((c : Thread nD τ).loc r) :=
  (keep_hostOps1_2 (W4 m ρ c) r hr).trans (arg_at4 m ρ c r hr)

theorem arg_at6 (c : Dev nD) (r : Ref sig .tc) (hr : r.idx.val < 42) :
    W6 m ρ c (Proc.devRef .tc r) = m ((c : Thread nD τ).loc r) :=
  (keep_hostOps1_3 (W5 m ρ c) r hr).trans (arg_at5 m ρ c r hr)

theorem arg_at7 (c : Dev nD) (r : Ref sig .tc) (hr : r.idx.val < 42) :
    W7 m ρ c (Proc.devRef .tc r) = m ((c : Thread nD τ).loc r) :=
  (keep_hostOps1_4 (W6 m ρ c) r hr).trans (arg_at6 m ρ c r hr)

theorem arg_at8 (c : Dev nD) (r : Ref sig .tc) (hr : r.idx.val < 42) :
    W8 m ρ c (Proc.devRef .tc r) = m ((c : Thread nD τ).loc r) :=
  (keep_region1 m ρ c r hr).trans (arg_at7 m ρ c r hr)

theorem arg_at9 (c : Dev nD) (r : Ref sig .tc) (hr : r.idx.val < 42) :
    W9 m ρ c (Proc.devRef .tc r) = m ((c : Thread nD τ).loc r) :=
  (keep_hostOps2 (W8 m ρ c) r hr).trans (arg_at8 m ρ c r hr)

theorem arg_at10 (c : Dev nD) (r : Ref sig .tc) (hr : r.idx.val < 42) :
    W10 m ρ c (Proc.devRef .tc r) = m ((c : Thread nD τ).loc r) :=
  (keep_hostOps2_1 (W9 m ρ c) r hr).trans (arg_at9 m ρ c r hr)

theorem arg_at11 (c : Dev nD) (r : Ref sig .tc) (hr : r.idx.val < 42) :
    W11 m ρ c (Proc.devRef .tc r) = m ((c : Thread nD τ).loc r) :=
  (keep_hostOps2_2 (W10 m ρ c) r hr).trans (arg_at10 m ρ c r hr)

theorem arg_at12 (c : Dev nD) (r : Ref sig .tc) (hr : r.idx.val < 42) :
    W12 m ρ c (Proc.devRef .tc r) = m ((c : Thread nD τ).loc r) :=
  (keep_hostOps2_3 (W11 m ρ c) r hr).trans (arg_at11 m ρ c r hr)

theorem arg_at13 (c : Dev nD) (r : Ref sig .tc) (hr : r.idx.val < 42) :
    W13 m ρ c (Proc.devRef .tc r) = m ((c : Thread nD τ).loc r) :=
  (keep_hostOps2_4 (W12 m ρ c) r hr).trans (arg_at12 m ρ c r hr)

theorem arg_at14 (c : Dev nD) (r : Ref sig .tc) (hr : r.idx.val < 42) :
    W14 m ρ c (Proc.devRef .tc r) = m ((c : Thread nD τ).loc r) :=
  (keep_region2 m ρ c r hr).trans (arg_at13 m ρ c r hr)

theorem arg_at15 (c : Dev nD) (r : Ref sig .tc) (hr : r.idx.val < 42) :
    W15 m ρ c (Proc.devRef .tc r) = m ((c : Thread nD τ).loc r) :=
  (keep_hostOps3 (W14 m ρ c) r hr).trans (arg_at14 m ρ c r hr)

theorem arg_at16 (c : Dev nD) (r : Ref sig .tc) (hr : r.idx.val < 42) :
    W16 m ρ c (Proc.devRef .tc r) = m ((c : Thread nD τ).loc r) :=
  (keep_hostOps3_1 (W15 m ρ c) r hr).trans (arg_at15 m ρ c r hr)

theorem arg_at17 (c : Dev nD) (r : Ref sig .tc) (hr : r.idx.val < 42) :
    W17 m ρ c (Proc.devRef .tc r) = m ((c : Thread nD τ).loc r) :=
  (keep_hostOps3_2 (W16 m ρ c) r hr).trans (arg_at16 m ρ c r hr)

theorem arg_at18 (c : Dev nD) (r : Ref sig .tc) (hr : r.idx.val < 42) :
    W18 m ρ c (Proc.devRef .tc r) = m ((c : Thread nD τ).loc r) :=
  (keep_hostOps3_3 (W17 m ρ c) r hr).trans (arg_at17 m ρ c r hr)

theorem arg_at19 (c : Dev nD) (r : Ref sig .tc) (hr : r.idx.val < 42) :
    W19 m ρ c (Proc.devRef .tc r) = m ((c : Thread nD τ).loc r) :=
  (keep_hostOps3_4 (W18 m ρ c) r hr).trans (arg_at18 m ρ c r hr)

theorem arg_at20 (c : Dev nD) (r : Ref sig .tc) (hr : r.idx.val < 42) :
    W20 m ρ c (Proc.devRef .tc r) = m ((c : Thread nD τ).loc r) :=
  (keep_region3 m ρ c r hr).trans (arg_at19 m ρ c r hr)

theorem arg_at21 (c : Dev nD) (r : Ref sig .tc) (hr : r.idx.val < 42) :
    W21 m ρ c (Proc.devRef .tc r) = m ((c : Thread nD τ).loc r) :=
  (keep_hostOps4 (W20 m ρ c) r hr).trans (arg_at20 m ρ c r hr)

theorem arg_at22 (c : Dev nD) (r : Ref sig .tc) (hr : r.idx.val < 42) :
    W22 m ρ c (Proc.devRef .tc r) = m ((c : Thread nD τ).loc r) :=
  (keep_region4 m ρ c r hr).trans (arg_at21 m ρ c r hr)

theorem arg_at23 (c : Dev nD) (r : Ref sig .tc) (hr : r.idx.val < 42) :
    W23 m ρ c (Proc.devRef .tc r) = m ((c : Thread nD τ).loc r) :=
  (keep_hostOps5 (W22 m ρ c) r hr).trans (arg_at22 m ρ c r hr)

theorem arg_at24 (c : Dev nD) (r : Ref sig .tc) (hr : r.idx.val < 42) :
    W24 m ρ c (Proc.devRef .tc r) = m ((c : Thread nD τ).loc r) :=
  (keep_region5 m ρ c r hr).trans (arg_at23 m ρ c r hr)

theorem arg_at25 (c : Dev nD) (r : Ref sig .tc) (hr : r.idx.val < 42) :
    W25 m ρ c (Proc.devRef .tc r) = m ((c : Thread nD τ).loc r) :=
  (keep_hostOps6 (W24 m ρ c) r hr).trans (arg_at24 m ρ c r hr)

theorem arg_at26 (c : Dev nD) (r : Ref sig .tc) (hr : r.idx.val < 42) :
    W26 m ρ c (Proc.devRef .tc r) = m ((c : Thread nD τ).loc r) :=
  (keep_hostOps6_1 (W25 m ρ c) r hr).trans (arg_at25 m ρ c r hr)

theorem arg_at27 (c : Dev nD) (r : Ref sig .tc) (hr : r.idx.val < 42) :
    W27 m ρ c (Proc.devRef .tc r) = m ((c : Thread nD τ).loc r) :=
  (keep_hostOps6_2 (W26 m ρ c) r hr).trans (arg_at26 m ρ c r hr)

theorem arg_at28 (c : Dev nD) (r : Ref sig .tc) (hr : r.idx.val < 42) :
    W28 m ρ c (Proc.devRef .tc r) = m ((c : Thread nD τ).loc r) :=
  (keep_hostOps6_3 (W27 m ρ c) r hr).trans (arg_at27 m ρ c r hr)

theorem arg_at29 (c : Dev nD) (r : Ref sig .tc) (hr : r.idx.val < 42) :
    W29 m ρ c (Proc.devRef .tc r) = m ((c : Thread nD τ).loc r) :=
  (keep_hostOps6_4 (W28 m ρ c) r hr).trans (arg_at28 m ρ c r hr)

theorem arg_at30 (c : Dev nD) (r : Ref sig .tc) (hr : r.idx.val < 42) :
    W30 m ρ c (Proc.devRef .tc r) = m ((c : Thread nD τ).loc r) :=
  (keep_region6 m ρ c r hr).trans (arg_at29 m ρ c r hr)

theorem arg_at31 (c : Dev nD) (r : Ref sig .tc) (hr : r.idx.val < 42) :
    W31 m ρ c (Proc.devRef .tc r) = m ((c : Thread nD τ).loc r) :=
  (keep_hostOps7 (W30 m ρ c) r hr).trans (arg_at30 m ρ c r hr)

theorem arg_at32 (c : Dev nD) (r : Ref sig .tc) (hr : r.idx.val < 42) :
    W32 m ρ c (Proc.devRef .tc r) = m ((c : Thread nD τ).loc r) :=
  (keep_hostOps7_1 (W31 m ρ c) r hr).trans (arg_at31 m ρ c r hr)

theorem arg_at33 (c : Dev nD) (r : Ref sig .tc) (hr : r.idx.val < 42) :
    W33 m ρ c (Proc.devRef .tc r) = m ((c : Thread nD τ).loc r) :=
  (keep_hostOps7_2 (W32 m ρ c) r hr).trans (arg_at32 m ρ c r hr)

theorem arg_at34 (c : Dev nD) (r : Ref sig .tc) (hr : r.idx.val < 42) :
    W34 m ρ c (Proc.devRef .tc r) = m ((c : Thread nD τ).loc r) :=
  (keep_hostOps7_3 (W33 m ρ c) r hr).trans (arg_at33 m ρ c r hr)

theorem arg_at35 (c : Dev nD) (r : Ref sig .tc) (hr : r.idx.val < 42) :
    W35 m ρ c (Proc.devRef .tc r) = m ((c : Thread nD τ).loc r) :=
  (keep_hostOps7_4 (W34 m ρ c) r hr).trans (arg_at34 m ρ c r hr)

theorem arg_at36 (c : Dev nD) (r : Ref sig .tc) (hr : r.idx.val < 42) :
    W36 m ρ c (Proc.devRef .tc r) = m ((c : Thread nD τ).loc r) :=
  (keep_region7 m ρ c r hr).trans (arg_at35 m ρ c r hr)

theorem arg_at37 (c : Dev nD) (r : Ref sig .tc) (hr : r.idx.val < 42) :
    W37 m ρ c (Proc.devRef .tc r) = m ((c : Thread nD τ).loc r) :=
  (keep_hostOps8 (W36 m ρ c) r hr).trans (arg_at36 m ρ c r hr)

theorem arg_at38 (c : Dev nD) (r : Ref sig .tc) (hr : r.idx.val < 42) :
    W38 m ρ c (Proc.devRef .tc r) = m ((c : Thread nD τ).loc r) :=
  (keep_hostOps8_1 (W37 m ρ c) r hr).trans (arg_at37 m ρ c r hr)

theorem arg_at39 (c : Dev nD) (r : Ref sig .tc) (hr : r.idx.val < 42) :
    W39 m ρ c (Proc.devRef .tc r) = m ((c : Thread nD τ).loc r) :=
  (keep_hostOps8_2 (W38 m ρ c) r hr).trans (arg_at38 m ρ c r hr)

theorem arg_at40 (c : Dev nD) (r : Ref sig .tc) (hr : r.idx.val < 42) :
    W40 m ρ c (Proc.devRef .tc r) = m ((c : Thread nD τ).loc r) :=
  (keep_hostOps8_3 (W39 m ρ c) r hr).trans (arg_at39 m ρ c r hr)

theorem arg_at41 (c : Dev nD) (r : Ref sig .tc) (hr : r.idx.val < 42) :
    W41 m ρ c (Proc.devRef .tc r) = m ((c : Thread nD τ).loc r) :=
  (keep_hostOps8_4 (W40 m ρ c) r hr).trans (arg_at40 m ρ c r hr)

theorem arg_at42 (c : Dev nD) (r : Ref sig .tc) (hr : r.idx.val < 42) :
    W42 m ρ c (Proc.devRef .tc r) = m ((c : Thread nD τ).loc r) :=
  (keep_region8 m ρ c r hr).trans (arg_at41 m ρ c r hr)

theorem arg_at43 (c : Dev nD) (r : Ref sig .tc) (hr : r.idx.val < 42) :
    W43 m ρ c (Proc.devRef .tc r) = m ((c : Thread nD τ).loc r) :=
  (keep_hostOps9 (W42 m ρ c) r hr).trans (arg_at42 m ρ c r hr)

theorem arg_at44 (c : Dev nD) (r : Ref sig .tc) (hr : r.idx.val < 42) :
    W44 m ρ c (Proc.devRef .tc r) = m ((c : Thread nD τ).loc r) :=
  (keep_region9 m ρ c r hr).trans (arg_at43 m ρ c r hr)

theorem arg_at45 (c : Dev nD) (r : Ref sig .tc) (hr : r.idx.val < 42) :
    W45 m ρ c (Proc.devRef .tc r) = m ((c : Thread nD τ).loc r) :=
  (keep_hostOps10 (W44 m ρ c) r hr).trans (arg_at44 m ρ c r hr)

theorem arg_at46 (c : Dev nD) (r : Ref sig .tc) (hr : r.idx.val < 42) :
    W46 m ρ c (Proc.devRef .tc r) = m ((c : Thread nD τ).loc r) :=
  (keep_region10 m ρ c r hr).trans (arg_at45 m ρ c r hr)

theorem arg_at47 (c : Dev nD) (r : Ref sig .tc) (hr : r.idx.val < 42) :
    W47 m ρ c (Proc.devRef .tc r) = m ((c : Thread nD τ).loc r) :=
  (keep_hostOps11 (W46 m ρ c) r hr).trans (arg_at46 m ρ c r hr)

theorem arg_at48 (c : Dev nD) (r : Ref sig .tc) (hr : r.idx.val < 42) :
    W48 m ρ c (Proc.devRef .tc r) = m ((c : Thread nD τ).loc r) :=
  (keep_hostOps11_1 (W47 m ρ c) r hr).trans (arg_at47 m ρ c r hr)

theorem arg_at49 (c : Dev nD) (r : Ref sig .tc) (hr : r.idx.val < 42) :
    W49 m ρ c (Proc.devRef .tc r) = m ((c : Thread nD τ).loc r) :=
  (keep_hostOps11_2 (W48 m ρ c) r hr).trans (arg_at48 m ρ c r hr)

theorem arg_at50 (c : Dev nD) (r : Ref sig .tc) (hr : r.idx.val < 42) :
    W50 m ρ c (Proc.devRef .tc r) = m ((c : Thread nD τ).loc r) :=
  (keep_hostOps11_3 (W49 m ρ c) r hr).trans (arg_at49 m ρ c r hr)

theorem arg_at51 (c : Dev nD) (r : Ref sig .tc) (hr : r.idx.val < 42) :
    W51 m ρ c (Proc.devRef .tc r) = m ((c : Thread nD τ).loc r) :=
  (keep_hostOps11_4 (W50 m ρ c) r hr).trans (arg_at50 m ρ c r hr)

theorem arg_at52 (c : Dev nD) (r : Ref sig .tc) (hr : r.idx.val < 42) :
    W52 m ρ c (Proc.devRef .tc r) = m ((c : Thread nD τ).loc r) :=
  (keep_region11 m ρ c r hr).trans (arg_at51 m ρ c r hr)

theorem arg_at53 (c : Dev nD) (r : Ref sig .tc) (hr : r.idx.val < 42) :
    W53 m ρ c (Proc.devRef .tc r) = m ((c : Thread nD τ).loc r) :=
  (keep_hostOps12 (W52 m ρ c) r hr).trans (arg_at52 m ρ c r hr)

theorem arg_at54 (c : Dev nD) (r : Ref sig .tc) (hr : r.idx.val < 42) :
    W54 m ρ c (Proc.devRef .tc r) = m ((c : Thread nD τ).loc r) :=
  (keep_hostOps12_1 (W53 m ρ c) r hr).trans (arg_at53 m ρ c r hr)

theorem arg_at55 (c : Dev nD) (r : Ref sig .tc) (hr : r.idx.val < 42) :
    W55 m ρ c (Proc.devRef .tc r) = m ((c : Thread nD τ).loc r) :=
  (keep_hostOps12_2 (W54 m ρ c) r hr).trans (arg_at54 m ρ c r hr)

theorem arg_at56 (c : Dev nD) (r : Ref sig .tc) (hr : r.idx.val < 42) :
    W56 m ρ c (Proc.devRef .tc r) = m ((c : Thread nD τ).loc r) :=
  (keep_hostOps12_3 (W55 m ρ c) r hr).trans (arg_at55 m ρ c r hr)

theorem arg_at57 (c : Dev nD) (r : Ref sig .tc) (hr : r.idx.val < 42) :
    W57 m ρ c (Proc.devRef .tc r) = m ((c : Thread nD τ).loc r) :=
  (keep_hostOps12_4 (W56 m ρ c) r hr).trans (arg_at56 m ρ c r hr)

theorem arg_at58 (c : Dev nD) (r : Ref sig .tc) (hr : r.idx.val < 42) :
    W58 m ρ c (Proc.devRef .tc r) = m ((c : Thread nD τ).loc r) :=
  (keep_region12 m ρ c r hr).trans (arg_at57 m ρ c r hr)

theorem arg_at59 (c : Dev nD) (r : Ref sig .tc) (hr : r.idx.val < 42) :
    W59 m ρ c (Proc.devRef .tc r) = m ((c : Thread nD τ).loc r) :=
  (keep_hostOps13 (W58 m ρ c) r hr).trans (arg_at58 m ρ c r hr)

theorem arg_at60 (c : Dev nD) (r : Ref sig .tc) (hr : r.idx.val < 42) :
    W60 m ρ c (Proc.devRef .tc r) = m ((c : Thread nD τ).loc r) :=
  (keep_region13 m ρ c r hr).trans (arg_at59 m ρ c r hr)

theorem arg_at61 (c : Dev nD) (r : Ref sig .tc) (hr : r.idx.val < 42) :
    W61 m ρ c (Proc.devRef .tc r) = m ((c : Thread nD τ).loc r) :=
  (keep_hostOps14 (W60 m ρ c) r hr).trans (arg_at60 m ρ c r hr)

theorem arg_at62 (c : Dev nD) (r : Ref sig .tc) (hr : r.idx.val < 42) :
    W62 m ρ c (Proc.devRef .tc r) = m ((c : Thread nD τ).loc r) :=
  (keep_region14 m ρ c r hr).trans (arg_at61 m ρ c r hr)

theorem arg_at63 (c : Dev nD) (r : Ref sig .tc) (hr : r.idx.val < 42) :
    W63 m ρ c (Proc.devRef .tc r) = m ((c : Thread nD τ).loc r) :=
  (keep_hostOps15 (W62 m ρ c) r hr).trans (arg_at62 m ρ c r hr)

theorem arg_at64 (c : Dev nD) (r : Ref sig .tc) (hr : r.idx.val < 42) :
    W64 m ρ c (Proc.devRef .tc r) = m ((c : Thread nD τ).loc r) :=
  (keep_region15 m ρ c r hr).trans (arg_at63 m ρ c r hr)

theorem arg_at65 (c : Dev nD) (r : Ref sig .tc) (hr : r.idx.val < 42) :
    W65 m ρ c (Proc.devRef .tc r) = m ((c : Thread nD τ).loc r) :=
  (keep_hostOps16 (W64 m ρ c) r hr).trans (arg_at64 m ρ c r hr)

theorem arg_at66 (c : Dev nD) (r : Ref sig .tc) (hr : r.idx.val < 42) :
    W66 m ρ c (Proc.devRef .tc r) = m ((c : Thread nD τ).loc r) :=
  (keep_region16 m ρ c r hr).trans (arg_at65 m ρ c r hr)

end Cert.Kernel.GenP

end
-- ==== Proof.ArgsKI.lean ====
/-
  No segment of the program's @main writes an argument.

  The program's arguments are its first 42 references.  Every host operation writes a later reference, so a stretch of
  host operations leaves an argument's buffer as it found it.  A region changes one array only, its output window's —
  nothing is written back to an input window, and a buffer that is no window's array is not touched — and that array
  is a later reference too.  Walking back from the last boundary through the 66 segments, an argument's buffer at the
  end holds what it held at the launch.
-/
import proofs.«153485_j59545426592079_1_alg».proof.Proof.FrameKI
import proofs.«153485_j59545426592079_1_alg».proof.Proof.LibRegionOp

set_option maxRecDepth 16384

noncomputable section

namespace Cert.KernelIdeal.GenP

open Cert.KernelIdeal.Gen Cert.LibRegionOp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's input windows end as entered -/

theorem ins0 (V : (c : Dev nD) → (b : Ref sig .tc) → Buf (Elt F) ((c : Thread nD τ).loc b)) (c : Dev nD) (w : Fin cfg0.W) (hw : w ≠ 3) :
    (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨3, _⟩, h => absurd rfl h

theorem ins1 (V : (c : Dev nD) → (b : Ref sig .tc) → Buf (Elt F) ((c : Thread nD τ).loc b)) (c : Dev nD) (w : Fin cfg1.W) (hw : w ≠ 3) :
    (dat1 V c).arrAt w cfg1.N = V c (Pipeline.arrRef spec1 w) :=
  match w, hw with
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, h => absurd rfl h

theorem ins2 (V : (c : Dev nD) → (b : Ref sig .tc) → Buf (Elt F) ((c : Thread nD τ).loc b)) (c : Dev nD) (w : Fin cfg2.W) (hw : w ≠ 3) :
    (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, h => absurd rfl h

theorem ins3 (V : (c : Dev nD) → (b : Ref sig .tc) → Buf (Elt F) ((c : Thread nD τ).loc b)) (c : Dev nD) (w : Fin cfg3.W) (hw : w ≠ 3) :
    (dat3 V c).arrAt w cfg3.N = V c (Pipeline.arrRef spec3 w) :=
  match w, hw with
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, h => absurd rfl h

theorem ins4 (V : (c : Dev nD) → (b : Ref sig .tc) → Buf (Elt F) ((c : Thread nD τ).loc b)) (c : Dev nD) (w : Fin cfg4.W) (hw : w ≠ 3) :
    (dat4 V c).arrAt w cfg4.N = V c (Pipeline.arrRef spec4 w) :=
  match w, hw with
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, h => absurd rfl h

theorem ins5 (V : (c : Dev nD) → (b : Ref sig .tc) → Buf (Elt F) ((c : Thread nD τ).loc b)) (c : Dev nD) (w : Fin cfg5.W) (hw : w ≠ 3) :
    (dat5 V c).arrAt w cfg5.N = V c (Pipeline.arrRef spec5 w) :=
  match w, hw with
  | ⟨0, _⟩, _ => ((dat5 V c).arrAt_in 0 rfl _).trans (A_eq5 V c 0)
  | ⟨1, _⟩, _ => ((dat5 V c).arrAt_in 1 rfl _).trans (A_eq5 V c 1)
  | ⟨2, _⟩, _ => ((dat5 V c).arrAt_in 2 rfl _).trans (A_eq5 V c 2)
  | ⟨3, _⟩, h => absurd rfl h

theorem ins6 (V : (c : Dev nD) → (b : Ref sig .tc) → Buf (Elt F) ((c : Thread nD τ).loc b)) (c : Dev nD) (w : Fin cfg6.W) (hw : w ≠ 3) :
    (dat6 V c).arrAt w cfg6.N = V c (Pipeline.arrRef spec6 w) :=
  match w, hw with
  | ⟨0, _⟩, _ => ((dat6 V c).arrAt_in 0 rfl _).trans (A_eq6 V c 0)
  | ⟨1, _⟩, _ => ((dat6 V c).arrAt_in 1 rfl _).trans (A_eq6 V c 1)
  | ⟨2, _⟩, _ => ((dat6 V c).arrAt_in 2 rfl _).trans (A_eq6 V c 2)
  | ⟨3, _⟩, h => absurd rfl h

theorem ins7 (V : (c : Dev nD) → (b : Ref sig .tc) → Buf (Elt F) ((c : Thread nD τ).loc b)) (c : Dev nD) (w : Fin cfg7.W) (hw : w ≠ 3) :
    (dat7 V c).arrAt w cfg7.N = V c (Pipeline.arrRef spec7 w) :=
  match w, hw with
  | ⟨0, _⟩, _ => ((dat7 V c).arrAt_in 0 rfl _).trans (A_eq7 V c 0)
  | ⟨1, _⟩, _ => ((dat7 V c).arrAt_in 1 rfl _).trans (A_eq7 V c 1)
  | ⟨2, _⟩, _ => ((dat7 V c).arrAt_in 2 rfl _).trans (A_eq7 V c 2)
  | ⟨3, _⟩, h => absurd rfl h

theorem ins8 (V : (c : Dev nD) → (b : Ref sig .tc) → Buf (Elt F) ((c : Thread nD τ).loc b)) (c : Dev nD) (w : Fin cfg8.W) (hw : w ≠ 3) :
    (dat8 V c).arrAt w cfg8.N = V c (Pipeline.arrRef spec8 w) :=
  match w, hw with
  | ⟨0, _⟩, _ => ((dat8 V c).arrAt_in 0 rfl _).trans (A_eq8 V c 0)
  | ⟨1, _⟩, _ => ((dat8 V c).arrAt_in 1 rfl _).trans (A_eq8 V c 1)
  | ⟨2, _⟩, _ => ((dat8 V c).arrAt_in 2 rfl _).trans (A_eq8 V c 2)
  | ⟨3, _⟩, h => absurd rfl h

theorem ins9 (V : (c : Dev nD) → (b : Ref sig .tc) → Buf (Elt F) ((c : Thread nD τ).loc b)) (c : Dev nD) (w : Fin cfg9.W) (hw : w ≠ 3) :
    (dat9 V c).arrAt w cfg9.N = V c (Pipeline.arrRef spec9 w) :=
  match w, hw with
  | ⟨0, _⟩, _ => ((dat9 V c).arrAt_in 0 rfl _).trans (A_eq9 V c 0)
  | ⟨1, _⟩, _ => ((dat9 V c).arrAt_in 1 rfl _).trans (A_eq9 V c 1)
  | ⟨2, _⟩, _ => ((dat9 V c).arrAt_in 2 rfl _).trans (A_eq9 V c 2)
  | ⟨3, _⟩, h => absurd rfl h

theorem ins10 (V : (c : Dev nD) → (b : Ref sig .tc) → Buf (Elt F) ((c : Thread nD τ).loc b)) (c : Dev nD) (w : Fin cfg10.W) (hw : w ≠ 3) :
    (dat10 V c).arrAt w cfg10.N = V c (Pipeline.arrRef spec10 w) :=
  match w, hw with
  | ⟨0, _⟩, _ => ((dat10 V c).arrAt_in 0 rfl _).trans (A_eq10 V c 0)
  | ⟨1, _⟩, _ => ((dat10 V c).arrAt_in 1 rfl _).trans (A_eq10 V c 1)
  | ⟨2, _⟩, _ => ((dat10 V c).arrAt_in 2 rfl _).trans (A_eq10 V c 2)
  | ⟨3, _⟩, h => absurd rfl h

theorem ins11 (V : (c : Dev nD) → (b : Ref sig .tc) → Buf (Elt F) ((c : Thread nD τ).loc b)) (c : Dev nD) (w : Fin cfg11.W) (hw : w ≠ 3) :
    (dat11 V c).arrAt w cfg11.N = V c (Pipeline.arrRef spec11 w) :=
  match w, hw with
  | ⟨0, _⟩, _ => ((dat11 V c).arrAt_in 0 rfl _).trans (A_eq11 V c 0)
  | ⟨1, _⟩, _ => ((dat11 V c).arrAt_in 1 rfl _).trans (A_eq11 V c 1)
  | ⟨2, _⟩, _ => ((dat11 V c).arrAt_in 2 rfl _).trans (A_eq11 V c 2)
  | ⟨3, _⟩, h => absurd rfl h

theorem ins12 (V : (c : Dev nD) → (b : Ref sig .tc) → Buf (Elt F) ((c : Thread nD τ).loc b)) (c : Dev nD) (w : Fin cfg12.W) (hw : w ≠ 3) :
    (dat12 V c).arrAt w cfg12.N = V c (Pipeline.arrRef spec12 w) :=
  match w, hw with
  | ⟨0, _⟩, _ => ((dat12 V c).arrAt_in 0 rfl _).trans (A_eq12 V c 0)
  | ⟨1, _⟩, _ => ((dat12 V c).arrAt_in 1 rfl _).trans (A_eq12 V c 1)
  | ⟨2, _⟩, _ => ((dat12 V c).arrAt_in 2 rfl _).trans (A_eq12 V c 2)
  | ⟨3, _⟩, h => absurd rfl h

theorem ins13 (V : (c : Dev nD) → (b : Ref sig .tc) → Buf (Elt F) ((c : Thread nD τ).loc b)) (c : Dev nD) (w : Fin cfg13.W) (hw : w ≠ 3) :
    (dat13 V c).arrAt w cfg13.N = V c (Pipeline.arrRef spec13 w) :=
  match w, hw with
  | ⟨0, _⟩, _ => ((dat13 V c).arrAt_in 0 rfl _).trans (A_eq13 V c 0)
  | ⟨1, _⟩, _ => ((dat13 V c).arrAt_in 1 rfl _).trans (A_eq13 V c 1)
  | ⟨2, _⟩, _ => ((dat13 V c).arrAt_in 2 rfl _).trans (A_eq13 V c 2)
  | ⟨3, _⟩, h => absurd rfl h

theorem ins14 (V : (c : Dev nD) → (b : Ref sig .tc) → Buf (Elt F) ((c : Thread nD τ).loc b)) (c : Dev nD) (w : Fin cfg14.W) (hw : w ≠ 3) :
    (dat14 V c).arrAt w cfg14.N = V c (Pipeline.arrRef spec14 w) :=
  match w, hw with
  | ⟨0, _⟩, _ => ((dat14 V c).arrAt_in 0 rfl _).trans (A_eq14 V c 0)
  | ⟨1, _⟩, _ => ((dat14 V c).arrAt_in 1 rfl _).trans (A_eq14 V c 1)
  | ⟨2, _⟩, _ => ((dat14 V c).arrAt_in 2 rfl _).trans (A_eq14 V c 2)
  | ⟨3, _⟩, h => absurd rfl h

theorem ins15 (V : (c : Dev nD) → (b : Ref sig .tc) → Buf (Elt F) ((c : Thread nD τ).loc b)) (c : Dev nD) (w : Fin cfg15.W) (hw : w ≠ 3) :
    (dat15 V c).arrAt w cfg15.N = V c (Pipeline.arrRef spec15 w) :=
  match w, hw with
  | ⟨0, _⟩, _ => ((dat15 V c).arrAt_in 0 rfl _).trans (A_eq15 V c 0)
  | ⟨1, _⟩, _ => ((dat15 V c).arrAt_in 1 rfl _).trans (A_eq15 V c 1)
  | ⟨2, _⟩, _ => ((dat15 V c).arrAt_in 2 rfl _).trans (A_eq15 V c 2)
  | ⟨3, _⟩, h => absurd rfl h

theorem ins16 (V : (c : Dev nD) → (b : Ref sig .tc) → Buf (Elt F) ((c : Thread nD τ).loc b)) (c : Dev nD) (w : Fin cfg16.W) (hw : w ≠ 3) :
    (dat16 V c).arrAt w cfg16.N = V c (Pipeline.arrRef spec16 w) :=
  match w, hw with
  | ⟨0, _⟩, _ => ((dat16 V c).arrAt_in 0 rfl _).trans (A_eq16 V c 0)
  | ⟨1, _⟩, _ => ((dat16 V c).arrAt_in 1 rfl _).trans (A_eq16 V c 1)
  | ⟨2, _⟩, _ => ((dat16 V c).arrAt_in 2 rfl _).trans (A_eq16 V c 2)
  | ⟨3, _⟩, h => absurd rfl h

/-! ## A stretch of host operations leaves an argument alone -/

theorem keep_hostOps0 (V : Valuation τ sig (Elt F)) (r : Ref sig .tc) (hr : r.idx.val < 42) :
    StableHlo.after (hostOps0 (F := F)) V (Proc.devRef .tc r) = V (Proc.devRef .tc r) :=
  StableHlo.after_of_forall_not_mem _ _ (List.forall_iff_forall_mem.mp (by
    simp only [hostOps0, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1 (V : Valuation τ sig (Elt F)) (r : Ref sig .tc) (hr : r.idx.val < 42) :
    StableHlo.after (hostOps1 (F := F)) V (Proc.devRef .tc r) = V (Proc.devRef .tc r) :=
  StableHlo.after_of_forall_not_mem _ _ (List.forall_iff_forall_mem.mp (by
    simp only [hostOps1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_1 (V : Valuation τ sig (Elt F)) (r : Ref sig .tc) (hr : r.idx.val < 42) :
    StableHlo.after (hostOps1_1 (F := F)) V (Proc.devRef .tc r) = V (Proc.devRef .tc r) :=
  StableHlo.after_of_forall_not_mem _ _ (List.forall_iff_forall_mem.mp (by
    simp only [hostOps1_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_2 (V : Valuation τ sig (Elt F)) (r : Ref sig .tc) (hr : r.idx.val < 42) :
    StableHlo.after (hostOps1_2 (F := F)) V (Proc.devRef .tc r) = V (Proc.devRef .tc r) :=
  StableHlo.after_of_forall_not_mem _ _ (List.forall_iff_forall_mem.mp (by
    simp only [hostOps1_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_3 (V : Valuation τ sig (Elt F)) (r : Ref sig .tc) (hr : r.idx.val < 42) :
    StableHlo.after (hostOps1_3 (F := F)) V (Proc.devRef .tc r) = V (Proc.devRef .tc r) :=
  StableHlo.after_of_forall_not_mem _ _ (List.forall_iff_forall_mem.mp (by
    simp only [hostOps1_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps1_4 (V : Valuation τ sig (Elt F)) (r : Ref sig .tc) (hr : r.idx.val < 42) :
    StableHlo.after (hostOps1_4 (F := F)) V (Proc.devRef .tc r) = V (Proc.devRef .tc r) :=
  StableHlo.after_of_forall_not_mem _ _ (List.forall_iff_forall_mem.mp (by
    simp only [hostOps1_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2 (V : Valuation τ sig (Elt F)) (r : Ref sig .tc) (hr : r.idx.val < 42) :
    StableHlo.after (hostOps2 (F := F)) V (Proc.devRef .tc r) = V (Proc.devRef .tc r) :=
  StableHlo.after_of_forall_not_mem _ _ (List.forall_iff_forall_mem.mp (by
    simp only [hostOps2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_1 (V : Valuation τ sig (Elt F)) (r : Ref sig .tc) (hr : r.idx.val < 42) :
    StableHlo.after (hostOps2_1 (F := F)) V (Proc.devRef .tc r) = V (Proc.devRef .tc r) :=
  StableHlo.after_of_forall_not_mem _ _ (List.forall_iff_forall_mem.mp (by
    simp only [hostOps2_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_2 (V : Valuation τ sig (Elt F)) (r : Ref sig .tc) (hr : r.idx.val < 42) :
    StableHlo.after (hostOps2_2 (F := F)) V (Proc.devRef .tc r) = V (Proc.devRef .tc r) :=
  StableHlo.after_of_forall_not_mem _ _ (List.forall_iff_forall_mem.mp (by
    simp only [hostOps2_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_3 (V : Valuation τ sig (Elt F)) (r : Ref sig .tc) (hr : r.idx.val < 42) :
    StableHlo.after (hostOps2_3 (F := F)) V (Proc.devRef .tc r) = V (Proc.devRef .tc r) :=
  StableHlo.after_of_forall_not_mem _ _ (List.forall_iff_forall_mem.mp (by
    simp only [hostOps2_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps2_4 (V : Valuation τ sig (Elt F)) (r : Ref sig .tc) (hr : r.idx.val < 42) :
    StableHlo.after (hostOps2_4 (F := F)) V (Proc.devRef .tc r) = V (Proc.devRef .tc r) :=
  StableHlo.after_of_forall_not_mem _ _ (List.forall_iff_forall_mem.mp (by
    simp only [hostOps2_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3 (V : Valuation τ sig (Elt F)) (r : Ref sig .tc) (hr : r.idx.val < 42) :
    StableHlo.after (hostOps3 (F := F)) V (Proc.devRef .tc r) = V (Proc.devRef .tc r) :=
  StableHlo.after_of_forall_not_mem _ _ (List.forall_iff_forall_mem.mp (by
    simp only [hostOps3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_1 (V : Valuation τ sig (Elt F)) (r : Ref sig .tc) (hr : r.idx.val < 42) :
    StableHlo.after (hostOps3_1 (F := F)) V (Proc.devRef .tc r) = V (Proc.devRef .tc r) :=
  StableHlo.after_of_forall_not_mem _ _ (List.forall_iff_forall_mem.mp (by
    simp only [hostOps3_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_2 (V : Valuation τ sig (Elt F)) (r : Ref sig .tc) (hr : r.idx.val < 42) :
    StableHlo.after (hostOps3_2 (F := F)) V (Proc.devRef .tc r) = V (Proc.devRef .tc r) :=
  StableHlo.after_of_forall_not_mem _ _ (List.forall_iff_forall_mem.mp (by
    simp only [hostOps3_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_3 (V : Valuation τ sig (Elt F)) (r : Ref sig .tc) (hr : r.idx.val < 42) :
    StableHlo.after (hostOps3_3 (F := F)) V (Proc.devRef .tc r) = V (Proc.devRef .tc r) :=
  StableHlo.after_of_forall_not_mem _ _ (List.forall_iff_forall_mem.mp (by
    simp only [hostOps3_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps3_4 (V : Valuation τ sig (Elt F)) (r : Ref sig .tc) (hr : r.idx.val < 42) :
    StableHlo.after (hostOps3_4 (F := F)) V (Proc.devRef .tc r) = V (Proc.devRef .tc r) :=
  StableHlo.after_of_forall_not_mem _ _ (List.forall_iff_forall_mem.mp (by
    simp only [hostOps3_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps4 (V : Valuation τ sig (Elt F)) (r : Ref sig .tc) (hr : r.idx.val < 42) :
    StableHlo.after (hostOps4 (F := F)) V (Proc.devRef .tc r) = V (Proc.devRef .tc r) :=
  StableHlo.after_of_forall_not_mem _ _ (List.forall_iff_forall_mem.mp (by
    simp only [hostOps4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps5 (V : Valuation τ sig (Elt F)) (r : Ref sig .tc) (hr : r.idx.val < 42) :
    StableHlo.after (hostOps5 (F := F)) V (Proc.devRef .tc r) = V (Proc.devRef .tc r) :=
  StableHlo.after_of_forall_not_mem _ _ (List.forall_iff_forall_mem.mp (by
    simp only [hostOps5, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6 (V : Valuation τ sig (Elt F)) (r : Ref sig .tc) (hr : r.idx.val < 42) :
    StableHlo.after (hostOps6 (F := F)) V (Proc.devRef .tc r) = V (Proc.devRef .tc r) :=
  StableHlo.after_of_forall_not_mem _ _ (List.forall_iff_forall_mem.mp (by
    simp only [hostOps6, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_1 (V : Valuation τ sig (Elt F)) (r : Ref sig .tc) (hr : r.idx.val < 42) :
    StableHlo.after (hostOps6_1 (F := F)) V (Proc.devRef .tc r) = V (Proc.devRef .tc r) :=
  StableHlo.after_of_forall_not_mem _ _ (List.forall_iff_forall_mem.mp (by
    simp only [hostOps6_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_2 (V : Valuation τ sig (Elt F)) (r : Ref sig .tc) (hr : r.idx.val < 42) :
    StableHlo.after (hostOps6_2 (F := F)) V (Proc.devRef .tc r) = V (Proc.devRef .tc r) :=
  StableHlo.after_of_forall_not_mem _ _ (List.forall_iff_forall_mem.mp (by
    simp only [hostOps6_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_3 (V : Valuation τ sig (Elt F)) (r : Ref sig .tc) (hr : r.idx.val < 42) :
    StableHlo.after (hostOps6_3 (F := F)) V (Proc.devRef .tc r) = V (Proc.devRef .tc r) :=
  StableHlo.after_of_forall_not_mem _ _ (List.forall_iff_forall_mem.mp (by
    simp only [hostOps6_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps6_4 (V : Valuation τ sig (Elt F)) (r : Ref sig .tc) (hr : r.idx.val < 42) :
    StableHlo.after (hostOps6_4 (F := F)) V (Proc.devRef .tc r) = V (Proc.devRef .tc r) :=
  StableHlo.after_of_forall_not_mem _ _ (List.forall_iff_forall_mem.mp (by
    simp only [hostOps6_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7 (V : Valuation τ sig (Elt F)) (r : Ref sig .tc) (hr : r.idx.val < 42) :
    StableHlo.after (hostOps7 (F := F)) V (Proc.devRef .tc r) = V (Proc.devRef .tc r) :=
  StableHlo.after_of_forall_not_mem _ _ (List.forall_iff_forall_mem.mp (by
    simp only [hostOps7, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_1 (V : Valuation τ sig (Elt F)) (r : Ref sig .tc) (hr : r.idx.val < 42) :
    StableHlo.after (hostOps7_1 (F := F)) V (Proc.devRef .tc r) = V (Proc.devRef .tc r) :=
  StableHlo.after_of_forall_not_mem _ _ (List.forall_iff_forall_mem.mp (by
    simp only [hostOps7_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_2 (V : Valuation τ sig (Elt F)) (r : Ref sig .tc) (hr : r.idx.val < 42) :
    StableHlo.after (hostOps7_2 (F := F)) V (Proc.devRef .tc r) = V (Proc.devRef .tc r) :=
  StableHlo.after_of_forall_not_mem _ _ (List.forall_iff_forall_mem.mp (by
    simp only [hostOps7_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_3 (V : Valuation τ sig (Elt F)) (r : Ref sig .tc) (hr : r.idx.val < 42) :
    StableHlo.after (hostOps7_3 (F := F)) V (Proc.devRef .tc r) = V (Proc.devRef .tc r) :=
  StableHlo.after_of_forall_not_mem _ _ (List.forall_iff_forall_mem.mp (by
    simp only [hostOps7_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps7_4 (V : Valuation τ sig (Elt F)) (r : Ref sig .tc) (hr : r.idx.val < 42) :
    StableHlo.after (hostOps7_4 (F := F)) V (Proc.devRef .tc r) = V (Proc.devRef .tc r) :=
  StableHlo.after_of_forall_not_mem _ _ (List.forall_iff_forall_mem.mp (by
    simp only [hostOps7_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8 (V : Valuation τ sig (Elt F)) (r : Ref sig .tc) (hr : r.idx.val < 42) :
    StableHlo.after (hostOps8 (F := F)) V (Proc.devRef .tc r) = V (Proc.devRef .tc r) :=
  StableHlo.after_of_forall_not_mem _ _ (List.forall_iff_forall_mem.mp (by
    simp only [hostOps8, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_1 (V : Valuation τ sig (Elt F)) (r : Ref sig .tc) (hr : r.idx.val < 42) :
    StableHlo.after (hostOps8_1 (F := F)) V (Proc.devRef .tc r) = V (Proc.devRef .tc r) :=
  StableHlo.after_of_forall_not_mem _ _ (List.forall_iff_forall_mem.mp (by
    simp only [hostOps8_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_2 (V : Valuation τ sig (Elt F)) (r : Ref sig .tc) (hr : r.idx.val < 42) :
    StableHlo.after (hostOps8_2 (F := F)) V (Proc.devRef .tc r) = V (Proc.devRef .tc r) :=
  StableHlo.after_of_forall_not_mem _ _ (List.forall_iff_forall_mem.mp (by
    simp only [hostOps8_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_3 (V : Valuation τ sig (Elt F)) (r : Ref sig .tc) (hr : r.idx.val < 42) :
    StableHlo.after (hostOps8_3 (F := F)) V (Proc.devRef .tc r) = V (Proc.devRef .tc r) :=
  StableHlo.after_of_forall_not_mem _ _ (List.forall_iff_forall_mem.mp (by
    simp only [hostOps8_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps8_4 (V : Valuation τ sig (Elt F)) (r : Ref sig .tc) (hr : r.idx.val < 42) :
    StableHlo.after (hostOps8_4 (F := F)) V (Proc.devRef .tc r) = V (Proc.devRef .tc r) :=
  StableHlo.after_of_forall_not_mem _ _ (List.forall_iff_forall_mem.mp (by
    simp only [hostOps8_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps9 (V : Valuation τ sig (Elt F)) (r : Ref sig .tc) (hr : r.idx.val < 42) :
    StableHlo.after (hostOps9 (F := F)) V (Proc.devRef .tc r) = V (Proc.devRef .tc r) :=
  StableHlo.after_of_forall_not_mem _ _ (List.forall_iff_forall_mem.mp (by
    simp only [hostOps9, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps10 (V : Valuation τ sig (Elt F)) (r : Ref sig .tc) (hr : r.idx.val < 42) :
    StableHlo.after (hostOps10 (F := F)) V (Proc.devRef .tc r) = V (Proc.devRef .tc r) :=
  StableHlo.after_of_forall_not_mem _ _ (List.forall_iff_forall_mem.mp (by
    simp only [hostOps10, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11 (V : Valuation τ sig (Elt F)) (r : Ref sig .tc) (hr : r.idx.val < 42) :
    StableHlo.after (hostOps11 (F := F)) V (Proc.devRef .tc r) = V (Proc.devRef .tc r) :=
  StableHlo.after_of_forall_not_mem _ _ (List.forall_iff_forall_mem.mp (by
    simp only [hostOps11, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_1 (V : Valuation τ sig (Elt F)) (r : Ref sig .tc) (hr : r.idx.val < 42) :
    StableHlo.after (hostOps11_1 (F := F)) V (Proc.devRef .tc r) = V (Proc.devRef .tc r) :=
  StableHlo.after_of_forall_not_mem _ _ (List.forall_iff_forall_mem.mp (by
    simp only [hostOps11_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_2 (V : Valuation τ sig (Elt F)) (r : Ref sig .tc) (hr : r.idx.val < 42) :
    StableHlo.after (hostOps11_2 (F := F)) V (Proc.devRef .tc r) = V (Proc.devRef .tc r) :=
  StableHlo.after_of_forall_not_mem _ _ (List.forall_iff_forall_mem.mp (by
    simp only [hostOps11_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_3 (V : Valuation τ sig (Elt F)) (r : Ref sig .tc) (hr : r.idx.val < 42) :
    StableHlo.after (hostOps11_3 (F := F)) V (Proc.devRef .tc r) = V (Proc.devRef .tc r) :=
  StableHlo.after_of_forall_not_mem _ _ (List.forall_iff_forall_mem.mp (by
    simp only [hostOps11_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps11_4 (V : Valuation τ sig (Elt F)) (r : Ref sig .tc) (hr : r.idx.val < 42) :
    StableHlo.after (hostOps11_4 (F := F)) V (Proc.devRef .tc r) = V (Proc.devRef .tc r) :=
  StableHlo.after_of_forall_not_mem _ _ (List.forall_iff_forall_mem.mp (by
    simp only [hostOps11_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12 (V : Valuation τ sig (Elt F)) (r : Ref sig .tc) (hr : r.idx.val < 42) :
    StableHlo.after (hostOps12 (F := F)) V (Proc.devRef .tc r) = V (Proc.devRef .tc r) :=
  StableHlo.after_of_forall_not_mem _ _ (List.forall_iff_forall_mem.mp (by
    simp only [hostOps12, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_1 (V : Valuation τ sig (Elt F)) (r : Ref sig .tc) (hr : r.idx.val < 42) :
    StableHlo.after (hostOps12_1 (F := F)) V (Proc.devRef .tc r) = V (Proc.devRef .tc r) :=
  StableHlo.after_of_forall_not_mem _ _ (List.forall_iff_forall_mem.mp (by
    simp only [hostOps12_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_2 (V : Valuation τ sig (Elt F)) (r : Ref sig .tc) (hr : r.idx.val < 42) :
    StableHlo.after (hostOps12_2 (F := F)) V (Proc.devRef .tc r) = V (Proc.devRef .tc r) :=
  StableHlo.after_of_forall_not_mem _ _ (List.forall_iff_forall_mem.mp (by
    simp only [hostOps12_2, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_3 (V : Valuation τ sig (Elt F)) (r : Ref sig .tc) (hr : r.idx.val < 42) :
    StableHlo.after (hostOps12_3 (F := F)) V (Proc.devRef .tc r) = V (Proc.devRef .tc r) :=
  StableHlo.after_of_forall_not_mem _ _ (List.forall_iff_forall_mem.mp (by
    simp only [hostOps12_3, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps12_4 (V : Valuation τ sig (Elt F)) (r : Ref sig .tc) (hr : r.idx.val < 42) :
    StableHlo.after (hostOps12_4 (F := F)) V (Proc.devRef .tc r) = V (Proc.devRef .tc r) :=
  StableHlo.after_of_forall_not_mem _ _ (List.forall_iff_forall_mem.mp (by
    simp only [hostOps12_4, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps13 (V : Valuation τ sig (Elt F)) (r : Ref sig .tc) (hr : r.idx.val < 42) :
    StableHlo.after (hostOps13 (F := F)) V (Proc.devRef .tc r) = V (Proc.devRef .tc r) :=
  StableHlo.after_of_forall_not_mem _ _ (List.forall_iff_forall_mem.mp (by
    simp only [hostOps13, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps14 (V : Valuation τ sig (Elt F)) (r : Ref sig .tc) (hr : r.idx.val < 42) :
    StableHlo.after (hostOps14 (F := F)) V (Proc.devRef .tc r) = V (Proc.devRef .tc r) :=
  StableHlo.after_of_forall_not_mem _ _ (List.forall_iff_forall_mem.mp (by
    simp only [hostOps14, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps15 (V : Valuation τ sig (Elt F)) (r : Ref sig .tc) (hr : r.idx.val < 42) :
    StableHlo.after (hostOps15 (F := F)) V (Proc.devRef .tc r) = V (Proc.devRef .tc r) :=
  StableHlo.after_of_forall_not_mem _ _ (List.forall_iff_forall_mem.mp (by
    simp only [hostOps15, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

theorem keep_hostOps16 (V : Valuation τ sig (Elt F)) (r : Ref sig .tc) (hr : r.idx.val < 42) :
    StableHlo.after (hostOps16 (F := F)) V (Proc.devRef .tc r) = V (Proc.devRef .tc r) :=
  StableHlo.after_of_forall_not_mem _ _ (List.forall_iff_forall_mem.mp (by
    simp only [hostOps16, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hr (by decide))))

/-! ## A region leaves an argument alone -/

theorem keep_region0 (c : Dev nD) (r : Ref sig .tc) (hr : r.idx.val < 42) :
    W2 m ρ c (Proc.devRef .tc r) = W1 m ρ c (Proc.devRef .tc r) := by
  unfold W2
  exact withArrays_keeps spec0 launch0.win.arr_inj c _ _ 3 (fun w hw => ins0 (V1 m ρ) c w hw) r (ne_of_idx_lt hr (by decide))

theorem keep_region1 (c : Dev nD) (r : Ref sig .tc) (hr : r.idx.val < 42) :
    W8 m ρ c (Proc.devRef .tc r) = W7 m ρ c (Proc.devRef .tc r) := by
  unfold W8
  exact withArrays_keeps spec1 launch1.win.arr_inj c _ _ 3 (fun w hw => ins1 (V7 m ρ) c w hw) r (ne_of_idx_lt hr (by decide))

theorem keep_region2 (c : Dev nD) (r : Ref sig .tc) (hr : r.idx.val < 42) :
    W14 m ρ c (Proc.devRef .tc r) = W13 m ρ c (Proc.devRef .tc r) := by
  unfold W14
  exact withArrays_keeps spec2 launch2.win.arr_inj c _ _ 3 (fun w hw => ins2 (V13 m ρ) c w hw) r (ne_of_idx_lt hr (by decide))

theorem keep_region3 (c : Dev nD) (r : Ref sig .tc) (hr : r.idx.val < 42) :
    W20 m ρ c (Proc.devRef .tc r) = W19 m ρ c (Proc.devRef .tc r) := by
  unfold W20
  exact withArrays_keeps spec3 launch3.win.arr_inj c _ _ 3 (fun w hw => ins3 (V19 m ρ) c w hw) r (ne_of_idx_lt hr (by decide))

theorem keep_region4 (c : Dev nD) (r : Ref sig .tc) (hr : r.idx.val < 42) :
    W22 m ρ c (Proc.devRef .tc r) = W21 m ρ c (Proc.devRef .tc r) := by
  unfold W22
  exact withArrays_keeps spec4 launch4.win.arr_inj c _ _ 3 (fun w hw => ins4 (V21 m ρ) c w hw) r (ne_of_idx_lt hr (by decide))

theorem keep_region5 (c : Dev nD) (r : Ref sig .tc) (hr : r.idx.val < 42) :
    W24 m ρ c (Proc.devRef .tc r) = W23 m ρ c (Proc.devRef .tc r) := by
  unfold W24
  exact withArrays_keeps spec5 launch5.win.arr_inj c _ _ 3 (fun w hw => ins5 (V23 m ρ) c w hw) r (ne_of_idx_lt hr (by decide))

theorem keep_region6 (c : Dev nD) (r : Ref sig .tc) (hr : r.idx.val < 42) :
    W30 m ρ c (Proc.devRef .tc r) = W29 m ρ c (Proc.devRef .tc r) := by
  unfold W30
  exact withArrays_keeps spec6 launch6.win.arr_inj c _ _ 3 (fun w hw => ins6 (V29 m ρ) c w hw) r (ne_of_idx_lt hr (by decide))

theorem keep_region7 (c : Dev nD) (r : Ref sig .tc) (hr : r.idx.val < 42) :
    W36 m ρ c (Proc.devRef .tc r) = W35 m ρ c (Proc.devRef .tc r) := by
  unfold W36
  exact withArrays_keeps spec7 launch7.win.arr_inj c _ _ 3 (fun w hw => ins7 (V35 m ρ) c w hw) r (ne_of_idx_lt hr (by decide))

theorem keep_region8 (c : Dev nD) (r : Ref sig .tc) (hr : r.idx.val < 42) :
    W42 m ρ c (Proc.devRef .tc r) = W41 m ρ c (Proc.devRef .tc r) := by
  unfold W42
  exact withArrays_keeps spec8 launch8.win.arr_inj c _ _ 3 (fun w hw => ins8 (V41 m ρ) c w hw) r (ne_of_idx_lt hr (by decide))

theorem keep_region9 (c : Dev nD) (r : Ref sig .tc) (hr : r.idx.val < 42) :
    W44 m ρ c (Proc.devRef .tc r) = W43 m ρ c (Proc.devRef .tc r) := by
  unfold W44
  exact withArrays_keeps spec9 launch9.win.arr_inj c _ _ 3 (fun w hw => ins9 (V43 m ρ) c w hw) r (ne_of_idx_lt hr (by decide))

theorem keep_region10 (c : Dev nD) (r : Ref sig .tc) (hr : r.idx.val < 42) :
    W46 m ρ c (Proc.devRef .tc r) = W45 m ρ c (Proc.devRef .tc r) := by
  unfold W46
  exact withArrays_keeps spec10 launch10.win.arr_inj c _ _ 3 (fun w hw => ins10 (V45 m ρ) c w hw) r (ne_of_idx_lt hr (by decide))

theorem keep_region11 (c : Dev nD) (r : Ref sig .tc) (hr : r.idx.val < 42) :
    W52 m ρ c (Proc.devRef .tc r) = W51 m ρ c (Proc.devRef .tc r) := by
  unfold W52
  exact withArrays_keeps spec11 launch11.win.arr_inj c _ _ 3 (fun w hw => ins11 (V51 m ρ) c w hw) r (ne_of_idx_lt hr (by decide))

theorem keep_region12 (c : Dev nD) (r : Ref sig .tc) (hr : r.idx.val < 42) :
    W58 m ρ c (Proc.devRef .tc r) = W57 m ρ c (Proc.devRef .tc r) := by
  unfold W58
  exact withArrays_keeps spec12 launch12.win.arr_inj c _ _ 3 (fun w hw => ins12 (V57 m ρ) c w hw) r (ne_of_idx_lt hr (by decide))

theorem keep_region13 (c : Dev nD) (r : Ref sig .tc) (hr : r.idx.val < 42) :
    W60 m ρ c (Proc.devRef .tc r) = W59 m ρ c (Proc.devRef .tc r) := by
  unfold W60
  exact withArrays_keeps spec13 launch13.win.arr_inj c _ _ 3 (fun w hw => ins13 (V59 m ρ) c w hw) r (ne_of_idx_lt hr (by decide))

theorem keep_region14 (c : Dev nD) (r : Ref sig .tc) (hr : r.idx.val < 42) :
    W62 m ρ c (Proc.devRef .tc r) = W61 m ρ c (Proc.devRef .tc r) := by
  unfold W62
  exact withArrays_keeps spec14 launch14.win.arr_inj c _ _ 3 (fun w hw => ins14 (V61 m ρ) c w hw) r (ne_of_idx_lt hr (by decide))

theorem keep_region15 (c : Dev nD) (r : Ref sig .tc) (hr : r.idx.val < 42) :
    W64 m ρ c (Proc.devRef .tc r) = W63 m ρ c (Proc.devRef .tc r) := by
  unfold W64
  exact withArrays_keeps spec15 launch15.win.arr_inj c _ _ 3 (fun w hw => ins15 (V63 m ρ) c w hw) r (ne_of_idx_lt hr (by decide))

theorem keep_region16 (c : Dev nD) (r : Ref sig .tc) (hr : r.idx.val < 42) :
    W66 m ρ c (Proc.devRef .tc r) = W65 m ρ c (Proc.devRef .tc r) := by
  unfold W66
  exact withArrays_keeps spec16 launch16.win.arr_inj c _ _ 3 (fun w hw => ins16 (V65 m ρ) c w hw) r (ne_of_idx_lt hr (by decide))

/-! ## Back through the 66 segments -/

theorem arg_at1 (c : Dev nD) (r : Ref sig .tc) (hr : r.idx.val < 42) :
    W1 m ρ c (Proc.devRef .tc r) = m ((c : Thread nD τ).loc r) :=
  (keep_hostOps0 (W0 m ρ c) r hr).trans rfl

theorem arg_at2 (c : Dev nD) (r : Ref sig .tc) (hr : r.idx.val < 42) :
    W2 m ρ c (Proc.devRef .tc r) = m ((c : Thread nD τ).loc r) :=
  (keep_region0 m ρ c r hr).trans (arg_at1 m ρ c r hr)

theorem arg_at3 (c : Dev nD) (r : Ref sig .tc) (hr : r.idx.val < 42) :
    W3 m ρ c (Proc.devRef .tc r) = m ((c : Thread nD τ).loc r) :=
  (keep_hostOps1 (W2 m ρ c) r hr).trans (arg_at2 m ρ c r hr)

theorem arg_at4 (c : Dev nD) (r : Ref sig .tc) (hr : r.idx.val < 42) :
    W4 m ρ c (Proc.devRef .tc r) = m ((c : Thread nD τ).loc r) :=
  (keep_hostOps1_1 (W3 m ρ c) r hr).trans (arg_at3 m ρ c r hr)

theorem arg_at5 (c : Dev nD) (r : Ref sig .tc) (hr : r.idx.val < 42) :
    W5 m ρ c (Proc.devRef .tc r) = m ((c : Thread nD τ).loc r) :=
  (keep_hostOps1_2 (W4 m ρ c) r hr).trans (arg_at4 m ρ c r hr)

theorem arg_at6 (c : Dev nD) (r : Ref sig .tc) (hr : r.idx.val < 42) :
    W6 m ρ c (Proc.devRef .tc r) = m ((c : Thread nD τ).loc r) :=
  (keep_hostOps1_3 (W5 m ρ c) r hr).trans (arg_at5 m ρ c r hr)

theorem arg_at7 (c : Dev nD) (r : Ref sig .tc) (hr : r.idx.val < 42) :
    W7 m ρ c (Proc.devRef .tc r) = m ((c : Thread nD τ).loc r) :=
  (keep_hostOps1_4 (W6 m ρ c) r hr).trans (arg_at6 m ρ c r hr)

theorem arg_at8 (c : Dev nD) (r : Ref sig .tc) (hr : r.idx.val < 42) :
    W8 m ρ c (Proc.devRef .tc r) = m ((c : Thread nD τ).loc r) :=
  (keep_region1 m ρ c r hr).trans (arg_at7 m ρ c r hr)

theorem arg_at9 (c : Dev nD) (r : Ref sig .tc) (hr : r.idx.val < 42) :
    W9 m ρ c (Proc.devRef .tc r) = m ((c : Thread nD τ).loc r) :=
  (keep_hostOps2 (W8 m ρ c) r hr).trans (arg_at8 m ρ c r hr)

theorem arg_at10 (c : Dev nD) (r : Ref sig .tc) (hr : r.idx.val < 42) :
    W10 m ρ c (Proc.devRef .tc r) = m ((c : Thread nD τ).loc r) :=
  (keep_hostOps2_1 (W9 m ρ c) r hr).trans (arg_at9 m ρ c r hr)

theorem arg_at11 (c : Dev nD) (r : Ref sig .tc) (hr : r.idx.val < 42) :
    W11 m ρ c (Proc.devRef .tc r) = m ((c : Thread nD τ).loc r) :=
  (keep_hostOps2_2 (W10 m ρ c) r hr).trans (arg_at10 m ρ c r hr)

theorem arg_at12 (c : Dev nD) (r : Ref sig .tc) (hr : r.idx.val < 42) :
    W12 m ρ c (Proc.devRef .tc r) = m ((c : Thread nD τ).loc r) :=
  (keep_hostOps2_3 (W11 m ρ c) r hr).trans (arg_at11 m ρ c r hr)

theorem arg_at13 (c : Dev nD) (r : Ref sig .tc) (hr : r.idx.val < 42) :
    W13 m ρ c (Proc.devRef .tc r) = m ((c : Thread nD τ).loc r) :=
  (keep_hostOps2_4 (W12 m ρ c) r hr).trans (arg_at12 m ρ c r hr)

theorem arg_at14 (c : Dev nD) (r : Ref sig .tc) (hr : r.idx.val < 42) :
    W14 m ρ c (Proc.devRef .tc r) = m ((c : Thread nD τ).loc r) :=
  (keep_region2 m ρ c r hr).trans (arg_at13 m ρ c r hr)

theorem arg_at15 (c : Dev nD) (r : Ref sig .tc) (hr : r.idx.val < 42) :
    W15 m ρ c (Proc.devRef .tc r) = m ((c : Thread nD τ).loc r) :=
  (keep_hostOps3 (W14 m ρ c) r hr).trans (arg_at14 m ρ c r hr)

theorem arg_at16 (c : Dev nD) (r : Ref sig .tc) (hr : r.idx.val < 42) :
    W16 m ρ c (Proc.devRef .tc r) = m ((c : Thread nD τ).loc r) :=
  (keep_hostOps3_1 (W15 m ρ c) r hr).trans (arg_at15 m ρ c r hr)

theorem arg_at17 (c : Dev nD) (r : Ref sig .tc) (hr : r.idx.val < 42) :
    W17 m ρ c (Proc.devRef .tc r) = m ((c : Thread nD τ).loc r) :=
  (keep_hostOps3_2 (W16 m ρ c) r hr).trans (arg_at16 m ρ c r hr)

theorem arg_at18 (c : Dev nD) (r : Ref sig .tc) (hr : r.idx.val < 42) :
    W18 m ρ c (Proc.devRef .tc r) = m ((c : Thread nD τ).loc r) :=
  (keep_hostOps3_3 (W17 m ρ c) r hr).trans (arg_at17 m ρ c r hr)

theorem arg_at19 (c : Dev nD) (r : Ref sig .tc) (hr : r.idx.val < 42) :
    W19 m ρ c (Proc.devRef .tc r) = m ((c : Thread nD τ).loc r) :=
  (keep_hostOps3_4 (W18 m ρ c) r hr).trans (arg_at18 m ρ c r hr)

theorem arg_at20 (c : Dev nD) (r : Ref sig .tc) (hr : r.idx.val < 42) :
    W20 m ρ c (Proc.devRef .tc r) = m ((c : Thread nD τ).loc r) :=
  (keep_region3 m ρ c r hr).trans (arg_at19 m ρ c r hr)

theorem arg_at21 (c : Dev nD) (r : Ref sig .tc) (hr : r.idx.val < 42) :
    W21 m ρ c (Proc.devRef .tc r) = m ((c : Thread nD τ).loc r) :=
  (keep_hostOps4 (W20 m ρ c) r hr).trans (arg_at20 m ρ c r hr)

theorem arg_at22 (c : Dev nD) (r : Ref sig .tc) (hr : r.idx.val < 42) :
    W22 m ρ c (Proc.devRef .tc r) = m ((c : Thread nD τ).loc r) :=
  (keep_region4 m ρ c r hr).trans (arg_at21 m ρ c r hr)

theorem arg_at23 (c : Dev nD) (r : Ref sig .tc) (hr : r.idx.val < 42) :
    W23 m ρ c (Proc.devRef .tc r) = m ((c : Thread nD τ).loc r) :=
  (keep_hostOps5 (W22 m ρ c) r hr).trans (arg_at22 m ρ c r hr)

theorem arg_at24 (c : Dev nD) (r : Ref sig .tc) (hr : r.idx.val < 42) :
    W24 m ρ c (Proc.devRef .tc r) = m ((c : Thread nD τ).loc r) :=
  (keep_region5 m ρ c r hr).trans (arg_at23 m ρ c r hr)

theorem arg_at25 (c : Dev nD) (r : Ref sig .tc) (hr : r.idx.val < 42) :
    W25 m ρ c (Proc.devRef .tc r) = m ((c : Thread nD τ).loc r) :=
  (keep_hostOps6 (W24 m ρ c) r hr).trans (arg_at24 m ρ c r hr)

theorem arg_at26 (c : Dev nD) (r : Ref sig .tc) (hr : r.idx.val < 42) :
    W26 m ρ c (Proc.devRef .tc r) = m ((c : Thread nD τ).loc r) :=
  (keep_hostOps6_1 (W25 m ρ c) r hr).trans (arg_at25 m ρ c r hr)

theorem arg_at27 (c : Dev nD) (r : Ref sig .tc) (hr : r.idx.val < 42) :
    W27 m ρ c (Proc.devRef .tc r) = m ((c : Thread nD τ).loc r) :=
  (keep_hostOps6_2 (W26 m ρ c) r hr).trans (arg_at26 m ρ c r hr)

theorem arg_at28 (c : Dev nD) (r : Ref sig .tc) (hr : r.idx.val < 42) :
    W28 m ρ c (Proc.devRef .tc r) = m ((c : Thread nD τ).loc r) :=
  (keep_hostOps6_3 (W27 m ρ c) r hr).trans (arg_at27 m ρ c r hr)

theorem arg_at29 (c : Dev nD) (r : Ref sig .tc) (hr : r.idx.val < 42) :
    W29 m ρ c (Proc.devRef .tc r) = m ((c : Thread nD τ).loc r) :=
  (keep_hostOps6_4 (W28 m ρ c) r hr).trans (arg_at28 m ρ c r hr)

theorem arg_at30 (c : Dev nD) (r : Ref sig .tc) (hr : r.idx.val < 42) :
    W30 m ρ c (Proc.devRef .tc r) = m ((c : Thread nD τ).loc r) :=
  (keep_region6 m ρ c r hr).trans (arg_at29 m ρ c r hr)

theorem arg_at31 (c : Dev nD) (r : Ref sig .tc) (hr : r.idx.val < 42) :
    W31 m ρ c (Proc.devRef .tc r) = m ((c : Thread nD τ).loc r) :=
  (keep_hostOps7 (W30 m ρ c) r hr).trans (arg_at30 m ρ c r hr)

theorem arg_at32 (c : Dev nD) (r : Ref sig .tc) (hr : r.idx.val < 42) :
    W32 m ρ c (Proc.devRef .tc r) = m ((c : Thread nD τ).loc r) :=
  (keep_hostOps7_1 (W31 m ρ c) r hr).trans (arg_at31 m ρ c r hr)

theorem arg_at33 (c : Dev nD) (r : Ref sig .tc) (hr : r.idx.val < 42) :
    W33 m ρ c (Proc.devRef .tc r) = m ((c : Thread nD τ).loc r) :=
  (keep_hostOps7_2 (W32 m ρ c) r hr).trans (arg_at32 m ρ c r hr)

theorem arg_at34 (c : Dev nD) (r : Ref sig .tc) (hr : r.idx.val < 42) :
    W34 m ρ c (Proc.devRef .tc r) = m ((c : Thread nD τ).loc r) :=
  (keep_hostOps7_3 (W33 m ρ c) r hr).trans (arg_at33 m ρ c r hr)

theorem arg_at35 (c : Dev nD) (r : Ref sig .tc) (hr : r.idx.val < 42) :
    W35 m ρ c (Proc.devRef .tc r) = m ((c : Thread nD τ).loc r) :=
  (keep_hostOps7_4 (W34 m ρ c) r hr).trans (arg_at34 m ρ c r hr)

theorem arg_at36 (c : Dev nD) (r : Ref sig .tc) (hr : r.idx.val < 42) :
    W36 m ρ c (Proc.devRef .tc r) = m ((c : Thread nD τ).loc r) :=
  (keep_region7 m ρ c r hr).trans (arg_at35 m ρ c r hr)

theorem arg_at37 (c : Dev nD) (r : Ref sig .tc) (hr : r.idx.val < 42) :
    W37 m ρ c (Proc.devRef .tc r) = m ((c : Thread nD τ).loc r) :=
  (keep_hostOps8 (W36 m ρ c) r hr).trans (arg_at36 m ρ c r hr)

theorem arg_at38 (c : Dev nD) (r : Ref sig .tc) (hr : r.idx.val < 42) :
    W38 m ρ c (Proc.devRef .tc r) = m ((c : Thread nD τ).loc r) :=
  (keep_hostOps8_1 (W37 m ρ c) r hr).trans (arg_at37 m ρ c r hr)

theorem arg_at39 (c : Dev nD) (r : Ref sig .tc) (hr : r.idx.val < 42) :
    W39 m ρ c (Proc.devRef .tc r) = m ((c : Thread nD τ).loc r) :=
  (keep_hostOps8_2 (W38 m ρ c) r hr).trans (arg_at38 m ρ c r hr)

theorem arg_at40 (c : Dev nD) (r : Ref sig .tc) (hr : r.idx.val < 42) :
    W40 m ρ c (Proc.devRef .tc r) = m ((c : Thread nD τ).loc r) :=
  (keep_hostOps8_3 (W39 m ρ c) r hr).trans (arg_at39 m ρ c r hr)

theorem arg_at41 (c : Dev nD) (r : Ref sig .tc) (hr : r.idx.val < 42) :
    W41 m ρ c (Proc.devRef .tc r) = m ((c : Thread nD τ).loc r) :=
  (keep_hostOps8_4 (W40 m ρ c) r hr).trans (arg_at40 m ρ c r hr)

theorem arg_at42 (c : Dev nD) (r : Ref sig .tc) (hr : r.idx.val < 42) :
    W42 m ρ c (Proc.devRef .tc r) = m ((c : Thread nD τ).loc r) :=
  (keep_region8 m ρ c r hr).trans (arg_at41 m ρ c r hr)

theorem arg_at43 (c : Dev nD) (r : Ref sig .tc) (hr : r.idx.val < 42) :
    W43 m ρ c (Proc.devRef .tc r) = m ((c : Thread nD τ).loc r) :=
  (keep_hostOps9 (W42 m ρ c) r hr).trans (arg_at42 m ρ c r hr)

theorem arg_at44 (c : Dev nD) (r : Ref sig .tc) (hr : r.idx.val < 42) :
    W44 m ρ c (Proc.devRef .tc r) = m ((c : Thread nD τ).loc r) :=
  (keep_region9 m ρ c r hr).trans (arg_at43 m ρ c r hr)

theorem arg_at45 (c : Dev nD) (r : Ref sig .tc) (hr : r.idx.val < 42) :
    W45 m ρ c (Proc.devRef .tc r) = m ((c : Thread nD τ).loc r) :=
  (keep_hostOps10 (W44 m ρ c) r hr).trans (arg_at44 m ρ c r hr)

theorem arg_at46 (c : Dev nD) (r : Ref sig .tc) (hr : r.idx.val < 42) :
    W46 m ρ c (Proc.devRef .tc r) = m ((c : Thread nD τ).loc r) :=
  (keep_region10 m ρ c r hr).trans (arg_at45 m ρ c r hr)

theorem arg_at47 (c : Dev nD) (r : Ref sig .tc) (hr : r.idx.val < 42) :
    W47 m ρ c (Proc.devRef .tc r) = m ((c : Thread nD τ).loc r) :=
  (keep_hostOps11 (W46 m ρ c) r hr).trans (arg_at46 m ρ c r hr)

theorem arg_at48 (c : Dev nD) (r : Ref sig .tc) (hr : r.idx.val < 42) :
    W48 m ρ c (Proc.devRef .tc r) = m ((c : Thread nD τ).loc r) :=
  (keep_hostOps11_1 (W47 m ρ c) r hr).trans (arg_at47 m ρ c r hr)

theorem arg_at49 (c : Dev nD) (r : Ref sig .tc) (hr : r.idx.val < 42) :
    W49 m ρ c (Proc.devRef .tc r) = m ((c : Thread nD τ).loc r) :=
  (keep_hostOps11_2 (W48 m ρ c) r hr).trans (arg_at48 m ρ c r hr)

theorem arg_at50 (c : Dev nD) (r : Ref sig .tc) (hr : r.idx.val < 42) :
    W50 m ρ c (Proc.devRef .tc r) = m ((c : Thread nD τ).loc r) :=
  (keep_hostOps11_3 (W49 m ρ c) r hr).trans (arg_at49 m ρ c r hr)

theorem arg_at51 (c : Dev nD) (r : Ref sig .tc) (hr : r.idx.val < 42) :
    W51 m ρ c (Proc.devRef .tc r) = m ((c : Thread nD τ).loc r) :=
  (keep_hostOps11_4 (W50 m ρ c) r hr).trans (arg_at50 m ρ c r hr)

theorem arg_at52 (c : Dev nD) (r : Ref sig .tc) (hr : r.idx.val < 42) :
    W52 m ρ c (Proc.devRef .tc r) = m ((c : Thread nD τ).loc r) :=
  (keep_region11 m ρ c r hr).trans (arg_at51 m ρ c r hr)

theorem arg_at53 (c : Dev nD) (r : Ref sig .tc) (hr : r.idx.val < 42) :
    W53 m ρ c (Proc.devRef .tc r) = m ((c : Thread nD τ).loc r) :=
  (keep_hostOps12 (W52 m ρ c) r hr).trans (arg_at52 m ρ c r hr)

theorem arg_at54 (c : Dev nD) (r : Ref sig .tc) (hr : r.idx.val < 42) :
    W54 m ρ c (Proc.devRef .tc r) = m ((c : Thread nD τ).loc r) :=
  (keep_hostOps12_1 (W53 m ρ c) r hr).trans (arg_at53 m ρ c r hr)

theorem arg_at55 (c : Dev nD) (r : Ref sig .tc) (hr : r.idx.val < 42) :
    W55 m ρ c (Proc.devRef .tc r) = m ((c : Thread nD τ).loc r) :=
  (keep_hostOps12_2 (W54 m ρ c) r hr).trans (arg_at54 m ρ c r hr)

theorem arg_at56 (c : Dev nD) (r : Ref sig .tc) (hr : r.idx.val < 42) :
    W56 m ρ c (Proc.devRef .tc r) = m ((c : Thread nD τ).loc r) :=
  (keep_hostOps12_3 (W55 m ρ c) r hr).trans (arg_at55 m ρ c r hr)

theorem arg_at57 (c : Dev nD) (r : Ref sig .tc) (hr : r.idx.val < 42) :
    W57 m ρ c (Proc.devRef .tc r) = m ((c : Thread nD τ).loc r) :=
  (keep_hostOps12_4 (W56 m ρ c) r hr).trans (arg_at56 m ρ c r hr)

theorem arg_at58 (c : Dev nD) (r : Ref sig .tc) (hr : r.idx.val < 42) :
    W58 m ρ c (Proc.devRef .tc r) = m ((c : Thread nD τ).loc r) :=
  (keep_region12 m ρ c r hr).trans (arg_at57 m ρ c r hr)

theorem arg_at59 (c : Dev nD) (r : Ref sig .tc) (hr : r.idx.val < 42) :
    W59 m ρ c (Proc.devRef .tc r) = m ((c : Thread nD τ).loc r) :=
  (keep_hostOps13 (W58 m ρ c) r hr).trans (arg_at58 m ρ c r hr)

theorem arg_at60 (c : Dev nD) (r : Ref sig .tc) (hr : r.idx.val < 42) :
    W60 m ρ c (Proc.devRef .tc r) = m ((c : Thread nD τ).loc r) :=
  (keep_region13 m ρ c r hr).trans (arg_at59 m ρ c r hr)

theorem arg_at61 (c : Dev nD) (r : Ref sig .tc) (hr : r.idx.val < 42) :
    W61 m ρ c (Proc.devRef .tc r) = m ((c : Thread nD τ).loc r) :=
  (keep_hostOps14 (W60 m ρ c) r hr).trans (arg_at60 m ρ c r hr)

theorem arg_at62 (c : Dev nD) (r : Ref sig .tc) (hr : r.idx.val < 42) :
    W62 m ρ c (Proc.devRef .tc r) = m ((c : Thread nD τ).loc r) :=
  (keep_region14 m ρ c r hr).trans (arg_at61 m ρ c r hr)

theorem arg_at63 (c : Dev nD) (r : Ref sig .tc) (hr : r.idx.val < 42) :
    W63 m ρ c (Proc.devRef .tc r) = m ((c : Thread nD τ).loc r) :=
  (keep_hostOps15 (W62 m ρ c) r hr).trans (arg_at62 m ρ c r hr)

theorem arg_at64 (c : Dev nD) (r : Ref sig .tc) (hr : r.idx.val < 42) :
    W64 m ρ c (Proc.devRef .tc r) = m ((c : Thread nD τ).loc r) :=
  (keep_region15 m ρ c r hr).trans (arg_at63 m ρ c r hr)

theorem arg_at65 (c : Dev nD) (r : Ref sig .tc) (hr : r.idx.val < 42) :
    W65 m ρ c (Proc.devRef .tc r) = m ((c : Thread nD τ).loc r) :=
  (keep_hostOps16 (W64 m ρ c) r hr).trans (arg_at64 m ρ c r hr)

theorem arg_at66 (c : Dev nD) (r : Ref sig .tc) (hr : r.idx.val < 42) :
    W66 m ρ c (Proc.devRef .tc r) = m ((c : Thread nD τ).loc r) :=
  (keep_region16 m ρ c r hr).trans (arg_at65 m ρ c r hr)

end Cert.KernelIdeal.GenP

end
-- ==== Proof.RefRun.lean ====
/-
  The reference's run, with every buffer's final contents stated as the fold of its 601 operations over the launch
  contents (rather than as one composed term): the form in which the run can be cut into lines.
-/
import proofs.«153485_j59545426592079_1_alg».proof.Proof.RefOps
import Idealize.ShloMosaic.PureOps.Ideal

set_option maxRecDepth 16384

noncomputable section

namespace Cert.ReferenceIdeal.Folded

open Cert.ReferenceIdeal Cert.ReferenceIdeal.Gen Cert.ReferenceIdeal.ValueP
open Idealize.ShloMosaic Idealize.ShloMosaic.TcCoe Idealize.SL.Sem Idealize.ShloMosaic.StableHlo

set_option maxHeartbeats 40000000 in
/-- Every weakly fair execution of the reference terminates with each buffer at the operations' fold over its launch
    contents. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after (ops (F := Ideal)) (launchContents m d) (Proc.devRef .tc b) :=
  run_seq scopedRefs_eq scopedSems_eq defs main (fun _ => ops) main_eq (fun _ => ops_sub) m ρ

end Cert.ReferenceIdeal.Folded

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«153485_j59545426592079_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«153485_j59545426592079_1_alg».proof.Proof.LibPlainDot
import proofs.«153485_j59545426592079_1_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.LibBiasRow.lean ====
/-
  A bias vector as one row, and a row added to every row, for any sizes.

  A vector b of d entries becomes the one-row matrix whose entry (0, j) is b j either by a reshape ([d] viewed as [1, d])
  or by a broadcast in dimension along the second axis ([d] to [1, d] with dims = [1]): the same matrix. A one-row matrix
  broadcast in dimension to n rows (dims = [0, 1]) and added entry by entry to an n-row matrix is that row added to every
  row (`Cert.Spec.addRow`).
-/
import Idealize.ShloMosaic.Lib.ValueIdx
import Idealize.ShloMosaic.Lib.Pipeline.Value
import Idealize.ShloMosaic.PureOps.Ideal
import proofs.«153485_j59545426592079_1_alg».proof.Proof.LibMatOps

noncomputable section

namespace Cert.LibBiasRow

open Idealize.ShloMosaic Idealize.ShloMosaic.ValueIdx Cert.Spec

variable {α : Type} {n d : ℕ}

/-- A [d] vector viewed as [1, d] reads, at (u, j), the vector at j. -/
theorem shapeCast_d_1d_apply (x : (⟨1, ![d]⟩ : Shape).Idx → α) (h : (⟨1, ![d]⟩ : Shape).ShapeCasts ⟨2, ![1, d]⟩)
    (u : Fin 1) (j : Fin d) : shapeCast ⟨2, ![1, d]⟩ x h (ix2 u j) = x (ix1 j) :=
  shapeCast_apply x h _ _ (by
    have hu : u.val = 0 := by omega
    rw [Shape.rowMajor_val_two, Shape.rowMajor_val_one]
    show j.val = u.val * d + j.val
    rw [hu, Nat.zero_mul, Nat.zero_add])

/-- A [d] vector broadcast in dimension to [1, d] along the second axis reads, at (u, j), the vector at j. -/
theorem broadcastInDim_d_1d_apply (x : (⟨1, ![d]⟩ : Shape).Idx → α)
    (h : (⟨1, ![d]⟩ : Shape).BroadcastsInDim ⟨2, ![1, d]⟩ ![1]) (u : Fin 1) (j : Fin d) :
    broadcastInDim ⟨2, ![1, d]⟩ ![1] h x (ix2 u j) = x (ix1 j) := by
  refine broadcastInDim_apply _ h x (ix2 u j) (ix1 j) fun a => ?_
  match a with
  | ⟨0, _⟩ =>
    show j.val = if d = 1 then 0 else j.val
    split
    · have := j.isLt; omega
    · rfl

/-- The reshape and the broadcast in dimension give the same one-row matrix. -/
theorem shapeCast_eq_broadcastInDim (x : (⟨1, ![d]⟩ : Shape).Idx → α) (h : (⟨1, ![d]⟩ : Shape).ShapeCasts ⟨2, ![1, d]⟩)
    (hb : (⟨1, ![d]⟩ : Shape).BroadcastsInDim ⟨2, ![1, d]⟩ ![1]) :
    shapeCast ⟨2, ![1, d]⟩ x h = broadcastInDim ⟨2, ![1, d]⟩ ![1] hb x := by
  funext i
  obtain ⟨u, j, rfl⟩ : ∃ (u : Fin 1) (j : Fin d), i = ix2 u j := ⟨i 0, i 1, eq_ix2 i⟩
  rw [shapeCast_d_1d_apply, broadcastInDim_d_1d_apply]

/-- A one-row matrix broadcast in dimension to n rows reads, at (p, j), the row's entry j. -/
theorem broadcastInDim_1d_nd_apply (v : (⟨2, ![1, d]⟩ : Shape).Idx → α)
    (h : (⟨2, ![1, d]⟩ : Shape).BroadcastsInDim ⟨2, ![n, d]⟩ ![0, 1]) (p : Fin n) (j : Fin d) :
    broadcastInDim ⟨2, ![n, d]⟩ ![0, 1] h v (ix2 p j) = v (ix2 (0 : Fin 1) j) := by
  refine broadcastInDim_apply _ h v (ix2 p j) (ix2 (0 : Fin 1) j) fun a => ?_
  match a with
  | ⟨0, _⟩ =>
    show 0 = if 1 = 1 then 0 else p.val
    rfl
  | ⟨1, _⟩ =>
    show j.val = if d = 1 then 0 else j.val
    split
    · have := j.isLt; omega
    · rfl

/-- Adding the broadcast row entry by entry is adding the row to every row. -/
theorem addf_broadcastInDim_eq_addRow (X : FVec Ideal ⟨2, ![n, d]⟩ .f32) (Bv : FVec Ideal ⟨2, ![1, d]⟩ .f32)
    (h : (⟨2, ![1, d]⟩ : Shape).BroadcastsInDim ⟨2, ![n, d]⟩ ![0, 1]) :
    addf X (broadcastInDim ⟨2, ![n, d]⟩ ![0, 1] h Bv) = addRow X Bv := by
  funext i
  obtain ⟨p, j, rfl⟩ : ∃ (p : Fin n) (j : Fin d), i = ix2 p j := ⟨i 0, i 1, eq_ix2 i⟩
  show X (ix2 p j) + broadcastInDim ⟨2, ![n, d]⟩ ![0, 1] h Bv (ix2 p j) = _
  rw [broadcastInDim_1d_nd_apply, addRow_apply]

end Cert.LibBiasRow

end
-- ==== Proof.LibDenseBody.lean ====
/-
  A dense layer over the extended reals, for any sizes:  dense X W B = X · W with the one row B added to every row.

  Read at the exact extended reals, where a change of float format is the identity, the body of a row-tiled dense
  kernel — the two operands narrowed, their matrix-unit product into the zero accumulator, the bias row repeated over
  the rows and added, optionally the maximum with a zero splat — is `dense` of its three blocks, or its positive
  part.  Entry (p, j) of `dense X W B` reads row p of X only, so a block of rows of X gives the same rows of the
  result.  On the host, a `dot_general` followed by the addition of the bias broadcast over the rows is the same
  `dense`, and a zero row adds nothing.
-/
import Idealize.ShloMosaic.Lib.ValueIdx
import Idealize.ShloMosaic.Lib.Pipeline.Value
import Idealize.ShloMosaic.Lib.ValueLayout
import Idealize.ShloMosaic.PureOps.Ideal.Laws
import proofs.«153485_j59545426592079_1_alg».proof.Proof.LibGcn
import proofs.«153485_j59545426592079_1_alg».proof.Proof.LibBiasRow

noncomputable section

open scoped BigOperators

namespace Cert.LibDenseBody

open Idealize.ShloMosaic Idealize.ShloMosaic.ValueIdx Cert.Spec Cert.LibGcn

variable {n N k d : ℕ}

/-- X · W with the row B added to every row. -/
def dense (X : Mat n k) (W : Mat k d) (B : Mat 1 d) : Mat n d := addRow (mm X W) B

theorem dense_apply (X : Mat n k) (W : Mat k d) (B : Mat 1 d) (p : Fin n) (j : Fin d) :
    dense X W B (ix2 p j) = (∑ q : Fin k, X (ix2 p q) * W (ix2 q j)) + B (ix2 (0 : Fin 1) j) := rfl

/-- Row p of a dense layer reads row p of its input only. -/
theorem dense_rows (X' : Mat n k) (X : Mat N k) (W : Mat k d) (B : Mat 1 d) (p : Fin n) (p' : Fin N) (j : Fin d)
    (hX : ∀ s : Fin k, X' (ix2 p s) = X (ix2 p' s)) : dense X' W B (ix2 p j) = dense X W B (ix2 p' j) := by
  rw [dense_apply, dense_apply]
  exact congrArg (· + B (ix2 (0 : Fin 1) j)) (Finset.sum_congr rfl fun s _ => by rw [hX s])

/-- The same after the positive part. -/
theorem relu_dense_rows (X' : Mat n k) (X : Mat N k) (W : Mat k d) (B : Mat 1 d) (p : Fin n) (p' : Fin N) (j : Fin d)
    (hX : ∀ s : Fin k, X' (ix2 p s) = X (ix2 p' s)) :
    relu (dense X' W B) (ix2 p j) = relu (dense X W B) (ix2 p' j) := by
  rw [relu_apply, relu_apply, dense_rows X' X W B p p' j hX]

/-- Entry (p, j) of a dense layer of blocks — a block of rows of the input, the whole weight, the whole bias row — is
    entry (p', j) of the layer of the whole arrays, p' the block's row p in the whole input. -/
theorem dense_blocks (X' : Mat n k) (X : Mat N k) (W' W : Mat k d) (B' B : Mat 1 d) (p : Fin n) (p' : Fin N) (j : Fin d)
    (hX : ∀ s : Fin k, X' (ix2 p s) = X (ix2 p' s)) (hW : ∀ s : Fin k, W' (ix2 s j) = W (ix2 s j))
    (hB : B' (ix2 (0 : Fin 1) j) = B (ix2 (0 : Fin 1) j)) : dense X' W' B' (ix2 p j) = dense X W B (ix2 p' j) := by
  rw [dense_apply, dense_apply, hB]
  exact congrArg (· + B (ix2 (0 : Fin 1) j)) (Finset.sum_congr rfl fun s _ => by rw [hX s, hW s])

/-- The same after the positive part. -/
theorem relu_dense_blocks (X' : Mat n k) (X : Mat N k) (W' W : Mat k d) (B' B : Mat 1 d) (p : Fin n) (p' : Fin N) (j : Fin d)
    (hX : ∀ s : Fin k, X' (ix2 p s) = X (ix2 p' s)) (hW : ∀ s : Fin k, W' (ix2 s j) = W (ix2 s j))
    (hB : B' (ix2 (0 : Fin 1) j) = B (ix2 (0 : Fin 1) j)) :
    relu (dense X' W' B') (ix2 p j) = relu (dense X W B) (ix2 p' j) := by
  rw [relu_apply, relu_apply, dense_blocks X' X W' W B' B p p' j hX hW hB]

/-- The origin of a two-axis rectangle, as the constant-zero family of coordinates. -/
theorem zero2 : (![0, 0] : Fin 2 → Nat) = fun _ => 0 := funext fun a => by fin_cases a <;> rfl

/-- The kernel body without the maximum: narrowed operands, the product into zero, the bias row repeated and added. -/
theorem body_dense (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32) (B : FVec Ideal ⟨2, ![1, d]⟩ .f32)
    (hx : (FTy.bf16).bits < (FTy.f32).bits)
    (h₁ h₂ : (⟨2, ![1, d]⟩ : Shape).ShapeCasts ⟨2, ![1, d]⟩) (hb : (⟨2, ![1, d]⟩ : Shape).Broadcasts ⟨2, ![n, d]⟩) :
    addf (matmul D none (truncf .bf16 X hx) (truncf .bf16 W hx) (constant (F := Ideal) ⟨2, ![n, d]⟩ .f32 0x00000000#32))
        (broadcastTo ⟨2, ![n, d]⟩ (shapeCast ⟨2, ![1, d]⟩ (shapeCast ⟨2, ![1, d]⟩ B h₁) h₂) hb) = dense X W B := by
  funext i
  obtain ⟨p, c, rfl⟩ : ∃ (p : Fin n) (c : Fin d), i = ix2 p c := ⟨i 0, i 1, eq_ix2 i⟩
  rw [addf_apply, broadcastTo_1b_ab_apply, shapeCast_self, shapeCast_self]
  exact congrArg (· + B (ix2 (0 : Fin 1) c)) (Cert.LibPlainDot.matmul_zero_apply D hD none (truncf .bf16 X hx) (truncf .bf16 W hx) p c)

/-- The kernel body with the maximum against a zero splat. -/
theorem body_dense_relu (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32) (B : FVec Ideal ⟨2, ![1, d]⟩ .f32)
    (hx : (FTy.bf16).bits < (FTy.f32).bits)
    (h₁ h₂ : (⟨2, ![1, d]⟩ : Shape).ShapeCasts ⟨2, ![1, d]⟩) (hb : (⟨2, ![1, d]⟩ : Shape).Broadcasts ⟨2, ![n, d]⟩) :
    maximumf (addf (matmul D none (truncf .bf16 X hx) (truncf .bf16 W hx) (constant (F := Ideal) ⟨2, ![n, d]⟩ .f32 0x00000000#32))
        (broadcastTo ⟨2, ![n, d]⟩ (shapeCast ⟨2, ![1, d]⟩ (shapeCast ⟨2, ![1, d]⟩ B h₁) h₂) hb))
      (broadcast ⟨2, ![n, d]⟩ (Scalar.ofBits .f32 0x00000000#32 : Ideal .f32)) = relu (dense X W B) := by
  rw [body_dense D hD X W B hx h₁ h₂ hb]
  exact max_splat_zero (dense X W B)

/-- A zero row adds nothing: with the bias row a zero constant of any shape recast, the layer is the product alone. -/
theorem dense_zero_row (X : Mat n k) (W : Mat k d) (B : Mat 1 d) (hB : ∀ j : Fin d, B (ix2 (0 : Fin 1) j) = 0) :
    dense X W B = mm X W := by
  funext i
  obtain ⟨p, c, rfl⟩ : ∃ (p : Fin n) (c : Fin d), i = ix2 p c := ⟨i 0, i 1, eq_ix2 i⟩
  rw [dense_apply, hB c, add_zero, mm_apply]

/-- A zero constant of any shape broadcast in dimension to a vector and recast as one row is a zero row. -/
theorem zero_row {s0 : Shape} (dims : Fin s0.rank → Fin (⟨1, ![d]⟩ : Shape).rank) (hb : s0.BroadcastsInDim ⟨1, ![d]⟩ dims)
    (hs : (⟨1, ![d]⟩ : Shape).ShapeCasts ⟨2, ![1, d]⟩) (j : Fin d) :
    shapeCast ⟨2, ![1, d]⟩ (broadcastInDim ⟨1, ![d]⟩ dims hb (constant (F := Ideal) s0 .f32 0x00000000#32)) hs (ix2 (0 : Fin 1) j) = 0 := by
  rw [Cert.LibBiasRow.shapeCast_d_1d_apply]
  unfold broadcastInDim
  show Ideal.ofBits .f32 0x00000000#32 = 0
  exact Ideal.ofBits_zero_f32

/-- On the host, a layer without bias — a `dot_general` alone — is the dense layer with that zero row. -/
theorem host_gcn {s0 : Shape} (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32)
    (dims : Fin s0.rank → Fin (⟨1, ![d]⟩ : Shape).rank) (hb : s0.BroadcastsInDim ⟨1, ![d]⟩ dims)
    (hs : (⟨1, ![d]⟩ : Shape).ShapeCasts ⟨2, ![1, d]⟩) :
    Host.dotGeneral D none X W
      = dense X W (shapeCast ⟨2, ![1, d]⟩ (broadcastInDim ⟨1, ![d]⟩ dims hb (constant (F := Ideal) s0 .f32 0x00000000#32)) hs) := by
  rw [dense_zero_row X W _ (zero_row dims hb hs)]
  exact dotGeneral_eq_mm D hD none X W

/-- On the host, a layer with bias — a `dot_general`, the bias broadcast to one row and over the rows, the sum — is the
    dense layer with the bias recast as one row. -/
theorem host_dense (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32) (b : FVec Ideal ⟨1, ![d]⟩ .f32)
    (h₁ : (⟨1, ![d]⟩ : Shape).BroadcastsInDim ⟨2, ![1, d]⟩ ![1])
    (h₂ : (⟨2, ![1, d]⟩ : Shape).BroadcastsInDim ⟨2, ![n, d]⟩ ![0, 1])
    (hs : (⟨1, ![d]⟩ : Shape).ShapeCasts ⟨2, ![1, d]⟩) :
    addf (Host.dotGeneral D none X W) (broadcastInDim ⟨2, ![n, d]⟩ ![0, 1] h₂ (broadcastInDim ⟨2, ![1, d]⟩ ![1] h₁ b))
      = dense X W (shapeCast ⟨2, ![1, d]⟩ b hs) := by
  rw [Cert.LibBiasRow.addf_broadcastInDim_eq_addRow, dotGeneral_eq_mm D hD, Cert.LibBiasRow.shapeCast_eq_broadcastInDim b hs h₁]
  rfl

/-- The same followed by the maximum with a zero constant broadcast in dimension. -/
theorem host_dense_relu {s0 : Shape} (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32) (b : FVec Ideal ⟨1, ![d]⟩ .f32)
    (h₁ : (⟨1, ![d]⟩ : Shape).BroadcastsInDim ⟨2, ![1, d]⟩ ![1])
    (h₂ : (⟨2, ![1, d]⟩ : Shape).BroadcastsInDim ⟨2, ![n, d]⟩ ![0, 1])
    (hs : (⟨1, ![d]⟩ : Shape).ShapeCasts ⟨2, ![1, d]⟩)
    (dims : Fin s0.rank → Fin (⟨2, ![n, d]⟩ : Shape).rank) (hz : s0.BroadcastsInDim ⟨2, ![n, d]⟩ dims) :
    maximumf (addf (Host.dotGeneral D none X W) (broadcastInDim ⟨2, ![n, d]⟩ ![0, 1] h₂ (broadcastInDim ⟨2, ![1, d]⟩ ![1] h₁ b)))
        (broadcastInDim ⟨2, ![n, d]⟩ dims hz (constant (F := Ideal) s0 .f32 0x00000000#32))
      = relu (dense X W (shapeCast ⟨2, ![1, d]⟩ b hs)) := by
  rw [host_dense D hD X W b h₁ h₂ hs]
  exact max_bcast_zero dims hz _

end Cert.LibDenseBody

end
-- ==== Proof.DenseOps.lean ====
/-
  The kernel program's seventeen regions as host operations.

  Each region is a dense layer  X · W + B  (for some, followed by the positive part) of the array in its first
  window against the weight in its second and the one-row bias in its third, written to the array of its fourth.
  Read at the exact extended reals such a region changes the buffers exactly as a host operation with that result
  would.  Here are those seventeen operations, and the kernel program's @main cut into seventeen lines of host
  operations, line k ending with operation k.
-/
import proofs.«153485_j59545426592079_1_alg».proof.KernelIdeal
import proofs.«153485_j59545426592079_1_alg».proof.Proof.Gen.KernelIdeal.Launch
import proofs.«153485_j59545426592079_1_alg».proof.Proof.LibDenseBody
import Idealize.ShloMosaic.Lib.StableHlo.Run

noncomputable section

namespace Cert.KernelIdeal.Dense

open Idealize.ShloMosaic Idealize.ShloMosaic.TcCoe Cert.KernelIdeal Cert.KernelIdeal.Gen Cert.Spec Cert.LibDenseBody

/-- Region 0 as a host operation: `main_v6` becomes the dense layer of `main_arg0` against `main_arg2` with the bias row `main_v5`. -/
def dop0 : HloOp τ sig (Elt Ideal) :=
  StableHlo.ternary main_arg0 main_arg2 main_v5 main_v6
    ((fun X W B => dense (n := 65536) (k := 78) (d := 156) X W B) : (⟨S65536x78, .f32⟩ : BufTy).Contents (Elt Ideal) → (⟨S78x156, .f32⟩ : BufTy).Contents (Elt Ideal) → (⟨S1x156, .f32⟩ : BufTy).Contents (Elt Ideal) → (⟨S65536x156, .f32⟩ : BufTy).Contents (Elt Ideal))

/-- Region 1 as a host operation: `main_v54` becomes the dense layer of `main_v51` against `main_arg4` with the bias row `main_v53`. -/
def dop1 : HloOp τ sig (Elt Ideal) :=
  StableHlo.ternary main_v51 main_arg4 main_v53 main_v54
    ((fun X W B => dense (n := 65536) (k := 156) (d := 312) X W B) : (⟨S65536x156, .f32⟩ : BufTy).Contents (Elt Ideal) → (⟨S156x312, .f32⟩ : BufTy).Contents (Elt Ideal) → (⟨S1x312, .f32⟩ : BufTy).Contents (Elt Ideal) → (⟨S65536x312, .f32⟩ : BufTy).Contents (Elt Ideal))

/-- Region 2 as a host operation: `main_v102` becomes the dense layer of `main_v99` against `main_arg6` with the bias row `main_v101`. -/
def dop2 : HloOp τ sig (Elt Ideal) :=
  StableHlo.ternary main_v99 main_arg6 main_v101 main_v102
    ((fun X W B => dense (n := 65536) (k := 312) (d := 128) X W B) : (⟨S65536x312, .f32⟩ : BufTy).Contents (Elt Ideal) → (⟨S312x128, .f32⟩ : BufTy).Contents (Elt Ideal) → (⟨S1x128, .f32⟩ : BufTy).Contents (Elt Ideal) → (⟨S65536x128, .f32⟩ : BufTy).Contents (Elt Ideal))

/-- Region 3 as a host operation: `main_v161` becomes the positive part of the dense layer of `main_v159` against `main_arg8` with the bias row `main_v160`. -/
def dop3 : HloOp τ sig (Elt Ideal) :=
  StableHlo.ternary main_v159 main_arg8 main_v160 main_v161
    ((fun X W B => relu (dense (n := 2048) (k := 128) (d := 1024) X W B)) : (⟨S2048x128, .f32⟩ : BufTy).Contents (Elt Ideal) → (⟨S128x1024, .f32⟩ : BufTy).Contents (Elt Ideal) → (⟨S1x1024, .f32⟩ : BufTy).Contents (Elt Ideal) → (⟨S2048x1024, .f32⟩ : BufTy).Contents (Elt Ideal))

/-- Region 4 as a host operation: `main_v163` becomes the dense layer of `main_v161` against `main_arg10` with the bias row `main_v162`. -/
def dop4 : HloOp τ sig (Elt Ideal) :=
  StableHlo.ternary main_v161 main_arg10 main_v162 main_v163
    ((fun X W B => dense (n := 2048) (k := 1024) (d := 128) X W B) : (⟨S2048x1024, .f32⟩ : BufTy).Contents (Elt Ideal) → (⟨S1024x128, .f32⟩ : BufTy).Contents (Elt Ideal) → (⟨S1x128, .f32⟩ : BufTy).Contents (Elt Ideal) → (⟨S2048x128, .f32⟩ : BufTy).Contents (Elt Ideal))

/-- Region 5 as a host operation: `main_v170` becomes the dense layer of `main_arg1` against `main_arg12` with the bias row `main_v169`. -/
def dop5 : HloOp τ sig (Elt Ideal) :=
  StableHlo.ternary main_arg1 main_arg12 main_v169 main_v170
    ((fun X W B => dense (n := 300000) (k := 33) (d := 128) X W B) : (⟨S300000x33, .f32⟩ : BufTy).Contents (Elt Ideal) → (⟨S33x128, .f32⟩ : BufTy).Contents (Elt Ideal) → (⟨S1x128, .f32⟩ : BufTy).Contents (Elt Ideal) → (⟨S300000x128, .f32⟩ : BufTy).Contents (Elt Ideal))

/-- Region 6 as a host operation: `main_v218` becomes the dense layer of `main_v215` against `main_arg14` with the bias row `main_v217`. -/
def dop6 : HloOp τ sig (Elt Ideal) :=
  StableHlo.ternary main_v215 main_arg14 main_v217 main_v218
    ((fun X W B => dense (n := 300000) (k := 128) (d := 128) X W B) : (⟨S300000x128, .f32⟩ : BufTy).Contents (Elt Ideal) → (⟨S128x128, .f32⟩ : BufTy).Contents (Elt Ideal) → (⟨S1x128, .f32⟩ : BufTy).Contents (Elt Ideal) → (⟨S300000x128, .f32⟩ : BufTy).Contents (Elt Ideal))

/-- Region 7 as a host operation: `main_v266` becomes the dense layer of `main_v263` against `main_arg16` with the bias row `main_v265`. -/
def dop7 : HloOp τ sig (Elt Ideal) :=
  StableHlo.ternary main_v263 main_arg16 main_v265 main_v266
    ((fun X W B => dense (n := 300000) (k := 128) (d := 128) X W B) : (⟨S300000x128, .f32⟩ : BufTy).Contents (Elt Ideal) → (⟨S128x128, .f32⟩ : BufTy).Contents (Elt Ideal) → (⟨S1x128, .f32⟩ : BufTy).Contents (Elt Ideal) → (⟨S300000x128, .f32⟩ : BufTy).Contents (Elt Ideal))

/-- Region 8 as a host operation: `main_v325` becomes the positive part of the dense layer of `main_v323` against `main_arg18` with the bias row `main_v324`. -/
def dop8 : HloOp τ sig (Elt Ideal) :=
  StableHlo.ternary main_v323 main_arg18 main_v324 main_v325
    ((fun X W B => relu (dense (n := 2000) (k := 128) (d := 1024) X W B)) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))

/-- Region 9 as a host operation: `main_v327` becomes the dense layer of `main_v325` against `main_arg20` with the bias row `main_v326`. -/
def dop9 : HloOp τ sig (Elt Ideal) :=
  StableHlo.ternary main_v325 main_arg20 main_v326 main_v327
    ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))

/-- Region 10 as a host operation: `main_v334` becomes the dense layer of `main_v327` against `main_arg22` with the bias row `main_v333`. -/
def dop10 : HloOp τ sig (Elt Ideal) :=
  StableHlo.ternary main_v327 main_arg22 main_v333 main_v334
    ((fun X W B => dense (n := 2000) (k := 128) (d := 1024) X W B) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))

/-- Region 11 as a host operation: `main_v382` becomes the dense layer of `main_v379` against `main_arg24` with the bias row `main_v381`. -/
def dop11 : HloOp τ sig (Elt Ideal) :=
  StableHlo.ternary main_v379 main_arg24 main_v381 main_v382
    ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))

/-- Region 12 as a host operation: `main_v429` becomes the positive part of the dense layer of `main_v427` against `main_arg26` with the bias row `main_v428`. -/
def dop12 : HloOp τ sig (Elt Ideal) :=
  StableHlo.ternary main_v427 main_arg26 main_v428 main_v429
    ((fun X W B => relu (dense (n := 2000) (k := 128) (d := 1024) X W B)) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))

/-- Region 13 as a host operation: `main_v431` becomes the dense layer of `main_v429` against `main_arg28` with the bias row `main_v430`. -/
def dop13 : HloOp τ sig (Elt Ideal) :=
  StableHlo.ternary main_v429 main_arg28 main_v430 main_v431
    ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))

/-- Region 14 as a host operation: `main_v441` becomes the positive part of the dense layer of `main_v439` against `main_arg30` with the bias row `main_v440`. -/
def dop14 : HloOp τ sig (Elt Ideal) :=
  StableHlo.ternary main_v439 main_arg30 main_v440 main_v441
    ((fun X W B => relu (dense (n := 2048) (k := 256) (d := 1024) X W B)) : (⟨S2048x256, .f32⟩ : BufTy).Contents (Elt Ideal) → (⟨S256x1024, .f32⟩ : BufTy).Contents (Elt Ideal) → (⟨S1x1024, .f32⟩ : BufTy).Contents (Elt Ideal) → (⟨S2048x1024, .f32⟩ : BufTy).Contents (Elt Ideal))

/-- Region 15 as a host operation: `main_v443` becomes the positive part of the dense layer of `main_v441` against `main_arg32` with the bias row `main_v442`. -/
def dop15 : HloOp τ sig (Elt Ideal) :=
  StableHlo.ternary main_v441 main_arg32 main_v442 main_v443
    ((fun X W B => relu (dense (n := 2048) (k := 1024) (d := 512) X W B)) : (⟨S2048x1024, .f32⟩ : BufTy).Contents (Elt Ideal) → (⟨S1024x512, .f32⟩ : BufTy).Contents (Elt Ideal) → (⟨S1x512, .f32⟩ : BufTy).Contents (Elt Ideal) → (⟨S2048x512, .f32⟩ : BufTy).Contents (Elt Ideal))

/-- Region 16 as a host operation: `main_v445` becomes the dense layer of `main_v443` against `main_arg34` with the bias row `main_v444`. -/
def dop16 : HloOp τ sig (Elt Ideal) :=
  StableHlo.ternary main_v443 main_arg34 main_v444 main_v445
    ((fun X W B => dense (n := 2048) (k := 512) (d := 1) X W B) : (⟨S2048x512, .f32⟩ : BufTy).Contents (Elt Ideal) → (⟨S512x1, .f32⟩ : BufTy).Contents (Elt Ideal) → (⟨S1x1, .f32⟩ : BufTy).Contents (Elt Ideal) → (⟨S2048x1, .f32⟩ : BufTy).Contents (Elt Ideal))

/-- Line 0: the host operations before region 0, then the region. -/
abbrev kseg0 : List (HloOp τ sig (Elt Ideal)) :=
  hostOps0 ++ ([dop0])
/-- Line 1: the host operations before region 1, then the region. -/
abbrev kseg1 : List (HloOp τ sig (Elt Ideal)) :=
  hostOps1 ++ (hostOps1_1 ++ (hostOps1_2 ++ (hostOps1_3 ++ (hostOps1_4 ++ ([dop1])))))
/-- Line 2: the host operations before region 2, then the region. -/
abbrev kseg2 : List (HloOp τ sig (Elt Ideal)) :=
  hostOps2 ++ (hostOps2_1 ++ (hostOps2_2 ++ (hostOps2_3 ++ (hostOps2_4 ++ ([dop2])))))
/-- Line 3: the host operations before region 3, then the region. -/
abbrev kseg3 : List (HloOp τ sig (Elt Ideal)) :=
  hostOps3 ++ (hostOps3_1 ++ (hostOps3_2 ++ (hostOps3_3 ++ (hostOps3_4 ++ ([dop3])))))
/-- Line 4: the host operations before region 4, then the region. -/
abbrev kseg4 : List (HloOp τ sig (Elt Ideal)) :=
  hostOps4 ++ ([dop4])
/-- Line 5: the host operations before region 5, then the region. -/
abbrev kseg5 : List (HloOp τ sig (Elt Ideal)) :=
  hostOps5 ++ ([dop5])
/-- Line 6: the host operations before region 6, then the region. -/
abbrev kseg6 : List (HloOp τ sig (Elt Ideal)) :=
  hostOps6 ++ (hostOps6_1 ++ (hostOps6_2 ++ (hostOps6_3 ++ (hostOps6_4 ++ ([dop6])))))
/-- Line 7: the host operations before region 7, then the region. -/
abbrev kseg7 : List (HloOp τ sig (Elt Ideal)) :=
  hostOps7 ++ (hostOps7_1 ++ (hostOps7_2 ++ (hostOps7_3 ++ (hostOps7_4 ++ ([dop7])))))
/-- Line 8: the host operations before region 8, then the region. -/
abbrev kseg8 : List (HloOp τ sig (Elt Ideal)) :=
  hostOps8 ++ (hostOps8_1 ++ (hostOps8_2 ++ (hostOps8_3 ++ (hostOps8_4 ++ ([dop8])))))
/-- Line 9: the host operations before region 9, then the region. -/
abbrev kseg9 : List (HloOp τ sig (Elt Ideal)) :=
  hostOps9 ++ ([dop9])
/-- Line 10: the host operations before region 10, then the region. -/
abbrev kseg10 : List (HloOp τ sig (Elt Ideal)) :=
  hostOps10 ++ ([dop10])
/-- Line 11: the host operations before region 11, then the region. -/
abbrev kseg11 : List (HloOp τ sig (Elt Ideal)) :=
  hostOps11 ++ (hostOps11_1 ++ (hostOps11_2 ++ (hostOps11_3 ++ (hostOps11_4 ++ ([dop11])))))
/-- Line 12: the host operations before region 12, then the region. -/
abbrev kseg12 : List (HloOp τ sig (Elt Ideal)) :=
  hostOps12 ++ (hostOps12_1 ++ (hostOps12_2 ++ (hostOps12_3 ++ (hostOps12_4 ++ ([dop12])))))
/-- Line 13: the host operations before region 13, then the region. -/
abbrev kseg13 : List (HloOp τ sig (Elt Ideal)) :=
  hostOps13 ++ ([dop13])
/-- Line 14: the host operations before region 14, then the region. -/
abbrev kseg14 : List (HloOp τ sig (Elt Ideal)) :=
  hostOps14 ++ ([dop14])
/-- Line 15: the host operations before region 15, then the region. -/
abbrev kseg15 : List (HloOp τ sig (Elt Ideal)) :=
  hostOps15 ++ ([dop15])
/-- Line 16: the host operations before region 16, then the region. -/
abbrev kseg16 : List (HloOp τ sig (Elt Ideal)) :=
  hostOps16 ++ ([dop16])

end Cert.KernelIdeal.Dense

end
-- ==== Proof.Region0.lean ====
/-
  Kernel region 0: a dense layer of a 65536 × 78 array against a 78 × 156 weight and a one-row bias, in 16 tiles of 4096 rows.

  Tile t reads rows 4096·t … 4096·t + 4095 of the input and the whole weight and bias, and writes the same rows of the
  output.  Entry (p, j) of the layer reads row p of the input only, so what tile t writes back is rows 4096·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay0 (x0 : Vec Ideal S4096x78 .f32) (x1 : Vec Ideal S78x156 .f32) (x2 : Vec Ideal S1x156 .f32) :
    k0_pay1 (F := Ideal) x0 x1 x2 = dense (n := 4096) (k := 78) (d := 156) x0 x1 x2 := by
  unfold k0_pay1
  exact body_dense dot_S4096x78_S78x156_S4096x156_1_0_0_1_n_n rfl x0 x1 x2 _ _ _ _

/-- The printed index maps over the grid: the input's and the output's block row is the point, every other block index 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What tile t writes back is its block of the layer of the whole arrays the region finds. -/
theorem flushed0 (c : Dev nD) (t : Fin cfg0.N) :
    (dat0 V c).flushed 3 t = ((cfg0.win 3).blk t).view.read (Elt Ideal) (dense (n := 65536) (k := 78) (d := 156) (V c main_arg0) (V c main_arg2) (V c main_v5)) := by
  show (cfg0.win 3).cut (grid0.coords t) ((dat0 V c).after 3 t) = _
  rw [after0_3]
  unfold out0_3
  rw [View.canon_unit_zero zero2]
  simp only [View.ld_unit_zero (S := S4096x78) zero2, View.ld_unit_zero (S := S78x156) zero2, View.ld_unit_zero (S := S1x156) zero2]
  rw [pay0]
  obtain ⟨e0, e1, e2, e3, e4, e5, e6, e7⟩ := idx0 t
  have hN : grid0.N = 16 := N_0
  have ht : t.val < 16 := hN ▸ t.isLt
  funext j
  obtain ⟨p, q, rfl⟩ : ∃ (p : Fin 4096) (q : Fin 156), j = ix2 p q := ⟨j 0, j 1, eq_ix2 j⟩
  have hp : p.val < 4096 := p.isLt
  have hq : q.val < 156 := q.isLt
  have hemb : ((cfg0.win 3).blk t).view.emb (ix2 p q) = ix2 (⟨t.val * 4096 + p.val, by omega⟩ : Fin 65536) q := by
    funext a; apply Fin.ext
    match a with
    | ⟨0, _⟩ => show win0_3.index t (0 : Fin 2) * 4096 + 1 * p.val = t.val * 4096 + p.val; omega
    | ⟨1, _⟩ => show win0_3.index t (1 : Fin 2) * 156 + 1 * q.val = q.val; omega
  show dense (n := 4096) (k := 78) (d := 156) (iblk0 V c 0 t) (iblk0 V c 1 t) (iblk0 V c 2 t) (ix2 p q)
      = (dense (n := 65536) (k := 78) (d := 156) (V c main_arg0) (V c main_arg2) (V c main_v5)) (((cfg0.win 3).blk t).view.emb (ix2 p q))
  rw [hemb]
  refine dense_blocks _ _ _ _ _ _ p _ q (fun s => ?_) (fun s => ?_) ?_
  · show V c main_arg0 (((cfg0.win 0).blk t).view.emb (ix2 p s)) = V c main_arg0 (ix2 (⟨t.val * 4096 + p.val, by omega⟩ : Fin 65536) s)
    refine congrArg _ (funext fun a => Fin.ext ?_)
    have hs : s.val < 78 := s.isLt
    match a with
    | ⟨0, _⟩ => show win0_0.index t (0 : Fin 2) * 4096 + 1 * p.val = t.val * 4096 + p.val; omega
    | ⟨1, _⟩ => show win0_0.index t (1 : Fin 2) * 78 + 1 * s.val = s.val; omega
  · show V c main_arg2 (((cfg0.win 1).blk t).view.emb (ix2 s q)) = V c main_arg2 (ix2 s q)
    refine congrArg _ (funext fun a => Fin.ext ?_)
    have hs : s.val < 78 := s.isLt
    match a with
    | ⟨0, _⟩ => show win0_1.index t (0 : Fin 2) * 78 + 1 * s.val = s.val; omega
    | ⟨1, _⟩ => show win0_1.index t (1 : Fin 2) * 156 + 1 * q.val = q.val; omega
  · show V c main_v5 (((cfg0.win 2).blk t).view.emb (ix2 (0 : Fin 1) q)) = V c main_v5 (ix2 (0 : Fin 1) q)
    refine congrArg _ (funext fun a => Fin.ext ?_)
    match a with
    | ⟨0, _⟩ => show win0_2.index t (0 : Fin 2) * 1 + 1 * (0 : Fin 1).val = (0 : Fin 1).val; show win0_2.index t (0 : Fin 2) * 1 + 1 * 0 = 0; omega
    | ⟨1, _⟩ => show win0_2.index t (1 : Fin 2) * 156 + 1 * q.val = q.val; omega

/-- An index of the output array is in tile t's block iff its row is one of the tile's. -/
theorem mem_blk0 (t : Fin cfg0.N) (i : S65536x156.Idx) :
    i ∈ ((cfg0.win 3).blk t).view.set ↔ ∀ a : Fin 2, win0_3.index t a * S4096x156.size a ≤ (i a).val ∧ (i a).val < win0_3.index t a * S4096x156.size a + S4096x156.size a := by
  show i ∈ ((View.whole main_v6).slice (win0_3.rect t)).set ↔ _
  rw [View.set_slice_whole, Rect.mem_set_unit]
  exact Iff.rfl

/-- The tiles cover every row. -/
theorem cover0 (i : S65536x156.Idx) : ∃ t : Fin cfg0.N, (cfg0.win 3).flush t = true ∧ i ∈ ((cfg0.win 3).blk t).view.set := by
  have hN : grid0.N = 16 := N_0
  have hi0 : (i 0).val < 65536 := (i 0).isLt
  have hi1 : (i 1).val < 156 := (i 1).isLt
  let t : Fin cfg0.N := ⟨(i 0).val / 4096, by show (i 0).val / 4096 < grid0.N; omega⟩
  obtain ⟨e0, e1, e2, e3, e4, e5, e6, e7⟩ := idx0 t
  have e6' : win0_3.index t (0 : Fin 2) = (i 0).val / 4096 := e6
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 156 ≤ (i 1).val ∧ (i 1).val < win0_3.index t (1 : Fin 2) * 156 + 156; omega

/-- The output array after the region: the layer of the whole arrays the region was entered with. -/
theorem final0 (c : Dev nD) :
    (dat0 V c).arrAt 3 cfg0.N = dense (n := 65536) (k := 78) (d := 156) (V c main_arg0) (V c main_arg2) (V c main_v5) :=
  (dat0 V c).arrAt_eq_of_cover 3 _ (fun t _ => flushed0 V c t) (cover0)

end

/-- Leaving the region is running that operation on the contents it was entered with. -/
theorem region0 (m : (ℓ : Loc nD τ sig) → Buf (Elt Ideal) ℓ) (ρ : Dev nD → PrngReg) (c : Dev nD) :
    W2 m ρ c = dop0.result (W1 m ρ c) := by
  unfold W2
  refine Cert.LibRegionOp.withArrays_eq_result spec0 launch0.win.arr_inj c (W1 m ρ c) _ dop0 3 rfl (fun w hw => ?_) ?_
  · exact ins0 (V1 m ρ) c w hw
  · refine (final0 (V1 m ρ) c).trans ?_
    unfold dop0
    exact (StableHlo.ternary_result main_arg0 main_arg2 main_v5 main_v6
      ((fun X W B => dense (n := 65536) (k := 78) (d := 156) X W B) : (⟨S65536x78, .f32⟩ : BufTy).Contents (Elt Ideal) → (⟨S78x156, .f32⟩ : BufTy).Contents (Elt Ideal) → (⟨S1x156, .f32⟩ : BufTy).Contents (Elt Ideal) → (⟨S65536x156, .f32⟩ : BufTy).Contents (Elt Ideal))
      _ _ _ _ (W1 m ρ c)).symm

end Cert.KernelIdeal.Dense

end
-- ==== Proof.Region1.lean ====
/-
  Kernel region 1: a dense layer of a 65536 × 156 array against a 156 × 312 weight and a one-row bias, in 16 tiles of 4096 rows.

  Tile t reads rows 4096·t … 4096·t + 4095 of the input and the whole weight and bias, and writes the same rows of the
  output.  Entry (p, j) of the layer reads row p of the input only, so what tile t writes back is rows 4096·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay1 (x0 : Vec Ideal S4096x156 .f32) (x1 : Vec Ideal S156x312 .f32) (x2 : Vec Ideal S1x312 .f32) :
    k1_pay1 (F := Ideal) x0 x1 x2 = dense (n := 4096) (k := 156) (d := 312) x0 x1 x2 := by
  unfold k1_pay1
  rw [shapeCast_self x0]
  exact body_dense dot_S4096x156_S156x312_S4096x312_1_0_0_1_n_n rfl x0 x1 x2 _ _ _ _

/-- The printed index maps over the grid: the input's and the output's block row is the point, every other block index 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What tile t writes back is its block of the layer of the whole arrays the region finds. -/
theorem flushed1 (c : Dev nD) (t : Fin cfg1.N) :
    (dat1 V c).flushed 3 t = ((cfg1.win 3).blk t).view.read (Elt Ideal) (dense (n := 65536) (k := 156) (d := 312) (V c main_v51) (V c main_arg4) (V c main_v53)) := by
  show (cfg1.win 3).cut (grid1.coords t) ((dat1 V c).after 3 t) = _
  rw [after1_3]
  unfold out1_3
  rw [View.canon_unit_zero zero2]
  simp only [View.ld_unit_zero (S := S4096x156) zero2, View.ld_unit_zero (S := S156x312) zero2, View.ld_unit_zero (S := S1x312) zero2]
  rw [pay1]
  obtain ⟨e0, e1, e2, e3, e4, e5, e6, e7⟩ := idx1 t
  have hN : grid1.N = 16 := N_1
  have ht : t.val < 16 := hN ▸ t.isLt
  funext j
  obtain ⟨p, q, rfl⟩ : ∃ (p : Fin 4096) (q : Fin 312), j = ix2 p q := ⟨j 0, j 1, eq_ix2 j⟩
  have hp : p.val < 4096 := p.isLt
  have hq : q.val < 312 := q.isLt
  have hemb : ((cfg1.win 3).blk t).view.emb (ix2 p q) = ix2 (⟨t.val * 4096 + p.val, by omega⟩ : Fin 65536) q := by
    funext a; apply Fin.ext
    match a with
    | ⟨0, _⟩ => show win1_3.index t (0 : Fin 2) * 4096 + 1 * p.val = t.val * 4096 + p.val; omega
    | ⟨1, _⟩ => show win1_3.index t (1 : Fin 2) * 312 + 1 * q.val = q.val; omega
  show dense (n := 4096) (k := 156) (d := 312) (iblk1 V c 0 t) (iblk1 V c 1 t) (iblk1 V c 2 t) (ix2 p q)
      = (dense (n := 65536) (k := 156) (d := 312) (V c main_v51) (V c main_arg4) (V c main_v53)) (((cfg1.win 3).blk t).view.emb (ix2 p q))
  rw [hemb]
  refine dense_blocks _ _ _ _ _ _ p _ q (fun s => ?_) (fun s => ?_) ?_
  · show V c main_v51 (((cfg1.win 0).blk t).view.emb (ix2 p s)) = V c main_v51 (ix2 (⟨t.val * 4096 + p.val, by omega⟩ : Fin 65536) s)
    refine congrArg _ (funext fun a => Fin.ext ?_)
    have hs : s.val < 156 := s.isLt
    match a with
    | ⟨0, _⟩ => show win1_0.index t (0 : Fin 2) * 4096 + 1 * p.val = t.val * 4096 + p.val; omega
    | ⟨1, _⟩ => show win1_0.index t (1 : Fin 2) * 156 + 1 * s.val = s.val; omega
  · show V c main_arg4 (((cfg1.win 1).blk t).view.emb (ix2 s q)) = V c main_arg4 (ix2 s q)
    refine congrArg _ (funext fun a => Fin.ext ?_)
    have hs : s.val < 156 := s.isLt
    match a with
    | ⟨0, _⟩ => show win1_1.index t (0 : Fin 2) * 156 + 1 * s.val = s.val; omega
    | ⟨1, _⟩ => show win1_1.index t (1 : Fin 2) * 312 + 1 * q.val = q.val; omega
  · show V c main_v53 (((cfg1.win 2).blk t).view.emb (ix2 (0 : Fin 1) q)) = V c main_v53 (ix2 (0 : Fin 1) q)
    refine congrArg _ (funext fun a => Fin.ext ?_)
    match a with
    | ⟨0, _⟩ => show win1_2.index t (0 : Fin 2) * 1 + 1 * (0 : Fin 1).val = (0 : Fin 1).val; show win1_2.index t (0 : Fin 2) * 1 + 1 * 0 = 0; omega
    | ⟨1, _⟩ => show win1_2.index t (1 : Fin 2) * 312 + 1 * q.val = q.val; omega

/-- An index of the output array is in tile t's block iff its row is one of the tile's. -/
theorem mem_blk1 (t : Fin cfg1.N) (i : S65536x312.Idx) :
    i ∈ ((cfg1.win 3).blk t).view.set ↔ ∀ a : Fin 2, win1_3.index t a * S4096x312.size a ≤ (i a).val ∧ (i a).val < win1_3.index t a * S4096x312.size a + S4096x312.size a := by
  show i ∈ ((View.whole main_v54).slice (win1_3.rect t)).set ↔ _
  rw [View.set_slice_whole, Rect.mem_set_unit]
  exact Iff.rfl

/-- The tiles cover every row. -/
theorem cover1 (i : S65536x312.Idx) : ∃ t : Fin cfg1.N, (cfg1.win 3).flush t = true ∧ i ∈ ((cfg1.win 3).blk t).view.set := by
  have hN : grid1.N = 16 := N_1
  have hi0 : (i 0).val < 65536 := (i 0).isLt
  have hi1 : (i 1).val < 312 := (i 1).isLt
  let t : Fin cfg1.N := ⟨(i 0).val / 4096, by show (i 0).val / 4096 < grid1.N; omega⟩
  obtain ⟨e0, e1, e2, e3, e4, e5, e6, e7⟩ := idx1 t
  have e6' : win1_3.index t (0 : Fin 2) = (i 0).val / 4096 := e6
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 312 ≤ (i 1).val ∧ (i 1).val < win1_3.index t (1 : Fin 2) * 312 + 312; omega

/-- The output array after the region: the layer of the whole arrays the region was entered with. -/
theorem final1 (c : Dev nD) :
    (dat1 V c).arrAt 3 cfg1.N = dense (n := 65536) (k := 156) (d := 312) (V c main_v51) (V c main_arg4) (V c main_v53) :=
  (dat1 V c).arrAt_eq_of_cover 3 _ (fun t _ => flushed1 V c t) (cover1)

end

/-- Leaving the region is running that operation on the contents it was entered with. -/
theorem region1 (m : (ℓ : Loc nD τ sig) → Buf (Elt Ideal) ℓ) (ρ : Dev nD → PrngReg) (c : Dev nD) :
    W8 m ρ c = dop1.result (W7 m ρ c) := by
  unfold W8
  refine Cert.LibRegionOp.withArrays_eq_result spec1 launch1.win.arr_inj c (W7 m ρ c) _ dop1 3 rfl (fun w hw => ?_) ?_
  · exact ins1 (V7 m ρ) c w hw
  · refine (final1 (V7 m ρ) c).trans ?_
    unfold dop1
    exact (StableHlo.ternary_result main_v51 main_arg4 main_v53 main_v54
      ((fun X W B => dense (n := 65536) (k := 156) (d := 312) X W B) : (⟨S65536x156, .f32⟩ : BufTy).Contents (Elt Ideal) → (⟨S156x312, .f32⟩ : BufTy).Contents (Elt Ideal) → (⟨S1x312, .f32⟩ : BufTy).Contents (Elt Ideal) → (⟨S65536x312, .f32⟩ : BufTy).Contents (Elt Ideal))
      _ _ _ _ (W7 m ρ c)).symm

end Cert.KernelIdeal.Dense

end
-- ==== Proof.Region2.lean ====
/-
  Kernel region 2: a dense layer of a 65536 × 312 array against a 312 × 128 weight and a one-row bias, in 16 tiles of 4096 rows.

  Tile t reads rows 4096·t … 4096·t + 4095 of the input and the whole weight and bias, and writes the same rows of the
  output.  Entry (p, j) of the layer reads row p of the input only, so what tile t writes back is rows 4096·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay2 (x0 : Vec Ideal S4096x312 .f32) (x1 : Vec Ideal S312x128 .f32) (x2 : Vec Ideal S1x128 .f32) :
    k2_pay1 (F := Ideal) x0 x1 x2 = dense (n := 4096) (k := 312) (d := 128) x0 x1 x2 := by
  unfold k2_pay1
  rw [shapeCast_self x0]
  exact body_dense dot_S4096x312_S312x128_S4096x128_1_0_0_1_n_n rfl x0 x1 x2 _ _ _ _

/-- The printed index maps over the grid: the input's and the output's block row is the point, every other block index 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What tile t writes back is its block of the layer of the whole arrays the region finds. -/
theorem flushed2 (c : Dev nD) (t : Fin cfg2.N) :
    (dat2 V c).flushed 3 t = ((cfg2.win 3).blk t).view.read (Elt Ideal) (dense (n := 65536) (k := 312) (d := 128) (V c main_v99) (V c main_arg6) (V c main_v101)) := by
  show (cfg2.win 3).cut (grid2.coords t) ((dat2 V c).after 3 t) = _
  rw [after2_3]
  unfold out2_3
  rw [View.canon_unit_zero zero2]
  simp only [View.ld_unit_zero (S := S4096x312) zero2, View.ld_unit_zero (S := S312x128) zero2, View.ld_unit_zero (S := S1x128) zero2]
  rw [pay2]
  obtain ⟨e0, e1, e2, e3, e4, e5, e6, e7⟩ := idx2 t
  have hN : grid2.N = 16 := N_2
  have ht : t.val < 16 := hN ▸ t.isLt
  funext j
  obtain ⟨p, q, rfl⟩ : ∃ (p : Fin 4096) (q : Fin 128), j = ix2 p q := ⟨j 0, j 1, eq_ix2 j⟩
  have hp : p.val < 4096 := p.isLt
  have hq : q.val < 128 := q.isLt
  have hemb : ((cfg2.win 3).blk t).view.emb (ix2 p q) = ix2 (⟨t.val * 4096 + p.val, by omega⟩ : Fin 65536) q := by
    funext a; apply Fin.ext
    match a with
    | ⟨0, _⟩ => show win2_3.index t (0 : Fin 2) * 4096 + 1 * p.val = t.val * 4096 + p.val; omega
    | ⟨1, _⟩ => show win2_3.index t (1 : Fin 2) * 128 + 1 * q.val = q.val; omega
  show dense (n := 4096) (k := 312) (d := 128) (iblk2 V c 0 t) (iblk2 V c 1 t) (iblk2 V c 2 t) (ix2 p q)
      = (dense (n := 65536) (k := 312) (d := 128) (V c main_v99) (V c main_arg6) (V c main_v101)) (((cfg2.win 3).blk t).view.emb (ix2 p q))
  rw [hemb]
  refine dense_blocks _ _ _ _ _ _ p _ q (fun s => ?_) (fun s => ?_) ?_
  · show V c main_v99 (((cfg2.win 0).blk t).view.emb (ix2 p s)) = V c main_v99 (ix2 (⟨t.val * 4096 + p.val, by omega⟩ : Fin 65536) s)
    refine congrArg _ (funext fun a => Fin.ext ?_)
    have hs : s.val < 312 := s.isLt
    match a with
    | ⟨0, _⟩ => show win2_0.index t (0 : Fin 2) * 4096 + 1 * p.val = t.val * 4096 + p.val; omega
    | ⟨1, _⟩ => show win2_0.index t (1 : Fin 2) * 312 + 1 * s.val = s.val; omega
  · show V c main_arg6 (((cfg2.win 1).blk t).view.emb (ix2 s q)) = V c main_arg6 (ix2 s q)
    refine congrArg _ (funext fun a => Fin.ext ?_)
    have hs : s.val < 312 := s.isLt
    match a with
    | ⟨0, _⟩ => show win2_1.index t (0 : Fin 2) * 312 + 1 * s.val = s.val; omega
    | ⟨1, _⟩ => show win2_1.index t (1 : Fin 2) * 128 + 1 * q.val = q.val; omega
  · show V c main_v101 (((cfg2.win 2).blk t).view.emb (ix2 (0 : Fin 1) q)) = V c main_v101 (ix2 (0 : Fin 1) q)
    refine congrArg _ (funext fun a => Fin.ext ?_)
    match a with
    | ⟨0, _⟩ => show win2_2.index t (0 : Fin 2) * 1 + 1 * (0 : Fin 1).val = (0 : Fin 1).val; show win2_2.index t (0 : Fin 2) * 1 + 1 * 0 = 0; omega
    | ⟨1, _⟩ => show win2_2.index t (1 : Fin 2) * 128 + 1 * q.val = q.val; omega

/-- An index of the output array is in tile t's block iff its row is one of the tile's. -/
theorem mem_blk2 (t : Fin cfg2.N) (i : S65536x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v102).slice (win2_3.rect t)).set ↔ _
  rw [View.set_slice_whole, Rect.mem_set_unit]
  exact Iff.rfl

/-- The tiles cover every row. -/
theorem cover2 (i : S65536x128.Idx) : ∃ t : Fin cfg2.N, (cfg2.win 3).flush t = true ∧ i ∈ ((cfg2.win 3).blk t).view.set := by
  have hN : grid2.N = 16 := N_2
  have hi0 : (i 0).val < 65536 := (i 0).isLt
  have hi1 : (i 1).val < 128 := (i 1).isLt
  let t : Fin cfg2.N := ⟨(i 0).val / 4096, by show (i 0).val / 4096 < grid2.N; omega⟩
  obtain ⟨e0, e1, e2, e3, e4, e5, e6, e7⟩ := idx2 t
  have e6' : win2_3.index t (0 : Fin 2) = (i 0).val / 4096 := e6
  refine ⟨t, flush2_3 t, ?_⟩
  rw [mem_blk2]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 128 ≤ (i 1).val ∧ (i 1).val < win2_3.index t (1 : Fin 2) * 128 + 128; omega

/-- The output array after the region: the layer of the whole arrays the region was entered with. -/
theorem final2 (c : Dev nD) :
    (dat2 V c).arrAt 3 cfg2.N = dense (n := 65536) (k := 312) (d := 128) (V c main_v99) (V c main_arg6) (V c main_v101) :=
  (dat2 V c).arrAt_eq_of_cover 3 _ (fun t _ => flushed2 V c t) (cover2)

end

/-- Leaving the region is running that operation on the contents it was entered with. -/
theorem region2 (m : (ℓ : Loc nD τ sig) → Buf (Elt Ideal) ℓ) (ρ : Dev nD → PrngReg) (c : Dev nD) :
    W14 m ρ c = dop2.result (W13 m ρ c) := by
  unfold W14
  refine Cert.LibRegionOp.withArrays_eq_result spec2 launch2.win.arr_inj c (W13 m ρ c) _ dop2 3 rfl (fun w hw => ?_) ?_
  · exact ins2 (V13 m ρ) c w hw
  · refine (final2 (V13 m ρ) c).trans ?_
    unfold dop2
    exact (StableHlo.ternary_result main_v99 main_arg6 main_v101 main_v102
      ((fun X W B => dense (n := 65536) (k := 312) (d := 128) X W B) : (⟨S65536x312, .f32⟩ : BufTy).Contents (Elt Ideal) → (⟨S312x128, .f32⟩ : BufTy).Contents (Elt Ideal) → (⟨S1x128, .f32⟩ : BufTy).Contents (Elt Ideal) → (⟨S65536x128, .f32⟩ : BufTy).Contents (Elt Ideal))
      _ _ _ _ (W13 m ρ c)).symm

end Cert.KernelIdeal.Dense

end
-- ==== Proof.Region3.lean ====
/-
  Kernel region 3: a dense layer of a 2048 × 128 array against a 128 × 1024 weight and a one-row bias, in 1 tile of 2048 rows, followed by the positive part.

  Tile t reads rows 2048·t … 2048·t + 2047 of the input and the whole weight and bias, and writes the same rows of the
  output.  Entry (p, j) of the layer reads row p of the input only, so what tile t writes back is rows 2048·t … of the
  layer of the WHOLE input; the tiles cover every row, so the output array ends holding the layer of the whole input.
  Every other array of the region ends as it was entered.  So the region acts on the buffers as ONE host operation
  with result  (X · W + B)⁺.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay3 (x0 : Vec Ideal S2048x128 .f32) (x1 : Vec Ideal S128x1024 .f32) (x2 : Vec Ideal S1x1024 .f32) :
    k3_pay1 (F := Ideal) x0 x1 x2 = relu (dense (n := 2048) (k := 128) (d := 1024) x0 x1 x2) := by
  unfold k3_pay1
  rw [shapeCast_self x0]
  exact body_dense_relu dot_S2048x128_S128x1024_S2048x1024_1_0_0_1_n_n rfl x0 x1 x2 _ _ _ _

/-- The printed index maps over the grid: the input's and the output's block row is the point, every other block index 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- What tile t writes back is its block of the layer of the whole arrays the region finds. -/
theorem flushed3 (c : Dev nD) (t : Fin cfg3.N) :
    (dat3 V c).flushed 3 t = ((cfg3.win 3).blk t).view.read (Elt Ideal) (relu (dense (n := 2048) (k := 128) (d := 1024) (V c main_v159) (V c main_arg8) (V c main_v160))) := by
  show (cfg3.win 3).cut (grid3.coords t) ((dat3 V c).after 3 t) = _
  rw [after3_3]
  unfold out3_3
  rw [View.canon_unit_zero zero2]
  simp only [View.ld_unit_zero (S := S2048x128) zero2, View.ld_unit_zero (S := S128x1024) zero2, View.ld_unit_zero (S := S1x1024) zero2]
  rw [pay3]
  obtain ⟨e0, e1, e2, e3, e4, e5, e6, e7⟩ := idx3 t
  have hN : grid3.N = 1 := N_3
  have ht : t.val < 1 := hN ▸ t.isLt
  funext j
  obtain ⟨p, q, rfl⟩ : ∃ (p : Fin 2048) (q : Fin 1024), j = ix2 p q := ⟨j 0, j 1, eq_ix2 j⟩
  have hp : p.val < 2048 := p.isLt
  have hq : q.val < 1024 := q.isLt
  have hemb : ((cfg3.win 3).blk t).view.emb (ix2 p q) = ix2 (⟨t.val * 2048 + p.val, by omega⟩ : Fin 2048) q := by
    funext a; apply Fin.ext
    match a with
    | ⟨0, _⟩ => show win3_3.index t (0 : Fin 2) * 2048 + 1 * p.val = t.val * 2048 + p.val; omega
    | ⟨1, _⟩ => show win3_3.index t (1 : Fin 2) * 1024 + 1 * q.val = q.val; omega
  show relu (dense (n := 2048) (k := 128) (d := 1024) (iblk3 V c 0 t) (iblk3 V c 1 t) (iblk3 V c 2 t)) (ix2 p q)
      = (relu (dense (n := 2048) (k := 128) (d := 1024) (V c main_v159) (V c main_arg8) (V c main_v160))) (((cfg3.win 3).blk t).view.emb (ix2 p q))
  rw [hemb]
  refine relu_dense_blocks _ _ _ _ _ _ p _ q (fun s => ?_) (fun s => ?_) ?_
  · show V c main_v159 (((cfg3.win 0).blk t).view.emb (ix2 p s)) = V c main_v159 (ix2 (⟨t.val * 2048 + p.val, by omega⟩ : Fin 2048) s)
    refine congrArg _ (funext fun a => Fin.ext ?_)
    have hs : s.val < 128 := s.isLt
    match a with
    | ⟨0, _⟩ => show win3_0.index t (0 : Fin 2) * 2048 + 1 * p.val = t.val * 2048 + p.val; omega
    | ⟨1, _⟩ => show win3_0.index t (1 : Fin 2) * 128 + 1 * s.val = s.val; omega
  · show V c main_arg8 (((cfg3.win 1).blk t).view.emb (ix2 s q)) = V c main_arg8 (ix2 s q)
    refine congrArg _ (funext fun a => Fin.ext ?_)
    have hs : s.val < 128 := s.isLt
    match a with
    | ⟨0, _⟩ => show win3_1.index t (0 : Fin 2) * 128 + 1 * s.val = s.val; omega
    | ⟨1, _⟩ => show win3_1.index t (1 : Fin 2) * 1024 + 1 * q.val = q.val; omega
  · show V c main_v160 (((cfg3.win 2).blk t).view.emb (ix2 (0 : Fin 1) q)) = V c main_v160 (ix2 (0 : Fin 1) q)
    refine congrArg _ (funext fun a => Fin.ext ?_)
    match a with
    | ⟨0, _⟩ => show win3_2.index t (0 : Fin 2) * 1 + 1 * (0 : Fin 1).val = (0 : Fin 1).val; show win3_2.index t (0 : Fin 2) * 1 + 1 * 0 = 0; omega
    | ⟨1, _⟩ => show win3_2.index t (1 : Fin 2) * 1024 + 1 * q.val = q.val; omega

/-- An index of the output array is in tile t's block iff its row is one of the tile's. -/
theorem mem_blk3 (t : Fin cfg3.N) (i : S2048x1024.Idx) :
    i ∈ ((cfg3.win 3).blk t).view.set ↔ ∀ a : Fin 2, win3_3.index t a * S2048x1024.size a ≤ (i a).val ∧ (i a).val < win3_3.index t a * S2048x1024.size a + S2048x1024.size a := by
  show i ∈ ((View.whole main_v161).slice (win3_3.rect t)).set ↔ _
  rw [View.set_slice_whole, Rect.mem_set_unit]
  exact Iff.rfl

/-- The tiles cover every row. -/
theorem cover3 (i : S2048x1024.Idx) : ∃ t : Fin cfg3.N, (cfg3.win 3).flush t = true ∧ i ∈ ((cfg3.win 3).blk t).view.set := by
  have hN : grid3.N = 1 := N_3
  have hi0 : (i 0).val < 2048 := (i 0).isLt
  have hi1 : (i 1).val < 1024 := (i 1).isLt
  let t : Fin cfg3.N := ⟨(i 0).val / 2048, by show (i 0).val / 2048 < grid3.N; omega⟩
  obtain ⟨e0, e1, e2, e3, e4, e5, e6, e7⟩ := idx3 t
  have e6' : win3_3.index t (0 : Fin 2) = (i 0).val / 2048 := e6
  refine ⟨t, flush3_3 t, ?_⟩
  rw [mem_blk3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 1024 ≤ (i 1).val ∧ (i 1).val < win3_3.index t (1 : Fin 2) * 1024 + 1024; omega

/-- The output array after the region: the layer of the whole arrays the region was entered with. -/
theorem final3 (c : Dev nD) :
    (dat3 V c).arrAt 3 cfg3.N = relu (dense (n := 2048) (k := 128) (d := 1024) (V c main_v159) (V c main_arg8) (V c main_v160)) :=
  (dat3 V c).arrAt_eq_of_cover 3 _ (fun t _ => flushed3 V c t) (cover3)

end

/-- Leaving the region is running that operation on the contents it was entered with. -/
theorem region3 (m : (ℓ : Loc nD τ sig) → Buf (Elt Ideal) ℓ) (ρ : Dev nD → PrngReg) (c : Dev nD) :
    W20 m ρ c = dop3.result (W19 m ρ c) := by
  unfold W20
  refine Cert.LibRegionOp.withArrays_eq_result spec3 launch3.win.arr_inj c (W19 m ρ c) _ dop3 3 rfl (fun w hw => ?_) ?_
  · exact ins3 (V19 m ρ) c w hw
  · refine (final3 (V19 m ρ) c).trans ?_
    unfold dop3
    exact (StableHlo.ternary_result main_v159 main_arg8 main_v160 main_v161
      ((fun X W B => relu (dense (n := 2048) (k := 128) (d := 1024) X W B)) : (⟨S2048x128, .f32⟩ : BufTy).Contents (Elt Ideal) → (⟨S128x1024, .f32⟩ : BufTy).Contents (Elt Ideal) → (⟨S1x1024, .f32⟩ : BufTy).Contents (Elt Ideal) → (⟨S2048x1024, .f32⟩ : BufTy).Contents (Elt Ideal))
      _ _ _ _ (W19 m ρ c)).symm

end Cert.KernelIdeal.Dense

end
-- ==== Proof.Region4.lean ====
/-
  Kernel region 4: a dense layer of a 2048 × 1024 array against a 1024 × 128 weight and a one-row bias, in 1 tile of 2048 rows.

  Tile t reads rows 2048·t … 2048·t + 2047 of the input and the whole weight and bias, and writes the same rows of the
  output.  Entry (p, j) of the layer reads row p of the input only, so what tile t writes back is rows 2048·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay4 (x0 : Vec Ideal S2048x1024 .f32) (x1 : Vec Ideal S1024x128 .f32) (x2 : Vec Ideal S1x128 .f32) :
    k4_pay1 (F := Ideal) x0 x1 x2 = dense (n := 2048) (k := 1024) (d := 128) x0 x1 x2 := by
  unfold k4_pay1
  rw [shapeCast_self x0]
  exact body_dense dot_S2048x1024_S1024x128_S2048x128_1_0_0_1_n_n rfl x0 x1 x2 _ _ _ _

/-- The printed index maps over the grid: the input's and the output's block row is the point, every other block index 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- What tile t writes back is its block of the layer of the whole arrays the region finds. -/
theorem flushed4 (c : Dev nD) (t : Fin cfg4.N) :
    (dat4 V c).flushed 3 t = ((cfg4.win 3).blk t).view.read (Elt Ideal) (dense (n := 2048) (k := 1024) (d := 128) (V c main_v161) (V c main_arg10) (V c main_v162)) := by
  show (cfg4.win 3).cut (grid4.coords t) ((dat4 V c).after 3 t) = _
  rw [after4_3]
  unfold out4_3
  rw [View.canon_unit_zero zero2]
  simp only [View.ld_unit_zero (S := S2048x1024) zero2, View.ld_unit_zero (S := S1024x128) zero2, View.ld_unit_zero (S := S1x128) zero2]
  rw [pay4]
  obtain ⟨e0, e1, e2, e3, e4, e5, e6, e7⟩ := idx4 t
  have hN : grid4.N = 1 := N_4
  have ht : t.val < 1 := hN ▸ t.isLt
  funext j
  obtain ⟨p, q, rfl⟩ : ∃ (p : Fin 2048) (q : Fin 128), j = ix2 p q := ⟨j 0, j 1, eq_ix2 j⟩
  have hp : p.val < 2048 := p.isLt
  have hq : q.val < 128 := q.isLt
  have hemb : ((cfg4.win 3).blk t).view.emb (ix2 p q) = ix2 (⟨t.val * 2048 + p.val, by omega⟩ : Fin 2048) q := by
    funext a; apply Fin.ext
    match a with
    | ⟨0, _⟩ => show win4_3.index t (0 : Fin 2) * 2048 + 1 * p.val = t.val * 2048 + p.val; omega
    | ⟨1, _⟩ => show win4_3.index t (1 : Fin 2) * 128 + 1 * q.val = q.val; omega
  show dense (n := 2048) (k := 1024) (d := 128) (iblk4 V c 0 t) (iblk4 V c 1 t) (iblk4 V c 2 t) (ix2 p q)
      = (dense (n := 2048) (k := 1024) (d := 128) (V c main_v161) (V c main_arg10) (V c main_v162)) (((cfg4.win 3).blk t).view.emb (ix2 p q))
  rw [hemb]
  refine dense_blocks _ _ _ _ _ _ p _ q (fun s => ?_) (fun s => ?_) ?_
  · show V c main_v161 (((cfg4.win 0).blk t).view.emb (ix2 p s)) = V c main_v161 (ix2 (⟨t.val * 2048 + p.val, by omega⟩ : Fin 2048) s)
    refine congrArg _ (funext fun a => Fin.ext ?_)
    have hs : s.val < 1024 := s.isLt
    match a with
    | ⟨0, _⟩ => show win4_0.index t (0 : Fin 2) * 2048 + 1 * p.val = t.val * 2048 + p.val; omega
    | ⟨1, _⟩ => show win4_0.index t (1 : Fin 2) * 1024 + 1 * s.val = s.val; omega
  · show V c main_arg10 (((cfg4.win 1).blk t).view.emb (ix2 s q)) = V c main_arg10 (ix2 s q)
    refine congrArg _ (funext fun a => Fin.ext ?_)
    have hs : s.val < 1024 := s.isLt
    match a with
    | ⟨0, _⟩ => show win4_1.index t (0 : Fin 2) * 1024 + 1 * s.val = s.val; omega
    | ⟨1, _⟩ => show win4_1.index t (1 : Fin 2) * 128 + 1 * q.val = q.val; omega
  · show V c main_v162 (((cfg4.win 2).blk t).view.emb (ix2 (0 : Fin 1) q)) = V c main_v162 (ix2 (0 : Fin 1) q)
    refine congrArg _ (funext fun a => Fin.ext ?_)
    match a with
    | ⟨0, _⟩ => show win4_2.index t (0 : Fin 2) * 1 + 1 * (0 : Fin 1).val = (0 : Fin 1).val; show win4_2.index t (0 : Fin 2) * 1 + 1 * 0 = 0; omega
    | ⟨1, _⟩ => show win4_2.index t (1 : Fin 2) * 128 + 1 * q.val = q.val; omega

/-- An index of the output array is in tile t's block iff its row is one of the tile's. -/
theorem mem_blk4 (t : Fin cfg4.N) (i : S2048x128.Idx) :
    i ∈ ((cfg4.win 3).blk t).view.set ↔ ∀ a : Fin 2, win4_3.index t a * S2048x128.size a ≤ (i a).val ∧ (i a).val < win4_3.index t a * S2048x128.size a + S2048x128.size a := by
  show i ∈ ((View.whole main_v163).slice (win4_3.rect t)).set ↔ _
  rw [View.set_slice_whole, Rect.mem_set_unit]
  exact Iff.rfl

/-- The tiles cover every row. -/
theorem cover4 (i : S2048x128.Idx) : ∃ t : Fin cfg4.N, (cfg4.win 3).flush t = true ∧ i ∈ ((cfg4.win 3).blk t).view.set := by
  have hN : grid4.N = 1 := N_4
  have hi0 : (i 0).val < 2048 := (i 0).isLt
  have hi1 : (i 1).val < 128 := (i 1).isLt
  let t : Fin cfg4.N := ⟨(i 0).val / 2048, by show (i 0).val / 2048 < grid4.N; omega⟩
  obtain ⟨e0, e1, e2, e3, e4, e5, e6, e7⟩ := idx4 t
  have e6' : win4_3.index t (0 : Fin 2) = (i 0).val / 2048 := e6
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 128 ≤ (i 1).val ∧ (i 1).val < win4_3.index t (1 : Fin 2) * 128 + 128; omega

/-- The output array after the region: the layer of the whole arrays the region was entered with. -/
theorem final4 (c : Dev nD) :
    (dat4 V c).arrAt 3 cfg4.N = dense (n := 2048) (k := 1024) (d := 128) (V c main_v161) (V c main_arg10) (V c main_v162) :=
  (dat4 V c).arrAt_eq_of_cover 3 _ (fun t _ => flushed4 V c t) (cover4)

end

/-- Leaving the region is running that operation on the contents it was entered with. -/
theorem region4 (m : (ℓ : Loc nD τ sig) → Buf (Elt Ideal) ℓ) (ρ : Dev nD → PrngReg) (c : Dev nD) :
    W22 m ρ c = dop4.result (W21 m ρ c) := by
  unfold W22
  refine Cert.LibRegionOp.withArrays_eq_result spec4 launch4.win.arr_inj c (W21 m ρ c) _ dop4 3 rfl (fun w hw => ?_) ?_
  · exact ins4 (V21 m ρ) c w hw
  · refine (final4 (V21 m ρ) c).trans ?_
    unfold dop4
    exact (StableHlo.ternary_result main_v161 main_arg10 main_v162 main_v163
      ((fun X W B => dense (n := 2048) (k := 1024) (d := 128) X W B) : (⟨S2048x1024, .f32⟩ : BufTy).Contents (Elt Ideal) → (⟨S1024x128, .f32⟩ : BufTy).Contents (Elt Ideal) → (⟨S1x128, .f32⟩ : BufTy).Contents (Elt Ideal) → (⟨S2048x128, .f32⟩ : BufTy).Contents (Elt Ideal))
      _ _ _ _ (W21 m ρ c)).symm

end Cert.KernelIdeal.Dense

end
-- ==== Proof.Region5.lean ====
/-
  Kernel region 5: a dense layer of a 300000 × 33 array against a 33 × 128 weight and a one-row bias, in 30 tiles of 10000 rows.

  Tile t reads rows 10000·t … 10000·t + 9999 of the input and the whole weight and bias, and writes the same rows of the
  output.  Entry (p, j) of the layer reads row p of the input only, so what tile t writes back is rows 10000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay5 (x0 : Vec Ideal S10000x33 .f32) (x1 : Vec Ideal S33x128 .f32) (x2 : Vec Ideal S1x128 .f32) :
    k5_pay1 (F := Ideal) x0 x1 x2 = dense (n := 10000) (k := 33) (d := 128) x0 x1 x2 := by
  unfold k5_pay1
  exact body_dense dot_S10000x33_S33x128_S10000x128_1_0_0_1_n_n rfl x0 x1 x2 _ _ _ _

/-- The printed index maps over the grid: the input's and the output's block row is the point, every other block index 0. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
variable (V : (c : Dev nD) → (b : Ref sig .tc) → Buf (Elt Ideal) ((c : Thread nD τ).loc b))

/-- What tile t writes back is its block of the layer of the whole arrays the region finds. -/
theorem flushed5 (c : Dev nD) (t : Fin cfg5.N) :
    (dat5 V c).flushed 3 t = ((cfg5.win 3).blk t).view.read (Elt Ideal) (dense (n := 300000) (k := 33) (d := 128) (V c main_arg1) (V c main_arg12) (V c main_v169)) := by
  show (cfg5.win 3).cut (grid5.coords t) ((dat5 V c).after 3 t) = _
  rw [after5_3]
  unfold out5_3
  rw [View.canon_unit_zero zero2]
  simp only [View.ld_unit_zero (S := S10000x33) zero2, View.ld_unit_zero (S := S33x128) zero2, View.ld_unit_zero (S := S1x128) zero2]
  rw [pay5]
  obtain ⟨e0, e1, e2, e3, e4, e5, e6, e7⟩ := idx5 t
  have hN : grid5.N = 30 := N_5
  have ht : t.val < 30 := hN ▸ t.isLt
  funext j
  obtain ⟨p, q, rfl⟩ : ∃ (p : Fin 10000) (q : Fin 128), j = ix2 p q := ⟨j 0, j 1, eq_ix2 j⟩
  have hp : p.val < 10000 := p.isLt
  have hq : q.val < 128 := q.isLt
  have hemb : ((cfg5.win 3).blk t).view.emb (ix2 p q) = ix2 (⟨t.val * 10000 + p.val, by omega⟩ : Fin 300000) q := by
    funext a; apply Fin.ext
    match a with
    | ⟨0, _⟩ => show win5_3.index t (0 : Fin 2) * 10000 + 1 * p.val = t.val * 10000 + p.val; omega
    | ⟨1, _⟩ => show win5_3.index t (1 : Fin 2) * 128 + 1 * q.val = q.val; omega
  show dense (n := 10000) (k := 33) (d := 128) (iblk5 V c 0 t) (iblk5 V c 1 t) (iblk5 V c 2 t) (ix2 p q)
      = (dense (n := 300000) (k := 33) (d := 128) (V c main_arg1) (V c main_arg12) (V c main_v169)) (((cfg5.win 3).blk t).view.emb (ix2 p q))
  rw [hemb]
  refine dense_blocks _ _ _ _ _ _ p _ q (fun s => ?_) (fun s => ?_) ?_
  · show V c main_arg1 (((cfg5.win 0).blk t).view.emb (ix2 p s)) = V c main_arg1 (ix2 (⟨t.val * 10000 + p.val, by omega⟩ : Fin 300000) s)
    refine congrArg _ (funext fun a => Fin.ext ?_)
    have hs : s.val < 33 := s.isLt
    match a with
    | ⟨0, _⟩ => show win5_0.index t (0 : Fin 2) * 10000 + 1 * p.val = t.val * 10000 + p.val; omega
    | ⟨1, _⟩ => show win5_0.index t (1 : Fin 2) * 33 + 1 * s.val = s.val; omega
  · show V c main_arg12 (((cfg5.win 1).blk t).view.emb (ix2 s q)) = V c main_arg12 (ix2 s q)
    refine congrArg _ (funext fun a => Fin.ext ?_)
    have hs : s.val < 33 := s.isLt
    match a with
    | ⟨0, _⟩ => show win5_1.index t (0 : Fin 2) * 33 + 1 * s.val = s.val; omega
    | ⟨1, _⟩ => show win5_1.index t (1 : Fin 2) * 128 + 1 * q.val = q.val; omega
  · show V c main_v169 (((cfg5.win 2).blk t).view.emb (ix2 (0 : Fin 1) q)) = V c main_v169 (ix2 (0 : Fin 1) q)
    refine congrArg _ (funext fun a => Fin.ext ?_)
    match a with
    | ⟨0, _⟩ => show win5_2.index t (0 : Fin 2) * 1 + 1 * (0 : Fin 1).val = (0 : Fin 1).val; show win5_2.index t (0 : Fin 2) * 1 + 1 * 0 = 0; omega
    | ⟨1, _⟩ => show win5_2.index t (1 : Fin 2) * 128 + 1 * q.val = q.val; omega

/-- An index of the output array is in tile t's block iff its row is one of the tile's. -/
theorem mem_blk5 (t : Fin cfg5.N) (i : S300000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v170).slice (win5_3.rect t)).set ↔ _
  rw [View.set_slice_whole, Rect.mem_set_unit]
  exact Iff.rfl

/-- The tiles cover every row. -/
theorem cover5 (i : S300000x128.Idx) : ∃ t : Fin cfg5.N, (cfg5.win 3).flush t = true ∧ i ∈ ((cfg5.win 3).blk t).view.set := by
  have hN : grid5.N = 30 := N_5
  have hi0 : (i 0).val < 300000 := (i 0).isLt
  have hi1 : (i 1).val < 128 := (i 1).isLt
  let t : Fin cfg5.N := ⟨(i 0).val / 10000, by show (i 0).val / 10000 < grid5.N; omega⟩
  obtain ⟨e0, e1, e2, e3, e4, e5, e6, e7⟩ := idx5 t
  have e6' : win5_3.index t (0 : Fin 2) = (i 0).val / 10000 := e6
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The output array after the region: the layer of the whole arrays the region was entered with. -/
theorem final5 (c : Dev nD) :
    (dat5 V c).arrAt 3 cfg5.N = dense (n := 300000) (k := 33) (d := 128) (V c main_arg1) (V c main_arg12) (V c main_v169) :=
  (dat5 V c).arrAt_eq_of_cover 3 _ (fun t _ => flushed5 V c t) (cover5)

end

/-- Leaving the region is running that operation on the contents it was entered with. -/
theorem region5 (m : (ℓ : Loc nD τ sig) → Buf (Elt Ideal) ℓ) (ρ : Dev nD → PrngReg) (c : Dev nD) :
    W24 m ρ c = dop5.result (W23 m ρ c) := by
  unfold W24
  refine Cert.LibRegionOp.withArrays_eq_result spec5 launch5.win.arr_inj c (W23 m ρ c) _ dop5 3 rfl (fun w hw => ?_) ?_
  · exact ins5 (V23 m ρ) c w hw
  · refine (final5 (V23 m ρ) c).trans ?_
    unfold dop5
    exact (StableHlo.ternary_result main_arg1 main_arg12 main_v169 main_v170
      ((fun X W B => dense (n := 300000) (k := 33) (d := 128) X W B) : (⟨S300000x33, .f32⟩ : BufTy).Contents (Elt Ideal) → (⟨S33x128, .f32⟩ : BufTy).Contents (Elt Ideal) → (⟨S1x128, .f32⟩ : BufTy).Contents (Elt Ideal) → (⟨S300000x128, .f32⟩ : BufTy).Contents (Elt Ideal))
      _ _ _ _ (W23 m ρ c)).symm

end Cert.KernelIdeal.Dense

end
-- ==== Proof.Region6.lean ====
/-
  Kernel region 6: a dense layer of a 300000 × 128 array against a 128 × 128 weight and a one-row bias, in 30 tiles of 10000 rows.

  Tile t reads rows 10000·t … 10000·t + 9999 of the input and the whole weight and bias, and writes the same rows of the
  output.  Entry (p, j) of the layer reads row p of the input only, so what tile t writes back is rows 10000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay6 (x0 : Vec Ideal S10000x128 .f32) (x1 : Vec Ideal S128x128 .f32) (x2 : Vec Ideal S1x128 .f32) :
    k6_pay1 (F := Ideal) x0 x1 x2 = dense (n := 10000) (k := 128) (d := 128) x0 x1 x2 := by
  unfold k6_pay1
  rw [shapeCast_self x0]
  exact body_dense dot_S10000x128_S128x128_S10000x128_1_0_0_1_n_n rfl x0 x1 x2 _ _ _ _

/-- The printed index maps over the grid: the input's and the output's block row is the point, every other block index 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b))

/-- What tile t writes back is its block of the layer of the whole arrays the region finds. -/
theorem flushed6 (c : Dev nD) (t : Fin cfg6.N) :
    (dat6 V c).flushed 3 t = ((cfg6.win 3).blk t).view.read (Elt Ideal) (dense (n := 300000) (k := 128) (d := 128) (V c main_v215) (V c main_arg14) (V c main_v217)) := by
  show (cfg6.win 3).cut (grid6.coords t) ((dat6 V c).after 3 t) = _
  rw [after6_3]
  unfold out6_3
  rw [View.canon_unit_zero zero2]
  simp only [View.ld_unit_zero (S := S10000x128) zero2, View.ld_unit_zero (S := S128x128) zero2, View.ld_unit_zero (S := S1x128) zero2]
  rw [pay6]
  obtain ⟨e0, e1, e2, e3, e4, e5, e6, e7⟩ := idx6 t
  have hN : grid6.N = 30 := N_6
  have ht : t.val < 30 := hN ▸ t.isLt
  funext j
  obtain ⟨p, q, rfl⟩ : ∃ (p : Fin 10000) (q : Fin 128), j = ix2 p q := ⟨j 0, j 1, eq_ix2 j⟩
  have hp : p.val < 10000 := p.isLt
  have hq : q.val < 128 := q.isLt
  have hemb : ((cfg6.win 3).blk t).view.emb (ix2 p q) = ix2 (⟨t.val * 10000 + p.val, by omega⟩ : Fin 300000) q := by
    funext a; apply Fin.ext
    match a with
    | ⟨0, _⟩ => show win6_3.index t (0 : Fin 2) * 10000 + 1 * p.val = t.val * 10000 + p.val; omega
    | ⟨1, _⟩ => show win6_3.index t (1 : Fin 2) * 128 + 1 * q.val = q.val; omega
  show dense (n := 10000) (k := 128) (d := 128) (iblk6 V c 0 t) (iblk6 V c 1 t) (iblk6 V c 2 t) (ix2 p q)
      = (dense (n := 300000) (k := 128) (d := 128) (V c main_v215) (V c main_arg14) (V c main_v217)) (((cfg6.win 3).blk t).view.emb (ix2 p q))
  rw [hemb]
  refine dense_blocks _ _ _ _ _ _ p _ q (fun s => ?_) (fun s => ?_) ?_
  · show V c main_v215 (((cfg6.win 0).blk t).view.emb (ix2 p s)) = V c main_v215 (ix2 (⟨t.val * 10000 + p.val, by omega⟩ : Fin 300000) s)
    refine congrArg _ (funext fun a => Fin.ext ?_)
    have hs : s.val < 128 := s.isLt
    match a with
    | ⟨0, _⟩ => show win6_0.index t (0 : Fin 2) * 10000 + 1 * p.val = t.val * 10000 + p.val; omega
    | ⟨1, _⟩ => show win6_0.index t (1 : Fin 2) * 128 + 1 * s.val = s.val; omega
  · show V c main_arg14 (((cfg6.win 1).blk t).view.emb (ix2 s q)) = V c main_arg14 (ix2 s q)
    refine congrArg _ (funext fun a => Fin.ext ?_)
    have hs : s.val < 128 := s.isLt
    match a with
    | ⟨0, _⟩ => show win6_1.index t (0 : Fin 2) * 128 + 1 * s.val = s.val; omega
    | ⟨1, _⟩ => show win6_1.index t (1 : Fin 2) * 128 + 1 * q.val = q.val; omega
  · show V c main_v217 (((cfg6.win 2).blk t).view.emb (ix2 (0 : Fin 1) q)) = V c main_v217 (ix2 (0 : Fin 1) q)
    refine congrArg _ (funext fun a => Fin.ext ?_)
    match a with
    | ⟨0, _⟩ => show win6_2.index t (0 : Fin 2) * 1 + 1 * (0 : Fin 1).val = (0 : Fin 1).val; show win6_2.index t (0 : Fin 2) * 1 + 1 * 0 = 0; omega
    | ⟨1, _⟩ => show win6_2.index t (1 : Fin 2) * 128 + 1 * q.val = q.val; omega

/-- An index of the output array is in tile t's block iff its row is one of the tile's. -/
theorem mem_blk6 (t : Fin cfg6.N) (i : S300000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v218).slice (win6_3.rect t)).set ↔ _
  rw [View.set_slice_whole, Rect.mem_set_unit]
  exact Iff.rfl

/-- The tiles cover every row. -/
theorem cover6 (i : S300000x128.Idx) : ∃ t : Fin cfg6.N, (cfg6.win 3).flush t = true ∧ i ∈ ((cfg6.win 3).blk t).view.set := by
  have hN : grid6.N = 30 := N_6
  have hi0 : (i 0).val < 300000 := (i 0).isLt
  have hi1 : (i 1).val < 128 := (i 1).isLt
  let t : Fin cfg6.N := ⟨(i 0).val / 10000, by show (i 0).val / 10000 < grid6.N; omega⟩
  obtain ⟨e0, e1, e2, e3, e4, e5, e6, e7⟩ := idx6 t
  have e6' : win6_3.index t (0 : Fin 2) = (i 0).val / 10000 := e6
  refine ⟨t, flush6_3 t, ?_⟩
  rw [mem_blk6]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 128 ≤ (i 1).val ∧ (i 1).val < win6_3.index t (1 : Fin 2) * 128 + 128; omega

/-- The output array after the region: the layer of the whole arrays the region was entered with. -/
theorem final6 (c : Dev nD) :
    (dat6 V c).arrAt 3 cfg6.N = dense (n := 300000) (k := 128) (d := 128) (V c main_v215) (V c main_arg14) (V c main_v217) :=
  (dat6 V c).arrAt_eq_of_cover 3 _ (fun t _ => flushed6 V c t) (cover6)

end

/-- Leaving the region is running that operation on the contents it was entered with. -/
theorem region6 (m : (ℓ : Loc nD τ sig) → Buf (Elt Ideal) ℓ) (ρ : Dev nD → PrngReg) (c : Dev nD) :
    W30 m ρ c = dop6.result (W29 m ρ c) := by
  unfold W30
  refine Cert.LibRegionOp.withArrays_eq_result spec6 launch6.win.arr_inj c (W29 m ρ c) _ dop6 3 rfl (fun w hw => ?_) ?_
  · exact ins6 (V29 m ρ) c w hw
  · refine (final6 (V29 m ρ) c).trans ?_
    unfold dop6
    exact (StableHlo.ternary_result main_v215 main_arg14 main_v217 main_v218
      ((fun X W B => dense (n := 300000) (k := 128) (d := 128) X W B) : (⟨S300000x128, .f32⟩ : BufTy).Contents (Elt Ideal) → (⟨S128x128, .f32⟩ : BufTy).Contents (Elt Ideal) → (⟨S1x128, .f32⟩ : BufTy).Contents (Elt Ideal) → (⟨S300000x128, .f32⟩ : BufTy).Contents (Elt Ideal))
      _ _ _ _ (W29 m ρ c)).symm

end Cert.KernelIdeal.Dense

end
-- ==== Proof.Region7.lean ====
/-
  Kernel region 7: a dense layer of a 300000 × 128 array against a 128 × 128 weight and a one-row bias, in 30 tiles of 10000 rows.

  Tile t reads rows 10000·t … 10000·t + 9999 of the input and the whole weight and bias, and writes the same rows of the
  output.  Entry (p, j) of the layer reads row p of the input only, so what tile t writes back is rows 10000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay7 (x0 : Vec Ideal S10000x128 .f32) (x1 : Vec Ideal S128x128 .f32) (x2 : Vec Ideal S1x128 .f32) :
    k7_pay1 (F := Ideal) x0 x1 x2 = dense (n := 10000) (k := 128) (d := 128) x0 x1 x2 := by
  unfold k7_pay1
  rw [shapeCast_self x0]
  exact body_dense dot_S10000x128_S128x128_S10000x128_1_0_0_1_n_n rfl x0 x1 x2 _ _ _ _

/-- The printed index maps over the grid: the input's and the output's block row is the point, every other block index 0. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

section
variable (V : (c : Dev nD) → (b : Ref sig .tc) → Buf (Elt Ideal) ((c : Thread nD τ).loc b))

/-- What tile t writes back is its block of the layer of the whole arrays the region finds. -/
theorem flushed7 (c : Dev nD) (t : Fin cfg7.N) :
    (dat7 V c).flushed 3 t = ((cfg7.win 3).blk t).view.read (Elt Ideal) (dense (n := 300000) (k := 128) (d := 128) (V c main_v263) (V c main_arg16) (V c main_v265)) := by
  show (cfg7.win 3).cut (grid7.coords t) ((dat7 V c).after 3 t) = _
  rw [after7_3]
  unfold out7_3
  rw [View.canon_unit_zero zero2]
  simp only [View.ld_unit_zero (S := S10000x128) zero2, View.ld_unit_zero (S := S128x128) zero2, View.ld_unit_zero (S := S1x128) zero2]
  rw [pay7]
  obtain ⟨e0, e1, e2, e3, e4, e5, e6, e7⟩ := idx7 t
  have hN : grid7.N = 30 := N_7
  have ht : t.val < 30 := hN ▸ t.isLt
  funext j
  obtain ⟨p, q, rfl⟩ : ∃ (p : Fin 10000) (q : Fin 128), j = ix2 p q := ⟨j 0, j 1, eq_ix2 j⟩
  have hp : p.val < 10000 := p.isLt
  have hq : q.val < 128 := q.isLt
  have hemb : ((cfg7.win 3).blk t).view.emb (ix2 p q) = ix2 (⟨t.val * 10000 + p.val, by omega⟩ : Fin 300000) q := by
    funext a; apply Fin.ext
    match a with
    | ⟨0, _⟩ => show win7_3.index t (0 : Fin 2) * 10000 + 1 * p.val = t.val * 10000 + p.val; omega
    | ⟨1, _⟩ => show win7_3.index t (1 : Fin 2) * 128 + 1 * q.val = q.val; omega
  show dense (n := 10000) (k := 128) (d := 128) (iblk7 V c 0 t) (iblk7 V c 1 t) (iblk7 V c 2 t) (ix2 p q)
      = (dense (n := 300000) (k := 128) (d := 128) (V c main_v263) (V c main_arg16) (V c main_v265)) (((cfg7.win 3).blk t).view.emb (ix2 p q))
  rw [hemb]
  refine dense_blocks _ _ _ _ _ _ p _ q (fun s => ?_) (fun s => ?_) ?_
  · show V c main_v263 (((cfg7.win 0).blk t).view.emb (ix2 p s)) = V c main_v263 (ix2 (⟨t.val * 10000 + p.val, by omega⟩ : Fin 300000) s)
    refine congrArg _ (funext fun a => Fin.ext ?_)
    have hs : s.val < 128 := s.isLt
    match a with
    | ⟨0, _⟩ => show win7_0.index t (0 : Fin 2) * 10000 + 1 * p.val = t.val * 10000 + p.val; omega
    | ⟨1, _⟩ => show win7_0.index t (1 : Fin 2) * 128 + 1 * s.val = s.val; omega
  · show V c main_arg16 (((cfg7.win 1).blk t).view.emb (ix2 s q)) = V c main_arg16 (ix2 s q)
    refine congrArg _ (funext fun a => Fin.ext ?_)
    have hs : s.val < 128 := s.isLt
    match a with
    | ⟨0, _⟩ => show win7_1.index t (0 : Fin 2) * 128 + 1 * s.val = s.val; omega
    | ⟨1, _⟩ => show win7_1.index t (1 : Fin 2) * 128 + 1 * q.val = q.val; omega
  · show V c main_v265 (((cfg7.win 2).blk t).view.emb (ix2 (0 : Fin 1) q)) = V c main_v265 (ix2 (0 : Fin 1) q)
    refine congrArg _ (funext fun a => Fin.ext ?_)
    match a with
    | ⟨0, _⟩ => show win7_2.index t (0 : Fin 2) * 1 + 1 * (0 : Fin 1).val = (0 : Fin 1).val; show win7_2.index t (0 : Fin 2) * 1 + 1 * 0 = 0; omega
    | ⟨1, _⟩ => show win7_2.index t (1 : Fin 2) * 128 + 1 * q.val = q.val; omega

/-- An index of the output array is in tile t's block iff its row is one of the tile's. -/
theorem mem_blk7 (t : Fin cfg7.N) (i : S300000x128.Idx) :
    i ∈ ((cfg7.win 3).blk t).view.set ↔ ∀ a : Fin 2, win7_3.index t a * S10000x128.size a ≤ (i a).val ∧ (i a).val < win7_3.index t a * S10000x128.size a + S10000x128.size a := by
  show i ∈ ((View.whole main_v266).slice (win7_3.rect t)).set ↔ _
  rw [View.set_slice_whole, Rect.mem_set_unit]
  exact Iff.rfl

/-- The tiles cover every row. -/
theorem cover7 (i : S300000x128.Idx) : ∃ t : Fin cfg7.N, (cfg7.win 3).flush t = true ∧ i ∈ ((cfg7.win 3).blk t).view.set := by
  have hN : grid7.N = 30 := N_7
  have hi0 : (i 0).val < 300000 := (i 0).isLt
  have hi1 : (i 1).val < 128 := (i 1).isLt
  let t : Fin cfg7.N := ⟨(i 0).val / 10000, by show (i 0).val / 10000 < grid7.N; omega⟩
  obtain ⟨e0, e1, e2, e3, e4, e5, e6, e7⟩ := idx7 t
  have e6' : win7_3.index t (0 : Fin 2) = (i 0).val / 10000 := e6
  refine ⟨t, flush7_3 t, ?_⟩
  rw [mem_blk7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 128 ≤ (i 1).val ∧ (i 1).val < win7_3.index t (1 : Fin 2) * 128 + 128; omega

/-- The output array after the region: the layer of the whole arrays the region was entered with. -/
theorem final7 (c : Dev nD) :
    (dat7 V c).arrAt 3 cfg7.N = dense (n := 300000) (k := 128) (d := 128) (V c main_v263) (V c main_arg16) (V c main_v265) :=
  (dat7 V c).arrAt_eq_of_cover 3 _ (fun t _ => flushed7 V c t) (cover7)

end

/-- Leaving the region is running that operation on the contents it was entered with. -/
theorem region7 (m : (ℓ : Loc nD τ sig) → Buf (Elt Ideal) ℓ) (ρ : Dev nD → PrngReg) (c : Dev nD) :
    W36 m ρ c = dop7.result (W35 m ρ c) := by
  unfold W36
  refine Cert.LibRegionOp.withArrays_eq_result spec7 launch7.win.arr_inj c (W35 m ρ c) _ dop7 3 rfl (fun w hw => ?_) ?_
  · exact ins7 (V35 m ρ) c w hw
  · refine (final7 (V35 m ρ) c).trans ?_
    unfold dop7
    exact (StableHlo.ternary_result main_v263 main_arg16 main_v265 main_v266
      ((fun X W B => dense (n := 300000) (k := 128) (d := 128) X W B) : (⟨S300000x128, .f32⟩ : BufTy).Contents (Elt Ideal) → (⟨S128x128, .f32⟩ : BufTy).Contents (Elt Ideal) → (⟨S1x128, .f32⟩ : BufTy).Contents (Elt Ideal) → (⟨S300000x128, .f32⟩ : BufTy).Contents (Elt Ideal))
      _ _ _ _ (W35 m ρ c)).symm

end Cert.KernelIdeal.Dense

end
-- ==== Proof.Region8.lean ====
/-
  Kernel region 8: a dense layer of a 2000 × 128 array against a 128 × 1024 weight and a one-row bias, in 1 tile of 2000 rows, followed by the positive part.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  (X · W + B)⁺.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay8 (x0 : Vec Ideal S2000x128 .f32) (x1 : Vec Ideal S128x1024 .f32) (x2 : Vec Ideal S1x1024 .f32) :
    k8_pay1 (F := Ideal) x0 x1 x2 = relu (dense (n := 2000) (k := 128) (d := 1024) x0 x1 x2) := by
  unfold k8_pay1
  rw [shapeCast_self x0]
  exact body_dense_relu dot_S2000x128_S128x1024_S2000x1024_1_0_0_1_n_n rfl x0 x1 x2 _ _ _ _

/-- The printed index maps over the grid: the input's and the output's block row is the point, every other block index 0. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

section
variable (V : (c : Dev nD) → (b : Ref sig .tc) → Buf (Elt Ideal) ((c : Thread nD τ).loc b))

/-- What tile t writes back is its block of the layer of the whole arrays the region finds. -/
theorem flushed8 (c : Dev nD) (t : Fin cfg8.N) :
    (dat8 V c).flushed 3 t = ((cfg8.win 3).blk t).view.read (Elt Ideal) (relu (dense (n := 2000) (k := 128) (d := 1024) (V c main_v323) (V c main_arg18) (V c main_v324))) := by
  show (cfg8.win 3).cut (grid8.coords t) ((dat8 V c).after 3 t) = _
  rw [after8_3]
  unfold out8_3
  rw [View.canon_unit_zero zero2]
  simp only [View.ld_unit_zero (S := S2000x128) zero2, View.ld_unit_zero (S := S128x1024) zero2, View.ld_unit_zero (S := S1x1024) zero2]
  rw [pay8]
  obtain ⟨e0, e1, e2, e3, e4, e5, e6, e7⟩ := idx8 t
  have hN : grid8.N = 1 := N_8
  have ht : t.val < 1 := hN ▸ t.isLt
  funext j
  obtain ⟨p, q, rfl⟩ : ∃ (p : Fin 2000) (q : Fin 1024), j = ix2 p q := ⟨j 0, j 1, eq_ix2 j⟩
  have hp : p.val < 2000 := p.isLt
  have hq : q.val < 1024 := q.isLt
  have hemb : ((cfg8.win 3).blk t).view.emb (ix2 p q) = ix2 (⟨t.val * 2000 + p.val, by omega⟩ : Fin 2000) q := by
    funext a; apply Fin.ext
    match a with
    | ⟨0, _⟩ => show win8_3.index t (0 : Fin 2) * 2000 + 1 * p.val = t.val * 2000 + p.val; omega
    | ⟨1, _⟩ => show win8_3.index t (1 : Fin 2) * 1024 + 1 * q.val = q.val; omega
  show relu (dense (n := 2000) (k := 128) (d := 1024) (iblk8 V c 0 t) (iblk8 V c 1 t) (iblk8 V c 2 t)) (ix2 p q)
      = (relu (dense (n := 2000) (k := 128) (d := 1024) (V c main_v323) (V c main_arg18) (V c main_v324))) (((cfg8.win 3).blk t).view.emb (ix2 p q))
  rw [hemb]
  refine relu_dense_blocks _ _ _ _ _ _ p _ q (fun s => ?_) (fun s => ?_) ?_
  · show V c main_v323 (((cfg8.win 0).blk t).view.emb (ix2 p s)) = V c main_v323 (ix2 (⟨t.val * 2000 + p.val, by omega⟩ : Fin 2000) s)
    refine congrArg _ (funext fun a => Fin.ext ?_)
    have hs : s.val < 128 := s.isLt
    match a with
    | ⟨0, _⟩ => show win8_0.index t (0 : Fin 2) * 2000 + 1 * p.val = t.val * 2000 + p.val; omega
    | ⟨1, _⟩ => show win8_0.index t (1 : Fin 2) * 128 + 1 * s.val = s.val; omega
  · show V c main_arg18 (((cfg8.win 1).blk t).view.emb (ix2 s q)) = V c main_arg18 (ix2 s q)
    refine congrArg _ (funext fun a => Fin.ext ?_)
    have hs : s.val < 128 := s.isLt
    match a with
    | ⟨0, _⟩ => show win8_1.index t (0 : Fin 2) * 128 + 1 * s.val = s.val; omega
    | ⟨1, _⟩ => show win8_1.index t (1 : Fin 2) * 1024 + 1 * q.val = q.val; omega
  · show V c main_v324 (((cfg8.win 2).blk t).view.emb (ix2 (0 : Fin 1) q)) = V c main_v324 (ix2 (0 : Fin 1) q)
    refine congrArg _ (funext fun a => Fin.ext ?_)
    match a with
    | ⟨0, _⟩ => show win8_2.index t (0 : Fin 2) * 1 + 1 * (0 : Fin 1).val = (0 : Fin 1).val; show win8_2.index t (0 : Fin 2) * 1 + 1 * 0 = 0; omega
    | ⟨1, _⟩ => show win8_2.index t (1 : Fin 2) * 1024 + 1 * q.val = q.val; omega

/-- An index of the output array is in tile t's block iff its row is one of the tile's. -/
theorem mem_blk8 (t : Fin cfg8.N) (i : S2000x1024.Idx) :
    i ∈ ((cfg8.win 3).blk t).view.set ↔ ∀ a : Fin 2, win8_3.index t a * S2000x1024.size a ≤ (i a).val ∧ (i a).val < win8_3.index t a * S2000x1024.size a + S2000x1024.size a := by
  show i ∈ ((View.whole main_v325).slice (win8_3.rect t)).set ↔ _
  rw [View.set_slice_whole, Rect.mem_set_unit]
  exact Iff.rfl

/-- The tiles cover every row. -/
theorem cover8 (i : S2000x1024.Idx) : ∃ t : Fin cfg8.N, (cfg8.win 3).flush t = true ∧ i ∈ ((cfg8.win 3).blk t).view.set := by
  have hN : grid8.N = 1 := N_8
  have hi0 : (i 0).val < 2000 := (i 0).isLt
  have hi1 : (i 1).val < 1024 := (i 1).isLt
  let t : Fin cfg8.N := ⟨(i 0).val / 2000, by show (i 0).val / 2000 < grid8.N; omega⟩
  obtain ⟨e0, e1, e2, e3, e4, e5, e6, e7⟩ := idx8 t
  have e6' : win8_3.index t (0 : Fin 2) = (i 0).val / 2000 := e6
  refine ⟨t, flush8_3 t, ?_⟩
  rw [mem_blk8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 1024 ≤ (i 1).val ∧ (i 1).val < win8_3.index t (1 : Fin 2) * 1024 + 1024; omega

/-- The output array after the region: the layer of the whole arrays the region was entered with. -/
theorem final8 (c : Dev nD) :
    (dat8 V c).arrAt 3 cfg8.N = relu (dense (n := 2000) (k := 128) (d := 1024) (V c main_v323) (V c main_arg18) (V c main_v324)) :=
  (dat8 V c).arrAt_eq_of_cover 3 _ (fun t _ => flushed8 V c t) (cover8)

end

/-- Leaving the region is running that operation on the contents it was entered with. -/
theorem region8 (m : (ℓ : Loc nD τ sig) → Buf (Elt Ideal) ℓ) (ρ : Dev nD → PrngReg) (c : Dev nD) :
    W42 m ρ c = dop8.result (W41 m ρ c) := by
  unfold W42
  refine Cert.LibRegionOp.withArrays_eq_result spec8 launch8.win.arr_inj c (W41 m ρ c) _ dop8 3 rfl (fun w hw => ?_) ?_
  · exact ins8 (V41 m ρ) c w hw
  · refine (final8 (V41 m ρ) c).trans ?_
    unfold dop8
    exact (StableHlo.ternary_result main_v323 main_arg18 main_v324 main_v325
      ((fun X W B => relu (dense (n := 2000) (k := 128) (d := 1024) X W B)) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))
      _ _ _ _ (W41 m ρ c)).symm

end Cert.KernelIdeal.Dense

end
-- ==== Proof.Region9.lean ====
/-
  Kernel region 9: a dense layer of a 2000 × 1024 array against a 1024 × 128 weight and a one-row bias, in 1 tile of 2000 rows.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay9 (x0 : Vec Ideal S2000x1024 .f32) (x1 : Vec Ideal S1024x128 .f32) (x2 : Vec Ideal S1x128 .f32) :
    k9_pay1 (F := Ideal) x0 x1 x2 = dense (n := 2000) (k := 1024) (d := 128) x0 x1 x2 := by
  unfold k9_pay1
  rw [shapeCast_self x0]
  exact body_dense dot_S2000x1024_S1024x128_S2000x128_1_0_0_1_n_n rfl x0 x1 x2 _ _ _ _

/-- The printed index maps over the grid: the input's and the output's block row is the point, every other block index 0. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

section
variable (V : (c : Dev nD) → (b : Ref sig .tc) → Buf (Elt Ideal) ((c : Thread nD τ).loc b))

/-- What tile t writes back is its block of the layer of the whole arrays the region finds. -/
theorem flushed9 (c : Dev nD) (t : Fin cfg9.N) :
    (dat9 V c).flushed 3 t = ((cfg9.win 3).blk t).view.read (Elt Ideal) (dense (n := 2000) (k := 1024) (d := 128) (V c main_v325) (V c main_arg20) (V c main_v326)) := by
  show (cfg9.win 3).cut (grid9.coords t) ((dat9 V c).after 3 t) = _
  rw [after9_3]
  unfold out9_3
  rw [View.canon_unit_zero zero2]
  simp only [View.ld_unit_zero (S := S2000x1024) zero2, View.ld_unit_zero (S := S1024x128) zero2, View.ld_unit_zero (S := S1x128) zero2]
  rw [pay9]
  obtain ⟨e0, e1, e2, e3, e4, e5, e6, e7⟩ := idx9 t
  have hN : grid9.N = 1 := N_9
  have ht : t.val < 1 := hN ▸ t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  have hemb : ((cfg9.win 3).blk t).view.emb (ix2 p q) = ix2 (⟨t.val * 2000 + p.val, by omega⟩ : Fin 2000) q := by
    funext a; apply Fin.ext
    match a with
    | ⟨0, _⟩ => show win9_3.index t (0 : Fin 2) * 2000 + 1 * p.val = t.val * 2000 + p.val; omega
    | ⟨1, _⟩ => show win9_3.index t (1 : Fin 2) * 128 + 1 * q.val = q.val; omega
  show dense (n := 2000) (k := 1024) (d := 128) (iblk9 V c 0 t) (iblk9 V c 1 t) (iblk9 V c 2 t) (ix2 p q)
      = (dense (n := 2000) (k := 1024) (d := 128) (V c main_v325) (V c main_arg20) (V c main_v326)) (((cfg9.win 3).blk t).view.emb (ix2 p q))
  rw [hemb]
  refine dense_blocks _ _ _ _ _ _ p _ q (fun s => ?_) (fun s => ?_) ?_
  · show V c main_v325 (((cfg9.win 0).blk t).view.emb (ix2 p s)) = V c main_v325 (ix2 (⟨t.val * 2000 + p.val, by omega⟩ : Fin 2000) s)
    refine congrArg _ (funext fun a => Fin.ext ?_)
    have hs : s.val < 1024 := s.isLt
    match a with
    | ⟨0, _⟩ => show win9_0.index t (0 : Fin 2) * 2000 + 1 * p.val = t.val * 2000 + p.val; omega
    | ⟨1, _⟩ => show win9_0.index t (1 : Fin 2) * 1024 + 1 * s.val = s.val; omega
  · show V c main_arg20 (((cfg9.win 1).blk t).view.emb (ix2 s q)) = V c main_arg20 (ix2 s q)
    refine congrArg _ (funext fun a => Fin.ext ?_)
    have hs : s.val < 1024 := s.isLt
    match a with
    | ⟨0, _⟩ => show win9_1.index t (0 : Fin 2) * 1024 + 1 * s.val = s.val; omega
    | ⟨1, _⟩ => show win9_1.index t (1 : Fin 2) * 128 + 1 * q.val = q.val; omega
  · show V c main_v326 (((cfg9.win 2).blk t).view.emb (ix2 (0 : Fin 1) q)) = V c main_v326 (ix2 (0 : Fin 1) q)
    refine congrArg _ (funext fun a => Fin.ext ?_)
    match a with
    | ⟨0, _⟩ => show win9_2.index t (0 : Fin 2) * 1 + 1 * (0 : Fin 1).val = (0 : Fin 1).val; show win9_2.index t (0 : Fin 2) * 1 + 1 * 0 = 0; omega
    | ⟨1, _⟩ => show win9_2.index t (1 : Fin 2) * 128 + 1 * q.val = q.val; omega

/-- An index of the output array is in tile t's block iff its row is one of the tile's. -/
theorem mem_blk9 (t : Fin cfg9.N) (i : S2000x128.Idx) :
    i ∈ ((cfg9.win 3).blk t).view.set ↔ ∀ a : Fin 2, win9_3.index t a * S2000x128.size a ≤ (i a).val ∧ (i a).val < win9_3.index t a * S2000x128.size a + S2000x128.size a := by
  show i ∈ ((View.whole main_v327).slice (win9_3.rect t)).set ↔ _
  rw [View.set_slice_whole, Rect.mem_set_unit]
  exact Iff.rfl

/-- The tiles cover every row. -/
theorem cover9 (i : S2000x128.Idx) : ∃ t : Fin cfg9.N, (cfg9.win 3).flush t = true ∧ i ∈ ((cfg9.win 3).blk t).view.set := by
  have hN : grid9.N = 1 := N_9
  have hi0 : (i 0).val < 2000 := (i 0).isLt
  have hi1 : (i 1).val < 128 := (i 1).isLt
  let t : Fin cfg9.N := ⟨(i 0).val / 2000, by show (i 0).val / 2000 < grid9.N; omega⟩
  obtain ⟨e0, e1, e2, e3, e4, e5, e6, e7⟩ := idx9 t
  have e6' : win9_3.index t (0 : Fin 2) = (i 0).val / 2000 := e6
  refine ⟨t, flush9_3 t, ?_⟩
  rw [mem_blk9]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 128 ≤ (i 1).val ∧ (i 1).val < win9_3.index t (1 : Fin 2) * 128 + 128; omega

/-- The output array after the region: the layer of the whole arrays the region was entered with. -/
theorem final9 (c : Dev nD) :
    (dat9 V c).arrAt 3 cfg9.N = dense (n := 2000) (k := 1024) (d := 128) (V c main_v325) (V c main_arg20) (V c main_v326) :=
  (dat9 V c).arrAt_eq_of_cover 3 _ (fun t _ => flushed9 V c t) (cover9)

end

/-- Leaving the region is running that operation on the contents it was entered with. -/
theorem region9 (m : (ℓ : Loc nD τ sig) → Buf (Elt Ideal) ℓ) (ρ : Dev nD → PrngReg) (c : Dev nD) :
    W44 m ρ c = dop9.result (W43 m ρ c) := by
  unfold W44
  refine Cert.LibRegionOp.withArrays_eq_result spec9 launch9.win.arr_inj c (W43 m ρ c) _ dop9 3 rfl (fun w hw => ?_) ?_
  · exact ins9 (V43 m ρ) c w hw
  · refine (final9 (V43 m ρ) c).trans ?_
    unfold dop9
    exact (StableHlo.ternary_result main_v325 main_arg20 main_v326 main_v327
      ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))
      _ _ _ _ (W43 m ρ c)).symm

end Cert.KernelIdeal.Dense

end
-- ==== Proof.Region10.lean ====
/-
  Kernel region 10: a dense layer of a 2000 × 128 array against a 128 × 1024 weight and a one-row bias, in 1 tile of 2000 rows.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay10 (x0 : Vec Ideal S2000x128 .f32) (x1 : Vec Ideal S128x1024 .f32) (x2 : Vec Ideal S1x1024 .f32) :
    k10_pay1 (F := Ideal) x0 x1 x2 = dense (n := 2000) (k := 128) (d := 1024) x0 x1 x2 := by
  unfold k10_pay1
  rw [shapeCast_self x0]
  exact body_dense dot_S2000x128_S128x1024_S2000x1024_1_0_0_1_n_n rfl x0 x1 x2 _ _ _ _

/-- The printed index maps over the grid: the input's and the output's block row is the point, every other block index 0. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

section
variable (V : (c : Dev nD) → (b : Ref sig .tc) → Buf (Elt Ideal) ((c : Thread nD τ).loc b))

/-- What tile t writes back is its block of the layer of the whole arrays the region finds. -/
theorem flushed10 (c : Dev nD) (t : Fin cfg10.N) :
    (dat10 V c).flushed 3 t = ((cfg10.win 3).blk t).view.read (Elt Ideal) (dense (n := 2000) (k := 128) (d := 1024) (V c main_v327) (V c main_arg22) (V c main_v333)) := by
  show (cfg10.win 3).cut (grid10.coords t) ((dat10 V c).after 3 t) = _
  rw [after10_3]
  unfold out10_3
  rw [View.canon_unit_zero zero2]
  simp only [View.ld_unit_zero (S := S2000x128) zero2, View.ld_unit_zero (S := S128x1024) zero2, View.ld_unit_zero (S := S1x1024) zero2]
  rw [pay10]
  obtain ⟨e0, e1, e2, e3, e4, e5, e6, e7⟩ := idx10 t
  have hN : grid10.N = 1 := N_10
  have ht : t.val < 1 := hN ▸ t.isLt
  funext j
  obtain ⟨p, q, rfl⟩ : ∃ (p : Fin 2000) (q : Fin 1024), j = ix2 p q := ⟨j 0, j 1, eq_ix2 j⟩
  have hp : p.val < 2000 := p.isLt
  have hq : q.val < 1024 := q.isLt
  have hemb : ((cfg10.win 3).blk t).view.emb (ix2 p q) = ix2 (⟨t.val * 2000 + p.val, by omega⟩ : Fin 2000) q := by
    funext a; apply Fin.ext
    match a with
    | ⟨0, _⟩ => show win10_3.index t (0 : Fin 2) * 2000 + 1 * p.val = t.val * 2000 + p.val; omega
    | ⟨1, _⟩ => show win10_3.index t (1 : Fin 2) * 1024 + 1 * q.val = q.val; omega
  show dense (n := 2000) (k := 128) (d := 1024) (iblk10 V c 0 t) (iblk10 V c 1 t) (iblk10 V c 2 t) (ix2 p q)
      = (dense (n := 2000) (k := 128) (d := 1024) (V c main_v327) (V c main_arg22) (V c main_v333)) (((cfg10.win 3).blk t).view.emb (ix2 p q))
  rw [hemb]
  refine dense_blocks _ _ _ _ _ _ p _ q (fun s => ?_) (fun s => ?_) ?_
  · show V c main_v327 (((cfg10.win 0).blk t).view.emb (ix2 p s)) = V c main_v327 (ix2 (⟨t.val * 2000 + p.val, by omega⟩ : Fin 2000) s)
    refine congrArg _ (funext fun a => Fin.ext ?_)
    have hs : s.val < 128 := s.isLt
    match a with
    | ⟨0, _⟩ => show win10_0.index t (0 : Fin 2) * 2000 + 1 * p.val = t.val * 2000 + p.val; omega
    | ⟨1, _⟩ => show win10_0.index t (1 : Fin 2) * 128 + 1 * s.val = s.val; omega
  · show V c main_arg22 (((cfg10.win 1).blk t).view.emb (ix2 s q)) = V c main_arg22 (ix2 s q)
    refine congrArg _ (funext fun a => Fin.ext ?_)
    have hs : s.val < 128 := s.isLt
    match a with
    | ⟨0, _⟩ => show win10_1.index t (0 : Fin 2) * 128 + 1 * s.val = s.val; omega
    | ⟨1, _⟩ => show win10_1.index t (1 : Fin 2) * 1024 + 1 * q.val = q.val; omega
  · show V c main_v333 (((cfg10.win 2).blk t).view.emb (ix2 (0 : Fin 1) q)) = V c main_v333 (ix2 (0 : Fin 1) q)
    refine congrArg _ (funext fun a => Fin.ext ?_)
    match a with
    | ⟨0, _⟩ => show win10_2.index t (0 : Fin 2) * 1 + 1 * (0 : Fin 1).val = (0 : Fin 1).val; show win10_2.index t (0 : Fin 2) * 1 + 1 * 0 = 0; omega
    | ⟨1, _⟩ => show win10_2.index t (1 : Fin 2) * 1024 + 1 * q.val = q.val; omega

/-- An index of the output array is in tile t's block iff its row is one of the tile's. -/
theorem mem_blk10 (t : Fin cfg10.N) (i : S2000x1024.Idx) :
    i ∈ ((cfg10.win 3).blk t).view.set ↔ ∀ a : Fin 2, win10_3.index t a * S2000x1024.size a ≤ (i a).val ∧ (i a).val < win10_3.index t a * S2000x1024.size a + S2000x1024.size a := by
  show i ∈ ((View.whole main_v334).slice (win10_3.rect t)).set ↔ _
  rw [View.set_slice_whole, Rect.mem_set_unit]
  exact Iff.rfl

/-- The tiles cover every row. -/
theorem cover10 (i : S2000x1024.Idx) : ∃ t : Fin cfg10.N, (cfg10.win 3).flush t = true ∧ i ∈ ((cfg10.win 3).blk t).view.set := by
  have hN : grid10.N = 1 := N_10
  have hi0 : (i 0).val < 2000 := (i 0).isLt
  have hi1 : (i 1).val < 1024 := (i 1).isLt
  let t : Fin cfg10.N := ⟨(i 0).val / 2000, by show (i 0).val / 2000 < grid10.N; omega⟩
  obtain ⟨e0, e1, e2, e3, e4, e5, e6, e7⟩ := idx10 t
  have e6' : win10_3.index t (0 : Fin 2) = (i 0).val / 2000 := e6
  refine ⟨t, flush10_3 t, ?_⟩
  rw [mem_blk10]
  intro a
  match a with
  | ⟨0, _⟩ => show win10_3.index t (0 : Fin 2) * 2000 ≤ (i 0).val ∧ (i 0).val < win10_3.index t (0 : Fin 2) * 2000 + 2000; omega
  | ⟨1, _⟩ => show win10_3.index t (1 : Fin 2) * 1024 ≤ (i 1).val ∧ (i 1).val < win10_3.index t (1 : Fin 2) * 1024 + 1024; omega

/-- The output array after the region: the layer of the whole arrays the region was entered with. -/
theorem final10 (c : Dev nD) :
    (dat10 V c).arrAt 3 cfg10.N = dense (n := 2000) (k := 128) (d := 1024) (V c main_v327) (V c main_arg22) (V c main_v333) :=
  (dat10 V c).arrAt_eq_of_cover 3 _ (fun t _ => flushed10 V c t) (cover10)

end

/-- Leaving the region is running that operation on the contents it was entered with. -/
theorem region10 (m : (ℓ : Loc nD τ sig) → Buf (Elt Ideal) ℓ) (ρ : Dev nD → PrngReg) (c : Dev nD) :
    W46 m ρ c = dop10.result (W45 m ρ c) := by
  unfold W46
  refine Cert.LibRegionOp.withArrays_eq_result spec10 launch10.win.arr_inj c (W45 m ρ c) _ dop10 3 rfl (fun w hw => ?_) ?_
  · exact ins10 (V45 m ρ) c w hw
  · refine (final10 (V45 m ρ) c).trans ?_
    unfold dop10
    exact (StableHlo.ternary_result main_v327 main_arg22 main_v333 main_v334
      ((fun X W B => dense (n := 2000) (k := 128) (d := 1024) X W B) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))
      _ _ _ _ (W45 m ρ c)).symm

end Cert.KernelIdeal.Dense

end
-- ==== Proof.Region11.lean ====
/-
  Kernel region 11: a dense layer of a 2000 × 1024 array against a 1024 × 128 weight and a one-row bias, in 1 tile of 2000 rows.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay11 (x0 : Vec Ideal S2000x1024 .f32) (x1 : Vec Ideal S1024x128 .f32) (x2 : Vec Ideal S1x128 .f32) :
    k11_pay1 (F := Ideal) x0 x1 x2 = dense (n := 2000) (k := 1024) (d := 128) x0 x1 x2 := by
  unfold k11_pay1
  rw [shapeCast_self x0]
  exact body_dense dot_S2000x1024_S1024x128_S2000x128_1_0_0_1_n_n rfl x0 x1 x2 _ _ _ _

/-- The printed index maps over the grid: the input's and the output's block row is the point, every other block index 0. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

section
variable (V : (c : Dev nD) → (b : Ref sig .tc) → Buf (Elt Ideal) ((c : Thread nD τ).loc b))

/-- What tile t writes back is its block of the layer of the whole arrays the region finds. -/
theorem flushed11 (c : Dev nD) (t : Fin cfg11.N) :
    (dat11 V c).flushed 3 t = ((cfg11.win 3).blk t).view.read (Elt Ideal) (dense (n := 2000) (k := 1024) (d := 128) (V c main_v379) (V c main_arg24) (V c main_v381)) := by
  show (cfg11.win 3).cut (grid11.coords t) ((dat11 V c).after 3 t) = _
  rw [after11_3]
  unfold out11_3
  rw [View.canon_unit_zero zero2]
  simp only [View.ld_unit_zero (S := S2000x1024) zero2, View.ld_unit_zero (S := S1024x128) zero2, View.ld_unit_zero (S := S1x128) zero2]
  rw [pay11]
  obtain ⟨e0, e1, e2, e3, e4, e5, e6, e7⟩ := idx11 t
  have hN : grid11.N = 1 := N_11
  have ht : t.val < 1 := hN ▸ t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  have hemb : ((cfg11.win 3).blk t).view.emb (ix2 p q) = ix2 (⟨t.val * 2000 + p.val, by omega⟩ : Fin 2000) q := by
    funext a; apply Fin.ext
    match a with
    | ⟨0, _⟩ => show win11_3.index t (0 : Fin 2) * 2000 + 1 * p.val = t.val * 2000 + p.val; omega
    | ⟨1, _⟩ => show win11_3.index t (1 : Fin 2) * 128 + 1 * q.val = q.val; omega
  show dense (n := 2000) (k := 1024) (d := 128) (iblk11 V c 0 t) (iblk11 V c 1 t) (iblk11 V c 2 t) (ix2 p q)
      = (dense (n := 2000) (k := 1024) (d := 128) (V c main_v379) (V c main_arg24) (V c main_v381)) (((cfg11.win 3).blk t).view.emb (ix2 p q))
  rw [hemb]
  refine dense_blocks _ _ _ _ _ _ p _ q (fun s => ?_) (fun s => ?_) ?_
  · show V c main_v379 (((cfg11.win 0).blk t).view.emb (ix2 p s)) = V c main_v379 (ix2 (⟨t.val * 2000 + p.val, by omega⟩ : Fin 2000) s)
    refine congrArg _ (funext fun a => Fin.ext ?_)
    have hs : s.val < 1024 := s.isLt
    match a with
    | ⟨0, _⟩ => show win11_0.index t (0 : Fin 2) * 2000 + 1 * p.val = t.val * 2000 + p.val; omega
    | ⟨1, _⟩ => show win11_0.index t (1 : Fin 2) * 1024 + 1 * s.val = s.val; omega
  · show V c main_arg24 (((cfg11.win 1).blk t).view.emb (ix2 s q)) = V c main_arg24 (ix2 s q)
    refine congrArg _ (funext fun a => Fin.ext ?_)
    have hs : s.val < 1024 := s.isLt
    match a with
    | ⟨0, _⟩ => show win11_1.index t (0 : Fin 2) * 1024 + 1 * s.val = s.val; omega
    | ⟨1, _⟩ => show win11_1.index t (1 : Fin 2) * 128 + 1 * q.val = q.val; omega
  · show V c main_v381 (((cfg11.win 2).blk t).view.emb (ix2 (0 : Fin 1) q)) = V c main_v381 (ix2 (0 : Fin 1) q)
    refine congrArg _ (funext fun a => Fin.ext ?_)
    match a with
    | ⟨0, _⟩ => show win11_2.index t (0 : Fin 2) * 1 + 1 * (0 : Fin 1).val = (0 : Fin 1).val; show win11_2.index t (0 : Fin 2) * 1 + 1 * 0 = 0; omega
    | ⟨1, _⟩ => show win11_2.index t (1 : Fin 2) * 128 + 1 * q.val = q.val; omega

/-- An index of the output array is in tile t's block iff its row is one of the tile's. -/
theorem mem_blk11 (t : Fin cfg11.N) (i : S2000x128.Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v382).slice (win11_3.rect t)).set ↔ _
  rw [View.set_slice_whole, Rect.mem_set_unit]
  exact Iff.rfl

/-- The tiles cover every row. -/
theorem cover11 (i : S2000x128.Idx) : ∃ t : Fin cfg11.N, (cfg11.win 3).flush t = true ∧ i ∈ ((cfg11.win 3).blk t).view.set := by
  have hN : grid11.N = 1 := N_11
  have hi0 : (i 0).val < 2000 := (i 0).isLt
  have hi1 : (i 1).val < 128 := (i 1).isLt
  let t : Fin cfg11.N := ⟨(i 0).val / 2000, by show (i 0).val / 2000 < grid11.N; omega⟩
  obtain ⟨e0, e1, e2, e3, e4, e5, e6, e7⟩ := idx11 t
  have e6' : win11_3.index t (0 : Fin 2) = (i 0).val / 2000 := e6
  refine ⟨t, flush11_3 t, ?_⟩
  rw [mem_blk11]
  intro a
  match a with
  | ⟨0, _⟩ => show win11_3.index t (0 : Fin 2) * 2000 ≤ (i 0).val ∧ (i 0).val < win11_3.index t (0 : Fin 2) * 2000 + 2000; omega
  | ⟨1, _⟩ => show win11_3.index t (1 : Fin 2) * 128 ≤ (i 1).val ∧ (i 1).val < win11_3.index t (1 : Fin 2) * 128 + 128; omega

/-- The output array after the region: the layer of the whole arrays the region was entered with. -/
theorem final11 (c : Dev nD) :
    (dat11 V c).arrAt 3 cfg11.N = dense (n := 2000) (k := 1024) (d := 128) (V c main_v379) (V c main_arg24) (V c main_v381) :=
  (dat11 V c).arrAt_eq_of_cover 3 _ (fun t _ => flushed11 V c t) (cover11)

end

/-- Leaving the region is running that operation on the contents it was entered with. -/
theorem region11 (m : (ℓ : Loc nD τ sig) → Buf (Elt Ideal) ℓ) (ρ : Dev nD → PrngReg) (c : Dev nD) :
    W52 m ρ c = dop11.result (W51 m ρ c) := by
  unfold W52
  refine Cert.LibRegionOp.withArrays_eq_result spec11 launch11.win.arr_inj c (W51 m ρ c) _ dop11 3 rfl (fun w hw => ?_) ?_
  · exact ins11 (V51 m ρ) c w hw
  · refine (final11 (V51 m ρ) c).trans ?_
    unfold dop11
    exact (StableHlo.ternary_result main_v379 main_arg24 main_v381 main_v382
      ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))
      _ _ _ _ (W51 m ρ c)).symm

end Cert.KernelIdeal.Dense

end
-- ==== Proof.Region12.lean ====
/-
  Kernel region 12: a dense layer of a 2000 × 128 array against a 128 × 1024 weight and a one-row bias, in 1 tile of 2000 rows, followed by the positive part.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  (X · W + B)⁺.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay12 (x0 : Vec Ideal S2000x128 .f32) (x1 : Vec Ideal S128x1024 .f32) (x2 : Vec Ideal S1x1024 .f32) :
    k12_pay1 (F := Ideal) x0 x1 x2 = relu (dense (n := 2000) (k := 128) (d := 1024) x0 x1 x2) := by
  unfold k12_pay1
  rw [shapeCast_self x0]
  exact body_dense_relu dot_S2000x128_S128x1024_S2000x1024_1_0_0_1_n_n rfl x0 x1 x2 _ _ _ _

/-- The printed index maps over the grid: the input's and the output's block row is the point, every other block index 0. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

section
variable (V : (c : Dev nD) → (b : Ref sig .tc) → Buf (Elt Ideal) ((c : Thread nD τ).loc b))

/-- What tile t writes back is its block of the layer of the whole arrays the region finds. -/
theorem flushed12 (c : Dev nD) (t : Fin cfg12.N) :
    (dat12 V c).flushed 3 t = ((cfg12.win 3).blk t).view.read (Elt Ideal) (relu (dense (n := 2000) (k := 128) (d := 1024) (V c main_v427) (V c main_arg26) (V c main_v428))) := by
  show (cfg12.win 3).cut (grid12.coords t) ((dat12 V c).after 3 t) = _
  rw [after12_3]
  unfold out12_3
  rw [View.canon_unit_zero zero2]
  simp only [View.ld_unit_zero (S := S2000x128) zero2, View.ld_unit_zero (S := S128x1024) zero2, View.ld_unit_zero (S := S1x1024) zero2]
  rw [pay12]
  obtain ⟨e0, e1, e2, e3, e4, e5, e6, e7⟩ := idx12 t
  have hN : grid12.N = 1 := N_12
  have ht : t.val < 1 := hN ▸ t.isLt
  funext j
  obtain ⟨p, q, rfl⟩ : ∃ (p : Fin 2000) (q : Fin 1024), j = ix2 p q := ⟨j 0, j 1, eq_ix2 j⟩
  have hp : p.val < 2000 := p.isLt
  have hq : q.val < 1024 := q.isLt
  have hemb : ((cfg12.win 3).blk t).view.emb (ix2 p q) = ix2 (⟨t.val * 2000 + p.val, by omega⟩ : Fin 2000) q := by
    funext a; apply Fin.ext
    match a with
    | ⟨0, _⟩ => show win12_3.index t (0 : Fin 2) * 2000 + 1 * p.val = t.val * 2000 + p.val; omega
    | ⟨1, _⟩ => show win12_3.index t (1 : Fin 2) * 1024 + 1 * q.val = q.val; omega
  show relu (dense (n := 2000) (k := 128) (d := 1024) (iblk12 V c 0 t) (iblk12 V c 1 t) (iblk12 V c 2 t)) (ix2 p q)
      = (relu (dense (n := 2000) (k := 128) (d := 1024) (V c main_v427) (V c main_arg26) (V c main_v428))) (((cfg12.win 3).blk t).view.emb (ix2 p q))
  rw [hemb]
  refine relu_dense_blocks _ _ _ _ _ _ p _ q (fun s => ?_) (fun s => ?_) ?_
  · show V c main_v427 (((cfg12.win 0).blk t).view.emb (ix2 p s)) = V c main_v427 (ix2 (⟨t.val * 2000 + p.val, by omega⟩ : Fin 2000) s)
    refine congrArg _ (funext fun a => Fin.ext ?_)
    have hs : s.val < 128 := s.isLt
    match a with
    | ⟨0, _⟩ => show win12_0.index t (0 : Fin 2) * 2000 + 1 * p.val = t.val * 2000 + p.val; omega
    | ⟨1, _⟩ => show win12_0.index t (1 : Fin 2) * 128 + 1 * s.val = s.val; omega
  · show V c main_arg26 (((cfg12.win 1).blk t).view.emb (ix2 s q)) = V c main_arg26 (ix2 s q)
    refine congrArg _ (funext fun a => Fin.ext ?_)
    have hs : s.val < 128 := s.isLt
    match a with
    | ⟨0, _⟩ => show win12_1.index t (0 : Fin 2) * 128 + 1 * s.val = s.val; omega
    | ⟨1, _⟩ => show win12_1.index t (1 : Fin 2) * 1024 + 1 * q.val = q.val; omega
  · show V c main_v428 (((cfg12.win 2).blk t).view.emb (ix2 (0 : Fin 1) q)) = V c main_v428 (ix2 (0 : Fin 1) q)
    refine congrArg _ (funext fun a => Fin.ext ?_)
    match a with
    | ⟨0, _⟩ => show win12_2.index t (0 : Fin 2) * 1 + 1 * (0 : Fin 1).val = (0 : Fin 1).val; show win12_2.index t (0 : Fin 2) * 1 + 1 * 0 = 0; omega
    | ⟨1, _⟩ => show win12_2.index t (1 : Fin 2) * 1024 + 1 * q.val = q.val; omega

/-- An index of the output array is in tile t's block iff its row is one of the tile's. -/
theorem mem_blk12 (t : Fin cfg12.N) (i : S2000x1024.Idx) :
    i ∈ ((cfg12.win 3).blk t).view.set ↔ ∀ a : Fin 2, win12_3.index t a * S2000x1024.size a ≤ (i a).val ∧ (i a).val < win12_3.index t a * S2000x1024.size a + S2000x1024.size a := by
  show i ∈ ((View.whole main_v429).slice (win12_3.rect t)).set ↔ _
  rw [View.set_slice_whole, Rect.mem_set_unit]
  exact Iff.rfl

/-- The tiles cover every row. -/
theorem cover12 (i : S2000x1024.Idx) : ∃ t : Fin cfg12.N, (cfg12.win 3).flush t = true ∧ i ∈ ((cfg12.win 3).blk t).view.set := by
  have hN : grid12.N = 1 := N_12
  have hi0 : (i 0).val < 2000 := (i 0).isLt
  have hi1 : (i 1).val < 1024 := (i 1).isLt
  let t : Fin cfg12.N := ⟨(i 0).val / 2000, by show (i 0).val / 2000 < grid12.N; omega⟩
  obtain ⟨e0, e1, e2, e3, e4, e5, e6, e7⟩ := idx12 t
  have e6' : win12_3.index t (0 : Fin 2) = (i 0).val / 2000 := e6
  refine ⟨t, flush12_3 t, ?_⟩
  rw [mem_blk12]
  intro a
  match a with
  | ⟨0, _⟩ => show win12_3.index t (0 : Fin 2) * 2000 ≤ (i 0).val ∧ (i 0).val < win12_3.index t (0 : Fin 2) * 2000 + 2000; omega
  | ⟨1, _⟩ => show win12_3.index t (1 : Fin 2) * 1024 ≤ (i 1).val ∧ (i 1).val < win12_3.index t (1 : Fin 2) * 1024 + 1024; omega

/-- The output array after the region: the layer of the whole arrays the region was entered with. -/
theorem final12 (c : Dev nD) :
    (dat12 V c).arrAt 3 cfg12.N = relu (dense (n := 2000) (k := 128) (d := 1024) (V c main_v427) (V c main_arg26) (V c main_v428)) :=
  (dat12 V c).arrAt_eq_of_cover 3 _ (fun t _ => flushed12 V c t) (cover12)

end

/-- Leaving the region is running that operation on the contents it was entered with. -/
theorem region12 (m : (ℓ : Loc nD τ sig) → Buf (Elt Ideal) ℓ) (ρ : Dev nD → PrngReg) (c : Dev nD) :
    W58 m ρ c = dop12.result (W57 m ρ c) := by
  unfold W58
  refine Cert.LibRegionOp.withArrays_eq_result spec12 launch12.win.arr_inj c (W57 m ρ c) _ dop12 3 rfl (fun w hw => ?_) ?_
  · exact ins12 (V57 m ρ) c w hw
  · refine (final12 (V57 m ρ) c).trans ?_
    unfold dop12
    exact (StableHlo.ternary_result main_v427 main_arg26 main_v428 main_v429
      ((fun X W B => relu (dense (n := 2000) (k := 128) (d := 1024) X W B)) : (⟨S2000x128, .f32⟩ : BufTy).Contents (Elt Ideal) → (⟨S128x1024, .f32⟩ : BufTy).Contents (Elt Ideal) → (⟨S1x1024, .f32⟩ : BufTy).Contents (Elt Ideal) → (⟨S2000x1024, .f32⟩ : BufTy).Contents (Elt Ideal))
      _ _ _ _ (W57 m ρ c)).symm

end Cert.KernelIdeal.Dense

end
-- ==== Proof.Region13.lean ====
/-
  Kernel region 13: a dense layer of a 2000 × 1024 array against a 1024 × 128 weight and a one-row bias, in 1 tile of 2000 rows.

  Tile t reads rows 2000·t … 2000·t + 1999 of the input and the whole weight and bias, and writes the same rows of the
  output.  Entry (p, j) of the layer reads row p of the input only, so what tile t writes back is rows 2000·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay13 (x0 : Vec Ideal S2000x1024 .f32) (x1 : Vec Ideal S1024x128 .f32) (x2 : Vec Ideal S1x128 .f32) :
    k13_pay1 (F := Ideal) x0 x1 x2 = dense (n := 2000) (k := 1024) (d := 128) x0 x1 x2 := by
  unfold k13_pay1
  rw [shapeCast_self x0]
  exact body_dense dot_S2000x1024_S1024x128_S2000x128_1_0_0_1_n_n rfl x0 x1 x2 _ _ _ _

/-- The printed index maps over the grid: the input's and the output's block row is the point, every other block index 0. -/
theorem idx13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

section
variable (V : (c : Dev nD) → (b : Ref sig .tc) → Buf (Elt Ideal) ((c : Thread nD τ).loc b))

/-- What tile t writes back is its block of the layer of the whole arrays the region finds. -/
theorem flushed13 (c : Dev nD) (t : Fin cfg13.N) :
    (dat13 V c).flushed 3 t = ((cfg13.win 3).blk t).view.read (Elt Ideal) (dense (n := 2000) (k := 1024) (d := 128) (V c main_v429) (V c main_arg28) (V c main_v430)) := by
  show (cfg13.win 3).cut (grid13.coords t) ((dat13 V c).after 3 t) = _
  rw [after13_3]
  unfold out13_3
  rw [View.canon_unit_zero zero2]
  simp only [View.ld_unit_zero (S := S2000x1024) zero2, View.ld_unit_zero (S := S1024x128) zero2, View.ld_unit_zero (S := S1x128) zero2]
  rw [pay13]
  obtain ⟨e0, e1, e2, e3, e4, e5, e6, e7⟩ := idx13 t
  have hN : grid13.N = 1 := N_13
  have ht : t.val < 1 := hN ▸ t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  have hemb : ((cfg13.win 3).blk t).view.emb (ix2 p q) = ix2 (⟨t.val * 2000 + p.val, by omega⟩ : Fin 2000) q := by
    funext a; apply Fin.ext
    match a with
    | ⟨0, _⟩ => show win13_3.index t (0 : Fin 2) * 2000 + 1 * p.val = t.val * 2000 + p.val; omega
    | ⟨1, _⟩ => show win13_3.index t (1 : Fin 2) * 128 + 1 * q.val = q.val; omega
  show dense (n := 2000) (k := 1024) (d := 128) (iblk13 V c 0 t) (iblk13 V c 1 t) (iblk13 V c 2 t) (ix2 p q)
      = (dense (n := 2000) (k := 1024) (d := 128) (V c main_v429) (V c main_arg28) (V c main_v430)) (((cfg13.win 3).blk t).view.emb (ix2 p q))
  rw [hemb]
  refine dense_blocks _ _ _ _ _ _ p _ q (fun s => ?_) (fun s => ?_) ?_
  · show V c main_v429 (((cfg13.win 0).blk t).view.emb (ix2 p s)) = V c main_v429 (ix2 (⟨t.val * 2000 + p.val, by omega⟩ : Fin 2000) s)
    refine congrArg _ (funext fun a => Fin.ext ?_)
    have hs : s.val < 1024 := s.isLt
    match a with
    | ⟨0, _⟩ => show win13_0.index t (0 : Fin 2) * 2000 + 1 * p.val = t.val * 2000 + p.val; omega
    | ⟨1, _⟩ => show win13_0.index t (1 : Fin 2) * 1024 + 1 * s.val = s.val; omega
  · show V c main_arg28 (((cfg13.win 1).blk t).view.emb (ix2 s q)) = V c main_arg28 (ix2 s q)
    refine congrArg _ (funext fun a => Fin.ext ?_)
    have hs : s.val < 1024 := s.isLt
    match a with
    | ⟨0, _⟩ => show win13_1.index t (0 : Fin 2) * 1024 + 1 * s.val = s.val; omega
    | ⟨1, _⟩ => show win13_1.index t (1 : Fin 2) * 128 + 1 * q.val = q.val; omega
  · show V c main_v430 (((cfg13.win 2).blk t).view.emb (ix2 (0 : Fin 1) q)) = V c main_v430 (ix2 (0 : Fin 1) q)
    refine congrArg _ (funext fun a => Fin.ext ?_)
    match a with
    | ⟨0, _⟩ => show win13_2.index t (0 : Fin 2) * 1 + 1 * (0 : Fin 1).val = (0 : Fin 1).val; show win13_2.index t (0 : Fin 2) * 1 + 1 * 0 = 0; omega
    | ⟨1, _⟩ => show win13_2.index t (1 : Fin 2) * 128 + 1 * q.val = q.val; omega

/-- An index of the output array is in tile t's block iff its row is one of the tile's. -/
theorem mem_blk13 (t : Fin cfg13.N) (i : S2000x128.Idx) :
    i ∈ ((cfg13.win 3).blk t).view.set ↔ ∀ a : Fin 2, win13_3.index t a * S2000x128.size a ≤ (i a).val ∧ (i a).val < win13_3.index t a * S2000x128.size a + S2000x128.size a := by
  show i ∈ ((View.whole main_v431).slice (win13_3.rect t)).set ↔ _
  rw [View.set_slice_whole, Rect.mem_set_unit]
  exact Iff.rfl

/-- The tiles cover every row. -/
theorem cover13 (i : S2000x128.Idx) : ∃ t : Fin cfg13.N, (cfg13.win 3).flush t = true ∧ i ∈ ((cfg13.win 3).blk t).view.set := by
  have hN : grid13.N = 1 := N_13
  have hi0 : (i 0).val < 2000 := (i 0).isLt
  have hi1 : (i 1).val < 128 := (i 1).isLt
  let t : Fin cfg13.N := ⟨(i 0).val / 2000, by show (i 0).val / 2000 < grid13.N; omega⟩
  obtain ⟨e0, e1, e2, e3, e4, e5, e6, e7⟩ := idx13 t
  have e6' : win13_3.index t (0 : Fin 2) = (i 0).val / 2000 := e6
  refine ⟨t, flush13_3 t, ?_⟩
  rw [mem_blk13]
  intro a
  match a with
  | ⟨0, _⟩ => show win13_3.index t (0 : Fin 2) * 2000 ≤ (i 0).val ∧ (i 0).val < win13_3.index t (0 : Fin 2) * 2000 + 2000; omega
  | ⟨1, _⟩ => show win13_3.index t (1 : Fin 2) * 128 ≤ (i 1).val ∧ (i 1).val < win13_3.index t (1 : Fin 2) * 128 + 128; omega

/-- The output array after the region: the layer of the whole arrays the region was entered with. -/
theorem final13 (c : Dev nD) :
    (dat13 V c).arrAt 3 cfg13.N = dense (n := 2000) (k := 1024) (d := 128) (V c main_v429) (V c main_arg28) (V c main_v430) :=
  (dat13 V c).arrAt_eq_of_cover 3 _ (fun t _ => flushed13 V c t) (cover13)

end

/-- Leaving the region is running that operation on the contents it was entered with. -/
theorem region13 (m : (ℓ : Loc nD τ sig) → Buf (Elt Ideal) ℓ) (ρ : Dev nD → PrngReg) (c : Dev nD) :
    W60 m ρ c = dop13.result (W59 m ρ c) := by
  unfold W60
  refine Cert.LibRegionOp.withArrays_eq_result spec13 launch13.win.arr_inj c (W59 m ρ c) _ dop13 3 rfl (fun w hw => ?_) ?_
  · exact ins13 (V59 m ρ) c w hw
  · refine (final13 (V59 m ρ) c).trans ?_
    unfold dop13
    exact (StableHlo.ternary_result main_v429 main_arg28 main_v430 main_v431
      ((fun X W B => dense (n := 2000) (k := 1024) (d := 128) X W B) : (⟨S2000x1024, .f32⟩ : BufTy).Contents (Elt Ideal) → (⟨S1024x128, .f32⟩ : BufTy).Contents (Elt Ideal) → (⟨S1x128, .f32⟩ : BufTy).Contents (Elt Ideal) → (⟨S2000x128, .f32⟩ : BufTy).Contents (Elt Ideal))
      _ _ _ _ (W59 m ρ c)).symm

end Cert.KernelIdeal.Dense

end
-- ==== Proof.Region14.lean ====
/-
  Kernel region 14: a dense layer of a 2048 × 256 array against a 256 × 1024 weight and a one-row bias, in 1 tile of 2048 rows, followed by the positive part.

  Tile t reads rows 2048·t … 2048·t + 2047 of the input and the whole weight and bias, and writes the same rows of the
  output.  Entry (p, j) of the layer reads row p of the input only, so what tile t writes back is rows 2048·t … of the
  layer of the WHOLE input; the tiles cover every row, so the output array ends holding the layer of the whole input.
  Every other array of the region ends as it was entered.  So the region acts on the buffers as ONE host operation
  with result  (X · W + B)⁺.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay14 (x0 : Vec Ideal S2048x256 .f32) (x1 : Vec Ideal S256x1024 .f32) (x2 : Vec Ideal S1x1024 .f32) :
    k14_pay1 (F := Ideal) x0 x1 x2 = relu (dense (n := 2048) (k := 256) (d := 1024) x0 x1 x2) := by
  unfold k14_pay1
  rw [shapeCast_self x0]
  exact body_dense_relu dot_S2048x256_S256x1024_S2048x1024_1_0_0_1_n_n rfl x0 x1 x2 _ _ _ _

/-- The printed index maps over the grid: the input's and the output's block row is the point, every other block index 0. -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

section
variable (V : (c : Dev nD) → (b : Ref sig .tc) → Buf (Elt Ideal) ((c : Thread nD τ).loc b))

/-- What tile t writes back is its block of the layer of the whole arrays the region finds. -/
theorem flushed14 (c : Dev nD) (t : Fin cfg14.N) :
    (dat14 V c).flushed 3 t = ((cfg14.win 3).blk t).view.read (Elt Ideal) (relu (dense (n := 2048) (k := 256) (d := 1024) (V c main_v439) (V c main_arg30) (V c main_v440))) := by
  show (cfg14.win 3).cut (grid14.coords t) ((dat14 V c).after 3 t) = _
  rw [after14_3]
  unfold out14_3
  rw [View.canon_unit_zero zero2]
  simp only [View.ld_unit_zero (S := S2048x256) zero2, View.ld_unit_zero (S := S256x1024) zero2, View.ld_unit_zero (S := S1x1024) zero2]
  rw [pay14]
  obtain ⟨e0, e1, e2, e3, e4, e5, e6, e7⟩ := idx14 t
  have hN : grid14.N = 1 := N_14
  have ht : t.val < 1 := hN ▸ t.isLt
  funext j
  obtain ⟨p, q, rfl⟩ : ∃ (p : Fin 2048) (q : Fin 1024), j = ix2 p q := ⟨j 0, j 1, eq_ix2 j⟩
  have hp : p.val < 2048 := p.isLt
  have hq : q.val < 1024 := q.isLt
  have hemb : ((cfg14.win 3).blk t).view.emb (ix2 p q) = ix2 (⟨t.val * 2048 + p.val, by omega⟩ : Fin 2048) q := by
    funext a; apply Fin.ext
    match a with
    | ⟨0, _⟩ => show win14_3.index t (0 : Fin 2) * 2048 + 1 * p.val = t.val * 2048 + p.val; omega
    | ⟨1, _⟩ => show win14_3.index t (1 : Fin 2) * 1024 + 1 * q.val = q.val; omega
  show relu (dense (n := 2048) (k := 256) (d := 1024) (iblk14 V c 0 t) (iblk14 V c 1 t) (iblk14 V c 2 t)) (ix2 p q)
      = (relu (dense (n := 2048) (k := 256) (d := 1024) (V c main_v439) (V c main_arg30) (V c main_v440))) (((cfg14.win 3).blk t).view.emb (ix2 p q))
  rw [hemb]
  refine relu_dense_blocks _ _ _ _ _ _ p _ q (fun s => ?_) (fun s => ?_) ?_
  · show V c main_v439 (((cfg14.win 0).blk t).view.emb (ix2 p s)) = V c main_v439 (ix2 (⟨t.val * 2048 + p.val, by omega⟩ : Fin 2048) s)
    refine congrArg _ (funext fun a => Fin.ext ?_)
    have hs : s.val < 256 := s.isLt
    match a with
    | ⟨0, _⟩ => show win14_0.index t (0 : Fin 2) * 2048 + 1 * p.val = t.val * 2048 + p.val; omega
    | ⟨1, _⟩ => show win14_0.index t (1 : Fin 2) * 256 + 1 * s.val = s.val; omega
  · show V c main_arg30 (((cfg14.win 1).blk t).view.emb (ix2 s q)) = V c main_arg30 (ix2 s q)
    refine congrArg _ (funext fun a => Fin.ext ?_)
    have hs : s.val < 256 := s.isLt
    match a with
    | ⟨0, _⟩ => show win14_1.index t (0 : Fin 2) * 256 + 1 * s.val = s.val; omega
    | ⟨1, _⟩ => show win14_1.index t (1 : Fin 2) * 1024 + 1 * q.val = q.val; omega
  · show V c main_v440 (((cfg14.win 2).blk t).view.emb (ix2 (0 : Fin 1) q)) = V c main_v440 (ix2 (0 : Fin 1) q)
    refine congrArg _ (funext fun a => Fin.ext ?_)
    match a with
    | ⟨0, _⟩ => show win14_2.index t (0 : Fin 2) * 1 + 1 * (0 : Fin 1).val = (0 : Fin 1).val; show win14_2.index t (0 : Fin 2) * 1 + 1 * 0 = 0; omega
    | ⟨1, _⟩ => show win14_2.index t (1 : Fin 2) * 1024 + 1 * q.val = q.val; omega

/-- An index of the output array is in tile t's block iff its row is one of the tile's. -/
theorem mem_blk14 (t : Fin cfg14.N) (i : S2048x1024.Idx) :
    i ∈ ((cfg14.win 3).blk t).view.set ↔ ∀ a : Fin 2, win14_3.index t a * S2048x1024.size a ≤ (i a).val ∧ (i a).val < win14_3.index t a * S2048x1024.size a + S2048x1024.size a := by
  show i ∈ ((View.whole main_v441).slice (win14_3.rect t)).set ↔ _
  rw [View.set_slice_whole, Rect.mem_set_unit]
  exact Iff.rfl

/-- The tiles cover every row. -/
theorem cover14 (i : S2048x1024.Idx) : ∃ t : Fin cfg14.N, (cfg14.win 3).flush t = true ∧ i ∈ ((cfg14.win 3).blk t).view.set := by
  have hN : grid14.N = 1 := N_14
  have hi0 : (i 0).val < 2048 := (i 0).isLt
  have hi1 : (i 1).val < 1024 := (i 1).isLt
  let t : Fin cfg14.N := ⟨(i 0).val / 2048, by show (i 0).val / 2048 < grid14.N; omega⟩
  obtain ⟨e0, e1, e2, e3, e4, e5, e6, e7⟩ := idx14 t
  have e6' : win14_3.index t (0 : Fin 2) = (i 0).val / 2048 := e6
  refine ⟨t, flush14_3 t, ?_⟩
  rw [mem_blk14]
  intro a
  match a with
  | ⟨0, _⟩ => show win14_3.index t (0 : Fin 2) * 2048 ≤ (i 0).val ∧ (i 0).val < win14_3.index t (0 : Fin 2) * 2048 + 2048; omega
  | ⟨1, _⟩ => show win14_3.index t (1 : Fin 2) * 1024 ≤ (i 1).val ∧ (i 1).val < win14_3.index t (1 : Fin 2) * 1024 + 1024; omega

/-- The output array after the region: the layer of the whole arrays the region was entered with. -/
theorem final14 (c : Dev nD) :
    (dat14 V c).arrAt 3 cfg14.N = relu (dense (n := 2048) (k := 256) (d := 1024) (V c main_v439) (V c main_arg30) (V c main_v440)) :=
  (dat14 V c).arrAt_eq_of_cover 3 _ (fun t _ => flushed14 V c t) (cover14)

end

/-- Leaving the region is running that operation on the contents it was entered with. -/
theorem region14 (m : (ℓ : Loc nD τ sig) → Buf (Elt Ideal) ℓ) (ρ : Dev nD → PrngReg) (c : Dev nD) :
    W62 m ρ c = dop14.result (W61 m ρ c) := by
  unfold W62
  refine Cert.LibRegionOp.withArrays_eq_result spec14 launch14.win.arr_inj c (W61 m ρ c) _ dop14 3 rfl (fun w hw => ?_) ?_
  · exact ins14 (V61 m ρ) c w hw
  · refine (final14 (V61 m ρ) c).trans ?_
    unfold dop14
    exact (StableHlo.ternary_result main_v439 main_arg30 main_v440 main_v441
      ((fun X W B => relu (dense (n := 2048) (k := 256) (d := 1024) X W B)) : (⟨S2048x256, .f32⟩ : BufTy).Contents (Elt Ideal) → (⟨S256x1024, .f32⟩ : BufTy).Contents (Elt Ideal) → (⟨S1x1024, .f32⟩ : BufTy).Contents (Elt Ideal) → (⟨S2048x1024, .f32⟩ : BufTy).Contents (Elt Ideal))
      _ _ _ _ (W61 m ρ c)).symm

end Cert.KernelIdeal.Dense

end
-- ==== Proof.Region15.lean ====
/-
  Kernel region 15: a dense layer of a 2048 × 1024 array against a 1024 × 512 weight and a one-row bias, in 1 tile of 2048 rows, followed by the positive part.

  Tile t reads rows 2048·t … 2048·t + 2047 of the input and the whole weight and bias, and writes the same rows of the
  output.  Entry (p, j) of the layer reads row p of the input only, so what tile t writes back is rows 2048·t … of the
  layer of the WHOLE input; the tiles cover every row, so the output array ends holding the layer of the whole input.
  Every other array of the region ends as it was entered.  So the region acts on the buffers as ONE host operation
  with result  (X · W + B)⁺.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay15 (x0 : Vec Ideal S2048x1024 .f32) (x1 : Vec Ideal S1024x512 .f32) (x2 : Vec Ideal S1x512 .f32) :
    k15_pay1 (F := Ideal) x0 x1 x2 = relu (dense (n := 2048) (k := 1024) (d := 512) x0 x1 x2) := by
  unfold k15_pay1
  rw [shapeCast_self x0]
  exact body_dense_relu dot_S2048x1024_S1024x512_S2048x512_1_0_0_1_n_n rfl x0 x1 x2 _ _ _ _

/-- The printed index maps over the grid: the input's and the output's block row is the point, every other block index 0. -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

section
variable (V : (c : Dev nD) → (b : Ref sig .tc) → Buf (Elt Ideal) ((c : Thread nD τ).loc b))

/-- What tile t writes back is its block of the layer of the whole arrays the region finds. -/
theorem flushed15 (c : Dev nD) (t : Fin cfg15.N) :
    (dat15 V c).flushed 3 t = ((cfg15.win 3).blk t).view.read (Elt Ideal) (relu (dense (n := 2048) (k := 1024) (d := 512) (V c main_v441) (V c main_arg32) (V c main_v442))) := by
  show (cfg15.win 3).cut (grid15.coords t) ((dat15 V c).after 3 t) = _
  rw [after15_3]
  unfold out15_3
  rw [View.canon_unit_zero zero2]
  simp only [View.ld_unit_zero (S := S2048x1024) zero2, View.ld_unit_zero (S := S1024x512) zero2, View.ld_unit_zero (S := S1x512) zero2]
  rw [pay15]
  obtain ⟨e0, e1, e2, e3, e4, e5, e6, e7⟩ := idx15 t
  have hN : grid15.N = 1 := N_15
  have ht : t.val < 1 := hN ▸ t.isLt
  funext j
  obtain ⟨p, q, rfl⟩ : ∃ (p : Fin 2048) (q : Fin 512), j = ix2 p q := ⟨j 0, j 1, eq_ix2 j⟩
  have hp : p.val < 2048 := p.isLt
  have hq : q.val < 512 := q.isLt
  have hemb : ((cfg15.win 3).blk t).view.emb (ix2 p q) = ix2 (⟨t.val * 2048 + p.val, by omega⟩ : Fin 2048) q := by
    funext a; apply Fin.ext
    match a with
    | ⟨0, _⟩ => show win15_3.index t (0 : Fin 2) * 2048 + 1 * p.val = t.val * 2048 + p.val; omega
    | ⟨1, _⟩ => show win15_3.index t (1 : Fin 2) * 512 + 1 * q.val = q.val; omega
  show relu (dense (n := 2048) (k := 1024) (d := 512) (iblk15 V c 0 t) (iblk15 V c 1 t) (iblk15 V c 2 t)) (ix2 p q)
      = (relu (dense (n := 2048) (k := 1024) (d := 512) (V c main_v441) (V c main_arg32) (V c main_v442))) (((cfg15.win 3).blk t).view.emb (ix2 p q))
  rw [hemb]
  refine relu_dense_blocks _ _ _ _ _ _ p _ q (fun s => ?_) (fun s => ?_) ?_
  · show V c main_v441 (((cfg15.win 0).blk t).view.emb (ix2 p s)) = V c main_v441 (ix2 (⟨t.val * 2048 + p.val, by omega⟩ : Fin 2048) s)
    refine congrArg _ (funext fun a => Fin.ext ?_)
    have hs : s.val < 1024 := s.isLt
    match a with
    | ⟨0, _⟩ => show win15_0.index t (0 : Fin 2) * 2048 + 1 * p.val = t.val * 2048 + p.val; omega
    | ⟨1, _⟩ => show win15_0.index t (1 : Fin 2) * 1024 + 1 * s.val = s.val; omega
  · show V c main_arg32 (((cfg15.win 1).blk t).view.emb (ix2 s q)) = V c main_arg32 (ix2 s q)
    refine congrArg _ (funext fun a => Fin.ext ?_)
    have hs : s.val < 1024 := s.isLt
    match a with
    | ⟨0, _⟩ => show win15_1.index t (0 : Fin 2) * 1024 + 1 * s.val = s.val; omega
    | ⟨1, _⟩ => show win15_1.index t (1 : Fin 2) * 512 + 1 * q.val = q.val; omega
  · show V c main_v442 (((cfg15.win 2).blk t).view.emb (ix2 (0 : Fin 1) q)) = V c main_v442 (ix2 (0 : Fin 1) q)
    refine congrArg _ (funext fun a => Fin.ext ?_)
    match a with
    | ⟨0, _⟩ => show win15_2.index t (0 : Fin 2) * 1 + 1 * (0 : Fin 1).val = (0 : Fin 1).val; show win15_2.index t (0 : Fin 2) * 1 + 1 * 0 = 0; omega
    | ⟨1, _⟩ => show win15_2.index t (1 : Fin 2) * 512 + 1 * q.val = q.val; omega

/-- An index of the output array is in tile t's block iff its row is one of the tile's. -/
theorem mem_blk15 (t : Fin cfg15.N) (i : S2048x512.Idx) :
    i ∈ ((cfg15.win 3).blk t).view.set ↔ ∀ a : Fin 2, win15_3.index t a * S2048x512.size a ≤ (i a).val ∧ (i a).val < win15_3.index t a * S2048x512.size a + S2048x512.size a := by
  show i ∈ ((View.whole main_v443).slice (win15_3.rect t)).set ↔ _
  rw [View.set_slice_whole, Rect.mem_set_unit]
  exact Iff.rfl

/-- The tiles cover every row. -/
theorem cover15 (i : S2048x512.Idx) : ∃ t : Fin cfg15.N, (cfg15.win 3).flush t = true ∧ i ∈ ((cfg15.win 3).blk t).view.set := by
  have hN : grid15.N = 1 := N_15
  have hi0 : (i 0).val < 2048 := (i 0).isLt
  have hi1 : (i 1).val < 512 := (i 1).isLt
  let t : Fin cfg15.N := ⟨(i 0).val / 2048, by show (i 0).val / 2048 < grid15.N; omega⟩
  obtain ⟨e0, e1, e2, e3, e4, e5, e6, e7⟩ := idx15 t
  have e6' : win15_3.index t (0 : Fin 2) = (i 0).val / 2048 := e6
  refine ⟨t, flush15_3 t, ?_⟩
  rw [mem_blk15]
  intro a
  match a with
  | ⟨0, _⟩ => show win15_3.index t (0 : Fin 2) * 2048 ≤ (i 0).val ∧ (i 0).val < win15_3.index t (0 : Fin 2) * 2048 + 2048; omega
  | ⟨1, _⟩ => show win15_3.index t (1 : Fin 2) * 512 ≤ (i 1).val ∧ (i 1).val < win15_3.index t (1 : Fin 2) * 512 + 512; omega

/-- The output array after the region: the layer of the whole arrays the region was entered with. -/
theorem final15 (c : Dev nD) :
    (dat15 V c).arrAt 3 cfg15.N = relu (dense (n := 2048) (k := 1024) (d := 512) (V c main_v441) (V c main_arg32) (V c main_v442)) :=
  (dat15 V c).arrAt_eq_of_cover 3 _ (fun t _ => flushed15 V c t) (cover15)

end

/-- Leaving the region is running that operation on the contents it was entered with. -/
theorem region15 (m : (ℓ : Loc nD τ sig) → Buf (Elt Ideal) ℓ) (ρ : Dev nD → PrngReg) (c : Dev nD) :
    W64 m ρ c = dop15.result (W63 m ρ c) := by
  unfold W64
  refine Cert.LibRegionOp.withArrays_eq_result spec15 launch15.win.arr_inj c (W63 m ρ c) _ dop15 3 rfl (fun w hw => ?_) ?_
  · exact ins15 (V63 m ρ) c w hw
  · refine (final15 (V63 m ρ) c).trans ?_
    unfold dop15
    exact (StableHlo.ternary_result main_v441 main_arg32 main_v442 main_v443
      ((fun X W B => relu (dense (n := 2048) (k := 1024) (d := 512) X W B)) : (⟨S2048x1024, .f32⟩ : BufTy).Contents (Elt Ideal) → (⟨S1024x512, .f32⟩ : BufTy).Contents (Elt Ideal) → (⟨S1x512, .f32⟩ : BufTy).Contents (Elt Ideal) → (⟨S2048x512, .f32⟩ : BufTy).Contents (Elt Ideal))
      _ _ _ _ (W63 m ρ c)).symm

end Cert.KernelIdeal.Dense

end
-- ==== Proof.Region16.lean ====
/-
  Kernel region 16: a dense layer of a 2048 × 512 array against a 512 × 1 weight and a one-row bias, in 1 tile of 2048 rows.

  Tile t reads rows 2048·t … 2048·t + 2047 of the input and the whole weight and bias, and writes the same rows of the
  output.  Entry (p, j) of the layer reads row p of the input only, so what tile t writes back is rows 2048·t … of the
  layer of the WHOLE input; the tiles cover every row, so the output array ends holding the layer of the whole input.
  Every other array of the region ends as it was entered.  So the region acts on the buffers as ONE host operation
  with result  X · W + B.
-/
import proofs.«153485_j59545426592079_1_alg».proof.Proof.FrameKI
import proofs.«153485_j59545426592079_1_alg».proof.Proof.ArgsKI
import proofs.«153485_j59545426592079_1_alg».proof.Proof.LibRegionOp
import proofs.«153485_j59545426592079_1_alg».proof.Proof.LibDenseBody
import proofs.«153485_j59545426592079_1_alg».proof.Proof.DenseOps

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.KernelIdeal.GenP Cert.Spec Cert.LibDenseBody

/-- The body's stored value is the layer of its three blocks. -/
theorem pay16 (x0 : Vec Ideal S2048x512 .f32) (x1 : Vec Ideal S512x1 .f32) (x2 : Vec Ideal S1x1 .f32) :
    k16_pay1 (F := Ideal) x0 x1 x2 = dense (n := 2048) (k := 512) (d := 1) x0 x1 x2 := by
  unfold k16_pay1
  rw [shapeCast_self x0]
  exact body_dense dot_S2048x512_S512x1_S2048x1_1_0_0_1_n_n rfl x0 x1 x2 _ _ _ _

/-- The printed index maps over the grid: the input's and the output's block row is the point, every other block index 0. -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

section
variable (V : (c : Dev nD) → (b : Ref sig .tc) → Buf (Elt Ideal) ((c : Thread nD τ).loc b))

/-- What tile t writes back is its block of the layer of the whole arrays the region finds. -/
theorem flushed16 (c : Dev nD) (t : Fin cfg16.N) :
    (dat16 V c).flushed 3 t = ((cfg16.win 3).blk t).view.read (Elt Ideal) (dense (n := 2048) (k := 512) (d := 1) (V c main_v443) (V c main_arg34) (V c main_v444)) := by
  show (cfg16.win 3).cut (grid16.coords t) ((dat16 V c).after 3 t) = _
  rw [after16_3]
  unfold out16_3
  rw [View.canon_unit_zero zero2]
  simp only [View.ld_unit_zero (S := S2048x512) zero2, View.ld_unit_zero (S := S512x1) zero2, View.ld_unit_zero (S := S1x1) zero2]
  rw [pay16]
  obtain ⟨e0, e1, e2, e3, e4, e5, e6, e7⟩ := idx16 t
  have hN : grid16.N = 1 := N_16
  have ht : t.val < 1 := hN ▸ t.isLt
  funext j
  obtain ⟨p, q, rfl⟩ : ∃ (p : Fin 2048) (q : Fin 1), j = ix2 p q := ⟨j 0, j 1, eq_ix2 j⟩
  have hp : p.val < 2048 := p.isLt
  have hq : q.val < 1 := q.isLt
  have hemb : ((cfg16.win 3).blk t).view.emb (ix2 p q) = ix2 (⟨t.val * 2048 + p.val, by omega⟩ : Fin 2048) q := by
    funext a; apply Fin.ext
    match a with
    | ⟨0, _⟩ => show win16_3.index t (0 : Fin 2) * 2048 + 1 * p.val = t.val * 2048 + p.val; omega
    | ⟨1, _⟩ => show win16_3.index t (1 : Fin 2) * 1 + 1 * q.val = q.val; omega
  show dense (n := 2048) (k := 512) (d := 1) (iblk16 V c 0 t) (iblk16 V c 1 t) (iblk16 V c 2 t) (ix2 p q)
      = (dense (n := 2048) (k := 512) (d := 1) (V c main_v443) (V c main_arg34) (V c main_v444)) (((cfg16.win 3).blk t).view.emb (ix2 p q))
  rw [hemb]
  refine dense_blocks _ _ _ _ _ _ p _ q (fun s => ?_) (fun s => ?_) ?_
  · show V c main_v443 (((cfg16.win 0).blk t).view.emb (ix2 p s)) = V c main_v443 (ix2 (⟨t.val * 2048 + p.val, by omega⟩ : Fin 2048) s)
    refine congrArg _ (funext fun a => Fin.ext ?_)
    have hs : s.val < 512 := s.isLt
    match a with
    | ⟨0, _⟩ => show win16_0.index t (0 : Fin 2) * 2048 + 1 * p.val = t.val * 2048 + p.val; omega
    | ⟨1, _⟩ => show win16_0.index t (1 : Fin 2) * 512 + 1 * s.val = s.val; omega
  · show V c main_arg34 (((cfg16.win 1).blk t).view.emb (ix2 s q)) = V c main_arg34 (ix2 s q)
    refine congrArg _ (funext fun a => Fin.ext ?_)
    have hs : s.val < 512 := s.isLt
    match a with
    | ⟨0, _⟩ => show win16_1.index t (0 : Fin 2) * 512 + 1 * s.val = s.val; omega
    | ⟨1, _⟩ => show win16_1.index t (1 : Fin 2) * 1 + 1 * q.val = q.val; omega
  · show V c main_v444 (((cfg16.win 2).blk t).view.emb (ix2 (0 : Fin 1) q)) = V c main_v444 (ix2 (0 : Fin 1) q)
    refine congrArg _ (funext fun a => Fin.ext ?_)
    match a with
    | ⟨0, _⟩ => show win16_2.index t (0 : Fin 2) * 1 + 1 * (0 : Fin 1).val = (0 : Fin 1).val; show win16_2.index t (0 : Fin 2) * 1 + 1 * 0 = 0; omega
    | ⟨1, _⟩ => show win16_2.index t (1 : Fin 2) * 1 + 1 * q.val = q.val; omega

/-- An index of the output array is in tile t's block iff its row is one of the tile's. -/
theorem mem_blk16 (t : Fin cfg16.N) (i : S2048x1.Idx) :
    i ∈ ((cfg16.win 3).blk t).view.set ↔ ∀ a : Fin 2, win16_3.index t a * S2048x1.size a ≤ (i a).val ∧ (i a).val < win16_3.index t a * S2048x1.size a + S2048x1.size a := by
  show i ∈ ((View.whole main_v445).slice (win16_3.rect t)).set ↔ _
  rw [View.set_slice_whole, Rect.mem_set_unit]
  exact Iff.rfl

/-- The tiles cover every row. -/
theorem cover16 (i : S2048x1.Idx) : ∃ t : Fin cfg16.N, (cfg16.win 3).flush t = true ∧ i ∈ ((cfg16.win 3).blk t).view.set := by
  have hN : grid16.N = 1 := N_16
  have hi0 : (i 0).val < 2048 := (i 0).isLt
  have hi1 : (i 1).val < 1 := (i 1).isLt
  let t : Fin cfg16.N := ⟨(i 0).val / 2048, by show (i 0).val / 2048 < grid16.N; omega⟩
  obtain ⟨e0, e1, e2, e3, e4, e5, e6, e7⟩ := idx16 t
  have e6' : win16_3.index t (0 : Fin 2) = (i 0).val / 2048 := e6
  refine ⟨t, flush16_3 t, ?_⟩
  rw [mem_blk16]
  intro a
  match a with
  | ⟨0, _⟩ => show win16_3.index t (0 : Fin 2) * 2048 ≤ (i 0).val ∧ (i 0).val < win16_3.index t (0 : Fin 2) * 2048 + 2048; omega
  | ⟨1, _⟩ => show win16_3.index t (1 : Fin 2) * 1 ≤ (i 1).val ∧ (i 1).val < win16_3.index t (1 : Fin 2) * 1 + 1; omega

/-- The output array after the region: the layer of the whole arrays the region was entered with. -/
theorem final16 (c : Dev nD) :
    (dat16 V c).arrAt 3 cfg16.N = dense (n := 2048) (k := 512) (d := 1) (V c main_v443) (V c main_arg34) (V c main_v444) :=
  (dat16 V c).arrAt_eq_of_cover 3 _ (fun t _ => flushed16 V c t) (cover16)

end

/-- Leaving the region is running that operation on the contents it was entered with. -/
theorem region16 (m : (ℓ : Loc nD τ sig) → Buf (Elt Ideal) ℓ) (ρ : Dev nD → PrngReg) (c : Dev nD) :
    W66 m ρ c = dop16.result (W65 m ρ c) := by
  unfold W66
  refine Cert.LibRegionOp.withArrays_eq_result spec16 launch16.win.arr_inj c (W65 m ρ c) _ dop16 3 rfl (fun w hw => ?_) ?_
  · exact ins16 (V65 m ρ) c w hw
  · refine (final16 (V65 m ρ) c).trans ?_
    unfold dop16
    exact (StableHlo.ternary_result main_v443 main_arg34 main_v444 main_v445
      ((fun X W B => dense (n := 2048) (k := 512) (d := 1) X W B) : (⟨S2048x512, .f32⟩ : BufTy).Contents (Elt Ideal) → (⟨S512x1, .f32⟩ : BufTy).Contents (Elt Ideal) → (⟨S1x1, .f32⟩ : BufTy).Contents (Elt Ideal) → (⟨S2048x1, .f32⟩ : BufTy).Contents (Elt Ideal))
      _ _ _ _ (W65 m ρ c)).symm

end Cert.KernelIdeal.Dense

end
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.Piece0.lean ====
/-
  Piece 0 of the two programs, from any contents that agree where the piece reads.

  The kernel program's piece is the host operations `hostOps0` and region 0, as its operation (X · W + B with a zero row B); the reference's is operations 0 … 4 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 0. -/
abbrev rpiece0 : List (HloOp Cert.ReferenceIdeal.τ Cert.ReferenceIdeal.sig (Elt Ideal)) :=
  ((Cert.ReferenceIdeal.ValueP.ops (F := Ideal)).drop 0).take 5

set_option maxHeartbeats 40000000 in
theorem piece0 (K : Valuation Cert.KernelIdeal.τ Cert.KernelIdeal.sig (Elt Ideal)) (R : Valuation Cert.ReferenceIdeal.τ Cert.ReferenceIdeal.sig (Elt Ideal))
    (h_arg36 : K (Proc.devRef .tc Cert.KernelIdeal.main_arg36) = R (Proc.devRef .tc Cert.ReferenceIdeal.main_arg36))
    (h_arg0 : K (Proc.devRef .tc Cert.KernelIdeal.main_arg0) = R (Proc.devRef .tc Cert.ReferenceIdeal.main_arg0))
    (h_arg2 : K (Proc.devRef .tc Cert.KernelIdeal.main_arg2) = R (Proc.devRef .tc Cert.ReferenceIdeal.main_arg2)) :
    (after (Cert.KernelIdeal.Gen.hostOps0 ++ [Cert.KernelIdeal.Dense.dop0]) K (Proc.devRef .tc Cert.KernelIdeal.main_v6) = after rpiece0 R (Proc.devRef .tc Cert.ReferenceIdeal.main_v4))
    ∧ (after (Cert.KernelIdeal.Gen.hostOps0 ++ [Cert.KernelIdeal.Dense.dop0]) K (Proc.devRef .tc Cert.KernelIdeal.main_v1) = after rpiece0 R (Proc.devRef .tc Cert.ReferenceIdeal.main_v1))
    ∧ (after (Cert.KernelIdeal.Gen.hostOps0 ++ [Cert.KernelIdeal.Dense.dop0]) K (Proc.devRef .tc Cert.KernelIdeal.main_v3) = after rpiece0 R (Proc.devRef .tc Cert.ReferenceIdeal.main_v3)) := by
  simp only [Cert.KernelIdeal.Dense.dop0, Cert.KernelIdeal.Gen.hostOps0, List.cons_append, List.nil_append, rpiece0, Cert.ReferenceIdeal.ValueP.ops]
  cut_list
  refine ⟨?_, ?_, ?_⟩
  · host_read
    try simp only [h_arg36, h_arg0, h_arg2]
    try rw [h_arg36]
    try rw [h_arg0]
    try rw [h_arg2]
    exact (host_gcn Cert.ReferenceIdeal.dot_S65536x78_S78x156_S65536x156_1_0_0_1_n_n rfl _ _ _ _ _).symm
  · host_read
    try simp only [h_arg36, h_arg0, h_arg2]
    try rw [h_arg36]
    try rw [h_arg0]
    try rw [h_arg2]
    try rfl
  · host_read
    try simp only [h_arg36, h_arg0, h_arg2]
    try rw [h_arg36]
    try rw [h_arg0]
    try rw [h_arg2]
    try rfl

end Cert.Lines

end
-- ==== Proof.Piece1.lean ====
/-
  Piece 1 of the two programs, from any contents that agree where the piece reads.

  The kernel program's piece is the host operations `hostOps1`; the reference's is operations 5 … 21 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 1. -/
abbrev rpiece1 : List (HloOp Cert.ReferenceIdeal.τ Cert.ReferenceIdeal.sig (Elt Ideal)) :=
  ((Cert.ReferenceIdeal.ValueP.ops (F := Ideal)).drop 5).take 17

set_option maxHeartbeats 40000000 in
theorem piece1 (K : Valuation Cert.KernelIdeal.τ Cert.KernelIdeal.sig (Elt Ideal)) (R : Valuation Cert.ReferenceIdeal.τ Cert.ReferenceIdeal.sig (Elt Ideal))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3))
    (h_v6 : K (Proc.devRef .tc Cert.KernelIdeal.main_v6) = R (Proc.devRef .tc Cert.ReferenceIdeal.main_v4)) :
    (after Cert.KernelIdeal.Gen.hostOps1 K (Proc.devRef .tc Cert.KernelIdeal.main_cst_4) = after rpiece1 R (Proc.devRef .tc Cert.ReferenceIdeal.main_cst_3))
    ∧ (after Cert.KernelIdeal.Gen.hostOps1 K (Proc.devRef .tc Cert.KernelIdeal.main_v15) = after rpiece1 R (Proc.devRef .tc Cert.ReferenceIdeal.main_v13))
    ∧ (after Cert.KernelIdeal.Gen.hostOps1 K (Proc.devRef .tc Cert.KernelIdeal.main_v18) = after rpiece1 R (Proc.devRef .tc Cert.ReferenceIdeal.main_v16))
    ∧ (after Cert.KernelIdeal.Gen.hostOps1 K (Proc.devRef .tc Cert.KernelIdeal.main_v8) = after rpiece1 R (Proc.devRef .tc Cert.ReferenceIdeal.main_v6))
    ∧ (after Cert.KernelIdeal.Gen.hostOps1 K (Proc.devRef .tc Cert.KernelIdeal.main_v6) = after rpiece1 R (Proc.devRef .tc Cert.ReferenceIdeal.main_v4))
    ∧ (after Cert.KernelIdeal.Gen.hostOps1 K (Proc.devRef .tc Cert.KernelIdeal.main_v9) = after rpiece1 R (Proc.devRef .tc Cert.ReferenceIdeal.main_v7))
    ∧ (after Cert.KernelIdeal.Gen.hostOps1 K (Proc.devRef .tc Cert.KernelIdeal.main_v1) = after rpiece1 R (Proc.devRef .tc Cert.ReferenceIdeal.main_v1))
    ∧ (after Cert.KernelIdeal.Gen.hostOps1 K (Proc.devRef .tc Cert.KernelIdeal.main_v3) = after rpiece1 R (Proc.devRef .tc Cert.ReferenceIdeal.main_v3)) := by
  simp only [Cert.KernelIdeal.Gen.hostOps1, List.cons_append, List.nil_append, rpiece1, Cert.ReferenceIdeal.ValueP.ops]
  cut_list
  refine ⟨?_, ?_, ?_, ?_, ?_, ?_, ?_, ?_⟩
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl
  · host_read
    try simp only [h_v1, h_v3, h_v6]
    try rw [h_v1]
    try rw [h_v3]
    try rw [h_v6]
    try rfl

end Cert.Lines

end
-- ==== Proof.Piece2.lean ====
/-
  Piece 2 of the two programs, from any contents that agree where the piece reads.

  The kernel program's piece is the host operations `hostOps1_1`; the reference's is operations 22 … 24 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 2. -/
abbrev rpiece2 : List (HloOp Cert.ReferenceIdeal.τ Cert.ReferenceIdeal.sig (Elt Ideal)) :=
  ((Cert.ReferenceIdeal.ValueP.ops (F := Ideal)).drop 22).take 3

set_option maxHeartbeats 40000000 in
theorem piece2 (K : Valuation Cert.KernelIdeal.τ Cert.KernelIdeal.sig (Elt Ideal)) (R : Valuation Cert.ReferenceIdeal.τ Cert.ReferenceIdeal.sig (Elt Ideal))
    (h_cst_4 : K (Proc.devRef .tc Cert.KernelIdeal.main_cst_4) = R (Proc.devRef .tc Cert.ReferenceIdeal.main_cst_3))
    (h_v15 : K (Proc.devRef .tc Cert.KernelIdeal.main_v15) = R (Proc.devRef .tc Cert.ReferenceIdeal.main_v13))
    (h_v18 : K (Proc.devRef .tc Cert.KernelIdeal.main_v18) = R (Proc.devRef .tc Cert.ReferenceIdeal.main_v16))
    (h_v8 : K (Proc.devRef .tc Cert.KernelIdeal.main_v8) = R (Proc.devRef .tc Cert.ReferenceIdeal.main_v6))
    (h_v6 : K (Proc.devRef .tc Cert.KernelIdeal.main_v6) = R (Proc.devRef .tc Cert.ReferenceIdeal.main_v4))
    (h_v9 : K (Proc.devRef .tc Cert.KernelIdeal.main_v9) = R (Proc.devRef .tc Cert.ReferenceIdeal.main_v7))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after Cert.KernelIdeal.Gen.hostOps1_1 K (Proc.devRef .tc Cert.KernelIdeal.main_v8) = after rpiece2 R (Proc.devRef .tc Cert.ReferenceIdeal.main_v6))
    ∧ (after Cert.KernelIdeal.Gen.hostOps1_1 K (Proc.devRef .tc Cert.KernelIdeal.main_v6) = after rpiece2 R (Proc.devRef .tc Cert.ReferenceIdeal.main_v4))
    ∧ (after Cert.KernelIdeal.Gen.hostOps1_1 K (Proc.devRef .tc Cert.KernelIdeal.main_v19) = after rpiece2 R (Proc.devRef .tc Cert.ReferenceIdeal.main_v17))
    ∧ (after Cert.KernelIdeal.Gen.hostOps1_1 K (Proc.devRef .tc Cert.KernelIdeal.main_v9) = after rpiece2 R (Proc.devRef .tc Cert.ReferenceIdeal.main_v7))
    ∧ (after Cert.KernelIdeal.Gen.hostOps1_1 K (Proc.devRef .tc Cert.KernelIdeal.main_v1) = after rpiece2 R (Proc.devRef .tc Cert.ReferenceIdeal.main_v1))
    ∧ (after Cert.KernelIdeal.Gen.hostOps1_1 K (Proc.devRef .tc Cert.KernelIdeal.main_v3) = after rpiece2 R (Proc.devRef .tc Cert.ReferenceIdeal.main_v3)) := by
  simp only [Cert.KernelIdeal.Gen.hostOps1_1, List.cons_append, List.nil_append, rpiece2, Cert.ReferenceIdeal.ValueP.ops]
  cut_list
  refine ⟨?_, ?_, ?_, ?_, ?_, ?_⟩
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl
  · host_read
    try simp only [h_cst_4, h_v15, h_v18, h_v8, h_v6, h_v9, h_v1, h_v3]
    try rw [h_cst_4]
    try rw [h_v15]
    try rw [h_v18]
    try rw [h_v8]
    try rw [h_v6]
    try rw [h_v9]
    try rw [h_v1]
    try rw [h_v3]
    try rfl

end Cert.Lines

end
-- ==== Proof.Piece3.lean ====
/-
  Piece 3 of the two programs, from any contents that agree where the piece reads.

  The kernel program's piece is the host operations `hostOps1_2`; the reference's is operations 25 … 62 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 3. -/
abbrev rpiece3 : List (HloOp Cert.ReferenceIdeal.τ Cert.ReferenceIdeal.sig (Elt Ideal)) :=
  ((Cert.ReferenceIdeal.ValueP.ops (F := Ideal)).drop 25).take 38

set_option maxHeartbeats 40000000 in
theorem piece3 (K : Valuation Cert.KernelIdeal.τ Cert.KernelIdeal.sig (Elt Ideal)) (R : Valuation Cert.ReferenceIdeal.τ Cert.ReferenceIdeal.sig (Elt Ideal))
    (h_v8 : @Eq ((⟨Cert.KernelIdeal.S196608, .i32⟩ : BufTy).Contents (Elt Ideal)) (K (Proc.devRef .tc Cert.KernelIdeal.main_v8)) (R (Proc.devRef .tc Cert.ReferenceIdeal.main_v6)))
    (h_v6 : @Eq ((⟨Cert.KernelIdeal.S65536x156, .f32⟩ : BufTy).Contents (Elt Ideal)) (K (Proc.devRef .tc Cert.KernelIdeal.main_v6)) (R (Proc.devRef .tc Cert.ReferenceIdeal.main_v4)))
    (h_v19 : @Eq ((⟨Cert.KernelIdeal.S65536, .f32⟩ : BufTy).Contents (Elt Ideal)) (K (Proc.devRef .tc Cert.KernelIdeal.main_v19)) (R (Proc.devRef .tc Cert.ReferenceIdeal.main_v17)))
    (h_v9 : @Eq ((⟨Cert.KernelIdeal.S196608, .i32⟩ : BufTy).Contents (Elt Ideal)) (K (Proc.devRef .tc Cert.KernelIdeal.main_v9)) (R (Proc.devRef .tc Cert.ReferenceIdeal.main_v7)))
    (h_arg3 : @Eq ((⟨Cert.KernelIdeal.S156, .f32⟩ : BufTy).Contents (Elt Ideal)) (K (Proc.devRef .tc Cert.KernelIdeal.main_arg3)) (R (Proc.devRef .tc Cert.ReferenceIdeal.main_arg3)))
    (h_v1 : @Eq ((⟨Cert.KernelIdeal.S131072, .i32⟩ : BufTy).Contents (Elt Ideal)) (K (Proc.devRef .tc Cert.KernelIdeal.main_v1)) (R (Proc.devRef .tc Cert.ReferenceIdeal.main_v1)))
    (h_v3 : @Eq ((⟨Cert.KernelIdeal.S131072, .i32⟩ : BufTy).Contents (Elt Ideal)) (K (Proc.devRef .tc Cert.KernelIdeal.main_v3)) (R (Proc.devRef .tc Cert.ReferenceIdeal.main_v3))) :
    (@Eq ((⟨Cert.KernelIdeal.S65536x156, .f32⟩ : BufTy).Contents (Elt Ideal)) (after Cert.KernelIdeal.Gen.hostOps1_2 K (Proc.devRef .tc Cert.KernelIdeal.main_v50)) (after rpiece3 R (Proc.devRef .tc Cert.ReferenceIdeal.main_v48)))
    ∧ (@Eq ((⟨Cert.KernelIdeal.S131072, .i32⟩ : BufTy).Contents (Elt Ideal)) (after Cert.KernelIdeal.Gen.hostOps1_2 K (Proc.devRef .tc Cert.KernelIdeal.main_v1)) (after rpiece3 R (Proc.devRef .tc Cert.ReferenceIdeal.main_v1)))
    ∧ (@Eq ((⟨Cert.KernelIdeal.S131072, .i32⟩ : BufTy).Contents (Elt Ideal)) (after Cert.KernelIdeal.Gen.hostOps1_2 K (Proc.devRef .tc Cert.KernelIdeal.main_v3)) (after rpiece3 R (Proc.devRef .tc Cert.ReferenceIdeal.main_v3))) := by
  simp only [Cert.KernelIdeal.Gen.hostOps1_2, List.cons_append, List.nil_append, rpiece3, Cert.ReferenceIdeal.ValueP.ops]
  cut_list
  refine ⟨?_, ?_, ?_⟩
  · host_read
    try simp only [h_v8, h_v6, h_v19, h_v9, h_arg3, h_v1, h_v3]
    try rw [h_v8]
    try rw [h_v6]
    try rw [h_v19]
    try rw [h_v9]
    try rw [h_arg3]
    try rw [h_v1]
    try rw [h_v3]
    try rfl
  · host_read
    try simp only [h_v8, h_v6, h_v19, h_v9, h_arg3, h_v1, h_v3]
    try rw [h_v8]
    try rw [h_v6]
    try rw [h_v19]
    try rw [h_v9]
    try rw [h_arg3]
    try rw [h_v1]
    try rw [h_v3]
    try rfl
  · host_read
    try simp only [h_v8, h_v6, h_v19, h_v9, h_arg3, h_v1, h_v3]
    try rw [h_v8]
    try rw [h_v6]
    try rw [h_v19]
    try rw [h_v9]
    try rw [h_arg3]
    try rw [h_v1]
    try rw [h_v3]
    try rfl

end Cert.Lines

end
-- ==== Proof.Piece4.lean ====
/-
  Piece 4 of the two programs, from any contents that agree where the piece reads.

  The kernel program's piece is the host operations `hostOps1_3`; the reference's is operations 63 … 65 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 4. -/
abbrev rpiece4 : List (HloOp Cert.ReferenceIdeal.τ Cert.ReferenceIdeal.sig (Elt Ideal)) :=
  ((Cert.ReferenceIdeal.ValueP.ops (F := Ideal)).drop 63).take 3

set_option maxHeartbeats 40000000 in
theorem piece4 (K : Valuation Cert.KernelIdeal.τ Cert.KernelIdeal.sig (Elt Ideal)) (R : Valuation Cert.ReferenceIdeal.τ Cert.ReferenceIdeal.sig (Elt Ideal))
    (h_v50 : K (Proc.devRef .tc Cert.KernelIdeal.main_v50) = R (Proc.devRef .tc Cert.ReferenceIdeal.main_v48))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after Cert.KernelIdeal.Gen.hostOps1_3 K (Proc.devRef .tc Cert.KernelIdeal.main_v51) = after rpiece4 R (Proc.devRef .tc Cert.ReferenceIdeal.main_v49))
    ∧ (after Cert.KernelIdeal.Gen.hostOps1_3 K (Proc.devRef .tc Cert.KernelIdeal.main_v1) = after rpiece4 R (Proc.devRef .tc Cert.ReferenceIdeal.main_v1))
    ∧ (after Cert.KernelIdeal.Gen.hostOps1_3 K (Proc.devRef .tc Cert.KernelIdeal.main_v3) = after rpiece4 R (Proc.devRef .tc Cert.ReferenceIdeal.main_v3)) := by
  simp only [Cert.KernelIdeal.Gen.hostOps1_3, List.cons_append, List.nil_append, rpiece4, Cert.ReferenceIdeal.ValueP.ops]
  cut_list
  refine ⟨?_, ?_, ?_⟩
  · host_read
    try simp only [h_v50, h_v1, h_v3]
    try rw [h_v50]
    try rw [h_v1]
    try rw [h_v3]
    try rfl
  · host_read
    try simp only [h_v50, h_v1, h_v3]
    try rw [h_v50]
    try rw [h_v1]
    try rw [h_v3]
    try rfl
  · host_read
    try simp only [h_v50, h_v1, h_v3]
    try rw [h_v50]
    try rw [h_v1]
    try rw [h_v3]
    try rfl

end Cert.Lines

end
-- ==== Proof.Piece5.lean ====
/-
  Piece 5 of the two programs, from any contents that agree where the piece reads.

  The kernel program's piece is the host operations `hostOps1_4` and region 1, as its operation (X · W + B with a zero row B); the reference's is operations 66 … 66 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 5. -/
abbrev rpiece5 : List (HloOp Cert.ReferenceIdeal.τ Cert.ReferenceIdeal.sig (Elt Ideal)) :=
  ((Cert.ReferenceIdeal.ValueP.ops (F := Ideal)).drop 66).take 1

set_option maxHeartbeats 40000000 in
theorem piece5 (K : Valuation Cert.KernelIdeal.τ Cert.KernelIdeal.sig (Elt Ideal)) (R : Valuation Cert.ReferenceIdeal.τ Cert.ReferenceIdeal.sig (Elt Ideal))
    (h_v51 : K (Proc.devRef .tc Cert.KernelIdeal.main_v51) = R (Proc.devRef .tc Cert.ReferenceIdeal.main_v49))
    (h_arg4 : K (Proc.devRef .tc Cert.KernelIdeal.main_arg4) = R (Proc.devRef .tc Cert.ReferenceIdeal.main_arg4))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after (Cert.KernelIdeal.Gen.hostOps1_4 ++ [Cert.KernelIdeal.Dense.dop1]) K (Proc.devRef .tc Cert.KernelIdeal.main_v54) = after rpiece5 R (Proc.devRef .tc Cert.ReferenceIdeal.main_v50))
    ∧ (after (Cert.KernelIdeal.Gen.hostOps1_4 ++ [Cert.KernelIdeal.Dense.dop1]) K (Proc.devRef .tc Cert.KernelIdeal.main_v1) = after rpiece5 R (Proc.devRef .tc Cert.ReferenceIdeal.main_v1))
    ∧ (after (Cert.KernelIdeal.Gen.hostOps1_4 ++ [Cert.KernelIdeal.Dense.dop1]) K (Proc.devRef .tc Cert.KernelIdeal.main_v3) = after rpiece5 R (Proc.devRef .tc Cert.ReferenceIdeal.main_v3)) := by
  simp only [Cert.KernelIdeal.Dense.dop1, Cert.KernelIdeal.Gen.hostOps1_4, List.cons_append, List.nil_append, rpiece5, Cert.ReferenceIdeal.ValueP.ops]
  cut_list
  refine ⟨?_, ?_, ?_⟩
  · host_read
    try simp only [h_v51, h_arg4, h_v1, h_v3]
    try rw [h_v51]
    try rw [h_arg4]
    try rw [h_v1]
    try rw [h_v3]
    exact (host_gcn Cert.ReferenceIdeal.dot_S65536x156_S156x312_S65536x312_1_0_0_1_n_n rfl _ _ _ _ _).symm
  · host_read
    try simp only [h_v51, h_arg4, h_v1, h_v3]
    try rw [h_v51]
    try rw [h_arg4]
    try rw [h_v1]
    try rw [h_v3]
    try rfl
  · host_read
    try simp only [h_v51, h_arg4, h_v1, h_v3]
    try rw [h_v51]
    try rw [h_arg4]
    try rw [h_v1]
    try rw [h_v3]
    try rfl

end Cert.Lines

end
-- ==== Proof.Piece6.lean ====
/-
  Piece 6 of the two programs, from any contents that agree where the piece reads.

  The kernel program's piece is the host operations `hostOps2`; the reference's is operations 67 … 83 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 6. -/
abbrev rpiece6 : List (HloOp Cert.ReferenceIdeal.τ Cert.ReferenceIdeal.sig (Elt Ideal)) :=
  ((Cert.ReferenceIdeal.ValueP.ops (F := Ideal)).drop 67).take 17

set_option maxHeartbeats 40000000 in
theorem piece6 (K : Valuation Cert.KernelIdeal.τ Cert.KernelIdeal.sig (Elt Ideal)) (R : Valuation Cert.ReferenceIdeal.τ Cert.ReferenceIdeal.sig (Elt Ideal))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3))
    (h_v54 : K (Proc.devRef .tc Cert.KernelIdeal.main_v54) = R (Proc.devRef .tc Cert.ReferenceIdeal.main_v50)) :
    (after Cert.KernelIdeal.Gen.hostOps2 K (Proc.devRef .tc Cert.KernelIdeal.main_cst_16) = after rpiece6 R (Proc.devRef .tc Cert.ReferenceIdeal.main_cst_14))
    ∧ (after Cert.KernelIdeal.Gen.hostOps2 K (Proc.devRef .tc Cert.KernelIdeal.main_v63) = after rpiece6 R (Proc.devRef .tc Cert.ReferenceIdeal.main_v59))
    ∧ (after Cert.KernelIdeal.Gen.hostOps2 K (Proc.devRef .tc Cert.KernelIdeal.main_v66) = after rpiece6 R (Proc.devRef .tc Cert.ReferenceIdeal.main_v62))
    ∧ (after Cert.KernelIdeal.Gen.hostOps2 K (Proc.devRef .tc Cert.KernelIdeal.main_v56) = after rpiece6 R (Proc.devRef .tc Cert.ReferenceIdeal.main_v52))
    ∧ (after Cert.KernelIdeal.Gen.hostOps2 K (Proc.devRef .tc Cert.KernelIdeal.main_v54) = after rpiece6 R (Proc.devRef .tc Cert.ReferenceIdeal.main_v50))
    ∧ (after Cert.KernelIdeal.Gen.hostOps2 K (Proc.devRef .tc Cert.KernelIdeal.main_v57) = after rpiece6 R (Proc.devRef .tc Cert.ReferenceIdeal.main_v53))
    ∧ (after Cert.KernelIdeal.Gen.hostOps2 K (Proc.devRef .tc Cert.KernelIdeal.main_v1) = after rpiece6 R (Proc.devRef .tc Cert.ReferenceIdeal.main_v1))
    ∧ (after Cert.KernelIdeal.Gen.hostOps2 K (Proc.devRef .tc Cert.KernelIdeal.main_v3) = after rpiece6 R (Proc.devRef .tc Cert.ReferenceIdeal.main_v3)) := by
  simp only [Cert.KernelIdeal.Gen.hostOps2, List.cons_append, List.nil_append, rpiece6, Cert.ReferenceIdeal.ValueP.ops]
  cut_list
  refine ⟨?_, ?_, ?_, ?_, ?_, ?_, ?_, ?_⟩
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl
  · host_read
    try simp only [h_v1, h_v3, h_v54]
    try rw [h_v1]
    try rw [h_v3]
    try rw [h_v54]
    try rfl

end Cert.Lines

end
-- ==== Proof.Piece7.lean ====
/-
  Piece 7 of the two programs, from any contents that agree where the piece reads.

  The kernel program's piece is the host operations `hostOps2_1`; the reference's is operations 84 … 86 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 7. -/
abbrev rpiece7 : List (HloOp Cert.ReferenceIdeal.τ Cert.ReferenceIdeal.sig (Elt Ideal)) :=
  ((Cert.ReferenceIdeal.ValueP.ops (F := Ideal)).drop 84).take 3

set_option maxHeartbeats 40000000 in
theorem piece7 (K : Valuation Cert.KernelIdeal.τ Cert.KernelIdeal.sig (Elt Ideal)) (R : Valuation Cert.ReferenceIdeal.τ Cert.ReferenceIdeal.sig (Elt Ideal))
    (h_cst_16 : K (Proc.devRef .tc Cert.KernelIdeal.main_cst_16) = R (Proc.devRef .tc Cert.ReferenceIdeal.main_cst_14))
    (h_v63 : K (Proc.devRef .tc Cert.KernelIdeal.main_v63) = R (Proc.devRef .tc Cert.ReferenceIdeal.main_v59))
    (h_v66 : K (Proc.devRef .tc Cert.KernelIdeal.main_v66) = R (Proc.devRef .tc Cert.ReferenceIdeal.main_v62))
    (h_v56 : K (Proc.devRef .tc Cert.KernelIdeal.main_v56) = R (Proc.devRef .tc Cert.ReferenceIdeal.main_v52))
    (h_v54 : K (Proc.devRef .tc Cert.KernelIdeal.main_v54) = R (Proc.devRef .tc Cert.ReferenceIdeal.main_v50))
    (h_v57 : K (Proc.devRef .tc Cert.KernelIdeal.main_v57) = R (Proc.devRef .tc Cert.ReferenceIdeal.main_v53))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after Cert.KernelIdeal.Gen.hostOps2_1 K (Proc.devRef .tc Cert.KernelIdeal.main_v56) = after rpiece7 R (Proc.devRef .tc Cert.ReferenceIdeal.main_v52))
    ∧ (after Cert.KernelIdeal.Gen.hostOps2_1 K (Proc.devRef .tc Cert.KernelIdeal.main_v54) = after rpiece7 R (Proc.devRef .tc Cert.ReferenceIdeal.main_v50))
    ∧ (after Cert.KernelIdeal.Gen.hostOps2_1 K (Proc.devRef .tc Cert.KernelIdeal.main_v67) = after rpiece7 R (Proc.devRef .tc Cert.ReferenceIdeal.main_v63))
    ∧ (after Cert.KernelIdeal.Gen.hostOps2_1 K (Proc.devRef .tc Cert.KernelIdeal.main_v57) = after rpiece7 R (Proc.devRef .tc Cert.ReferenceIdeal.main_v53))
    ∧ (after Cert.KernelIdeal.Gen.hostOps2_1 K (Proc.devRef .tc Cert.KernelIdeal.main_v1) = after rpiece7 R (Proc.devRef .tc Cert.ReferenceIdeal.main_v1))
    ∧ (after Cert.KernelIdeal.Gen.hostOps2_1 K (Proc.devRef .tc Cert.KernelIdeal.main_v3) = after rpiece7 R (Proc.devRef .tc Cert.ReferenceIdeal.main_v3)) := by
  simp only [Cert.KernelIdeal.Gen.hostOps2_1, List.cons_append, List.nil_append, rpiece7, Cert.ReferenceIdeal.ValueP.ops]
  cut_list
  refine ⟨?_, ?_, ?_, ?_, ?_, ?_⟩
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl
  · host_read
    try simp only [h_cst_16, h_v63, h_v66, h_v56, h_v54, h_v57, h_v1, h_v3]
    try rw [h_cst_16]
    try rw [h_v63]
    try rw [h_v66]
    try rw [h_v56]
    try rw [h_v54]
    try rw [h_v57]
    try rw [h_v1]
    try rw [h_v3]
    try rfl

end Cert.Lines

end
-- ==== Proof.Piece8.lean ====
/-
  Piece 8 of the two programs, from any contents that agree where the piece reads.

  The kernel program's piece is the host operations `hostOps2_2`; the reference's is operations 87 … 124 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 8. -/
abbrev rpiece8 : List (HloOp Cert.ReferenceIdeal.τ Cert.ReferenceIdeal.sig (Elt Ideal)) :=
  ((Cert.ReferenceIdeal.ValueP.ops (F := Ideal)).drop 87).take 38

set_option maxHeartbeats 40000000 in
theorem piece8 (K : Valuation Cert.KernelIdeal.τ Cert.KernelIdeal.sig (Elt Ideal)) (R : Valuation Cert.ReferenceIdeal.τ Cert.ReferenceIdeal.sig (Elt Ideal))
    (h_v56 : K (Proc.devRef .tc Cert.KernelIdeal.main_v56) = R (Proc.devRef .tc Cert.ReferenceIdeal.main_v52))
    (h_v54 : K (Proc.devRef .tc Cert.KernelIdeal.main_v54) = R (Proc.devRef .tc Cert.ReferenceIdeal.main_v50))
    (h_v67 : K (Proc.devRef .tc Cert.KernelIdeal.main_v67) = R (Proc.devRef .tc Cert.ReferenceIdeal.main_v63))
    (h_v57 : K (Proc.devRef .tc Cert.KernelIdeal.main_v57) = R (Proc.devRef .tc Cert.ReferenceIdeal.main_v53))
    (h_arg5 : K (Proc.devRef .tc Cert.KernelIdeal.main_arg5) = R (Proc.devRef .tc Cert.ReferenceIdeal.main_arg5))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after Cert.KernelIdeal.Gen.hostOps2_2 K (Proc.devRef .tc Cert.KernelIdeal.main_v98) = after rpiece8 R (Proc.devRef .tc Cert.ReferenceIdeal.main_v94))
    ∧ (after Cert.KernelIdeal.Gen.hostOps2_2 K (Proc.devRef .tc Cert.KernelIdeal.main_v1) = after rpiece8 R (Proc.devRef .tc Cert.ReferenceIdeal.main_v1))
    ∧ (after Cert.KernelIdeal.Gen.hostOps2_2 K (Proc.devRef .tc Cert.KernelIdeal.main_v3) = after rpiece8 R (Proc.devRef .tc Cert.ReferenceIdeal.main_v3)) := by
  simp only [Cert.KernelIdeal.Gen.hostOps2_2, List.cons_append, List.nil_append, rpiece8, Cert.ReferenceIdeal.ValueP.ops]
  cut_list
  refine ⟨?_, ?_, ?_⟩
  · host_read
    try simp only [h_v56, h_v54, h_v67, h_v57, h_arg5, h_v1, h_v3]
    try rw [h_v56]
    try rw [h_v54]
    try rw [h_v67]
    try rw [h_v57]
    try rw [h_arg5]
    try rw [h_v1]
    try rw [h_v3]
    try rfl
  · host_read
    try simp only [h_v56, h_v54, h_v67, h_v57, h_arg5, h_v1, h_v3]
    try rw [h_v56]
    try rw [h_v54]
    try rw [h_v67]
    try rw [h_v57]
    try rw [h_arg5]
    try rw [h_v1]
    try rw [h_v3]
    try rfl
  · host_read
    try simp only [h_v56, h_v54, h_v67, h_v57, h_arg5, h_v1, h_v3]
    try rw [h_v56]
    try rw [h_v54]
    try rw [h_v67]
    try rw [h_v57]
    try rw [h_arg5]
    try rw [h_v1]
    try rw [h_v3]
    try rfl

end Cert.Lines

end
-- ==== Proof.Piece9.lean ====
/-
  Piece 9 of the two programs, from any contents that agree where the piece reads.

  The kernel program's piece is the host operations `hostOps2_3`; the reference's is operations 125 … 127 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 9. -/
abbrev rpiece9 : List (HloOp Cert.ReferenceIdeal.τ Cert.ReferenceIdeal.sig (Elt Ideal)) :=
  ((Cert.ReferenceIdeal.ValueP.ops (F := Ideal)).drop 125).take 3

set_option maxHeartbeats 40000000 in
theorem piece9 (K : Valuation Cert.KernelIdeal.τ Cert.KernelIdeal.sig (Elt Ideal)) (R : Valuation Cert.ReferenceIdeal.τ Cert.ReferenceIdeal.sig (Elt Ideal))
    (h_v98 : K (Proc.devRef .tc Cert.KernelIdeal.main_v98) = R (Proc.devRef .tc Cert.ReferenceIdeal.main_v94))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after Cert.KernelIdeal.Gen.hostOps2_3 K (Proc.devRef .tc Cert.KernelIdeal.main_v99) = after rpiece9 R (Proc.devRef .tc Cert.ReferenceIdeal.main_v95))
    ∧ (after Cert.KernelIdeal.Gen.hostOps2_3 K (Proc.devRef .tc Cert.KernelIdeal.main_v1) = after rpiece9 R (Proc.devRef .tc Cert.ReferenceIdeal.main_v1))
    ∧ (after Cert.KernelIdeal.Gen.hostOps2_3 K (Proc.devRef .tc Cert.KernelIdeal.main_v3) = after rpiece9 R (Proc.devRef .tc Cert.ReferenceIdeal.main_v3)) := by
  simp only [Cert.KernelIdeal.Gen.hostOps2_3, List.cons_append, List.nil_append, rpiece9, Cert.ReferenceIdeal.ValueP.ops]
  cut_list
  refine ⟨?_, ?_, ?_⟩
  · host_read
    try simp only [h_v98, h_v1, h_v3]
    try rw [h_v98]
    try rw [h_v1]
    try rw [h_v3]
    try rfl
  · host_read
    try simp only [h_v98, h_v1, h_v3]
    try rw [h_v98]
    try rw [h_v1]
    try rw [h_v3]
    try rfl
  · host_read
    try simp only [h_v98, h_v1, h_v3]
    try rw [h_v98]
    try rw [h_v1]
    try rw [h_v3]
    try rfl

end Cert.Lines

end
-- ==== Proof.Piece10.lean ====
/-
  Piece 10 of the two programs, from any contents that agree where the piece reads.

  The kernel program's piece is the host operations `hostOps2_4` and region 2, as its operation (X · W + B with a zero row B); the reference's is operations 128 … 128 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 10. -/
abbrev rpiece10 : List (HloOp Cert.ReferenceIdeal.τ Cert.ReferenceIdeal.sig (Elt Ideal)) :=
  ((Cert.ReferenceIdeal.ValueP.ops (F := Ideal)).drop 128).take 1

set_option maxHeartbeats 40000000 in
theorem piece10 (K : Valuation Cert.KernelIdeal.τ Cert.KernelIdeal.sig (Elt Ideal)) (R : Valuation Cert.ReferenceIdeal.τ Cert.ReferenceIdeal.sig (Elt Ideal))
    (h_v99 : K (Proc.devRef .tc Cert.KernelIdeal.main_v99) = R (Proc.devRef .tc Cert.ReferenceIdeal.main_v95))
    (h_arg6 : K (Proc.devRef .tc Cert.KernelIdeal.main_arg6) = R (Proc.devRef .tc Cert.ReferenceIdeal.main_arg6))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3)) :
    (after (Cert.KernelIdeal.Gen.hostOps2_4 ++ [Cert.KernelIdeal.Dense.dop2]) K (Proc.devRef .tc Cert.KernelIdeal.main_v102) = after rpiece10 R (Proc.devRef .tc Cert.ReferenceIdeal.main_v96))
    ∧ (after (Cert.KernelIdeal.Gen.hostOps2_4 ++ [Cert.KernelIdeal.Dense.dop2]) K (Proc.devRef .tc Cert.KernelIdeal.main_v1) = after rpiece10 R (Proc.devRef .tc Cert.ReferenceIdeal.main_v1))
    ∧ (after (Cert.KernelIdeal.Gen.hostOps2_4 ++ [Cert.KernelIdeal.Dense.dop2]) K (Proc.devRef .tc Cert.KernelIdeal.main_v3) = after rpiece10 R (Proc.devRef .tc Cert.ReferenceIdeal.main_v3)) := by
  simp only [Cert.KernelIdeal.Dense.dop2, Cert.KernelIdeal.Gen.hostOps2_4, List.cons_append, List.nil_append, rpiece10, Cert.ReferenceIdeal.ValueP.ops]
  cut_list
  refine ⟨?_, ?_, ?_⟩
  · host_read
    try simp only [h_v99, h_arg6, h_v1, h_v3]
    try rw [h_v99]
    try rw [h_arg6]
    try rw [h_v1]
    try rw [h_v3]
    exact (host_gcn Cert.ReferenceIdeal.dot_S65536x312_S312x128_S65536x128_1_0_0_1_n_n rfl _ _ _ _ _).symm
  · host_read
    try simp only [h_v99, h_arg6, h_v1, h_v3]
    try rw [h_v99]
    try rw [h_arg6]
    try rw [h_v1]
    try rw [h_v3]
    try rfl
  · host_read
    try simp only [h_v99, h_arg6, h_v1, h_v3]
    try rw [h_v99]
    try rw [h_arg6]
    try rw [h_v1]
    try rw [h_v3]
    try rfl

end Cert.Lines

end
-- ==== Proof.Piece11.lean ====
/-
  Piece 11 of the two programs, from any contents that agree where the piece reads.

  The kernel program's piece is the host operations `hostOps3`; the reference's is operations 129 … 145 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 11. -/
abbrev rpiece11 : List (HloOp Cert.ReferenceIdeal.τ Cert.ReferenceIdeal.sig (Elt Ideal)) :=
  ((Cert.ReferenceIdeal.ValueP.ops (F := Ideal)).drop 129).take 17

set_option maxHeartbeats 40000000 in
theorem piece11 (K : Valuation Cert.KernelIdeal.τ Cert.KernelIdeal.sig (Elt Ideal)) (R : Valuation Cert.ReferenceIdeal.τ Cert.ReferenceIdeal.sig (Elt Ideal))
    (h_v1 : K (Proc.devRef .tc Cert.KernelIdeal.main_v1) = R (Proc.devRef .tc Cert.ReferenceIdeal.main_v1))
    (h_v3 : K (Proc.devRef .tc Cert.KernelIdeal.main_v3) = R (Proc.devRef .tc Cert.ReferenceIdeal.main_v3))
    (h_v102 : K (Proc.devRef .tc Cert.KernelIdeal.main_v102) = R (Proc.devRef .tc Cert.ReferenceIdeal.main_v96)) :
    (after Cert.KernelIdeal.Gen.hostOps3 K (Proc.devRef .tc Cert.KernelIdeal.main_cst_29) = after rpiece11 R (Proc.devRef .tc Cert.ReferenceIdeal.main_cst_26))
    ∧ (after Cert.KernelIdeal.Gen.hostOps3 K (Proc.devRef .tc Cert.KernelIdeal.main_v111) = after rpiece11 R (Proc.devRef .tc Cert.ReferenceIdeal.main_v105))
    ∧ (after Cert.KernelIdeal.Gen.hostOps3 K (Proc.devRef .tc Cert.KernelIdeal.main_v114) = after rpiece11 R (Proc.devRef .tc Cert.ReferenceIdeal.main_v108))
    ∧ (after Cert.KernelIdeal.Gen.hostOps3 K (Proc.devRef .tc Cert.KernelIdeal.main_v104) = after rpiece11 R (Proc.devRef .tc Cert.ReferenceIdeal.main_v98))
    ∧ (after Cert.KernelIdeal.Gen.hostOps3 K (Proc.devRef .tc Cert.KernelIdeal.main_v102) = after rpiece11 R (Proc.devRef .tc Cert.ReferenceIdeal.main_v96))
    ∧ (after Cert.KernelIdeal.Gen.hostOps3 K (Proc.devRef .tc Cert.KernelIdeal.main_v105) = after rpiece11 R (Proc.devRef .tc Cert.ReferenceIdeal.main_v99)) := by
  simp only [Cert.KernelIdeal.Gen.hostOps3, List.cons_append, List.nil_append, rpiece11, Cert.ReferenceIdeal.ValueP.ops]
  cut_list
  refine ⟨?_, ?_, ?_, ?_, ?_, ?_⟩
  · host_read
    try simp only [h_v1, h_v3, h_v102]
    try rw [h_v1]
    try rw [h_v3]
    try rw [h_v102]
    try rfl
  · host_read
    try simp only [h_v1, h_v3, h_v102]
    try rw [h_v1]
    try rw [h_v3]
    try rw [h_v102]
    try rfl
  · host_read
    try simp only [h_v1, h_v3, h_v102]
    try rw [h_v1]
    try rw [h_v3]
    try rw [h_v102]
    try rfl
  · host_read
    try simp only [h_v1, h_v3, h_v102]
    try rw [h_v1]
    try rw [h_v3]
    try rw [h_v102]
    try rfl
  · host_read
    try simp only [h_v1, h_v3, h_v102]
    try rw [h_v1]
    try rw [h_v3]
    try rw [h_v102]
    try rfl
  · host_read
    try simp only [h_v1, h_v3, h_v102]
    try rw [h_v1]
    try rw [h_v3]
    try rw [h_v102]
    try rfl

end Cert.Lines

end
-- ==== Proof.Piece12.lean ====
/-
  Piece 12 of the two programs, from any contents that agree where the piece reads.

  The kernel program's piece is the host operations `hostOps3_1`; the reference's is operations 146 … 148 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 12. -/
abbrev rpiece12 : List (HloOp Cert.ReferenceIdeal.τ Cert.ReferenceIdeal.sig (Elt Ideal)) :=
  ((Cert.ReferenceIdeal.ValueP.ops (F := Ideal)).drop 146).take 3

set_option maxHeartbeats 40000000 in
theorem piece12 (K : Valuation Cert.KernelIdeal.τ Cert.KernelIdeal.sig (Elt Ideal)) (R : Valuation Cert.ReferenceIdeal.τ Cert.ReferenceIdeal.sig (Elt Ideal))
    (h_cst_29 : K (Proc.devRef .tc Cert.KernelIdeal.main_cst_29) = R (Proc.devRef .tc Cert.ReferenceIdeal.main_cst_26))
    (h_v111 : K (Proc.devRef .tc Cert.KernelIdeal.main_v111) = R (Proc.devRef .tc Cert.ReferenceIdeal.main_v105))
    (h_v114 : K (Proc.devRef .tc Cert.KernelIdeal.main_v114) = R (Proc.devRef .tc Cert.ReferenceIdeal.main_v108))
    (h_v104 : K (Proc.devRef .tc Cert.KernelIdeal.main_v104) = R (Proc.devRef .tc Cert.ReferenceIdeal.main_v98))
    (h_v102 : K (Proc.devRef .tc Cert.KernelIdeal.main_v102) = R (Proc.devRef .tc Cert.ReferenceIdeal.main_v96))
    (h_v105 : K (Proc.devRef .tc Cert.KernelIdeal.main_v105) = R (Proc.devRef .tc Cert.ReferenceIdeal.main_v99)) :
    (after Cert.KernelIdeal.Gen.hostOps3_1 K (Proc.devRef .tc Cert.KernelIdeal.main_v104) = after rpiece12 R (Proc.devRef .tc Cert.ReferenceIdeal.main_v98))
    ∧ (after Cert.KernelIdeal.Gen.hostOps3_1 K (Proc.devRef .tc Cert.KernelIdeal.main_v102) = after rpiece12 R (Proc.devRef .tc Cert.ReferenceIdeal.main_v96))
    ∧ (after Cert.KernelIdeal.Gen.hostOps3_1 K (Proc.devRef .tc Cert.KernelIdeal.main_v115) = after rpiece12 R (Proc.devRef .tc Cert.ReferenceIdeal.main_v109))
    ∧ (after Cert.KernelIdeal.Gen.hostOps3_1 K (Proc.devRef .tc Cert.KernelIdeal.main_v105) = after rpiece12 R (Proc.devRef .tc Cert.ReferenceIdeal.main_v99)) := by
  simp only [Cert.KernelIdeal.Gen.hostOps3_1, List.cons_append, List.nil_append, rpiece12, Cert.ReferenceIdeal.ValueP.ops]
  cut_list
  refine ⟨?_, ?_, ?_, ?_⟩
  · host_read
    try simp only [h_cst_29, h_v111, h_v114, h_v104, h_v102, h_v105]
    try rw [h_cst_29]
    try rw [h_v111]
    try rw [h_v114]
    try rw [h_v104]
    try rw [h_v102]
    try rw [h_v105]
    try rfl
  · host_read
    try simp only [h_cst_29, h_v111, h_v114, h_v104, h_v102, h_v105]
    try rw [h_cst_29]
    try rw [h_v111]
    try rw [h_v114]
    try rw [h_v104]
    try rw [h_v102]
    try rw [h_v105]
    try rfl
  · host_read
    try simp only [h_cst_29, h_v111, h_v114, h_v104, h_v102, h_v105]
    try rw [h_cst_29]
    try rw [h_v111]
    try rw [h_v114]
    try rw [h_v104]
    try rw [h_v102]
    try rw [h_v105]
    try rfl
  · host_read
    try simp only [h_cst_29, h_v111, h_v114, h_v104, h_v102, h_v105]
    try rw [h_cst_29]
    try rw [h_v111]
    try rw [h_v114]
    try rw [h_v104]
    try rw [h_v102]
    try rw [h_v105]
    try rfl

end Cert.Lines

end
-- ==== Proof.Piece13.lean ====
/-
  Piece 13 of the two programs, from any contents that agree where the piece reads.

  The kernel program's piece is the host operations `hostOps3_2`; the reference's is operations 149 … 186 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 13. -/
abbrev rpiece13 : List (HloOp Cert.ReferenceIdeal.τ Cert.ReferenceIdeal.sig (Elt Ideal)) :=
  ((Cert.ReferenceIdeal.ValueP.ops (F := Ideal)).drop 149).take 38

set_option maxHeartbeats 40000000 in
theorem piece13 (K : Valuation Cert.KernelIdeal.τ Cert.KernelIdeal.sig (Elt Ideal)) (R : Valuation Cert.ReferenceIdeal.τ Cert.ReferenceIdeal.sig (Elt Ideal))
    (h_v104 : K (Proc.devRef .tc Cert.KernelIdeal.main_v104) = R (Proc.devRef .tc Cert.ReferenceIdeal.main_v98))
    (h_v102 : K (Proc.devRef .tc Cert.KernelIdeal.main_v102) = R (Proc.devRef .tc Cert.ReferenceIdeal.main_v96))
    (h_v115 : K (Proc.devRef .tc Cert.KernelIdeal.main_v115) = R (Proc.devRef .tc Cert.ReferenceIdeal.main_v109))
    (h_v105 : K (Proc.devRef .tc Cert.KernelIdeal.main_v105) = R (Proc.devRef .tc Cert.ReferenceIdeal.main_v99))
    (h_arg7 : K (Proc.devRef .tc Cert.KernelIdeal.main_arg7) = R (Proc.devRef .tc Cert.ReferenceIdeal.main_arg7)) :
    (after Cert.KernelIdeal.Gen.hostOps3_2 K (Proc.devRef .tc Cert.KernelIdeal.main_v146) = after rpiece13 R (Proc.devRef .tc Cert.ReferenceIdeal.main_v140)) := by
  simp only [Cert.KernelIdeal.Gen.hostOps3_2, List.cons_append, List.nil_append, rpiece13, Cert.ReferenceIdeal.ValueP.ops]
  cut_list
  host_read
  try simp only [h_v104, h_v102, h_v115, h_v105, h_arg7]
  try rw [h_v104]
  try rw [h_v102]
  try rw [h_v115]
  try rw [h_v105]
  try rw [h_arg7]
  try rfl

end Cert.Lines

end
-- ==== Proof.Piece14.lean ====
/-
  Piece 14 of the two programs, from any contents that agree where the piece reads.

  The kernel program's piece is the host operations `hostOps3_3`; the reference's is operations 187 … 189 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 14. -/
abbrev rpiece14 : List (HloOp Cert.ReferenceIdeal.τ Cert.ReferenceIdeal.sig (Elt Ideal)) :=
  ((Cert.ReferenceIdeal.ValueP.ops (F := Ideal)).drop 187).take 3

set_option maxHeartbeats 40000000 in
theorem piece14 (K : Valuation Cert.KernelIdeal.τ Cert.KernelIdeal.sig (Elt Ideal)) (R : Valuation Cert.ReferenceIdeal.τ Cert.ReferenceIdeal.sig (Elt Ideal))
    (h_v146 : K (Proc.devRef .tc Cert.KernelIdeal.main_v146) = R (Proc.devRef .tc Cert.ReferenceIdeal.main_v140)) :
    (after Cert.KernelIdeal.Gen.hostOps3_3 K (Proc.devRef .tc Cert.KernelIdeal.main_v147) = after rpiece14 R (Proc.devRef .tc Cert.ReferenceIdeal.main_v141)) := by
  simp only [Cert.KernelIdeal.Gen.hostOps3_3, List.cons_append, List.nil_append, rpiece14, Cert.ReferenceIdeal.ValueP.ops]
  cut_list
  host_read
  try simp only [h_v146]
  try rw [h_v146]
  try rfl

end Cert.Lines

end
-- ==== Proof.Piece15.lean ====
/-
  Piece 15 of the two programs, from any contents that agree where the piece reads.

  The kernel program's piece is the host operations `hostOps3_4` and region 3, as its operation ((X · W + B)⁺); the reference's is operations 190 … 212 of its
  @main.  Apart from the layer the two are the same operations on corresponding buffers, and the layer — on the host a `dot_general`, the bias broadcast over the rows and added, the maximum with zero — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 15. -/
abbrev rpiece15 : List (HloOp Cert.ReferenceIdeal.τ Cert.ReferenceIdeal.sig (Elt Ideal)) :=
  ((Cert.ReferenceIdeal.ValueP.ops (F := Ideal)).drop 190).take 23

set_option maxHeartbeats 40000000 in
theorem piece15 (K : Valuation Cert.KernelIdeal.τ Cert.KernelIdeal.sig (Elt Ideal)) (R : Valuation Cert.ReferenceIdeal.τ Cert.ReferenceIdeal.sig (Elt Ideal))
    (h_arg37 : K (Proc.devRef .tc Cert.KernelIdeal.main_arg37) = R (Proc.devRef .tc Cert.ReferenceIdeal.main_arg37))
    (h_v147 : K (Proc.devRef .tc Cert.KernelIdeal.main_v147) = R (Proc.devRef .tc Cert.ReferenceIdeal.main_v141))
    (h_arg9 : K (Proc.devRef .tc Cert.KernelIdeal.main_arg9) = R (Proc.devRef .tc Cert.ReferenceIdeal.main_arg9))
    (h_arg8 : K (Proc.devRef .tc Cert.KernelIdeal.main_arg8) = R (Proc.devRef .tc Cert.ReferenceIdeal.main_arg8)) :
    (after (Cert.KernelIdeal.Gen.hostOps3_4 ++ [Cert.KernelIdeal.Dense.dop3]) K (Proc.devRef .tc Cert.KernelIdeal.main_v161) = after rpiece15 R (Proc.devRef .tc Cert.ReferenceIdeal.main_v158)) := by
  simp only [Cert.KernelIdeal.Dense.dop3, Cert.KernelIdeal.Gen.hostOps3_4, List.cons_append, List.nil_append, rpiece15, Cert.ReferenceIdeal.ValueP.ops]
  cut_list
  host_read
  try simp only [h_arg37, h_v147, h_arg9, h_arg8]
  try rw [h_arg37]
  try rw [h_v147]
  try rw [h_arg9]
  try rw [h_arg8]
  exact (host_dense_relu Cert.ReferenceIdeal.dot_S2048x128_S128x1024_S2048x1024_1_0_0_1_n_n rfl _ _ _ _ _ _ _ _).symm

end Cert.Lines

end
-- ==== Proof.Piece16.lean ====
/-
  Piece 16 of the two programs, from any contents that agree where the piece reads.

  The kernel program's piece is the host operations `hostOps4` and region 4, as its operation (X · W + B); the reference's is operations 213 … 216 of its
  @main.  Apart from the layer the two are the same operations on corresponding buffers, and the layer — on the host a `dot_general`, the bias broadcast over the rows and added — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 16. -/
abbrev rpiece16 : List (HloOp Cert.ReferenceIdeal.τ Cert.ReferenceIdeal.sig (Elt Ideal)) :=
  ((Cert.ReferenceIdeal.ValueP.ops (F := Ideal)).drop 213).take 4

set_option maxHeartbeats 40000000 in
theorem piece16 (K : Valuation Cert.KernelIdeal.τ Cert.KernelIdeal.sig (Elt Ideal)) (R : Valuation Cert.ReferenceIdeal.τ Cert.ReferenceIdeal.sig (Elt Ideal))
    (h_arg11 : K (Proc.devRef .tc Cert.KernelIdeal.main_arg11) = R (Proc.devRef .tc Cert.ReferenceIdeal.main_arg11))
    (h_v161 : K (Proc.devRef .tc Cert.KernelIdeal.main_v161) = R (Proc.devRef .tc Cert.ReferenceIdeal.main_v158))
    (h_arg10 : K (Proc.devRef .tc Cert.KernelIdeal.main_arg10) = R (Proc.devRef .tc Cert.ReferenceIdeal.main_arg10)) :
    (after (Cert.KernelIdeal.Gen.hostOps4 ++ [Cert.KernelIdeal.Dense.dop4]) K (Proc.devRef .tc Cert.KernelIdeal.main_v163) = after rpiece16 R (Proc.devRef .tc Cert.ReferenceIdeal.main_v162)) := by
  simp only [Cert.KernelIdeal.Dense.dop4, Cert.KernelIdeal.Gen.hostOps4, List.cons_append, List.nil_append, rpiece16, Cert.ReferenceIdeal.ValueP.ops]
  cut_list
  host_read
  try simp only [h_arg11, h_v161, h_arg10]
  try rw [h_arg11]
  try rw [h_v161]
  try rw [h_arg10]
  exact (host_dense Cert.ReferenceIdeal.dot_S2048x1024_S1024x128_S2048x128_1_0_0_1_n_n rfl _ _ _ _ _ _).symm

end Cert.Lines

end
-- ==== Proof.Piece17.lean ====
/-
  Piece 17 of the two programs, from any contents that agree where the piece reads.

  The kernel program's piece is the host operations `hostOps5` and region 5, as its operation (X · W + B with a zero row B); the reference's is operations 217 … 221 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 17. -/
abbrev rpiece17 : List (HloOp Cert.ReferenceIdeal.τ Cert.ReferenceIdeal.sig (Elt Ideal)) :=
  ((Cert.ReferenceIdeal.ValueP.ops (F := Ideal)).drop 217).take 5

set_option maxHeartbeats 40000000 in
theorem piece17 (K : Valuation Cert.KernelIdeal.τ Cert.KernelIdeal.sig (Elt Ideal)) (R : Valuation Cert.ReferenceIdeal.τ Cert.ReferenceIdeal.sig (Elt Ideal))
    (h_arg38 : K (Proc.devRef .tc Cert.KernelIdeal.main_arg38) = R (Proc.devRef .tc Cert.ReferenceIdeal.main_arg38))
    (h_arg1 : K (Proc.devRef .tc Cert.KernelIdeal.main_arg1) = R (Proc.devRef .tc Cert.ReferenceIdeal.main_arg1))
    (h_arg12 : K (Proc.devRef .tc Cert.KernelIdeal.main_arg12) = R (Proc.devRef .tc Cert.ReferenceIdeal.main_arg12))
    (h_v163 : K (Proc.devRef .tc Cert.KernelIdeal.main_v163) = R (Proc.devRef .tc Cert.ReferenceIdeal.main_v162)) :
    (after (Cert.KernelIdeal.Gen.hostOps5 ++ [Cert.KernelIdeal.Dense.dop5]) K (Proc.devRef .tc Cert.KernelIdeal.main_v170) = after rpiece17 R (Proc.devRef .tc Cert.ReferenceIdeal.main_v167))
    ∧ (after (Cert.KernelIdeal.Gen.hostOps5 ++ [Cert.KernelIdeal.Dense.dop5]) K (Proc.devRef .tc Cert.KernelIdeal.main_v165) = after rpiece17 R (Proc.devRef .tc Cert.ReferenceIdeal.main_v164))
    ∧ (after (Cert.KernelIdeal.Gen.hostOps5 ++ [Cert.KernelIdeal.Dense.dop5]) K (Proc.devRef .tc Cert.KernelIdeal.main_v167) = after rpiece17 R (Proc.devRef .tc Cert.ReferenceIdeal.main_v166))
    ∧ (after (Cert.KernelIdeal.Gen.hostOps5 ++ [Cert.KernelIdeal.Dense.dop5]) K (Proc.devRef .tc Cert.KernelIdeal.main_v163) = after rpiece17 R (Proc.devRef .tc Cert.ReferenceIdeal.main_v162)) := by
  simp only [Cert.KernelIdeal.Dense.dop5, Cert.KernelIdeal.Gen.hostOps5, List.cons_append, List.nil_append, rpiece17, Cert.ReferenceIdeal.ValueP.ops]
  cut_list
  refine ⟨?_, ?_, ?_, ?_⟩
  · host_read
    try simp only [h_arg38, h_arg1, h_arg12, h_v163]
    try rw [h_arg38]
    try rw [h_arg1]
    try rw [h_arg12]
    try rw [h_v163]
    exact (host_gcn Cert.ReferenceIdeal.dot_S300000x33_S33x128_S300000x128_1_0_0_1_n_n rfl _ _ _ _ _).symm
  · host_read
    try simp only [h_arg38, h_arg1, h_arg12, h_v163]
    try rw [h_arg38]
    try rw [h_arg1]
    try rw [h_arg12]
    try rw [h_v163]
    try rfl
  · host_read
    try simp only [h_arg38, h_arg1, h_arg12, h_v163]
    try rw [h_arg38]
    try rw [h_arg1]
    try rw [h_arg12]
    try rw [h_v163]
    try rfl
  · host_read
    try simp only [h_arg38, h_arg1, h_arg12, h_v163]
    try rw [h_arg38]
    try rw [h_arg1]
    try rw [h_arg12]
    try rw [h_v163]
    try rfl

end Cert.Lines

end
-- ==== Proof.Piece18.lean ====
/-
  Piece 18 of the two programs, from any contents that agree where the piece reads.

  The kernel program's piece is the host operations `hostOps6`; the reference's is operations 222 … 238 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 18. -/
abbrev rpiece18 : List (HloOp Cert.ReferenceIdeal.τ Cert.ReferenceIdeal.sig (Elt Ideal)) :=
  ((Cert.ReferenceIdeal.ValueP.ops (F := Ideal)).drop 222).take 17

set_option maxHeartbeats 40000000 in
theorem piece18 (K : Valuation Cert.KernelIdeal.τ Cert.KernelIdeal.sig (Elt Ideal)) (R : Valuation Cert.ReferenceIdeal.τ Cert.ReferenceIdeal.sig (Elt Ideal))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v170 : K (Proc.devRef .tc Cert.KernelIdeal.main_v170) = R (Proc.devRef .tc Cert.ReferenceIdeal.main_v167))
    (h_v163 : K (Proc.devRef .tc Cert.KernelIdeal.main_v163) = R (Proc.devRef .tc Cert.ReferenceIdeal.main_v162)) :
    (after Cert.KernelIdeal.Gen.hostOps6 K (Proc.devRef .tc Cert.KernelIdeal.main_cst_46) = after rpiece18 R (Proc.devRef .tc Cert.ReferenceIdeal.main_cst_42))
    ∧ (after Cert.KernelIdeal.Gen.hostOps6 K (Proc.devRef .tc Cert.KernelIdeal.main_v179) = after rpiece18 R (Proc.devRef .tc Cert.ReferenceIdeal.main_v176))
    ∧ (after Cert.KernelIdeal.Gen.hostOps6 K (Proc.devRef .tc Cert.KernelIdeal.main_v182) = after rpiece18 R (Proc.devRef .tc Cert.ReferenceIdeal.main_v179))
    ∧ (after Cert.KernelIdeal.Gen.hostOps6 K (Proc.devRef .tc Cert.KernelIdeal.main_v172) = after rpiece18 R (Proc.devRef .tc Cert.ReferenceIdeal.main_v169))
    ∧ (after Cert.KernelIdeal.Gen.hostOps6 K (Proc.devRef .tc Cert.KernelIdeal.main_v170) = after rpiece18 R (Proc.devRef .tc Cert.ReferenceIdeal.main_v167))
    ∧ (after Cert.KernelIdeal.Gen.hostOps6 K (Proc.devRef .tc Cert.KernelIdeal.main_v173) = after rpiece18 R (Proc.devRef .tc Cert.ReferenceIdeal.main_v170))
    ∧ (after Cert.KernelIdeal.Gen.hostOps6 K (Proc.devRef .tc Cert.KernelIdeal.main_v165) = after rpiece18 R (Proc.devRef .tc Cert.ReferenceIdeal.main_v164))
    ∧ (after Cert.KernelIdeal.Gen.hostOps6 K (Proc.devRef .tc Cert.KernelIdeal.main_v167) = after rpiece18 R (Proc.devRef .tc Cert.ReferenceIdeal.main_v166))
    ∧ (after Cert.KernelIdeal.Gen.hostOps6 K (Proc.devRef .tc Cert.KernelIdeal.main_v163) = after rpiece18 R (Proc.devRef .tc Cert.ReferenceIdeal.main_v162)) := by
  simp only [Cert.KernelIdeal.Gen.hostOps6, List.cons_append, List.nil_append, rpiece18, Cert.ReferenceIdeal.ValueP.ops]
  cut_list
  refine ⟨?_, ?_, ?_, ?_, ?_, ?_, ?_, ?_, ?_⟩
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl
  · host_read
    try simp only [h_v165, h_v167, h_v170, h_v163]
    try rw [h_v165]
    try rw [h_v167]
    try rw [h_v170]
    try rw [h_v163]
    try rfl

end Cert.Lines

end
-- ==== Proof.Piece19.lean ====
/-
  Piece 19 of the two programs, from any contents that agree where the piece reads.

  The kernel program's piece is the host operations `hostOps6_1`; the reference's is operations 239 … 241 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 19. -/
abbrev rpiece19 : List (HloOp Cert.ReferenceIdeal.τ Cert.ReferenceIdeal.sig (Elt Ideal)) :=
  ((Cert.ReferenceIdeal.ValueP.ops (F := Ideal)).drop 239).take 3

set_option maxHeartbeats 40000000 in
theorem piece19 (K : Valuation Cert.KernelIdeal.τ Cert.KernelIdeal.sig (Elt Ideal)) (R : Valuation Cert.ReferenceIdeal.τ Cert.ReferenceIdeal.sig (Elt Ideal))
    (h_cst_46 : K (Proc.devRef .tc Cert.KernelIdeal.main_cst_46) = R (Proc.devRef .tc Cert.ReferenceIdeal.main_cst_42))
    (h_v179 : K (Proc.devRef .tc Cert.KernelIdeal.main_v179) = R (Proc.devRef .tc Cert.ReferenceIdeal.main_v176))
    (h_v182 : K (Proc.devRef .tc Cert.KernelIdeal.main_v182) = R (Proc.devRef .tc Cert.ReferenceIdeal.main_v179))
    (h_v172 : K (Proc.devRef .tc Cert.KernelIdeal.main_v172) = R (Proc.devRef .tc Cert.ReferenceIdeal.main_v169))
    (h_v170 : K (Proc.devRef .tc Cert.KernelIdeal.main_v170) = R (Proc.devRef .tc Cert.ReferenceIdeal.main_v167))
    (h_v173 : K (Proc.devRef .tc Cert.KernelIdeal.main_v173) = R (Proc.devRef .tc Cert.ReferenceIdeal.main_v170))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps6_1 K (Proc.devRef .tc Cert.KernelIdeal.main_v172) = after rpiece19 R (Proc.devRef .tc Cert.ReferenceIdeal.main_v169))
    ∧ (after Cert.KernelIdeal.Gen.hostOps6_1 K (Proc.devRef .tc Cert.KernelIdeal.main_v170) = after rpiece19 R (Proc.devRef .tc Cert.ReferenceIdeal.main_v167))
    ∧ (after Cert.KernelIdeal.Gen.hostOps6_1 K (Proc.devRef .tc Cert.KernelIdeal.main_v183) = after rpiece19 R (Proc.devRef .tc Cert.ReferenceIdeal.main_v180))
    ∧ (after Cert.KernelIdeal.Gen.hostOps6_1 K (Proc.devRef .tc Cert.KernelIdeal.main_v173) = after rpiece19 R (Proc.devRef .tc Cert.ReferenceIdeal.main_v170))
    ∧ (after Cert.KernelIdeal.Gen.hostOps6_1 K (Proc.devRef .tc Cert.KernelIdeal.main_v165) = after rpiece19 R (Proc.devRef .tc Cert.ReferenceIdeal.main_v164))
    ∧ (after Cert.KernelIdeal.Gen.hostOps6_1 K (Proc.devRef .tc Cert.KernelIdeal.main_v167) = after rpiece19 R (Proc.devRef .tc Cert.ReferenceIdeal.main_v166))
    ∧ (after Cert.KernelIdeal.Gen.hostOps6_1 K (Proc.devRef .tc Cert.KernelIdeal.main_v163) = after rpiece19 R (Proc.devRef .tc Cert.ReferenceIdeal.main_v162)) := by
  simp only [Cert.KernelIdeal.Gen.hostOps6_1, List.cons_append, List.nil_append, rpiece19, Cert.ReferenceIdeal.ValueP.ops]
  cut_list
  refine ⟨?_, ?_, ?_, ?_, ?_, ?_, ?_⟩
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl
  · host_read
    try simp only [h_cst_46, h_v179, h_v182, h_v172, h_v170, h_v173, h_v165, h_v167, h_v163]
    try rw [h_cst_46]
    try rw [h_v179]
    try rw [h_v182]
    try rw [h_v172]
    try rw [h_v170]
    try rw [h_v173]
    try rw [h_v165]
    try rw [h_v167]
    try rw [h_v163]
    try rfl

end Cert.Lines

end
-- ==== Proof.Piece20.lean ====
/-
  Piece 20 of the two programs, from any contents that agree where the piece reads.

  The kernel program's piece is the host operations `hostOps6_2`; the reference's is operations 242 … 279 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 20. -/
abbrev rpiece20 : List (HloOp Cert.ReferenceIdeal.τ Cert.ReferenceIdeal.sig (Elt Ideal)) :=
  ((Cert.ReferenceIdeal.ValueP.ops (F := Ideal)).drop 242).take 38

set_option maxHeartbeats 40000000 in
theorem piece20 (K : Valuation Cert.KernelIdeal.τ Cert.KernelIdeal.sig (Elt Ideal)) (R : Valuation Cert.ReferenceIdeal.τ Cert.ReferenceIdeal.sig (Elt Ideal))
    (h_v172 : K (Proc.devRef .tc Cert.KernelIdeal.main_v172) = R (Proc.devRef .tc Cert.ReferenceIdeal.main_v169))
    (h_v170 : K (Proc.devRef .tc Cert.KernelIdeal.main_v170) = R (Proc.devRef .tc Cert.ReferenceIdeal.main_v167))
    (h_v183 : K (Proc.devRef .tc Cert.KernelIdeal.main_v183) = R (Proc.devRef .tc Cert.ReferenceIdeal.main_v180))
    (h_v173 : K (Proc.devRef .tc Cert.KernelIdeal.main_v173) = R (Proc.devRef .tc Cert.ReferenceIdeal.main_v170))
    (h_arg13 : K (Proc.devRef .tc Cert.KernelIdeal.main_arg13) = R (Proc.devRef .tc Cert.ReferenceIdeal.main_arg13))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps6_2 K (Proc.devRef .tc Cert.KernelIdeal.main_v214) = after rpiece20 R (Proc.devRef .tc Cert.ReferenceIdeal.main_v211))
    ∧ (after Cert.KernelIdeal.Gen.hostOps6_2 K (Proc.devRef .tc Cert.KernelIdeal.main_v165) = after rpiece20 R (Proc.devRef .tc Cert.ReferenceIdeal.main_v164))
    ∧ (after Cert.KernelIdeal.Gen.hostOps6_2 K (Proc.devRef .tc Cert.KernelIdeal.main_v167) = after rpiece20 R (Proc.devRef .tc Cert.ReferenceIdeal.main_v166))
    ∧ (after Cert.KernelIdeal.Gen.hostOps6_2 K (Proc.devRef .tc Cert.KernelIdeal.main_v163) = after rpiece20 R (Proc.devRef .tc Cert.ReferenceIdeal.main_v162)) := by
  simp only [Cert.KernelIdeal.Gen.hostOps6_2, List.cons_append, List.nil_append, rpiece20, Cert.ReferenceIdeal.ValueP.ops]
  cut_list
  refine ⟨?_, ?_, ?_, ?_⟩
  · host_read
    try simp only [h_v172, h_v170, h_v183, h_v173, h_arg13, h_v165, h_v167, h_v163]
    try rw [h_v172]
    try rw [h_v170]
    try rw [h_v183]
    try rw [h_v173]
    try rw [h_arg13]
    try rw [h_v165]
    try rw [h_v167]
    try rw [h_v163]
    try rfl
  · host_read
    try simp only [h_v172, h_v170, h_v183, h_v173, h_arg13, h_v165, h_v167, h_v163]
    try rw [h_v172]
    try rw [h_v170]
    try rw [h_v183]
    try rw [h_v173]
    try rw [h_arg13]
    try rw [h_v165]
    try rw [h_v167]
    try rw [h_v163]
    try rfl
  · host_read
    try simp only [h_v172, h_v170, h_v183, h_v173, h_arg13, h_v165, h_v167, h_v163]
    try rw [h_v172]
    try rw [h_v170]
    try rw [h_v183]
    try rw [h_v173]
    try rw [h_arg13]
    try rw [h_v165]
    try rw [h_v167]
    try rw [h_v163]
    try rfl
  · host_read
    try simp only [h_v172, h_v170, h_v183, h_v173, h_arg13, h_v165, h_v167, h_v163]
    try rw [h_v172]
    try rw [h_v170]
    try rw [h_v183]
    try rw [h_v173]
    try rw [h_arg13]
    try rw [h_v165]
    try rw [h_v167]
    try rw [h_v163]
    try rfl

end Cert.Lines

end
-- ==== Proof.Piece21.lean ====
/-
  Piece 21 of the two programs, from any contents that agree where the piece reads.

  The kernel program's piece is the host operations `hostOps6_3`; the reference's is operations 280 … 282 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 21. -/
abbrev rpiece21 : List (HloOp Cert.ReferenceIdeal.τ Cert.ReferenceIdeal.sig (Elt Ideal)) :=
  ((Cert.ReferenceIdeal.ValueP.ops (F := Ideal)).drop 280).take 3

set_option maxHeartbeats 40000000 in
theorem piece21 (K : Valuation Cert.KernelIdeal.τ Cert.KernelIdeal.sig (Elt Ideal)) (R : Valuation Cert.ReferenceIdeal.τ Cert.ReferenceIdeal.sig (Elt Ideal))
    (h_v214 : K (Proc.devRef .tc Cert.KernelIdeal.main_v214) = R (Proc.devRef .tc Cert.ReferenceIdeal.main_v211))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps6_3 K (Proc.devRef .tc Cert.KernelIdeal.main_v215) = after rpiece21 R (Proc.devRef .tc Cert.ReferenceIdeal.main_v212))
    ∧ (after Cert.KernelIdeal.Gen.hostOps6_3 K (Proc.devRef .tc Cert.KernelIdeal.main_v165) = after rpiece21 R (Proc.devRef .tc Cert.ReferenceIdeal.main_v164))
    ∧ (after Cert.KernelIdeal.Gen.hostOps6_3 K (Proc.devRef .tc Cert.KernelIdeal.main_v167) = after rpiece21 R (Proc.devRef .tc Cert.ReferenceIdeal.main_v166))
    ∧ (after Cert.KernelIdeal.Gen.hostOps6_3 K (Proc.devRef .tc Cert.KernelIdeal.main_v163) = after rpiece21 R (Proc.devRef .tc Cert.ReferenceIdeal.main_v162)) := by
  simp only [Cert.KernelIdeal.Gen.hostOps6_3, List.cons_append, List.nil_append, rpiece21, Cert.ReferenceIdeal.ValueP.ops]
  cut_list
  refine ⟨?_, ?_, ?_, ?_⟩
  · host_read
    try simp only [h_v214, h_v165, h_v167, h_v163]
    try rw [h_v214]
    try rw [h_v165]
    try rw [h_v167]
    try rw [h_v163]
    try rfl
  · host_read
    try simp only [h_v214, h_v165, h_v167, h_v163]
    try rw [h_v214]
    try rw [h_v165]
    try rw [h_v167]
    try rw [h_v163]
    try rfl
  · host_read
    try simp only [h_v214, h_v165, h_v167, h_v163]
    try rw [h_v214]
    try rw [h_v165]
    try rw [h_v167]
    try rw [h_v163]
    try rfl
  · host_read
    try simp only [h_v214, h_v165, h_v167, h_v163]
    try rw [h_v214]
    try rw [h_v165]
    try rw [h_v167]
    try rw [h_v163]
    try rfl

end Cert.Lines

end
-- ==== Proof.Piece22.lean ====
/-
  Piece 22 of the two programs, from any contents that agree where the piece reads.

  The kernel program's piece is the host operations `hostOps6_4` and region 6, as its operation (X · W + B with a zero row B); the reference's is operations 283 … 283 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 22. -/
abbrev rpiece22 : List (HloOp Cert.ReferenceIdeal.τ Cert.ReferenceIdeal.sig (Elt Ideal)) :=
  ((Cert.ReferenceIdeal.ValueP.ops (F := Ideal)).drop 283).take 1

set_option maxHeartbeats 40000000 in
theorem piece22 (K : Valuation Cert.KernelIdeal.τ Cert.KernelIdeal.sig (Elt Ideal)) (R : Valuation Cert.ReferenceIdeal.τ Cert.ReferenceIdeal.sig (Elt Ideal))
    (h_v215 : K (Proc.devRef .tc Cert.KernelIdeal.main_v215) = R (Proc.devRef .tc Cert.ReferenceIdeal.main_v212))
    (h_arg14 : K (Proc.devRef .tc Cert.KernelIdeal.main_arg14) = R (Proc.devRef .tc Cert.ReferenceIdeal.main_arg14))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after (Cert.KernelIdeal.Gen.hostOps6_4 ++ [Cert.KernelIdeal.Dense.dop6]) K (Proc.devRef .tc Cert.KernelIdeal.main_v218) = after rpiece22 R (Proc.devRef .tc Cert.ReferenceIdeal.main_v213))
    ∧ (after (Cert.KernelIdeal.Gen.hostOps6_4 ++ [Cert.KernelIdeal.Dense.dop6]) K (Proc.devRef .tc Cert.KernelIdeal.main_v165) = after rpiece22 R (Proc.devRef .tc Cert.ReferenceIdeal.main_v164))
    ∧ (after (Cert.KernelIdeal.Gen.hostOps6_4 ++ [Cert.KernelIdeal.Dense.dop6]) K (Proc.devRef .tc Cert.KernelIdeal.main_v167) = after rpiece22 R (Proc.devRef .tc Cert.ReferenceIdeal.main_v166))
    ∧ (after (Cert.KernelIdeal.Gen.hostOps6_4 ++ [Cert.KernelIdeal.Dense.dop6]) K (Proc.devRef .tc Cert.KernelIdeal.main_v163) = after rpiece22 R (Proc.devRef .tc Cert.ReferenceIdeal.main_v162)) := by
  simp only [Cert.KernelIdeal.Dense.dop6, Cert.KernelIdeal.Gen.hostOps6_4, List.cons_append, List.nil_append, rpiece22, Cert.ReferenceIdeal.ValueP.ops]
  cut_list
  refine ⟨?_, ?_, ?_, ?_⟩
  · host_read
    try simp only [h_v215, h_arg14, h_v165, h_v167, h_v163]
    try rw [h_v215]
    try rw [h_arg14]
    try rw [h_v165]
    try rw [h_v167]
    try rw [h_v163]
    exact (host_gcn Cert.ReferenceIdeal.dot_S300000x128_S128x128_S300000x128_1_0_0_1_n_n rfl _ _ _ _ _).symm
  · host_read
    try simp only [h_v215, h_arg14, h_v165, h_v167, h_v163]
    try rw [h_v215]
    try rw [h_arg14]
    try rw [h_v165]
    try rw [h_v167]
    try rw [h_v163]
    try rfl
  · host_read
    try simp only [h_v215, h_arg14, h_v165, h_v167, h_v163]
    try rw [h_v215]
    try rw [h_arg14]
    try rw [h_v165]
    try rw [h_v167]
    try rw [h_v163]
    try rfl
  · host_read
    try simp only [h_v215, h_arg14, h_v165, h_v167, h_v163]
    try rw [h_v215]
    try rw [h_arg14]
    try rw [h_v165]
    try rw [h_v167]
    try rw [h_v163]
    try rfl

end Cert.Lines

end
-- ==== Proof.Piece23.lean ====
/-
  Piece 23 of the two programs, from any contents that agree where the piece reads.

  The kernel program's piece is the host operations `hostOps7`; the reference's is operations 284 … 300 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 23. -/
abbrev rpiece23 : List (HloOp Cert.ReferenceIdeal.τ Cert.ReferenceIdeal.sig (Elt Ideal)) :=
  ((Cert.ReferenceIdeal.ValueP.ops (F := Ideal)).drop 284).take 17

set_option maxHeartbeats 40000000 in
theorem piece23 (K : Valuation Cert.KernelIdeal.τ Cert.KernelIdeal.sig (Elt Ideal)) (R : Valuation Cert.ReferenceIdeal.τ Cert.ReferenceIdeal.sig (Elt Ideal))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v218 : K (Proc.devRef .tc Cert.KernelIdeal.main_v218) = R (Proc.devRef .tc Cert.ReferenceIdeal.main_v213))
    (h_v163 : K (Proc.devRef .tc Cert.KernelIdeal.main_v163) = R (Proc.devRef .tc Cert.ReferenceIdeal.main_v162)) :
    (after Cert.KernelIdeal.Gen.hostOps7 K (Proc.devRef .tc Cert.KernelIdeal.main_cst_59) = after rpiece23 R (Proc.devRef .tc Cert.ReferenceIdeal.main_cst_54))
    ∧ (after Cert.KernelIdeal.Gen.hostOps7 K (Proc.devRef .tc Cert.KernelIdeal.main_v227) = after rpiece23 R (Proc.devRef .tc Cert.ReferenceIdeal.main_v222))
    ∧ (after Cert.KernelIdeal.Gen.hostOps7 K (Proc.devRef .tc Cert.KernelIdeal.main_v230) = after rpiece23 R (Proc.devRef .tc Cert.ReferenceIdeal.main_v225))
    ∧ (after Cert.KernelIdeal.Gen.hostOps7 K (Proc.devRef .tc Cert.KernelIdeal.main_v220) = after rpiece23 R (Proc.devRef .tc Cert.ReferenceIdeal.main_v215))
    ∧ (after Cert.KernelIdeal.Gen.hostOps7 K (Proc.devRef .tc Cert.KernelIdeal.main_v218) = after rpiece23 R (Proc.devRef .tc Cert.ReferenceIdeal.main_v213))
    ∧ (after Cert.KernelIdeal.Gen.hostOps7 K (Proc.devRef .tc Cert.KernelIdeal.main_v221) = after rpiece23 R (Proc.devRef .tc Cert.ReferenceIdeal.main_v216))
    ∧ (after Cert.KernelIdeal.Gen.hostOps7 K (Proc.devRef .tc Cert.KernelIdeal.main_v165) = after rpiece23 R (Proc.devRef .tc Cert.ReferenceIdeal.main_v164))
    ∧ (after Cert.KernelIdeal.Gen.hostOps7 K (Proc.devRef .tc Cert.KernelIdeal.main_v167) = after rpiece23 R (Proc.devRef .tc Cert.ReferenceIdeal.main_v166))
    ∧ (after Cert.KernelIdeal.Gen.hostOps7 K (Proc.devRef .tc Cert.KernelIdeal.main_v163) = after rpiece23 R (Proc.devRef .tc Cert.ReferenceIdeal.main_v162)) := by
  simp only [Cert.KernelIdeal.Gen.hostOps7, List.cons_append, List.nil_append, rpiece23, Cert.ReferenceIdeal.ValueP.ops]
  cut_list
  refine ⟨?_, ?_, ?_, ?_, ?_, ?_, ?_, ?_, ?_⟩
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl
  · host_read
    try simp only [h_v165, h_v167, h_v218, h_v163]
    try rw [h_v165]
    try rw [h_v167]
    try rw [h_v218]
    try rw [h_v163]
    try rfl

end Cert.Lines

end
-- ==== Proof.Piece24.lean ====
/-
  Piece 24 of the two programs, from any contents that agree where the piece reads.

  The kernel program's piece is the host operations `hostOps7_1`; the reference's is operations 301 … 303 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 24. -/
abbrev rpiece24 : List (HloOp Cert.ReferenceIdeal.τ Cert.ReferenceIdeal.sig (Elt Ideal)) :=
  ((Cert.ReferenceIdeal.ValueP.ops (F := Ideal)).drop 301).take 3

set_option maxHeartbeats 40000000 in
theorem piece24 (K : Valuation Cert.KernelIdeal.τ Cert.KernelIdeal.sig (Elt Ideal)) (R : Valuation Cert.ReferenceIdeal.τ Cert.ReferenceIdeal.sig (Elt Ideal))
    (h_cst_59 : K (Proc.devRef .tc Cert.KernelIdeal.main_cst_59) = R (Proc.devRef .tc Cert.ReferenceIdeal.main_cst_54))
    (h_v227 : K (Proc.devRef .tc Cert.KernelIdeal.main_v227) = R (Proc.devRef .tc Cert.ReferenceIdeal.main_v222))
    (h_v230 : K (Proc.devRef .tc Cert.KernelIdeal.main_v230) = R (Proc.devRef .tc Cert.ReferenceIdeal.main_v225))
    (h_v220 : K (Proc.devRef .tc Cert.KernelIdeal.main_v220) = R (Proc.devRef .tc Cert.ReferenceIdeal.main_v215))
    (h_v218 : K (Proc.devRef .tc Cert.KernelIdeal.main_v218) = R (Proc.devRef .tc Cert.ReferenceIdeal.main_v213))
    (h_v221 : K (Proc.devRef .tc Cert.KernelIdeal.main_v221) = R (Proc.devRef .tc Cert.ReferenceIdeal.main_v216))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps7_1 K (Proc.devRef .tc Cert.KernelIdeal.main_v220) = after rpiece24 R (Proc.devRef .tc Cert.ReferenceIdeal.main_v215))
    ∧ (after Cert.KernelIdeal.Gen.hostOps7_1 K (Proc.devRef .tc Cert.KernelIdeal.main_v218) = after rpiece24 R (Proc.devRef .tc Cert.ReferenceIdeal.main_v213))
    ∧ (after Cert.KernelIdeal.Gen.hostOps7_1 K (Proc.devRef .tc Cert.KernelIdeal.main_v231) = after rpiece24 R (Proc.devRef .tc Cert.ReferenceIdeal.main_v226))
    ∧ (after Cert.KernelIdeal.Gen.hostOps7_1 K (Proc.devRef .tc Cert.KernelIdeal.main_v221) = after rpiece24 R (Proc.devRef .tc Cert.ReferenceIdeal.main_v216))
    ∧ (after Cert.KernelIdeal.Gen.hostOps7_1 K (Proc.devRef .tc Cert.KernelIdeal.main_v165) = after rpiece24 R (Proc.devRef .tc Cert.ReferenceIdeal.main_v164))
    ∧ (after Cert.KernelIdeal.Gen.hostOps7_1 K (Proc.devRef .tc Cert.KernelIdeal.main_v167) = after rpiece24 R (Proc.devRef .tc Cert.ReferenceIdeal.main_v166))
    ∧ (after Cert.KernelIdeal.Gen.hostOps7_1 K (Proc.devRef .tc Cert.KernelIdeal.main_v163) = after rpiece24 R (Proc.devRef .tc Cert.ReferenceIdeal.main_v162)) := by
  simp only [Cert.KernelIdeal.Gen.hostOps7_1, List.cons_append, List.nil_append, rpiece24, Cert.ReferenceIdeal.ValueP.ops]
  cut_list
  refine ⟨?_, ?_, ?_, ?_, ?_, ?_, ?_⟩
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl
  · host_read
    try simp only [h_cst_59, h_v227, h_v230, h_v220, h_v218, h_v221, h_v165, h_v167, h_v163]
    try rw [h_cst_59]
    try rw [h_v227]
    try rw [h_v230]
    try rw [h_v220]
    try rw [h_v218]
    try rw [h_v221]
    try rw [h_v165]
    try rw [h_v167]
    try rw [h_v163]
    try rfl

end Cert.Lines

end
-- ==== Proof.Piece25.lean ====
/-
  Piece 25 of the two programs, from any contents that agree where the piece reads.

  The kernel program's piece is the host operations `hostOps7_2`; the reference's is operations 304 … 341 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 25. -/
abbrev rpiece25 : List (HloOp Cert.ReferenceIdeal.τ Cert.ReferenceIdeal.sig (Elt Ideal)) :=
  ((Cert.ReferenceIdeal.ValueP.ops (F := Ideal)).drop 304).take 38

set_option maxHeartbeats 40000000 in
theorem piece25 (K : Valuation Cert.KernelIdeal.τ Cert.KernelIdeal.sig (Elt Ideal)) (R : Valuation Cert.ReferenceIdeal.τ Cert.ReferenceIdeal.sig (Elt Ideal))
    (h_v220 : K (Proc.devRef .tc Cert.KernelIdeal.main_v220) = R (Proc.devRef .tc Cert.ReferenceIdeal.main_v215))
    (h_v218 : K (Proc.devRef .tc Cert.KernelIdeal.main_v218) = R (Proc.devRef .tc Cert.ReferenceIdeal.main_v213))
    (h_v231 : K (Proc.devRef .tc Cert.KernelIdeal.main_v231) = R (Proc.devRef .tc Cert.ReferenceIdeal.main_v226))
    (h_v221 : K (Proc.devRef .tc Cert.KernelIdeal.main_v221) = R (Proc.devRef .tc Cert.ReferenceIdeal.main_v216))
    (h_arg15 : K (Proc.devRef .tc Cert.KernelIdeal.main_arg15) = R (Proc.devRef .tc Cert.ReferenceIdeal.main_arg15))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps7_2 K (Proc.devRef .tc Cert.KernelIdeal.main_v262) = after rpiece25 R (Proc.devRef .tc Cert.ReferenceIdeal.main_v257))
    ∧ (after Cert.KernelIdeal.Gen.hostOps7_2 K (Proc.devRef .tc Cert.KernelIdeal.main_v165) = after rpiece25 R (Proc.devRef .tc Cert.ReferenceIdeal.main_v164))
    ∧ (after Cert.KernelIdeal.Gen.hostOps7_2 K (Proc.devRef .tc Cert.KernelIdeal.main_v167) = after rpiece25 R (Proc.devRef .tc Cert.ReferenceIdeal.main_v166))
    ∧ (after Cert.KernelIdeal.Gen.hostOps7_2 K (Proc.devRef .tc Cert.KernelIdeal.main_v163) = after rpiece25 R (Proc.devRef .tc Cert.ReferenceIdeal.main_v162)) := by
  simp only [Cert.KernelIdeal.Gen.hostOps7_2, List.cons_append, List.nil_append, rpiece25, Cert.ReferenceIdeal.ValueP.ops]
  cut_list
  refine ⟨?_, ?_, ?_, ?_⟩
  · host_read
    try simp only [h_v220, h_v218, h_v231, h_v221, h_arg15, h_v165, h_v167, h_v163]
    try rw [h_v220]
    try rw [h_v218]
    try rw [h_v231]
    try rw [h_v221]
    try rw [h_arg15]
    try rw [h_v165]
    try rw [h_v167]
    try rw [h_v163]
    try rfl
  · host_read
    try simp only [h_v220, h_v218, h_v231, h_v221, h_arg15, h_v165, h_v167, h_v163]
    try rw [h_v220]
    try rw [h_v218]
    try rw [h_v231]
    try rw [h_v221]
    try rw [h_arg15]
    try rw [h_v165]
    try rw [h_v167]
    try rw [h_v163]
    try rfl
  · host_read
    try simp only [h_v220, h_v218, h_v231, h_v221, h_arg15, h_v165, h_v167, h_v163]
    try rw [h_v220]
    try rw [h_v218]
    try rw [h_v231]
    try rw [h_v221]
    try rw [h_arg15]
    try rw [h_v165]
    try rw [h_v167]
    try rw [h_v163]
    try rfl
  · host_read
    try simp only [h_v220, h_v218, h_v231, h_v221, h_arg15, h_v165, h_v167, h_v163]
    try rw [h_v220]
    try rw [h_v218]
    try rw [h_v231]
    try rw [h_v221]
    try rw [h_arg15]
    try rw [h_v165]
    try rw [h_v167]
    try rw [h_v163]
    try rfl

end Cert.Lines

end
-- ==== Proof.Piece26.lean ====
/-
  Piece 26 of the two programs, from any contents that agree where the piece reads.

  The kernel program's piece is the host operations `hostOps7_3`; the reference's is operations 342 … 344 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 26. -/
abbrev rpiece26 : List (HloOp Cert.ReferenceIdeal.τ Cert.ReferenceIdeal.sig (Elt Ideal)) :=
  ((Cert.ReferenceIdeal.ValueP.ops (F := Ideal)).drop 342).take 3

set_option maxHeartbeats 40000000 in
theorem piece26 (K : Valuation Cert.KernelIdeal.τ Cert.KernelIdeal.sig (Elt Ideal)) (R : Valuation Cert.ReferenceIdeal.τ Cert.ReferenceIdeal.sig (Elt Ideal))
    (h_v262 : K (Proc.devRef .tc Cert.KernelIdeal.main_v262) = R (Proc.devRef .tc Cert.ReferenceIdeal.main_v257))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after Cert.KernelIdeal.Gen.hostOps7_3 K (Proc.devRef .tc Cert.KernelIdeal.main_v263) = after rpiece26 R (Proc.devRef .tc Cert.ReferenceIdeal.main_v258))
    ∧ (after Cert.KernelIdeal.Gen.hostOps7_3 K (Proc.devRef .tc Cert.KernelIdeal.main_v165) = after rpiece26 R (Proc.devRef .tc Cert.ReferenceIdeal.main_v164))
    ∧ (after Cert.KernelIdeal.Gen.hostOps7_3 K (Proc.devRef .tc Cert.KernelIdeal.main_v167) = after rpiece26 R (Proc.devRef .tc Cert.ReferenceIdeal.main_v166))
    ∧ (after Cert.KernelIdeal.Gen.hostOps7_3 K (Proc.devRef .tc Cert.KernelIdeal.main_v163) = after rpiece26 R (Proc.devRef .tc Cert.ReferenceIdeal.main_v162)) := by
  simp only [Cert.KernelIdeal.Gen.hostOps7_3, List.cons_append, List.nil_append, rpiece26, Cert.ReferenceIdeal.ValueP.ops]
  cut_list
  refine ⟨?_, ?_, ?_, ?_⟩
  · host_read
    try simp only [h_v262, h_v165, h_v167, h_v163]
    try rw [h_v262]
    try rw [h_v165]
    try rw [h_v167]
    try rw [h_v163]
    try rfl
  · host_read
    try simp only [h_v262, h_v165, h_v167, h_v163]
    try rw [h_v262]
    try rw [h_v165]
    try rw [h_v167]
    try rw [h_v163]
    try rfl
  · host_read
    try simp only [h_v262, h_v165, h_v167, h_v163]
    try rw [h_v262]
    try rw [h_v165]
    try rw [h_v167]
    try rw [h_v163]
    try rfl
  · host_read
    try simp only [h_v262, h_v165, h_v167, h_v163]
    try rw [h_v262]
    try rw [h_v165]
    try rw [h_v167]
    try rw [h_v163]
    try rfl

end Cert.Lines

end
-- ==== Proof.Piece27.lean ====
/-
  Piece 27 of the two programs, from any contents that agree where the piece reads.

  The kernel program's piece is the host operations `hostOps7_4` and region 7, as its operation (X · W + B with a zero row B); the reference's is operations 345 … 345 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 27. -/
abbrev rpiece27 : List (HloOp Cert.ReferenceIdeal.τ Cert.ReferenceIdeal.sig (Elt Ideal)) :=
  ((Cert.ReferenceIdeal.ValueP.ops (F := Ideal)).drop 345).take 1

set_option maxHeartbeats 40000000 in
theorem piece27 (K : Valuation Cert.KernelIdeal.τ Cert.KernelIdeal.sig (Elt Ideal)) (R : Valuation Cert.ReferenceIdeal.τ Cert.ReferenceIdeal.sig (Elt Ideal))
    (h_v263 : K (Proc.devRef .tc Cert.KernelIdeal.main_v263) = R (Proc.devRef .tc Cert.ReferenceIdeal.main_v258))
    (h_arg16 : K (Proc.devRef .tc Cert.KernelIdeal.main_arg16) = R (Proc.devRef .tc Cert.ReferenceIdeal.main_arg16))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v163 : K (Proc.devRef .tc Cert.KernelIdeal.main_v163) = R (Proc.devRef .tc Cert.ReferenceIdeal.main_v162)) :
    (after (Cert.KernelIdeal.Gen.hostOps7_4 ++ [Cert.KernelIdeal.Dense.dop7]) K (Proc.devRef .tc Cert.KernelIdeal.main_v266) = after rpiece27 R (Proc.devRef .tc Cert.ReferenceIdeal.main_v259))
    ∧ (after (Cert.KernelIdeal.Gen.hostOps7_4 ++ [Cert.KernelIdeal.Dense.dop7]) K (Proc.devRef .tc Cert.KernelIdeal.main_v165) = after rpiece27 R (Proc.devRef .tc Cert.ReferenceIdeal.main_v164))
    ∧ (after (Cert.KernelIdeal.Gen.hostOps7_4 ++ [Cert.KernelIdeal.Dense.dop7]) K (Proc.devRef .tc Cert.KernelIdeal.main_v167) = after rpiece27 R (Proc.devRef .tc Cert.ReferenceIdeal.main_v166))
    ∧ (after (Cert.KernelIdeal.Gen.hostOps7_4 ++ [Cert.KernelIdeal.Dense.dop7]) K (Proc.devRef .tc Cert.KernelIdeal.main_v163) = after rpiece27 R (Proc.devRef .tc Cert.ReferenceIdeal.main_v162)) := by
  simp only [Cert.KernelIdeal.Dense.dop7, Cert.KernelIdeal.Gen.hostOps7_4, List.cons_append, List.nil_append, rpiece27, Cert.ReferenceIdeal.ValueP.ops]
  cut_list
  refine ⟨?_, ?_, ?_, ?_⟩
  · host_read
    try simp only [h_v263, h_arg16, h_v165, h_v167, h_v163]
    try rw [h_v263]
    try rw [h_arg16]
    try rw [h_v165]
    try rw [h_v167]
    try rw [h_v163]
    exact (host_gcn Cert.ReferenceIdeal.dot_S300000x128_S128x128_S300000x128_1_0_0_1_n_n rfl _ _ _ _ _).symm
  · host_read
    try simp only [h_v263, h_arg16, h_v165, h_v167, h_v163]
    try rw [h_v263]
    try rw [h_arg16]
    try rw [h_v165]
    try rw [h_v167]
    try rw [h_v163]
    try rfl
  · host_read
    try simp only [h_v263, h_arg16, h_v165, h_v167, h_v163]
    try rw [h_v263]
    try rw [h_arg16]
    try rw [h_v165]
    try rw [h_v167]
    try rw [h_v163]
    try rfl
  · host_read
    try simp only [h_v263, h_arg16, h_v165, h_v167, h_v163]
    try rw [h_v263]
    try rw [h_arg16]
    try rw [h_v165]
    try rw [h_v167]
    try rw [h_v163]
    try rfl

end Cert.Lines

end
-- ==== Proof.Piece28.lean ====
/-
  Piece 28 of the two programs, from any contents that agree where the piece reads.

  The kernel program's piece is the host operations `hostOps8`; the reference's is operations 346 … 362 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 28. -/
abbrev rpiece28 : List (HloOp Cert.ReferenceIdeal.τ Cert.ReferenceIdeal.sig (Elt Ideal)) :=
  ((Cert.ReferenceIdeal.ValueP.ops (F := Ideal)).drop 346).take 17

set_option maxHeartbeats 40000000 in
theorem piece28 (K : Valuation Cert.KernelIdeal.τ Cert.KernelIdeal.sig (Elt Ideal)) (R : Valuation Cert.ReferenceIdeal.τ Cert.ReferenceIdeal.sig (Elt Ideal))
    (h_v165 : K (Proc.devRef .tc Cert.KernelIdeal.main_v165) = R (Proc.devRef .tc Cert.ReferenceIdeal.main_v164))
    (h_v167 : K (Proc.devRef .tc Cert.KernelIdeal.main_v167) = R (Proc.devRef .tc Cert.ReferenceIdeal.main_v166))
    (h_v266 : K (Proc.devRef .tc Cert.KernelIdeal.main_v266) = R (Proc.devRef .tc Cert.ReferenceIdeal.main_v259))
    (h_v163 : K (Proc.devRef .tc Cert.KernelIdeal.main_v163) = R (Proc.devRef .tc Cert.ReferenceIdeal.main_v162)) :
    (after Cert.KernelIdeal.Gen.hostOps8 K (Proc.devRef .tc Cert.KernelIdeal.main_cst_72) = after rpiece28 R (Proc.devRef .tc Cert.ReferenceIdeal.main_cst_66))
    ∧ (after Cert.KernelIdeal.Gen.hostOps8 K (Proc.devRef .tc Cert.KernelIdeal.main_v275) = after rpiece28 R (Proc.devRef .tc Cert.ReferenceIdeal.main_v268))
    ∧ (after Cert.KernelIdeal.Gen.hostOps8 K (Proc.devRef .tc Cert.KernelIdeal.main_v278) = after rpiece28 R (Proc.devRef .tc Cert.ReferenceIdeal.main_v271))
    ∧ (after Cert.KernelIdeal.Gen.hostOps8 K (Proc.devRef .tc Cert.KernelIdeal.main_v268) = after rpiece28 R (Proc.devRef .tc Cert.ReferenceIdeal.main_v261))
    ∧ (after Cert.KernelIdeal.Gen.hostOps8 K (Proc.devRef .tc Cert.KernelIdeal.main_v266) = after rpiece28 R (Proc.devRef .tc Cert.ReferenceIdeal.main_v259))
    ∧ (after Cert.KernelIdeal.Gen.hostOps8 K (Proc.devRef .tc Cert.KernelIdeal.main_v269) = after rpiece28 R (Proc.devRef .tc Cert.ReferenceIdeal.main_v262))
    ∧ (after Cert.KernelIdeal.Gen.hostOps8 K (Proc.devRef .tc Cert.KernelIdeal.main_v163) = after rpiece28 R (Proc.devRef .tc Cert.ReferenceIdeal.main_v162)) := by
  simp only [Cert.KernelIdeal.Gen.hostOps8, List.cons_append, List.nil_append, rpiece28, Cert.ReferenceIdeal.ValueP.ops]
  cut_list
  refine ⟨?_, ?_, ?_, ?_, ?_, ?_, ?_⟩
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl
  · host_read
    try simp only [h_v165, h_v167, h_v266, h_v163]
    try rw [h_v165]
    try rw [h_v167]
    try rw [h_v266]
    try rw [h_v163]
    try rfl

end Cert.Lines

end
-- ==== Proof.Piece29.lean ====
/-
  Piece 29 of the two programs, from any contents that agree where the piece reads.

  The kernel program's piece is the host operations `hostOps8_1`; the reference's is operations 363 … 365 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 29. -/
abbrev rpiece29 : List (HloOp Cert.ReferenceIdeal.τ Cert.ReferenceIdeal.sig (Elt Ideal)) :=
  ((Cert.ReferenceIdeal.ValueP.ops (F := Ideal)).drop 363).take 3

set_option maxHeartbeats 40000000 in
theorem piece29 (K : Valuation Cert.KernelIdeal.τ Cert.KernelIdeal.sig (Elt Ideal)) (R : Valuation Cert.ReferenceIdeal.τ Cert.ReferenceIdeal.sig (Elt Ideal))
    (h_cst_72 : K (Proc.devRef .tc Cert.KernelIdeal.main_cst_72) = R (Proc.devRef .tc Cert.ReferenceIdeal.main_cst_66))
    (h_v275 : K (Proc.devRef .tc Cert.KernelIdeal.main_v275) = R (Proc.devRef .tc Cert.ReferenceIdeal.main_v268))
    (h_v278 : K (Proc.devRef .tc Cert.KernelIdeal.main_v278) = R (Proc.devRef .tc Cert.ReferenceIdeal.main_v271))
    (h_v268 : K (Proc.devRef .tc Cert.KernelIdeal.main_v268) = R (Proc.devRef .tc Cert.ReferenceIdeal.main_v261))
    (h_v266 : K (Proc.devRef .tc Cert.KernelIdeal.main_v266) = R (Proc.devRef .tc Cert.ReferenceIdeal.main_v259))
    (h_v269 : K (Proc.devRef .tc Cert.KernelIdeal.main_v269) = R (Proc.devRef .tc Cert.ReferenceIdeal.main_v262))
    (h_v163 : K (Proc.devRef .tc Cert.KernelIdeal.main_v163) = R (Proc.devRef .tc Cert.ReferenceIdeal.main_v162)) :
    (after Cert.KernelIdeal.Gen.hostOps8_1 K (Proc.devRef .tc Cert.KernelIdeal.main_v268) = after rpiece29 R (Proc.devRef .tc Cert.ReferenceIdeal.main_v261))
    ∧ (after Cert.KernelIdeal.Gen.hostOps8_1 K (Proc.devRef .tc Cert.KernelIdeal.main_v266) = after rpiece29 R (Proc.devRef .tc Cert.ReferenceIdeal.main_v259))
    ∧ (after Cert.KernelIdeal.Gen.hostOps8_1 K (Proc.devRef .tc Cert.KernelIdeal.main_v279) = after rpiece29 R (Proc.devRef .tc Cert.ReferenceIdeal.main_v272))
    ∧ (after Cert.KernelIdeal.Gen.hostOps8_1 K (Proc.devRef .tc Cert.KernelIdeal.main_v269) = after rpiece29 R (Proc.devRef .tc Cert.ReferenceIdeal.main_v262))
    ∧ (after Cert.KernelIdeal.Gen.hostOps8_1 K (Proc.devRef .tc Cert.KernelIdeal.main_v163) = after rpiece29 R (Proc.devRef .tc Cert.ReferenceIdeal.main_v162)) := by
  simp only [Cert.KernelIdeal.Gen.hostOps8_1, List.cons_append, List.nil_append, rpiece29, Cert.ReferenceIdeal.ValueP.ops]
  cut_list
  refine ⟨?_, ?_, ?_, ?_, ?_⟩
  · host_read
    try simp only [h_cst_72, h_v275, h_v278, h_v268, h_v266, h_v269, h_v163]
    try rw [h_cst_72]
    try rw [h_v275]
    try rw [h_v278]
    try rw [h_v268]
    try rw [h_v266]
    try rw [h_v269]
    try rw [h_v163]
    try rfl
  · host_read
    try simp only [h_cst_72, h_v275, h_v278, h_v268, h_v266, h_v269, h_v163]
    try rw [h_cst_72]
    try rw [h_v275]
    try rw [h_v278]
    try rw [h_v268]
    try rw [h_v266]
    try rw [h_v269]
    try rw [h_v163]
    try rfl
  · host_read
    try simp only [h_cst_72, h_v275, h_v278, h_v268, h_v266, h_v269, h_v163]
    try rw [h_cst_72]
    try rw [h_v275]
    try rw [h_v278]
    try rw [h_v268]
    try rw [h_v266]
    try rw [h_v269]
    try rw [h_v163]
    try rfl
  · host_read
    try simp only [h_cst_72, h_v275, h_v278, h_v268, h_v266, h_v269, h_v163]
    try rw [h_cst_72]
    try rw [h_v275]
    try rw [h_v278]
    try rw [h_v268]
    try rw [h_v266]
    try rw [h_v269]
    try rw [h_v163]
    try rfl
  · host_read
    try simp only [h_cst_72, h_v275, h_v278, h_v268, h_v266, h_v269, h_v163]
    try rw [h_cst_72]
    try rw [h_v275]
    try rw [h_v278]
    try rw [h_v268]
    try rw [h_v266]
    try rw [h_v269]
    try rw [h_v163]
    try rfl

end Cert.Lines

end
-- ==== Proof.Piece30.lean ====
/-
  Piece 30 of the two programs, from any contents that agree where the piece reads.

  The kernel program's piece is the host operations `hostOps8_2`; the reference's is operations 366 … 403 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 30. -/
abbrev rpiece30 : List (HloOp Cert.ReferenceIdeal.τ Cert.ReferenceIdeal.sig (Elt Ideal)) :=
  ((Cert.ReferenceIdeal.ValueP.ops (F := Ideal)).drop 366).take 38

set_option maxHeartbeats 40000000 in
theorem piece30 (K : Valuation Cert.KernelIdeal.τ Cert.KernelIdeal.sig (Elt Ideal)) (R : Valuation Cert.ReferenceIdeal.τ Cert.ReferenceIdeal.sig (Elt Ideal))
    (h_v268 : K (Proc.devRef .tc Cert.KernelIdeal.main_v268) = R (Proc.devRef .tc Cert.ReferenceIdeal.main_v261))
    (h_v266 : K (Proc.devRef .tc Cert.KernelIdeal.main_v266) = R (Proc.devRef .tc Cert.ReferenceIdeal.main_v259))
    (h_v279 : K (Proc.devRef .tc Cert.KernelIdeal.main_v279) = R (Proc.devRef .tc Cert.ReferenceIdeal.main_v272))
    (h_v269 : K (Proc.devRef .tc Cert.KernelIdeal.main_v269) = R (Proc.devRef .tc Cert.ReferenceIdeal.main_v262))
    (h_arg17 : K (Proc.devRef .tc Cert.KernelIdeal.main_arg17) = R (Proc.devRef .tc Cert.ReferenceIdeal.main_arg17))
    (h_v163 : K (Proc.devRef .tc Cert.KernelIdeal.main_v163) = R (Proc.devRef .tc Cert.ReferenceIdeal.main_v162)) :
    (after Cert.KernelIdeal.Gen.hostOps8_2 K (Proc.devRef .tc Cert.KernelIdeal.main_v310) = after rpiece30 R (Proc.devRef .tc Cert.ReferenceIdeal.main_v303))
    ∧ (after Cert.KernelIdeal.Gen.hostOps8_2 K (Proc.devRef .tc Cert.KernelIdeal.main_v163) = after rpiece30 R (Proc.devRef .tc Cert.ReferenceIdeal.main_v162)) := by
  simp only [Cert.KernelIdeal.Gen.hostOps8_2, List.cons_append, List.nil_append, rpiece30, Cert.ReferenceIdeal.ValueP.ops]
  cut_list
  refine ⟨?_, ?_⟩
  · host_read
    try simp only [h_v268, h_v266, h_v279, h_v269, h_arg17, h_v163]
    try rw [h_v268]
    try rw [h_v266]
    try rw [h_v279]
    try rw [h_v269]
    try rw [h_arg17]
    try rw [h_v163]
    try rfl
  · host_read
    try simp only [h_v268, h_v266, h_v279, h_v269, h_arg17, h_v163]
    try rw [h_v268]
    try rw [h_v266]
    try rw [h_v279]
    try rw [h_v269]
    try rw [h_arg17]
    try rw [h_v163]
    try rfl

end Cert.Lines

end
-- ==== Proof.Piece31.lean ====
/-
  Piece 31 of the two programs, from any contents that agree where the piece reads.

  The kernel program's piece is the host operations `hostOps8_3`; the reference's is operations 404 … 406 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 31. -/
abbrev rpiece31 : List (HloOp Cert.ReferenceIdeal.τ Cert.ReferenceIdeal.sig (Elt Ideal)) :=
  ((Cert.ReferenceIdeal.ValueP.ops (F := Ideal)).drop 404).take 3

set_option maxHeartbeats 40000000 in
theorem piece31 (K : Valuation Cert.KernelIdeal.τ Cert.KernelIdeal.sig (Elt Ideal)) (R : Valuation Cert.ReferenceIdeal.τ Cert.ReferenceIdeal.sig (Elt Ideal))
    (h_v310 : K (Proc.devRef .tc Cert.KernelIdeal.main_v310) = R (Proc.devRef .tc Cert.ReferenceIdeal.main_v303))
    (h_v163 : K (Proc.devRef .tc Cert.KernelIdeal.main_v163) = R (Proc.devRef .tc Cert.ReferenceIdeal.main_v162)) :
    (after Cert.KernelIdeal.Gen.hostOps8_3 K (Proc.devRef .tc Cert.KernelIdeal.main_v311) = after rpiece31 R (Proc.devRef .tc Cert.ReferenceIdeal.main_v304))
    ∧ (after Cert.KernelIdeal.Gen.hostOps8_3 K (Proc.devRef .tc Cert.KernelIdeal.main_v163) = after rpiece31 R (Proc.devRef .tc Cert.ReferenceIdeal.main_v162)) := by
  simp only [Cert.KernelIdeal.Gen.hostOps8_3, List.cons_append, List.nil_append, rpiece31, Cert.ReferenceIdeal.ValueP.ops]
  cut_list
  refine ⟨?_, ?_⟩
  · host_read
    try simp only [h_v310, h_v163]
    try rw [h_v310]
    try rw [h_v163]
    try rfl
  · host_read
    try simp only [h_v310, h_v163]
    try rw [h_v310]
    try rw [h_v163]
    try rfl

end Cert.Lines

end
-- ==== Proof.Piece32.lean ====
/-
  Piece 32 of the two programs, from any contents that agree where the piece reads.

  The kernel program's piece is the host operations `hostOps8_4` and region 8, as its operation ((X · W + B)⁺); the reference's is operations 407 … 429 of its
  @main.  Apart from the layer the two are the same operations on corresponding buffers, and the layer — on the host a `dot_general`, the bias broadcast over the rows and added, the maximum with zero — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 32. -/
abbrev rpiece32 : List (HloOp Cert.ReferenceIdeal.τ Cert.ReferenceIdeal.sig (Elt Ideal)) :=
  ((Cert.ReferenceIdeal.ValueP.ops (F := Ideal)).drop 407).take 23

set_option maxHeartbeats 40000000 in
theorem piece32 (K : Valuation Cert.KernelIdeal.τ Cert.KernelIdeal.sig (Elt Ideal)) (R : Valuation Cert.ReferenceIdeal.τ Cert.ReferenceIdeal.sig (Elt Ideal))
    (h_arg39 : K (Proc.devRef .tc Cert.KernelIdeal.main_arg39) = R (Proc.devRef .tc Cert.ReferenceIdeal.main_arg39))
    (h_v311 : K (Proc.devRef .tc Cert.KernelIdeal.main_v311) = R (Proc.devRef .tc Cert.ReferenceIdeal.main_v304))
    (h_arg19 : K (Proc.devRef .tc Cert.KernelIdeal.main_arg19) = R (Proc.devRef .tc Cert.ReferenceIdeal.main_arg19))
    (h_arg18 : K (Proc.devRef .tc Cert.KernelIdeal.main_arg18) = R (Proc.devRef .tc Cert.ReferenceIdeal.main_arg18))
    (h_v163 : K (Proc.devRef .tc Cert.KernelIdeal.main_v163) = R (Proc.devRef .tc Cert.ReferenceIdeal.main_v162)) :
    (after (Cert.KernelIdeal.Gen.hostOps8_4 ++ [Cert.KernelIdeal.Dense.dop8]) K (Proc.devRef .tc Cert.KernelIdeal.main_v325) = after rpiece32 R (Proc.devRef .tc Cert.ReferenceIdeal.main_v321))
    ∧ (after (Cert.KernelIdeal.Gen.hostOps8_4 ++ [Cert.KernelIdeal.Dense.dop8]) K (Proc.devRef .tc Cert.KernelIdeal.main_v163) = after rpiece32 R (Proc.devRef .tc Cert.ReferenceIdeal.main_v162)) := by
  simp only [Cert.KernelIdeal.Dense.dop8, Cert.KernelIdeal.Gen.hostOps8_4, List.cons_append, List.nil_append, rpiece32, Cert.ReferenceIdeal.ValueP.ops]
  cut_list
  refine ⟨?_, ?_⟩
  · host_read
    try simp only [h_arg39, h_v311, h_arg19, h_arg18, h_v163]
    try rw [h_arg39]
    try rw [h_v311]
    try rw [h_arg19]
    try rw [h_arg18]
    try rw [h_v163]
    exact (host_dense_relu Cert.ReferenceIdeal.dot_S2000x128_S128x1024_S2000x1024_1_0_0_1_n_n rfl _ _ _ _ _ _ _ _).symm
  · host_read
    try simp only [h_arg39, h_v311, h_arg19, h_arg18, h_v163]
    try rw [h_arg39]
    try rw [h_v311]
    try rw [h_arg19]
    try rw [h_arg18]
    try rw [h_v163]
    try rfl

end Cert.Lines

end
-- ==== Proof.Piece33.lean ====
/-
  Piece 33 of the two programs, from any contents that agree where the piece reads.

  The kernel program's piece is the host operations `hostOps9` and region 9, as its operation (X · W + B); the reference's is operations 430 … 433 of its
  @main.  Apart from the layer the two are the same operations on corresponding buffers, and the layer — on the host a `dot_general`, the bias broadcast over the rows and added — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 33. -/
abbrev rpiece33 : List (HloOp Cert.ReferenceIdeal.τ Cert.ReferenceIdeal.sig (Elt Ideal)) :=
  ((Cert.ReferenceIdeal.ValueP.ops (F := Ideal)).drop 430).take 4

set_option maxHeartbeats 40000000 in
theorem piece33 (K : Valuation Cert.KernelIdeal.τ Cert.KernelIdeal.sig (Elt Ideal)) (R : Valuation Cert.ReferenceIdeal.τ Cert.ReferenceIdeal.sig (Elt Ideal))
    (h_arg21 : K (Proc.devRef .tc Cert.KernelIdeal.main_arg21) = R (Proc.devRef .tc Cert.ReferenceIdeal.main_arg21))
    (h_v325 : K (Proc.devRef .tc Cert.KernelIdeal.main_v325) = R (Proc.devRef .tc Cert.ReferenceIdeal.main_v321))
    (h_arg20 : K (Proc.devRef .tc Cert.KernelIdeal.main_arg20) = R (Proc.devRef .tc Cert.ReferenceIdeal.main_arg20))
    (h_v163 : K (Proc.devRef .tc Cert.KernelIdeal.main_v163) = R (Proc.devRef .tc Cert.ReferenceIdeal.main_v162)) :
    (after (Cert.KernelIdeal.Gen.hostOps9 ++ [Cert.KernelIdeal.Dense.dop9]) K (Proc.devRef .tc Cert.KernelIdeal.main_v327) = after rpiece33 R (Proc.devRef .tc Cert.ReferenceIdeal.main_v325))
    ∧ (after (Cert.KernelIdeal.Gen.hostOps9 ++ [Cert.KernelIdeal.Dense.dop9]) K (Proc.devRef .tc Cert.KernelIdeal.main_v163) = after rpiece33 R (Proc.devRef .tc Cert.ReferenceIdeal.main_v162)) := by
  simp only [Cert.KernelIdeal.Dense.dop9, Cert.KernelIdeal.Gen.hostOps9, List.cons_append, List.nil_append, rpiece33, Cert.ReferenceIdeal.ValueP.ops]
  cut_list
  refine ⟨?_, ?_⟩
  · host_read
    try simp only [h_arg21, h_v325, h_arg20, h_v163]
    try rw [h_arg21]
    try rw [h_v325]
    try rw [h_arg20]
    try rw [h_v163]
    exact (host_dense Cert.ReferenceIdeal.dot_S2000x1024_S1024x128_S2000x128_1_0_0_1_n_n rfl _ _ _ _ _ _).symm
  · host_read
    try simp only [h_arg21, h_v325, h_arg20, h_v163]
    try rw [h_arg21]
    try rw [h_v325]
    try rw [h_arg20]
    try rw [h_v163]
    try rfl

end Cert.Lines

end
-- ==== Proof.Piece34.lean ====
/-
  Piece 34 of the two programs, from any contents that agree where the piece reads.

  The kernel program's piece is the host operations `hostOps10` and region 10, as its operation (X · W + B with a zero row B); the reference's is operations 434 … 438 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 34. -/
abbrev rpiece34 : List (HloOp Cert.ReferenceIdeal.τ Cert.ReferenceIdeal.sig (Elt Ideal)) :=
  ((Cert.ReferenceIdeal.ValueP.ops (F := Ideal)).drop 434).take 5

set_option maxHeartbeats 40000000 in
theorem piece34 (K : Valuation Cert.KernelIdeal.τ Cert.KernelIdeal.sig (Elt Ideal)) (R : Valuation Cert.ReferenceIdeal.τ Cert.ReferenceIdeal.sig (Elt Ideal))
    (h_arg40 : K (Proc.devRef .tc Cert.KernelIdeal.main_arg40) = R (Proc.devRef .tc Cert.ReferenceIdeal.main_arg40))
    (h_v327 : K (Proc.devRef .tc Cert.KernelIdeal.main_v327) = R (Proc.devRef .tc Cert.ReferenceIdeal.main_v325))
    (h_arg22 : K (Proc.devRef .tc Cert.KernelIdeal.main_arg22) = R (Proc.devRef .tc Cert.ReferenceIdeal.main_arg22))
    (h_v163 : K (Proc.devRef .tc Cert.KernelIdeal.main_v163) = R (Proc.devRef .tc Cert.ReferenceIdeal.main_v162)) :
    (after (Cert.KernelIdeal.Gen.hostOps10 ++ [Cert.KernelIdeal.Dense.dop10]) K (Proc.devRef .tc Cert.KernelIdeal.main_v334) = after rpiece34 R (Proc.devRef .tc Cert.ReferenceIdeal.main_v330))
    ∧ (after (Cert.KernelIdeal.Gen.hostOps10 ++ [Cert.KernelIdeal.Dense.dop10]) K (Proc.devRef .tc Cert.KernelIdeal.main_v329) = after rpiece34 R (Proc.devRef .tc Cert.ReferenceIdeal.main_v327))
    ∧ (after (Cert.KernelIdeal.Gen.hostOps10 ++ [Cert.KernelIdeal.Dense.dop10]) K (Proc.devRef .tc Cert.KernelIdeal.main_v331) = after rpiece34 R (Proc.devRef .tc Cert.ReferenceIdeal.main_v329))
    ∧ (after (Cert.KernelIdeal.Gen.hostOps10 ++ [Cert.KernelIdeal.Dense.dop10]) K (Proc.devRef .tc Cert.KernelIdeal.main_v163) = after rpiece34 R (Proc.devRef .tc Cert.ReferenceIdeal.main_v162)) := by
  simp only [Cert.KernelIdeal.Dense.dop10, Cert.KernelIdeal.Gen.hostOps10, List.cons_append, List.nil_append, rpiece34, Cert.ReferenceIdeal.ValueP.ops]
  cut_list
  refine ⟨?_, ?_, ?_, ?_⟩
  · host_read
    try simp only [h_arg40, h_v327, h_arg22, h_v163]
    try rw [h_arg40]
    try rw [h_v327]
    try rw [h_arg22]
    try rw [h_v163]
    exact (host_gcn Cert.ReferenceIdeal.dot_S2000x128_S128x1024_S2000x1024_1_0_0_1_n_n rfl _ _ _ _ _).symm
  · host_read
    try simp only [h_arg40, h_v327, h_arg22, h_v163]
    try rw [h_arg40]
    try rw [h_v327]
    try rw [h_arg22]
    try rw [h_v163]
    try rfl
  · host_read
    try simp only [h_arg40, h_v327, h_arg22, h_v163]
    try rw [h_arg40]
    try rw [h_v327]
    try rw [h_arg22]
    try rw [h_v163]
    try rfl
  · host_read
    try simp only [h_arg40, h_v327, h_arg22, h_v163]
    try rw [h_arg40]
    try rw [h_v327]
    try rw [h_arg22]
    try rw [h_v163]
    try rfl

end Cert.Lines

end
-- ==== Proof.Piece35.lean ====
/-
  Piece 35 of the two programs, from any contents that agree where the piece reads.

  The kernel program's piece is the host operations `hostOps11`; the reference's is operations 439 … 455 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 35. -/
abbrev rpiece35 : List (HloOp Cert.ReferenceIdeal.τ Cert.ReferenceIdeal.sig (Elt Ideal)) :=
  ((Cert.ReferenceIdeal.ValueP.ops (F := Ideal)).drop 439).take 17

set_option maxHeartbeats 40000000 in
theorem piece35 (K : Valuation Cert.KernelIdeal.τ Cert.KernelIdeal.sig (Elt Ideal)) (R : Valuation Cert.ReferenceIdeal.τ Cert.ReferenceIdeal.sig (Elt Ideal))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v334 : K (Proc.devRef .tc Cert.KernelIdeal.main_v334) = R (Proc.devRef .tc Cert.ReferenceIdeal.main_v330))
    (h_v163 : K (Proc.devRef .tc Cert.KernelIdeal.main_v163) = R (Proc.devRef .tc Cert.ReferenceIdeal.main_v162)) :
    (after Cert.KernelIdeal.Gen.hostOps11 K (Proc.devRef .tc Cert.KernelIdeal.main_cst_89) = after rpiece35 R (Proc.devRef .tc Cert.ReferenceIdeal.main_cst_82))
    ∧ (after Cert.KernelIdeal.Gen.hostOps11 K (Proc.devRef .tc Cert.KernelIdeal.main_v343) = after rpiece35 R (Proc.devRef .tc Cert.ReferenceIdeal.main_v339))
    ∧ (after Cert.KernelIdeal.Gen.hostOps11 K (Proc.devRef .tc Cert.KernelIdeal.main_v346) = after rpiece35 R (Proc.devRef .tc Cert.ReferenceIdeal.main_v342))
    ∧ (after Cert.KernelIdeal.Gen.hostOps11 K (Proc.devRef .tc Cert.KernelIdeal.main_v336) = after rpiece35 R (Proc.devRef .tc Cert.ReferenceIdeal.main_v332))
    ∧ (after Cert.KernelIdeal.Gen.hostOps11 K (Proc.devRef .tc Cert.KernelIdeal.main_v334) = after rpiece35 R (Proc.devRef .tc Cert.ReferenceIdeal.main_v330))
    ∧ (after Cert.KernelIdeal.Gen.hostOps11 K (Proc.devRef .tc Cert.KernelIdeal.main_v337) = after rpiece35 R (Proc.devRef .tc Cert.ReferenceIdeal.main_v333))
    ∧ (after Cert.KernelIdeal.Gen.hostOps11 K (Proc.devRef .tc Cert.KernelIdeal.main_v329) = after rpiece35 R (Proc.devRef .tc Cert.ReferenceIdeal.main_v327))
    ∧ (after Cert.KernelIdeal.Gen.hostOps11 K (Proc.devRef .tc Cert.KernelIdeal.main_v331) = after rpiece35 R (Proc.devRef .tc Cert.ReferenceIdeal.main_v329))
    ∧ (after Cert.KernelIdeal.Gen.hostOps11 K (Proc.devRef .tc Cert.KernelIdeal.main_v163) = after rpiece35 R (Proc.devRef .tc Cert.ReferenceIdeal.main_v162)) := by
  simp only [Cert.KernelIdeal.Gen.hostOps11, List.cons_append, List.nil_append, rpiece35, Cert.ReferenceIdeal.ValueP.ops]
  cut_list
  refine ⟨?_, ?_, ?_, ?_, ?_, ?_, ?_, ?_, ?_⟩
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl
  · host_read
    try simp only [h_v329, h_v331, h_v334, h_v163]
    try rw [h_v329]
    try rw [h_v331]
    try rw [h_v334]
    try rw [h_v163]
    try rfl

end Cert.Lines

end
-- ==== Proof.Piece36.lean ====
/-
  Piece 36 of the two programs, from any contents that agree where the piece reads.

  The kernel program's piece is the host operations `hostOps11_1`; the reference's is operations 456 … 458 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 36. -/
abbrev rpiece36 : List (HloOp Cert.ReferenceIdeal.τ Cert.ReferenceIdeal.sig (Elt Ideal)) :=
  ((Cert.ReferenceIdeal.ValueP.ops (F := Ideal)).drop 456).take 3

set_option maxHeartbeats 40000000 in
theorem piece36 (K : Valuation Cert.KernelIdeal.τ Cert.KernelIdeal.sig (Elt Ideal)) (R : Valuation Cert.ReferenceIdeal.τ Cert.ReferenceIdeal.sig (Elt Ideal))
    (h_cst_89 : K (Proc.devRef .tc Cert.KernelIdeal.main_cst_89) = R (Proc.devRef .tc Cert.ReferenceIdeal.main_cst_82))
    (h_v343 : K (Proc.devRef .tc Cert.KernelIdeal.main_v343) = R (Proc.devRef .tc Cert.ReferenceIdeal.main_v339))
    (h_v346 : K (Proc.devRef .tc Cert.KernelIdeal.main_v346) = R (Proc.devRef .tc Cert.ReferenceIdeal.main_v342))
    (h_v336 : K (Proc.devRef .tc Cert.KernelIdeal.main_v336) = R (Proc.devRef .tc Cert.ReferenceIdeal.main_v332))
    (h_v334 : K (Proc.devRef .tc Cert.KernelIdeal.main_v334) = R (Proc.devRef .tc Cert.ReferenceIdeal.main_v330))
    (h_v337 : K (Proc.devRef .tc Cert.KernelIdeal.main_v337) = R (Proc.devRef .tc Cert.ReferenceIdeal.main_v333))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v163 : K (Proc.devRef .tc Cert.KernelIdeal.main_v163) = R (Proc.devRef .tc Cert.ReferenceIdeal.main_v162)) :
    (after Cert.KernelIdeal.Gen.hostOps11_1 K (Proc.devRef .tc Cert.KernelIdeal.main_v336) = after rpiece36 R (Proc.devRef .tc Cert.ReferenceIdeal.main_v332))
    ∧ (after Cert.KernelIdeal.Gen.hostOps11_1 K (Proc.devRef .tc Cert.KernelIdeal.main_v334) = after rpiece36 R (Proc.devRef .tc Cert.ReferenceIdeal.main_v330))
    ∧ (after Cert.KernelIdeal.Gen.hostOps11_1 K (Proc.devRef .tc Cert.KernelIdeal.main_v347) = after rpiece36 R (Proc.devRef .tc Cert.ReferenceIdeal.main_v343))
    ∧ (after Cert.KernelIdeal.Gen.hostOps11_1 K (Proc.devRef .tc Cert.KernelIdeal.main_v337) = after rpiece36 R (Proc.devRef .tc Cert.ReferenceIdeal.main_v333))
    ∧ (after Cert.KernelIdeal.Gen.hostOps11_1 K (Proc.devRef .tc Cert.KernelIdeal.main_v329) = after rpiece36 R (Proc.devRef .tc Cert.ReferenceIdeal.main_v327))
    ∧ (after Cert.KernelIdeal.Gen.hostOps11_1 K (Proc.devRef .tc Cert.KernelIdeal.main_v331) = after rpiece36 R (Proc.devRef .tc Cert.ReferenceIdeal.main_v329))
    ∧ (after Cert.KernelIdeal.Gen.hostOps11_1 K (Proc.devRef .tc Cert.KernelIdeal.main_v163) = after rpiece36 R (Proc.devRef .tc Cert.ReferenceIdeal.main_v162)) := by
  simp only [Cert.KernelIdeal.Gen.hostOps11_1, List.cons_append, List.nil_append, rpiece36, Cert.ReferenceIdeal.ValueP.ops]
  cut_list
  refine ⟨?_, ?_, ?_, ?_, ?_, ?_, ?_⟩
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl
  · host_read
    try simp only [h_cst_89, h_v343, h_v346, h_v336, h_v334, h_v337, h_v329, h_v331, h_v163]
    try rw [h_cst_89]
    try rw [h_v343]
    try rw [h_v346]
    try rw [h_v336]
    try rw [h_v334]
    try rw [h_v337]
    try rw [h_v329]
    try rw [h_v331]
    try rw [h_v163]
    try rfl

end Cert.Lines

end
-- ==== Proof.Piece37.lean ====
/-
  Piece 37 of the two programs, from any contents that agree where the piece reads.

  The kernel program's piece is the host operations `hostOps11_2`; the reference's is operations 459 … 496 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 37. -/
abbrev rpiece37 : List (HloOp Cert.ReferenceIdeal.τ Cert.ReferenceIdeal.sig (Elt Ideal)) :=
  ((Cert.ReferenceIdeal.ValueP.ops (F := Ideal)).drop 459).take 38

set_option maxHeartbeats 40000000 in
theorem piece37 (K : Valuation Cert.KernelIdeal.τ Cert.KernelIdeal.sig (Elt Ideal)) (R : Valuation Cert.ReferenceIdeal.τ Cert.ReferenceIdeal.sig (Elt Ideal))
    (h_v336 : K (Proc.devRef .tc Cert.KernelIdeal.main_v336) = R (Proc.devRef .tc Cert.ReferenceIdeal.main_v332))
    (h_v334 : K (Proc.devRef .tc Cert.KernelIdeal.main_v334) = R (Proc.devRef .tc Cert.ReferenceIdeal.main_v330))
    (h_v347 : K (Proc.devRef .tc Cert.KernelIdeal.main_v347) = R (Proc.devRef .tc Cert.ReferenceIdeal.main_v343))
    (h_v337 : K (Proc.devRef .tc Cert.KernelIdeal.main_v337) = R (Proc.devRef .tc Cert.ReferenceIdeal.main_v333))
    (h_arg23 : K (Proc.devRef .tc Cert.KernelIdeal.main_arg23) = R (Proc.devRef .tc Cert.ReferenceIdeal.main_arg23))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v163 : K (Proc.devRef .tc Cert.KernelIdeal.main_v163) = R (Proc.devRef .tc Cert.ReferenceIdeal.main_v162)) :
    (after Cert.KernelIdeal.Gen.hostOps11_2 K (Proc.devRef .tc Cert.KernelIdeal.main_v378) = after rpiece37 R (Proc.devRef .tc Cert.ReferenceIdeal.main_v374))
    ∧ (after Cert.KernelIdeal.Gen.hostOps11_2 K (Proc.devRef .tc Cert.KernelIdeal.main_v329) = after rpiece37 R (Proc.devRef .tc Cert.ReferenceIdeal.main_v327))
    ∧ (after Cert.KernelIdeal.Gen.hostOps11_2 K (Proc.devRef .tc Cert.KernelIdeal.main_v331) = after rpiece37 R (Proc.devRef .tc Cert.ReferenceIdeal.main_v329))
    ∧ (after Cert.KernelIdeal.Gen.hostOps11_2 K (Proc.devRef .tc Cert.KernelIdeal.main_v163) = after rpiece37 R (Proc.devRef .tc Cert.ReferenceIdeal.main_v162)) := by
  simp only [Cert.KernelIdeal.Gen.hostOps11_2, List.cons_append, List.nil_append, rpiece37, Cert.ReferenceIdeal.ValueP.ops]
  cut_list
  refine ⟨?_, ?_, ?_, ?_⟩
  · host_read
    try simp only [h_v336, h_v334, h_v347, h_v337, h_arg23, h_v329, h_v331, h_v163]
    try rw [h_v336]
    try rw [h_v334]
    try rw [h_v347]
    try rw [h_v337]
    try rw [h_arg23]
    try rw [h_v329]
    try rw [h_v331]
    try rw [h_v163]
    try rfl
  · host_read
    try simp only [h_v336, h_v334, h_v347, h_v337, h_arg23, h_v329, h_v331, h_v163]
    try rw [h_v336]
    try rw [h_v334]
    try rw [h_v347]
    try rw [h_v337]
    try rw [h_arg23]
    try rw [h_v329]
    try rw [h_v331]
    try rw [h_v163]
    try rfl
  · host_read
    try simp only [h_v336, h_v334, h_v347, h_v337, h_arg23, h_v329, h_v331, h_v163]
    try rw [h_v336]
    try rw [h_v334]
    try rw [h_v347]
    try rw [h_v337]
    try rw [h_arg23]
    try rw [h_v329]
    try rw [h_v331]
    try rw [h_v163]
    try rfl
  · host_read
    try simp only [h_v336, h_v334, h_v347, h_v337, h_arg23, h_v329, h_v331, h_v163]
    try rw [h_v336]
    try rw [h_v334]
    try rw [h_v347]
    try rw [h_v337]
    try rw [h_arg23]
    try rw [h_v329]
    try rw [h_v331]
    try rw [h_v163]
    try rfl

end Cert.Lines

end
-- ==== Proof.Piece38.lean ====
/-
  Piece 38 of the two programs, from any contents that agree where the piece reads.

  The kernel program's piece is the host operations `hostOps11_3`; the reference's is operations 497 … 499 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 38. -/
abbrev rpiece38 : List (HloOp Cert.ReferenceIdeal.τ Cert.ReferenceIdeal.sig (Elt Ideal)) :=
  ((Cert.ReferenceIdeal.ValueP.ops (F := Ideal)).drop 497).take 3

set_option maxHeartbeats 40000000 in
theorem piece38 (K : Valuation Cert.KernelIdeal.τ Cert.KernelIdeal.sig (Elt Ideal)) (R : Valuation Cert.ReferenceIdeal.τ Cert.ReferenceIdeal.sig (Elt Ideal))
    (h_v378 : K (Proc.devRef .tc Cert.KernelIdeal.main_v378) = R (Proc.devRef .tc Cert.ReferenceIdeal.main_v374))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v163 : K (Proc.devRef .tc Cert.KernelIdeal.main_v163) = R (Proc.devRef .tc Cert.ReferenceIdeal.main_v162)) :
    (after Cert.KernelIdeal.Gen.hostOps11_3 K (Proc.devRef .tc Cert.KernelIdeal.main_v379) = after rpiece38 R (Proc.devRef .tc Cert.ReferenceIdeal.main_v375))
    ∧ (after Cert.KernelIdeal.Gen.hostOps11_3 K (Proc.devRef .tc Cert.KernelIdeal.main_v329) = after rpiece38 R (Proc.devRef .tc Cert.ReferenceIdeal.main_v327))
    ∧ (after Cert.KernelIdeal.Gen.hostOps11_3 K (Proc.devRef .tc Cert.KernelIdeal.main_v331) = after rpiece38 R (Proc.devRef .tc Cert.ReferenceIdeal.main_v329))
    ∧ (after Cert.KernelIdeal.Gen.hostOps11_3 K (Proc.devRef .tc Cert.KernelIdeal.main_v163) = after rpiece38 R (Proc.devRef .tc Cert.ReferenceIdeal.main_v162)) := by
  simp only [Cert.KernelIdeal.Gen.hostOps11_3, List.cons_append, List.nil_append, rpiece38, Cert.ReferenceIdeal.ValueP.ops]
  cut_list
  refine ⟨?_, ?_, ?_, ?_⟩
  · host_read
    try simp only [h_v378, h_v329, h_v331, h_v163]
    try rw [h_v378]
    try rw [h_v329]
    try rw [h_v331]
    try rw [h_v163]
    try rfl
  · host_read
    try simp only [h_v378, h_v329, h_v331, h_v163]
    try rw [h_v378]
    try rw [h_v329]
    try rw [h_v331]
    try rw [h_v163]
    try rfl
  · host_read
    try simp only [h_v378, h_v329, h_v331, h_v163]
    try rw [h_v378]
    try rw [h_v329]
    try rw [h_v331]
    try rw [h_v163]
    try rfl
  · host_read
    try simp only [h_v378, h_v329, h_v331, h_v163]
    try rw [h_v378]
    try rw [h_v329]
    try rw [h_v331]
    try rw [h_v163]
    try rfl

end Cert.Lines

end
-- ==== Proof.Piece39.lean ====
/-
  Piece 39 of the two programs, from any contents that agree where the piece reads.

  The kernel program's piece is the host operations `hostOps11_4` and region 11, as its operation (X · W + B with a zero row B); the reference's is operations 500 … 500 of its
  @main.  Apart from the layer the two are the same operations on corresponding buffers, and the layer — on the host a `dot_general` — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 39. -/
abbrev rpiece39 : List (HloOp Cert.ReferenceIdeal.τ Cert.ReferenceIdeal.sig (Elt Ideal)) :=
  ((Cert.ReferenceIdeal.ValueP.ops (F := Ideal)).drop 500).take 1

set_option maxHeartbeats 40000000 in
theorem piece39 (K : Valuation Cert.KernelIdeal.τ Cert.KernelIdeal.sig (Elt Ideal)) (R : Valuation Cert.ReferenceIdeal.τ Cert.ReferenceIdeal.sig (Elt Ideal))
    (h_v379 : K (Proc.devRef .tc Cert.KernelIdeal.main_v379) = R (Proc.devRef .tc Cert.ReferenceIdeal.main_v375))
    (h_arg24 : K (Proc.devRef .tc Cert.KernelIdeal.main_arg24) = R (Proc.devRef .tc Cert.ReferenceIdeal.main_arg24))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v163 : K (Proc.devRef .tc Cert.KernelIdeal.main_v163) = R (Proc.devRef .tc Cert.ReferenceIdeal.main_v162)) :
    (after (Cert.KernelIdeal.Gen.hostOps11_4 ++ [Cert.KernelIdeal.Dense.dop11]) K (Proc.devRef .tc Cert.KernelIdeal.main_v382) = after rpiece39 R (Proc.devRef .tc Cert.ReferenceIdeal.main_v376))
    ∧ (after (Cert.KernelIdeal.Gen.hostOps11_4 ++ [Cert.KernelIdeal.Dense.dop11]) K (Proc.devRef .tc Cert.KernelIdeal.main_v329) = after rpiece39 R (Proc.devRef .tc Cert.ReferenceIdeal.main_v327))
    ∧ (after (Cert.KernelIdeal.Gen.hostOps11_4 ++ [Cert.KernelIdeal.Dense.dop11]) K (Proc.devRef .tc Cert.KernelIdeal.main_v331) = after rpiece39 R (Proc.devRef .tc Cert.ReferenceIdeal.main_v329))
    ∧ (after (Cert.KernelIdeal.Gen.hostOps11_4 ++ [Cert.KernelIdeal.Dense.dop11]) K (Proc.devRef .tc Cert.KernelIdeal.main_v163) = after rpiece39 R (Proc.devRef .tc Cert.ReferenceIdeal.main_v162)) := by
  simp only [Cert.KernelIdeal.Dense.dop11, Cert.KernelIdeal.Gen.hostOps11_4, List.cons_append, List.nil_append, rpiece39, Cert.ReferenceIdeal.ValueP.ops]
  cut_list
  refine ⟨?_, ?_, ?_, ?_⟩
  · host_read
    try simp only [h_v379, h_arg24, h_v329, h_v331, h_v163]
    try rw [h_v379]
    try rw [h_arg24]
    try rw [h_v329]
    try rw [h_v331]
    try rw [h_v163]
    exact (host_gcn Cert.ReferenceIdeal.dot_S2000x1024_S1024x128_S2000x128_1_0_0_1_n_n rfl _ _ _ _ _).symm
  · host_read
    try simp only [h_v379, h_arg24, h_v329, h_v331, h_v163]
    try rw [h_v379]
    try rw [h_arg24]
    try rw [h_v329]
    try rw [h_v331]
    try rw [h_v163]
    try rfl
  · host_read
    try simp only [h_v379, h_arg24, h_v329, h_v331, h_v163]
    try rw [h_v379]
    try rw [h_arg24]
    try rw [h_v329]
    try rw [h_v331]
    try rw [h_v163]
    try rfl
  · host_read
    try simp only [h_v379, h_arg24, h_v329, h_v331, h_v163]
    try rw [h_v379]
    try rw [h_arg24]
    try rw [h_v329]
    try rw [h_v331]
    try rw [h_v163]
    try rfl

end Cert.Lines

end
-- ==== Proof.Piece40.lean ====
/-
  Piece 40 of the two programs, from any contents that agree where the piece reads.

  The kernel program's piece is the host operations `hostOps12`; the reference's is operations 501 … 517 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 40. -/
abbrev rpiece40 : List (HloOp Cert.ReferenceIdeal.τ Cert.ReferenceIdeal.sig (Elt Ideal)) :=
  ((Cert.ReferenceIdeal.ValueP.ops (F := Ideal)).drop 501).take 17

set_option maxHeartbeats 40000000 in
theorem piece40 (K : Valuation Cert.KernelIdeal.τ Cert.KernelIdeal.sig (Elt Ideal)) (R : Valuation Cert.ReferenceIdeal.τ Cert.ReferenceIdeal.sig (Elt Ideal))
    (h_v329 : K (Proc.devRef .tc Cert.KernelIdeal.main_v329) = R (Proc.devRef .tc Cert.ReferenceIdeal.main_v327))
    (h_v331 : K (Proc.devRef .tc Cert.KernelIdeal.main_v331) = R (Proc.devRef .tc Cert.ReferenceIdeal.main_v329))
    (h_v382 : K (Proc.devRef .tc Cert.KernelIdeal.main_v382) = R (Proc.devRef .tc Cert.ReferenceIdeal.main_v376))
    (h_v163 : K (Proc.devRef .tc Cert.KernelIdeal.main_v163) = R (Proc.devRef .tc Cert.ReferenceIdeal.main_v162)) :
    (after Cert.KernelIdeal.Gen.hostOps12 K (Proc.devRef .tc Cert.KernelIdeal.main_cst_102) = after rpiece40 R (Proc.devRef .tc Cert.ReferenceIdeal.main_cst_94))
    ∧ (after Cert.KernelIdeal.Gen.hostOps12 K (Proc.devRef .tc Cert.KernelIdeal.main_v391) = after rpiece40 R (Proc.devRef .tc Cert.ReferenceIdeal.main_v385))
    ∧ (after Cert.KernelIdeal.Gen.hostOps12 K (Proc.devRef .tc Cert.KernelIdeal.main_v394) = after rpiece40 R (Proc.devRef .tc Cert.ReferenceIdeal.main_v388))
    ∧ (after Cert.KernelIdeal.Gen.hostOps12 K (Proc.devRef .tc Cert.KernelIdeal.main_v384) = after rpiece40 R (Proc.devRef .tc Cert.ReferenceIdeal.main_v378))
    ∧ (after Cert.KernelIdeal.Gen.hostOps12 K (Proc.devRef .tc Cert.KernelIdeal.main_v382) = after rpiece40 R (Proc.devRef .tc Cert.ReferenceIdeal.main_v376))
    ∧ (after Cert.KernelIdeal.Gen.hostOps12 K (Proc.devRef .tc Cert.KernelIdeal.main_v385) = after rpiece40 R (Proc.devRef .tc Cert.ReferenceIdeal.main_v379))
    ∧ (after Cert.KernelIdeal.Gen.hostOps12 K (Proc.devRef .tc Cert.KernelIdeal.main_v163) = after rpiece40 R (Proc.devRef .tc Cert.ReferenceIdeal.main_v162)) := by
  simp only [Cert.KernelIdeal.Gen.hostOps12, List.cons_append, List.nil_append, rpiece40, Cert.ReferenceIdeal.ValueP.ops]
  cut_list
  refine ⟨?_, ?_, ?_, ?_, ?_, ?_, ?_⟩
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl
  · host_read
    try simp only [h_v329, h_v331, h_v382, h_v163]
    try rw [h_v329]
    try rw [h_v331]
    try rw [h_v382]
    try rw [h_v163]
    try rfl

end Cert.Lines

end
-- ==== Proof.Piece41.lean ====
/-
  Piece 41 of the two programs, from any contents that agree where the piece reads.

  The kernel program's piece is the host operations `hostOps12_1`; the reference's is operations 518 … 520 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 41. -/
abbrev rpiece41 : List (HloOp Cert.ReferenceIdeal.τ Cert.ReferenceIdeal.sig (Elt Ideal)) :=
  ((Cert.ReferenceIdeal.ValueP.ops (F := Ideal)).drop 518).take 3

set_option maxHeartbeats 40000000 in
theorem piece41 (K : Valuation Cert.KernelIdeal.τ Cert.KernelIdeal.sig (Elt Ideal)) (R : Valuation Cert.ReferenceIdeal.τ Cert.ReferenceIdeal.sig (Elt Ideal))
    (h_cst_102 : K (Proc.devRef .tc Cert.KernelIdeal.main_cst_102) = R (Proc.devRef .tc Cert.ReferenceIdeal.main_cst_94))
    (h_v391 : K (Proc.devRef .tc Cert.KernelIdeal.main_v391) = R (Proc.devRef .tc Cert.ReferenceIdeal.main_v385))
    (h_v394 : K (Proc.devRef .tc Cert.KernelIdeal.main_v394) = R (Proc.devRef .tc Cert.ReferenceIdeal.main_v388))
    (h_v384 : K (Proc.devRef .tc Cert.KernelIdeal.main_v384) = R (Proc.devRef .tc Cert.ReferenceIdeal.main_v378))
    (h_v382 : K (Proc.devRef .tc Cert.KernelIdeal.main_v382) = R (Proc.devRef .tc Cert.ReferenceIdeal.main_v376))
    (h_v385 : K (Proc.devRef .tc Cert.KernelIdeal.main_v385) = R (Proc.devRef .tc Cert.ReferenceIdeal.main_v379))
    (h_v163 : K (Proc.devRef .tc Cert.KernelIdeal.main_v163) = R (Proc.devRef .tc Cert.ReferenceIdeal.main_v162)) :
    (after Cert.KernelIdeal.Gen.hostOps12_1 K (Proc.devRef .tc Cert.KernelIdeal.main_v384) = after rpiece41 R (Proc.devRef .tc Cert.ReferenceIdeal.main_v378))
    ∧ (after Cert.KernelIdeal.Gen.hostOps12_1 K (Proc.devRef .tc Cert.KernelIdeal.main_v382) = after rpiece41 R (Proc.devRef .tc Cert.ReferenceIdeal.main_v376))
    ∧ (after Cert.KernelIdeal.Gen.hostOps12_1 K (Proc.devRef .tc Cert.KernelIdeal.main_v395) = after rpiece41 R (Proc.devRef .tc Cert.ReferenceIdeal.main_v389))
    ∧ (after Cert.KernelIdeal.Gen.hostOps12_1 K (Proc.devRef .tc Cert.KernelIdeal.main_v385) = after rpiece41 R (Proc.devRef .tc Cert.ReferenceIdeal.main_v379))
    ∧ (after Cert.KernelIdeal.Gen.hostOps12_1 K (Proc.devRef .tc Cert.KernelIdeal.main_v163) = after rpiece41 R (Proc.devRef .tc Cert.ReferenceIdeal.main_v162)) := by
  simp only [Cert.KernelIdeal.Gen.hostOps12_1, List.cons_append, List.nil_append, rpiece41, Cert.ReferenceIdeal.ValueP.ops]
  cut_list
  refine ⟨?_, ?_, ?_, ?_, ?_⟩
  · host_read
    try simp only [h_cst_102, h_v391, h_v394, h_v384, h_v382, h_v385, h_v163]
    try rw [h_cst_102]
    try rw [h_v391]
    try rw [h_v394]
    try rw [h_v384]
    try rw [h_v382]
    try rw [h_v385]
    try rw [h_v163]
    try rfl
  · host_read
    try simp only [h_cst_102, h_v391, h_v394, h_v384, h_v382, h_v385, h_v163]
    try rw [h_cst_102]
    try rw [h_v391]
    try rw [h_v394]
    try rw [h_v384]
    try rw [h_v382]
    try rw [h_v385]
    try rw [h_v163]
    try rfl
  · host_read
    try simp only [h_cst_102, h_v391, h_v394, h_v384, h_v382, h_v385, h_v163]
    try rw [h_cst_102]
    try rw [h_v391]
    try rw [h_v394]
    try rw [h_v384]
    try rw [h_v382]
    try rw [h_v385]
    try rw [h_v163]
    try rfl
  · host_read
    try simp only [h_cst_102, h_v391, h_v394, h_v384, h_v382, h_v385, h_v163]
    try rw [h_cst_102]
    try rw [h_v391]
    try rw [h_v394]
    try rw [h_v384]
    try rw [h_v382]
    try rw [h_v385]
    try rw [h_v163]
    try rfl
  · host_read
    try simp only [h_cst_102, h_v391, h_v394, h_v384, h_v382, h_v385, h_v163]
    try rw [h_cst_102]
    try rw [h_v391]
    try rw [h_v394]
    try rw [h_v384]
    try rw [h_v382]
    try rw [h_v385]
    try rw [h_v163]
    try rfl

end Cert.Lines

end
-- ==== Proof.Piece42.lean ====
/-
  Piece 42 of the two programs, from any contents that agree where the piece reads.

  The kernel program's piece is the host operations `hostOps12_2`; the reference's is operations 521 … 558 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 42. -/
abbrev rpiece42 : List (HloOp Cert.ReferenceIdeal.τ Cert.ReferenceIdeal.sig (Elt Ideal)) :=
  ((Cert.ReferenceIdeal.ValueP.ops (F := Ideal)).drop 521).take 38

set_option maxHeartbeats 40000000 in
theorem piece42 (K : Valuation Cert.KernelIdeal.τ Cert.KernelIdeal.sig (Elt Ideal)) (R : Valuation Cert.ReferenceIdeal.τ Cert.ReferenceIdeal.sig (Elt Ideal))
    (h_v384 : K (Proc.devRef .tc Cert.KernelIdeal.main_v384) = R (Proc.devRef .tc Cert.ReferenceIdeal.main_v378))
    (h_v382 : K (Proc.devRef .tc Cert.KernelIdeal.main_v382) = R (Proc.devRef .tc Cert.ReferenceIdeal.main_v376))
    (h_v395 : K (Proc.devRef .tc Cert.KernelIdeal.main_v395) = R (Proc.devRef .tc Cert.ReferenceIdeal.main_v389))
    (h_v385 : K (Proc.devRef .tc Cert.KernelIdeal.main_v385) = R (Proc.devRef .tc Cert.ReferenceIdeal.main_v379))
    (h_arg25 : K (Proc.devRef .tc Cert.KernelIdeal.main_arg25) = R (Proc.devRef .tc Cert.ReferenceIdeal.main_arg25))
    (h_v163 : K (Proc.devRef .tc Cert.KernelIdeal.main_v163) = R (Proc.devRef .tc Cert.ReferenceIdeal.main_v162)) :
    (after Cert.KernelIdeal.Gen.hostOps12_2 K (Proc.devRef .tc Cert.KernelIdeal.main_v426) = after rpiece42 R (Proc.devRef .tc Cert.ReferenceIdeal.main_v420))
    ∧ (after Cert.KernelIdeal.Gen.hostOps12_2 K (Proc.devRef .tc Cert.KernelIdeal.main_v163) = after rpiece42 R (Proc.devRef .tc Cert.ReferenceIdeal.main_v162)) := by
  simp only [Cert.KernelIdeal.Gen.hostOps12_2, List.cons_append, List.nil_append, rpiece42, Cert.ReferenceIdeal.ValueP.ops]
  cut_list
  refine ⟨?_, ?_⟩
  · host_read
    try simp only [h_v384, h_v382, h_v395, h_v385, h_arg25, h_v163]
    try rw [h_v384]
    try rw [h_v382]
    try rw [h_v395]
    try rw [h_v385]
    try rw [h_arg25]
    try rw [h_v163]
    try rfl
  · host_read
    try simp only [h_v384, h_v382, h_v395, h_v385, h_arg25, h_v163]
    try rw [h_v384]
    try rw [h_v382]
    try rw [h_v395]
    try rw [h_v385]
    try rw [h_arg25]
    try rw [h_v163]
    try rfl

end Cert.Lines

end
-- ==== Proof.Piece43.lean ====
/-
  Piece 43 of the two programs, from any contents that agree where the piece reads.

  The kernel program's piece is the host operations `hostOps12_3`; the reference's is operations 559 … 561 of its
  @main.  They are the same operations on corresponding buffers.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 43. -/
abbrev rpiece43 : List (HloOp Cert.ReferenceIdeal.τ Cert.ReferenceIdeal.sig (Elt Ideal)) :=
  ((Cert.ReferenceIdeal.ValueP.ops (F := Ideal)).drop 559).take 3

set_option maxHeartbeats 40000000 in
theorem piece43 (K : Valuation Cert.KernelIdeal.τ Cert.KernelIdeal.sig (Elt Ideal)) (R : Valuation Cert.ReferenceIdeal.τ Cert.ReferenceIdeal.sig (Elt Ideal))
    (h_v426 : K (Proc.devRef .tc Cert.KernelIdeal.main_v426) = R (Proc.devRef .tc Cert.ReferenceIdeal.main_v420))
    (h_v163 : K (Proc.devRef .tc Cert.KernelIdeal.main_v163) = R (Proc.devRef .tc Cert.ReferenceIdeal.main_v162)) :
    (after Cert.KernelIdeal.Gen.hostOps12_3 K (Proc.devRef .tc Cert.KernelIdeal.main_v427) = after rpiece43 R (Proc.devRef .tc Cert.ReferenceIdeal.main_v421))
    ∧ (after Cert.KernelIdeal.Gen.hostOps12_3 K (Proc.devRef .tc Cert.KernelIdeal.main_v163) = after rpiece43 R (Proc.devRef .tc Cert.ReferenceIdeal.main_v162)) := by
  simp only [Cert.KernelIdeal.Gen.hostOps12_3, List.cons_append, List.nil_append, rpiece43, Cert.ReferenceIdeal.ValueP.ops]
  cut_list
  refine ⟨?_, ?_⟩
  · host_read
    try simp only [h_v426, h_v163]
    try rw [h_v426]
    try rw [h_v163]
    try rfl
  · host_read
    try simp only [h_v426, h_v163]
    try rw [h_v426]
    try rw [h_v163]
    try rfl

end Cert.Lines

end
-- ==== Proof.Piece44.lean ====
/-
  Piece 44 of the two programs, from any contents that agree where the piece reads.

  The kernel program's piece is the host operations `hostOps12_4` and region 12, as its operation ((X · W + B)⁺); the reference's is operations 562 … 568 of its
  @main.  Apart from the layer the two are the same operations on corresponding buffers, and the layer — on the host a `dot_general`, the bias broadcast over the rows and added, the maximum with zero — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 44. -/
abbrev rpiece44 : List (HloOp Cert.ReferenceIdeal.τ Cert.ReferenceIdeal.sig (Elt Ideal)) :=
  ((Cert.ReferenceIdeal.ValueP.ops (F := Ideal)).drop 562).take 7

set_option maxHeartbeats 40000000 in
theorem piece44 (K : Valuation Cert.KernelIdeal.τ Cert.KernelIdeal.sig (Elt Ideal)) (R : Valuation Cert.ReferenceIdeal.τ Cert.ReferenceIdeal.sig (Elt Ideal))
    (h_arg27 : K (Proc.devRef .tc Cert.KernelIdeal.main_arg27) = R (Proc.devRef .tc Cert.ReferenceIdeal.main_arg27))
    (h_v427 : K (Proc.devRef .tc Cert.KernelIdeal.main_v427) = R (Proc.devRef .tc Cert.ReferenceIdeal.main_v421))
    (h_arg26 : K (Proc.devRef .tc Cert.KernelIdeal.main_arg26) = R (Proc.devRef .tc Cert.ReferenceIdeal.main_arg26))
    (h_v163 : K (Proc.devRef .tc Cert.KernelIdeal.main_v163) = R (Proc.devRef .tc Cert.ReferenceIdeal.main_v162)) :
    (after (Cert.KernelIdeal.Gen.hostOps12_4 ++ [Cert.KernelIdeal.Dense.dop12]) K (Proc.devRef .tc Cert.KernelIdeal.main_v429) = after rpiece44 R (Proc.devRef .tc Cert.ReferenceIdeal.main_v426))
    ∧ (after (Cert.KernelIdeal.Gen.hostOps12_4 ++ [Cert.KernelIdeal.Dense.dop12]) K (Proc.devRef .tc Cert.KernelIdeal.main_v163) = after rpiece44 R (Proc.devRef .tc Cert.ReferenceIdeal.main_v162)) := by
  simp only [Cert.KernelIdeal.Dense.dop12, Cert.KernelIdeal.Gen.hostOps12_4, List.cons_append, List.nil_append, rpiece44, Cert.ReferenceIdeal.ValueP.ops]
  cut_list
  refine ⟨?_, ?_⟩
  · host_read
    try simp only [h_arg27, h_v427, h_arg26, h_v163]
    try rw [h_arg27]
    try rw [h_v427]
    try rw [h_arg26]
    try rw [h_v163]
    exact (host_dense_relu Cert.ReferenceIdeal.dot_S2000x128_S128x1024_S2000x1024_1_0_0_1_n_n rfl _ _ _ _ _ _ _ _).symm
  · host_read
    try simp only [h_arg27, h_v427, h_arg26, h_v163]
    try rw [h_arg27]
    try rw [h_v427]
    try rw [h_arg26]
    try rw [h_v163]
    try rfl

end Cert.Lines

end
-- ==== Proof.Piece45.lean ====
/-
  Piece 45 of the two programs, from any contents that agree where the piece reads.

  The kernel program's piece is the host operations `hostOps13` and region 13, as its operation (X · W + B); the reference's is operations 569 … 572 of its
  @main.  Apart from the layer the two are the same operations on corresponding buffers, and the layer — on the host a `dot_general`, the bias broadcast over the rows and added — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 45. -/
abbrev rpiece45 : List (HloOp Cert.ReferenceIdeal.τ Cert.ReferenceIdeal.sig (Elt Ideal)) :=
  ((Cert.ReferenceIdeal.ValueP.ops (F := Ideal)).drop 569).take 4

set_option maxHeartbeats 40000000 in
theorem piece45 (K : Valuation Cert.KernelIdeal.τ Cert.KernelIdeal.sig (Elt Ideal)) (R : Valuation Cert.ReferenceIdeal.τ Cert.ReferenceIdeal.sig (Elt Ideal))
    (h_arg29 : K (Proc.devRef .tc Cert.KernelIdeal.main_arg29) = R (Proc.devRef .tc Cert.ReferenceIdeal.main_arg29))
    (h_v429 : K (Proc.devRef .tc Cert.KernelIdeal.main_v429) = R (Proc.devRef .tc Cert.ReferenceIdeal.main_v426))
    (h_arg28 : K (Proc.devRef .tc Cert.KernelIdeal.main_arg28) = R (Proc.devRef .tc Cert.ReferenceIdeal.main_arg28))
    (h_v163 : K (Proc.devRef .tc Cert.KernelIdeal.main_v163) = R (Proc.devRef .tc Cert.ReferenceIdeal.main_v162)) :
    (after (Cert.KernelIdeal.Gen.hostOps13 ++ [Cert.KernelIdeal.Dense.dop13]) K (Proc.devRef .tc Cert.KernelIdeal.main_v431) = after rpiece45 R (Proc.devRef .tc Cert.ReferenceIdeal.main_v430))
    ∧ (after (Cert.KernelIdeal.Gen.hostOps13 ++ [Cert.KernelIdeal.Dense.dop13]) K (Proc.devRef .tc Cert.KernelIdeal.main_v163) = after rpiece45 R (Proc.devRef .tc Cert.ReferenceIdeal.main_v162)) := by
  simp only [Cert.KernelIdeal.Dense.dop13, Cert.KernelIdeal.Gen.hostOps13, List.cons_append, List.nil_append, rpiece45, Cert.ReferenceIdeal.ValueP.ops]
  cut_list
  refine ⟨?_, ?_⟩
  · host_read
    try simp only [h_arg29, h_v429, h_arg28, h_v163]
    try rw [h_arg29]
    try rw [h_v429]
    try rw [h_arg28]
    try rw [h_v163]
    exact (host_dense Cert.ReferenceIdeal.dot_S2000x1024_S1024x128_S2000x128_1_0_0_1_n_n rfl _ _ _ _ _ _).symm
  · host_read
    try simp only [h_arg29, h_v429, h_arg28, h_v163]
    try rw [h_arg29]
    try rw [h_v429]
    try rw [h_arg28]
    try rw [h_v163]
    try rfl

end Cert.Lines

end
-- ==== Proof.Piece46.lean ====
/-
  Piece 46 of the two programs, from any contents that agree where the piece reads.

  The kernel program's piece is the host operations `hostOps14` and region 14, as its operation ((X · W + B)⁺); the reference's is operations 573 … 589 of its
  @main.  Apart from the layer the two are the same operations on corresponding buffers, and the layer — on the host a `dot_general`, the bias broadcast over the rows and added, the maximum with zero — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 46. -/
abbrev rpiece46 : List (HloOp Cert.ReferenceIdeal.τ Cert.ReferenceIdeal.sig (Elt Ideal)) :=
  ((Cert.ReferenceIdeal.ValueP.ops (F := Ideal)).drop 573).take 17

set_option maxHeartbeats 40000000 in
theorem piece46 (K : Valuation Cert.KernelIdeal.τ Cert.KernelIdeal.sig (Elt Ideal)) (R : Valuation Cert.ReferenceIdeal.τ Cert.ReferenceIdeal.sig (Elt Ideal))
    (h_arg41 : K (Proc.devRef .tc Cert.KernelIdeal.main_arg41) = R (Proc.devRef .tc Cert.ReferenceIdeal.main_arg41))
    (h_v431 : K (Proc.devRef .tc Cert.KernelIdeal.main_v431) = R (Proc.devRef .tc Cert.ReferenceIdeal.main_v430))
    (h_v163 : K (Proc.devRef .tc Cert.KernelIdeal.main_v163) = R (Proc.devRef .tc Cert.ReferenceIdeal.main_v162))
    (h_arg31 : K (Proc.devRef .tc Cert.KernelIdeal.main_arg31) = R (Proc.devRef .tc Cert.ReferenceIdeal.main_arg31))
    (h_arg30 : K (Proc.devRef .tc Cert.KernelIdeal.main_arg30) = R (Proc.devRef .tc Cert.ReferenceIdeal.main_arg30)) :
    (after (Cert.KernelIdeal.Gen.hostOps14 ++ [Cert.KernelIdeal.Dense.dop14]) K (Proc.devRef .tc Cert.KernelIdeal.main_v441) = after rpiece46 R (Proc.devRef .tc Cert.ReferenceIdeal.main_v443)) := by
  simp only [Cert.KernelIdeal.Dense.dop14, Cert.KernelIdeal.Gen.hostOps14, List.cons_append, List.nil_append, rpiece46, Cert.ReferenceIdeal.ValueP.ops]
  cut_list
  host_read
  try simp only [h_arg41, h_v431, h_v163, h_arg31, h_arg30]
  try rw [h_arg41]
  try rw [h_v431]
  try rw [h_v163]
  try rw [h_arg31]
  try rw [h_arg30]
  exact (host_dense_relu Cert.ReferenceIdeal.dot_S2048x256_S256x1024_S2048x1024_1_0_0_1_n_n rfl _ _ _ _ _ _ _ _).symm

end Cert.Lines

end
-- ==== Proof.Piece47.lean ====
/-
  Piece 47 of the two programs, from any contents that agree where the piece reads.

  The kernel program's piece is the host operations `hostOps15` and region 15, as its operation ((X · W + B)⁺); the reference's is operations 590 … 596 of its
  @main.  Apart from the layer the two are the same operations on corresponding buffers, and the layer — on the host a `dot_general`, the bias broadcast over the rows and added, the maximum with zero — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 47. -/
abbrev rpiece47 : List (HloOp Cert.ReferenceIdeal.τ Cert.ReferenceIdeal.sig (Elt Ideal)) :=
  ((Cert.ReferenceIdeal.ValueP.ops (F := Ideal)).drop 590).take 7

set_option maxHeartbeats 40000000 in
theorem piece47 (K : Valuation Cert.KernelIdeal.τ Cert.KernelIdeal.sig (Elt Ideal)) (R : Valuation Cert.ReferenceIdeal.τ Cert.ReferenceIdeal.sig (Elt Ideal))
    (h_arg33 : K (Proc.devRef .tc Cert.KernelIdeal.main_arg33) = R (Proc.devRef .tc Cert.ReferenceIdeal.main_arg33))
    (h_v441 : K (Proc.devRef .tc Cert.KernelIdeal.main_v441) = R (Proc.devRef .tc Cert.ReferenceIdeal.main_v443))
    (h_arg32 : K (Proc.devRef .tc Cert.KernelIdeal.main_arg32) = R (Proc.devRef .tc Cert.ReferenceIdeal.main_arg32)) :
    (after (Cert.KernelIdeal.Gen.hostOps15 ++ [Cert.KernelIdeal.Dense.dop15]) K (Proc.devRef .tc Cert.KernelIdeal.main_v443) = after rpiece47 R (Proc.devRef .tc Cert.ReferenceIdeal.main_v448)) := by
  simp only [Cert.KernelIdeal.Dense.dop15, Cert.KernelIdeal.Gen.hostOps15, List.cons_append, List.nil_append, rpiece47, Cert.ReferenceIdeal.ValueP.ops]
  cut_list
  host_read
  try simp only [h_arg33, h_v441, h_arg32]
  try rw [h_arg33]
  try rw [h_v441]
  try rw [h_arg32]
  exact (host_dense_relu Cert.ReferenceIdeal.dot_S2048x1024_S1024x512_S2048x512_1_0_0_1_n_n rfl _ _ _ _ _ _ _ _).symm

end Cert.Lines

end
-- ==== Proof.Piece48.lean ====
/-
  Piece 48 of the two programs, from any contents that agree where the piece reads.

  The kernel program's piece is the host operations `hostOps16` and region 16, as its operation (X · W + B); the reference's is operations 597 … 600 of its
  @main.  Apart from the layer the two are the same operations on corresponding buffers, and the layer — on the host a `dot_general`, the bias broadcast over the rows and added — is the region's function of the same arrays.  The pieces are cut after every value that later operations read several
  times, so that each piece reads such a value as one buffer.  If the two programs' buffers agree at what the piece
  reads, they agree after it at what it leaves for later.
-/
import proofs.«153485_j59545426592079_1_alg».proof.Proof.DenseOps
import proofs.«153485_j59545426592079_1_alg».proof.Proof.RefOps
import proofs.«153485_j59545426592079_1_alg».proof.Proof.LibHostBoth

set_option maxRecDepth 16384

noncomputable section

namespace Cert.Lines

open Idealize.ShloMosaic Idealize.ShloMosaic.TcCoe Idealize.ShloMosaic.StableHlo Cert.Spec Cert.LibDenseBody Cert.LibHostBoth

/-- The reference's piece 48. -/
abbrev rpiece48 : List (HloOp Cert.ReferenceIdeal.τ Cert.ReferenceIdeal.sig (Elt Ideal)) :=
  ((Cert.ReferenceIdeal.ValueP.ops (F := Ideal)).drop 597).take 4

set_option maxHeartbeats 40000000 in
theorem piece48 (K : Valuation Cert.KernelIdeal.τ Cert.KernelIdeal.sig (Elt Ideal)) (R : Valuation Cert.ReferenceIdeal.τ Cert.ReferenceIdeal.sig (Elt Ideal))
    (h_arg35 : K (Proc.devRef .tc Cert.KernelIdeal.main_arg35) = R (Proc.devRef .tc Cert.ReferenceIdeal.main_arg35))
    (h_v443 : K (Proc.devRef .tc Cert.KernelIdeal.main_v443) = R (Proc.devRef .tc Cert.ReferenceIdeal.main_v448))
    (h_arg34 : K (Proc.devRef .tc Cert.KernelIdeal.main_arg34) = R (Proc.devRef .tc Cert.ReferenceIdeal.main_arg34)) :
    (after (Cert.KernelIdeal.Gen.hostOps16 ++ [Cert.KernelIdeal.Dense.dop16]) K (Proc.devRef .tc Cert.KernelIdeal.main_v445) = after rpiece48 R (Proc.devRef .tc Cert.ReferenceIdeal.main_v452)) := by
  simp only [Cert.KernelIdeal.Dense.dop16, Cert.KernelIdeal.Gen.hostOps16, List.cons_append, List.nil_append, rpiece48, Cert.ReferenceIdeal.ValueP.ops]
  cut_list
  host_read
  try simp only [h_arg35, h_v443, h_arg34]
  try rw [h_arg35]
  try rw [h_v443]
  try rw [h_arg34]
  exact (host_dense Cert.ReferenceIdeal.dot_S2048x512_S512x1_S2048x1_1_0_0_1_n_n rfl _ _ _ _ _ _).symm

end Cert.Lines

end
-- ==== Proof.KeepR.lean ====
/-
  The reference never writes an argument: its arguments are its first 42 references and each of its 601 operations
  writes a later one.  So after any number of its operations each argument's buffer holds its launch contents.
-/
import proofs.«153485_j59545426592079_1_alg».proof.Proof.RefOps
import Idealize.ShloMosaic.PureOps.Ideal
import proofs.«153485_j59545426592079_1_alg».proof.Proof.LibRegionOp

set_option maxRecDepth 16384

noncomputable section

namespace Cert.ReferenceIdeal.Kept

open Idealize.ShloMosaic Idealize.ShloMosaic.TcCoe Idealize.ShloMosaic.StableHlo Cert.ReferenceIdeal Cert.ReferenceIdeal.ValueP Cert.LibRegionOp

set_option maxHeartbeats 4000000 in
theorem not_written (r : Ref sig .tc) (hr : r.idx.val < 42) :
    ∀ op ∈ (ops : List (HloOp τ sig (Elt Ideal))), Proc.devRef .tc r ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (ne_of_idx_lt hr (by decide)))

/-- After the first n operations an argument holds what it held at the launch. -/
theorem kept (V : Valuation τ sig (Elt Ideal)) (n : ℕ) (r : Ref sig .tc) (hr : r.idx.val < 42) :
    after ((ops : List (HloOp τ sig (Elt Ideal))).take n) V (Proc.devRef .tc r) = V (Proc.devRef .tc r) :=
  after_of_forall_not_mem _ _ fun op hop => not_written r hr op (List.mem_of_mem_take hop)

/-- And after all of them. -/
theorem kept_all (V : Valuation τ sig (Elt Ideal)) (r : Ref sig .tc) (hr : r.idx.val < 42) :
    after (ops : List (HloOp τ sig (Elt Ideal))) V (Proc.devRef .tc r) = V (Proc.devRef .tc r) :=
  after_of_forall_not_mem _ _ (not_written r hr)

end Cert.ReferenceIdeal.Kept

end
-- ==== Proof.LibFoldCuts.lean ====
/-
  Cutting a straight line of host operations.

  The contents of the buffers after a line of operations are a left fold over the line, so the contents after two lines
  in a row are the second line's fold over the first's, and the contents after the first a + b operations of a line are
  the fold of the next b operations over the contents after the first a. A buffer that none of those next operations
  writes holds after them what it held before.
-/
import Idealize.ShloMosaic.Lib.StableHlo.Run

namespace Cert.FoldCuts

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The first a + b operations: the next b after the first a. -/
theorem after_take_add (l : List (HloOp τ sig Val)) (a b : ℕ) (V : Valuation τ sig Val) :
    after (l.take (a + b)) V = after ((l.drop a).take b) (after (l.take a) V) := by
  rw [List.take_add, after_append]

/-- A buffer that the operations from the a-th to the (a + b)-th do not write is, after the first a + b operations,
    as after the first a. -/
theorem after_take_add_keep (l : List (HloOp τ sig Val)) (a b : ℕ) (V : Valuation τ sig Val) (r : DevRef τ sig)
    (h : ∀ op ∈ (l.drop a).take b, r ∉ op.writes) :
    after (l.take (a + b)) V r = after (l.take a) V r := by
  rw [after_take_add]; exact after_of_forall_not_mem _ _ h

end Cert.FoldCuts
-- ==== Proof.Chain.lean ====
/-
  The two programs piece by piece.

  The kernel program's buffers at each segment boundary are the next piece run from the buffers at the boundary before
  (a region acts as its host operation), and the reference's buffers after its first n operations are its next piece
  run from the buffers after the piece before.  An argument is never written on either side, so at every joint it
  holds its launch contents, which the two launches share.  Piece by piece, from agreeing arguments: after piece i the
  two programs agree at what the later pieces read — a layer's output, and the index arrays, the normalisation
  vector and the pooled array still in use.  After the last piece the kernel program's result array is the reference's.
-/
import proofs.«153485_j59545426592079_1_alg».proof.Proof.Region0
import proofs.«153485_j59545426592079_1_alg».proof.Proof.Region1
import proofs.«153485_j59545426592079_1_alg».proof.Proof.Region2
import proofs.«153485_j59545426592079_1_alg».proof.Proof.Region3
import proofs.«153485_j59545426592079_1_alg».proof.Proof.Region4
import proofs.«153485_j59545426592079_1_alg».proof.Proof.Region5
import proofs.«153485_j59545426592079_1_alg».proof.Proof.Region6
import proofs.«153485_j59545426592079_1_alg».proof.Proof.Region7
import proofs.«153485_j59545426592079_1_alg».proof.Proof.Region8
import proofs.«153485_j59545426592079_1_alg».proof.Proof.Region9
import proofs.«153485_j59545426592079_1_alg».proof.Proof.Region10
import proofs.«153485_j59545426592079_1_alg».proof.Proof.Region11
import proofs.«153485_j59545426592079_1_alg».proof.Proof.Region12
import proofs.«153485_j59545426592079_1_alg».proof.Proof.Region13
import proofs.«153485_j59545426592079_1_alg».proof.Proof.Region14
import proofs.«153485_j59545426592079_1_alg».proof.Proof.Region15
import proofs.«153485_j59545426592079_1_alg».proof.Proof.Region16
import proofs.«153485_j59545426592079_1_alg».proof.Proof.Piece0
import proofs.«153485_j59545426592079_1_alg».proof.Proof.Piece1
import proofs.«153485_j59545426592079_1_alg».proof.Proof.Piece2
import proofs.«153485_j59545426592079_1_alg».proof.Proof.Piece3
import proofs.«153485_j59545426592079_1_alg».proof.Proof.Piece4
import proofs.«153485_j59545426592079_1_alg».proof.Proof.Piece5
import proofs.«153485_j59545426592079_1_alg».proof.Proof.Piece6
import proofs.«153485_j59545426592079_1_alg».proof.Proof.Piece7
import proofs.«153485_j59545426592079_1_alg».proof.Proof.Piece8
import proofs.«153485_j59545426592079_1_alg».proof.Proof.Piece9
import proofs.«153485_j59545426592079_1_alg».proof.Proof.Piece10
import proofs.«153485_j59545426592079_1_alg».proof.Proof.Piece11
import proofs.«153485_j59545426592079_1_alg».proof.Proof.Piece12
import proofs.«153485_j59545426592079_1_alg».proof.Proof.Piece13
import proofs.«153485_j59545426592079_1_alg».proof.Proof.Piece14
import proofs.«153485_j59545426592079_1_alg».proof.Proof.Piece15
import proofs.«153485_j59545426592079_1_alg».proof.Proof.Piece16
import proofs.«153485_j59545426592079_1_alg».proof.Proof.Piece17
import proofs.«153485_j59545426592079_1_alg».proof.Proof.Piece18
import proofs.«153485_j59545426592079_1_alg».proof.Proof.Piece19
import proofs.«153485_j59545426592079_1_alg».proof.Proof.Piece20
import proofs.«153485_j59545426592079_1_alg».proof.Proof.Piece21
import proofs.«153485_j59545426592079_1_alg».proof.Proof.Piece22
import proofs.«153485_j59545426592079_1_alg».proof.Proof.Piece23
import proofs.«153485_j59545426592079_1_alg».proof.Proof.Piece24
import proofs.«153485_j59545426592079_1_alg».proof.Proof.Piece25
import proofs.«153485_j59545426592079_1_alg».proof.Proof.Piece26
import proofs.«153485_j59545426592079_1_alg».proof.Proof.Piece27
import proofs.«153485_j59545426592079_1_alg».proof.Proof.Piece28
import proofs.«153485_j59545426592079_1_alg».proof.Proof.Piece29
import proofs.«153485_j59545426592079_1_alg».proof.Proof.Piece30
import proofs.«153485_j59545426592079_1_alg».proof.Proof.Piece31
import proofs.«153485_j59545426592079_1_alg».proof.Proof.Piece32
import proofs.«153485_j59545426592079_1_alg».proof.Proof.Piece33
import proofs.«153485_j59545426592079_1_alg».proof.Proof.Piece34
import proofs.«153485_j59545426592079_1_alg».proof.Proof.Piece35
import proofs.«153485_j59545426592079_1_alg».proof.Proof.Piece36
import proofs.«153485_j59545426592079_1_alg».proof.Proof.Piece37
import proofs.«153485_j59545426592079_1_alg».proof.Proof.Piece38
import proofs.«153485_j59545426592079_1_alg».proof.Proof.Piece39
import proofs.«153485_j59545426592079_1_alg».proof.Proof.Piece40
import proofs.«153485_j59545426592079_1_alg».proof.Proof.Piece41
import proofs.«153485_j59545426592079_1_alg».proof.Proof.Piece42
import proofs.«153485_j59545426592079_1_alg».proof.Proof.Piece43
import proofs.«153485_j59545426592079_1_alg».proof.Proof.Piece44
import proofs.«153485_j59545426592079_1_alg».proof.Proof.Piece45
import proofs.«153485_j59545426592079_1_alg».proof.Proof.Piece46
import proofs.«153485_j59545426592079_1_alg».proof.Proof.Piece47
import proofs.«153485_j59545426592079_1_alg».proof.Proof.Piece48
import proofs.«153485_j59545426592079_1_alg».proof.Proof.KeepR
import proofs.«153485_j59545426592079_1_alg».proof.Proof.LibFoldCuts

set_option maxRecDepth 16384

noncomputable section

namespace Cert.Chain

open Idealize.ShloMosaic Idealize.ShloMosaic.TcCoe Idealize.ShloMosaic.StableHlo Idealize.SL.Sem
open Cert.KernelIdeal.Gen Cert.KernelIdeal.GenP Cert.KernelIdeal.Dense Cert.Lines

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- After the reference's first n operations an argument holds its launch contents. -/
theorem argR (n : ℕ) (r : Ref Cert.ReferenceIdeal.sig .tc) (hr : r.idx.val < 42) :
    after (List.take n (Cert.ReferenceIdeal.ValueP.ops (F := Ideal))) (StableHlo.launchContents m' c) (Proc.devRef .tc r) = m' ((c.tc : Thread Cert.ReferenceIdeal.nD Cert.ReferenceIdeal.τ).loc r) :=
  (Cert.ReferenceIdeal.Kept.kept _ n r hr).trans rfl

/-- The two launches share the arguments (each equation stated at the argument's own array type). -/
def Agree : Prop :=
      @Eq ((⟨Cert.KernelIdeal.S65536x78, .f32⟩ : BufTy).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq ((⟨Cert.KernelIdeal.S300000x33, .f32⟩ : BufTy).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq ((⟨Cert.KernelIdeal.S78x156, .f32⟩ : BufTy).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq ((⟨Cert.KernelIdeal.S156, .f32⟩ : BufTy).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq ((⟨Cert.KernelIdeal.S156x312, .f32⟩ : BufTy).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq ((⟨Cert.KernelIdeal.S312, .f32⟩ : BufTy).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq ((⟨Cert.KernelIdeal.S312x128, .f32⟩ : BufTy).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
      ∧ @Eq ((⟨Cert.KernelIdeal.S128, .f32⟩ : BufTy).Contents (Elt Ideal)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
      ∧ @Eq ((⟨Cert.KernelIdeal.S128x1024, .f32⟩ : BufTy).Contents (Elt Ideal)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
      ∧ @Eq ((⟨Cert.KernelIdeal.S1024, .f32⟩ : BufTy).Contents (Elt Ideal)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
      ∧ @Eq ((⟨Cert.KernelIdeal.S1024x128, .f32⟩ : BufTy).Contents (Elt Ideal)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
      ∧ @Eq ((⟨Cert.KernelIdeal.S128, .f32⟩ : BufTy).Contents (Elt Ideal)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
      ∧ @Eq ((⟨Cert.KernelIdeal.S33x128, .f32⟩ : BufTy).Contents (Elt Ideal)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
      ∧ @Eq ((⟨Cert.KernelIdeal.S128, .f32⟩ : BufTy).Contents (Elt Ideal)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
      ∧ @Eq ((⟨Cert.KernelIdeal.S128x128, .f32⟩ : BufTy).Contents (Elt Ideal)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
      ∧ @Eq ((⟨Cert.KernelIdeal.S128, .f32⟩ : BufTy).Contents (Elt Ideal)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
      ∧ @Eq ((⟨Cert.KernelIdeal.S128x128, .f32⟩ : BufTy).Contents (Elt Ideal)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
      ∧ @Eq ((⟨Cert.KernelIdeal.S128, .f32⟩ : BufTy).Contents (Elt Ideal)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
      ∧ @Eq ((⟨Cert.KernelIdeal.S128x1024, .f32⟩ : BufTy).Contents (Elt Ideal)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
      ∧ @Eq ((⟨Cert.KernelIdeal.S1024, .f32⟩ : BufTy).Contents (Elt Ideal)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
      ∧ @Eq ((⟨Cert.KernelIdeal.S1024x128, .f32⟩ : BufTy).Contents (Elt Ideal)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
      ∧ @Eq ((⟨Cert.KernelIdeal.S128, .f32⟩ : BufTy).Contents (Elt Ideal)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
      ∧ @Eq ((⟨Cert.KernelIdeal.S128x1024, .f32⟩ : BufTy).Contents (Elt Ideal)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
      ∧ @Eq ((⟨Cert.KernelIdeal.S1024, .f32⟩ : BufTy).Contents (Elt Ideal)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
      ∧ @Eq ((⟨Cert.KernelIdeal.S1024x128, .f32⟩ : BufTy).Contents (Elt Ideal)) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
      ∧ @Eq ((⟨Cert.KernelIdeal.S128, .f32⟩ : BufTy).Contents (Elt Ideal)) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))
      ∧ @Eq ((⟨Cert.KernelIdeal.S128x1024, .f32⟩ : BufTy).Contents (Elt Ideal)) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg26))
      ∧ @Eq ((⟨Cert.KernelIdeal.S1024, .f32⟩ : BufTy).Contents (Elt Ideal)) (m' ((c.tc : Thread Cert.ReferenceIdeal.nD Cert.ReferenceIdeal.τ).loc Cert.ReferenceIdeal.main_arg27)) (m ((c.tc : Thread Cert.KernelIdeal.nD Cert.KernelIdeal.τ).loc Cert.KernelIdeal.main_arg27))
      ∧ @Eq ((⟨Cert.KernelIdeal.S1024x128, .f32⟩ : BufTy).Contents (Elt Ideal)) (m' ((c.tc : Thread Cert.ReferenceIdeal.nD Cert.ReferenceIdeal.τ).loc Cert.ReferenceIdeal.main_arg28)) (m ((c.tc : Thread Cert.KernelIdeal.nD Cert.KernelIdeal.τ).loc Cert.KernelIdeal.main_arg28))
      ∧ @Eq ((⟨Cert.KernelIdeal.S128, .f32⟩ : BufTy).Contents (Elt Ideal)) (m' ((c.tc : Thread Cert.ReferenceIdeal.nD Cert.ReferenceIdeal.τ).loc Cert.ReferenceIdeal.main_arg29)) (m ((c.tc : Thread Cert.KernelIdeal.nD Cert.KernelIdeal.τ).loc Cert.KernelIdeal.main_arg29))
      ∧ @Eq ((⟨Cert.KernelIdeal.S256x1024, .f32⟩ : BufTy).Contents (Elt Ideal)) (m' ((c.tc : Thread Cert.ReferenceIdeal.nD Cert.ReferenceIdeal.τ).loc Cert.ReferenceIdeal.main_arg30)) (m ((c.tc : Thread Cert.KernelIdeal.nD Cert.KernelIdeal.τ).loc Cert.KernelIdeal.main_arg30))
      ∧ @Eq ((⟨Cert.KernelIdeal.S1024, .f32⟩ : BufTy).Contents (Elt Ideal)) (m' ((c.tc : Thread Cert.ReferenceIdeal.nD Cert.ReferenceIdeal.τ).loc Cert.ReferenceIdeal.main_arg31)) (m ((c.tc : Thread Cert.KernelIdeal.nD Cert.KernelIdeal.τ).loc Cert.KernelIdeal.main_arg31))
      ∧ @Eq ((⟨Cert.KernelIdeal.S1024x512, .f32⟩ : BufTy).Contents (Elt Ideal)) (m' ((c.tc : Thread Cert.ReferenceIdeal.nD Cert.ReferenceIdeal.τ).loc Cert.ReferenceIdeal.main_arg32)) (m ((c.tc : Thread Cert.KernelIdeal.nD Cert.KernelIdeal.τ).loc Cert.KernelIdeal.main_arg32))
      ∧ @Eq ((⟨Cert.KernelIdeal.S512, .f32⟩ : BufTy).Contents (Elt Ideal)) (m' ((c.tc : Thread Cert.ReferenceIdeal.nD Cert.ReferenceIdeal.τ).loc Cert.ReferenceIdeal.main_arg33)) (m ((c.tc : Thread Cert.KernelIdeal.nD Cert.KernelIdeal.τ).loc Cert.KernelIdeal.main_arg33))
      ∧ @Eq ((⟨Cert.KernelIdeal.S512x1, .f32⟩ : BufTy).Contents (Elt Ideal)) (m' ((c.tc : Thread Cert.ReferenceIdeal.nD Cert.ReferenceIdeal.τ).loc Cert.ReferenceIdeal.main_arg34)) (m ((c.tc : Thread Cert.KernelIdeal.nD Cert.KernelIdeal.τ).loc Cert.KernelIdeal.main_arg34))
      ∧ @Eq ((⟨Cert.KernelIdeal.S1, .f32⟩ : BufTy).Contents (Elt Ideal)) (m' ((c.tc : Thread Cert.ReferenceIdeal.nD Cert.ReferenceIdeal.τ).loc Cert.ReferenceIdeal.main_arg35)) (m ((c.tc : Thread Cert.KernelIdeal.nD Cert.KernelIdeal.τ).loc Cert.KernelIdeal.main_arg35))
      ∧ @Eq ((⟨Cert.KernelIdeal.S2x131072, .i32⟩ : BufTy).Contents (Elt Ideal)) (m' ((c.tc : Thread Cert.ReferenceIdeal.nD Cert.ReferenceIdeal.τ).loc Cert.ReferenceIdeal.main_arg36)) (m ((c.tc : Thread Cert.KernelIdeal.nD Cert.KernelIdeal.τ).loc Cert.KernelIdeal.main_arg36))
      ∧ @Eq ((⟨Cert.KernelIdeal.S65536, .i32⟩ : BufTy).Contents (Elt Ideal)) (m' ((c.tc : Thread Cert.ReferenceIdeal.nD Cert.ReferenceIdeal.τ).loc Cert.ReferenceIdeal.main_arg37)) (m ((c.tc : Thread Cert.KernelIdeal.nD Cert.KernelIdeal.τ).loc Cert.KernelIdeal.main_arg37))
      ∧ @Eq ((⟨Cert.KernelIdeal.S2x1200000, .i32⟩ : BufTy).Contents (Elt Ideal)) (m' ((c.tc : Thread Cert.ReferenceIdeal.nD Cert.ReferenceIdeal.τ).loc Cert.ReferenceIdeal.main_arg38)) (m ((c.tc : Thread Cert.KernelIdeal.nD Cert.KernelIdeal.τ).loc Cert.KernelIdeal.main_arg38))
      ∧ @Eq ((⟨Cert.KernelIdeal.S300000, .i32⟩ : BufTy).Contents (Elt Ideal)) (m' ((c.tc : Thread Cert.ReferenceIdeal.nD Cert.ReferenceIdeal.τ).loc Cert.ReferenceIdeal.main_arg39)) (m ((c.tc : Thread Cert.KernelIdeal.nD Cert.KernelIdeal.τ).loc Cert.KernelIdeal.main_arg39))
      ∧ @Eq ((⟨Cert.KernelIdeal.S2x64000, .i32⟩ : BufTy).Contents (Elt Ideal)) (m' ((c.tc : Thread Cert.ReferenceIdeal.nD Cert.ReferenceIdeal.τ).loc Cert.ReferenceIdeal.main_arg40)) (m ((c.tc : Thread Cert.KernelIdeal.nD Cert.KernelIdeal.τ).loc Cert.KernelIdeal.main_arg40))
      ∧ @Eq ((⟨Cert.KernelIdeal.S2048, .i32⟩ : BufTy).Contents (Elt Ideal)) (m' ((c.tc : Thread Cert.ReferenceIdeal.nD Cert.ReferenceIdeal.τ).loc Cert.ReferenceIdeal.main_arg41)) (m ((c.tc : Thread Cert.KernelIdeal.nD Cert.KernelIdeal.τ).loc Cert.KernelIdeal.main_arg41))

/-! ## The joints: the kernel program's boundary after each piece, and what the two programs agree on there

Every equation between a buffer of the kernel program and a buffer of the reference is stated at the buffer's literal
array type, so that each side is only ever compared with a literal within its own program. -/

theorem K0 : W2 m ρ c = after (Cert.KernelIdeal.Gen.hostOps0 ++ [Cert.KernelIdeal.Dense.dop0]) (W0 m ρ c) := by
  simp only [Cert.FoldCuts.after_append]
  exact region0 m ρ c

theorem I0 (hag : Agree m m' c) :
    (@Eq ((⟨Cert.KernelIdeal.S65536x156, .f32⟩ : BufTy).Contents (Elt Ideal)) (W2 m ρ c (Proc.devRef .tc Cert.KernelIdeal.main_v6)) ((after (List.take 5 (Cert.ReferenceIdeal.ValueP.ops (F := Ideal))) (StableHlo.launchContents m' c)) (Proc.devRef .tc Cert.ReferenceIdeal.main_v4)))
    ∧ (@Eq ((⟨Cert.KernelIdeal.S131072, .i32⟩ : BufTy).Contents (Elt Ideal)) (W2 m ρ c (Proc.devRef .tc Cert.KernelIdeal.main_v1)) ((after (List.take 5 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W2 m ρ c (Proc.devRef .tc Cert.KernelIdeal.main_v3)) ((after (List.take 5 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have hR : after (List.take 5 (Cert.ReferenceIdeal.ValueP.ops (F := Ideal))) (StableHlo.launchContents m' c) = after rpiece0 (after (List.take 0 (Cert.ReferenceIdeal.ValueP.ops (F := Ideal))) (StableHlo.launchContents m' c)) :=
    Cert.FoldCuts.after_take_add (Cert.ReferenceIdeal.ValueP.ops (F := Ideal)) 0 5 (StableHlo.launchContents m' c)
  obtain ⟨q0, q1, q2⟩ := piece0 (W0 m ρ c) (after (List.take 0 (Cert.ReferenceIdeal.ValueP.ops (F := Ideal))) (StableHlo.launchContents m' c)) (@Eq.trans ((⟨Cert.KernelIdeal.S2x131072, .i32⟩ : BufTy).Contents (Elt Ideal)) _ _ _ (rfl : W0 m ρ c (Proc.devRef .tc Cert.KernelIdeal.main_arg36) = m ((c.tc : Thread Cert.KernelIdeal.nD Cert.KernelIdeal.τ).loc Cert.KernelIdeal.main_arg36)) (@Eq.trans ((⟨Cert.KernelIdeal.S2x131072, .i32⟩ : BufTy).Contents (Elt Ideal)) _ _ _ a36.symm (argR m' c 0 Cert.ReferenceIdeal.main_arg36 (by decide)).symm))
    (@Eq.trans ((⟨Cert.KernelIdeal.S65536x78, .f32⟩ : BufTy).Contents (Elt Ideal)) _ _ _ (rfl : W0 m ρ c (Proc.devRef .tc Cert.KernelIdeal.main_arg0) = m ((c.tc : Thread Cert.KernelIdeal.nD Cert.KernelIdeal.τ).loc Cert.KernelIdeal.main_arg0)) (@Eq.trans ((⟨Cert.KernelIdeal.S65536x78, .f32⟩ : BufTy).Contents (Elt Ideal)) _ _ _ a0.symm (argR m' c 0 Cert.ReferenceIdeal.main_arg0 (by decide)).symm))
    (@Eq.trans ((⟨Cert.KernelIdeal.S78x156, .f32⟩ : BufTy).Contents (Elt Ideal)) _ _ _ (rfl : W0 m ρ c (Proc.devRef .tc Cert.KernelIdeal.main_arg2) = m ((c.tc : Thread Cert.KernelIdeal.nD Cert.KernelIdeal.τ).loc Cert.KernelIdeal.main_arg2)) (@Eq.trans ((⟨Cert.KernelIdeal.S78x156, .f32⟩ : BufTy).Contents (Elt Ideal)) _ _ _ a2.symm (argR m' c 0 Cert.ReferenceIdeal.main_arg2 (by decide)).symm))
  exact ⟨@Eq.trans ((⟨Cert.KernelIdeal.S65536x156, .f32⟩ : BufTy).Contents (Elt Ideal)) _ _ _ (congrFun (K0 m ρ c) _) (@Eq.trans ((⟨Cert.KernelIdeal.S65536x156, .f32⟩ : BufTy).Contents (Elt Ideal)) _ _ _ q0 (congrFun hR _).symm),
    @Eq.trans ((⟨Cert.KernelIdeal.S131072, .i32⟩ : BufTy).Contents (Elt Ideal)) _ _ _ (congrFun (K0 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K0 m ρ c) _) (@Eq.trans ((⟨Cert.KernelIdeal.S131072, .i32⟩ : BufTy).Contents (Elt Ideal)) _ _ _ q2 (congrFun hR _).symm)⟩

theorem K1 : W3 m ρ c = after Cert.KernelIdeal.Gen.hostOps1 (W2 m ρ c) := rfl

theorem I1 (hag : Agree m m' c) :
    (@Eq ((⟨Cert.KernelIdeal.S_, .f32⟩ : BufTy).Contents (Elt Ideal)) (W3 m ρ c (Proc.devRef .tc Cert.KernelIdeal.main_cst_4)) ((after (List.take 22 (Cert.ReferenceIdeal.ValueP.ops (F := Ideal))) (StableHlo.launchContents m' c)) (Proc.devRef .tc Cert.ReferenceIdeal.main_cst_3)))
    ∧ (@Eq ((⟨Cert.KernelIdeal.S65536, .i1⟩ : BufTy).Contents (Elt Ideal)) (W3 m ρ c (Proc.devRef .tc Cert.KernelIdeal.main_v15)) ((after (List.take 22 (Cert.ReferenceIdeal.ValueP.ops (F := Ideal))) (StableHlo.launchContents m' c)) (Proc.devRef .tc Cert.ReferenceIdeal.main_v13)))
    ∧ (@Eq ((⟨Cert.KernelIdeal.S65536, .f32⟩ : BufTy).Contents (Elt Ideal)) (W3 m ρ c (Proc.devRef .tc Cert.KernelIdeal.main_v18)) ((after (List.take 22 (Cert.ReferenceIdeal.ValueP.ops (F := Ideal))) (StableHlo.launchContents m' c)) (Proc.devRef .tc Cert.ReferenceIdeal.main_v16)))
    ∧ (@Eq ((⟨Cert.KernelIdeal.S196608, .i32⟩ : BufTy).Contents (Elt Ideal)) (W3 m ρ c (Proc.devRef .tc Cert.KernelIdeal.main_v8)) ((after (List.take 22 (Cert.ReferenceIdeal.ValueP.ops (F := Ideal))) (StableHlo.launchContents m' c)) (Proc.devRef .tc Cert.ReferenceIdeal.main_v6)))
    ∧ (@Eq ((⟨Cert.KernelIdeal.S65536x156, .f32⟩ : BufTy).Contents (Elt Ideal)) (W3 m ρ c (Proc.devRef .tc Cert.KernelIdeal.main_v6)) ((after (List.take 22 (Cert.ReferenceIdeal.ValueP.ops (F := Ideal))) (StableHlo.launchContents m' c)) (Proc.devRef .tc Cert.ReferenceIdeal.main_v4)))
    ∧ (@Eq ((⟨Cert.KernelIdeal.S196608, .i32⟩ : BufTy).Contents (Elt Ideal)) (W3 m ρ c (Proc.devRef .tc Cert.KernelIdeal.main_v9)) ((after (List.take 22 (Cert.ReferenceIdeal.ValueP.ops (F := Ideal))) (StableHlo.launchContents m' c)) (Proc.devRef .tc Cert.ReferenceIdeal.main_v7)))
    ∧ (@Eq ((⟨Cert.KernelIdeal.S131072, .i32⟩ : BufTy).Contents (Elt Ideal)) (W3 m ρ c (Proc.devRef .tc Cert.KernelIdeal.main_v1)) ((after (List.take 22 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W3 m ρ c (Proc.devRef .tc Cert.KernelIdeal.main_v3)) ((after (List.take 22 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v6, i_v1, i_v3⟩ := I0 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 22 (Cert.ReferenceIdeal.ValueP.ops (F := Ideal))) (StableHlo.launchContents m' c) = after rpiece1 (after (List.take 5 (Cert.ReferenceIdeal.ValueP.ops (F := Ideal))) (StableHlo.launchContents m' c)) :=
    Cert.FoldCuts.after_take_add (Cert.ReferenceIdeal.ValueP.ops (F := Ideal)) 5 17 (StableHlo.launchContents m' c)
  obtain ⟨q0, q1, q2, q3, q4, q5, q6, q7⟩ := piece1 (W2 m ρ c) (after (List.take 5 (Cert.ReferenceIdeal.ValueP.ops (F := Ideal))) (StableHlo.launchContents m' c)) i_v1
    i_v3
    i_v6
  exact ⟨@Eq.trans ((⟨Cert.KernelIdeal.S_, .f32⟩ : BufTy).Contents (Elt Ideal)) _ _ _ (congrFun (K1 m ρ c) _) (@Eq.trans ((⟨Cert.KernelIdeal.S_, .f32⟩ : BufTy).Contents (Elt Ideal)) _ _ _ q0 (congrFun hR _).symm),
    @Eq.trans ((⟨Cert.KernelIdeal.S65536, .i1⟩ : BufTy).Contents (Elt Ideal)) _ _ _ (congrFun (K1 m ρ c) _) (@Eq.trans ((⟨Cert.KernelIdeal.S65536, .i1⟩ : BufTy).Contents (Elt Ideal)) _ _ _ q1 (congrFun hR _).symm),
    @Eq.trans ((⟨Cert.KernelIdeal.S65536, .f32⟩ : BufTy).Contents (Elt Ideal)) _ _ _ (congrFun (K1 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K1 m ρ c) _) (@Eq.trans ((⟨Cert.KernelIdeal.S196608, .i32⟩ : BufTy).Contents (Elt Ideal)) _ _ _ q3 (congrFun hR _).symm),
    @Eq.trans ((⟨Cert.KernelIdeal.S65536x156, .f32⟩ : BufTy).Contents (Elt Ideal)) _ _ _ (congrFun (K1 m ρ c) _) (@Eq.trans ((⟨Cert.KernelIdeal.S65536x156, .f32⟩ : BufTy).Contents (Elt Ideal)) _ _ _ q4 (congrFun hR _).symm),
    @Eq.trans ((⟨Cert.KernelIdeal.S196608, .i32⟩ : BufTy).Contents (Elt Ideal)) _ _ _ (congrFun (K1 m ρ c) _) (@Eq.trans ((⟨Cert.KernelIdeal.S196608, .i32⟩ : BufTy).Contents (Elt Ideal)) _ _ _ q5 (congrFun hR _).symm),
    @Eq.trans ((⟨Cert.KernelIdeal.S131072, .i32⟩ : BufTy).Contents (Elt Ideal)) _ _ _ (congrFun (K1 m ρ c) _) (@Eq.trans ((⟨Cert.KernelIdeal.S131072, .i32⟩ : BufTy).Contents (Elt Ideal)) _ _ _ q6 (congrFun hR _).symm),
    @Eq.trans ((⟨Cert.KernelIdeal.S131072, .i32⟩ : BufTy).Contents (Elt Ideal)) _ _ _ (congrFun (K1 m ρ c) _) (@Eq.trans ((⟨Cert.KernelIdeal.S131072, .i32⟩ : BufTy).Contents (Elt Ideal)) _ _ _ q7 (congrFun hR _).symm)⟩

theorem K2 : W4 m ρ c = after Cert.KernelIdeal.Gen.hostOps1_1 (W3 m ρ c) := rfl

theorem I2 (hag : Agree m m' c) :
    (@Eq ((⟨Cert.KernelIdeal.S196608, .i32⟩ : BufTy).Contents (Elt Ideal)) (W4 m ρ c (Proc.devRef .tc Cert.KernelIdeal.main_v8)) ((after (List.take 25 (Cert.ReferenceIdeal.ValueP.ops (F := Ideal))) (StableHlo.launchContents m' c)) (Proc.devRef .tc Cert.ReferenceIdeal.main_v6)))
    ∧ (@Eq ((⟨Cert.KernelIdeal.S65536x156, .f32⟩ : BufTy).Contents (Elt Ideal)) (W4 m ρ c (Proc.devRef .tc Cert.KernelIdeal.main_v6)) ((after (List.take 25 (Cert.ReferenceIdeal.ValueP.ops (F := Ideal))) (StableHlo.launchContents m' c)) (Proc.devRef .tc Cert.ReferenceIdeal.main_v4)))
    ∧ (@Eq ((⟨Cert.KernelIdeal.S65536, .f32⟩ : BufTy).Contents (Elt Ideal)) (W4 m ρ c (Proc.devRef .tc Cert.KernelIdeal.main_v19)) ((after (List.take 25 (Cert.ReferenceIdeal.ValueP.ops (F := Ideal))) (StableHlo.launchContents m' c)) (Proc.devRef .tc Cert.ReferenceIdeal.main_v17)))
    ∧ (@Eq ((⟨Cert.KernelIdeal.S196608, .i32⟩ : BufTy).Contents (Elt Ideal)) (W4 m ρ c (Proc.devRef .tc Cert.KernelIdeal.main_v9)) ((after (List.take 25 (Cert.ReferenceIdeal.ValueP.ops (F := Ideal))) (StableHlo.launchContents m' c)) (Proc.devRef .tc Cert.ReferenceIdeal.main_v7)))
    ∧ (@Eq ((⟨Cert.KernelIdeal.S131072, .i32⟩ : BufTy).Contents (Elt Ideal)) (W4 m ρ c (Proc.devRef .tc Cert.KernelIdeal.main_v1)) ((after (List.take 25 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W4 m ρ c (Proc.devRef .tc Cert.KernelIdeal.main_v3)) ((after (List.take 25 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_4, i_v15, i_v18, i_v8, i_v6, i_v9, i_v1, i_v3⟩ := I1 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 25 (Cert.ReferenceIdeal.ValueP.ops (F := Ideal))) (StableHlo.launchContents m' c) = after rpiece2 (after (List.take 22 (Cert.ReferenceIdeal.ValueP.ops (F := Ideal))) (StableHlo.launchContents m' c)) :=
    Cert.FoldCuts.after_take_add (Cert.ReferenceIdeal.ValueP.ops (F := Ideal)) 22 3 (StableHlo.launchContents m' c)
  obtain ⟨q0, q1, q2, q3, q4, q5⟩ := piece2 (W3 m ρ c) (after (List.take 22 (Cert.ReferenceIdeal.ValueP.ops (F := Ideal))) (StableHlo.launchContents m' c)) i_cst_4
    i_v15
    i_v18
    i_v8
    i_v6
    i_v9
    i_v1
    i_v3
  exact ⟨@Eq.trans ((⟨Cert.KernelIdeal.S196608, .i32⟩ : BufTy).Contents (Elt Ideal)) _ _ _ (congrFun (K2 m ρ c) _) (@Eq.trans ((⟨Cert.KernelIdeal.S196608, .i32⟩ : BufTy).Contents (Elt Ideal)) _ _ _ q0 (congrFun hR _).symm),
    @Eq.trans ((⟨Cert.KernelIdeal.S65536x156, .f32⟩ : BufTy).Contents (Elt Ideal)) _ _ _ (congrFun (K2 m ρ c) _) (@Eq.trans ((⟨Cert.KernelIdeal.S65536x156, .f32⟩ : BufTy).Contents (Elt Ideal)) _ _ _ q1 (congrFun hR _).symm),
    @Eq.trans ((⟨Cert.KernelIdeal.S65536, .f32⟩ : BufTy).Contents (Elt Ideal)) _ _ _ (congrFun (K2 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K2 m ρ c) _) (@Eq.trans ((⟨Cert.KernelIdeal.S196608, .i32⟩ : BufTy).Contents (Elt Ideal)) _ _ _ q3 (congrFun hR _).symm),
    @Eq.trans ((⟨Cert.KernelIdeal.S131072, .i32⟩ : BufTy).Contents (Elt Ideal)) _ _ _ (congrFun (K2 m ρ c) _) (@Eq.trans ((⟨Cert.KernelIdeal.S131072, .i32⟩ : BufTy).Contents (Elt Ideal)) _ _ _ q4 (congrFun hR _).symm),
    @Eq.trans ((⟨Cert.KernelIdeal.S131072, .i32⟩ : BufTy).Contents (Elt Ideal)) _ _ _ (congrFun (K2 m ρ c) _) (@Eq.trans ((⟨Cert.KernelIdeal.S131072, .i32⟩ : BufTy).Contents (Elt Ideal)) _ _ _ q5 (congrFun hR _).symm)⟩

theorem K3 : W5 m ρ c = after Cert.KernelIdeal.Gen.hostOps1_2 (W4 m ρ c) := rfl

theorem I3 (hag : Agree m m' c) :
    (@Eq ((⟨Cert.KernelIdeal.S65536x156, .f32⟩ : BufTy).Contents (Elt Ideal)) (W5 m ρ c (Proc.devRef .tc Cert.KernelIdeal.main_v50)) ((after (List.take 63 (Cert.ReferenceIdeal.ValueP.ops (F := Ideal))) (StableHlo.launchContents m' c)) (Proc.devRef .tc Cert.ReferenceIdeal.main_v48)))
    ∧ (@Eq ((⟨Cert.KernelIdeal.S131072, .i32⟩ : BufTy).Contents (Elt Ideal)) (W5 m ρ c (Proc.devRef .tc Cert.KernelIdeal.main_v1)) ((after (List.take 63 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W5 m ρ c (Proc.devRef .tc Cert.KernelIdeal.main_v3)) ((after (List.take 63 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v8, i_v6, i_v19, i_v9, i_v1, i_v3⟩ := I2 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 63 (Cert.ReferenceIdeal.ValueP.ops (F := Ideal))) (StableHlo.launchContents m' c) = after rpiece3 (after (List.take 25 (Cert.ReferenceIdeal.ValueP.ops (F := Ideal))) (StableHlo.launchContents m' c)) :=
    Cert.FoldCuts.after_take_add (Cert.ReferenceIdeal.ValueP.ops (F := Ideal)) 25 38 (StableHlo.launchContents m' c)
  obtain ⟨q0, q1, q2⟩ := piece3 (W4 m ρ c) (after (List.take 25 (Cert.ReferenceIdeal.ValueP.ops (F := Ideal))) (StableHlo.launchContents m' c)) i_v8
    i_v6
    i_v19
    i_v9
    (@Eq.trans ((⟨Cert.KernelIdeal.S156, .f32⟩ : BufTy).Contents (Elt Ideal)) _ _ _ (arg_at4 m ρ c Cert.KernelIdeal.main_arg3 (by decide)) (@Eq.trans ((⟨Cert.KernelIdeal.S156, .f32⟩ : BufTy).Contents (Elt Ideal)) _ _ _ a3.symm (argR m' c 25 Cert.ReferenceIdeal.main_arg3 (by decide)).symm))
    i_v1
    i_v3
  exact ⟨@Eq.trans ((⟨Cert.KernelIdeal.S65536x156, .f32⟩ : BufTy).Contents (Elt Ideal)) _ _ _ (congrFun (K3 m ρ c) _) (@Eq.trans ((⟨Cert.KernelIdeal.S65536x156, .f32⟩ : BufTy).Contents (Elt Ideal)) _ _ _ q0 (congrFun hR _).symm),
    @Eq.trans ((⟨Cert.KernelIdeal.S131072, .i32⟩ : BufTy).Contents (Elt Ideal)) _ _ _ (congrFun (K3 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K3 m ρ c) _) (@Eq.trans ((⟨Cert.KernelIdeal.S131072, .i32⟩ : BufTy).Contents (Elt Ideal)) _ _ _ q2 (congrFun hR _).symm)⟩

theorem K4 : W6 m ρ c = after Cert.KernelIdeal.Gen.hostOps1_3 (W5 m ρ c) := rfl

theorem I4 (hag : Agree m m' c) :
    (@Eq ((⟨Cert.KernelIdeal.S65536x156, .f32⟩ : BufTy).Contents (Elt Ideal)) (W6 m ρ c (Proc.devRef .tc Cert.KernelIdeal.main_v51)) ((after (List.take 66 (Cert.ReferenceIdeal.ValueP.ops (F := Ideal))) (StableHlo.launchContents m' c)) (Proc.devRef .tc Cert.ReferenceIdeal.main_v49)))
    ∧ (@Eq ((⟨Cert.KernelIdeal.S131072, .i32⟩ : BufTy).Contents (Elt Ideal)) (W6 m ρ c (Proc.devRef .tc Cert.KernelIdeal.main_v1)) ((after (List.take 66 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W6 m ρ c (Proc.devRef .tc Cert.KernelIdeal.main_v3)) ((after (List.take 66 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v50, i_v1, i_v3⟩ := I3 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 66 (Cert.ReferenceIdeal.ValueP.ops (F := Ideal))) (StableHlo.launchContents m' c) = after rpiece4 (after (List.take 63 (Cert.ReferenceIdeal.ValueP.ops (F := Ideal))) (StableHlo.launchContents m' c)) :=
    Cert.FoldCuts.after_take_add (Cert.ReferenceIdeal.ValueP.ops (F := Ideal)) 63 3 (StableHlo.launchContents m' c)
  obtain ⟨q0, q1, q2⟩ := piece4 (W5 m ρ c) (after (List.take 63 (Cert.ReferenceIdeal.ValueP.ops (F := Ideal))) (StableHlo.launchContents m' c)) i_v50
    i_v1
    i_v3
  exact ⟨@Eq.trans ((⟨Cert.KernelIdeal.S65536x156, .f32⟩ : BufTy).Contents (Elt Ideal)) _ _ _ (congrFun (K4 m ρ c) _) (@Eq.trans ((⟨Cert.KernelIdeal.S65536x156, .f32⟩ : BufTy).Contents (Elt Ideal)) _ _ _ q0 (congrFun hR _).symm),
    @Eq.trans ((⟨Cert.KernelIdeal.S131072, .i32⟩ : BufTy).Contents (Elt Ideal)) _ _ _ (congrFun (K4 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K4 m ρ c) _) (@Eq.trans ((⟨Cert.KernelIdeal.S131072, .i32⟩ : BufTy).Contents (Elt Ideal)) _ _ _ q2 (congrFun hR _).symm)⟩

theorem K5 : W8 m ρ c = after (Cert.KernelIdeal.Gen.hostOps1_4 ++ [Cert.KernelIdeal.Dense.dop1]) (W6 m ρ c) := by
  simp only [Cert.FoldCuts.after_append]
  exact region1 m ρ c

theorem I5 (hag : Agree m m' c) :
    (@Eq ((⟨Cert.KernelIdeal.S65536x312, .f32⟩ : BufTy).Contents (Elt Ideal)) (W8 m ρ c (Proc.devRef .tc Cert.KernelIdeal.main_v54)) ((after (List.take 67 (Cert.ReferenceIdeal.ValueP.ops (F := Ideal))) (StableHlo.launchContents m' c)) (Proc.devRef .tc Cert.ReferenceIdeal.main_v50)))
    ∧ (@Eq ((⟨Cert.KernelIdeal.S131072, .i32⟩ : BufTy).Contents (Elt Ideal)) (W8 m ρ c (Proc.devRef .tc Cert.KernelIdeal.main_v1)) ((after (List.take 67 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W8 m ρ c (Proc.devRef .tc Cert.KernelIdeal.main_v3)) ((after (List.take 67 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v51, i_v1, i_v3⟩ := I4 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 67 (Cert.ReferenceIdeal.ValueP.ops (F := Ideal))) (StableHlo.launchContents m' c) = after rpiece5 (after (List.take 66 (Cert.ReferenceIdeal.ValueP.ops (F := Ideal))) (StableHlo.launchContents m' c)) :=
    Cert.FoldCuts.after_take_add (Cert.ReferenceIdeal.ValueP.ops (F := Ideal)) 66 1 (StableHlo.launchContents m' c)
  obtain ⟨q0, q1, q2⟩ := piece5 (W6 m ρ c) (after (List.take 66 (Cert.ReferenceIdeal.ValueP.ops (F := Ideal))) (StableHlo.launchContents m' c)) i_v51
    (@Eq.trans ((⟨Cert.KernelIdeal.S156x312, .f32⟩ : BufTy).Contents (Elt Ideal)) _ _ _ (arg_at6 m ρ c Cert.KernelIdeal.main_arg4 (by decide)) (@Eq.trans ((⟨Cert.KernelIdeal.S156x312, .f32⟩ : BufTy).Contents (Elt Ideal)) _ _ _ a4.symm (argR m' c 66 Cert.ReferenceIdeal.main_arg4 (by decide)).symm))
    i_v1
    i_v3
  exact ⟨@Eq.trans ((⟨Cert.KernelIdeal.S65536x312, .f32⟩ : BufTy).Contents (Elt Ideal)) _ _ _ (congrFun (K5 m ρ c) _) (@Eq.trans ((⟨Cert.KernelIdeal.S65536x312, .f32⟩ : BufTy).Contents (Elt Ideal)) _ _ _ q0 (congrFun hR _).symm),
    @Eq.trans ((⟨Cert.KernelIdeal.S131072, .i32⟩ : BufTy).Contents (Elt Ideal)) _ _ _ (congrFun (K5 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K5 m ρ c) _) (@Eq.trans ((⟨Cert.KernelIdeal.S131072, .i32⟩ : BufTy).Contents (Elt Ideal)) _ _ _ q2 (congrFun hR _).symm)⟩

theorem K6 : W9 m ρ c = after Cert.KernelIdeal.Gen.hostOps2 (W8 m ρ c) := rfl

theorem I6 (hag : Agree m m' c) :
    (@Eq ((⟨Cert.KernelIdeal.S_, .f32⟩ : BufTy).Contents (Elt Ideal)) (W9 m ρ c (Proc.devRef .tc Cert.KernelIdeal.main_cst_16)) ((after (List.take 84 (Cert.ReferenceIdeal.ValueP.ops (F := Ideal))) (StableHlo.launchContents m' c)) (Proc.devRef .tc Cert.ReferenceIdeal.main_cst_14)))
    ∧ (@Eq ((⟨Cert.KernelIdeal.S65536, .i1⟩ : BufTy).Contents (Elt Ideal)) (W9 m ρ c (Proc.devRef .tc Cert.KernelIdeal.main_v63)) ((after (List.take 84 (Cert.ReferenceIdeal.ValueP.ops (F := Ideal))) (StableHlo.launchContents m' c)) (Proc.devRef .tc Cert.ReferenceIdeal.main_v59)))
    ∧ (@Eq ((⟨Cert.KernelIdeal.S65536, .f32⟩ : BufTy).Contents (Elt Ideal)) (W9 m ρ c (Proc.devRef .tc Cert.KernelIdeal.main_v66)) ((after (List.take 84 (Cert.ReferenceIdeal.ValueP.ops (F := Ideal))) (StableHlo.launchContents m' c)) (Proc.devRef .tc Cert.ReferenceIdeal.main_v62)))
    ∧ (@Eq ((⟨Cert.KernelIdeal.S196608, .i32⟩ : BufTy).Contents (Elt Ideal)) (W9 m ρ c (Proc.devRef .tc Cert.KernelIdeal.main_v56)) ((after (List.take 84 (Cert.ReferenceIdeal.ValueP.ops (F := Ideal))) (StableHlo.launchContents m' c)) (Proc.devRef .tc Cert.ReferenceIdeal.main_v52)))
    ∧ (@Eq ((⟨Cert.KernelIdeal.S65536x312, .f32⟩ : BufTy).Contents (Elt Ideal)) (W9 m ρ c (Proc.devRef .tc Cert.KernelIdeal.main_v54)) ((after (List.take 84 (Cert.ReferenceIdeal.ValueP.ops (F := Ideal))) (StableHlo.launchContents m' c)) (Proc.devRef .tc Cert.ReferenceIdeal.main_v50)))
    ∧ (@Eq ((⟨Cert.KernelIdeal.S196608, .i32⟩ : BufTy).Contents (Elt Ideal)) (W9 m ρ c (Proc.devRef .tc Cert.KernelIdeal.main_v57)) ((after (List.take 84 (Cert.ReferenceIdeal.ValueP.ops (F := Ideal))) (StableHlo.launchContents m' c)) (Proc.devRef .tc Cert.ReferenceIdeal.main_v53)))
    ∧ (@Eq ((⟨Cert.KernelIdeal.S131072, .i32⟩ : BufTy).Contents (Elt Ideal)) (W9 m ρ c (Proc.devRef .tc Cert.KernelIdeal.main_v1)) ((after (List.take 84 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W9 m ρ c (Proc.devRef .tc Cert.KernelIdeal.main_v3)) ((after (List.take 84 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v54, i_v1, i_v3⟩ := I5 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 84 (Cert.ReferenceIdeal.ValueP.ops (F := Ideal))) (StableHlo.launchContents m' c) = after rpiece6 (after (List.take 67 (Cert.ReferenceIdeal.ValueP.ops (F := Ideal))) (StableHlo.launchContents m' c)) :=
    Cert.FoldCuts.after_take_add (Cert.ReferenceIdeal.ValueP.ops (F := Ideal)) 67 17 (StableHlo.launchContents m' c)
  obtain ⟨q0, q1, q2, q3, q4, q5, q6, q7⟩ := piece6 (W8 m ρ c) (after (List.take 67 (Cert.ReferenceIdeal.ValueP.ops (F := Ideal))) (StableHlo.launchContents m' c)) i_v1
    i_v3
    i_v54
  exact ⟨@Eq.trans ((⟨Cert.KernelIdeal.S_, .f32⟩ : BufTy).Contents (Elt Ideal)) _ _ _ (congrFun (K6 m ρ c) _) (@Eq.trans ((⟨Cert.KernelIdeal.S_, .f32⟩ : BufTy).Contents (Elt Ideal)) _ _ _ q0 (congrFun hR _).symm),
    @Eq.trans ((⟨Cert.KernelIdeal.S65536, .i1⟩ : BufTy).Contents (Elt Ideal)) _ _ _ (congrFun (K6 m ρ c) _) (@Eq.trans ((⟨Cert.KernelIdeal.S65536, .i1⟩ : BufTy).Contents (Elt Ideal)) _ _ _ q1 (congrFun hR _).symm),
    @Eq.trans ((⟨Cert.KernelIdeal.S65536, .f32⟩ : BufTy).Contents (Elt Ideal)) _ _ _ (congrFun (K6 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K6 m ρ c) _) (@Eq.trans ((⟨Cert.KernelIdeal.S196608, .i32⟩ : BufTy).Contents (Elt Ideal)) _ _ _ q3 (congrFun hR _).symm),
    @Eq.trans ((⟨Cert.KernelIdeal.S65536x312, .f32⟩ : BufTy).Contents (Elt Ideal)) _ _ _ (congrFun (K6 m ρ c) _) (@Eq.trans ((⟨Cert.KernelIdeal.S65536x312, .f32⟩ : BufTy).Contents (Elt Ideal)) _ _ _ q4 (congrFun hR _).symm),
    @Eq.trans ((⟨Cert.KernelIdeal.S196608, .i32⟩ : BufTy).Contents (Elt Ideal)) _ _ _ (congrFun (K6 m ρ c) _) (@Eq.trans ((⟨Cert.KernelIdeal.S196608, .i32⟩ : BufTy).Contents (Elt Ideal)) _ _ _ q5 (congrFun hR _).symm),
    @Eq.trans ((⟨Cert.KernelIdeal.S131072, .i32⟩ : BufTy).Contents (Elt Ideal)) _ _ _ (congrFun (K6 m ρ c) _) (@Eq.trans ((⟨Cert.KernelIdeal.S131072, .i32⟩ : BufTy).Contents (Elt Ideal)) _ _ _ q6 (congrFun hR _).symm),
    @Eq.trans ((⟨Cert.KernelIdeal.S131072, .i32⟩ : BufTy).Contents (Elt Ideal)) _ _ _ (congrFun (K6 m ρ c) _) (@Eq.trans ((⟨Cert.KernelIdeal.S131072, .i32⟩ : BufTy).Contents (Elt Ideal)) _ _ _ q7 (congrFun hR _).symm)⟩

theorem K7 : W10 m ρ c = after Cert.KernelIdeal.Gen.hostOps2_1 (W9 m ρ c) := rfl

theorem I7 (hag : Agree m m' c) :
    (@Eq ((⟨Cert.KernelIdeal.S196608, .i32⟩ : BufTy).Contents (Elt Ideal)) (W10 m ρ c (Proc.devRef .tc Cert.KernelIdeal.main_v56)) ((after (List.take 87 (Cert.ReferenceIdeal.ValueP.ops (F := Ideal))) (StableHlo.launchContents m' c)) (Proc.devRef .tc Cert.ReferenceIdeal.main_v52)))
    ∧ (@Eq ((⟨Cert.KernelIdeal.S65536x312, .f32⟩ : BufTy).Contents (Elt Ideal)) (W10 m ρ c (Proc.devRef .tc Cert.KernelIdeal.main_v54)) ((after (List.take 87 (Cert.ReferenceIdeal.ValueP.ops (F := Ideal))) (StableHlo.launchContents m' c)) (Proc.devRef .tc Cert.ReferenceIdeal.main_v50)))
    ∧ (@Eq ((⟨Cert.KernelIdeal.S65536, .f32⟩ : BufTy).Contents (Elt Ideal)) (W10 m ρ c (Proc.devRef .tc Cert.KernelIdeal.main_v67)) ((after (List.take 87 (Cert.ReferenceIdeal.ValueP.ops (F := Ideal))) (StableHlo.launchContents m' c)) (Proc.devRef .tc Cert.ReferenceIdeal.main_v63)))
    ∧ (@Eq ((⟨Cert.KernelIdeal.S196608, .i32⟩ : BufTy).Contents (Elt Ideal)) (W10 m ρ c (Proc.devRef .tc Cert.KernelIdeal.main_v57)) ((after (List.take 87 (Cert.ReferenceIdeal.ValueP.ops (F := Ideal))) (StableHlo.launchContents m' c)) (Proc.devRef .tc Cert.ReferenceIdeal.main_v53)))
    ∧ (@Eq ((⟨Cert.KernelIdeal.S131072, .i32⟩ : BufTy).Contents (Elt Ideal)) (W10 m ρ c (Proc.devRef .tc Cert.KernelIdeal.main_v1)) ((after (List.take 87 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W10 m ρ c (Proc.devRef .tc Cert.KernelIdeal.main_v3)) ((after (List.take 87 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_16, i_v63, i_v66, i_v56, i_v54, i_v57, i_v1, i_v3⟩ := I6 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 87 (Cert.ReferenceIdeal.ValueP.ops (F := Ideal))) (StableHlo.launchContents m' c) = after rpiece7 (after (List.take 84 (Cert.ReferenceIdeal.ValueP.ops (F := Ideal))) (StableHlo.launchContents m' c)) :=
    Cert.FoldCuts.after_take_add (Cert.ReferenceIdeal.ValueP.ops (F := Ideal)) 84 3 (StableHlo.launchContents m' c)
  obtain ⟨q0, q1, q2, q3, q4, q5⟩ := piece7 (W9 m ρ c) (after (List.take 84 (Cert.ReferenceIdeal.ValueP.ops (F := Ideal))) (StableHlo.launchContents m' c)) i_cst_16
    i_v63
    i_v66
    i_v56
    i_v54
    i_v57
    i_v1
    i_v3
  exact ⟨@Eq.trans ((⟨Cert.KernelIdeal.S196608, .i32⟩ : BufTy).Contents (Elt Ideal)) _ _ _ (congrFun (K7 m ρ c) _) (@Eq.trans ((⟨Cert.KernelIdeal.S196608, .i32⟩ : BufTy).Contents (Elt Ideal)) _ _ _ q0 (congrFun hR _).symm),
    @Eq.trans ((⟨Cert.KernelIdeal.S65536x312, .f32⟩ : BufTy).Contents (Elt Ideal)) _ _ _ (congrFun (K7 m ρ c) _) (@Eq.trans ((⟨Cert.KernelIdeal.S65536x312, .f32⟩ : BufTy).Contents (Elt Ideal)) _ _ _ q1 (congrFun hR _).symm),
    @Eq.trans ((⟨Cert.KernelIdeal.S65536, .f32⟩ : BufTy).Contents (Elt Ideal)) _ _ _ (congrFun (K7 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K7 m ρ c) _) (@Eq.trans ((⟨Cert.KernelIdeal.S196608, .i32⟩ : BufTy).Contents (Elt Ideal)) _ _ _ q3 (congrFun hR _).symm),
    @Eq.trans ((⟨Cert.KernelIdeal.S131072, .i32⟩ : BufTy).Contents (Elt Ideal)) _ _ _ (congrFun (K7 m ρ c) _) (@Eq.trans ((⟨Cert.KernelIdeal.S131072, .i32⟩ : BufTy).Contents (Elt Ideal)) _ _ _ q4 (congrFun hR _).symm),
    @Eq.trans ((⟨Cert.KernelIdeal.S131072, .i32⟩ : BufTy).Contents (Elt Ideal)) _ _ _ (congrFun (K7 m ρ c) _) (@Eq.trans ((⟨Cert.KernelIdeal.S131072, .i32⟩ : BufTy).Contents (Elt Ideal)) _ _ _ q5 (congrFun hR _).symm)⟩

theorem K8 : W11 m ρ c = after Cert.KernelIdeal.Gen.hostOps2_2 (W10 m ρ c) := rfl

theorem I8 (hag : Agree m m' c) :
    (@Eq ((⟨Cert.KernelIdeal.S65536x312, .f32⟩ : BufTy).Contents (Elt Ideal)) (W11 m ρ c (Proc.devRef .tc Cert.KernelIdeal.main_v98)) ((after (List.take 125 (Cert.ReferenceIdeal.ValueP.ops (F := Ideal))) (StableHlo.launchContents m' c)) (Proc.devRef .tc Cert.ReferenceIdeal.main_v94)))
    ∧ (@Eq ((⟨Cert.KernelIdeal.S131072, .i32⟩ : BufTy).Contents (Elt Ideal)) (W11 m ρ c (Proc.devRef .tc Cert.KernelIdeal.main_v1)) ((after (List.take 125 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W11 m ρ c (Proc.devRef .tc Cert.KernelIdeal.main_v3)) ((after (List.take 125 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v56, i_v54, i_v67, i_v57, i_v1, i_v3⟩ := I7 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 125 (Cert.ReferenceIdeal.ValueP.ops (F := Ideal))) (StableHlo.launchContents m' c) = after rpiece8 (after (List.take 87 (Cert.ReferenceIdeal.ValueP.ops (F := Ideal))) (StableHlo.launchContents m' c)) :=
    Cert.FoldCuts.after_take_add (Cert.ReferenceIdeal.ValueP.ops (F := Ideal)) 87 38 (StableHlo.launchContents m' c)
  obtain ⟨q0, q1, q2⟩ := piece8 (W10 m ρ c) (after (List.take 87 (Cert.ReferenceIdeal.ValueP.ops (F := Ideal))) (StableHlo.launchContents m' c)) i_v56
    i_v54
    i_v67
    i_v57
    (@Eq.trans ((⟨Cert.KernelIdeal.S312, .f32⟩ : BufTy).Contents (Elt Ideal)) _ _ _ (arg_at10 m ρ c Cert.KernelIdeal.main_arg5 (by decide)) (@Eq.trans ((⟨Cert.KernelIdeal.S312, .f32⟩ : BufTy).Contents (Elt Ideal)) _ _ _ a5.symm (argR m' c 87 Cert.ReferenceIdeal.main_arg5 (by decide)).symm))
    i_v1
    i_v3
  exact ⟨@Eq.trans ((⟨Cert.KernelIdeal.S65536x312, .f32⟩ : BufTy).Contents (Elt Ideal)) _ _ _ (congrFun (K8 m ρ c) _) (@Eq.trans ((⟨Cert.KernelIdeal.S65536x312, .f32⟩ : BufTy).Contents (Elt Ideal)) _ _ _ q0 (congrFun hR _).symm),
    @Eq.trans ((⟨Cert.KernelIdeal.S131072, .i32⟩ : BufTy).Contents (Elt Ideal)) _ _ _ (congrFun (K8 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K8 m ρ c) _) (@Eq.trans ((⟨Cert.KernelIdeal.S131072, .i32⟩ : BufTy).Contents (Elt Ideal)) _ _ _ q2 (congrFun hR _).symm)⟩

theorem K9 : W12 m ρ c = after Cert.KernelIdeal.Gen.hostOps2_3 (W11 m ρ c) := rfl

theorem I9 (hag : Agree m m' c) :
    (@Eq ((⟨Cert.KernelIdeal.S65536x312, .f32⟩ : BufTy).Contents (Elt Ideal)) (W12 m ρ c (Proc.devRef .tc Cert.KernelIdeal.main_v99)) ((after (List.take 128 (Cert.ReferenceIdeal.ValueP.ops (F := Ideal))) (StableHlo.launchContents m' c)) (Proc.devRef .tc Cert.ReferenceIdeal.main_v95)))
    ∧ (@Eq ((⟨Cert.KernelIdeal.S131072, .i32⟩ : BufTy).Contents (Elt Ideal)) (W12 m ρ c (Proc.devRef .tc Cert.KernelIdeal.main_v1)) ((after (List.take 128 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W12 m ρ c (Proc.devRef .tc Cert.KernelIdeal.main_v3)) ((after (List.take 128 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v98, i_v1, i_v3⟩ := I8 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 128 (Cert.ReferenceIdeal.ValueP.ops (F := Ideal))) (StableHlo.launchContents m' c) = after rpiece9 (after (List.take 125 (Cert.ReferenceIdeal.ValueP.ops (F := Ideal))) (StableHlo.launchContents m' c)) :=
    Cert.FoldCuts.after_take_add (Cert.ReferenceIdeal.ValueP.ops (F := Ideal)) 125 3 (StableHlo.launchContents m' c)
  obtain ⟨q0, q1, q2⟩ := piece9 (W11 m ρ c) (after (List.take 125 (Cert.ReferenceIdeal.ValueP.ops (F := Ideal))) (StableHlo.launchContents m' c)) i_v98
    i_v1
    i_v3
  exact ⟨@Eq.trans ((⟨Cert.KernelIdeal.S65536x312, .f32⟩ : BufTy).Contents (Elt Ideal)) _ _ _ (congrFun (K9 m ρ c) _) (@Eq.trans ((⟨Cert.KernelIdeal.S65536x312, .f32⟩ : BufTy).Contents (Elt Ideal)) _ _ _ q0 (congrFun hR _).symm),
    @Eq.trans ((⟨Cert.KernelIdeal.S131072, .i32⟩ : BufTy).Contents (Elt Ideal)) _ _ _ (congrFun (K9 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K9 m ρ c) _) (@Eq.trans ((⟨Cert.KernelIdeal.S131072, .i32⟩ : BufTy).Contents (Elt Ideal)) _ _ _ q2 (congrFun hR _).symm)⟩

theorem K10 : W14 m ρ c = after (Cert.KernelIdeal.Gen.hostOps2_4 ++ [Cert.KernelIdeal.Dense.dop2]) (W12 m ρ c) := by
  simp only [Cert.FoldCuts.after_append]
  exact region2 m ρ c

theorem I10 (hag : Agree m m' c) :
    (@Eq ((⟨Cert.KernelIdeal.S65536x128, .f32⟩ : BufTy).Contents (Elt Ideal)) (W14 m ρ c (Proc.devRef .tc Cert.KernelIdeal.main_v102)) ((after (List.take 129 (Cert.ReferenceIdeal.ValueP.ops (F := Ideal))) (StableHlo.launchContents m' c)) (Proc.devRef .tc Cert.ReferenceIdeal.main_v96)))
    ∧ (@Eq ((⟨Cert.KernelIdeal.S131072, .i32⟩ : BufTy).Contents (Elt Ideal)) (W14 m ρ c (Proc.devRef .tc Cert.KernelIdeal.main_v1)) ((after (List.take 129 (Cert.ReferenceIdeal.ValueP.ops (F := Ideal))) (StableHlo.launchContents m' c)) (Proc.devRef .tc Cert.ReferenceIdeal.main_v1)))
    ∧ (@Eq ((⟨Cert.KernelIdeal.S131072, .i32⟩ : BufTy).Contents (Elt Ideal)) (W14 m ρ c (Proc.devRef .tc Cert.KernelIdeal.main_v3)) ((after (List.take 129 (Cert.ReferenceIdeal.ValueP.ops (F := Ideal))) (StableHlo.launchContents m' c)) (Proc.devRef .tc Cert.ReferenceIdeal.main_v3))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v99, i_v1, i_v3⟩ := I9 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 129 (Cert.ReferenceIdeal.ValueP.ops (F := Ideal))) (StableHlo.launchContents m' c) = after rpiece10 (after (List.take 128 (Cert.ReferenceIdeal.ValueP.ops (F := Ideal))) (StableHlo.launchContents m' c)) :=
    Cert.FoldCuts.after_take_add (Cert.ReferenceIdeal.ValueP.ops (F := Ideal)) 128 1 (StableHlo.launchContents m' c)
  obtain ⟨q0, q1, q2⟩ := piece10 (W12 m ρ c) (after (List.take 128 (Cert.ReferenceIdeal.ValueP.ops (F := Ideal))) (StableHlo.launchContents m' c)) i_v99
    (@Eq.trans ((⟨Cert.KernelIdeal.S312x128, .f32⟩ : BufTy).Contents (Elt Ideal)) _ _ _ (arg_at12 m ρ c Cert.KernelIdeal.main_arg6 (by decide)) (@Eq.trans ((⟨Cert.KernelIdeal.S312x128, .f32⟩ : BufTy).Contents (Elt Ideal)) _ _ _ a6.symm (argR m' c 128 Cert.ReferenceIdeal.main_arg6 (by decide)).symm))
    i_v1
    i_v3
  exact ⟨@Eq.trans ((⟨Cert.KernelIdeal.S65536x128, .f32⟩ : BufTy).Contents (Elt Ideal)) _ _ _ (congrFun (K10 m ρ c) _) (@Eq.trans ((⟨Cert.KernelIdeal.S65536x128, .f32⟩ : BufTy).Contents (Elt Ideal)) _ _ _ q0 (congrFun hR _).symm),
    @Eq.trans ((⟨Cert.KernelIdeal.S131072, .i32⟩ : BufTy).Contents (Elt Ideal)) _ _ _ (congrFun (K10 m ρ c) _) (@Eq.trans ((⟨Cert.KernelIdeal.S131072, .i32⟩ : BufTy).Contents (Elt Ideal)) _ _ _ q1 (congrFun hR _).symm),
    @Eq.trans ((⟨Cert.KernelIdeal.S131072, .i32⟩ : BufTy).Contents (Elt Ideal)) _ _ _ (congrFun (K10 m ρ c) _) (@Eq.trans ((⟨Cert.KernelIdeal.S131072, .i32⟩ : BufTy).Contents (Elt Ideal)) _ _ _ q2 (congrFun hR _).symm)⟩

theorem K11 : W15 m ρ c = after Cert.KernelIdeal.Gen.hostOps3 (W14 m ρ c) := rfl

theorem I11 (hag : Agree m m' c) :
    (@Eq ((⟨Cert.KernelIdeal.S_, .f32⟩ : BufTy).Contents (Elt Ideal)) (W15 m ρ c (Proc.devRef .tc Cert.KernelIdeal.main_cst_29)) ((after (List.take 146 (Cert.ReferenceIdeal.ValueP.ops (F := Ideal))) (StableHlo.launchContents m' c)) (Proc.devRef .tc Cert.ReferenceIdeal.main_cst_26)))
    ∧ (@Eq ((⟨Cert.KernelIdeal.S65536, .i1⟩ : BufTy).Contents (Elt Ideal)) (W15 m ρ c (Proc.devRef .tc Cert.KernelIdeal.main_v111)) ((after (List.take 146 (Cert.ReferenceIdeal.ValueP.ops (F := Ideal))) (StableHlo.launchContents m' c)) (Proc.devRef .tc Cert.ReferenceIdeal.main_v105)))
    ∧ (@Eq ((⟨Cert.KernelIdeal.S65536, .f32⟩ : BufTy).Contents (Elt Ideal)) (W15 m ρ c (Proc.devRef .tc Cert.KernelIdeal.main_v114)) ((after (List.take 146 (Cert.ReferenceIdeal.ValueP.ops (F := Ideal))) (StableHlo.launchContents m' c)) (Proc.devRef .tc Cert.ReferenceIdeal.main_v108)))
    ∧ (@Eq ((⟨Cert.KernelIdeal.S196608, .i32⟩ : BufTy).Contents (Elt Ideal)) (W15 m ρ c (Proc.devRef .tc Cert.KernelIdeal.main_v104)) ((after (List.take 146 (Cert.ReferenceIdeal.ValueP.ops (F := Ideal))) (StableHlo.launchContents m' c)) (Proc.devRef .tc Cert.ReferenceIdeal.main_v98)))
    ∧ (@Eq ((⟨Cert.KernelIdeal.S65536x128, .f32⟩ : BufTy).Contents (Elt Ideal)) (W15 m ρ c (Proc.devRef .tc Cert.KernelIdeal.main_v102)) ((after (List.take 146 (Cert.ReferenceIdeal.ValueP.ops (F := Ideal))) (StableHlo.launchContents m' c)) (Proc.devRef .tc Cert.ReferenceIdeal.main_v96)))
    ∧ (@Eq ((⟨Cert.KernelIdeal.S196608, .i32⟩ : BufTy).Contents (Elt Ideal)) (W15 m ρ c (Proc.devRef .tc Cert.KernelIdeal.main_v105)) ((after (List.take 146 (Cert.ReferenceIdeal.ValueP.ops (F := Ideal))) (StableHlo.launchContents m' c)) (Proc.devRef .tc Cert.ReferenceIdeal.main_v99))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v102, i_v1, i_v3⟩ := I10 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 146 (Cert.ReferenceIdeal.ValueP.ops (F := Ideal))) (StableHlo.launchContents m' c) = after rpiece11 (after (List.take 129 (Cert.ReferenceIdeal.ValueP.ops (F := Ideal))) (StableHlo.launchContents m' c)) :=
    Cert.FoldCuts.after_take_add (Cert.ReferenceIdeal.ValueP.ops (F := Ideal)) 129 17 (StableHlo.launchContents m' c)
  obtain ⟨q0, q1, q2, q3, q4, q5⟩ := piece11 (W14 m ρ c) (after (List.take 129 (Cert.ReferenceIdeal.ValueP.ops (F := Ideal))) (StableHlo.launchContents m' c)) i_v1
    i_v3
    i_v102
  exact ⟨@Eq.trans ((⟨Cert.KernelIdeal.S_, .f32⟩ : BufTy).Contents (Elt Ideal)) _ _ _ (congrFun (K11 m ρ c) _) (@Eq.trans ((⟨Cert.KernelIdeal.S_, .f32⟩ : BufTy).Contents (Elt Ideal)) _ _ _ q0 (congrFun hR _).symm),
    @Eq.trans ((⟨Cert.KernelIdeal.S65536, .i1⟩ : BufTy).Contents (Elt Ideal)) _ _ _ (congrFun (K11 m ρ c) _) (@Eq.trans ((⟨Cert.KernelIdeal.S65536, .i1⟩ : BufTy).Contents (Elt Ideal)) _ _ _ q1 (congrFun hR _).symm),
    @Eq.trans ((⟨Cert.KernelIdeal.S65536, .f32⟩ : BufTy).Contents (Elt Ideal)) _ _ _ (congrFun (K11 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K11 m ρ c) _) (@Eq.trans ((⟨Cert.KernelIdeal.S196608, .i32⟩ : BufTy).Contents (Elt Ideal)) _ _ _ q3 (congrFun hR _).symm),
    @Eq.trans ((⟨Cert.KernelIdeal.S65536x128, .f32⟩ : BufTy).Contents (Elt Ideal)) _ _ _ (congrFun (K11 m ρ c) _) (@Eq.trans ((⟨Cert.KernelIdeal.S65536x128, .f32⟩ : BufTy).Contents (Elt Ideal)) _ _ _ q4 (congrFun hR _).symm),
    @Eq.trans ((⟨Cert.KernelIdeal.S196608, .i32⟩ : BufTy).Contents (Elt Ideal)) _ _ _ (congrFun (K11 m ρ c) _) (@Eq.trans ((⟨Cert.KernelIdeal.S196608, .i32⟩ : BufTy).Contents (Elt Ideal)) _ _ _ q5 (congrFun hR _).symm)⟩

theorem K12 : W16 m ρ c = after Cert.KernelIdeal.Gen.hostOps3_1 (W15 m ρ c) := rfl

theorem I12 (hag : Agree m m' c) :
    (@Eq ((⟨Cert.KernelIdeal.S196608, .i32⟩ : BufTy).Contents (Elt Ideal)) (W16 m ρ c (Proc.devRef .tc Cert.KernelIdeal.main_v104)) ((after (List.take 149 (Cert.ReferenceIdeal.ValueP.ops (F := Ideal))) (StableHlo.launchContents m' c)) (Proc.devRef .tc Cert.ReferenceIdeal.main_v98)))
    ∧ (@Eq ((⟨Cert.KernelIdeal.S65536x128, .f32⟩ : BufTy).Contents (Elt Ideal)) (W16 m ρ c (Proc.devRef .tc Cert.KernelIdeal.main_v102)) ((after (List.take 149 (Cert.ReferenceIdeal.ValueP.ops (F := Ideal))) (StableHlo.launchContents m' c)) (Proc.devRef .tc Cert.ReferenceIdeal.main_v96)))
    ∧ (@Eq ((⟨Cert.KernelIdeal.S65536, .f32⟩ : BufTy).Contents (Elt Ideal)) (W16 m ρ c (Proc.devRef .tc Cert.KernelIdeal.main_v115)) ((after (List.take 149 (Cert.ReferenceIdeal.ValueP.ops (F := Ideal))) (StableHlo.launchContents m' c)) (Proc.devRef .tc Cert.ReferenceIdeal.main_v109)))
    ∧ (@Eq ((⟨Cert.KernelIdeal.S196608, .i32⟩ : BufTy).Contents (Elt Ideal)) (W16 m ρ c (Proc.devRef .tc Cert.KernelIdeal.main_v105)) ((after (List.take 149 (Cert.ReferenceIdeal.ValueP.ops (F := Ideal))) (StableHlo.launchContents m' c)) (Proc.devRef .tc Cert.ReferenceIdeal.main_v99))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_29, i_v111, i_v114, i_v104, i_v102, i_v105⟩ := I11 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 149 (Cert.ReferenceIdeal.ValueP.ops (F := Ideal))) (StableHlo.launchContents m' c) = after rpiece12 (after (List.take 146 (Cert.ReferenceIdeal.ValueP.ops (F := Ideal))) (StableHlo.launchContents m' c)) :=
    Cert.FoldCuts.after_take_add (Cert.ReferenceIdeal.ValueP.ops (F := Ideal)) 146 3 (StableHlo.launchContents m' c)
  obtain ⟨q0, q1, q2, q3⟩ := piece12 (W15 m ρ c) (after (List.take 146 (Cert.ReferenceIdeal.ValueP.ops (F := Ideal))) (StableHlo.launchContents m' c)) i_cst_29
    i_v111
    i_v114
    i_v104
    i_v102
    i_v105
  exact ⟨@Eq.trans ((⟨Cert.KernelIdeal.S196608, .i32⟩ : BufTy).Contents (Elt Ideal)) _ _ _ (congrFun (K12 m ρ c) _) (@Eq.trans ((⟨Cert.KernelIdeal.S196608, .i32⟩ : BufTy).Contents (Elt Ideal)) _ _ _ q0 (congrFun hR _).symm),
    @Eq.trans ((⟨Cert.KernelIdeal.S65536x128, .f32⟩ : BufTy).Contents (Elt Ideal)) _ _ _ (congrFun (K12 m ρ c) _) (@Eq.trans ((⟨Cert.KernelIdeal.S65536x128, .f32⟩ : BufTy).Contents (Elt Ideal)) _ _ _ q1 (congrFun hR _).symm),
    @Eq.trans ((⟨Cert.KernelIdeal.S65536, .f32⟩ : BufTy).Contents (Elt Ideal)) _ _ _ (congrFun (K12 m ρ c) _) (@Eq.trans ((⟨Cert.KernelIdeal.S65536, .f32⟩ : BufTy).Contents (Elt Ideal)) _ _ _ q2 (congrFun hR _).symm),
    @Eq.trans ((⟨Cert.KernelIdeal.S196608, .i32⟩ : BufTy).Contents (Elt Ideal)) _ _ _ (congrFun (K12 m ρ c) _) (@Eq.trans ((⟨Cert.KernelIdeal.S196608, .i32⟩ : BufTy).Contents (Elt Ideal)) _ _ _ q3 (congrFun hR _).symm)⟩

theorem K13 : W17 m ρ c = after Cert.KernelIdeal.Gen.hostOps3_2 (W16 m ρ c) := rfl

theorem I13 (hag : Agree m m' c) :
    (@Eq ((⟨Cert.KernelIdeal.S65536x128, .f32⟩ : BufTy).Contents (Elt Ideal)) (W17 m ρ c (Proc.devRef .tc Cert.KernelIdeal.main_v146)) ((after (List.take 187 (Cert.ReferenceIdeal.ValueP.ops (F := Ideal))) (StableHlo.launchContents m' c)) (Proc.devRef .tc Cert.ReferenceIdeal.main_v140))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v104, i_v102, i_v115, i_v105⟩ := I12 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 187 (Cert.ReferenceIdeal.ValueP.ops (F := Ideal))) (StableHlo.launchContents m' c) = after rpiece13 (after (List.take 149 (Cert.ReferenceIdeal.ValueP.ops (F := Ideal))) (StableHlo.launchContents m' c)) :=
    Cert.FoldCuts.after_take_add (Cert.ReferenceIdeal.ValueP.ops (F := Ideal)) 149 38 (StableHlo.launchContents m' c)
  have q0 := piece13 (W16 m ρ c) (after (List.take 149 (Cert.ReferenceIdeal.ValueP.ops (F := Ideal))) (StableHlo.launchContents m' c)) i_v104
    i_v102
    i_v115
    i_v105
    (@Eq.trans ((⟨Cert.KernelIdeal.S128, .f32⟩ : BufTy).Contents (Elt Ideal)) _ _ _ (arg_at16 m ρ c Cert.KernelIdeal.main_arg7 (by decide)) (@Eq.trans ((⟨Cert.KernelIdeal.S128, .f32⟩ : BufTy).Contents (Elt Ideal)) _ _ _ a7.symm (argR m' c 149 Cert.ReferenceIdeal.main_arg7 (by decide)).symm))
  exact @Eq.trans ((⟨Cert.KernelIdeal.S65536x128, .f32⟩ : BufTy).Contents (Elt Ideal)) _ _ _ (congrFun (K13 m ρ c) _) (@Eq.trans ((⟨Cert.KernelIdeal.S65536x128, .f32⟩ : BufTy).Contents (Elt Ideal)) _ _ _ q0 (congrFun hR _).symm)

theorem K14 : W18 m ρ c = after Cert.KernelIdeal.Gen.hostOps3_3 (W17 m ρ c) := rfl

theorem I14 (hag : Agree m m' c) :
    (@Eq ((⟨Cert.KernelIdeal.S65536x128, .f32⟩ : BufTy).Contents (Elt Ideal)) (W18 m ρ c (Proc.devRef .tc Cert.KernelIdeal.main_v147)) ((after (List.take 190 (Cert.ReferenceIdeal.ValueP.ops (F := Ideal))) (StableHlo.launchContents m' c)) (Proc.devRef .tc Cert.ReferenceIdeal.main_v141))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v146 := I13 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 190 (Cert.ReferenceIdeal.ValueP.ops (F := Ideal))) (StableHlo.launchContents m' c) = after rpiece14 (after (List.take 187 (Cert.ReferenceIdeal.ValueP.ops (F := Ideal))) (StableHlo.launchContents m' c)) :=
    Cert.FoldCuts.after_take_add (Cert.ReferenceIdeal.ValueP.ops (F := Ideal)) 187 3 (StableHlo.launchContents m' c)
  have q0 := piece14 (W17 m ρ c) (after (List.take 187 (Cert.ReferenceIdeal.ValueP.ops (F := Ideal))) (StableHlo.launchContents m' c)) i_v146
  exact @Eq.trans ((⟨Cert.KernelIdeal.S65536x128, .f32⟩ : BufTy).Contents (Elt Ideal)) _ _ _ (congrFun (K14 m ρ c) _) (@Eq.trans ((⟨Cert.KernelIdeal.S65536x128, .f32⟩ : BufTy).Contents (Elt Ideal)) _ _ _ q0 (congrFun hR _).symm)

theorem K15 : W20 m ρ c = after (Cert.KernelIdeal.Gen.hostOps3_4 ++ [Cert.KernelIdeal.Dense.dop3]) (W18 m ρ c) := by
  simp only [Cert.FoldCuts.after_append]
  exact region3 m ρ c

theorem I15 (hag : Agree m m' c) :
    (@Eq ((⟨Cert.KernelIdeal.S2048x1024, .f32⟩ : BufTy).Contents (Elt Ideal)) (W20 m ρ c (Proc.devRef .tc Cert.KernelIdeal.main_v161)) ((after (List.take 213 (Cert.ReferenceIdeal.ValueP.ops (F := Ideal))) (StableHlo.launchContents m' c)) (Proc.devRef .tc Cert.ReferenceIdeal.main_v158))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v147 := I14 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 213 (Cert.ReferenceIdeal.ValueP.ops (F := Ideal))) (StableHlo.launchContents m' c) = after rpiece15 (after (List.take 190 (Cert.ReferenceIdeal.ValueP.ops (F := Ideal))) (StableHlo.launchContents m' c)) :=
    Cert.FoldCuts.after_take_add (Cert.ReferenceIdeal.ValueP.ops (F := Ideal)) 190 23 (StableHlo.launchContents m' c)
  have q0 := piece15 (W18 m ρ c) (after (List.take 190 (Cert.ReferenceIdeal.ValueP.ops (F := Ideal))) (StableHlo.launchContents m' c)) (@Eq.trans ((⟨Cert.KernelIdeal.S65536, .i32⟩ : BufTy).Contents (Elt Ideal)) _ _ _ (arg_at18 m ρ c Cert.KernelIdeal.main_arg37 (by decide)) (@Eq.trans ((⟨Cert.KernelIdeal.S65536, .i32⟩ : BufTy).Contents (Elt Ideal)) _ _ _ a37.symm (argR m' c 190 Cert.ReferenceIdeal.main_arg37 (by decide)).symm))
    i_v147
    (@Eq.trans ((⟨Cert.KernelIdeal.S1024, .f32⟩ : BufTy).Contents (Elt Ideal)) _ _ _ (arg_at18 m ρ c Cert.KernelIdeal.main_arg9 (by decide)) (@Eq.trans ((⟨Cert.KernelIdeal.S1024, .f32⟩ : BufTy).Contents (Elt Ideal)) _ _ _ a9.symm (argR m' c 190 Cert.ReferenceIdeal.main_arg9 (by decide)).symm))
    (@Eq.trans ((⟨Cert.KernelIdeal.S128x1024, .f32⟩ : BufTy).Contents (Elt Ideal)) _ _ _ (arg_at18 m ρ c Cert.KernelIdeal.main_arg8 (by decide)) (@Eq.trans ((⟨Cert.KernelIdeal.S128x1024, .f32⟩ : BufTy).Contents (Elt Ideal)) _ _ _ a8.symm (argR m' c 190 Cert.ReferenceIdeal.main_arg8 (by decide)).symm))
  exact @Eq.trans ((⟨Cert.KernelIdeal.S2048x1024, .f32⟩ : BufTy).Contents (Elt Ideal)) _ _ _ (congrFun (K15 m ρ c) _) (@Eq.trans ((⟨Cert.KernelIdeal.S2048x1024, .f32⟩ : BufTy).Contents (Elt Ideal)) _ _ _ q0 (congrFun hR _).symm)

theorem K16 : W22 m ρ c = after (Cert.KernelIdeal.Gen.hostOps4 ++ [Cert.KernelIdeal.Dense.dop4]) (W20 m ρ c) := by
  simp only [Cert.FoldCuts.after_append]
  exact region4 m ρ c

theorem I16 (hag : Agree m m' c) :
    (@Eq ((⟨Cert.KernelIdeal.S2048x128, .f32⟩ : BufTy).Contents (Elt Ideal)) (W22 m ρ c (Proc.devRef .tc Cert.KernelIdeal.main_v163)) ((after (List.take 217 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v161 := I15 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 217 (Cert.ReferenceIdeal.ValueP.ops (F := Ideal))) (StableHlo.launchContents m' c) = after rpiece16 (after (List.take 213 (Cert.ReferenceIdeal.ValueP.ops (F := Ideal))) (StableHlo.launchContents m' c)) :=
    Cert.FoldCuts.after_take_add (Cert.ReferenceIdeal.ValueP.ops (F := Ideal)) 213 4 (StableHlo.launchContents m' c)
  have q0 := piece16 (W20 m ρ c) (after (List.take 213 (Cert.ReferenceIdeal.ValueP.ops (F := Ideal))) (StableHlo.launchContents m' c)) (@Eq.trans ((⟨Cert.KernelIdeal.S128, .f32⟩ : BufTy).Contents (Elt Ideal)) _ _ _ (arg_at20 m ρ c Cert.KernelIdeal.main_arg11 (by decide)) (@Eq.trans ((⟨Cert.KernelIdeal.S128, .f32⟩ : BufTy).Contents (Elt Ideal)) _ _ _ a11.symm (argR m' c 213 Cert.ReferenceIdeal.main_arg11 (by decide)).symm))
    i_v161
    (@Eq.trans ((⟨Cert.KernelIdeal.S1024x128, .f32⟩ : BufTy).Contents (Elt Ideal)) _ _ _ (arg_at20 m ρ c Cert.KernelIdeal.main_arg10 (by decide)) (@Eq.trans ((⟨Cert.KernelIdeal.S1024x128, .f32⟩ : BufTy).Contents (Elt Ideal)) _ _ _ a10.symm (argR m' c 213 Cert.ReferenceIdeal.main_arg10 (by decide)).symm))
  exact @Eq.trans ((⟨Cert.KernelIdeal.S2048x128, .f32⟩ : BufTy).Contents (Elt Ideal)) _ _ _ (congrFun (K16 m ρ c) _) (@Eq.trans ((⟨Cert.KernelIdeal.S2048x128, .f32⟩ : BufTy).Contents (Elt Ideal)) _ _ _ q0 (congrFun hR _).symm)

theorem K17 : W24 m ρ c = after (Cert.KernelIdeal.Gen.hostOps5 ++ [Cert.KernelIdeal.Dense.dop5]) (W22 m ρ c) := by
  simp only [Cert.FoldCuts.after_append]
  exact region5 m ρ c

theorem I17 (hag : Agree m m' c) :
    (@Eq ((⟨Cert.KernelIdeal.S300000x128, .f32⟩ : BufTy).Contents (Elt Ideal)) (W24 m ρ c (Proc.devRef .tc Cert.KernelIdeal.main_v170)) ((after (List.take 222 (Cert.ReferenceIdeal.ValueP.ops (F := Ideal))) (StableHlo.launchContents m' c)) (Proc.devRef .tc Cert.ReferenceIdeal.main_v167)))
    ∧ (@Eq ((⟨Cert.KernelIdeal.S1200000, .i32⟩ : BufTy).Contents (Elt Ideal)) (W24 m ρ c (Proc.devRef .tc Cert.KernelIdeal.main_v165)) ((after (List.take 222 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W24 m ρ c (Proc.devRef .tc Cert.KernelIdeal.main_v167)) ((after (List.take 222 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W24 m ρ c (Proc.devRef .tc Cert.KernelIdeal.main_v163)) ((after (List.take 222 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v163 := I16 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 222 (Cert.ReferenceIdeal.ValueP.ops (F := Ideal))) (StableHlo.launchContents m' c) = after rpiece17 (after (List.take 217 (Cert.ReferenceIdeal.ValueP.ops (F := Ideal))) (StableHlo.launchContents m' c)) :=
    Cert.FoldCuts.after_take_add (Cert.ReferenceIdeal.ValueP.ops (F := Ideal)) 217 5 (StableHlo.launchContents m' c)
  obtain ⟨q0, q1, q2, q3⟩ := piece17 (W22 m ρ c) (after (List.take 217 (Cert.ReferenceIdeal.ValueP.ops (F := Ideal))) (StableHlo.launchContents m' c)) (@Eq.trans ((⟨Cert.KernelIdeal.S2x1200000, .i32⟩ : BufTy).Contents (Elt Ideal)) _ _ _ (arg_at22 m ρ c Cert.KernelIdeal.main_arg38 (by decide)) (@Eq.trans ((⟨Cert.KernelIdeal.S2x1200000, .i32⟩ : BufTy).Contents (Elt Ideal)) _ _ _ a38.symm (argR m' c 217 Cert.ReferenceIdeal.main_arg38 (by decide)).symm))
    (@Eq.trans ((⟨Cert.KernelIdeal.S300000x33, .f32⟩ : BufTy).Contents (Elt Ideal)) _ _ _ (arg_at22 m ρ c Cert.KernelIdeal.main_arg1 (by decide)) (@Eq.trans ((⟨Cert.KernelIdeal.S300000x33, .f32⟩ : BufTy).Contents (Elt Ideal)) _ _ _ a1.symm (argR m' c 217 Cert.ReferenceIdeal.main_arg1 (by decide)).symm))
    (@Eq.trans ((⟨Cert.KernelIdeal.S33x128, .f32⟩ : BufTy).Contents (Elt Ideal)) _ _ _ (arg_at22 m ρ c Cert.KernelIdeal.main_arg12 (by decide)) (@Eq.trans ((⟨Cert.KernelIdeal.S33x128, .f32⟩ : BufTy).Contents (Elt Ideal)) _ _ _ a12.symm (argR m' c 217 Cert.ReferenceIdeal.main_arg12 (by decide)).symm))
    i_v163
  exact ⟨@Eq.trans ((⟨Cert.KernelIdeal.S300000x128, .f32⟩ : BufTy).Contents (Elt Ideal)) _ _ _ (congrFun (K17 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K17 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K17 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K17 m ρ c) _) (@Eq.trans ((⟨Cert.KernelIdeal.S2048x128, .f32⟩ : BufTy).Contents (Elt Ideal)) _ _ _ q3 (congrFun hR _).symm)⟩

theorem K18 : W25 m ρ c = after Cert.KernelIdeal.Gen.hostOps6 (W24 m ρ c) := rfl

theorem I18 (hag : Agree m m' c) :
    (@Eq ((⟨Cert.KernelIdeal.S_, .f32⟩ : BufTy).Contents (Elt Ideal)) (W25 m ρ c (Proc.devRef .tc Cert.KernelIdeal.main_cst_46)) ((after (List.take 239 (Cert.ReferenceIdeal.ValueP.ops (F := Ideal))) (StableHlo.launchContents m' c)) (Proc.devRef .tc Cert.ReferenceIdeal.main_cst_42)))
    ∧ (@Eq ((⟨Cert.KernelIdeal.S300000, .i1⟩ : BufTy).Contents (Elt Ideal)) (W25 m ρ c (Proc.devRef .tc Cert.KernelIdeal.main_v179)) ((after (List.take 239 (Cert.ReferenceIdeal.ValueP.ops (F := Ideal))) (StableHlo.launchContents m' c)) (Proc.devRef .tc Cert.ReferenceIdeal.main_v176)))
    ∧ (@Eq ((⟨Cert.KernelIdeal.S300000, .f32⟩ : BufTy).Contents (Elt Ideal)) (W25 m ρ c (Proc.devRef .tc Cert.KernelIdeal.main_v182)) ((after (List.take 239 (Cert.ReferenceIdeal.ValueP.ops (F := Ideal))) (StableHlo.launchContents m' c)) (Proc.devRef .tc Cert.ReferenceIdeal.main_v179)))
    ∧ (@Eq ((⟨Cert.KernelIdeal.S1500000, .i32⟩ : BufTy).Contents (Elt Ideal)) (W25 m ρ c (Proc.devRef .tc Cert.KernelIdeal.main_v172)) ((after (List.take 239 (Cert.ReferenceIdeal.ValueP.ops (F := Ideal))) (StableHlo.launchContents m' c)) (Proc.devRef .tc Cert.ReferenceIdeal.main_v169)))
    ∧ (@Eq ((⟨Cert.KernelIdeal.S300000x128, .f32⟩ : BufTy).Contents (Elt Ideal)) (W25 m ρ c (Proc.devRef .tc Cert.KernelIdeal.main_v170)) ((after (List.take 239 (Cert.ReferenceIdeal.ValueP.ops (F := Ideal))) (StableHlo.launchContents m' c)) (Proc.devRef .tc Cert.ReferenceIdeal.main_v167)))
    ∧ (@Eq ((⟨Cert.KernelIdeal.S1500000, .i32⟩ : BufTy).Contents (Elt Ideal)) (W25 m ρ c (Proc.devRef .tc Cert.KernelIdeal.main_v173)) ((after (List.take 239 (Cert.ReferenceIdeal.ValueP.ops (F := Ideal))) (StableHlo.launchContents m' c)) (Proc.devRef .tc Cert.ReferenceIdeal.main_v170)))
    ∧ (@Eq ((⟨Cert.KernelIdeal.S1200000, .i32⟩ : BufTy).Contents (Elt Ideal)) (W25 m ρ c (Proc.devRef .tc Cert.KernelIdeal.main_v165)) ((after (List.take 239 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W25 m ρ c (Proc.devRef .tc Cert.KernelIdeal.main_v167)) ((after (List.take 239 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W25 m ρ c (Proc.devRef .tc Cert.KernelIdeal.main_v163)) ((after (List.take 239 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v170, i_v165, i_v167, i_v163⟩ := I17 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 239 (Cert.ReferenceIdeal.ValueP.ops (F := Ideal))) (StableHlo.launchContents m' c) = after rpiece18 (after (List.take 222 (Cert.ReferenceIdeal.ValueP.ops (F := Ideal))) (StableHlo.launchContents m' c)) :=
    Cert.FoldCuts.after_take_add (Cert.ReferenceIdeal.ValueP.ops (F := Ideal)) 222 17 (StableHlo.launchContents m' c)
  obtain ⟨q0, q1, q2, q3, q4, q5, q6, q7, q8⟩ := piece18 (W24 m ρ c) (after (List.take 222 (Cert.ReferenceIdeal.ValueP.ops (F := Ideal))) (StableHlo.launchContents m' c)) i_v165
    i_v167
    i_v170
    i_v163
  exact ⟨@Eq.trans ((⟨Cert.KernelIdeal.S_, .f32⟩ : BufTy).Contents (Elt Ideal)) _ _ _ (congrFun (K18 m ρ c) _) (@Eq.trans ((⟨Cert.KernelIdeal.S_, .f32⟩ : BufTy).Contents (Elt Ideal)) _ _ _ q0 (congrFun hR _).symm),
    @Eq.trans ((⟨Cert.KernelIdeal.S300000, .i1⟩ : BufTy).Contents (Elt Ideal)) _ _ _ (congrFun (K18 m ρ c) _) (@Eq.trans ((⟨Cert.KernelIdeal.S300000, .i1⟩ : BufTy).Contents (Elt Ideal)) _ _ _ q1 (congrFun hR _).symm),
    @Eq.trans ((⟨Cert.KernelIdeal.S300000, .f32⟩ : BufTy).Contents (Elt Ideal)) _ _ _ (congrFun (K18 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K18 m ρ c) _) (@Eq.trans ((⟨Cert.KernelIdeal.S1500000, .i32⟩ : BufTy).Contents (Elt Ideal)) _ _ _ q3 (congrFun hR _).symm),
    @Eq.trans ((⟨Cert.KernelIdeal.S300000x128, .f32⟩ : BufTy).Contents (Elt Ideal)) _ _ _ (congrFun (K18 m ρ c) _) (@Eq.trans ((⟨Cert.KernelIdeal.S300000x128, .f32⟩ : BufTy).Contents (Elt Ideal)) _ _ _ q4 (congrFun hR _).symm),
    @Eq.trans ((⟨Cert.KernelIdeal.S1500000, .i32⟩ : BufTy).Contents (Elt Ideal)) _ _ _ (congrFun (K18 m ρ c) _) (@Eq.trans ((⟨Cert.KernelIdeal.S1500000, .i32⟩ : BufTy).Contents (Elt Ideal)) _ _ _ q5 (congrFun hR _).symm),
    @Eq.trans ((⟨Cert.KernelIdeal.S1200000, .i32⟩ : BufTy).Contents (Elt Ideal)) _ _ _ (congrFun (K18 m ρ c) _) (@Eq.trans ((⟨Cert.KernelIdeal.S1200000, .i32⟩ : BufTy).Contents (Elt Ideal)) _ _ _ q6 (congrFun hR _).symm),
    @Eq.trans ((⟨Cert.KernelIdeal.S1200000, .i32⟩ : BufTy).Contents (Elt Ideal)) _ _ _ (congrFun (K18 m ρ c) _) (@Eq.trans ((⟨Cert.KernelIdeal.S1200000, .i32⟩ : BufTy).Contents (Elt Ideal)) _ _ _ q7 (congrFun hR _).symm),
    @Eq.trans ((⟨Cert.KernelIdeal.S2048x128, .f32⟩ : BufTy).Contents (Elt Ideal)) _ _ _ (congrFun (K18 m ρ c) _) (@Eq.trans ((⟨Cert.KernelIdeal.S2048x128, .f32⟩ : BufTy).Contents (Elt Ideal)) _ _ _ q8 (congrFun hR _).symm)⟩

theorem K19 : W26 m ρ c = after Cert.KernelIdeal.Gen.hostOps6_1 (W25 m ρ c) := rfl

theorem I19 (hag : Agree m m' c) :
    (@Eq ((⟨Cert.KernelIdeal.S1500000, .i32⟩ : BufTy).Contents (Elt Ideal)) (W26 m ρ c (Proc.devRef .tc Cert.KernelIdeal.main_v172)) ((after (List.take 242 (Cert.ReferenceIdeal.ValueP.ops (F := Ideal))) (StableHlo.launchContents m' c)) (Proc.devRef .tc Cert.ReferenceIdeal.main_v169)))
    ∧ (@Eq ((⟨Cert.KernelIdeal.S300000x128, .f32⟩ : BufTy).Contents (Elt Ideal)) (W26 m ρ c (Proc.devRef .tc Cert.KernelIdeal.main_v170)) ((after (List.take 242 (Cert.ReferenceIdeal.ValueP.ops (F := Ideal))) (StableHlo.launchContents m' c)) (Proc.devRef .tc Cert.ReferenceIdeal.main_v167)))
    ∧ (@Eq ((⟨Cert.KernelIdeal.S300000, .f32⟩ : BufTy).Contents (Elt Ideal)) (W26 m ρ c (Proc.devRef .tc Cert.KernelIdeal.main_v183)) ((after (List.take 242 (Cert.ReferenceIdeal.ValueP.ops (F := Ideal))) (StableHlo.launchContents m' c)) (Proc.devRef .tc Cert.ReferenceIdeal.main_v180)))
    ∧ (@Eq ((⟨Cert.KernelIdeal.S1500000, .i32⟩ : BufTy).Contents (Elt Ideal)) (W26 m ρ c (Proc.devRef .tc Cert.KernelIdeal.main_v173)) ((after (List.take 242 (Cert.ReferenceIdeal.ValueP.ops (F := Ideal))) (StableHlo.launchContents m' c)) (Proc.devRef .tc Cert.ReferenceIdeal.main_v170)))
    ∧ (@Eq ((⟨Cert.KernelIdeal.S1200000, .i32⟩ : BufTy).Contents (Elt Ideal)) (W26 m ρ c (Proc.devRef .tc Cert.KernelIdeal.main_v165)) ((after (List.take 242 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W26 m ρ c (Proc.devRef .tc Cert.KernelIdeal.main_v167)) ((after (List.take 242 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W26 m ρ c (Proc.devRef .tc Cert.KernelIdeal.main_v163)) ((after (List.take 242 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_46, i_v179, i_v182, i_v172, i_v170, i_v173, i_v165, i_v167, i_v163⟩ := I18 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 242 (Cert.ReferenceIdeal.ValueP.ops (F := Ideal))) (StableHlo.launchContents m' c) = after rpiece19 (after (List.take 239 (Cert.ReferenceIdeal.ValueP.ops (F := Ideal))) (StableHlo.launchContents m' c)) :=
    Cert.FoldCuts.after_take_add (Cert.ReferenceIdeal.ValueP.ops (F := Ideal)) 239 3 (StableHlo.launchContents m' c)
  obtain ⟨q0, q1, q2, q3, q4, q5, q6⟩ := piece19 (W25 m ρ c) (after (List.take 239 (Cert.ReferenceIdeal.ValueP.ops (F := Ideal))) (StableHlo.launchContents m' c)) i_cst_46
    i_v179
    i_v182
    i_v172
    i_v170
    i_v173
    i_v165
    i_v167
    i_v163
  exact ⟨@Eq.trans ((⟨Cert.KernelIdeal.S1500000, .i32⟩ : BufTy).Contents (Elt Ideal)) _ _ _ (congrFun (K19 m ρ c) _) (@Eq.trans ((⟨Cert.KernelIdeal.S1500000, .i32⟩ : BufTy).Contents (Elt Ideal)) _ _ _ q0 (congrFun hR _).symm),
    @Eq.trans ((⟨Cert.KernelIdeal.S300000x128, .f32⟩ : BufTy).Contents (Elt Ideal)) _ _ _ (congrFun (K19 m ρ c) _) (@Eq.trans ((⟨Cert.KernelIdeal.S300000x128, .f32⟩ : BufTy).Contents (Elt Ideal)) _ _ _ q1 (congrFun hR _).symm),
    @Eq.trans ((⟨Cert.KernelIdeal.S300000, .f32⟩ : BufTy).Contents (Elt Ideal)) _ _ _ (congrFun (K19 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K19 m ρ c) _) (@Eq.trans ((⟨Cert.KernelIdeal.S1500000, .i32⟩ : BufTy).Contents (Elt Ideal)) _ _ _ q3 (congrFun hR _).symm),
    @Eq.trans ((⟨Cert.KernelIdeal.S1200000, .i32⟩ : BufTy).Contents (Elt Ideal)) _ _ _ (congrFun (K19 m ρ c) _) (@Eq.trans ((⟨Cert.KernelIdeal.S1200000, .i32⟩ : BufTy).Contents (Elt Ideal)) _ _ _ q4 (congrFun hR _).symm),
    @Eq.trans ((⟨Cert.KernelIdeal.S1200000, .i32⟩ : BufTy).Contents (Elt Ideal)) _ _ _ (congrFun (K19 m ρ c) _) (@Eq.trans ((⟨Cert.KernelIdeal.S1200000, .i32⟩ : BufTy).Contents (Elt Ideal)) _ _ _ q5 (congrFun hR _).symm),
    @Eq.trans ((⟨Cert.KernelIdeal.S2048x128, .f32⟩ : BufTy).Contents (Elt Ideal)) _ _ _ (congrFun (K19 m ρ c) _) (@Eq.trans ((⟨Cert.KernelIdeal.S2048x128, .f32⟩ : BufTy).Contents (Elt Ideal)) _ _ _ q6 (congrFun hR _).symm)⟩

theorem K20 : W27 m ρ c = after Cert.KernelIdeal.Gen.hostOps6_2 (W26 m ρ c) := rfl

theorem I20 (hag : Agree m m' c) :
    (@Eq ((⟨Cert.KernelIdeal.S300000x128, .f32⟩ : BufTy).Contents (Elt Ideal)) (W27 m ρ c (Proc.devRef .tc Cert.KernelIdeal.main_v214)) ((after (List.take 280 (Cert.ReferenceIdeal.ValueP.ops (F := Ideal))) (StableHlo.launchContents m' c)) (Proc.devRef .tc Cert.ReferenceIdeal.main_v211)))
    ∧ (@Eq ((⟨Cert.KernelIdeal.S1200000, .i32⟩ : BufTy).Contents (Elt Ideal)) (W27 m ρ c (Proc.devRef .tc Cert.KernelIdeal.main_v165)) ((after (List.take 280 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W27 m ρ c (Proc.devRef .tc Cert.KernelIdeal.main_v167)) ((after (List.take 280 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W27 m ρ c (Proc.devRef .tc Cert.KernelIdeal.main_v163)) ((after (List.take 280 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v172, i_v170, i_v183, i_v173, i_v165, i_v167, i_v163⟩ := I19 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 280 (Cert.ReferenceIdeal.ValueP.ops (F := Ideal))) (StableHlo.launchContents m' c) = after rpiece20 (after (List.take 242 (Cert.ReferenceIdeal.ValueP.ops (F := Ideal))) (StableHlo.launchContents m' c)) :=
    Cert.FoldCuts.after_take_add (Cert.ReferenceIdeal.ValueP.ops (F := Ideal)) 242 38 (StableHlo.launchContents m' c)
  obtain ⟨q0, q1, q2, q3⟩ := piece20 (W26 m ρ c) (after (List.take 242 (Cert.ReferenceIdeal.ValueP.ops (F := Ideal))) (StableHlo.launchContents m' c)) i_v172
    i_v170
    i_v183
    i_v173
    (@Eq.trans ((⟨Cert.KernelIdeal.S128, .f32⟩ : BufTy).Contents (Elt Ideal)) _ _ _ (arg_at26 m ρ c Cert.KernelIdeal.main_arg13 (by decide)) (@Eq.trans ((⟨Cert.KernelIdeal.S128, .f32⟩ : BufTy).Contents (Elt Ideal)) _ _ _ a13.symm (argR m' c 242 Cert.ReferenceIdeal.main_arg13 (by decide)).symm))
    i_v165
    i_v167
    i_v163
  exact ⟨@Eq.trans ((⟨Cert.KernelIdeal.S300000x128, .f32⟩ : BufTy).Contents (Elt Ideal)) _ _ _ (congrFun (K20 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K20 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K20 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K20 m ρ c) _) (@Eq.trans ((⟨Cert.KernelIdeal.S2048x128, .f32⟩ : BufTy).Contents (Elt Ideal)) _ _ _ q3 (congrFun hR _).symm)⟩

theorem K21 : W28 m ρ c = after Cert.KernelIdeal.Gen.hostOps6_3 (W27 m ρ c) := rfl

theorem I21 (hag : Agree m m' c) :
    (@Eq ((⟨Cert.KernelIdeal.S300000x128, .f32⟩ : BufTy).Contents (Elt Ideal)) (W28 m ρ c (Proc.devRef .tc Cert.KernelIdeal.main_v215)) ((after (List.take 283 (Cert.ReferenceIdeal.ValueP.ops (F := Ideal))) (StableHlo.launchContents m' c)) (Proc.devRef .tc Cert.ReferenceIdeal.main_v212)))
    ∧ (@Eq ((⟨Cert.KernelIdeal.S1200000, .i32⟩ : BufTy).Contents (Elt Ideal)) (W28 m ρ c (Proc.devRef .tc Cert.KernelIdeal.main_v165)) ((after (List.take 283 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W28 m ρ c (Proc.devRef .tc Cert.KernelIdeal.main_v167)) ((after (List.take 283 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W28 m ρ c (Proc.devRef .tc Cert.KernelIdeal.main_v163)) ((after (List.take 283 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v214, i_v165, i_v167, i_v163⟩ := I20 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 283 (Cert.ReferenceIdeal.ValueP.ops (F := Ideal))) (StableHlo.launchContents m' c) = after rpiece21 (after (List.take 280 (Cert.ReferenceIdeal.ValueP.ops (F := Ideal))) (StableHlo.launchContents m' c)) :=
    Cert.FoldCuts.after_take_add (Cert.ReferenceIdeal.ValueP.ops (F := Ideal)) 280 3 (StableHlo.launchContents m' c)
  obtain ⟨q0, q1, q2, q3⟩ := piece21 (W27 m ρ c) (after (List.take 280 (Cert.ReferenceIdeal.ValueP.ops (F := Ideal))) (StableHlo.launchContents m' c)) i_v214
    i_v165
    i_v167
    i_v163
  exact ⟨@Eq.trans ((⟨Cert.KernelIdeal.S300000x128, .f32⟩ : BufTy).Contents (Elt Ideal)) _ _ _ (congrFun (K21 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K21 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K21 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K21 m ρ c) _) (@Eq.trans ((⟨Cert.KernelIdeal.S2048x128, .f32⟩ : BufTy).Contents (Elt Ideal)) _ _ _ q3 (congrFun hR _).symm)⟩

theorem K22 : W30 m ρ c = after (Cert.KernelIdeal.Gen.hostOps6_4 ++ [Cert.KernelIdeal.Dense.dop6]) (W28 m ρ c) := by
  simp only [Cert.FoldCuts.after_append]
  exact region6 m ρ c

theorem I22 (hag : Agree m m' c) :
    (@Eq ((⟨Cert.KernelIdeal.S300000x128, .f32⟩ : BufTy).Contents (Elt Ideal)) (W30 m ρ c (Proc.devRef .tc Cert.KernelIdeal.main_v218)) ((after (List.take 284 (Cert.ReferenceIdeal.ValueP.ops (F := Ideal))) (StableHlo.launchContents m' c)) (Proc.devRef .tc Cert.ReferenceIdeal.main_v213)))
    ∧ (@Eq ((⟨Cert.KernelIdeal.S1200000, .i32⟩ : BufTy).Contents (Elt Ideal)) (W30 m ρ c (Proc.devRef .tc Cert.KernelIdeal.main_v165)) ((after (List.take 284 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W30 m ρ c (Proc.devRef .tc Cert.KernelIdeal.main_v167)) ((after (List.take 284 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W30 m ρ c (Proc.devRef .tc Cert.KernelIdeal.main_v163)) ((after (List.take 284 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v215, i_v165, i_v167, i_v163⟩ := I21 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 284 (Cert.ReferenceIdeal.ValueP.ops (F := Ideal))) (StableHlo.launchContents m' c) = after rpiece22 (after (List.take 283 (Cert.ReferenceIdeal.ValueP.ops (F := Ideal))) (StableHlo.launchContents m' c)) :=
    Cert.FoldCuts.after_take_add (Cert.ReferenceIdeal.ValueP.ops (F := Ideal)) 283 1 (StableHlo.launchContents m' c)
  obtain ⟨q0, q1, q2, q3⟩ := piece22 (W28 m ρ c) (after (List.take 283 (Cert.ReferenceIdeal.ValueP.ops (F := Ideal))) (StableHlo.launchContents m' c)) i_v215
    (@Eq.trans ((⟨Cert.KernelIdeal.S128x128, .f32⟩ : BufTy).Contents (Elt Ideal)) _ _ _ (arg_at28 m ρ c Cert.KernelIdeal.main_arg14 (by decide)) (@Eq.trans ((⟨Cert.KernelIdeal.S128x128, .f32⟩ : BufTy).Contents (Elt Ideal)) _ _ _ a14.symm (argR m' c 283 Cert.ReferenceIdeal.main_arg14 (by decide)).symm))
    i_v165
    i_v167
    i_v163
  exact ⟨@Eq.trans ((⟨Cert.KernelIdeal.S300000x128, .f32⟩ : BufTy).Contents (Elt Ideal)) _ _ _ (congrFun (K22 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K22 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K22 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K22 m ρ c) _) (@Eq.trans ((⟨Cert.KernelIdeal.S2048x128, .f32⟩ : BufTy).Contents (Elt Ideal)) _ _ _ q3 (congrFun hR _).symm)⟩

theorem K23 : W31 m ρ c = after Cert.KernelIdeal.Gen.hostOps7 (W30 m ρ c) := rfl

theorem I23 (hag : Agree m m' c) :
    (@Eq ((⟨Cert.KernelIdeal.S_, .f32⟩ : BufTy).Contents (Elt Ideal)) (W31 m ρ c (Proc.devRef .tc Cert.KernelIdeal.main_cst_59)) ((after (List.take 301 (Cert.ReferenceIdeal.ValueP.ops (F := Ideal))) (StableHlo.launchContents m' c)) (Proc.devRef .tc Cert.ReferenceIdeal.main_cst_54)))
    ∧ (@Eq ((⟨Cert.KernelIdeal.S300000, .i1⟩ : BufTy).Contents (Elt Ideal)) (W31 m ρ c (Proc.devRef .tc Cert.KernelIdeal.main_v227)) ((after (List.take 301 (Cert.ReferenceIdeal.ValueP.ops (F := Ideal))) (StableHlo.launchContents m' c)) (Proc.devRef .tc Cert.ReferenceIdeal.main_v222)))
    ∧ (@Eq ((⟨Cert.KernelIdeal.S300000, .f32⟩ : BufTy).Contents (Elt Ideal)) (W31 m ρ c (Proc.devRef .tc Cert.KernelIdeal.main_v230)) ((after (List.take 301 (Cert.ReferenceIdeal.ValueP.ops (F := Ideal))) (StableHlo.launchContents m' c)) (Proc.devRef .tc Cert.ReferenceIdeal.main_v225)))
    ∧ (@Eq ((⟨Cert.KernelIdeal.S1500000, .i32⟩ : BufTy).Contents (Elt Ideal)) (W31 m ρ c (Proc.devRef .tc Cert.KernelIdeal.main_v220)) ((after (List.take 301 (Cert.ReferenceIdeal.ValueP.ops (F := Ideal))) (StableHlo.launchContents m' c)) (Proc.devRef .tc Cert.ReferenceIdeal.main_v215)))
    ∧ (@Eq ((⟨Cert.KernelIdeal.S300000x128, .f32⟩ : BufTy).Contents (Elt Ideal)) (W31 m ρ c (Proc.devRef .tc Cert.KernelIdeal.main_v218)) ((after (List.take 301 (Cert.ReferenceIdeal.ValueP.ops (F := Ideal))) (StableHlo.launchContents m' c)) (Proc.devRef .tc Cert.ReferenceIdeal.main_v213)))
    ∧ (@Eq ((⟨Cert.KernelIdeal.S1500000, .i32⟩ : BufTy).Contents (Elt Ideal)) (W31 m ρ c (Proc.devRef .tc Cert.KernelIdeal.main_v221)) ((after (List.take 301 (Cert.ReferenceIdeal.ValueP.ops (F := Ideal))) (StableHlo.launchContents m' c)) (Proc.devRef .tc Cert.ReferenceIdeal.main_v216)))
    ∧ (@Eq ((⟨Cert.KernelIdeal.S1200000, .i32⟩ : BufTy).Contents (Elt Ideal)) (W31 m ρ c (Proc.devRef .tc Cert.KernelIdeal.main_v165)) ((after (List.take 301 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W31 m ρ c (Proc.devRef .tc Cert.KernelIdeal.main_v167)) ((after (List.take 301 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W31 m ρ c (Proc.devRef .tc Cert.KernelIdeal.main_v163)) ((after (List.take 301 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v218, i_v165, i_v167, i_v163⟩ := I22 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 301 (Cert.ReferenceIdeal.ValueP.ops (F := Ideal))) (StableHlo.launchContents m' c) = after rpiece23 (after (List.take 284 (Cert.ReferenceIdeal.ValueP.ops (F := Ideal))) (StableHlo.launchContents m' c)) :=
    Cert.FoldCuts.after_take_add (Cert.ReferenceIdeal.ValueP.ops (F := Ideal)) 284 17 (StableHlo.launchContents m' c)
  obtain ⟨q0, q1, q2, q3, q4, q5, q6, q7, q8⟩ := piece23 (W30 m ρ c) (after (List.take 284 (Cert.ReferenceIdeal.ValueP.ops (F := Ideal))) (StableHlo.launchContents m' c)) i_v165
    i_v167
    i_v218
    i_v163
  exact ⟨@Eq.trans ((⟨Cert.KernelIdeal.S_, .f32⟩ : BufTy).Contents (Elt Ideal)) _ _ _ (congrFun (K23 m ρ c) _) (@Eq.trans ((⟨Cert.KernelIdeal.S_, .f32⟩ : BufTy).Contents (Elt Ideal)) _ _ _ q0 (congrFun hR _).symm),
    @Eq.trans ((⟨Cert.KernelIdeal.S300000, .i1⟩ : BufTy).Contents (Elt Ideal)) _ _ _ (congrFun (K23 m ρ c) _) (@Eq.trans ((⟨Cert.KernelIdeal.S300000, .i1⟩ : BufTy).Contents (Elt Ideal)) _ _ _ q1 (congrFun hR _).symm),
    @Eq.trans ((⟨Cert.KernelIdeal.S300000, .f32⟩ : BufTy).Contents (Elt Ideal)) _ _ _ (congrFun (K23 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K23 m ρ c) _) (@Eq.trans ((⟨Cert.KernelIdeal.S1500000, .i32⟩ : BufTy).Contents (Elt Ideal)) _ _ _ q3 (congrFun hR _).symm),
    @Eq.trans ((⟨Cert.KernelIdeal.S300000x128, .f32⟩ : BufTy).Contents (Elt Ideal)) _ _ _ (congrFun (K23 m ρ c) _) (@Eq.trans ((⟨Cert.KernelIdeal.S300000x128, .f32⟩ : BufTy).Contents (Elt Ideal)) _ _ _ q4 (congrFun hR _).symm),
    @Eq.trans ((⟨Cert.KernelIdeal.S1500000, .i32⟩ : BufTy).Contents (Elt Ideal)) _ _ _ (congrFun (K23 m ρ c) _) (@Eq.trans ((⟨Cert.KernelIdeal.S1500000, .i32⟩ : BufTy).Contents (Elt Ideal)) _ _ _ q5 (congrFun hR _).symm),
    @Eq.trans ((⟨Cert.KernelIdeal.S1200000, .i32⟩ : BufTy).Contents (Elt Ideal)) _ _ _ (congrFun (K23 m ρ c) _) (@Eq.trans ((⟨Cert.KernelIdeal.S1200000, .i32⟩ : BufTy).Contents (Elt Ideal)) _ _ _ q6 (congrFun hR _).symm),
    @Eq.trans ((⟨Cert.KernelIdeal.S1200000, .i32⟩ : BufTy).Contents (Elt Ideal)) _ _ _ (congrFun (K23 m ρ c) _) (@Eq.trans ((⟨Cert.KernelIdeal.S1200000, .i32⟩ : BufTy).Contents (Elt Ideal)) _ _ _ q7 (congrFun hR _).symm),
    @Eq.trans ((⟨Cert.KernelIdeal.S2048x128, .f32⟩ : BufTy).Contents (Elt Ideal)) _ _ _ (congrFun (K23 m ρ c) _) (@Eq.trans ((⟨Cert.KernelIdeal.S2048x128, .f32⟩ : BufTy).Contents (Elt Ideal)) _ _ _ q8 (congrFun hR _).symm)⟩

theorem K24 : W32 m ρ c = after Cert.KernelIdeal.Gen.hostOps7_1 (W31 m ρ c) := rfl

theorem I24 (hag : Agree m m' c) :
    (@Eq ((⟨Cert.KernelIdeal.S1500000, .i32⟩ : BufTy).Contents (Elt Ideal)) (W32 m ρ c (Proc.devRef .tc Cert.KernelIdeal.main_v220)) ((after (List.take 304 (Cert.ReferenceIdeal.ValueP.ops (F := Ideal))) (StableHlo.launchContents m' c)) (Proc.devRef .tc Cert.ReferenceIdeal.main_v215)))
    ∧ (@Eq ((⟨Cert.KernelIdeal.S300000x128, .f32⟩ : BufTy).Contents (Elt Ideal)) (W32 m ρ c (Proc.devRef .tc Cert.KernelIdeal.main_v218)) ((after (List.take 304 (Cert.ReferenceIdeal.ValueP.ops (F := Ideal))) (StableHlo.launchContents m' c)) (Proc.devRef .tc Cert.ReferenceIdeal.main_v213)))
    ∧ (@Eq ((⟨Cert.KernelIdeal.S300000, .f32⟩ : BufTy).Contents (Elt Ideal)) (W32 m ρ c (Proc.devRef .tc Cert.KernelIdeal.main_v231)) ((after (List.take 304 (Cert.ReferenceIdeal.ValueP.ops (F := Ideal))) (StableHlo.launchContents m' c)) (Proc.devRef .tc Cert.ReferenceIdeal.main_v226)))
    ∧ (@Eq ((⟨Cert.KernelIdeal.S1500000, .i32⟩ : BufTy).Contents (Elt Ideal)) (W32 m ρ c (Proc.devRef .tc Cert.KernelIdeal.main_v221)) ((after (List.take 304 (Cert.ReferenceIdeal.ValueP.ops (F := Ideal))) (StableHlo.launchContents m' c)) (Proc.devRef .tc Cert.ReferenceIdeal.main_v216)))
    ∧ (@Eq ((⟨Cert.KernelIdeal.S1200000, .i32⟩ : BufTy).Contents (Elt Ideal)) (W32 m ρ c (Proc.devRef .tc Cert.KernelIdeal.main_v165)) ((after (List.take 304 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W32 m ρ c (Proc.devRef .tc Cert.KernelIdeal.main_v167)) ((after (List.take 304 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W32 m ρ c (Proc.devRef .tc Cert.KernelIdeal.main_v163)) ((after (List.take 304 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_59, i_v227, i_v230, i_v220, i_v218, i_v221, i_v165, i_v167, i_v163⟩ := I23 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 304 (Cert.ReferenceIdeal.ValueP.ops (F := Ideal))) (StableHlo.launchContents m' c) = after rpiece24 (after (List.take 301 (Cert.ReferenceIdeal.ValueP.ops (F := Ideal))) (StableHlo.launchContents m' c)) :=
    Cert.FoldCuts.after_take_add (Cert.ReferenceIdeal.ValueP.ops (F := Ideal)) 301 3 (StableHlo.launchContents m' c)
  obtain ⟨q0, q1, q2, q3, q4, q5, q6⟩ := piece24 (W31 m ρ c) (after (List.take 301 (Cert.ReferenceIdeal.ValueP.ops (F := Ideal))) (StableHlo.launchContents m' c)) i_cst_59
    i_v227
    i_v230
    i_v220
    i_v218
    i_v221
    i_v165
    i_v167
    i_v163
  exact ⟨@Eq.trans ((⟨Cert.KernelIdeal.S1500000, .i32⟩ : BufTy).Contents (Elt Ideal)) _ _ _ (congrFun (K24 m ρ c) _) (@Eq.trans ((⟨Cert.KernelIdeal.S1500000, .i32⟩ : BufTy).Contents (Elt Ideal)) _ _ _ q0 (congrFun hR _).symm),
    @Eq.trans ((⟨Cert.KernelIdeal.S300000x128, .f32⟩ : BufTy).Contents (Elt Ideal)) _ _ _ (congrFun (K24 m ρ c) _) (@Eq.trans ((⟨Cert.KernelIdeal.S300000x128, .f32⟩ : BufTy).Contents (Elt Ideal)) _ _ _ q1 (congrFun hR _).symm),
    @Eq.trans ((⟨Cert.KernelIdeal.S300000, .f32⟩ : BufTy).Contents (Elt Ideal)) _ _ _ (congrFun (K24 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K24 m ρ c) _) (@Eq.trans ((⟨Cert.KernelIdeal.S1500000, .i32⟩ : BufTy).Contents (Elt Ideal)) _ _ _ q3 (congrFun hR _).symm),
    @Eq.trans ((⟨Cert.KernelIdeal.S1200000, .i32⟩ : BufTy).Contents (Elt Ideal)) _ _ _ (congrFun (K24 m ρ c) _) (@Eq.trans ((⟨Cert.KernelIdeal.S1200000, .i32⟩ : BufTy).Contents (Elt Ideal)) _ _ _ q4 (congrFun hR _).symm),
    @Eq.trans ((⟨Cert.KernelIdeal.S1200000, .i32⟩ : BufTy).Contents (Elt Ideal)) _ _ _ (congrFun (K24 m ρ c) _) (@Eq.trans ((⟨Cert.KernelIdeal.S1200000, .i32⟩ : BufTy).Contents (Elt Ideal)) _ _ _ q5 (congrFun hR _).symm),
    @Eq.trans ((⟨Cert.KernelIdeal.S2048x128, .f32⟩ : BufTy).Contents (Elt Ideal)) _ _ _ (congrFun (K24 m ρ c) _) (@Eq.trans ((⟨Cert.KernelIdeal.S2048x128, .f32⟩ : BufTy).Contents (Elt Ideal)) _ _ _ q6 (congrFun hR _).symm)⟩

theorem K25 : W33 m ρ c = after Cert.KernelIdeal.Gen.hostOps7_2 (W32 m ρ c) := rfl

theorem I25 (hag : Agree m m' c) :
    (@Eq ((⟨Cert.KernelIdeal.S300000x128, .f32⟩ : BufTy).Contents (Elt Ideal)) (W33 m ρ c (Proc.devRef .tc Cert.KernelIdeal.main_v262)) ((after (List.take 342 (Cert.ReferenceIdeal.ValueP.ops (F := Ideal))) (StableHlo.launchContents m' c)) (Proc.devRef .tc Cert.ReferenceIdeal.main_v257)))
    ∧ (@Eq ((⟨Cert.KernelIdeal.S1200000, .i32⟩ : BufTy).Contents (Elt Ideal)) (W33 m ρ c (Proc.devRef .tc Cert.KernelIdeal.main_v165)) ((after (List.take 342 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W33 m ρ c (Proc.devRef .tc Cert.KernelIdeal.main_v167)) ((after (List.take 342 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W33 m ρ c (Proc.devRef .tc Cert.KernelIdeal.main_v163)) ((after (List.take 342 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v220, i_v218, i_v231, i_v221, i_v165, i_v167, i_v163⟩ := I24 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 342 (Cert.ReferenceIdeal.ValueP.ops (F := Ideal))) (StableHlo.launchContents m' c) = after rpiece25 (after (List.take 304 (Cert.ReferenceIdeal.ValueP.ops (F := Ideal))) (StableHlo.launchContents m' c)) :=
    Cert.FoldCuts.after_take_add (Cert.ReferenceIdeal.ValueP.ops (F := Ideal)) 304 38 (StableHlo.launchContents m' c)
  obtain ⟨q0, q1, q2, q3⟩ := piece25 (W32 m ρ c) (after (List.take 304 (Cert.ReferenceIdeal.ValueP.ops (F := Ideal))) (StableHlo.launchContents m' c)) i_v220
    i_v218
    i_v231
    i_v221
    (@Eq.trans ((⟨Cert.KernelIdeal.S128, .f32⟩ : BufTy).Contents (Elt Ideal)) _ _ _ (arg_at32 m ρ c Cert.KernelIdeal.main_arg15 (by decide)) (@Eq.trans ((⟨Cert.KernelIdeal.S128, .f32⟩ : BufTy).Contents (Elt Ideal)) _ _ _ a15.symm (argR m' c 304 Cert.ReferenceIdeal.main_arg15 (by decide)).symm))
    i_v165
    i_v167
    i_v163
  exact ⟨@Eq.trans ((⟨Cert.KernelIdeal.S300000x128, .f32⟩ : BufTy).Contents (Elt Ideal)) _ _ _ (congrFun (K25 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K25 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K25 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K25 m ρ c) _) (@Eq.trans ((⟨Cert.KernelIdeal.S2048x128, .f32⟩ : BufTy).Contents (Elt Ideal)) _ _ _ q3 (congrFun hR _).symm)⟩

theorem K26 : W34 m ρ c = after Cert.KernelIdeal.Gen.hostOps7_3 (W33 m ρ c) := rfl

theorem I26 (hag : Agree m m' c) :
    (@Eq ((⟨Cert.KernelIdeal.S300000x128, .f32⟩ : BufTy).Contents (Elt Ideal)) (W34 m ρ c (Proc.devRef .tc Cert.KernelIdeal.main_v263)) ((after (List.take 345 (Cert.ReferenceIdeal.ValueP.ops (F := Ideal))) (StableHlo.launchContents m' c)) (Proc.devRef .tc Cert.ReferenceIdeal.main_v258)))
    ∧ (@Eq ((⟨Cert.KernelIdeal.S1200000, .i32⟩ : BufTy).Contents (Elt Ideal)) (W34 m ρ c (Proc.devRef .tc Cert.KernelIdeal.main_v165)) ((after (List.take 345 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W34 m ρ c (Proc.devRef .tc Cert.KernelIdeal.main_v167)) ((after (List.take 345 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W34 m ρ c (Proc.devRef .tc Cert.KernelIdeal.main_v163)) ((after (List.take 345 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v262, i_v165, i_v167, i_v163⟩ := I25 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 345 (Cert.ReferenceIdeal.ValueP.ops (F := Ideal))) (StableHlo.launchContents m' c) = after rpiece26 (after (List.take 342 (Cert.ReferenceIdeal.ValueP.ops (F := Ideal))) (StableHlo.launchContents m' c)) :=
    Cert.FoldCuts.after_take_add (Cert.ReferenceIdeal.ValueP.ops (F := Ideal)) 342 3 (StableHlo.launchContents m' c)
  obtain ⟨q0, q1, q2, q3⟩ := piece26 (W33 m ρ c) (after (List.take 342 (Cert.ReferenceIdeal.ValueP.ops (F := Ideal))) (StableHlo.launchContents m' c)) i_v262
    i_v165
    i_v167
    i_v163
  exact ⟨@Eq.trans ((⟨Cert.KernelIdeal.S300000x128, .f32⟩ : BufTy).Contents (Elt Ideal)) _ _ _ (congrFun (K26 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K26 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K26 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K26 m ρ c) _) (@Eq.trans ((⟨Cert.KernelIdeal.S2048x128, .f32⟩ : BufTy).Contents (Elt Ideal)) _ _ _ q3 (congrFun hR _).symm)⟩

theorem K27 : W36 m ρ c = after (Cert.KernelIdeal.Gen.hostOps7_4 ++ [Cert.KernelIdeal.Dense.dop7]) (W34 m ρ c) := by
  simp only [Cert.FoldCuts.after_append]
  exact region7 m ρ c

theorem I27 (hag : Agree m m' c) :
    (@Eq ((⟨Cert.KernelIdeal.S300000x128, .f32⟩ : BufTy).Contents (Elt Ideal)) (W36 m ρ c (Proc.devRef .tc Cert.KernelIdeal.main_v266)) ((after (List.take 346 (Cert.ReferenceIdeal.ValueP.ops (F := Ideal))) (StableHlo.launchContents m' c)) (Proc.devRef .tc Cert.ReferenceIdeal.main_v259)))
    ∧ (@Eq ((⟨Cert.KernelIdeal.S1200000, .i32⟩ : BufTy).Contents (Elt Ideal)) (W36 m ρ c (Proc.devRef .tc Cert.KernelIdeal.main_v165)) ((after (List.take 346 (Cert.ReferenceIdeal.ValueP.ops (F := Ideal))) (StableHlo.launchContents m' c)) (Proc.devRef .tc Cert.ReferenceIdeal.main_v164)))
    ∧ (@Eq ((⟨Cert.KernelIdeal.S1200000, .i32⟩ : BufTy).Contents (Elt Ideal)) (W36 m ρ c (Proc.devRef .tc Cert.KernelIdeal.main_v167)) ((after (List.take 346 (Cert.ReferenceIdeal.ValueP.ops (F := Ideal))) (StableHlo.launchContents m' c)) (Proc.devRef .tc Cert.ReferenceIdeal.main_v166)))
    ∧ (@Eq ((⟨Cert.KernelIdeal.S2048x128, .f32⟩ : BufTy).Contents (Elt Ideal)) (W36 m ρ c (Proc.devRef .tc Cert.KernelIdeal.main_v163)) ((after (List.take 346 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v263, i_v165, i_v167, i_v163⟩ := I26 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 346 (Cert.ReferenceIdeal.ValueP.ops (F := Ideal))) (StableHlo.launchContents m' c) = after rpiece27 (after (List.take 345 (Cert.ReferenceIdeal.ValueP.ops (F := Ideal))) (StableHlo.launchContents m' c)) :=
    Cert.FoldCuts.after_take_add (Cert.ReferenceIdeal.ValueP.ops (F := Ideal)) 345 1 (StableHlo.launchContents m' c)
  obtain ⟨q0, q1, q2, q3⟩ := piece27 (W34 m ρ c) (after (List.take 345 (Cert.ReferenceIdeal.ValueP.ops (F := Ideal))) (StableHlo.launchContents m' c)) i_v263
    (@Eq.trans ((⟨Cert.KernelIdeal.S128x128, .f32⟩ : BufTy).Contents (Elt Ideal)) _ _ _ (arg_at34 m ρ c Cert.KernelIdeal.main_arg16 (by decide)) (@Eq.trans ((⟨Cert.KernelIdeal.S128x128, .f32⟩ : BufTy).Contents (Elt Ideal)) _ _ _ a16.symm (argR m' c 345 Cert.ReferenceIdeal.main_arg16 (by decide)).symm))
    i_v165
    i_v167
    i_v163
  exact ⟨@Eq.trans ((⟨Cert.KernelIdeal.S300000x128, .f32⟩ : BufTy).Contents (Elt Ideal)) _ _ _ (congrFun (K27 m ρ c) _) (@Eq.trans ((⟨Cert.KernelIdeal.S300000x128, .f32⟩ : BufTy).Contents (Elt Ideal)) _ _ _ q0 (congrFun hR _).symm),
    @Eq.trans ((⟨Cert.KernelIdeal.S1200000, .i32⟩ : BufTy).Contents (Elt Ideal)) _ _ _ (congrFun (K27 m ρ c) _) (@Eq.trans ((⟨Cert.KernelIdeal.S1200000, .i32⟩ : BufTy).Contents (Elt Ideal)) _ _ _ q1 (congrFun hR _).symm),
    @Eq.trans ((⟨Cert.KernelIdeal.S1200000, .i32⟩ : BufTy).Contents (Elt Ideal)) _ _ _ (congrFun (K27 m ρ c) _) (@Eq.trans ((⟨Cert.KernelIdeal.S1200000, .i32⟩ : BufTy).Contents (Elt Ideal)) _ _ _ q2 (congrFun hR _).symm),
    @Eq.trans ((⟨Cert.KernelIdeal.S2048x128, .f32⟩ : BufTy).Contents (Elt Ideal)) _ _ _ (congrFun (K27 m ρ c) _) (@Eq.trans ((⟨Cert.KernelIdeal.S2048x128, .f32⟩ : BufTy).Contents (Elt Ideal)) _ _ _ q3 (congrFun hR _).symm)⟩

theorem K28 : W37 m ρ c = after Cert.KernelIdeal.Gen.hostOps8 (W36 m ρ c) := rfl

theorem I28 (hag : Agree m m' c) :
    (@Eq ((⟨Cert.KernelIdeal.S_, .f32⟩ : BufTy).Contents (Elt Ideal)) (W37 m ρ c (Proc.devRef .tc Cert.KernelIdeal.main_cst_72)) ((after (List.take 363 (Cert.ReferenceIdeal.ValueP.ops (F := Ideal))) (StableHlo.launchContents m' c)) (Proc.devRef .tc Cert.ReferenceIdeal.main_cst_66)))
    ∧ (@Eq ((⟨Cert.KernelIdeal.S300000, .i1⟩ : BufTy).Contents (Elt Ideal)) (W37 m ρ c (Proc.devRef .tc Cert.KernelIdeal.main_v275)) ((after (List.take 363 (Cert.ReferenceIdeal.ValueP.ops (F := Ideal))) (StableHlo.launchContents m' c)) (Proc.devRef .tc Cert.ReferenceIdeal.main_v268)))
    ∧ (@Eq ((⟨Cert.KernelIdeal.S300000, .f32⟩ : BufTy).Contents (Elt Ideal)) (W37 m ρ c (Proc.devRef .tc Cert.KernelIdeal.main_v278)) ((after (List.take 363 (Cert.ReferenceIdeal.ValueP.ops (F := Ideal))) (StableHlo.launchContents m' c)) (Proc.devRef .tc Cert.ReferenceIdeal.main_v271)))
    ∧ (@Eq ((⟨Cert.KernelIdeal.S1500000, .i32⟩ : BufTy).Contents (Elt Ideal)) (W37 m ρ c (Proc.devRef .tc Cert.KernelIdeal.main_v268)) ((after (List.take 363 (Cert.ReferenceIdeal.ValueP.ops (F := Ideal))) (StableHlo.launchContents m' c)) (Proc.devRef .tc Cert.ReferenceIdeal.main_v261)))
    ∧ (@Eq ((⟨Cert.KernelIdeal.S300000x128, .f32⟩ : BufTy).Contents (Elt Ideal)) (W37 m ρ c (Proc.devRef .tc Cert.KernelIdeal.main_v266)) ((after (List.take 363 (Cert.ReferenceIdeal.ValueP.ops (F := Ideal))) (StableHlo.launchContents m' c)) (Proc.devRef .tc Cert.ReferenceIdeal.main_v259)))
    ∧ (@Eq ((⟨Cert.KernelIdeal.S1500000, .i32⟩ : BufTy).Contents (Elt Ideal)) (W37 m ρ c (Proc.devRef .tc Cert.KernelIdeal.main_v269)) ((after (List.take 363 (Cert.ReferenceIdeal.ValueP.ops (F := Ideal))) (StableHlo.launchContents m' c)) (Proc.devRef .tc Cert.ReferenceIdeal.main_v262)))
    ∧ (@Eq ((⟨Cert.KernelIdeal.S2048x128, .f32⟩ : BufTy).Contents (Elt Ideal)) (W37 m ρ c (Proc.devRef .tc Cert.KernelIdeal.main_v163)) ((after (List.take 363 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v266, i_v165, i_v167, i_v163⟩ := I27 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 363 (Cert.ReferenceIdeal.ValueP.ops (F := Ideal))) (StableHlo.launchContents m' c) = after rpiece28 (after (List.take 346 (Cert.ReferenceIdeal.ValueP.ops (F := Ideal))) (StableHlo.launchContents m' c)) :=
    Cert.FoldCuts.after_take_add (Cert.ReferenceIdeal.ValueP.ops (F := Ideal)) 346 17 (StableHlo.launchContents m' c)
  obtain ⟨q0, q1, q2, q3, q4, q5, q6⟩ := piece28 (W36 m ρ c) (after (List.take 346 (Cert.ReferenceIdeal.ValueP.ops (F := Ideal))) (StableHlo.launchContents m' c)) i_v165
    i_v167
    i_v266
    i_v163
  exact ⟨@Eq.trans ((⟨Cert.KernelIdeal.S_, .f32⟩ : BufTy).Contents (Elt Ideal)) _ _ _ (congrFun (K28 m ρ c) _) (@Eq.trans ((⟨Cert.KernelIdeal.S_, .f32⟩ : BufTy).Contents (Elt Ideal)) _ _ _ q0 (congrFun hR _).symm),
    @Eq.trans ((⟨Cert.KernelIdeal.S300000, .i1⟩ : BufTy).Contents (Elt Ideal)) _ _ _ (congrFun (K28 m ρ c) _) (@Eq.trans ((⟨Cert.KernelIdeal.S300000, .i1⟩ : BufTy).Contents (Elt Ideal)) _ _ _ q1 (congrFun hR _).symm),
    @Eq.trans ((⟨Cert.KernelIdeal.S300000, .f32⟩ : BufTy).Contents (Elt Ideal)) _ _ _ (congrFun (K28 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K28 m ρ c) _) (@Eq.trans ((⟨Cert.KernelIdeal.S1500000, .i32⟩ : BufTy).Contents (Elt Ideal)) _ _ _ q3 (congrFun hR _).symm),
    @Eq.trans ((⟨Cert.KernelIdeal.S300000x128, .f32⟩ : BufTy).Contents (Elt Ideal)) _ _ _ (congrFun (K28 m ρ c) _) (@Eq.trans ((⟨Cert.KernelIdeal.S300000x128, .f32⟩ : BufTy).Contents (Elt Ideal)) _ _ _ q4 (congrFun hR _).symm),
    @Eq.trans ((⟨Cert.KernelIdeal.S1500000, .i32⟩ : BufTy).Contents (Elt Ideal)) _ _ _ (congrFun (K28 m ρ c) _) (@Eq.trans ((⟨Cert.KernelIdeal.S1500000, .i32⟩ : BufTy).Contents (Elt Ideal)) _ _ _ q5 (congrFun hR _).symm),
    @Eq.trans ((⟨Cert.KernelIdeal.S2048x128, .f32⟩ : BufTy).Contents (Elt Ideal)) _ _ _ (congrFun (K28 m ρ c) _) (@Eq.trans ((⟨Cert.KernelIdeal.S2048x128, .f32⟩ : BufTy).Contents (Elt Ideal)) _ _ _ q6 (congrFun hR _).symm)⟩

theorem K29 : W38 m ρ c = after Cert.KernelIdeal.Gen.hostOps8_1 (W37 m ρ c) := rfl

theorem I29 (hag : Agree m m' c) :
    (@Eq ((⟨Cert.KernelIdeal.S1500000, .i32⟩ : BufTy).Contents (Elt Ideal)) (W38 m ρ c (Proc.devRef .tc Cert.KernelIdeal.main_v268)) ((after (List.take 366 (Cert.ReferenceIdeal.ValueP.ops (F := Ideal))) (StableHlo.launchContents m' c)) (Proc.devRef .tc Cert.ReferenceIdeal.main_v261)))
    ∧ (@Eq ((⟨Cert.KernelIdeal.S300000x128, .f32⟩ : BufTy).Contents (Elt Ideal)) (W38 m ρ c (Proc.devRef .tc Cert.KernelIdeal.main_v266)) ((after (List.take 366 (Cert.ReferenceIdeal.ValueP.ops (F := Ideal))) (StableHlo.launchContents m' c)) (Proc.devRef .tc Cert.ReferenceIdeal.main_v259)))
    ∧ (@Eq ((⟨Cert.KernelIdeal.S300000, .f32⟩ : BufTy).Contents (Elt Ideal)) (W38 m ρ c (Proc.devRef .tc Cert.KernelIdeal.main_v279)) ((after (List.take 366 (Cert.ReferenceIdeal.ValueP.ops (F := Ideal))) (StableHlo.launchContents m' c)) (Proc.devRef .tc Cert.ReferenceIdeal.main_v272)))
    ∧ (@Eq ((⟨Cert.KernelIdeal.S1500000, .i32⟩ : BufTy).Contents (Elt Ideal)) (W38 m ρ c (Proc.devRef .tc Cert.KernelIdeal.main_v269)) ((after (List.take 366 (Cert.ReferenceIdeal.ValueP.ops (F := Ideal))) (StableHlo.launchContents m' c)) (Proc.devRef .tc Cert.ReferenceIdeal.main_v262)))
    ∧ (@Eq ((⟨Cert.KernelIdeal.S2048x128, .f32⟩ : BufTy).Contents (Elt Ideal)) (W38 m ρ c (Proc.devRef .tc Cert.KernelIdeal.main_v163)) ((after (List.take 366 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_72, i_v275, i_v278, i_v268, i_v266, i_v269, i_v163⟩ := I28 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 366 (Cert.ReferenceIdeal.ValueP.ops (F := Ideal))) (StableHlo.launchContents m' c) = after rpiece29 (after (List.take 363 (Cert.ReferenceIdeal.ValueP.ops (F := Ideal))) (StableHlo.launchContents m' c)) :=
    Cert.FoldCuts.after_take_add (Cert.ReferenceIdeal.ValueP.ops (F := Ideal)) 363 3 (StableHlo.launchContents m' c)
  obtain ⟨q0, q1, q2, q3, q4⟩ := piece29 (W37 m ρ c) (after (List.take 363 (Cert.ReferenceIdeal.ValueP.ops (F := Ideal))) (StableHlo.launchContents m' c)) i_cst_72
    i_v275
    i_v278
    i_v268
    i_v266
    i_v269
    i_v163
  exact ⟨@Eq.trans ((⟨Cert.KernelIdeal.S1500000, .i32⟩ : BufTy).Contents (Elt Ideal)) _ _ _ (congrFun (K29 m ρ c) _) (@Eq.trans ((⟨Cert.KernelIdeal.S1500000, .i32⟩ : BufTy).Contents (Elt Ideal)) _ _ _ q0 (congrFun hR _).symm),
    @Eq.trans ((⟨Cert.KernelIdeal.S300000x128, .f32⟩ : BufTy).Contents (Elt Ideal)) _ _ _ (congrFun (K29 m ρ c) _) (@Eq.trans ((⟨Cert.KernelIdeal.S300000x128, .f32⟩ : BufTy).Contents (Elt Ideal)) _ _ _ q1 (congrFun hR _).symm),
    @Eq.trans ((⟨Cert.KernelIdeal.S300000, .f32⟩ : BufTy).Contents (Elt Ideal)) _ _ _ (congrFun (K29 m ρ c) _) (@Eq.trans ((⟨Cert.KernelIdeal.S300000, .f32⟩ : BufTy).Contents (Elt Ideal)) _ _ _ q2 (congrFun hR _).symm),
    @Eq.trans ((⟨Cert.KernelIdeal.S1500000, .i32⟩ : BufTy).Contents (Elt Ideal)) _ _ _ (congrFun (K29 m ρ c) _) (@Eq.trans ((⟨Cert.KernelIdeal.S1500000, .i32⟩ : BufTy).Contents (Elt Ideal)) _ _ _ q3 (congrFun hR _).symm),
    @Eq.trans ((⟨Cert.KernelIdeal.S2048x128, .f32⟩ : BufTy).Contents (Elt Ideal)) _ _ _ (congrFun (K29 m ρ c) _) (@Eq.trans ((⟨Cert.KernelIdeal.S2048x128, .f32⟩ : BufTy).Contents (Elt Ideal)) _ _ _ q4 (congrFun hR _).symm)⟩

theorem K30 : W39 m ρ c = after Cert.KernelIdeal.Gen.hostOps8_2 (W38 m ρ c) := rfl

theorem I30 (hag : Agree m m' c) :
    (@Eq ((⟨Cert.KernelIdeal.S300000x128, .f32⟩ : BufTy).Contents (Elt Ideal)) (W39 m ρ c (Proc.devRef .tc Cert.KernelIdeal.main_v310)) ((after (List.take 404 (Cert.ReferenceIdeal.ValueP.ops (F := Ideal))) (StableHlo.launchContents m' c)) (Proc.devRef .tc Cert.ReferenceIdeal.main_v303)))
    ∧ (@Eq ((⟨Cert.KernelIdeal.S2048x128, .f32⟩ : BufTy).Contents (Elt Ideal)) (W39 m ρ c (Proc.devRef .tc Cert.KernelIdeal.main_v163)) ((after (List.take 404 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v268, i_v266, i_v279, i_v269, i_v163⟩ := I29 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 404 (Cert.ReferenceIdeal.ValueP.ops (F := Ideal))) (StableHlo.launchContents m' c) = after rpiece30 (after (List.take 366 (Cert.ReferenceIdeal.ValueP.ops (F := Ideal))) (StableHlo.launchContents m' c)) :=
    Cert.FoldCuts.after_take_add (Cert.ReferenceIdeal.ValueP.ops (F := Ideal)) 366 38 (StableHlo.launchContents m' c)
  obtain ⟨q0, q1⟩ := piece30 (W38 m ρ c) (after (List.take 366 (Cert.ReferenceIdeal.ValueP.ops (F := Ideal))) (StableHlo.launchContents m' c)) i_v268
    i_v266
    i_v279
    i_v269
    (@Eq.trans ((⟨Cert.KernelIdeal.S128, .f32⟩ : BufTy).Contents (Elt Ideal)) _ _ _ (arg_at38 m ρ c Cert.KernelIdeal.main_arg17 (by decide)) (@Eq.trans ((⟨Cert.KernelIdeal.S128, .f32⟩ : BufTy).Contents (Elt Ideal)) _ _ _ a17.symm (argR m' c 366 Cert.ReferenceIdeal.main_arg17 (by decide)).symm))
    i_v163
  exact ⟨@Eq.trans ((⟨Cert.KernelIdeal.S300000x128, .f32⟩ : BufTy).Contents (Elt Ideal)) _ _ _ (congrFun (K30 m ρ c) _) (@Eq.trans ((⟨Cert.KernelIdeal.S300000x128, .f32⟩ : BufTy).Contents (Elt Ideal)) _ _ _ q0 (congrFun hR _).symm),
    @Eq.trans ((⟨Cert.KernelIdeal.S2048x128, .f32⟩ : BufTy).Contents (Elt Ideal)) _ _ _ (congrFun (K30 m ρ c) _) (@Eq.trans ((⟨Cert.KernelIdeal.S2048x128, .f32⟩ : BufTy).Contents (Elt Ideal)) _ _ _ q1 (congrFun hR _).symm)⟩

theorem K31 : W40 m ρ c = after Cert.KernelIdeal.Gen.hostOps8_3 (W39 m ρ c) := rfl

theorem I31 (hag : Agree m m' c) :
    (@Eq ((⟨Cert.KernelIdeal.S300000x128, .f32⟩ : BufTy).Contents (Elt Ideal)) (W40 m ρ c (Proc.devRef .tc Cert.KernelIdeal.main_v311)) ((after (List.take 407 (Cert.ReferenceIdeal.ValueP.ops (F := Ideal))) (StableHlo.launchContents m' c)) (Proc.devRef .tc Cert.ReferenceIdeal.main_v304)))
    ∧ (@Eq ((⟨Cert.KernelIdeal.S2048x128, .f32⟩ : BufTy).Contents (Elt Ideal)) (W40 m ρ c (Proc.devRef .tc Cert.KernelIdeal.main_v163)) ((after (List.take 407 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v310, i_v163⟩ := I30 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 407 (Cert.ReferenceIdeal.ValueP.ops (F := Ideal))) (StableHlo.launchContents m' c) = after rpiece31 (after (List.take 404 (Cert.ReferenceIdeal.ValueP.ops (F := Ideal))) (StableHlo.launchContents m' c)) :=
    Cert.FoldCuts.after_take_add (Cert.ReferenceIdeal.ValueP.ops (F := Ideal)) 404 3 (StableHlo.launchContents m' c)
  obtain ⟨q0, q1⟩ := piece31 (W39 m ρ c) (after (List.take 404 (Cert.ReferenceIdeal.ValueP.ops (F := Ideal))) (StableHlo.launchContents m' c)) i_v310
    i_v163
  exact ⟨@Eq.trans ((⟨Cert.KernelIdeal.S300000x128, .f32⟩ : BufTy).Contents (Elt Ideal)) _ _ _ (congrFun (K31 m ρ c) _) (@Eq.trans ((⟨Cert.KernelIdeal.S300000x128, .f32⟩ : BufTy).Contents (Elt Ideal)) _ _ _ q0 (congrFun hR _).symm),
    @Eq.trans ((⟨Cert.KernelIdeal.S2048x128, .f32⟩ : BufTy).Contents (Elt Ideal)) _ _ _ (congrFun (K31 m ρ c) _) (@Eq.trans ((⟨Cert.KernelIdeal.S2048x128, .f32⟩ : BufTy).Contents (Elt Ideal)) _ _ _ q1 (congrFun hR _).symm)⟩

theorem K32 : W42 m ρ c = after (Cert.KernelIdeal.Gen.hostOps8_4 ++ [Cert.KernelIdeal.Dense.dop8]) (W40 m ρ c) := by
  simp only [Cert.FoldCuts.after_append]
  exact region8 m ρ c

theorem I32 (hag : Agree m m' c) :
    (@Eq ((⟨Cert.KernelIdeal.S2000x1024, .f32⟩ : BufTy).Contents (Elt Ideal)) (W42 m ρ c (Proc.devRef .tc Cert.KernelIdeal.main_v325)) ((after (List.take 430 (Cert.ReferenceIdeal.ValueP.ops (F := Ideal))) (StableHlo.launchContents m' c)) (Proc.devRef .tc Cert.ReferenceIdeal.main_v321)))
    ∧ (@Eq ((⟨Cert.KernelIdeal.S2048x128, .f32⟩ : BufTy).Contents (Elt Ideal)) (W42 m ρ c (Proc.devRef .tc Cert.KernelIdeal.main_v163)) ((after (List.take 430 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v311, i_v163⟩ := I31 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 430 (Cert.ReferenceIdeal.ValueP.ops (F := Ideal))) (StableHlo.launchContents m' c) = after rpiece32 (after (List.take 407 (Cert.ReferenceIdeal.ValueP.ops (F := Ideal))) (StableHlo.launchContents m' c)) :=
    Cert.FoldCuts.after_take_add (Cert.ReferenceIdeal.ValueP.ops (F := Ideal)) 407 23 (StableHlo.launchContents m' c)
  obtain ⟨q0, q1⟩ := piece32 (W40 m ρ c) (after (List.take 407 (Cert.ReferenceIdeal.ValueP.ops (F := Ideal))) (StableHlo.launchContents m' c)) (@Eq.trans ((⟨Cert.KernelIdeal.S300000, .i32⟩ : BufTy).Contents (Elt Ideal)) _ _ _ (arg_at40 m ρ c Cert.KernelIdeal.main_arg39 (by decide)) (@Eq.trans ((⟨Cert.KernelIdeal.S300000, .i32⟩ : BufTy).Contents (Elt Ideal)) _ _ _ a39.symm (argR m' c 407 Cert.ReferenceIdeal.main_arg39 (by decide)).symm))
    i_v311
    (@Eq.trans ((⟨Cert.KernelIdeal.S1024, .f32⟩ : BufTy).Contents (Elt Ideal)) _ _ _ (arg_at40 m ρ c Cert.KernelIdeal.main_arg19 (by decide)) (@Eq.trans ((⟨Cert.KernelIdeal.S1024, .f32⟩ : BufTy).Contents (Elt Ideal)) _ _ _ a19.symm (argR m' c 407 Cert.ReferenceIdeal.main_arg19 (by decide)).symm))
    (@Eq.trans ((⟨Cert.KernelIdeal.S128x1024, .f32⟩ : BufTy).Contents (Elt Ideal)) _ _ _ (arg_at40 m ρ c Cert.KernelIdeal.main_arg18 (by decide)) (@Eq.trans ((⟨Cert.KernelIdeal.S128x1024, .f32⟩ : BufTy).Contents (Elt Ideal)) _ _ _ a18.symm (argR m' c 407 Cert.ReferenceIdeal.main_arg18 (by decide)).symm))
    i_v163
  exact ⟨@Eq.trans ((⟨Cert.KernelIdeal.S2000x1024, .f32⟩ : BufTy).Contents (Elt Ideal)) _ _ _ (congrFun (K32 m ρ c) _) (@Eq.trans ((⟨Cert.KernelIdeal.S2000x1024, .f32⟩ : BufTy).Contents (Elt Ideal)) _ _ _ q0 (congrFun hR _).symm),
    @Eq.trans ((⟨Cert.KernelIdeal.S2048x128, .f32⟩ : BufTy).Contents (Elt Ideal)) _ _ _ (congrFun (K32 m ρ c) _) (@Eq.trans ((⟨Cert.KernelIdeal.S2048x128, .f32⟩ : BufTy).Contents (Elt Ideal)) _ _ _ q1 (congrFun hR _).symm)⟩

theorem K33 : W44 m ρ c = after (Cert.KernelIdeal.Gen.hostOps9 ++ [Cert.KernelIdeal.Dense.dop9]) (W42 m ρ c) := by
  simp only [Cert.FoldCuts.after_append]
  exact region9 m ρ c

theorem I33 (hag : Agree m m' c) :
    (@Eq ((⟨Cert.KernelIdeal.S2000x128, .f32⟩ : BufTy).Contents (Elt Ideal)) (W44 m ρ c (Proc.devRef .tc Cert.KernelIdeal.main_v327)) ((after (List.take 434 (Cert.ReferenceIdeal.ValueP.ops (F := Ideal))) (StableHlo.launchContents m' c)) (Proc.devRef .tc Cert.ReferenceIdeal.main_v325)))
    ∧ (@Eq ((⟨Cert.KernelIdeal.S2048x128, .f32⟩ : BufTy).Contents (Elt Ideal)) (W44 m ρ c (Proc.devRef .tc Cert.KernelIdeal.main_v163)) ((after (List.take 434 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v325, i_v163⟩ := I32 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 434 (Cert.ReferenceIdeal.ValueP.ops (F := Ideal))) (StableHlo.launchContents m' c) = after rpiece33 (after (List.take 430 (Cert.ReferenceIdeal.ValueP.ops (F := Ideal))) (StableHlo.launchContents m' c)) :=
    Cert.FoldCuts.after_take_add (Cert.ReferenceIdeal.ValueP.ops (F := Ideal)) 430 4 (StableHlo.launchContents m' c)
  obtain ⟨q0, q1⟩ := piece33 (W42 m ρ c) (after (List.take 430 (Cert.ReferenceIdeal.ValueP.ops (F := Ideal))) (StableHlo.launchContents m' c)) (@Eq.trans ((⟨Cert.KernelIdeal.S128, .f32⟩ : BufTy).Contents (Elt Ideal)) _ _ _ (arg_at42 m ρ c Cert.KernelIdeal.main_arg21 (by decide)) (@Eq.trans ((⟨Cert.KernelIdeal.S128, .f32⟩ : BufTy).Contents (Elt Ideal)) _ _ _ a21.symm (argR m' c 430 Cert.ReferenceIdeal.main_arg21 (by decide)).symm))
    i_v325
    (@Eq.trans ((⟨Cert.KernelIdeal.S1024x128, .f32⟩ : BufTy).Contents (Elt Ideal)) _ _ _ (arg_at42 m ρ c Cert.KernelIdeal.main_arg20 (by decide)) (@Eq.trans ((⟨Cert.KernelIdeal.S1024x128, .f32⟩ : BufTy).Contents (Elt Ideal)) _ _ _ a20.symm (argR m' c 430 Cert.ReferenceIdeal.main_arg20 (by decide)).symm))
    i_v163
  exact ⟨@Eq.trans ((⟨Cert.KernelIdeal.S2000x128, .f32⟩ : BufTy).Contents (Elt Ideal)) _ _ _ (congrFun (K33 m ρ c) _) (@Eq.trans ((⟨Cert.KernelIdeal.S2000x128, .f32⟩ : BufTy).Contents (Elt Ideal)) _ _ _ q0 (congrFun hR _).symm),
    @Eq.trans ((⟨Cert.KernelIdeal.S2048x128, .f32⟩ : BufTy).Contents (Elt Ideal)) _ _ _ (congrFun (K33 m ρ c) _) (@Eq.trans ((⟨Cert.KernelIdeal.S2048x128, .f32⟩ : BufTy).Contents (Elt Ideal)) _ _ _ q1 (congrFun hR _).symm)⟩

theorem K34 : W46 m ρ c = after (Cert.KernelIdeal.Gen.hostOps10 ++ [Cert.KernelIdeal.Dense.dop10]) (W44 m ρ c) := by
  simp only [Cert.FoldCuts.after_append]
  exact region10 m ρ c

theorem I34 (hag : Agree m m' c) :
    (@Eq ((⟨Cert.KernelIdeal.S2000x1024, .f32⟩ : BufTy).Contents (Elt Ideal)) (W46 m ρ c (Proc.devRef .tc Cert.KernelIdeal.main_v334)) ((after (List.take 439 (Cert.ReferenceIdeal.ValueP.ops (F := Ideal))) (StableHlo.launchContents m' c)) (Proc.devRef .tc Cert.ReferenceIdeal.main_v330)))
    ∧ (@Eq ((⟨Cert.KernelIdeal.S64000, .i32⟩ : BufTy).Contents (Elt Ideal)) (W46 m ρ c (Proc.devRef .tc Cert.KernelIdeal.main_v329)) ((after (List.take 439 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W46 m ρ c (Proc.devRef .tc Cert.KernelIdeal.main_v331)) ((after (List.take 439 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W46 m ρ c (Proc.devRef .tc Cert.KernelIdeal.main_v163)) ((after (List.take 439 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v327, i_v163⟩ := I33 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 439 (Cert.ReferenceIdeal.ValueP.ops (F := Ideal))) (StableHlo.launchContents m' c) = after rpiece34 (after (List.take 434 (Cert.ReferenceIdeal.ValueP.ops (F := Ideal))) (StableHlo.launchContents m' c)) :=
    Cert.FoldCuts.after_take_add (Cert.ReferenceIdeal.ValueP.ops (F := Ideal)) 434 5 (StableHlo.launchContents m' c)
  obtain ⟨q0, q1, q2, q3⟩ := piece34 (W44 m ρ c) (after (List.take 434 (Cert.ReferenceIdeal.ValueP.ops (F := Ideal))) (StableHlo.launchContents m' c)) (@Eq.trans ((⟨Cert.KernelIdeal.S2x64000, .i32⟩ : BufTy).Contents (Elt Ideal)) _ _ _ (arg_at44 m ρ c Cert.KernelIdeal.main_arg40 (by decide)) (@Eq.trans ((⟨Cert.KernelIdeal.S2x64000, .i32⟩ : BufTy).Contents (Elt Ideal)) _ _ _ a40.symm (argR m' c 434 Cert.ReferenceIdeal.main_arg40 (by decide)).symm))
    i_v327
    (@Eq.trans ((⟨Cert.KernelIdeal.S128x1024, .f32⟩ : BufTy).Contents (Elt Ideal)) _ _ _ (arg_at44 m ρ c Cert.KernelIdeal.main_arg22 (by decide)) (@Eq.trans ((⟨Cert.KernelIdeal.S128x1024, .f32⟩ : BufTy).Contents (Elt Ideal)) _ _ _ a22.symm (argR m' c 434 Cert.ReferenceIdeal.main_arg22 (by decide)).symm))
    i_v163
  exact ⟨@Eq.trans ((⟨Cert.KernelIdeal.S2000x1024, .f32⟩ : BufTy).Contents (Elt Ideal)) _ _ _ (congrFun (K34 m ρ c) _) (@Eq.trans ((⟨Cert.KernelIdeal.S2000x1024, .f32⟩ : BufTy).Contents (Elt Ideal)) _ _ _ q0 (congrFun hR _).symm),
    @Eq.trans ((⟨Cert.KernelIdeal.S64000, .i32⟩ : BufTy).Contents (Elt Ideal)) _ _ _ (congrFun (K34 m ρ c) _) (@Eq.trans ((⟨Cert.KernelIdeal.S64000, .i32⟩ : BufTy).Contents (Elt Ideal)) _ _ _ q1 (congrFun hR _).symm),
    @Eq.trans ((⟨Cert.KernelIdeal.S64000, .i32⟩ : BufTy).Contents (Elt Ideal)) _ _ _ (congrFun (K34 m ρ c) _) (@Eq.trans ((⟨Cert.KernelIdeal.S64000, .i32⟩ : BufTy).Contents (Elt Ideal)) _ _ _ q2 (congrFun hR _).symm),
    @Eq.trans ((⟨Cert.KernelIdeal.S2048x128, .f32⟩ : BufTy).Contents (Elt Ideal)) _ _ _ (congrFun (K34 m ρ c) _) (@Eq.trans ((⟨Cert.KernelIdeal.S2048x128, .f32⟩ : BufTy).Contents (Elt Ideal)) _ _ _ q3 (congrFun hR _).symm)⟩

theorem K35 : W47 m ρ c = after Cert.KernelIdeal.Gen.hostOps11 (W46 m ρ c) := rfl

theorem I35 (hag : Agree m m' c) :
    (@Eq ((⟨Cert.KernelIdeal.S_, .f32⟩ : BufTy).Contents (Elt Ideal)) (W47 m ρ c (Proc.devRef .tc Cert.KernelIdeal.main_cst_89)) ((after (List.take 456 (Cert.ReferenceIdeal.ValueP.ops (F := Ideal))) (StableHlo.launchContents m' c)) (Proc.devRef .tc Cert.ReferenceIdeal.main_cst_82)))
    ∧ (@Eq ((⟨Cert.KernelIdeal.S2000, .i1⟩ : BufTy).Contents (Elt Ideal)) (W47 m ρ c (Proc.devRef .tc Cert.KernelIdeal.main_v343)) ((after (List.take 456 (Cert.ReferenceIdeal.ValueP.ops (F := Ideal))) (StableHlo.launchContents m' c)) (Proc.devRef .tc Cert.ReferenceIdeal.main_v339)))
    ∧ (@Eq ((⟨Cert.KernelIdeal.S2000, .f32⟩ : BufTy).Contents (Elt Ideal)) (W47 m ρ c (Proc.devRef .tc Cert.KernelIdeal.main_v346)) ((after (List.take 456 (Cert.ReferenceIdeal.ValueP.ops (F := Ideal))) (StableHlo.launchContents m' c)) (Proc.devRef .tc Cert.ReferenceIdeal.main_v342)))
    ∧ (@Eq ((⟨Cert.KernelIdeal.S66000, .i32⟩ : BufTy).Contents (Elt Ideal)) (W47 m ρ c (Proc.devRef .tc Cert.KernelIdeal.main_v336)) ((after (List.take 456 (Cert.ReferenceIdeal.ValueP.ops (F := Ideal))) (StableHlo.launchContents m' c)) (Proc.devRef .tc Cert.ReferenceIdeal.main_v332)))
    ∧ (@Eq ((⟨Cert.KernelIdeal.S2000x1024, .f32⟩ : BufTy).Contents (Elt Ideal)) (W47 m ρ c (Proc.devRef .tc Cert.KernelIdeal.main_v334)) ((after (List.take 456 (Cert.ReferenceIdeal.ValueP.ops (F := Ideal))) (StableHlo.launchContents m' c)) (Proc.devRef .tc Cert.ReferenceIdeal.main_v330)))
    ∧ (@Eq ((⟨Cert.KernelIdeal.S66000, .i32⟩ : BufTy).Contents (Elt Ideal)) (W47 m ρ c (Proc.devRef .tc Cert.KernelIdeal.main_v337)) ((after (List.take 456 (Cert.ReferenceIdeal.ValueP.ops (F := Ideal))) (StableHlo.launchContents m' c)) (Proc.devRef .tc Cert.ReferenceIdeal.main_v333)))
    ∧ (@Eq ((⟨Cert.KernelIdeal.S64000, .i32⟩ : BufTy).Contents (Elt Ideal)) (W47 m ρ c (Proc.devRef .tc Cert.KernelIdeal.main_v329)) ((after (List.take 456 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W47 m ρ c (Proc.devRef .tc Cert.KernelIdeal.main_v331)) ((after (List.take 456 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W47 m ρ c (Proc.devRef .tc Cert.KernelIdeal.main_v163)) ((after (List.take 456 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v334, i_v329, i_v331, i_v163⟩ := I34 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 456 (Cert.ReferenceIdeal.ValueP.ops (F := Ideal))) (StableHlo.launchContents m' c) = after rpiece35 (after (List.take 439 (Cert.ReferenceIdeal.ValueP.ops (F := Ideal))) (StableHlo.launchContents m' c)) :=
    Cert.FoldCuts.after_take_add (Cert.ReferenceIdeal.ValueP.ops (F := Ideal)) 439 17 (StableHlo.launchContents m' c)
  obtain ⟨q0, q1, q2, q3, q4, q5, q6, q7, q8⟩ := piece35 (W46 m ρ c) (after (List.take 439 (Cert.ReferenceIdeal.ValueP.ops (F := Ideal))) (StableHlo.launchContents m' c)) i_v329
    i_v331
    i_v334
    i_v163
  exact ⟨@Eq.trans ((⟨Cert.KernelIdeal.S_, .f32⟩ : BufTy).Contents (Elt Ideal)) _ _ _ (congrFun (K35 m ρ c) _) (@Eq.trans ((⟨Cert.KernelIdeal.S_, .f32⟩ : BufTy).Contents (Elt Ideal)) _ _ _ q0 (congrFun hR _).symm),
    @Eq.trans ((⟨Cert.KernelIdeal.S2000, .i1⟩ : BufTy).Contents (Elt Ideal)) _ _ _ (congrFun (K35 m ρ c) _) (@Eq.trans ((⟨Cert.KernelIdeal.S2000, .i1⟩ : BufTy).Contents (Elt Ideal)) _ _ _ q1 (congrFun hR _).symm),
    @Eq.trans ((⟨Cert.KernelIdeal.S2000, .f32⟩ : BufTy).Contents (Elt Ideal)) _ _ _ (congrFun (K35 m ρ c) _) (@Eq.trans ((⟨Cert.KernelIdeal.S2000, .f32⟩ : BufTy).Contents (Elt Ideal)) _ _ _ q2 (congrFun hR _).symm),
    @Eq.trans ((⟨Cert.KernelIdeal.S66000, .i32⟩ : BufTy).Contents (Elt Ideal)) _ _ _ (congrFun (K35 m ρ c) _) (@Eq.trans ((⟨Cert.KernelIdeal.S66000, .i32⟩ : BufTy).Contents (Elt Ideal)) _ _ _ q3 (congrFun hR _).symm),
    @Eq.trans ((⟨Cert.KernelIdeal.S2000x1024, .f32⟩ : BufTy).Contents (Elt Ideal)) _ _ _ (congrFun (K35 m ρ c) _) (@Eq.trans ((⟨Cert.KernelIdeal.S2000x1024, .f32⟩ : BufTy).Contents (Elt Ideal)) _ _ _ q4 (congrFun hR _).symm),
    @Eq.trans ((⟨Cert.KernelIdeal.S66000, .i32⟩ : BufTy).Contents (Elt Ideal)) _ _ _ (congrFun (K35 m ρ c) _) (@Eq.trans ((⟨Cert.KernelIdeal.S66000, .i32⟩ : BufTy).Contents (Elt Ideal)) _ _ _ q5 (congrFun hR _).symm),
    @Eq.trans ((⟨Cert.KernelIdeal.S64000, .i32⟩ : BufTy).Contents (Elt Ideal)) _ _ _ (congrFun (K35 m ρ c) _) (@Eq.trans ((⟨Cert.KernelIdeal.S64000, .i32⟩ : BufTy).Contents (Elt Ideal)) _ _ _ q6 (congrFun hR _).symm),
    @Eq.trans ((⟨Cert.KernelIdeal.S64000, .i32⟩ : BufTy).Contents (Elt Ideal)) _ _ _ (congrFun (K35 m ρ c) _) (@Eq.trans ((⟨Cert.KernelIdeal.S64000, .i32⟩ : BufTy).Contents (Elt Ideal)) _ _ _ q7 (congrFun hR _).symm),
    @Eq.trans ((⟨Cert.KernelIdeal.S2048x128, .f32⟩ : BufTy).Contents (Elt Ideal)) _ _ _ (congrFun (K35 m ρ c) _) (@Eq.trans ((⟨Cert.KernelIdeal.S2048x128, .f32⟩ : BufTy).Contents (Elt Ideal)) _ _ _ q8 (congrFun hR _).symm)⟩

theorem K36 : W48 m ρ c = after Cert.KernelIdeal.Gen.hostOps11_1 (W47 m ρ c) := rfl

theorem I36 (hag : Agree m m' c) :
    (@Eq ((⟨Cert.KernelIdeal.S66000, .i32⟩ : BufTy).Contents (Elt Ideal)) (W48 m ρ c (Proc.devRef .tc Cert.KernelIdeal.main_v336)) ((after (List.take 459 (Cert.ReferenceIdeal.ValueP.ops (F := Ideal))) (StableHlo.launchContents m' c)) (Proc.devRef .tc Cert.ReferenceIdeal.main_v332)))
    ∧ (@Eq ((⟨Cert.KernelIdeal.S2000x1024, .f32⟩ : BufTy).Contents (Elt Ideal)) (W48 m ρ c (Proc.devRef .tc Cert.KernelIdeal.main_v334)) ((after (List.take 459 (Cert.ReferenceIdeal.ValueP.ops (F := Ideal))) (StableHlo.launchContents m' c)) (Proc.devRef .tc Cert.ReferenceIdeal.main_v330)))
    ∧ (@Eq ((⟨Cert.KernelIdeal.S2000, .f32⟩ : BufTy).Contents (Elt Ideal)) (W48 m ρ c (Proc.devRef .tc Cert.KernelIdeal.main_v347)) ((after (List.take 459 (Cert.ReferenceIdeal.ValueP.ops (F := Ideal))) (StableHlo.launchContents m' c)) (Proc.devRef .tc Cert.ReferenceIdeal.main_v343)))
    ∧ (@Eq ((⟨Cert.KernelIdeal.S66000, .i32⟩ : BufTy).Contents (Elt Ideal)) (W48 m ρ c (Proc.devRef .tc Cert.KernelIdeal.main_v337)) ((after (List.take 459 (Cert.ReferenceIdeal.ValueP.ops (F := Ideal))) (StableHlo.launchContents m' c)) (Proc.devRef .tc Cert.ReferenceIdeal.main_v333)))
    ∧ (@Eq ((⟨Cert.KernelIdeal.S64000, .i32⟩ : BufTy).Contents (Elt Ideal)) (W48 m ρ c (Proc.devRef .tc Cert.KernelIdeal.main_v329)) ((after (List.take 459 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W48 m ρ c (Proc.devRef .tc Cert.KernelIdeal.main_v331)) ((after (List.take 459 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W48 m ρ c (Proc.devRef .tc Cert.KernelIdeal.main_v163)) ((after (List.take 459 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_89, i_v343, i_v346, i_v336, i_v334, i_v337, i_v329, i_v331, i_v163⟩ := I35 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 459 (Cert.ReferenceIdeal.ValueP.ops (F := Ideal))) (StableHlo.launchContents m' c) = after rpiece36 (after (List.take 456 (Cert.ReferenceIdeal.ValueP.ops (F := Ideal))) (StableHlo.launchContents m' c)) :=
    Cert.FoldCuts.after_take_add (Cert.ReferenceIdeal.ValueP.ops (F := Ideal)) 456 3 (StableHlo.launchContents m' c)
  obtain ⟨q0, q1, q2, q3, q4, q5, q6⟩ := piece36 (W47 m ρ c) (after (List.take 456 (Cert.ReferenceIdeal.ValueP.ops (F := Ideal))) (StableHlo.launchContents m' c)) i_cst_89
    i_v343
    i_v346
    i_v336
    i_v334
    i_v337
    i_v329
    i_v331
    i_v163
  exact ⟨@Eq.trans ((⟨Cert.KernelIdeal.S66000, .i32⟩ : BufTy).Contents (Elt Ideal)) _ _ _ (congrFun (K36 m ρ c) _) (@Eq.trans ((⟨Cert.KernelIdeal.S66000, .i32⟩ : BufTy).Contents (Elt Ideal)) _ _ _ q0 (congrFun hR _).symm),
    @Eq.trans ((⟨Cert.KernelIdeal.S2000x1024, .f32⟩ : BufTy).Contents (Elt Ideal)) _ _ _ (congrFun (K36 m ρ c) _) (@Eq.trans ((⟨Cert.KernelIdeal.S2000x1024, .f32⟩ : BufTy).Contents (Elt Ideal)) _ _ _ q1 (congrFun hR _).symm),
    @Eq.trans ((⟨Cert.KernelIdeal.S2000, .f32⟩ : BufTy).Contents (Elt Ideal)) _ _ _ (congrFun (K36 m ρ c) _) (@Eq.trans ((⟨Cert.KernelIdeal.S2000, .f32⟩ : BufTy).Contents (Elt Ideal)) _ _ _ q2 (congrFun hR _).symm),
    @Eq.trans ((⟨Cert.KernelIdeal.S66000, .i32⟩ : BufTy).Contents (Elt Ideal)) _ _ _ (congrFun (K36 m ρ c) _) (@Eq.trans ((⟨Cert.KernelIdeal.S66000, .i32⟩ : BufTy).Contents (Elt Ideal)) _ _ _ q3 (congrFun hR _).symm),
    @Eq.trans ((⟨Cert.KernelIdeal.S64000, .i32⟩ : BufTy).Contents (Elt Ideal)) _ _ _ (congrFun (K36 m ρ c) _) (@Eq.trans ((⟨Cert.KernelIdeal.S64000, .i32⟩ : BufTy).Contents (Elt Ideal)) _ _ _ q4 (congrFun hR _).symm),
    @Eq.trans ((⟨Cert.KernelIdeal.S64000, .i32⟩ : BufTy).Contents (Elt Ideal)) _ _ _ (congrFun (K36 m ρ c) _) (@Eq.trans ((⟨Cert.KernelIdeal.S64000, .i32⟩ : BufTy).Contents (Elt Ideal)) _ _ _ q5 (congrFun hR _).symm),
    @Eq.trans ((⟨Cert.KernelIdeal.S2048x128, .f32⟩ : BufTy).Contents (Elt Ideal)) _ _ _ (congrFun (K36 m ρ c) _) (@Eq.trans ((⟨Cert.KernelIdeal.S2048x128, .f32⟩ : BufTy).Contents (Elt Ideal)) _ _ _ q6 (congrFun hR _).symm)⟩

theorem K37 : W49 m ρ c = after Cert.KernelIdeal.Gen.hostOps11_2 (W48 m ρ c) := rfl

theorem I37 (hag : Agree m m' c) :
    (@Eq ((⟨Cert.KernelIdeal.S2000x1024, .f32⟩ : BufTy).Contents (Elt Ideal)) (W49 m ρ c (Proc.devRef .tc Cert.KernelIdeal.main_v378)) ((after (List.take 497 (Cert.ReferenceIdeal.ValueP.ops (F := Ideal))) (StableHlo.launchContents m' c)) (Proc.devRef .tc Cert.ReferenceIdeal.main_v374)))
    ∧ (@Eq ((⟨Cert.KernelIdeal.S64000, .i32⟩ : BufTy).Contents (Elt Ideal)) (W49 m ρ c (Proc.devRef .tc Cert.KernelIdeal.main_v329)) ((after (List.take 497 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W49 m ρ c (Proc.devRef .tc Cert.KernelIdeal.main_v331)) ((after (List.take 497 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W49 m ρ c (Proc.devRef .tc Cert.KernelIdeal.main_v163)) ((after (List.take 497 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v336, i_v334, i_v347, i_v337, i_v329, i_v331, i_v163⟩ := I36 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 497 (Cert.ReferenceIdeal.ValueP.ops (F := Ideal))) (StableHlo.launchContents m' c) = after rpiece37 (after (List.take 459 (Cert.ReferenceIdeal.ValueP.ops (F := Ideal))) (StableHlo.launchContents m' c)) :=
    Cert.FoldCuts.after_take_add (Cert.ReferenceIdeal.ValueP.ops (F := Ideal)) 459 38 (StableHlo.launchContents m' c)
  obtain ⟨q0, q1, q2, q3⟩ := piece37 (W48 m ρ c) (after (List.take 459 (Cert.ReferenceIdeal.ValueP.ops (F := Ideal))) (StableHlo.launchContents m' c)) i_v336
    i_v334
    i_v347
    i_v337
    (@Eq.trans ((⟨Cert.KernelIdeal.S1024, .f32⟩ : BufTy).Contents (Elt Ideal)) _ _ _ (arg_at48 m ρ c Cert.KernelIdeal.main_arg23 (by decide)) (@Eq.trans ((⟨Cert.KernelIdeal.S1024, .f32⟩ : BufTy).Contents (Elt Ideal)) _ _ _ a23.symm (argR m' c 459 Cert.ReferenceIdeal.main_arg23 (by decide)).symm))
    i_v329
    i_v331
    i_v163
  exact ⟨@Eq.trans ((⟨Cert.KernelIdeal.S2000x1024, .f32⟩ : BufTy).Contents (Elt Ideal)) _ _ _ (congrFun (K37 m ρ c) _) (@Eq.trans ((⟨Cert.KernelIdeal.S2000x1024, .f32⟩ : BufTy).Contents (Elt Ideal)) _ _ _ q0 (congrFun hR _).symm),
    @Eq.trans ((⟨Cert.KernelIdeal.S64000, .i32⟩ : BufTy).Contents (Elt Ideal)) _ _ _ (congrFun (K37 m ρ c) _) (@Eq.trans ((⟨Cert.KernelIdeal.S64000, .i32⟩ : BufTy).Contents (Elt Ideal)) _ _ _ q1 (congrFun hR _).symm),
    @Eq.trans ((⟨Cert.KernelIdeal.S64000, .i32⟩ : BufTy).Contents (Elt Ideal)) _ _ _ (congrFun (K37 m ρ c) _) (@Eq.trans ((⟨Cert.KernelIdeal.S64000, .i32⟩ : BufTy).Contents (Elt Ideal)) _ _ _ q2 (congrFun hR _).symm),
    @Eq.trans ((⟨Cert.KernelIdeal.S2048x128, .f32⟩ : BufTy).Contents (Elt Ideal)) _ _ _ (congrFun (K37 m ρ c) _) (@Eq.trans ((⟨Cert.KernelIdeal.S2048x128, .f32⟩ : BufTy).Contents (Elt Ideal)) _ _ _ q3 (congrFun hR _).symm)⟩

theorem K38 : W50 m ρ c = after Cert.KernelIdeal.Gen.hostOps11_3 (W49 m ρ c) := rfl

theorem I38 (hag : Agree m m' c) :
    (@Eq ((⟨Cert.KernelIdeal.S2000x1024, .f32⟩ : BufTy).Contents (Elt Ideal)) (W50 m ρ c (Proc.devRef .tc Cert.KernelIdeal.main_v379)) ((after (List.take 500 (Cert.ReferenceIdeal.ValueP.ops (F := Ideal))) (StableHlo.launchContents m' c)) (Proc.devRef .tc Cert.ReferenceIdeal.main_v375)))
    ∧ (@Eq ((⟨Cert.KernelIdeal.S64000, .i32⟩ : BufTy).Contents (Elt Ideal)) (W50 m ρ c (Proc.devRef .tc Cert.KernelIdeal.main_v329)) ((after (List.take 500 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W50 m ρ c (Proc.devRef .tc Cert.KernelIdeal.main_v331)) ((after (List.take 500 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W50 m ρ c (Proc.devRef .tc Cert.KernelIdeal.main_v163)) ((after (List.take 500 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v378, i_v329, i_v331, i_v163⟩ := I37 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 500 (Cert.ReferenceIdeal.ValueP.ops (F := Ideal))) (StableHlo.launchContents m' c) = after rpiece38 (after (List.take 497 (Cert.ReferenceIdeal.ValueP.ops (F := Ideal))) (StableHlo.launchContents m' c)) :=
    Cert.FoldCuts.after_take_add (Cert.ReferenceIdeal.ValueP.ops (F := Ideal)) 497 3 (StableHlo.launchContents m' c)
  obtain ⟨q0, q1, q2, q3⟩ := piece38 (W49 m ρ c) (after (List.take 497 (Cert.ReferenceIdeal.ValueP.ops (F := Ideal))) (StableHlo.launchContents m' c)) i_v378
    i_v329
    i_v331
    i_v163
  exact ⟨@Eq.trans ((⟨Cert.KernelIdeal.S2000x1024, .f32⟩ : BufTy).Contents (Elt Ideal)) _ _ _ (congrFun (K38 m ρ c) _) (@Eq.trans ((⟨Cert.KernelIdeal.S2000x1024, .f32⟩ : BufTy).Contents (Elt Ideal)) _ _ _ q0 (congrFun hR _).symm),
    @Eq.trans ((⟨Cert.KernelIdeal.S64000, .i32⟩ : BufTy).Contents (Elt Ideal)) _ _ _ (congrFun (K38 m ρ c) _) (@Eq.trans ((⟨Cert.KernelIdeal.S64000, .i32⟩ : BufTy).Contents (Elt Ideal)) _ _ _ q1 (congrFun hR _).symm),
    @Eq.trans ((⟨Cert.KernelIdeal.S64000, .i32⟩ : BufTy).Contents (Elt Ideal)) _ _ _ (congrFun (K38 m ρ c) _) (@Eq.trans ((⟨Cert.KernelIdeal.S64000, .i32⟩ : BufTy).Contents (Elt Ideal)) _ _ _ q2 (congrFun hR _).symm),
    @Eq.trans ((⟨Cert.KernelIdeal.S2048x128, .f32⟩ : BufTy).Contents (Elt Ideal)) _ _ _ (congrFun (K38 m ρ c) _) (@Eq.trans ((⟨Cert.KernelIdeal.S2048x128, .f32⟩ : BufTy).Contents (Elt Ideal)) _ _ _ q3 (congrFun hR _).symm)⟩

theorem K39 : W52 m ρ c = after (Cert.KernelIdeal.Gen.hostOps11_4 ++ [Cert.KernelIdeal.Dense.dop11]) (W50 m ρ c) := by
  simp only [Cert.FoldCuts.after_append]
  exact region11 m ρ c

theorem I39 (hag : Agree m m' c) :
    (@Eq ((⟨Cert.KernelIdeal.S2000x128, .f32⟩ : BufTy).Contents (Elt Ideal)) (W52 m ρ c (Proc.devRef .tc Cert.KernelIdeal.main_v382)) ((after (List.take 501 (Cert.ReferenceIdeal.ValueP.ops (F := Ideal))) (StableHlo.launchContents m' c)) (Proc.devRef .tc Cert.ReferenceIdeal.main_v376)))
    ∧ (@Eq ((⟨Cert.KernelIdeal.S64000, .i32⟩ : BufTy).Contents (Elt Ideal)) (W52 m ρ c (Proc.devRef .tc Cert.KernelIdeal.main_v329)) ((after (List.take 501 (Cert.ReferenceIdeal.ValueP.ops (F := Ideal))) (StableHlo.launchContents m' c)) (Proc.devRef .tc Cert.ReferenceIdeal.main_v327)))
    ∧ (@Eq ((⟨Cert.KernelIdeal.S64000, .i32⟩ : BufTy).Contents (Elt Ideal)) (W52 m ρ c (Proc.devRef .tc Cert.KernelIdeal.main_v331)) ((after (List.take 501 (Cert.ReferenceIdeal.ValueP.ops (F := Ideal))) (StableHlo.launchContents m' c)) (Proc.devRef .tc Cert.ReferenceIdeal.main_v329)))
    ∧ (@Eq ((⟨Cert.KernelIdeal.S2048x128, .f32⟩ : BufTy).Contents (Elt Ideal)) (W52 m ρ c (Proc.devRef .tc Cert.KernelIdeal.main_v163)) ((after (List.take 501 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v379, i_v329, i_v331, i_v163⟩ := I38 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 501 (Cert.ReferenceIdeal.ValueP.ops (F := Ideal))) (StableHlo.launchContents m' c) = after rpiece39 (after (List.take 500 (Cert.ReferenceIdeal.ValueP.ops (F := Ideal))) (StableHlo.launchContents m' c)) :=
    Cert.FoldCuts.after_take_add (Cert.ReferenceIdeal.ValueP.ops (F := Ideal)) 500 1 (StableHlo.launchContents m' c)
  obtain ⟨q0, q1, q2, q3⟩ := piece39 (W50 m ρ c) (after (List.take 500 (Cert.ReferenceIdeal.ValueP.ops (F := Ideal))) (StableHlo.launchContents m' c)) i_v379
    (@Eq.trans ((⟨Cert.KernelIdeal.S1024x128, .f32⟩ : BufTy).Contents (Elt Ideal)) _ _ _ (arg_at50 m ρ c Cert.KernelIdeal.main_arg24 (by decide)) (@Eq.trans ((⟨Cert.KernelIdeal.S1024x128, .f32⟩ : BufTy).Contents (Elt Ideal)) _ _ _ a24.symm (argR m' c 500 Cert.ReferenceIdeal.main_arg24 (by decide)).symm))
    i_v329
    i_v331
    i_v163
  exact ⟨@Eq.trans ((⟨Cert.KernelIdeal.S2000x128, .f32⟩ : BufTy).Contents (Elt Ideal)) _ _ _ (congrFun (K39 m ρ c) _) (@Eq.trans ((⟨Cert.KernelIdeal.S2000x128, .f32⟩ : BufTy).Contents (Elt Ideal)) _ _ _ q0 (congrFun hR _).symm),
    @Eq.trans ((⟨Cert.KernelIdeal.S64000, .i32⟩ : BufTy).Contents (Elt Ideal)) _ _ _ (congrFun (K39 m ρ c) _) (@Eq.trans ((⟨Cert.KernelIdeal.S64000, .i32⟩ : BufTy).Contents (Elt Ideal)) _ _ _ q1 (congrFun hR _).symm),
    @Eq.trans ((⟨Cert.KernelIdeal.S64000, .i32⟩ : BufTy).Contents (Elt Ideal)) _ _ _ (congrFun (K39 m ρ c) _) (@Eq.trans ((⟨Cert.KernelIdeal.S64000, .i32⟩ : BufTy).Contents (Elt Ideal)) _ _ _ q2 (congrFun hR _).symm),
    @Eq.trans ((⟨Cert.KernelIdeal.S2048x128, .f32⟩ : BufTy).Contents (Elt Ideal)) _ _ _ (congrFun (K39 m ρ c) _) (@Eq.trans ((⟨Cert.KernelIdeal.S2048x128, .f32⟩ : BufTy).Contents (Elt Ideal)) _ _ _ q3 (congrFun hR _).symm)⟩

theorem K40 : W53 m ρ c = after Cert.KernelIdeal.Gen.hostOps12 (W52 m ρ c) := rfl

theorem I40 (hag : Agree m m' c) :
    (@Eq ((⟨Cert.KernelIdeal.S_, .f32⟩ : BufTy).Contents (Elt Ideal)) (W53 m ρ c (Proc.devRef .tc Cert.KernelIdeal.main_cst_102)) ((after (List.take 518 (Cert.ReferenceIdeal.ValueP.ops (F := Ideal))) (StableHlo.launchContents m' c)) (Proc.devRef .tc Cert.ReferenceIdeal.main_cst_94)))
    ∧ (@Eq ((⟨Cert.KernelIdeal.S2000, .i1⟩ : BufTy).Contents (Elt Ideal)) (W53 m ρ c (Proc.devRef .tc Cert.KernelIdeal.main_v391)) ((after (List.take 518 (Cert.ReferenceIdeal.ValueP.ops (F := Ideal))) (StableHlo.launchContents m' c)) (Proc.devRef .tc Cert.ReferenceIdeal.main_v385)))
    ∧ (@Eq ((⟨Cert.KernelIdeal.S2000, .f32⟩ : BufTy).Contents (Elt Ideal)) (W53 m ρ c (Proc.devRef .tc Cert.KernelIdeal.main_v394)) ((after (List.take 518 (Cert.ReferenceIdeal.ValueP.ops (F := Ideal))) (StableHlo.launchContents m' c)) (Proc.devRef .tc Cert.ReferenceIdeal.main_v388)))
    ∧ (@Eq ((⟨Cert.KernelIdeal.S66000, .i32⟩ : BufTy).Contents (Elt Ideal)) (W53 m ρ c (Proc.devRef .tc Cert.KernelIdeal.main_v384)) ((after (List.take 518 (Cert.ReferenceIdeal.ValueP.ops (F := Ideal))) (StableHlo.launchContents m' c)) (Proc.devRef .tc Cert.ReferenceIdeal.main_v378)))
    ∧ (@Eq ((⟨Cert.KernelIdeal.S2000x128, .f32⟩ : BufTy).Contents (Elt Ideal)) (W53 m ρ c (Proc.devRef .tc Cert.KernelIdeal.main_v382)) ((after (List.take 518 (Cert.ReferenceIdeal.ValueP.ops (F := Ideal))) (StableHlo.launchContents m' c)) (Proc.devRef .tc Cert.ReferenceIdeal.main_v376)))
    ∧ (@Eq ((⟨Cert.KernelIdeal.S66000, .i32⟩ : BufTy).Contents (Elt Ideal)) (W53 m ρ c (Proc.devRef .tc Cert.KernelIdeal.main_v385)) ((after (List.take 518 (Cert.ReferenceIdeal.ValueP.ops (F := Ideal))) (StableHlo.launchContents m' c)) (Proc.devRef .tc Cert.ReferenceIdeal.main_v379)))
    ∧ (@Eq ((⟨Cert.KernelIdeal.S2048x128, .f32⟩ : BufTy).Contents (Elt Ideal)) (W53 m ρ c (Proc.devRef .tc Cert.KernelIdeal.main_v163)) ((after (List.take 518 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v382, i_v329, i_v331, i_v163⟩ := I39 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 518 (Cert.ReferenceIdeal.ValueP.ops (F := Ideal))) (StableHlo.launchContents m' c) = after rpiece40 (after (List.take 501 (Cert.ReferenceIdeal.ValueP.ops (F := Ideal))) (StableHlo.launchContents m' c)) :=
    Cert.FoldCuts.after_take_add (Cert.ReferenceIdeal.ValueP.ops (F := Ideal)) 501 17 (StableHlo.launchContents m' c)
  obtain ⟨q0, q1, q2, q3, q4, q5, q6⟩ := piece40 (W52 m ρ c) (after (List.take 501 (Cert.ReferenceIdeal.ValueP.ops (F := Ideal))) (StableHlo.launchContents m' c)) i_v329
    i_v331
    i_v382
    i_v163
  exact ⟨@Eq.trans ((⟨Cert.KernelIdeal.S_, .f32⟩ : BufTy).Contents (Elt Ideal)) _ _ _ (congrFun (K40 m ρ c) _) (@Eq.trans ((⟨Cert.KernelIdeal.S_, .f32⟩ : BufTy).Contents (Elt Ideal)) _ _ _ q0 (congrFun hR _).symm),
    @Eq.trans ((⟨Cert.KernelIdeal.S2000, .i1⟩ : BufTy).Contents (Elt Ideal)) _ _ _ (congrFun (K40 m ρ c) _) (@Eq.trans ((⟨Cert.KernelIdeal.S2000, .i1⟩ : BufTy).Contents (Elt Ideal)) _ _ _ q1 (congrFun hR _).symm),
    @Eq.trans ((⟨Cert.KernelIdeal.S2000, .f32⟩ : BufTy).Contents (Elt Ideal)) _ _ _ (congrFun (K40 m ρ c) _) (@Eq.trans ((⟨Cert.KernelIdeal.S2000, .f32⟩ : BufTy).Contents (Elt Ideal)) _ _ _ q2 (congrFun hR _).symm),
    @Eq.trans ((⟨Cert.KernelIdeal.S66000, .i32⟩ : BufTy).Contents (Elt Ideal)) _ _ _ (congrFun (K40 m ρ c) _) (@Eq.trans ((⟨Cert.KernelIdeal.S66000, .i32⟩ : BufTy).Contents (Elt Ideal)) _ _ _ q3 (congrFun hR _).symm),
    @Eq.trans ((⟨Cert.KernelIdeal.S2000x128, .f32⟩ : BufTy).Contents (Elt Ideal)) _ _ _ (congrFun (K40 m ρ c) _) (@Eq.trans ((⟨Cert.KernelIdeal.S2000x128, .f32⟩ : BufTy).Contents (Elt Ideal)) _ _ _ q4 (congrFun hR _).symm),
    @Eq.trans ((⟨Cert.KernelIdeal.S66000, .i32⟩ : BufTy).Contents (Elt Ideal)) _ _ _ (congrFun (K40 m ρ c) _) (@Eq.trans ((⟨Cert.KernelIdeal.S66000, .i32⟩ : BufTy).Contents (Elt Ideal)) _ _ _ q5 (congrFun hR _).symm),
    @Eq.trans ((⟨Cert.KernelIdeal.S2048x128, .f32⟩ : BufTy).Contents (Elt Ideal)) _ _ _ (congrFun (K40 m ρ c) _) (@Eq.trans ((⟨Cert.KernelIdeal.S2048x128, .f32⟩ : BufTy).Contents (Elt Ideal)) _ _ _ q6 (congrFun hR _).symm)⟩

theorem K41 : W54 m ρ c = after Cert.KernelIdeal.Gen.hostOps12_1 (W53 m ρ c) := rfl

theorem I41 (hag : Agree m m' c) :
    (@Eq ((⟨Cert.KernelIdeal.S66000, .i32⟩ : BufTy).Contents (Elt Ideal)) (W54 m ρ c (Proc.devRef .tc Cert.KernelIdeal.main_v384)) ((after (List.take 521 (Cert.ReferenceIdeal.ValueP.ops (F := Ideal))) (StableHlo.launchContents m' c)) (Proc.devRef .tc Cert.ReferenceIdeal.main_v378)))
    ∧ (@Eq ((⟨Cert.KernelIdeal.S2000x128, .f32⟩ : BufTy).Contents (Elt Ideal)) (W54 m ρ c (Proc.devRef .tc Cert.KernelIdeal.main_v382)) ((after (List.take 521 (Cert.ReferenceIdeal.ValueP.ops (F := Ideal))) (StableHlo.launchContents m' c)) (Proc.devRef .tc Cert.ReferenceIdeal.main_v376)))
    ∧ (@Eq ((⟨Cert.KernelIdeal.S2000, .f32⟩ : BufTy).Contents (Elt Ideal)) (W54 m ρ c (Proc.devRef .tc Cert.KernelIdeal.main_v395)) ((after (List.take 521 (Cert.ReferenceIdeal.ValueP.ops (F := Ideal))) (StableHlo.launchContents m' c)) (Proc.devRef .tc Cert.ReferenceIdeal.main_v389)))
    ∧ (@Eq ((⟨Cert.KernelIdeal.S66000, .i32⟩ : BufTy).Contents (Elt Ideal)) (W54 m ρ c (Proc.devRef .tc Cert.KernelIdeal.main_v385)) ((after (List.take 521 (Cert.ReferenceIdeal.ValueP.ops (F := Ideal))) (StableHlo.launchContents m' c)) (Proc.devRef .tc Cert.ReferenceIdeal.main_v379)))
    ∧ (@Eq ((⟨Cert.KernelIdeal.S2048x128, .f32⟩ : BufTy).Contents (Elt Ideal)) (W54 m ρ c (Proc.devRef .tc Cert.KernelIdeal.main_v163)) ((after (List.take 521 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_cst_102, i_v391, i_v394, i_v384, i_v382, i_v385, i_v163⟩ := I40 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 521 (Cert.ReferenceIdeal.ValueP.ops (F := Ideal))) (StableHlo.launchContents m' c) = after rpiece41 (after (List.take 518 (Cert.ReferenceIdeal.ValueP.ops (F := Ideal))) (StableHlo.launchContents m' c)) :=
    Cert.FoldCuts.after_take_add (Cert.ReferenceIdeal.ValueP.ops (F := Ideal)) 518 3 (StableHlo.launchContents m' c)
  obtain ⟨q0, q1, q2, q3, q4⟩ := piece41 (W53 m ρ c) (after (List.take 518 (Cert.ReferenceIdeal.ValueP.ops (F := Ideal))) (StableHlo.launchContents m' c)) i_cst_102
    i_v391
    i_v394
    i_v384
    i_v382
    i_v385
    i_v163
  exact ⟨@Eq.trans ((⟨Cert.KernelIdeal.S66000, .i32⟩ : BufTy).Contents (Elt Ideal)) _ _ _ (congrFun (K41 m ρ c) _) (@Eq.trans ((⟨Cert.KernelIdeal.S66000, .i32⟩ : BufTy).Contents (Elt Ideal)) _ _ _ q0 (congrFun hR _).symm),
    @Eq.trans ((⟨Cert.KernelIdeal.S2000x128, .f32⟩ : BufTy).Contents (Elt Ideal)) _ _ _ (congrFun (K41 m ρ c) _) (@Eq.trans ((⟨Cert.KernelIdeal.S2000x128, .f32⟩ : BufTy).Contents (Elt Ideal)) _ _ _ q1 (congrFun hR _).symm),
    @Eq.trans ((⟨Cert.KernelIdeal.S2000, .f32⟩ : BufTy).Contents (Elt Ideal)) _ _ _ (congrFun (K41 m ρ c) _) (@Eq.trans ((⟨Cert.KernelIdeal.S2000, .f32⟩ : BufTy).Contents (Elt Ideal)) _ _ _ q2 (congrFun hR _).symm),
    @Eq.trans ((⟨Cert.KernelIdeal.S66000, .i32⟩ : BufTy).Contents (Elt Ideal)) _ _ _ (congrFun (K41 m ρ c) _) (@Eq.trans ((⟨Cert.KernelIdeal.S66000, .i32⟩ : BufTy).Contents (Elt Ideal)) _ _ _ q3 (congrFun hR _).symm),
    @Eq.trans ((⟨Cert.KernelIdeal.S2048x128, .f32⟩ : BufTy).Contents (Elt Ideal)) _ _ _ (congrFun (K41 m ρ c) _) (@Eq.trans ((⟨Cert.KernelIdeal.S2048x128, .f32⟩ : BufTy).Contents (Elt Ideal)) _ _ _ q4 (congrFun hR _).symm)⟩

theorem K42 : W55 m ρ c = after Cert.KernelIdeal.Gen.hostOps12_2 (W54 m ρ c) := rfl

theorem I42 (hag : Agree m m' c) :
    (@Eq ((⟨Cert.KernelIdeal.S2000x128, .f32⟩ : BufTy).Contents (Elt Ideal)) (W55 m ρ c (Proc.devRef .tc Cert.KernelIdeal.main_v426)) ((after (List.take 559 (Cert.ReferenceIdeal.ValueP.ops (F := Ideal))) (StableHlo.launchContents m' c)) (Proc.devRef .tc Cert.ReferenceIdeal.main_v420)))
    ∧ (@Eq ((⟨Cert.KernelIdeal.S2048x128, .f32⟩ : BufTy).Contents (Elt Ideal)) (W55 m ρ c (Proc.devRef .tc Cert.KernelIdeal.main_v163)) ((after (List.take 559 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v384, i_v382, i_v395, i_v385, i_v163⟩ := I41 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 559 (Cert.ReferenceIdeal.ValueP.ops (F := Ideal))) (StableHlo.launchContents m' c) = after rpiece42 (after (List.take 521 (Cert.ReferenceIdeal.ValueP.ops (F := Ideal))) (StableHlo.launchContents m' c)) :=
    Cert.FoldCuts.after_take_add (Cert.ReferenceIdeal.ValueP.ops (F := Ideal)) 521 38 (StableHlo.launchContents m' c)
  obtain ⟨q0, q1⟩ := piece42 (W54 m ρ c) (after (List.take 521 (Cert.ReferenceIdeal.ValueP.ops (F := Ideal))) (StableHlo.launchContents m' c)) i_v384
    i_v382
    i_v395
    i_v385
    (@Eq.trans ((⟨Cert.KernelIdeal.S128, .f32⟩ : BufTy).Contents (Elt Ideal)) _ _ _ (arg_at54 m ρ c Cert.KernelIdeal.main_arg25 (by decide)) (@Eq.trans ((⟨Cert.KernelIdeal.S128, .f32⟩ : BufTy).Contents (Elt Ideal)) _ _ _ a25.symm (argR m' c 521 Cert.ReferenceIdeal.main_arg25 (by decide)).symm))
    i_v163
  exact ⟨@Eq.trans ((⟨Cert.KernelIdeal.S2000x128, .f32⟩ : BufTy).Contents (Elt Ideal)) _ _ _ (congrFun (K42 m ρ c) _) (@Eq.trans ((⟨Cert.KernelIdeal.S2000x128, .f32⟩ : BufTy).Contents (Elt Ideal)) _ _ _ q0 (congrFun hR _).symm),
    @Eq.trans ((⟨Cert.KernelIdeal.S2048x128, .f32⟩ : BufTy).Contents (Elt Ideal)) _ _ _ (congrFun (K42 m ρ c) _) (@Eq.trans ((⟨Cert.KernelIdeal.S2048x128, .f32⟩ : BufTy).Contents (Elt Ideal)) _ _ _ q1 (congrFun hR _).symm)⟩

theorem K43 : W56 m ρ c = after Cert.KernelIdeal.Gen.hostOps12_3 (W55 m ρ c) := rfl

theorem I43 (hag : Agree m m' c) :
    (@Eq ((⟨Cert.KernelIdeal.S2000x128, .f32⟩ : BufTy).Contents (Elt Ideal)) (W56 m ρ c (Proc.devRef .tc Cert.KernelIdeal.main_v427)) ((after (List.take 562 (Cert.ReferenceIdeal.ValueP.ops (F := Ideal))) (StableHlo.launchContents m' c)) (Proc.devRef .tc Cert.ReferenceIdeal.main_v421)))
    ∧ (@Eq ((⟨Cert.KernelIdeal.S2048x128, .f32⟩ : BufTy).Contents (Elt Ideal)) (W56 m ρ c (Proc.devRef .tc Cert.KernelIdeal.main_v163)) ((after (List.take 562 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v426, i_v163⟩ := I42 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 562 (Cert.ReferenceIdeal.ValueP.ops (F := Ideal))) (StableHlo.launchContents m' c) = after rpiece43 (after (List.take 559 (Cert.ReferenceIdeal.ValueP.ops (F := Ideal))) (StableHlo.launchContents m' c)) :=
    Cert.FoldCuts.after_take_add (Cert.ReferenceIdeal.ValueP.ops (F := Ideal)) 559 3 (StableHlo.launchContents m' c)
  obtain ⟨q0, q1⟩ := piece43 (W55 m ρ c) (after (List.take 559 (Cert.ReferenceIdeal.ValueP.ops (F := Ideal))) (StableHlo.launchContents m' c)) i_v426
    i_v163
  exact ⟨@Eq.trans ((⟨Cert.KernelIdeal.S2000x128, .f32⟩ : BufTy).Contents (Elt Ideal)) _ _ _ (congrFun (K43 m ρ c) _) (@Eq.trans ((⟨Cert.KernelIdeal.S2000x128, .f32⟩ : BufTy).Contents (Elt Ideal)) _ _ _ q0 (congrFun hR _).symm),
    @Eq.trans ((⟨Cert.KernelIdeal.S2048x128, .f32⟩ : BufTy).Contents (Elt Ideal)) _ _ _ (congrFun (K43 m ρ c) _) (@Eq.trans ((⟨Cert.KernelIdeal.S2048x128, .f32⟩ : BufTy).Contents (Elt Ideal)) _ _ _ q1 (congrFun hR _).symm)⟩

theorem K44 : W58 m ρ c = after (Cert.KernelIdeal.Gen.hostOps12_4 ++ [Cert.KernelIdeal.Dense.dop12]) (W56 m ρ c) := by
  simp only [Cert.FoldCuts.after_append]
  exact region12 m ρ c

theorem I44 (hag : Agree m m' c) :
    (@Eq ((⟨Cert.KernelIdeal.S2000x1024, .f32⟩ : BufTy).Contents (Elt Ideal)) (W58 m ρ c (Proc.devRef .tc Cert.KernelIdeal.main_v429)) ((after (List.take 569 (Cert.ReferenceIdeal.ValueP.ops (F := Ideal))) (StableHlo.launchContents m' c)) (Proc.devRef .tc Cert.ReferenceIdeal.main_v426)))
    ∧ (@Eq ((⟨Cert.KernelIdeal.S2048x128, .f32⟩ : BufTy).Contents (Elt Ideal)) (W58 m ρ c (Proc.devRef .tc Cert.KernelIdeal.main_v163)) ((after (List.take 569 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v427, i_v163⟩ := I43 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 569 (Cert.ReferenceIdeal.ValueP.ops (F := Ideal))) (StableHlo.launchContents m' c) = after rpiece44 (after (List.take 562 (Cert.ReferenceIdeal.ValueP.ops (F := Ideal))) (StableHlo.launchContents m' c)) :=
    Cert.FoldCuts.after_take_add (Cert.ReferenceIdeal.ValueP.ops (F := Ideal)) 562 7 (StableHlo.launchContents m' c)
  obtain ⟨q0, q1⟩ := piece44 (W56 m ρ c) (after (List.take 562 (Cert.ReferenceIdeal.ValueP.ops (F := Ideal))) (StableHlo.launchContents m' c)) (@Eq.trans ((⟨Cert.KernelIdeal.S1024, .f32⟩ : BufTy).Contents (Elt Ideal)) _ _ _ (arg_at56 m ρ c Cert.KernelIdeal.main_arg27 (by decide)) (@Eq.trans ((⟨Cert.KernelIdeal.S1024, .f32⟩ : BufTy).Contents (Elt Ideal)) _ _ _ a27.symm (argR m' c 562 Cert.ReferenceIdeal.main_arg27 (by decide)).symm))
    i_v427
    (@Eq.trans ((⟨Cert.KernelIdeal.S128x1024, .f32⟩ : BufTy).Contents (Elt Ideal)) _ _ _ (arg_at56 m ρ c Cert.KernelIdeal.main_arg26 (by decide)) (@Eq.trans ((⟨Cert.KernelIdeal.S128x1024, .f32⟩ : BufTy).Contents (Elt Ideal)) _ _ _ a26.symm (argR m' c 562 Cert.ReferenceIdeal.main_arg26 (by decide)).symm))
    i_v163
  exact ⟨@Eq.trans ((⟨Cert.KernelIdeal.S2000x1024, .f32⟩ : BufTy).Contents (Elt Ideal)) _ _ _ (congrFun (K44 m ρ c) _) (@Eq.trans ((⟨Cert.KernelIdeal.S2000x1024, .f32⟩ : BufTy).Contents (Elt Ideal)) _ _ _ q0 (congrFun hR _).symm),
    @Eq.trans ((⟨Cert.KernelIdeal.S2048x128, .f32⟩ : BufTy).Contents (Elt Ideal)) _ _ _ (congrFun (K44 m ρ c) _) (@Eq.trans ((⟨Cert.KernelIdeal.S2048x128, .f32⟩ : BufTy).Contents (Elt Ideal)) _ _ _ q1 (congrFun hR _).symm)⟩

theorem K45 : W60 m ρ c = after (Cert.KernelIdeal.Gen.hostOps13 ++ [Cert.KernelIdeal.Dense.dop13]) (W58 m ρ c) := by
  simp only [Cert.FoldCuts.after_append]
  exact region13 m ρ c

theorem I45 (hag : Agree m m' c) :
    (@Eq ((⟨Cert.KernelIdeal.S2000x128, .f32⟩ : BufTy).Contents (Elt Ideal)) (W60 m ρ c (Proc.devRef .tc Cert.KernelIdeal.main_v431)) ((after (List.take 573 (Cert.ReferenceIdeal.ValueP.ops (F := Ideal))) (StableHlo.launchContents m' c)) (Proc.devRef .tc Cert.ReferenceIdeal.main_v430)))
    ∧ (@Eq ((⟨Cert.KernelIdeal.S2048x128, .f32⟩ : BufTy).Contents (Elt Ideal)) (W60 m ρ c (Proc.devRef .tc Cert.KernelIdeal.main_v163)) ((after (List.take 573 (Cert.ReferenceIdeal.ValueP.ops (F := Ideal))) (StableHlo.launchContents m' c)) (Proc.devRef .tc Cert.ReferenceIdeal.main_v162))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v429, i_v163⟩ := I44 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 573 (Cert.ReferenceIdeal.ValueP.ops (F := Ideal))) (StableHlo.launchContents m' c) = after rpiece45 (after (List.take 569 (Cert.ReferenceIdeal.ValueP.ops (F := Ideal))) (StableHlo.launchContents m' c)) :=
    Cert.FoldCuts.after_take_add (Cert.ReferenceIdeal.ValueP.ops (F := Ideal)) 569 4 (StableHlo.launchContents m' c)
  obtain ⟨q0, q1⟩ := piece45 (W58 m ρ c) (after (List.take 569 (Cert.ReferenceIdeal.ValueP.ops (F := Ideal))) (StableHlo.launchContents m' c)) (@Eq.trans ((⟨Cert.KernelIdeal.S128, .f32⟩ : BufTy).Contents (Elt Ideal)) _ _ _ (arg_at58 m ρ c Cert.KernelIdeal.main_arg29 (by decide)) (@Eq.trans ((⟨Cert.KernelIdeal.S128, .f32⟩ : BufTy).Contents (Elt Ideal)) _ _ _ a29.symm (argR m' c 569 Cert.ReferenceIdeal.main_arg29 (by decide)).symm))
    i_v429
    (@Eq.trans ((⟨Cert.KernelIdeal.S1024x128, .f32⟩ : BufTy).Contents (Elt Ideal)) _ _ _ (arg_at58 m ρ c Cert.KernelIdeal.main_arg28 (by decide)) (@Eq.trans ((⟨Cert.KernelIdeal.S1024x128, .f32⟩ : BufTy).Contents (Elt Ideal)) _ _ _ a28.symm (argR m' c 569 Cert.ReferenceIdeal.main_arg28 (by decide)).symm))
    i_v163
  exact ⟨@Eq.trans ((⟨Cert.KernelIdeal.S2000x128, .f32⟩ : BufTy).Contents (Elt Ideal)) _ _ _ (congrFun (K45 m ρ c) _) (@Eq.trans ((⟨Cert.KernelIdeal.S2000x128, .f32⟩ : BufTy).Contents (Elt Ideal)) _ _ _ q0 (congrFun hR _).symm),
    @Eq.trans ((⟨Cert.KernelIdeal.S2048x128, .f32⟩ : BufTy).Contents (Elt Ideal)) _ _ _ (congrFun (K45 m ρ c) _) (@Eq.trans ((⟨Cert.KernelIdeal.S2048x128, .f32⟩ : BufTy).Contents (Elt Ideal)) _ _ _ q1 (congrFun hR _).symm)⟩

theorem K46 : W62 m ρ c = after (Cert.KernelIdeal.Gen.hostOps14 ++ [Cert.KernelIdeal.Dense.dop14]) (W60 m ρ c) := by
  simp only [Cert.FoldCuts.after_append]
  exact region14 m ρ c

theorem I46 (hag : Agree m m' c) :
    (@Eq ((⟨Cert.KernelIdeal.S2048x1024, .f32⟩ : BufTy).Contents (Elt Ideal)) (W62 m ρ c (Proc.devRef .tc Cert.KernelIdeal.main_v441)) ((after (List.take 590 (Cert.ReferenceIdeal.ValueP.ops (F := Ideal))) (StableHlo.launchContents m' c)) (Proc.devRef .tc Cert.ReferenceIdeal.main_v443))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  obtain ⟨i_v431, i_v163⟩ := I45 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 590 (Cert.ReferenceIdeal.ValueP.ops (F := Ideal))) (StableHlo.launchContents m' c) = after rpiece46 (after (List.take 573 (Cert.ReferenceIdeal.ValueP.ops (F := Ideal))) (StableHlo.launchContents m' c)) :=
    Cert.FoldCuts.after_take_add (Cert.ReferenceIdeal.ValueP.ops (F := Ideal)) 573 17 (StableHlo.launchContents m' c)
  have q0 := piece46 (W60 m ρ c) (after (List.take 573 (Cert.ReferenceIdeal.ValueP.ops (F := Ideal))) (StableHlo.launchContents m' c)) (@Eq.trans ((⟨Cert.KernelIdeal.S2048, .i32⟩ : BufTy).Contents (Elt Ideal)) _ _ _ (arg_at60 m ρ c Cert.KernelIdeal.main_arg41 (by decide)) (@Eq.trans ((⟨Cert.KernelIdeal.S2048, .i32⟩ : BufTy).Contents (Elt Ideal)) _ _ _ a41.symm (argR m' c 573 Cert.ReferenceIdeal.main_arg41 (by decide)).symm))
    i_v431
    i_v163
    (@Eq.trans ((⟨Cert.KernelIdeal.S1024, .f32⟩ : BufTy).Contents (Elt Ideal)) _ _ _ (arg_at60 m ρ c Cert.KernelIdeal.main_arg31 (by decide)) (@Eq.trans ((⟨Cert.KernelIdeal.S1024, .f32⟩ : BufTy).Contents (Elt Ideal)) _ _ _ a31.symm (argR m' c 573 Cert.ReferenceIdeal.main_arg31 (by decide)).symm))
    (@Eq.trans ((⟨Cert.KernelIdeal.S256x1024, .f32⟩ : BufTy).Contents (Elt Ideal)) _ _ _ (arg_at60 m ρ c Cert.KernelIdeal.main_arg30 (by decide)) (@Eq.trans ((⟨Cert.KernelIdeal.S256x1024, .f32⟩ : BufTy).Contents (Elt Ideal)) _ _ _ a30.symm (argR m' c 573 Cert.ReferenceIdeal.main_arg30 (by decide)).symm))
  exact @Eq.trans ((⟨Cert.KernelIdeal.S2048x1024, .f32⟩ : BufTy).Contents (Elt Ideal)) _ _ _ (congrFun (K46 m ρ c) _) (@Eq.trans ((⟨Cert.KernelIdeal.S2048x1024, .f32⟩ : BufTy).Contents (Elt Ideal)) _ _ _ q0 (congrFun hR _).symm)

theorem K47 : W64 m ρ c = after (Cert.KernelIdeal.Gen.hostOps15 ++ [Cert.KernelIdeal.Dense.dop15]) (W62 m ρ c) := by
  simp only [Cert.FoldCuts.after_append]
  exact region15 m ρ c

theorem I47 (hag : Agree m m' c) :
    (@Eq ((⟨Cert.KernelIdeal.S2048x512, .f32⟩ : BufTy).Contents (Elt Ideal)) (W64 m ρ c (Proc.devRef .tc Cert.KernelIdeal.main_v443)) ((after (List.take 597 (Cert.ReferenceIdeal.ValueP.ops (F := Ideal))) (StableHlo.launchContents m' c)) (Proc.devRef .tc Cert.ReferenceIdeal.main_v448))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v441 := I46 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 597 (Cert.ReferenceIdeal.ValueP.ops (F := Ideal))) (StableHlo.launchContents m' c) = after rpiece47 (after (List.take 590 (Cert.ReferenceIdeal.ValueP.ops (F := Ideal))) (StableHlo.launchContents m' c)) :=
    Cert.FoldCuts.after_take_add (Cert.ReferenceIdeal.ValueP.ops (F := Ideal)) 590 7 (StableHlo.launchContents m' c)
  have q0 := piece47 (W62 m ρ c) (after (List.take 590 (Cert.ReferenceIdeal.ValueP.ops (F := Ideal))) (StableHlo.launchContents m' c)) (@Eq.trans ((⟨Cert.KernelIdeal.S512, .f32⟩ : BufTy).Contents (Elt Ideal)) _ _ _ (arg_at62 m ρ c Cert.KernelIdeal.main_arg33 (by decide)) (@Eq.trans ((⟨Cert.KernelIdeal.S512, .f32⟩ : BufTy).Contents (Elt Ideal)) _ _ _ a33.symm (argR m' c 590 Cert.ReferenceIdeal.main_arg33 (by decide)).symm))
    i_v441
    (@Eq.trans ((⟨Cert.KernelIdeal.S1024x512, .f32⟩ : BufTy).Contents (Elt Ideal)) _ _ _ (arg_at62 m ρ c Cert.KernelIdeal.main_arg32 (by decide)) (@Eq.trans ((⟨Cert.KernelIdeal.S1024x512, .f32⟩ : BufTy).Contents (Elt Ideal)) _ _ _ a32.symm (argR m' c 590 Cert.ReferenceIdeal.main_arg32 (by decide)).symm))
  exact @Eq.trans ((⟨Cert.KernelIdeal.S2048x512, .f32⟩ : BufTy).Contents (Elt Ideal)) _ _ _ (congrFun (K47 m ρ c) _) (@Eq.trans ((⟨Cert.KernelIdeal.S2048x512, .f32⟩ : BufTy).Contents (Elt Ideal)) _ _ _ q0 (congrFun hR _).symm)

theorem K48 : W66 m ρ c = after (Cert.KernelIdeal.Gen.hostOps16 ++ [Cert.KernelIdeal.Dense.dop16]) (W64 m ρ c) := by
  simp only [Cert.FoldCuts.after_append]
  exact region16 m ρ c

theorem I48 (hag : Agree m m' c) :
    (@Eq ((⟨Cert.KernelIdeal.S2048x1, .f32⟩ : BufTy).Contents (Elt Ideal)) (W66 m ρ c (Proc.devRef .tc Cert.KernelIdeal.main_v445)) ((after (List.take 601 (Cert.ReferenceIdeal.ValueP.ops (F := Ideal))) (StableHlo.launchContents m' c)) (Proc.devRef .tc Cert.ReferenceIdeal.main_v452))) := by
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hag
  have i_v443 := I47 m ρ m' c ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩
  have hR : after (List.take 601 (Cert.ReferenceIdeal.ValueP.ops (F := Ideal))) (StableHlo.launchContents m' c) = after rpiece48 (after (List.take 597 (Cert.ReferenceIdeal.ValueP.ops (F := Ideal))) (StableHlo.launchContents m' c)) :=
    Cert.FoldCuts.after_take_add (Cert.ReferenceIdeal.ValueP.ops (F := Ideal)) 597 4 (StableHlo.launchContents m' c)
  have q0 := piece48 (W64 m ρ c) (after (List.take 597 (Cert.ReferenceIdeal.ValueP.ops (F := Ideal))) (StableHlo.launchContents m' c)) (@Eq.trans ((⟨Cert.KernelIdeal.S1, .f32⟩ : BufTy).Contents (Elt Ideal)) _ _ _ (arg_at64 m ρ c Cert.KernelIdeal.main_arg35 (by decide)) (@Eq.trans ((⟨Cert.KernelIdeal.S1, .f32⟩ : BufTy).Contents (Elt Ideal)) _ _ _ a35.symm (argR m' c 597 Cert.ReferenceIdeal.main_arg35 (by decide)).symm))
    i_v443
    (@Eq.trans ((⟨Cert.KernelIdeal.S512x1, .f32⟩ : BufTy).Contents (Elt Ideal)) _ _ _ (arg_at64 m ρ c Cert.KernelIdeal.main_arg34 (by decide)) (@Eq.trans ((⟨Cert.KernelIdeal.S512x1, .f32⟩ : BufTy).Contents (Elt Ideal)) _ _ _ a34.symm (argR m' c 597 Cert.ReferenceIdeal.main_arg34 (by decide)).symm))
  exact @Eq.trans ((⟨Cert.KernelIdeal.S2048x1, .f32⟩ : BufTy).Contents (Elt Ideal)) _ _ _ (congrFun (K48 m ρ c) _) (@Eq.trans ((⟨Cert.KernelIdeal.S2048x1, .f32⟩ : BufTy).Contents (Elt Ideal)) _ _ _ q0 (congrFun hR _).symm)

/-- The kernel program's result array after its last region is the reference's after all its operations. -/
theorem result_eq (hag : Agree m m' c) :
    @Eq ((⟨Cert.KernelIdeal.S2048x1, .f32⟩ : BufTy).Contents (Elt Ideal)) (W66 m ρ c (Proc.devRef .tc Cert.KernelIdeal.main_v445)) (after (Cert.ReferenceIdeal.ValueP.ops (F := Ideal)) (StableHlo.launchContents m' c) (Proc.devRef .tc Cert.ReferenceIdeal.main_v452)) := by
  have h := I48 m ρ m' c hag
  have hlen : (Cert.ReferenceIdeal.ValueP.ops (F := Ideal)).length = 601 := rfl
  rw [List.take_of_length_le (le_of_eq hlen)] at h
  exact h

end Cert.Chain

end
-- ==== Proof.lean ====
/-
  Two implementations of one graph network — three graph-convolution layers and a pooling over a molecule graph, the
  same over a protein graph, two graph-convolution layers over the protein-interaction graph, and dense layers in
  between and on top — computed once with every dense layer  X · W (+ b) (then the positive part)  as a row-tiled
  matrix-unit kernel, once entirely on the host.

  Read at the exact extended reals the two programs are the same sequence of host operations on corresponding buffers
  except at the seventeen layers, and there they agree: a tile of rows of a dense layer is the same rows of the layer of
  the whole array, the tiles cover the array, a change of float format is the identity, and a zero bias row adds
  nothing.  So each kernel region acts on the buffers as one host operation (Region k), each line of the kernel program
  leaves the buffers the reference's corresponding line leaves (Line k), and line by line (Chain) the kernel program's
  result array is the reference's.  The frames of the two kernel programs are the generated launches over the seventeen regions, with "no segment writes
  an argument" proved once for all arguments; the reference's is its run with the values dropped; the idealization's
  ledger is empty.
-/
import proofs.«153485_j59545426592079_1_alg».proof.Defs
import proofs.«153485_j59545426592079_1_alg».proof.Proof.Gen.Kernel
import proofs.«153485_j59545426592079_1_alg».proof.Proof.RunK
import proofs.«153485_j59545426592079_1_alg».proof.Proof.Gen.KernelIdeal
import proofs.«153485_j59545426592079_1_alg».proof.Proof.RunKI
import proofs.«153485_j59545426592079_1_alg».proof.Proof.Gen.ReferenceIdeal
import proofs.«153485_j59545426592079_1_alg».proof.Proof.Gen.Pre_finite_inputs
import proofs.«153485_j59545426592079_1_alg».proof.Proof.RefRun
import proofs.«153485_j59545426592079_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.GenP.frame m ρ

theorem frame_ki : Cert.frame_KernelIdeal := fun m ρ _ => Cert.KernelIdeal.GenP.frame m ρ

/-- The reference's frame: its run with the values dropped. -/
theorem frame_ri : Cert.frame_ReferenceIdeal := fun m ρ _ =>
  (θ_run Cert.ReferenceIdeal.defs _ _).mono (fun r h c =>
    ⟨(h c Cert.ReferenceIdeal.main_arg0).trans ((Cert.ReferenceIdeal.Kept.kept_all _ Cert.ReferenceIdeal.main_arg0 (by decide)).trans rfl),
     (h c Cert.ReferenceIdeal.main_arg1).trans ((Cert.ReferenceIdeal.Kept.kept_all _ Cert.ReferenceIdeal.main_arg1 (by decide)).trans rfl),
     (h c Cert.ReferenceIdeal.main_arg2).trans ((Cert.ReferenceIdeal.Kept.kept_all _ Cert.ReferenceIdeal.main_arg2 (by decide)).trans rfl),
     (h c Cert.ReferenceIdeal.main_arg3).trans ((Cert.ReferenceIdeal.Kept.kept_all _ Cert.ReferenceIdeal.main_arg3 (by decide)).trans rfl),
     (h c Cert.ReferenceIdeal.main_arg4).trans ((Cert.ReferenceIdeal.Kept.kept_all _ Cert.ReferenceIdeal.main_arg4 (by decide)).trans rfl),
     (h c Cert.ReferenceIdeal.main_arg5).trans ((Cert.ReferenceIdeal.Kept.kept_all _ Cert.ReferenceIdeal.main_arg5 (by decide)).trans rfl),
     (h c Cert.ReferenceIdeal.main_arg6).trans ((Cert.ReferenceIdeal.Kept.kept_all _ Cert.ReferenceIdeal.main_arg6 (by decide)).trans rfl),
     (h c Cert.ReferenceIdeal.main_arg7).trans ((Cert.ReferenceIdeal.Kept.kept_all _ Cert.ReferenceIdeal.main_arg7 (by decide)).trans rfl),
     (h c Cert.ReferenceIdeal.main_arg8).trans ((Cert.ReferenceIdeal.Kept.kept_all _ Cert.ReferenceIdeal.main_arg8 (by decide)).trans rfl),
     (h c Cert.ReferenceIdeal.main_arg9).trans ((Cert.ReferenceIdeal.Kept.kept_all _ Cert.ReferenceIdeal.main_arg9 (by decide)).trans rfl),
     (h c Cert.ReferenceIdeal.main_arg10).trans ((Cert.ReferenceIdeal.Kept.kept_all _ Cert.ReferenceIdeal.main_arg10 (by decide)).trans rfl),
     (h c Cert.ReferenceIdeal.main_arg11).trans ((Cert.ReferenceIdeal.Kept.kept_all _ Cert.ReferenceIdeal.main_arg11 (by decide)).trans rfl),
     (h c Cert.ReferenceIdeal.main_arg12).trans ((Cert.ReferenceIdeal.Kept.kept_all _ Cert.ReferenceIdeal.main_arg12 (by decide)).trans rfl),
     (h c Cert.ReferenceIdeal.main_arg13).trans ((Cert.ReferenceIdeal.Kept.kept_all _ Cert.ReferenceIdeal.main_arg13 (by decide)).trans rfl),
     (h c Cert.ReferenceIdeal.main_arg14).trans ((Cert.ReferenceIdeal.Kept.kept_all _ Cert.ReferenceIdeal.main_arg14 (by decide)).trans rfl),
     (h c Cert.ReferenceIdeal.main_arg15).trans ((Cert.ReferenceIdeal.Kept.kept_all _ Cert.ReferenceIdeal.main_arg15 (by decide)).trans rfl),
     (h c Cert.ReferenceIdeal.main_arg16).trans ((Cert.ReferenceIdeal.Kept.kept_all _ Cert.ReferenceIdeal.main_arg16 (by decide)).trans rfl),
     (h c Cert.ReferenceIdeal.main_arg17).trans ((Cert.ReferenceIdeal.Kept.kept_all _ Cert.ReferenceIdeal.main_arg17 (by decide)).trans rfl),
     (h c Cert.ReferenceIdeal.main_arg18).trans ((Cert.ReferenceIdeal.Kept.kept_all _ Cert.ReferenceIdeal.main_arg18 (by decide)).trans rfl),
     (h c Cert.ReferenceIdeal.main_arg19).trans ((Cert.ReferenceIdeal.Kept.kept_all _ Cert.ReferenceIdeal.main_arg19 (by decide)).trans rfl),
     (h c Cert.ReferenceIdeal.main_arg20).trans ((Cert.ReferenceIdeal.Kept.kept_all _ Cert.ReferenceIdeal.main_arg20 (by decide)).trans rfl),
     (h c Cert.ReferenceIdeal.main_arg21).trans ((Cert.ReferenceIdeal.Kept.kept_all _ Cert.ReferenceIdeal.main_arg21 (by decide)).trans rfl),
     (h c Cert.ReferenceIdeal.main_arg22).trans ((Cert.ReferenceIdeal.Kept.kept_all _ Cert.ReferenceIdeal.main_arg22 (by decide)).trans rfl),
     (h c Cert.ReferenceIdeal.main_arg23).trans ((Cert.ReferenceIdeal.Kept.kept_all _ Cert.ReferenceIdeal.main_arg23 (by decide)).trans rfl),
     (h c Cert.ReferenceIdeal.main_arg24).trans ((Cert.ReferenceIdeal.Kept.kept_all _ Cert.ReferenceIdeal.main_arg24 (by decide)).trans rfl),
     (h c Cert.ReferenceIdeal.main_arg25).trans ((Cert.ReferenceIdeal.Kept.kept_all _ Cert.ReferenceIdeal.main_arg25 (by decide)).trans rfl),
     (h c Cert.ReferenceIdeal.main_arg26).trans ((Cert.ReferenceIdeal.Kept.kept_all _ Cert.ReferenceIdeal.main_arg26 (by decide)).trans rfl),
     (h c Cert.ReferenceIdeal.main_arg27).trans ((Cert.ReferenceIdeal.Kept.kept_all _ Cert.ReferenceIdeal.main_arg27 (by decide)).trans rfl),
     (h c Cert.ReferenceIdeal.main_arg28).trans ((Cert.ReferenceIdeal.Kept.kept_all _ Cert.ReferenceIdeal.main_arg28 (by decide)).trans rfl),
     (h c Cert.ReferenceIdeal.main_arg29).trans ((Cert.ReferenceIdeal.Kept.kept_all _ Cert.ReferenceIdeal.main_arg29 (by decide)).trans rfl),
     (h c Cert.ReferenceIdeal.main_arg30).trans ((Cert.ReferenceIdeal.Kept.kept_all _ Cert.ReferenceIdeal.main_arg30 (by decide)).trans rfl),
     (h c Cert.ReferenceIdeal.main_arg31).trans ((Cert.ReferenceIdeal.Kept.kept_all _ Cert.ReferenceIdeal.main_arg31 (by decide)).trans rfl),
     (h c Cert.ReferenceIdeal.main_arg32).trans ((Cert.ReferenceIdeal.Kept.kept_all _ Cert.ReferenceIdeal.main_arg32 (by decide)).trans rfl),
     (h c Cert.ReferenceIdeal.main_arg33).trans ((Cert.ReferenceIdeal.Kept.kept_all _ Cert.ReferenceIdeal.main_arg33 (by decide)).trans rfl),
     (h c Cert.ReferenceIdeal.main_arg34).trans ((Cert.ReferenceIdeal.Kept.kept_all _ Cert.ReferenceIdeal.main_arg34 (by decide)).trans rfl),
     (h c Cert.ReferenceIdeal.main_arg35).trans ((Cert.ReferenceIdeal.Kept.kept_all _ Cert.ReferenceIdeal.main_arg35 (by decide)).trans rfl),
     (h c Cert.ReferenceIdeal.main_arg36).trans ((Cert.ReferenceIdeal.Kept.kept_all _ Cert.ReferenceIdeal.main_arg36 (by decide)).trans rfl),
     (h c Cert.ReferenceIdeal.main_arg37).trans ((Cert.ReferenceIdeal.Kept.kept_all _ Cert.ReferenceIdeal.main_arg37 (by decide)).trans rfl),
     (h c Cert.ReferenceIdeal.main_arg38).trans ((Cert.ReferenceIdeal.Kept.kept_all _ Cert.ReferenceIdeal.main_arg38 (by decide)).trans rfl),
     (h c Cert.ReferenceIdeal.main_arg39).trans ((Cert.ReferenceIdeal.Kept.kept_all _ Cert.ReferenceIdeal.main_arg39 (by decide)).trans rfl),
     (h c Cert.ReferenceIdeal.main_arg40).trans ((Cert.ReferenceIdeal.Kept.kept_all _ Cert.ReferenceIdeal.main_arg40 (by decide)).trans rfl),
     (h c Cert.ReferenceIdeal.main_arg41).trans ((Cert.ReferenceIdeal.Kept.kept_all _ Cert.ReferenceIdeal.main_arg41 (by decide)).trans rfl)⟩)
    (Cert.ReferenceIdeal.Folded.run m ρ)

/-- The ideal pass rewrote nothing: there is nothing to preserve. -/
theorem preserves : Cert.preserves_Kernel_KernelIdeal := trivial

/-- From launches that share the arguments both programs end, the kernel program's result array at what its last
    region leaves, the reference's at the fold of its operations; line by line these are one array. -/
theorem algebraic : Cert.algebraic_KernelIdeal_ReferenceIdeal := by
  intro m ρ m' ρ' _ hagree
  refine ⟨_, Cert.KernelIdeal.GenP.run_named (F := Ideal) m ρ, ?_⟩
  refine (θ_run Cert.ReferenceIdeal.defs _ _).mono (fun r h c =>
    ⟨(h c Cert.ReferenceIdeal.main_v452).trans (Cert.Chain.result_eq m ρ m' c (hagree c)).symm,
     (h c Cert.ReferenceIdeal.main_arg0).trans ((Cert.ReferenceIdeal.Kept.kept_all _ Cert.ReferenceIdeal.main_arg0 (by decide)).trans rfl),
     (h c Cert.ReferenceIdeal.main_arg1).trans ((Cert.ReferenceIdeal.Kept.kept_all _ Cert.ReferenceIdeal.main_arg1 (by decide)).trans rfl),
     (h c Cert.ReferenceIdeal.main_arg2).trans ((Cert.ReferenceIdeal.Kept.kept_all _ Cert.ReferenceIdeal.main_arg2 (by decide)).trans rfl),
     (h c Cert.ReferenceIdeal.main_arg3).trans ((Cert.ReferenceIdeal.Kept.kept_all _ Cert.ReferenceIdeal.main_arg3 (by decide)).trans rfl),
     (h c Cert.ReferenceIdeal.main_arg4).trans ((Cert.ReferenceIdeal.Kept.kept_all _ Cert.ReferenceIdeal.main_arg4 (by decide)).trans rfl),
     (h c Cert.ReferenceIdeal.main_arg5).trans ((Cert.ReferenceIdeal.Kept.kept_all _ Cert.ReferenceIdeal.main_arg5 (by decide)).trans rfl),
     (h c Cert.ReferenceIdeal.main_arg6).trans ((Cert.ReferenceIdeal.Kept.kept_all _ Cert.ReferenceIdeal.main_arg6 (by decide)).trans rfl),
     (h c Cert.ReferenceIdeal.main_arg7).trans ((Cert.ReferenceIdeal.Kept.kept_all _ Cert.ReferenceIdeal.main_arg7 (by decide)).trans rfl),
     (h c Cert.ReferenceIdeal.main_arg8).trans ((Cert.ReferenceIdeal.Kept.kept_all _ Cert.ReferenceIdeal.main_arg8 (by decide)).trans rfl),
     (h c Cert.ReferenceIdeal.main_arg9).trans ((Cert.ReferenceIdeal.Kept.kept_all _ Cert.ReferenceIdeal.main_arg9 (by decide)).trans rfl),
     (h c Cert.ReferenceIdeal.main_arg10).trans ((Cert.ReferenceIdeal.Kept.kept_all _ Cert.ReferenceIdeal.main_arg10 (by decide)).trans rfl),
     (h c Cert.ReferenceIdeal.main_arg11).trans ((Cert.ReferenceIdeal.Kept.kept_all _ Cert.ReferenceIdeal.main_arg11 (by decide)).trans rfl),
     (h c Cert.ReferenceIdeal.main_arg12).trans ((Cert.ReferenceIdeal.Kept.kept_all _ Cert.ReferenceIdeal.main_arg12 (by decide)).trans rfl),
     (h c Cert.ReferenceIdeal.main_arg13).trans ((Cert.ReferenceIdeal.Kept.kept_all _ Cert.ReferenceIdeal.main_arg13 (by decide)).trans rfl),
     (h c Cert.ReferenceIdeal.main_arg14).trans ((Cert.ReferenceIdeal.Kept.kept_all _ Cert.ReferenceIdeal.main_arg14 (by decide)).trans rfl),
     (h c Cert.ReferenceIdeal.main_arg15).trans ((Cert.ReferenceIdeal.Kept.kept_all _ Cert.ReferenceIdeal.main_arg15 (by decide)).trans rfl),
     (h c Cert.ReferenceIdeal.main_arg16).trans ((Cert.ReferenceIdeal.Kept.kept_all _ Cert.ReferenceIdeal.main_arg16 (by decide)).trans rfl),
     (h c Cert.ReferenceIdeal.main_arg17).trans ((Cert.ReferenceIdeal.Kept.kept_all _ Cert.ReferenceIdeal.main_arg17 (by decide)).trans rfl),
     (h c Cert.ReferenceIdeal.main_arg18).trans ((Cert.ReferenceIdeal.Kept.kept_all _ Cert.ReferenceIdeal.main_arg18 (by decide)).trans rfl),
     (h c Cert.ReferenceIdeal.main_arg19).trans ((Cert.ReferenceIdeal.Kept.kept_all _ Cert.ReferenceIdeal.main_arg19 (by decide)).trans rfl),
     (h c Cert.ReferenceIdeal.main_arg20).trans ((Cert.ReferenceIdeal.Kept.kept_all _ Cert.ReferenceIdeal.main_arg20 (by decide)).trans rfl),
     (h c Cert.ReferenceIdeal.main_arg21).trans ((Cert.ReferenceIdeal.Kept.kept_all _ Cert.ReferenceIdeal.main_arg21 (by decide)).trans rfl),
     (h c Cert.ReferenceIdeal.main_arg22).trans ((Cert.ReferenceIdeal.Kept.kept_all _ Cert.ReferenceIdeal.main_arg22 (by decide)).trans rfl),
     (h c Cert.ReferenceIdeal.main_arg23).trans ((Cert.ReferenceIdeal.Kept.kept_all _ Cert.ReferenceIdeal.main_arg23 (by decide)).trans rfl),
     (h c Cert.ReferenceIdeal.main_arg24).trans ((Cert.ReferenceIdeal.Kept.kept_all _ Cert.ReferenceIdeal.main_arg24 (by decide)).trans rfl),
     (h c Cert.ReferenceIdeal.main_arg25).trans ((Cert.ReferenceIdeal.Kept.kept_all _ Cert.ReferenceIdeal.main_arg25 (by decide)).trans rfl),
     (h c Cert.ReferenceIdeal.main_arg26).trans ((Cert.ReferenceIdeal.Kept.kept_all _ Cert.ReferenceIdeal.main_arg26 (by decide)).trans rfl),
     (h c Cert.ReferenceIdeal.main_arg27).trans ((Cert.ReferenceIdeal.Kept.kept_all _ Cert.ReferenceIdeal.main_arg27 (by decide)).trans rfl),
     (h c Cert.ReferenceIdeal.main_arg28).trans ((Cert.ReferenceIdeal.Kept.kept_all _ Cert.ReferenceIdeal.main_arg28 (by decide)).trans rfl),
     (h c Cert.ReferenceIdeal.main_arg29).trans ((Cert.ReferenceIdeal.Kept.kept_all _ Cert.ReferenceIdeal.main_arg29 (by decide)).trans rfl),
     (h c Cert.ReferenceIdeal.main_arg30).trans ((Cert.ReferenceIdeal.Kept.kept_all _ Cert.ReferenceIdeal.main_arg30 (by decide)).trans rfl),
     (h c Cert.ReferenceIdeal.main_arg31).trans ((Cert.ReferenceIdeal.Kept.kept_all _ Cert.ReferenceIdeal.main_arg31 (by decide)).trans rfl),
     (h c Cert.ReferenceIdeal.main_arg32).trans ((Cert.ReferenceIdeal.Kept.kept_all _ Cert.ReferenceIdeal.main_arg32 (by decide)).trans rfl),
     (h c Cert.ReferenceIdeal.main_arg33).trans ((Cert.ReferenceIdeal.Kept.kept_all _ Cert.ReferenceIdeal.main_arg33 (by decide)).trans rfl),
     (h c Cert.ReferenceIdeal.main_arg34).trans ((Cert.ReferenceIdeal.Kept.kept_all _ Cert.ReferenceIdeal.main_arg34 (by decide)).trans rfl),
     (h c Cert.ReferenceIdeal.main_arg35).trans ((Cert.ReferenceIdeal.Kept.kept_all _ Cert.ReferenceIdeal.main_arg35 (by decide)).trans rfl),
     (h c Cert.ReferenceIdeal.main_arg36).trans ((Cert.ReferenceIdeal.Kept.kept_all _ Cert.ReferenceIdeal.main_arg36 (by decide)).trans rfl),
     (h c Cert.ReferenceIdeal.main_arg37).trans ((Cert.ReferenceIdeal.Kept.kept_all _ Cert.ReferenceIdeal.main_arg37 (by decide)).trans rfl),
     (h c Cert.ReferenceIdeal.main_arg38).trans ((Cert.ReferenceIdeal.Kept.kept_all _ Cert.ReferenceIdeal.main_arg38 (by decide)).trans rfl),
     (h c Cert.ReferenceIdeal.main_arg39).trans ((Cert.ReferenceIdeal.Kept.kept_all _ Cert.ReferenceIdeal.main_arg39 (by decide)).trans rfl),
     (h c Cert.ReferenceIdeal.main_arg40).trans ((Cert.ReferenceIdeal.Kept.kept_all _ Cert.ReferenceIdeal.main_arg40 (by decide)).trans rfl),
     (h c Cert.ReferenceIdeal.main_arg41).trans ((Cert.ReferenceIdeal.Kept.kept_all _ Cert.ReferenceIdeal.main_arg41 (by decide)).trans rfl)⟩)
    (Cert.ReferenceIdeal.Folded.run m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
